-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)) →
    ∃ (v0 : (c : Dev Cert.KernelIdeal.nD) → Buf (Elt Ideal) ((c.tc : Thread Cert.KernelIdeal.nD Cert.KernelIdeal.τ).loc Cert.KernelIdeal.main_v116)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v116) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v195) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S384x128 : Shape := ⟨2, ![384, 128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S384x128 : S_.BroadcastsInDim S384x128 (![] : Fin 0 → Fin S384x128.rank)
  reducesTo_S384x128_S_d0_1 : S384x128.ReducesTo [0, 1] S_

variable [Facts]

def fn_part6 {F : FTy → Type} [FloatOps F] (main_v98 : IVec S_ 1) (main_v101 : IVec S128 1) (main_c_39 : IVec S_ 1) : IVec S_ 1 :=
  let main_v102 : IVec S_ 1 := (fun x v => Host.reduce IntOp.andi x v reducesTo_S128_S_d0 h_S_) main_v101 main_c_39
  let main_v103 : IVec S_ 1 := andi main_v98 main_v102
  main_v103

def fn_part5 {F : FTy → Type} [FloatOps F] (main_arg20 : FVec F S128 .f32) (main_arg21 : FVec F S384x128 .f32) (main_arg22 : FVec F S128 .f32) (main_v83 : IVec S_ 1) (main_v84 : FVec F S128 .f32) (main_cst_32 : FVec F S_ .f32) : IVec S_ 1 :=
  let main_v85 : FVec F S128 .f32 := broadcastInDim S128 ![] bcast_S_S128 main_cst_32
  let main_v86 : IVec S128 1 := cmpf .olt main_v84 main_v85
  let main_c_33 : IVec S_ 1 := constantI S_ 1 1#1
  let main_v87 : IVec S_ 1 := (fun x v => Host.reduce IntOp.andi x v reducesTo_S128_S_d0 h_S_) main_v86 main_c_33
  let main_v88 : IVec S_ 1 := andi main_v83 main_v87
  let main_v89 : FVec F S128 .f32 := Host.absf main_arg20
  let main_cst_34 : FVec F S_ .f32 := constant S_ .f32 0x7F800000#32
  let main_v90 : FVec F S128 .f32 := broadcastInDim S128 ![] bcast_S_S128 main_cst_34
  let main_v91 : IVec S128 1 := cmpf .olt main_v89 main_v90
  let main_c_35 : IVec S_ 1 := constantI S_ 1 1#1
  let main_v92 : IVec S_ 1 := (fun x v => Host.reduce IntOp.andi x v reducesTo_S128_S_d0 h_S_) main_v91 main_c_35
  let main_v93 : IVec S_ 1 := andi main_v88 main_v92
  let main_v94 : FVec F S384x128 .f32 := Host.absf main_arg21
  let main_cst_36 : FVec F S_ .f32 := constant S_ .f32 0x7F800000#32
  let main_v95 : FVec F S384x128 .f32 := broadcastInDim S384x128 ![] bcast_S_S384x128 main_cst_36
  let main_v96 : IVec S384x128 1 := cmpf .olt main_v94 main_v95
  let main_c_37 : IVec S_ 1 := constantI S_ 1 1#1
  let main_v97 : IVec S_ 1 := (fun x v => Host.reduce IntOp.andi x v reducesTo_S384x128_S_d0_1 h_S_) main_v96 main_c_37
  let main_v98 : IVec S_ 1 := andi main_v93 main_v97
  let main_v99 : FVec F S128 .f32 := Host.absf main_arg22
  let main_cst_38 : FVec F S_ .f32 := constant S_ .f32 0x7F800000#32
  let main_v100 : FVec F S128 .f32 := broadcastInDim S128 ![] bcast_S_S128 main_cst_38
  let main_v101 : IVec S128 1 := cmpf .olt main_v99 main_v100
  let main_c_39 : IVec S_ 1 := constantI S_ 1 1#1
  fn_part6 (F := F) main_v98 main_v101 main_c_39

def fn_part4 {F : FTy → Type} [FloatOps F] (main_arg16 : FVec F S128 .f32) (main_arg17 : FVec F S128x128 .f32) (main_arg18 : FVec F S128 .f32) (main_arg19 : FVec F S128 .f32) (main_arg20 : FVec F S128 .f32) (main_arg21 : FVec F S384x128 .f32) (main_arg22 : FVec F S128 .f32) (main_v63 : IVec S_ 1) (main_v67 : IVec S_ 1) : IVec S_ 1 :=
  let main_v68 : IVec S_ 1 := andi main_v63 main_v67
  let main_v69 : FVec F S128 .f32 := Host.absf main_arg16
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  let main_v74 : FVec F S128x128 .f32 := Host.absf main_arg17
  let main_cst_28 : FVec F S_ .f32 := constant S_ .f32 0x7F800000#32
  let main_v75 : FVec F S128x128 .f32 := broadcastInDim S128x128 ![] bcast_S_S128x128 main_cst_28
  let main_v76 : IVec S128x128 1 := cmpf .olt main_v74 main_v75
  let main_c_29 : IVec S_ 1 := constantI S_ 1 1#1
  let main_v77 : IVec S_ 1 := (fun x v => Host.reduce IntOp.andi x v reducesTo_S128x128_S_d0_1 h_S_) main_v76 main_c_29
  let main_v78 : IVec S_ 1 := andi main_v73 main_v77
  let main_v79 : FVec F S128 .f32 := Host.absf main_arg18
  let main_cst_30 : FVec F S_ .f32 := constant S_ .f32 0x7F800000#32
  let main_v80 : FVec F S128 .f32 := broadcastInDim S128 ![] bcast_S_S128 main_cst_30
  let main_v81 : IVec S128 1 := cmpf .olt main_v79 main_v80
  let main_c_31 : IVec S_ 1 := constantI S_ 1 1#1
  let main_v82 : IVec S_ 1 := (fun x v => Host.reduce IntOp.andi x v reducesTo_S128_S_d0 h_S_) main_v81 main_c_31
  let main_v83 : IVec S_ 1 := andi main_v78 main_v82
  let main_v84 : FVec F S128 .f32 := Host.absf main_arg19
  let main_cst_32 : FVec F S_ .f32 := constant S_ .f32 0x7F800000#32
  fn_part5 (F := F) main_arg20 main_arg21 main_arg22 main_v83 main_v84 main_cst_32

def fn_part3 {F : FTy → Type} [FloatOps F] (main_arg13 : FVec F S128 .f32) (main_arg14 : FVec F S128 .f32) (main_arg15 : FVec F S128x128 .f32) (main_arg16 : FVec F S128 .f32) (main_arg17 : FVec F S128x128 .f32) (main_arg18 : FVec F S128 .f32) (main_arg19 : FVec F S128 .f32) (main_arg20 : FVec F S128 .f32) (main_arg21 : FVec F S384x128 .f32) (main_arg22 : FVec F S128 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128 .f32 := Host.absf main_arg13
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128 .f32 := Host.absf main_arg14
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128x128 .f32 := Host.absf main_arg15
  let main_cst_24 : FVec F S_ .f32 := constant S_ .f32 0x7F800000#32
  let main_v65 : FVec F S128x128 .f32 := broadcastInDim S128x128 ![] bcast_S_S128x128 main_cst_24
  let main_v66 : IVec S128x128 1 := cmpf .olt main_v64 main_v65
  let main_c_25 : IVec S_ 1 := constantI S_ 1 1#1
  let main_v67 : IVec S_ 1 := (fun x v => Host.reduce IntOp.andi x v reducesTo_S128x128_S_d0_1 h_S_) main_v66 main_c_25
  fn_part4 (F := F) main_arg16 main_arg17 main_arg18 main_arg19 main_arg20 main_arg21 main_arg22 main_v63 main_v67

def fn_part2 {F : FTy → Type} [FloatOps F] (main_arg9 : FVec F S128x128 .f32) (main_arg10 : FVec F S128 .f32) (main_arg11 : FVec F S128x128 .f32) (main_arg12 : FVec F S128 .f32) (main_arg13 : FVec F S128 .f32) (main_arg14 : FVec F S128 .f32) (main_arg15 : FVec F S128x128 .f32) (main_arg16 : FVec F S128 .f32) (main_arg17 : FVec F S128x128 .f32) (main_arg18 : FVec F S128 .f32) (main_arg19 : FVec F S128 .f32) (main_arg20 : FVec F S128 .f32) (main_arg21 : FVec F S384x128 .f32) (main_arg22 : FVec F S128 .f32) (main_v33 : IVec S_ 1) : IVec S_ 1 :=
  let main_v34 : FVec F S128x128 .f32 := Host.absf main_arg9
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x128 .f32 := Host.absf main_arg11
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128 .f32 := Host.absf main_arg12
  let main_cst_18 : FVec F S_ .f32 := constant S_ .f32 0x7F800000#32
  let main_v50 : FVec F S128 .f32 := broadcastInDim S128 ![] bcast_S_S128 main_cst_18
  fn_part3 (F := F) main_arg13 main_arg14 main_arg15 main_arg16 main_arg17 main_arg18 main_arg19 main_arg20 main_arg21 main_arg22 main_v48 main_v49 main_v50

def fn_part1 {F : FTy → Type} [FloatOps F] (main_arg6 : FVec F S128 .f32) (main_arg7 : FVec F S128 .f32) (main_arg8 : FVec F S128 .f32) (main_arg9 : FVec F S128x128 .f32) (main_arg10 : FVec F S128 .f32) (main_arg11 : FVec F S128x128 .f32) (main_arg12 : FVec F S128 .f32) (main_arg13 : FVec F S128 .f32) (main_arg14 : FVec F S128 .f32) (main_arg15 : FVec F S128x128 .f32) (main_arg16 : FVec F S128 .f32) (main_arg17 : FVec F S128x128 .f32) (main_arg18 : FVec F S128 .f32) (main_arg19 : FVec F S128 .f32) (main_arg20 : FVec F S128 .f32) (main_arg21 : FVec F S384x128 .f32) (main_arg22 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_arg11 main_arg12 main_arg13 main_arg14 main_arg15 main_arg16 main_arg17 main_arg18 main_arg19 main_arg20 main_arg21 main_arg22 main_v33

def fn {F : FTy → Type} [FloatOps F] (main_arg0 : FVec F S100000x128 .f32) (main_arg1 : IVec S2x1600000 32) (main_arg2 : IVec S100000 32) (main_arg3 : FVec F S128x128 .f32) (main_arg4 : FVec F S128 .f32) (main_arg5 : FVec F S128x128 .f32) (main_arg6 : FVec F S128 .f32) (main_arg7 : FVec F S128 .f32) (main_arg8 : FVec F S128 .f32) (main_arg9 : FVec F S128x128 .f32) (main_arg10 : FVec F S128 .f32) (main_arg11 : FVec F S128x128 .f32) (main_arg12 : FVec F S128 .f32) (main_arg13 : FVec F S128 .f32) (main_arg14 : FVec F S128 .f32) (main_arg15 : FVec F S128x128 .f32) (main_arg16 : FVec F S128 .f32) (main_arg17 : FVec F S128x128 .f32) (main_arg18 : FVec F S128 .f32) (main_arg19 : FVec F S128 .f32) (main_arg20 : FVec F S128 .f32) (main_arg21 : FVec F S384x128 .f32) (main_arg22 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_arg9 main_arg10 main_arg11 main_arg12 main_arg13 main_arg14 main_arg15 main_arg16 main_arg17 main_arg18 main_arg19 main_arg20 main_arg21 main_arg22 main_v13 main_v16
-- ==== Kernel.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S384x128 : Shape := ⟨2, ![384, 128]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S1x128 : Shape := ⟨2, ![1, 128]⟩
abbrev S2000x128 : Shape := ⟨2, ![2000, 128]⟩
abbrev S512x128 : Shape := ⟨2, ![512, 128]⟩
abbrev S100000x1 : Shape := ⟨2, ![100000, 1]⟩
abbrev S512 : Shape := ⟨1, ![512]⟩
abbrev S512x1 : Shape := ⟨2, ![512, 1]⟩
abbrev S512x384 : Shape := ⟨2, ![512, 384]⟩

abbrev nBuf : Space → Nat
  | .hbm => 173
  | .vmem => 64
  | .smem => 0
  | _ => 0

abbrev hbmTy0_0 (i : Nat) : BufTy := match i % 128 with
  | 0 => ⟨S100000x128, .f32⟩
  | 1 => ⟨S2x1600000, .i32⟩
  | 2 => ⟨S100000, .i32⟩
  | 3 => ⟨S128x128, .f32⟩
  | 4 => ⟨S128, .f32⟩
  | 5 => ⟨S128x128, .f32⟩
  | 6 => ⟨S128, .f32⟩
  | 7 => ⟨S128, .f32⟩
  | 8 => ⟨S128, .f32⟩
  | 9 => ⟨S128x128, .f32⟩
  | 10 => ⟨S128, .f32⟩
  | 11 => ⟨S128x128, .f32⟩
  | 12 => ⟨S128, .f32⟩
  | 13 => ⟨S128, .f32⟩
  | 14 => ⟨S128, .f32⟩
  | 15 => ⟨S128x128, .f32⟩
  | 16 => ⟨S128, .f32⟩
  | 17 => ⟨S128x128, .f32⟩
  | 18 => ⟨S128, .f32⟩
  | 19 => ⟨S128, .f32⟩
  | 20 => ⟨S128, .f32⟩
  | 21 => ⟨S384x128, .f32⟩
  | 22 => ⟨S128, .f32⟩
  | 23 => ⟨S1x1600000, .i32⟩
  | 24 => ⟨S1600000, .i32⟩
  | 25 => ⟨S_, .i32⟩
  | 26 => ⟨S1600000, .i32⟩
  | 27 => ⟨S1600000, .i1⟩
  | 28 => ⟨S_, .i32⟩
  | 29 => ⟨S1600000, .i32⟩
  | 30 => ⟨S1600000, .i32⟩
  | 31 => ⟨S1600000, .i32⟩
  | 32 => ⟨S1600000x1, .i32⟩
  | 33 => ⟨S1600000x128, .f32⟩
  | 34 => ⟨S1x1600000, .i32⟩
  | 35 => ⟨S1600000, .i32⟩
  | 36 => ⟨S_, .f32⟩
  | 37 => ⟨S100000x128, .f32⟩
  | 38 => ⟨S1600000x1, .i32⟩
  | 39 => ⟨S100000x128, .f32⟩
  | 40 => ⟨S1x128, .f32⟩
  | 41 => ⟨S1x128, .f32⟩
  | 42 => ⟨S100000x128, .f32⟩
  | 43 => ⟨S1x128, .f32⟩
  | 44 => ⟨S1x128, .f32⟩
  | 45 => ⟨S_, .f32⟩
  | 46 => ⟨S1x128, .f32⟩
  | 47 => ⟨S1x128, .f32⟩
  | 48 => ⟨S_, .f32⟩
  | 49 => ⟨S1x128, .f32⟩
  | 50 => ⟨S1x128, .f32⟩
  | 51 => ⟨S1x128, .f32⟩
  | 52 => ⟨S1x128, .f32⟩
  | 53 => ⟨S1x128, .f32⟩
  | 54 => ⟨S1x128, .f32⟩
  | 55 => ⟨S100000x128, .f32⟩
  | 56 => ⟨S1x1600000, .i32⟩
  | 57 => ⟨S1600000, .i32⟩
  | 58 => ⟨S_, .i32⟩
  | 59 => ⟨S1600000, .i32⟩
  | 60 => ⟨S1600000, .i1⟩
  | 61 => ⟨S_, .i32⟩
  | 62 => ⟨S1600000, .i32⟩
  | 63 => ⟨S1600000, .i32⟩
  | 64 => ⟨S1600000, .i32⟩
  | 65 => ⟨S1600000x1, .i32⟩
  | 66 => ⟨S1600000x128, .f32⟩
  | 67 => ⟨S1x1600000, .i32⟩
  | 68 => ⟨S1600000, .i32⟩
  | 69 => ⟨S_, .f32⟩
  | 70 => ⟨S100000x128, .f32⟩
  | 71 => ⟨S1600000x1, .i32⟩
  | 72 => ⟨S100000x128, .f32⟩
  | 73 => ⟨S1x128, .f32⟩
  | 74 => ⟨S1x128, .f32⟩
  | 75 => ⟨S100000x128, .f32⟩
  | 76 => ⟨S1x128, .f32⟩
  | 77 => ⟨S1x128, .f32⟩
  | 78 => ⟨S_, .f32⟩
  | 79 => ⟨S1x128, .f32⟩
  | 80 => ⟨S1x128, .f32⟩
  | 81 => ⟨S_, .f32⟩
  | 82 => ⟨S1x128, .f32⟩
  | 83 => ⟨S1x128, .f32⟩
  | 84 => ⟨S1x128, .f32⟩
  | 85 => ⟨S1x128, .f32⟩
  | 86 => ⟨S1x128, .f32⟩
  | 87 => ⟨S1x128, .f32⟩
  | 88 => ⟨S100000x128, .f32⟩
  | 89 => ⟨S1x1600000, .i32⟩
  | 90 => ⟨S1600000, .i32⟩
  | 91 => ⟨S_, .i32⟩
  | 92 => ⟨S1600000, .i32⟩
  | 93 => ⟨S1600000, .i1⟩
  | 94 => ⟨S_, .i32⟩
  | 95 => ⟨S1600000, .i32⟩
  | 96 => ⟨S1600000, .i32⟩
  | 97 => ⟨S1600000, .i32⟩
  | 98 => ⟨S1600000x1, .i32⟩
  | 99 => ⟨S1600000x128, .f32⟩
  | 100 => ⟨S1x1600000, .i32⟩
  | 101 => ⟨S1600000, .i32⟩
  | 102 => ⟨S_, .f32⟩
  | 103 => ⟨S100000x128, .f32⟩
  | 104 => ⟨S1600000x1, .i32⟩
  | 105 => ⟨S100000x128, .f32⟩
  | 106 => ⟨S1x128, .f32⟩
  | 107 => ⟨S1x128, .f32⟩
  | 108 => ⟨S100000x128, .f32⟩
  | 109 => ⟨S1x128, .f32⟩
  | 110 => ⟨S1x128, .f32⟩
  | 111 => ⟨S_, .f32⟩
  | 112 => ⟨S1x128, .f32⟩
  | 113 => ⟨S1x128, .f32⟩
  | 114 => ⟨S_, .f32⟩
  | 115 => ⟨S1x128, .f32⟩
  | 116 => ⟨S1x128, .f32⟩
  | 117 => ⟨S1x128, .f32⟩
  | 118 => ⟨S1x128, .f32⟩
  | 119 => ⟨S1x128, .f32⟩
  | 120 => ⟨S1x128, .f32⟩
  | 121 => ⟨S100000x128, .f32⟩
  | 122 => ⟨S_, .f32⟩
  | 123 => ⟨S512x128, .f32⟩
  | 124 => ⟨S100000x1, .i32⟩
  | 125 => ⟨S512x128, .f32⟩
  | 126 => ⟨S_, .f32⟩
  | 127 => ⟨S100000, .f32⟩
  | _ => ⟨S100000x128, .f32⟩

abbrev hbmTy0_1 (i : Nat) : BufTy := match i % 128 with
  | 0 => ⟨S_, .f32⟩
  | 1 => ⟨S512, .f32⟩
  | 2 => ⟨S100000x1, .i32⟩
  | 3 => ⟨S512, .f32⟩
  | 4 => ⟨S_, .f32⟩
  | 5 => ⟨S512, .f32⟩
  | 6 => ⟨S512, .f32⟩
  | 7 => ⟨S512x1, .f32⟩
  | 8 => ⟨S512x128, .f32⟩
  | 9 => ⟨S512x128, .f32⟩
  | 10 => ⟨S_, .f32⟩
  | 11 => ⟨S512x128, .f32⟩
  | 12 => ⟨S100000x1, .i32⟩
  | 13 => ⟨S512x128, .f32⟩
  | 14 => ⟨S_, .f32⟩
  | 15 => ⟨S100000, .f32⟩
  | 16 => ⟨S_, .f32⟩
  | 17 => ⟨S512, .f32⟩
  | 18 => ⟨S100000x1, .i32⟩
  | 19 => ⟨S512, .f32⟩
  | 20 => ⟨S_, .f32⟩
  | 21 => ⟨S512, .f32⟩
  | 22 => ⟨S512, .f32⟩
  | 23 => ⟨S512x1, .f32⟩
  | 24 => ⟨S512x128, .f32⟩
  | 25 => ⟨S512x128, .f32⟩
  | 26 => ⟨S_, .f32⟩
  | 27 => ⟨S512x128, .f32⟩
  | 28 => ⟨S100000x1, .i32⟩
  | 29 => ⟨S512x128, .f32⟩
  | 30 => ⟨S_, .f32⟩
  | 31 => ⟨S100000, .f32⟩
  | 32 => ⟨S_, .f32⟩
  | 33 => ⟨S512, .f32⟩
  | 34 => ⟨S100000x1, .i32⟩
  | 35 => ⟨S512, .f32⟩
  | 36 => ⟨S_, .f32⟩
  | 37 => ⟨S512, .f32⟩
  | 38 => ⟨S512, .f32⟩
  | 39 => ⟨S512x1, .f32⟩
  | 40 => ⟨S512x128, .f32⟩
  | 41 => ⟨S512x128, .f32⟩
  | 42 => ⟨S512x384, .f32⟩
  | 43 => ⟨S1x128, .f32⟩
  | 44 => ⟨S512x128, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S128x128, .f32⟩
  | .local _ .vmem, ⟨5, _⟩ => ⟨S1x128, .f32⟩
  | .local _ .vmem, ⟨6, _⟩ => ⟨S128x128, .f32⟩
  | .local _ .vmem, ⟨7, _⟩ => ⟨S1x128, .f32⟩
  | .local _ .vmem, ⟨8, _⟩ => ⟨S2000x128, .f32⟩
  | .local _ .vmem, ⟨9, _⟩ => ⟨S2000x128, .f32⟩
  | .local _ .vmem, ⟨10, _⟩ => ⟨S1x128, .f32⟩
  | .local _ .vmem, ⟨11, _⟩ => ⟨S1x128, .f32⟩
  | .local _ .vmem, ⟨12, _⟩ => ⟨S2000x128, .f32⟩
  | .local _ .vmem, ⟨13, _⟩ => ⟨S2000x128, .f32⟩
  | .local _ .vmem, ⟨14, _⟩ => ⟨S1x128, .f32⟩
  | .local _ .vmem, ⟨15, _⟩ => ⟨S1x128, .f32⟩
  | .local _ .vmem, ⟨16, _⟩ => ⟨S1x128, .f32⟩
  | .local _ .vmem, ⟨17, _⟩ => ⟨S1x128, .f32⟩
  | .local _ .vmem, ⟨18, _⟩ => ⟨S2000x128, .f32⟩
  | .local _ .vmem, ⟨19, _⟩ => ⟨S2000x128, .f32⟩
  | .local _ .vmem, ⟨20, _⟩ => ⟨S2000x128, .f32⟩
  | .local _ .vmem, ⟨21, _⟩ => ⟨S2000x128, .f32⟩
  | .local _ .vmem, ⟨22, _⟩ => ⟨S2000x128, .f32⟩
  | .local _ .vmem, ⟨23, _⟩ => ⟨S2000x128, .f32⟩
  | .local _ .vmem, ⟨24, _⟩ => ⟨S128x128, .f32⟩
  | .local _ .vmem, ⟨25, _⟩ => ⟨S1x128, .f32⟩
  | .local _ .vmem, ⟨26, _⟩ => ⟨S128x128, .f32⟩
  | .local _ .vmem, ⟨27, _⟩ => ⟨S1x128, .f32⟩
  | .local _ .vmem, ⟨28, _⟩ => ⟨S2000x128, .f32⟩
  | .local _ .vmem, ⟨29, _⟩ => ⟨S2000x128, .f32⟩
  | .local _ .vmem, ⟨30, _⟩ => ⟨S1x128, .f32⟩
  | .local _ .vmem, ⟨31, _⟩ => ⟨S1x128, .f32⟩
  | .local _ .vmem, ⟨32, _⟩ => ⟨S2000x128, .f32⟩
  | .local _ .vmem, ⟨33, _⟩ => ⟨S2000x128, .f32⟩
  | .local _ .vmem, ⟨34, _⟩ => ⟨S1x128, .f32⟩
  | .local _ .vmem, ⟨35, _⟩ => ⟨S1x128, .f32⟩
  | .local _ .vmem, ⟨36, _⟩ => ⟨S1x128, .f32⟩
  | .local _ .vmem, ⟨37, _⟩ => ⟨S1x128, .f32⟩
  | .local _ .vmem, ⟨38, _⟩ => ⟨S2000x128, .f32⟩
  | .local _ .vmem, ⟨39, _⟩ => ⟨S2000x128, .f32⟩
  | .local _ .vmem, ⟨40, _⟩ => ⟨S2000x128, .f32⟩
  | .local _ .vmem, ⟨41, _⟩ => ⟨S2000x128, .f32⟩
  | .local _ .vmem, ⟨42, _⟩ => ⟨S2000x128, .f32⟩
  | .local _ .vmem, ⟨43, _⟩ => ⟨S2000x128, .f32⟩
  | .local _ .vmem, ⟨44, _⟩ => ⟨S128x128, .f32⟩
  | .local _ .vmem, ⟨45, _⟩ => ⟨S1x128, .f32⟩
  | .local _ .vmem, ⟨46, _⟩ => ⟨S128x128, .f32⟩
  | .local _ .vmem, ⟨47, _⟩ => ⟨S1x128, .f32⟩
  | .local _ .vmem, ⟨48, _⟩ => ⟨S2000x128, .f32⟩
  | .local _ .vmem, ⟨49, _⟩ => ⟨S2000x128, .f32⟩
  | .local _ .vmem, ⟨50, _⟩ => ⟨S1x128, .f32⟩
  | .local _ .vmem, ⟨51, _⟩ => ⟨S1x128, .f32⟩
  | .local _ .vmem, ⟨52, _⟩ => ⟨S2000x128, .f32⟩
  | .local _ .vmem, ⟨53, _⟩ => ⟨S2000x128, .f32⟩
  | .local _ .vmem, ⟨54, _⟩ => ⟨S1x128, .f32⟩
  | .local _ .vmem, ⟨55, _⟩ => ⟨S1x128, .f32⟩
  | .local _ .vmem, ⟨56, _⟩ => ⟨S1x128, .f32⟩
  | .local _ .vmem, ⟨57, _⟩ => ⟨S1x128, .f32⟩
  | .local _ .vmem, ⟨58, _⟩ => ⟨S2000x128, .f32⟩
  | .local _ .vmem, ⟨59, _⟩ => ⟨S2000x128, .f32⟩
  | .local _ .vmem, ⟨60, _⟩ => ⟨S512x384, .f32⟩
  | .local _ .vmem, ⟨61, _⟩ => ⟨S384x128, .f32⟩
  | .local _ .vmem, ⟨62, _⟩ => ⟨S1x128, .f32⟩
  | .local _ .vmem, ⟨63, _⟩ => ⟨S512x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | _, _ => false

abbrev semScoped : Fin 0 → Bool
  | ⟨_, h⟩ => absurd h (Nat.not_lt_zero _)

abbrev dmaSemScoped : Fin 64 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | _ => false

abbrev sig : RefSig :=
  ofTc nBuf bufTy 0 64 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_v0 : Ref sig .tc := ⟨.hbm, 23, rfl⟩
abbrev main_v1 : Ref sig .tc := ⟨.hbm, 24, rfl⟩
abbrev main_c : Ref sig .tc := ⟨.hbm, 25, rfl⟩
abbrev main_v2 : Ref sig .tc := ⟨.hbm, 26, rfl⟩
abbrev main_v3 : Ref sig .tc := ⟨.hbm, 27, rfl⟩
abbrev main_c_0 : Ref sig .tc := ⟨.hbm, 28, rfl⟩
abbrev main_v4 : Ref sig .tc := ⟨.hbm, 29, rfl⟩
abbrev main_v5 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_cst : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_v16_0 : Ref sig .tc := ⟨.hbm, 42, rfl⟩
abbrev main_v16_1 : Ref sig .tc := ⟨.hbm, 43, rfl⟩
abbrev main_v16_2 : Ref sig .tc := ⟨.hbm, 44, rfl⟩
abbrev main_cst_1 : Ref sig .tc := ⟨.hbm, 45, rfl⟩
abbrev main_v17 : Ref sig .tc := ⟨.hbm, 46, rfl⟩
abbrev main_v18 : Ref sig .tc := ⟨.hbm, 47, rfl⟩
abbrev main_cst_2 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩
abbrev main_c_3 : Ref sig .tc := ⟨.hbm, 58, rfl⟩
abbrev main_v28 : Ref sig .tc := ⟨.hbm, 59, rfl⟩
abbrev main_v29 : Ref sig .tc := ⟨.hbm, 60, rfl⟩
abbrev main_c_4 : Ref sig .tc := ⟨.hbm, 61, rfl⟩
abbrev main_v30 : Ref sig .tc := ⟨.hbm, 62, rfl⟩
abbrev main_v31 : Ref sig .tc := ⟨.hbm, 63, rfl⟩
abbrev main_v32 : Ref sig .tc := ⟨.hbm, 64, rfl⟩
abbrev main_v33 : Ref sig .tc := ⟨.hbm, 65, rfl⟩
abbrev main_v34 : Ref sig .tc := ⟨.hbm, 66, rfl⟩
abbrev main_v35 : Ref sig .tc := ⟨.hbm, 67, rfl⟩
abbrev main_v36 : Ref sig .tc := ⟨.hbm, 68, rfl⟩
abbrev main_cst_5 : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_v42_0 : Ref sig .tc := ⟨.hbm, 75, rfl⟩
abbrev main_v42_1 : Ref sig .tc := ⟨.hbm, 76, rfl⟩
abbrev main_v42_2 : Ref sig .tc := ⟨.hbm, 77, rfl⟩
abbrev main_cst_6 : Ref sig .tc := ⟨.hbm, 78, rfl⟩
abbrev main_v43 : Ref sig .tc := ⟨.hbm, 79, rfl⟩
abbrev main_v44 : Ref sig .tc := ⟨.hbm, 80, rfl⟩
abbrev main_cst_7 : Ref sig .tc := ⟨.hbm, 81, rfl⟩
abbrev main_v45 : Ref sig .tc := ⟨.hbm, 82, rfl⟩
abbrev main_v46 : Ref sig .tc := ⟨.hbm, 83, rfl⟩
abbrev main_v47 : Ref sig .tc := ⟨.hbm, 84, rfl⟩
abbrev main_v48 : Ref sig .tc := ⟨.hbm, 85, rfl⟩
abbrev main_v49 : Ref sig .tc := ⟨.hbm, 86, rfl⟩
abbrev main_v50 : Ref sig .tc := ⟨.hbm, 87, rfl⟩
abbrev main_v51 : Ref sig .tc := ⟨.hbm, 88, rfl⟩
abbrev main_v52 : Ref sig .tc := ⟨.hbm, 89, rfl⟩
abbrev main_v53 : Ref sig .tc := ⟨.hbm, 90, rfl⟩
abbrev main_c_8 : Ref sig .tc := ⟨.hbm, 91, rfl⟩
abbrev main_v54 : Ref sig .tc := ⟨.hbm, 92, rfl⟩
abbrev main_v55 : Ref sig .tc := ⟨.hbm, 93, rfl⟩
abbrev main_c_9 : Ref sig .tc := ⟨.hbm, 94, rfl⟩
abbrev main_v56 : Ref sig .tc := ⟨.hbm, 95, rfl⟩
abbrev main_v57 : Ref sig .tc := ⟨.hbm, 96, rfl⟩
abbrev main_v58 : Ref sig .tc := ⟨.hbm, 97, rfl⟩
abbrev main_v59 : Ref sig .tc := ⟨.hbm, 98, rfl⟩
abbrev main_v60 : Ref sig .tc := ⟨.hbm, 99, rfl⟩
abbrev main_v61 : Ref sig .tc := ⟨.hbm, 100, rfl⟩
abbrev main_v62 : Ref sig .tc := ⟨.hbm, 101, rfl⟩
abbrev main_cst_10 : Ref sig .tc := ⟨.hbm, 102, rfl⟩
abbrev main_v63 : Ref sig .tc := ⟨.hbm, 103, rfl⟩
abbrev main_v64 : Ref sig .tc := ⟨.hbm, 104, rfl⟩
abbrev main_v65 : Ref sig .tc := ⟨.hbm, 105, rfl⟩
abbrev main_v66 : Ref sig .tc := ⟨.hbm, 106, rfl⟩
abbrev main_v67 : Ref sig .tc := ⟨.hbm, 107, rfl⟩
abbrev main_v68_0 : Ref sig .tc := ⟨.hbm, 108, rfl⟩
abbrev main_v68_1 : Ref sig .tc := ⟨.hbm, 109, rfl⟩
abbrev main_v68_2 : Ref sig .tc := ⟨.hbm, 110, rfl⟩
abbrev main_cst_11 : Ref sig .tc := ⟨.hbm, 111, rfl⟩
abbrev main_v69 : Ref sig .tc := ⟨.hbm, 112, rfl⟩
abbrev main_v70 : Ref sig .tc := ⟨.hbm, 113, rfl⟩
abbrev main_cst_12 : Ref sig .tc := ⟨.hbm, 114, rfl⟩
abbrev main_v71 : Ref sig .tc := ⟨.hbm, 115, rfl⟩
abbrev main_v72 : Ref sig .tc := ⟨.hbm, 116, rfl⟩
abbrev main_v73 : Ref sig .tc := ⟨.hbm, 117, rfl⟩
abbrev main_v74 : Ref sig .tc := ⟨.hbm, 118, rfl⟩
abbrev main_v75 : Ref sig .tc := ⟨.hbm, 119, rfl⟩
abbrev main_v76 : Ref sig .tc := ⟨.hbm, 120, rfl⟩
abbrev main_v77 : Ref sig .tc := ⟨.hbm, 121, rfl⟩
abbrev main_cst_13 : Ref sig .tc := ⟨.hbm, 122, rfl⟩
abbrev main_v78 : Ref sig .tc := ⟨.hbm, 123, rfl⟩
abbrev main_v79 : Ref sig .tc := ⟨.hbm, 124, rfl⟩
abbrev main_v80 : Ref sig .tc := ⟨.hbm, 125, rfl⟩
abbrev main_cst_14 : Ref sig .tc := ⟨.hbm, 126, rfl⟩
abbrev main_v81 : Ref sig .tc := ⟨.hbm, 127, rfl⟩
abbrev main_cst_15 : Ref sig .tc := ⟨.hbm, 128, rfl⟩
abbrev main_v82 : Ref sig .tc := ⟨.hbm, 129, rfl⟩
abbrev main_v83 : Ref sig .tc := ⟨.hbm, 130, rfl⟩
abbrev main_v84 : Ref sig .tc := ⟨.hbm, 131, rfl⟩
abbrev main_cst_16 : Ref sig .tc := ⟨.hbm, 132, rfl⟩
abbrev main_v85 : Ref sig .tc := ⟨.hbm, 133, rfl⟩
abbrev main_v86 : Ref sig .tc := ⟨.hbm, 134, rfl⟩
abbrev main_v87 : Ref sig .tc := ⟨.hbm, 135, rfl⟩
abbrev main_v88 : Ref sig .tc := ⟨.hbm, 136, rfl⟩
abbrev main_v89 : Ref sig .tc := ⟨.hbm, 137, rfl⟩
abbrev main_cst_17 : Ref sig .tc := ⟨.hbm, 138, rfl⟩
abbrev main_v90 : Ref sig .tc := ⟨.hbm, 139, rfl⟩
abbrev main_v91 : Ref sig .tc := ⟨.hbm, 140, rfl⟩
abbrev main_v92 : Ref sig .tc := ⟨.hbm, 141, rfl⟩
abbrev main_cst_18 : Ref sig .tc := ⟨.hbm, 142, rfl⟩
abbrev main_v93 : Ref sig .tc := ⟨.hbm, 143, rfl⟩
abbrev main_cst_19 : Ref sig .tc := ⟨.hbm, 144, rfl⟩
abbrev main_v94 : Ref sig .tc := ⟨.hbm, 145, rfl⟩
abbrev main_v95 : Ref sig .tc := ⟨.hbm, 146, rfl⟩
abbrev main_v96 : Ref sig .tc := ⟨.hbm, 147, rfl⟩
abbrev main_cst_20 : Ref sig .tc := ⟨.hbm, 148, rfl⟩
abbrev main_v97 : Ref sig .tc := ⟨.hbm, 149, rfl⟩
abbrev main_v98 : Ref sig .tc := ⟨.hbm, 150, rfl⟩
abbrev main_v99 : Ref sig .tc := ⟨.hbm, 151, rfl⟩
abbrev main_v100 : Ref sig .tc := ⟨.hbm, 152, rfl⟩
abbrev main_v101 : Ref sig .tc := ⟨.hbm, 153, rfl⟩
abbrev main_cst_21 : Ref sig .tc := ⟨.hbm, 154, rfl⟩
abbrev main_v102 : Ref sig .tc := ⟨.hbm, 155, rfl⟩
abbrev main_v103 : Ref sig .tc := ⟨.hbm, 156, rfl⟩
abbrev main_v104 : Ref sig .tc := ⟨.hbm, 157, rfl⟩
abbrev main_cst_22 : Ref sig .tc := ⟨.hbm, 158, rfl⟩
abbrev main_v105 : Ref sig .tc := ⟨.hbm, 159, rfl⟩
abbrev main_cst_23 : Ref sig .tc := ⟨.hbm, 160, rfl⟩
abbrev main_v106 : Ref sig .tc := ⟨.hbm, 161, rfl⟩
abbrev main_v107 : Ref sig .tc := ⟨.hbm, 162, rfl⟩
abbrev main_v108 : Ref sig .tc := ⟨.hbm, 163, rfl⟩
abbrev main_cst_24 : Ref sig .tc := ⟨.hbm, 164, rfl⟩
abbrev main_v109 : Ref sig .tc := ⟨.hbm, 165, rfl⟩
abbrev main_v110 : Ref sig .tc := ⟨.hbm, 166, rfl⟩
abbrev main_v111 : Ref sig .tc := ⟨.hbm, 167, rfl⟩
abbrev main_v112 : Ref sig .tc := ⟨.hbm, 168, rfl⟩
abbrev main_v113 : Ref sig .tc := ⟨.hbm, 169, rfl⟩
abbrev main_v114 : Ref sig .tc := ⟨.hbm, 170, rfl⟩
abbrev main_v115 : Ref sig .tc := ⟨.hbm, 171, rfl⟩
abbrev main_v116 : Ref sig .tc := ⟨.hbm, 172, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg8_0 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg5_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg1_1 : Ref sig .tc := ⟨.vmem, 23, rfl⟩
abbrev cc2_stg2_0 : Ref sig .tc := ⟨.vmem, 24, rfl⟩
abbrev cc2_stg3_0 : Ref sig .tc := ⟨.vmem, 25, rfl⟩
abbrev cc2_stg4_0 : Ref sig .tc := ⟨.vmem, 26, rfl⟩
abbrev cc2_stg5_0 : Ref sig .tc := ⟨.vmem, 27, rfl⟩
abbrev cc2_stg6_0 : Ref sig .tc := ⟨.vmem, 28, rfl⟩
abbrev cc2_stg6_1 : Ref sig .tc := ⟨.vmem, 29, rfl⟩
abbrev cc2_stg7_0 : Ref sig .tc := ⟨.vmem, 30, rfl⟩
abbrev cc2_stg8_0 : Ref sig .tc := ⟨.vmem, 31, rfl⟩
abbrev cc3_stg0_0 : Ref sig .tc := ⟨.vmem, 32, rfl⟩
abbrev cc3_stg0_1 : Ref sig .tc := ⟨.vmem, 33, rfl⟩
abbrev cc3_stg1_0 : Ref sig .tc := ⟨.vmem, 34, rfl⟩
abbrev cc3_stg2_0 : Ref sig .tc := ⟨.vmem, 35, rfl⟩
abbrev cc3_stg3_0 : Ref sig .tc := ⟨.vmem, 36, rfl⟩
abbrev cc3_stg4_0 : Ref sig .tc := ⟨.vmem, 37, rfl⟩
abbrev cc3_stg5_0 : Ref sig .tc := ⟨.vmem, 38, rfl⟩
abbrev cc3_stg5_1 : Ref sig .tc := ⟨.vmem, 39, rfl⟩
abbrev cc4_stg0_0 : Ref sig .tc := ⟨.vmem, 40, rfl⟩
abbrev cc4_stg0_1 : Ref sig .tc := ⟨.vmem, 41, rfl⟩
abbrev cc4_stg1_0 : Ref sig .tc := ⟨.vmem, 42, rfl⟩
abbrev cc4_stg1_1 : Ref sig .tc := ⟨.vmem, 43, rfl⟩
abbrev cc4_stg2_0 : Ref sig .tc := ⟨.vmem, 44, rfl⟩
abbrev cc4_stg3_0 : Ref sig .tc := ⟨.vmem, 45, rfl⟩
abbrev cc4_stg4_0 : Ref sig .tc := ⟨.vmem, 46, rfl⟩
abbrev cc4_stg5_0 : Ref sig .tc := ⟨.vmem, 47, rfl⟩
abbrev cc4_stg6_0 : Ref sig .tc := ⟨.vmem, 48, rfl⟩
abbrev cc4_stg6_1 : Ref sig .tc := ⟨.vmem, 49, rfl⟩
abbrev cc4_stg7_0 : Ref sig .tc := ⟨.vmem, 50, rfl⟩
abbrev cc4_stg8_0 : Ref sig .tc := ⟨.vmem, 51, rfl⟩
abbrev cc5_stg0_0 : Ref sig .tc := ⟨.vmem, 52, rfl⟩
abbrev cc5_stg0_1 : Ref sig .tc := ⟨.vmem, 53, rfl⟩
abbrev cc5_stg1_0 : Ref sig .tc := ⟨.vmem, 54, rfl⟩
abbrev cc5_stg2_0 : Ref sig .tc := ⟨.vmem, 55, rfl⟩
abbrev cc5_stg3_0 : Ref sig .tc := ⟨.vmem, 56, rfl⟩
abbrev cc5_stg4_0 : Ref sig .tc := ⟨.vmem, 57, rfl⟩
abbrev cc5_stg5_0 : Ref sig .tc := ⟨.vmem, 58, rfl⟩
abbrev cc5_stg5_1 : Ref sig .tc := ⟨.vmem, 59, rfl⟩
abbrev cc6_stg0_0 : Ref sig .tc := ⟨.vmem, 60, rfl⟩
abbrev cc6_stg1_0 : Ref sig .tc := ⟨.vmem, 61, rfl⟩
abbrev cc6_stg2_0 : Ref sig .tc := ⟨.vmem, 62, rfl⟩
abbrev cc6_stg3_0 : Ref sig .tc := ⟨.vmem, 63, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem8_0 : DmaSem sig := 11
abbrev cc1_sem0_0 : DmaSem sig := 12
abbrev cc1_sem0_1 : DmaSem sig := 13
abbrev cc1_sem1_0 : DmaSem sig := 14
abbrev cc1_sem2_0 : DmaSem sig := 15
abbrev cc1_sem3_0 : DmaSem sig := 16
abbrev cc1_sem4_0 : DmaSem sig := 17
abbrev cc1_sem5_0 : DmaSem sig := 18
abbrev cc1_sem5_1 : DmaSem sig := 19
abbrev cc2_sem0_0 : DmaSem sig := 20
abbrev cc2_sem0_1 : DmaSem sig := 21
abbrev cc2_sem1_0 : DmaSem sig := 22
abbrev cc2_sem1_1 : DmaSem sig := 23
abbrev cc2_sem2_0 : DmaSem sig := 24
abbrev cc2_sem3_0 : DmaSem sig := 25
abbrev cc2_sem4_0 : DmaSem sig := 26
abbrev cc2_sem5_0 : DmaSem sig := 27
abbrev cc2_sem6_0 : DmaSem sig := 28
abbrev cc2_sem6_1 : DmaSem sig := 29
abbrev cc2_sem7_0 : DmaSem sig := 30
abbrev cc2_sem8_0 : DmaSem sig := 31
abbrev cc3_sem0_0 : DmaSem sig := 32
abbrev cc3_sem0_1 : DmaSem sig := 33
abbrev cc3_sem1_0 : DmaSem sig := 34
abbrev cc3_sem2_0 : DmaSem sig := 35
abbrev cc3_sem3_0 : DmaSem sig := 36
abbrev cc3_sem4_0 : DmaSem sig := 37
abbrev cc3_sem5_0 : DmaSem sig := 38
abbrev cc3_sem5_1 : DmaSem sig := 39
abbrev cc4_sem0_0 : DmaSem sig := 40
abbrev cc4_sem0_1 : DmaSem sig := 41
abbrev cc4_sem1_0 : DmaSem sig := 42
abbrev cc4_sem1_1 : DmaSem sig := 43
abbrev cc4_sem2_0 : DmaSem sig := 44
abbrev cc4_sem3_0 : DmaSem sig := 45
abbrev cc4_sem4_0 : DmaSem sig := 46
abbrev cc4_sem5_0 : DmaSem sig := 47
abbrev cc4_sem6_0 : DmaSem sig := 48
abbrev cc4_sem6_1 : DmaSem sig := 49
abbrev cc4_sem7_0 : DmaSem sig := 50
abbrev cc4_sem8_0 : DmaSem sig := 51
abbrev cc5_sem0_0 : DmaSem sig := 52
abbrev cc5_sem0_1 : DmaSem sig := 53
abbrev cc5_sem1_0 : DmaSem sig := 54
abbrev cc5_sem2_0 : DmaSem sig := 55
abbrev cc5_sem3_0 : DmaSem sig := 56
abbrev cc5_sem4_0 : DmaSem sig := 57
abbrev cc5_sem5_0 : DmaSem sig := 58
abbrev cc5_sem5_1 : DmaSem sig := 59
abbrev cc6_sem0_0 : DmaSem sig := 60
abbrev cc6_sem1_0 : DmaSem sig := 61
abbrev cc6_sem2_0 : DmaSem sig := 62
abbrev cc6_sem3_0 : DmaSem sig := 63

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S2000x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 1 → Memref sig .tc .vmem S1x128 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1x128 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S2000x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![50], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_7 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_8 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S2000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S2000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S128x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S128x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S1x128 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 2 → Memref sig .tc .vmem S2000x128 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

abbrev stage4_7 : Fin 1 → Memref sig .tc .vmem S1x128 .f32 := fun | 0 => Memref.whole cc4_stg7_0 | ⟨_ + 1, h⟩ => absurd h (Nat.not_lt.2 (Nat.le_add_left _ _))
abbrev sem4_7 : Fin 1 → DmaSem sig := fun | 0 => cc4_sem7_0 | ⟨_ + 1, h⟩ => absurd h (Nat.not_lt.2 (Nat.le_add_left _ _))
abbrev reads4_7 : Fin grid4.rank → Bool := ![false]

abbrev stage4_8 : Fin 1 → Memref sig .tc .vmem S1x128 .f32 := fun | 0 => Memref.whole cc4_stg8_0 | ⟨_ + 1, h⟩ => absurd h (Nat.not_lt.2 (Nat.le_add_left _ _))
abbrev sem4_8 : Fin 1 → DmaSem sig := fun | 0 => cc4_sem8_0 | ⟨_ + 1, h⟩ => absurd h (Nat.not_lt.2 (Nat.le_add_left _ _))
abbrev reads4_8 : Fin grid4.rank → Bool := ![false]

abbrev grid5 : Pipeline.Grid := ⟨1, ![50], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S2000x128 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev grid6 : Pipeline.Grid := ⟨1, ![1], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage6_0 : Fin 1 → Memref sig .tc .vmem S512x384 .f32 := fun | 0 => Memref.whole cc6_stg0_0 | ⟨_ + 1, h⟩ => absurd h (Nat.not_lt.2 (Nat.le_add_left _ _))
abbrev sem6_0 : Fin 1 → DmaSem sig := fun | 0 => cc6_sem0_0 | ⟨_ + 1, h⟩ => absurd h (Nat.not_lt.2 (Nat.le_add_left _ _))
abbrev reads6_0 : Fin grid6.rank → Bool := ![false]

abbrev stage6_1 : Fin 1 → Memref sig .tc .vmem S384x128 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x128 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S512x128 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

class Facts₀ : Prop where
  slices_S2x1600000_S1x1600000_0_0 : S2x1600000.Slices ![0, 0] S1x1600000
  shapeCasts_S1x1600000_S1600000 : S1x1600000.ShapeCasts S1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  slices_S2x1600000_S1x1600000_1_0 : S2x1600000.Slices ![1, 0] S1x1600000
  bcast_S_S100000x128 : S_.BroadcastsInDim S100000x128 (![] : Fin 0 → Fin S100000x128.rank)
  shapeCasts_S128_S1x128 : S128.ShapeCasts S1x128
  inb_S1x128_S1x128_0_0 : ∀ a, (![0, 0] : Fin 2 → Nat) a + S1x128.size a ≤ S1x128.size a
  h_S1x128 : 0 < S1x128.numel
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S1x128_S1x128 : S1x128.ShapeCasts S1x128
  broadcasts_S1x128_S2000x128 : S1x128.Broadcasts S2000x128
  reduces_S2000x128_S128 : S2000x128.Reduces [0] S128
  bcast_S_S1x128 : S_.BroadcastsInDim S1x128 (![] : Fin 0 → Fin S1x128.rank)
  bcast_S_S512x128 : S_.BroadcastsInDim S512x128 (![] : Fin 0 → Fin S512x128.rank)
  bcast_S100000_S100000x1_0 : S100000.BroadcastsInDim S100000x1 (![0] : Fin 1 → Fin S100000x1.rank)
  bcast_S_S100000 : S_.BroadcastsInDim S100000 (![] : Fin 0 → Fin S100000.rank)
  bcast_S_S512 : S_.BroadcastsInDim S512 (![] : Fin 0 → Fin S512.rank)
  bcast_S512_S512x1_0 : S512.BroadcastsInDim S512x1 (![0] : Fin 1 → Fin S512x1.rank)
  bcast_S512x1_S512x128_0_1 : S512x1.BroadcastsInDim S512x128 (![0, 1] : Fin 2 → Fin S512x128.rank)
  concatenates_S512x128_S512x128_S512x128_S512x384_d1 : Shape.Concatenates [S512x128, S512x128, S512x128] S512x384 1
  inb_S512x384_S512x384_0_0 : ∀ a, (![0, 0] : Fin 2 → Nat) a + S512x384.size a ≤ S512x384.size a
  h_S512x384 : 0 < S512x384.numel
  shapeCasts_S512x384_S512x384 : S512x384.ShapeCasts S512x384
  inb_S384x128_S384x128_0_0 : ∀ a, (![0, 0] : Fin 2 → Nat) a + S384x128.size a ≤ S384x128.size a
  h_S384x128 : 0 < S384x128.numel
  broadcasts_S1x128_S512x128 : S1x128.Broadcasts S512x128
  reduces_S512x128_S512 : S512x128.Reduces [1] S512
  shapeCasts_S512_S512x1 : S512.ShapeCasts S512x1
  broadcasts_S512x1_S512x128 : S512x1.Broadcasts S512x128
  inb_S512x128_S512x128_0_0 : ∀ a, (![0, 0] : Fin 2 → Nat) a + S512x128.size a ≤ S512x128.size a
  h_S512x128 : 0 < S512x128.numel
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S2000x128_S128x128_S2000x128_1_0_0_1_n_n_wf : DotDims.WF S2000x128 S128x128 S2000x128 [1] [0] [0] [1] [] []
  scatter_S512x128_S100000x1_S100000x128_1_0_0_1_wf : ScatterDims.WF S512x128 S100000x1 S100000x128 [1] [0] [0] 1
  scatter_S512_S100000x1_S100000_n_0_0_1_wf : ScatterDims.WF S512 S100000x1 S100000 [] [0] [0] 1
  dot_S512x384_S384x128_S512x128_1_0_0_1_n_n_wf : DotDims.WF S512x384 S384x128 S512x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S100000x128.size a
  hwx0_1 : ∀ i : grid0.Coords, EltTy.bits .f32 = 32 ∨ (Rect.block (s := S100000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2000x128.size a ≤ S100000x128.size a
  hwx0_6 : ∀ i : grid0.Coords, EltTy.bits .f32 = 32 ∨ (Rect.block (s := S100000x128) S2000x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S100000x128.size a
  hwx1_0 : ∀ i : grid1.Coords, EltTy.bits .f32 = 32 ∨ (Rect.block (s := S100000x128) S2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x128.size a ≤ S100000x128.size a
  hwx1_5 : ∀ i : grid1.Coords, EltTy.bits .f32 = 32 ∨ (Rect.block (s := S100000x128) S2000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S100000x128.size a
  hwx2_0 : ∀ i : grid2.Coords, EltTy.bits .f32 = 32 ∨ (Rect.block (s := S100000x128) S2000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x128.size a ≤ S100000x128.size a
  hwx2_1 : ∀ i : grid2.Coords, EltTy.bits .f32 = 32 ∨ (Rect.block (s := S100000x128) S2000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S2000x128.size a ≤ S100000x128.size a
  hwx2_6 : ∀ i : grid2.Coords, EltTy.bits .f32 = 32 ∨ (Rect.block (s := S100000x128) S2000x128.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x128.size a ≤ S1x128.size a
  hwx2_7 : ∀ i : grid2.Coords, EltTy.bits .f32 = 32 ∨ (Rect.block (s := S1x128) S1x128.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S1x128.size a ≤ S1x128.size a
  hwx2_8 : ∀ i : grid2.Coords, EltTy.bits .f32 = 32 ∨ (Rect.block (s := S1x128) S1x128.size (cc2_transform_8 i) (hinb2_8 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S100000x128.size a
  hwx3_0 : ∀ i : grid3.Coords, EltTy.bits .f32 = 32 ∨ (Rect.block (s := S100000x128) S2000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S2000x128.size a ≤ S100000x128.size a
  hwx3_5 : ∀ i : grid3.Coords, EltTy.bits .f32 = 32 ∨ (Rect.block (s := S100000x128) S2000x128.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x128.size a ≤ S100000x128.size a
  hwx4_0 : ∀ i : grid4.Coords, EltTy.bits .f32 = 32 ∨ (Rect.block (s := S100000x128) S2000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S2000x128.size a ≤ S100000x128.size a
  hwx4_1 : ∀ i : grid4.Coords, EltTy.bits .f32 = 32 ∨ (Rect.block (s := S100000x128) S2000x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S128x128.size a ≤ S128x128.size a
  hwx4_2 : ∀ i : grid4.Coords, EltTy.bits .f32 = 32 ∨ (Rect.block (s := S128x128) S128x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x128.size a ≤ S1x128.size a
  hwx4_3 : ∀ i : grid4.Coords, EltTy.bits .f32 = 32 ∨ (Rect.block (s := S1x128) S1x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S128x128.size a ≤ S128x128.size a
  hwx4_4 : ∀ i : grid4.Coords, EltTy.bits .f32 = 32 ∨ (Rect.block (s := S128x128) S128x128.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1x128.size a ≤ S1x128.size a
  hwx4_5 : ∀ i : grid4.Coords, EltTy.bits .f32 = 32 ∨ (Rect.block (s := S1x128) S1x128.size (cc4_transform_5 i) (hinb4_5 i)).WholeWords (EltTy.packing .f32)
  hstage4_6 : ∀ j, (stage4_6 j).IsWhole
  nbuf4_6 : grid4.bufCount reads4_6 false = 2
  hreads4_6 : ∀ i i' : grid4.Coords, (∀ a, reads4_6 a = true → i a = i' a) → cc4_transform_6 i = cc4_transform_6 i'
  hinb4_6 : ∀ (i : grid4.Coords) a, (cc4_transform_6 i a + 1) * S2000x128.size a ≤ S100000x128.size a
  hwx4_6 : ∀ i : grid4.Coords, EltTy.bits .f32 = 32 ∨ (Rect.block (s := S100000x128) S2000x128.size (cc4_transform_6 i) (hinb4_6 i)).WholeWords (EltTy.packing .f32)
  hstage4_7 : ∀ j, (stage4_7 j).IsWhole
  nbuf4_7 : grid4.bufCount reads4_7 true = 1
  hreads4_7 : ∀ i i' : grid4.Coords, (∀ a, reads4_7 a = true → i a = i' a) → cc4_transform_7 i = cc4_transform_7 i'
  hinb4_7 : ∀ (i : grid4.Coords) a, (cc4_transform_7 i a + 1) * S1x128.size a ≤ S1x128.size a
  hwx4_7 : ∀ i : grid4.Coords, EltTy.bits .f32 = 32 ∨ (Rect.block (s := S1x128) S1x128.size (cc4_transform_7 i) (hinb4_7 i)).WholeWords (EltTy.packing .f32)
  hstage4_8 : ∀ j, (stage4_8 j).IsWhole
  nbuf4_8 : grid4.bufCount reads4_8 true = 1
  hreads4_8 : ∀ i i' : grid4.Coords, (∀ a, reads4_8 a = true → i a = i' a) → cc4_transform_8 i = cc4_transform_8 i'
  hinb4_8 : ∀ (i : grid4.Coords) a, (cc4_transform_8 i a + 1) * S1x128.size a ≤ S1x128.size a
  hwx4_8 : ∀ i : grid4.Coords, EltTy.bits .f32 = 32 ∨ (Rect.block (s := S1x128) S1x128.size (cc4_transform_8 i) (hinb4_8 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x128.size a ≤ S100000x128.size a
  hwx5_0 : ∀ i : grid5.Coords, EltTy.bits .f32 = 32 ∨ (Rect.block (s := S100000x128) S2000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x128.size a ≤ S1x128.size a
  hwx5_1 : ∀ i : grid5.Coords, EltTy.bits .f32 = 32 ∨ (Rect.block (s := S1x128) S1x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x128.size a ≤ S1x128.size a
  hwx5_3 : ∀ i : grid5.Coords, EltTy.bits .f32 = 32 ∨ (Rect.block (s := S1x128) S1x128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x128.size a ≤ S1x128.size a
  hwx5_4 : ∀ i : grid5.Coords, EltTy.bits .f32 = 32 ∨ (Rect.block (s := S1x128) S1x128.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S2000x128.size a ≤ S100000x128.size a
  hwx5_5 : ∀ i : grid5.Coords, EltTy.bits .f32 = 32 ∨ (Rect.block (s := S100000x128) S2000x128.size (cc5_transform_5 i) (hinb5_5 i)).WholeWords (EltTy.packing .f32)
  hrank6 : 0 < grid6.rank
  hstage6_0 : ∀ j, (stage6_0 j).IsWhole
  nbuf6_0 : grid6.bufCount reads6_0 true = 1
  hreads6_0 : ∀ i i' : grid6.Coords, (∀ a, reads6_0 a = true → i a = i' a) → cc6_transform_0 i = cc6_transform_0 i'
  hinb6_0 : ∀ (i : grid6.Coords) a, (cc6_transform_0 i a + 1) * S512x384.size a ≤ S512x384.size a
  hwx6_0 : ∀ i : grid6.Coords, EltTy.bits .f32 = 32 ∨ (Rect.block (s := S512x384) S512x384.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S384x128.size a ≤ S384x128.size a
  hwx6_1 : ∀ i : grid6.Coords, EltTy.bits .f32 = 32 ∨ (Rect.block (s := S384x128) S384x128.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x128.size a ≤ S1x128.size a
  hwx6_2 : ∀ i : grid6.Coords, EltTy.bits .f32 = 32 ∨ (Rect.block (s := S1x128) S1x128.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S512x128.size a ≤ S512x128.size a
  hwx6_3 : ∀ i : grid6.Coords, EltTy.bits .f32 = 32 ∨ (Rect.block (s := S512x128) S512x128.size (cc6_transform_3 i) (hinb6_3 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def scatter_S512x128_S100000x1_S100000x128_1_0_0_1 : ScatterDims S512x128 S100000x1 S100000x128 where
  updateWindowDims := [1]
  insertedWindowDims := [0]
  scatterDimsToOperandDims := [0]
  indexVectorDim := 1
  wf := scatter_S512x128_S100000x1_S100000x128_1_0_0_1_wf
def scatter_S512_S100000x1_S100000_n_0_0_1 : ScatterDims S512 S100000x1 S100000 where
  updateWindowDims := []
  insertedWindowDims := [0]
  scatterDimsToOperandDims := [0]
  indexVectorDim := 1
  wf := scatter_S512_S100000x1_S100000_n_0_0_1_wf
def dot_S512x384_S384x128_S512x128_1_0_0_1_n_n : DotDims S512x384 S384x128 S512x128 where
  lhsContracting := [1]
  rhsContracting := [0]
  lhsNonContracting := [0]
  rhsNonContracting := [1]
  lhsBatch := []
  rhsBatch := []
  wf := dot_S512x384_S384x128_S512x128_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v15) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v16_0) S2000x128.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v16_1) S1x128.size cc0_transform_7 reads0_7 true true 1 stage0_7 sem0_7
    hrank0 hreads0_7 hinb0_7 nbuf0_7 (Memref.isWhole_whole _) hwx0_7 hstage0_7

abbrev win0_8 : Pipeline.Window sig grid0 :=
  Pipeline.Window.ofSpec (Memref.whole main_v16_2) S1x128.size cc0_transform_8 reads0_8 true true 1 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev win1_0 : Pipeline.Window sig grid1 :=
  Pipeline.Window.ofSpec (Memref.whole main_v16_0) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v18) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v22) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v23) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v24) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v25) S2000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v25) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v39) S2000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg9) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v40) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg11) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v41) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v42_0) S2000x128.size cc2_transform_6 reads2_6 true false 2 stage2_6 sem2_6
    hrank2 hreads2_6 hinb2_6 nbuf2_6 (Memref.isWhole_whole _) hwx2_6 hstage2_6

abbrev win2_7 : Pipeline.Window sig grid2 :=
  Pipeline.Window.ofSpec (Memref.whole main_v42_1) S1x128.size cc2_transform_7 reads2_7 true true 1 stage2_7 sem2_7
    hrank2 hreads2_7 hinb2_7 nbuf2_7 (Memref.isWhole_whole _) hwx2_7 hstage2_7

abbrev win2_8 : Pipeline.Window sig grid2 :=
  Pipeline.Window.ofSpec (Memref.whole main_v42_2) S1x128.size cc2_transform_8 reads2_8 true true 1 stage2_8 sem2_8
    hrank2 hreads2_8 hinb2_8 nbuf2_8 (Memref.isWhole_whole _) hwx2_8 hstage2_8

abbrev win2 : Fin 9 → Pipeline.Window sig grid2 := fun | 0 => win2_0 | 1 => win2_1 | 2 => win2_2 | 3 => win2_3 | 4 => win2_4 | 5 => win2_5 | 6 => win2_6 | 7 => win2_7 | 8 => win2_8 | ⟨_ + 9, h⟩ => absurd h (Nat.not_lt.2 (Nat.le_add_left _ _))
abbrev spec2 : Fin 9 → Pipeline.WinSpec sig grid2.rank := fun w => (win2 w).toWinSpec

abbrev win3_0 : Pipeline.Window sig grid3 :=
  Pipeline.Window.ofSpec (Memref.whole main_v42_0) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v44) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v48) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v49) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v50) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v51) S2000x128.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v51) S2000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v65) S2000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_arg15) S128x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v66) S1x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_arg17) S128x128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v67) S1x128.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v68_0) S2000x128.size cc4_transform_6 reads4_6 true false 2 stage4_6 sem4_6
    hrank4 hreads4_6 hinb4_6 nbuf4_6 (Memref.isWhole_whole _) hwx4_6 hstage4_6

abbrev win4_7 : Pipeline.Window sig grid4 :=
  Pipeline.Window.ofSpec (Memref.whole main_v68_1) S1x128.size cc4_transform_7 reads4_7 true true 1 stage4_7 sem4_7
    hrank4 hreads4_7 hinb4_7 nbuf4_7 (Memref.isWhole_whole _) hwx4_7 hstage4_7

abbrev win4_8 : Pipeline.Window sig grid4 :=
  Pipeline.Window.ofSpec (Memref.whole main_v68_2) S1x128.size cc4_transform_8 reads4_8 true true 1 stage4_8 sem4_8
    hrank4 hreads4_8 hinb4_8 nbuf4_8 (Memref.isWhole_whole _) hwx4_8 hstage4_8

abbrev win4 : Fin 9 → Pipeline.Window sig grid4 := fun | 0 => win4_0 | 1 => win4_1 | 2 => win4_2 | 3 => win4_3 | 4 => win4_4 | 5 => win4_5 | 6 => win4_6 | 7 => win4_7 | 8 => win4_8 | ⟨_ + 9, h⟩ => absurd h (Nat.not_lt.2 (Nat.le_add_left _ _))
abbrev spec4 : Fin 9 → Pipeline.WinSpec sig grid4.rank := fun w => (win4 w).toWinSpec

abbrev win5_0 : Pipeline.Window sig grid5 :=
  Pipeline.Window.ofSpec (Memref.whole main_v68_0) S2000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v70) S1x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v74) S1x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v75) S1x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v76) S1x128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v77) S2000x128.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

abbrev win6_0 : Pipeline.Window sig grid6 :=
  Pipeline.Window.ofSpec (Memref.whole main_v114) S512x384.size cc6_transform_0 reads6_0 false true 1 stage6_0 sem6_0
    hrank6 hreads6_0 hinb6_0 nbuf6_0 (Memref.isWhole_whole _) hwx6_0 hstage6_0

abbrev win6_1 : Pipeline.Window sig grid6 :=
  Pipeline.Window.ofSpec (Memref.whole main_arg21) S384x128.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v115) S1x128.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v116) S512x128.size cc6_transform_3 reads6_3 true true 1 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S384x128 : Shape := ⟨2, ![384, 128]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S1x128 : Shape := ⟨2, ![1, 128]⟩
abbrev S512x128 : Shape := ⟨2, ![512, 128]⟩
abbrev S100000x1 : Shape := ⟨2, ![100000, 1]⟩
abbrev S512 : Shape := ⟨1, ![512]⟩
abbrev S512x1 : Shape := ⟨2, ![512, 1]⟩
abbrev S512x384 : Shape := ⟨2, ![512, 384]⟩

abbrev nBuf : Space → Nat
  | .hbm => 272
  | .vmem => 0
  | .smem => 0
  | _ => 0

abbrev hbmTy0_0 (i : Nat) : BufTy := match i % 128 with
  | 0 => ⟨S100000x128, .f32⟩
  | 1 => ⟨S2x1600000, .i32⟩
  | 2 => ⟨S100000, .i32⟩
  | 3 => ⟨S128x128, .f32⟩
  | 4 => ⟨S128, .f32⟩
  | 5 => ⟨S128x128, .f32⟩
  | 6 => ⟨S128, .f32⟩
  | 7 => ⟨S128, .f32⟩
  | 8 => ⟨S128, .f32⟩
  | 9 => ⟨S128x128, .f32⟩
  | 10 => ⟨S128, .f32⟩
  | 11 => ⟨S128x128, .f32⟩
  | 12 => ⟨S128, .f32⟩
  | 13 => ⟨S128, .f32⟩
  | 14 => ⟨S128, .f32⟩
  | 15 => ⟨S128x128, .f32⟩
  | 16 => ⟨S128, .f32⟩
  | 17 => ⟨S128x128, .f32⟩
  | 18 => ⟨S128, .f32⟩
  | 19 => ⟨S128, .f32⟩
  | 20 => ⟨S128, .f32⟩
  | 21 => ⟨S384x128, .f32⟩
  | 22 => ⟨S128, .f32⟩
  | 23 => ⟨S1x1600000, .i32⟩
  | 24 => ⟨S1600000, .i32⟩
  | 25 => ⟨S_, .i32⟩
  | 26 => ⟨S1600000, .i32⟩
  | 27 => ⟨S1600000, .i1⟩
  | 28 => ⟨S_, .i32⟩
  | 29 => ⟨S1600000, .i32⟩
  | 30 => ⟨S1600000, .i32⟩
  | 31 => ⟨S1600000, .i32⟩
  | 32 => ⟨S1600000x1, .i32⟩
  | 33 => ⟨S1600000x128, .f32⟩
  | 34 => ⟨S1x1600000, .i32⟩
  | 35 => ⟨S1600000, .i32⟩
  | 36 => ⟨S_, .f32⟩
  | 37 => ⟨S100000x128, .f32⟩
  | 38 => ⟨S1600000x1, .i32⟩
  | 39 => ⟨S100000x128, .f32⟩
  | 40 => ⟨S100000x128, .f32⟩
  | 41 => ⟨S100000x128, .f32⟩
  | 42 => ⟨S1x128, .f32⟩
  | 43 => ⟨S100000x128, .f32⟩
  | 44 => ⟨S100000x128, .f32⟩
  | 45 => ⟨S_, .f32⟩
  | 46 => ⟨S100000x128, .f32⟩
  | 47 => ⟨S100000x128, .f32⟩
  | 48 => ⟨S100000x128, .f32⟩
  | 49 => ⟨S1x128, .f32⟩
  | 50 => ⟨S100000x128, .f32⟩
  | 51 => ⟨S100000x128, .f32⟩
  | 52 => ⟨S_, .f32⟩
  | 53 => ⟨S128, .f32⟩
  | 54 => ⟨S_, .f32⟩
  | 55 => ⟨S128, .f32⟩
  | 56 => ⟨S128, .f32⟩
  | 57 => ⟨S1x128, .f32⟩
  | 58 => ⟨S100000x128, .f32⟩
  | 59 => ⟨S100000x128, .f32⟩
  | 60 => ⟨S100000x128, .f32⟩
  | 61 => ⟨S_, .f32⟩
  | 62 => ⟨S128, .f32⟩
  | 63 => ⟨S_, .f32⟩
  | 64 => ⟨S128, .f32⟩
  | 65 => ⟨S128, .f32⟩
  | 66 => ⟨S1x128, .f32⟩
  | 67 => ⟨S100000x128, .f32⟩
  | 68 => ⟨S100000x128, .f32⟩
  | 69 => ⟨S_, .f32⟩
  | 70 => ⟨S128, .f32⟩
  | 71 => ⟨S128, .f32⟩
  | 72 => ⟨S128, .f32⟩
  | 73 => ⟨S1x128, .f32⟩
  | 74 => ⟨S100000x128, .f32⟩
  | 75 => ⟨S100000x128, .f32⟩
  | 76 => ⟨S1x128, .f32⟩
  | 77 => ⟨S100000x128, .f32⟩
  | 78 => ⟨S100000x128, .f32⟩
  | 79 => ⟨S1x128, .f32⟩
  | 80 => ⟨S100000x128, .f32⟩
  | 81 => ⟨S100000x128, .f32⟩
  | 82 => ⟨S_, .f32⟩
  | 83 => ⟨S100000x128, .f32⟩
  | 84 => ⟨S100000x128, .f32⟩
  | 85 => ⟨S1x1600000, .i32⟩
  | 86 => ⟨S1600000, .i32⟩
  | 87 => ⟨S_, .i32⟩
  | 88 => ⟨S1600000, .i32⟩
  | 89 => ⟨S1600000, .i1⟩
  | 90 => ⟨S_, .i32⟩
  | 91 => ⟨S1600000, .i32⟩
  | 92 => ⟨S1600000, .i32⟩
  | 93 => ⟨S1600000, .i32⟩
  | 94 => ⟨S1600000x1, .i32⟩
  | 95 => ⟨S1600000x128, .f32⟩
  | 96 => ⟨S1x1600000, .i32⟩
  | 97 => ⟨S1600000, .i32⟩
  | 98 => ⟨S_, .f32⟩
  | 99 => ⟨S100000x128, .f32⟩
  | 100 => ⟨S1600000x1, .i32⟩
  | 101 => ⟨S100000x128, .f32⟩
  | 102 => ⟨S100000x128, .f32⟩
  | 103 => ⟨S100000x128, .f32⟩
  | 104 => ⟨S1x128, .f32⟩
  | 105 => ⟨S100000x128, .f32⟩
  | 106 => ⟨S100000x128, .f32⟩
  | 107 => ⟨S_, .f32⟩
  | 108 => ⟨S100000x128, .f32⟩
  | 109 => ⟨S100000x128, .f32⟩
  | 110 => ⟨S100000x128, .f32⟩
  | 111 => ⟨S1x128, .f32⟩
  | 112 => ⟨S100000x128, .f32⟩
  | 113 => ⟨S100000x128, .f32⟩
  | 114 => ⟨S_, .f32⟩
  | 115 => ⟨S128, .f32⟩
  | 116 => ⟨S_, .f32⟩
  | 117 => ⟨S128, .f32⟩
  | 118 => ⟨S128, .f32⟩
  | 119 => ⟨S1x128, .f32⟩
  | 120 => ⟨S100000x128, .f32⟩
  | 121 => ⟨S100000x128, .f32⟩
  | 122 => ⟨S100000x128, .f32⟩
  | 123 => ⟨S_, .f32⟩
  | 124 => ⟨S128, .f32⟩
  | 125 => ⟨S_, .f32⟩
  | 126 => ⟨S128, .f32⟩
  | 127 => ⟨S128, .f32⟩
  | _ => ⟨S100000x128, .f32⟩

abbrev hbmTy0_1 (i : Nat) : BufTy := match i % 128 with
  | 0 => ⟨S1x128, .f32⟩
  | 1 => ⟨S100000x128, .f32⟩
  | 2 => ⟨S100000x128, .f32⟩
  | 3 => ⟨S_, .f32⟩
  | 4 => ⟨S128, .f32⟩
  | 5 => ⟨S128, .f32⟩
  | 6 => ⟨S128, .f32⟩
  | 7 => ⟨S1x128, .f32⟩
  | 8 => ⟨S100000x128, .f32⟩
  | 9 => ⟨S100000x128, .f32⟩
  | 10 => ⟨S1x128, .f32⟩
  | 11 => ⟨S100000x128, .f32⟩
  | 12 => ⟨S100000x128, .f32⟩
  | 13 => ⟨S1x128, .f32⟩
  | 14 => ⟨S100000x128, .f32⟩
  | 15 => ⟨S100000x128, .f32⟩
  | 16 => ⟨S_, .f32⟩
  | 17 => ⟨S100000x128, .f32⟩
  | 18 => ⟨S100000x128, .f32⟩
  | 19 => ⟨S1x1600000, .i32⟩
  | 20 => ⟨S1600000, .i32⟩
  | 21 => ⟨S_, .i32⟩
  | 22 => ⟨S1600000, .i32⟩
  | 23 => ⟨S1600000, .i1⟩
  | 24 => ⟨S_, .i32⟩
  | 25 => ⟨S1600000, .i32⟩
  | 26 => ⟨S1600000, .i32⟩
  | 27 => ⟨S1600000, .i32⟩
  | 28 => ⟨S1600000x1, .i32⟩
  | 29 => ⟨S1600000x128, .f32⟩
  | 30 => ⟨S1x1600000, .i32⟩
  | 31 => ⟨S1600000, .i32⟩
  | 32 => ⟨S_, .f32⟩
  | 33 => ⟨S100000x128, .f32⟩
  | 34 => ⟨S1600000x1, .i32⟩
  | 35 => ⟨S100000x128, .f32⟩
  | 36 => ⟨S100000x128, .f32⟩
  | 37 => ⟨S100000x128, .f32⟩
  | 38 => ⟨S1x128, .f32⟩
  | 39 => ⟨S100000x128, .f32⟩
  | 40 => ⟨S100000x128, .f32⟩
  | 41 => ⟨S_, .f32⟩
  | 42 => ⟨S100000x128, .f32⟩
  | 43 => ⟨S100000x128, .f32⟩
  | 44 => ⟨S100000x128, .f32⟩
  | 45 => ⟨S1x128, .f32⟩
  | 46 => ⟨S100000x128, .f32⟩
  | 47 => ⟨S100000x128, .f32⟩
  | 48 => ⟨S_, .f32⟩
  | 49 => ⟨S128, .f32⟩
  | 50 => ⟨S_, .f32⟩
  | 51 => ⟨S128, .f32⟩
  | 52 => ⟨S128, .f32⟩
  | 53 => ⟨S1x128, .f32⟩
  | 54 => ⟨S100000x128, .f32⟩
  | 55 => ⟨S100000x128, .f32⟩
  | 56 => ⟨S100000x128, .f32⟩
  | 57 => ⟨S_, .f32⟩
  | 58 => ⟨S128, .f32⟩
  | 59 => ⟨S_, .f32⟩
  | 60 => ⟨S128, .f32⟩
  | 61 => ⟨S128, .f32⟩
  | 62 => ⟨S1x128, .f32⟩
  | 63 => ⟨S100000x128, .f32⟩
  | 64 => ⟨S100000x128, .f32⟩
  | 65 => ⟨S_, .f32⟩
  | 66 => ⟨S128, .f32⟩
  | 67 => ⟨S128, .f32⟩
  | 68 => ⟨S128, .f32⟩
  | 69 => ⟨S1x128, .f32⟩
  | 70 => ⟨S100000x128, .f32⟩
  | 71 => ⟨S100000x128, .f32⟩
  | 72 => ⟨S1x128, .f32⟩
  | 73 => ⟨S100000x128, .f32⟩
  | 74 => ⟨S100000x128, .f32⟩
  | 75 => ⟨S1x128, .f32⟩
  | 76 => ⟨S100000x128, .f32⟩
  | 77 => ⟨S100000x128, .f32⟩
  | 78 => ⟨S_, .f32⟩
  | 79 => ⟨S100000x128, .f32⟩
  | 80 => ⟨S100000x128, .f32⟩
  | 81 => ⟨S_, .f32⟩
  | 82 => ⟨S512x128, .f32⟩
  | 83 => ⟨S100000x1, .i32⟩
  | 84 => ⟨S512x128, .f32⟩
  | 85 => ⟨S_, .f32⟩
  | 86 => ⟨S100000, .f32⟩
  | 87 => ⟨S_, .f32⟩
  | 88 => ⟨S512, .f32⟩
  | 89 => ⟨S100000x1, .i32⟩
  | 90 => ⟨S512, .f32⟩
  | 91 => ⟨S_, .f32⟩
  | 92 => ⟨S512, .f32⟩
  | 93 => ⟨S512, .f32⟩
  | 94 => ⟨S512x1, .f32⟩
  | 95 => ⟨S512x128, .f32⟩
  | 96 => ⟨S512x128, .f32⟩
  | 97 => ⟨S_, .f32⟩
  | 98 => ⟨S512x128, .f32⟩
  | 99 => ⟨S100000x1, .i32⟩
  | 100 => ⟨S512x128, .f32⟩
  | 101 => ⟨S_, .f32⟩
  | 102 => ⟨S100000, .f32⟩
  | 103 => ⟨S_, .f32⟩
  | 104 => ⟨S512, .f32⟩
  | 105 => ⟨S100000x1, .i32⟩
  | 106 => ⟨S512, .f32⟩
  | 107 => ⟨S_, .f32⟩
  | 108 => ⟨S512, .f32⟩
  | 109 => ⟨S512, .f32⟩
  | 110 => ⟨S512x1, .f32⟩
  | 111 => ⟨S512x128, .f32⟩
  | 112 => ⟨S512x128, .f32⟩
  | 113 => ⟨S_, .f32⟩
  | 114 => ⟨S512x128, .f32⟩
  | 115 => ⟨S100000x1, .i32⟩
  | 116 => ⟨S512x128, .f32⟩
  | 117 => ⟨S_, .f32⟩
  | 118 => ⟨S100000, .f32⟩
  | 119 => ⟨S_, .f32⟩
  | 120 => ⟨S512, .f32⟩
  | 121 => ⟨S100000x1, .i32⟩
  | 122 => ⟨S512, .f32⟩
  | 123 => ⟨S_, .f32⟩
  | 124 => ⟨S512, .f32⟩
  | 125 => ⟨S512, .f32⟩
  | 126 => ⟨S512x1, .f32⟩
  | 127 => ⟨S512x128, .f32⟩
  | _ => ⟨S100000x128, .f32⟩

abbrev hbmTy0_2 (i : Nat) : BufTy := match i % 128 with
  | 0 => ⟨S512x128, .f32⟩
  | 1 => ⟨S512x384, .f32⟩
  | 2 => ⟨S512x128, .f32⟩
  | 3 => ⟨S1x128, .f32⟩
  | 4 => ⟨S512x128, .f32⟩
  | 5 => ⟨S512x128, .f32⟩
  | 6 => ⟨S512x128, .f32⟩
  | 7 => ⟨S_, .f32⟩
  | 8 => ⟨S512, .f32⟩
  | 9 => ⟨S512x1, .f32⟩
  | 10 => ⟨S512x1, .f32⟩
  | 11 => ⟨S_, .f32⟩
  | 12 => ⟨S512x1, .f32⟩
  | 13 => ⟨S512x1, .f32⟩
  | 14 => ⟨S512x128, .f32⟩
  | 15 => ⟨S512x128, .f32⟩
  | _ => ⟨S100000x128, .f32⟩

abbrev hbmTy (i : Nat) : BufTy := match i / 128 with
  | 0 => hbmTy0_0 i
  | 1 => hbmTy0_1 i
  | 2 => hbmTy0_2 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_v0 : Ref sig .tc := ⟨.hbm, 23, rfl⟩
abbrev main_v1 : Ref sig .tc := ⟨.hbm, 24, rfl⟩
abbrev main_c : Ref sig .tc := ⟨.hbm, 25, rfl⟩
abbrev main_v2 : Ref sig .tc := ⟨.hbm, 26, rfl⟩
abbrev main_v3 : Ref sig .tc := ⟨.hbm, 27, rfl⟩
abbrev main_c_0 : Ref sig .tc := ⟨.hbm, 28, rfl⟩
abbrev main_v4 : Ref sig .tc := ⟨.hbm, 29, rfl⟩
abbrev main_v5 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_cst : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_call0_cst : Ref sig .tc := ⟨.hbm, 45, rfl⟩
abbrev main_call0_v0 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_cst_1 : Ref sig .tc := ⟨.hbm, 52, rfl⟩
abbrev main_v24 : Ref sig .tc := ⟨.hbm, 53, rfl⟩
abbrev main_cst_2 : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_cst_3 : Ref sig .tc := ⟨.hbm, 61, rfl⟩
abbrev main_v31 : Ref sig .tc := ⟨.hbm, 62, rfl⟩
abbrev main_cst_4 : Ref sig .tc := ⟨.hbm, 63, rfl⟩
abbrev main_v32 : Ref sig .tc := ⟨.hbm, 64, rfl⟩
abbrev main_v33 : Ref sig .tc := ⟨.hbm, 65, rfl⟩
abbrev main_v34 : Ref sig .tc := ⟨.hbm, 66, rfl⟩
abbrev main_v35 : Ref sig .tc := ⟨.hbm, 67, rfl⟩
abbrev main_v36 : Ref sig .tc := ⟨.hbm, 68, rfl⟩
abbrev main_cst_5 : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_call1_cst : Ref sig .tc := ⟨.hbm, 82, rfl⟩
abbrev main_call1_v0 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_c_6 : Ref sig .tc := ⟨.hbm, 87, rfl⟩
abbrev main_v52 : Ref sig .tc := ⟨.hbm, 88, rfl⟩
abbrev main_v53 : Ref sig .tc := ⟨.hbm, 89, rfl⟩
abbrev main_c_7 : Ref sig .tc := ⟨.hbm, 90, rfl⟩
abbrev main_v54 : Ref sig .tc := ⟨.hbm, 91, rfl⟩
abbrev main_v55 : Ref sig .tc := ⟨.hbm, 92, rfl⟩
abbrev main_v56 : Ref sig .tc := ⟨.hbm, 93, rfl⟩
abbrev main_v57 : Ref sig .tc := ⟨.hbm, 94, rfl⟩
abbrev main_v58 : Ref sig .tc := ⟨.hbm, 95, rfl⟩
abbrev main_v59 : Ref sig .tc := ⟨.hbm, 96, rfl⟩
abbrev main_v60 : Ref sig .tc := ⟨.hbm, 97, rfl⟩
abbrev main_cst_8 : Ref sig .tc := ⟨.hbm, 98, rfl⟩
abbrev main_v61 : Ref sig .tc := ⟨.hbm, 99, rfl⟩
abbrev main_v62 : Ref sig .tc := ⟨.hbm, 100, rfl⟩
abbrev main_v63 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev main_v67 : Ref sig .tc := ⟨.hbm, 105, rfl⟩
abbrev main_v68 : Ref sig .tc := ⟨.hbm, 106, rfl⟩
abbrev main_call2_cst : Ref sig .tc := ⟨.hbm, 107, rfl⟩
abbrev main_call2_v0 : Ref sig .tc := ⟨.hbm, 108, rfl⟩
abbrev main_v69 : Ref sig .tc := ⟨.hbm, 109, rfl⟩
abbrev main_v70 : Ref sig .tc := ⟨.hbm, 110, rfl⟩
abbrev main_v71 : Ref sig .tc := ⟨.hbm, 111, rfl⟩
abbrev main_v72 : Ref sig .tc := ⟨.hbm, 112, rfl⟩
abbrev main_v73 : Ref sig .tc := ⟨.hbm, 113, rfl⟩
abbrev main_cst_9 : Ref sig .tc := ⟨.hbm, 114, rfl⟩
abbrev main_v74 : Ref sig .tc := ⟨.hbm, 115, rfl⟩
abbrev main_cst_10 : Ref sig .tc := ⟨.hbm, 116, rfl⟩
abbrev main_v75 : Ref sig .tc := ⟨.hbm, 117, rfl⟩
abbrev main_v76 : Ref sig .tc := ⟨.hbm, 118, rfl⟩
abbrev main_v77 : Ref sig .tc := ⟨.hbm, 119, rfl⟩
abbrev main_v78 : Ref sig .tc := ⟨.hbm, 120, rfl⟩
abbrev main_v79 : Ref sig .tc := ⟨.hbm, 121, rfl⟩
abbrev main_v80 : Ref sig .tc := ⟨.hbm, 122, rfl⟩
abbrev main_cst_11 : Ref sig .tc := ⟨.hbm, 123, rfl⟩
abbrev main_v81 : Ref sig .tc := ⟨.hbm, 124, rfl⟩
abbrev main_cst_12 : Ref sig .tc := ⟨.hbm, 125, rfl⟩
abbrev main_v82 : Ref sig .tc := ⟨.hbm, 126, rfl⟩
abbrev main_v83 : Ref sig .tc := ⟨.hbm, 127, rfl⟩
abbrev main_v84 : Ref sig .tc := ⟨.hbm, 128, rfl⟩
abbrev main_v85 : Ref sig .tc := ⟨.hbm, 129, rfl⟩
abbrev main_v86 : Ref sig .tc := ⟨.hbm, 130, rfl⟩
abbrev main_cst_13 : Ref sig .tc := ⟨.hbm, 131, rfl⟩
abbrev main_v87 : Ref sig .tc := ⟨.hbm, 132, rfl⟩
abbrev main_v88 : Ref sig .tc := ⟨.hbm, 133, rfl⟩
abbrev main_v89 : Ref sig .tc := ⟨.hbm, 134, rfl⟩
abbrev main_v90 : Ref sig .tc := ⟨.hbm, 135, rfl⟩
abbrev main_v91 : Ref sig .tc := ⟨.hbm, 136, rfl⟩
abbrev main_v92 : Ref sig .tc := ⟨.hbm, 137, rfl⟩
abbrev main_v93 : Ref sig .tc := ⟨.hbm, 138, rfl⟩
abbrev main_v94 : Ref sig .tc := ⟨.hbm, 139, rfl⟩
abbrev main_v95 : Ref sig .tc := ⟨.hbm, 140, rfl⟩
abbrev main_v96 : Ref sig .tc := ⟨.hbm, 141, rfl⟩
abbrev main_v97 : Ref sig .tc := ⟨.hbm, 142, rfl⟩
abbrev main_v98 : Ref sig .tc := ⟨.hbm, 143, rfl⟩
abbrev main_call3_cst : Ref sig .tc := ⟨.hbm, 144, rfl⟩
abbrev main_call3_v0 : Ref sig .tc := ⟨.hbm, 145, rfl⟩
abbrev main_v99 : Ref sig .tc := ⟨.hbm, 146, rfl⟩
abbrev main_v100 : Ref sig .tc := ⟨.hbm, 147, rfl⟩
abbrev main_v101 : Ref sig .tc := ⟨.hbm, 148, rfl⟩
abbrev main_c_14 : Ref sig .tc := ⟨.hbm, 149, rfl⟩
abbrev main_v102 : Ref sig .tc := ⟨.hbm, 150, rfl⟩
abbrev main_v103 : Ref sig .tc := ⟨.hbm, 151, rfl⟩
abbrev main_c_15 : Ref sig .tc := ⟨.hbm, 152, rfl⟩
abbrev main_v104 : Ref sig .tc := ⟨.hbm, 153, rfl⟩
abbrev main_v105 : Ref sig .tc := ⟨.hbm, 154, rfl⟩
abbrev main_v106 : Ref sig .tc := ⟨.hbm, 155, rfl⟩
abbrev main_v107 : Ref sig .tc := ⟨.hbm, 156, rfl⟩
abbrev main_v108 : Ref sig .tc := ⟨.hbm, 157, rfl⟩
abbrev main_v109 : Ref sig .tc := ⟨.hbm, 158, rfl⟩
abbrev main_v110 : Ref sig .tc := ⟨.hbm, 159, rfl⟩
abbrev main_cst_16 : Ref sig .tc := ⟨.hbm, 160, rfl⟩
abbrev main_v111 : Ref sig .tc := ⟨.hbm, 161, rfl⟩
abbrev main_v112 : Ref sig .tc := ⟨.hbm, 162, rfl⟩
abbrev main_v113 : Ref sig .tc := ⟨.hbm, 163, rfl⟩
abbrev main_v114 : Ref sig .tc := ⟨.hbm, 164, rfl⟩
abbrev main_v115 : Ref sig .tc := ⟨.hbm, 165, rfl⟩
abbrev main_v116 : Ref sig .tc := ⟨.hbm, 166, rfl⟩
abbrev main_v117 : Ref sig .tc := ⟨.hbm, 167, rfl⟩
abbrev main_v118 : Ref sig .tc := ⟨.hbm, 168, rfl⟩
abbrev main_call4_cst : Ref sig .tc := ⟨.hbm, 169, rfl⟩
abbrev main_call4_v0 : Ref sig .tc := ⟨.hbm, 170, rfl⟩
abbrev main_v119 : Ref sig .tc := ⟨.hbm, 171, rfl⟩
abbrev main_v120 : Ref sig .tc := ⟨.hbm, 172, rfl⟩
abbrev main_v121 : Ref sig .tc := ⟨.hbm, 173, rfl⟩
abbrev main_v122 : Ref sig .tc := ⟨.hbm, 174, rfl⟩
abbrev main_v123 : Ref sig .tc := ⟨.hbm, 175, rfl⟩
abbrev main_cst_17 : Ref sig .tc := ⟨.hbm, 176, rfl⟩
abbrev main_v124 : Ref sig .tc := ⟨.hbm, 177, rfl⟩
abbrev main_cst_18 : Ref sig .tc := ⟨.hbm, 178, rfl⟩
abbrev main_v125 : Ref sig .tc := ⟨.hbm, 179, rfl⟩
abbrev main_v126 : Ref sig .tc := ⟨.hbm, 180, rfl⟩
abbrev main_v127 : Ref sig .tc := ⟨.hbm, 181, rfl⟩
abbrev main_v128 : Ref sig .tc := ⟨.hbm, 182, rfl⟩
abbrev main_v129 : Ref sig .tc := ⟨.hbm, 183, rfl⟩
abbrev main_v130 : Ref sig .tc := ⟨.hbm, 184, rfl⟩
abbrev main_cst_19 : Ref sig .tc := ⟨.hbm, 185, rfl⟩
abbrev main_v131 : Ref sig .tc := ⟨.hbm, 186, rfl⟩
abbrev main_cst_20 : Ref sig .tc := ⟨.hbm, 187, rfl⟩
abbrev main_v132 : Ref sig .tc := ⟨.hbm, 188, rfl⟩
abbrev main_v133 : Ref sig .tc := ⟨.hbm, 189, rfl⟩
abbrev main_v134 : Ref sig .tc := ⟨.hbm, 190, rfl⟩
abbrev main_v135 : Ref sig .tc := ⟨.hbm, 191, rfl⟩
abbrev main_v136 : Ref sig .tc := ⟨.hbm, 192, rfl⟩
abbrev main_cst_21 : Ref sig .tc := ⟨.hbm, 193, rfl⟩
abbrev main_v137 : Ref sig .tc := ⟨.hbm, 194, rfl⟩
abbrev main_v138 : Ref sig .tc := ⟨.hbm, 195, rfl⟩
abbrev main_v139 : Ref sig .tc := ⟨.hbm, 196, rfl⟩
abbrev main_v140 : Ref sig .tc := ⟨.hbm, 197, rfl⟩
abbrev main_v141 : Ref sig .tc := ⟨.hbm, 198, rfl⟩
abbrev main_v142 : Ref sig .tc := ⟨.hbm, 199, rfl⟩
abbrev main_v143 : Ref sig .tc := ⟨.hbm, 200, rfl⟩
abbrev main_v144 : Ref sig .tc := ⟨.hbm, 201, rfl⟩
abbrev main_v145 : Ref sig .tc := ⟨.hbm, 202, rfl⟩
abbrev main_v146 : Ref sig .tc := ⟨.hbm, 203, rfl⟩
abbrev main_v147 : Ref sig .tc := ⟨.hbm, 204, rfl⟩
abbrev main_v148 : Ref sig .tc := ⟨.hbm, 205, rfl⟩
abbrev main_call5_cst : Ref sig .tc := ⟨.hbm, 206, rfl⟩
abbrev main_call5_v0 : Ref sig .tc := ⟨.hbm, 207, rfl⟩
abbrev main_v149 : Ref sig .tc := ⟨.hbm, 208, rfl⟩
abbrev main_cst_22 : Ref sig .tc := ⟨.hbm, 209, rfl⟩
abbrev main_v150 : Ref sig .tc := ⟨.hbm, 210, rfl⟩
abbrev main_v151 : Ref sig .tc := ⟨.hbm, 211, rfl⟩
abbrev main_v152 : Ref sig .tc := ⟨.hbm, 212, rfl⟩
abbrev main_cst_23 : Ref sig .tc := ⟨.hbm, 213, rfl⟩
abbrev main_v153 : Ref sig .tc := ⟨.hbm, 214, rfl⟩
abbrev main_cst_24 : Ref sig .tc := ⟨.hbm, 215, rfl⟩
abbrev main_v154 : Ref sig .tc := ⟨.hbm, 216, rfl⟩
abbrev main_v155 : Ref sig .tc := ⟨.hbm, 217, rfl⟩
abbrev main_v156 : Ref sig .tc := ⟨.hbm, 218, rfl⟩
abbrev main_cst_25 : Ref sig .tc := ⟨.hbm, 219, rfl⟩
abbrev main_v157 : Ref sig .tc := ⟨.hbm, 220, rfl⟩
abbrev main_v158 : Ref sig .tc := ⟨.hbm, 221, rfl⟩
abbrev main_v159 : Ref sig .tc := ⟨.hbm, 222, rfl⟩
abbrev main_v160 : Ref sig .tc := ⟨.hbm, 223, rfl⟩
abbrev main_v161 : Ref sig .tc := ⟨.hbm, 224, rfl⟩
abbrev main_cst_26 : Ref sig .tc := ⟨.hbm, 225, rfl⟩
abbrev main_v162 : Ref sig .tc := ⟨.hbm, 226, rfl⟩
abbrev main_v163 : Ref sig .tc := ⟨.hbm, 227, rfl⟩
abbrev main_v164 : Ref sig .tc := ⟨.hbm, 228, rfl⟩
abbrev main_cst_27 : Ref sig .tc := ⟨.hbm, 229, rfl⟩
abbrev main_v165 : Ref sig .tc := ⟨.hbm, 230, rfl⟩
abbrev main_cst_28 : Ref sig .tc := ⟨.hbm, 231, rfl⟩
abbrev main_v166 : Ref sig .tc := ⟨.hbm, 232, rfl⟩
abbrev main_v167 : Ref sig .tc := ⟨.hbm, 233, rfl⟩
abbrev main_v168 : Ref sig .tc := ⟨.hbm, 234, rfl⟩
abbrev main_cst_29 : Ref sig .tc := ⟨.hbm, 235, rfl⟩
abbrev main_v169 : Ref sig .tc := ⟨.hbm, 236, rfl⟩
abbrev main_v170 : Ref sig .tc := ⟨.hbm, 237, rfl⟩
abbrev main_v171 : Ref sig .tc := ⟨.hbm, 238, rfl⟩
abbrev main_v172 : Ref sig .tc := ⟨.hbm, 239, rfl⟩
abbrev main_v173 : Ref sig .tc := ⟨.hbm, 240, rfl⟩
abbrev main_cst_30 : Ref sig .tc := ⟨.hbm, 241, rfl⟩
abbrev main_v174 : Ref sig .tc := ⟨.hbm, 242, rfl⟩
abbrev main_v175 : Ref sig .tc := ⟨.hbm, 243, rfl⟩
abbrev main_v176 : Ref sig .tc := ⟨.hbm, 244, rfl⟩
abbrev main_cst_31 : Ref sig .tc := ⟨.hbm, 245, rfl⟩
abbrev main_v177 : Ref sig .tc := ⟨.hbm, 246, rfl⟩
abbrev main_cst_32 : Ref sig .tc := ⟨.hbm, 247, rfl⟩
abbrev main_v178 : Ref sig .tc := ⟨.hbm, 248, rfl⟩
abbrev main_v179 : Ref sig .tc := ⟨.hbm, 249, rfl⟩
abbrev main_v180 : Ref sig .tc := ⟨.hbm, 250, rfl⟩
abbrev main_cst_33 : Ref sig .tc := ⟨.hbm, 251, rfl⟩
abbrev main_v181 : Ref sig .tc := ⟨.hbm, 252, rfl⟩
abbrev main_v182 : Ref sig .tc := ⟨.hbm, 253, rfl⟩
abbrev main_v183 : Ref sig .tc := ⟨.hbm, 254, rfl⟩
abbrev main_v184 : Ref sig .tc := ⟨.hbm, 255, rfl⟩
abbrev main_v185 : Ref sig .tc := ⟨.hbm, 256, rfl⟩
abbrev main_v186 : Ref sig .tc := ⟨.hbm, 257, rfl⟩
abbrev main_v187 : Ref sig .tc := ⟨.hbm, 258, rfl⟩
abbrev main_v188 : Ref sig .tc := ⟨.hbm, 259, rfl⟩
abbrev main_v189 : Ref sig .tc := ⟨.hbm, 260, rfl⟩
abbrev main_v190 : Ref sig .tc := ⟨.hbm, 261, rfl⟩
abbrev main_call6_v0 : Ref sig .tc := ⟨.hbm, 262, rfl⟩
abbrev main_call6_cst : Ref sig .tc := ⟨.hbm, 263, rfl⟩
abbrev main_call6_v1 : Ref sig .tc := ⟨.hbm, 264, rfl⟩
abbrev main_call6_v2 : Ref sig .tc := ⟨.hbm, 265, rfl⟩
abbrev main_v191 : Ref sig .tc := ⟨.hbm, 266, rfl⟩
abbrev main_cst_34 : Ref sig .tc := ⟨.hbm, 267, rfl⟩
abbrev main_v192 : Ref sig .tc := ⟨.hbm, 268, rfl⟩
abbrev main_v193 : Ref sig .tc := ⟨.hbm, 269, rfl⟩
abbrev main_v194 : Ref sig .tc := ⟨.hbm, 270, rfl⟩
abbrev main_v195 : Ref sig .tc := ⟨.hbm, 271, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  slices_S2x1600000_S1x1600000_1_0 : S2x1600000.Slices ![1, 0] S1x1600000
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S128_d0 : S100000x128.ReducesTo [0] S128
  h_S_ : 0 < S_.numel
  bcast_S_S128 : S_.BroadcastsInDim S128 (![] : Fin 0 → Fin S128.rank)
  bcast_S_S512x128 : S_.BroadcastsInDim S512x128 (![] : Fin 0 → Fin S512x128.rank)
  bcast_S100000_S100000x1_0 : S100000.BroadcastsInDim S100000x1 (![0] : Fin 1 → Fin S100000x1.rank)
  bcast_S_S100000 : S_.BroadcastsInDim S100000 (![] : Fin 0 → Fin S100000.rank)
  bcast_S_S512 : S_.BroadcastsInDim S512 (![] : Fin 0 → Fin S512.rank)
  bcast_S512_S512x1_0 : S512.BroadcastsInDim S512x1 (![0] : Fin 1 → Fin S512x1.rank)
  bcast_S512x1_S512x128_0_1 : S512x1.BroadcastsInDim S512x128 (![0, 1] : Fin 2 → Fin S512x128.rank)
  concatenates_S512x128_S512x128_S512x128_S512x384_d1 : Shape.Concatenates [S512x128, S512x128, S512x128] S512x384 1
  bcast_S1x128_S512x128_0_1 : S1x128.BroadcastsInDim S512x128 (![0, 1] : Fin 2 → Fin S512x128.rank)
  reducesTo_S512x128_S512_d1 : S512x128.ReducesTo [1] S512
  bcast_S_S512x1 : S_.BroadcastsInDim S512x1 (![] : Fin 0 → Fin S512x1.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []
  scatter_S512x128_S100000x1_S100000x128_1_0_0_1_wf : ScatterDims.WF S512x128 S100000x1 S100000x128 [1] [0] [0] 1
  scatter_S512_S100000x1_S100000_n_0_0_1_wf : ScatterDims.WF S512 S100000x1 S100000 [] [0] [0] 1
  dot_S512x384_S384x128_S512x128_1_0_0_1_n_n_wf : DotDims.WF S512x384 S384x128 S512x128 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S512x128_S100000x1_S100000x128_1_0_0_1 : ScatterDims S512x128 S100000x1 S100000x128 where
  updateWindowDims := [1]
  insertedWindowDims := [0]
  scatterDimsToOperandDims := [0]
  indexVectorDim := 1
  wf := scatter_S512x128_S100000x1_S100000x128_1_0_0_1_wf
def scatter_S512_S100000x1_S100000_n_0_0_1 : ScatterDims S512 S100000x1 S100000 where
  updateWindowDims := []
  insertedWindowDims := [0]
  scatterDimsToOperandDims := [0]
  indexVectorDim := 1
  wf := scatter_S512_S100000x1_S100000_n_0_0_1_wf
def dot_S512x384_S384x128_S512x128_1_0_0_1_n_n : DotDims S512x384 S384x128 S512x128 where
  lhsContracting := [1]
  rhsContracting := [0]
  lhsNonContracting := [0]
  rhsNonContracting := [1]
  lhsBatch := []
  rhsBatch := []
  wf := dot_S512x384_S384x128_S512x128_1_0_0_1_n_n_wf

class Facts : Prop extends Facts₀ where

variable [Facts]
-- ==== Proof.GinRuns0K.lean ====
/-
  The node-update kernel of pipeline 0 — per row block: h + agg, two 128x128 matrix products with bias and a rectifier
  between them, the block's result stored whole, and its column sums and column sums of squares added into two
  one-row accumulators that the first grid point zeroes — run on whole staging buffers, once for each of its two
  control cases: the first grid point (the accumulators are zeroed before they are read) and every later point (they
  are read at what the point before left). Each run hands every output buffer back as its stores written over what
  it held, the stores found by the run itself.
-/
import proofs.«130004_j49941879718343_1_alg».proof.Proof.Gen.Kernel.Launch
import proofs.«130004_j49941879718343_1_alg».proof.Proof.Gen.Kernel.Skeleton
import proofs.«130004_j49941879718343_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body's one branch: "this is grid point 0", as the body computes it from the grid coordinate. -/
abbrev cond0 (i : grid0.Coords) : Prop :=
  (Scalar.cmpi .ne (Scalar.extui (Scalar.cmpi .eq (BitVec.ofNat 32 (i 0).val) 0#32)) 0#32) = 1#1

/-- It holds at the first of the 50 points and at no other. -/
theorem hcond0 : ∀ t : Fin cfg0.N, cond0 (grid0.coords t) ↔ t.val = 0 :=
  (by decide +kernel : ∀ t : Fin grid0.N, cond0 (grid0.coords t) ↔ t.val = 0)

/-- The three outputs' stores: the block's result, the running column sums, the running column sums of squares. -/
abbrev Pieces0 (F : FTy → Type) [FloatOps F] : Type := List (View.Piece (Elt F) S2000x128 .f32) × List (View.Piece (Elt F) S1x128 .f32) × List (View.Piece (Elt F) S1x128 .f32)

set_option maxHeartbeats 4000000 in
/-- THE FIRST POINT. The inputs' buffers at their contents, the outputs' at anything: the accumulators are zeroed,
    then read back (zero) and added to. -/
noncomputable def kernelRun0_A (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (hc : cond0 i)
    (x0 x1 : Vec F S2000x128 .f32) (x2 : Vec F S128x128 .f32) (x3 : Vec F S1x128 .f32) (x4 : Vec F S128x128 .f32) (x5 : Vec F S1x128 .f32) :
    { L : Pieces0 F //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
            ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
                ∗ (∃ f, arg7.view.loc (c : Thread nD τ) ↦[arg7.view.set]{fullShare} arg7.view.writes (Elt F) f L.1) ∗ (∃ f, arg8.view.loc (c : Thread nD τ) ↦[arg8.view.set]{fullShare} arg8.view.writes (Elt F) f L.2.1) ∗ (∃ f, arg9.view.loc (c : Thread nD τ) ↦[arg9.view.set]{fullShare} arg9.view.writes (Elt F) f L.2.2)) -∗ K ⟨⟩))
          ⊢ wp frame (wpE (defs₀ (F := F)) Variants.none c none) E (cc0__gin_mlp_kernel i arg1 harg1 arg2 harg2 arg3 harg3 arg4 harg4 arg5 harg5 arg6 harg6 arg7 harg7 arg8 harg8 arg9 harg9) K } := by
  refine ⟨(?_, ?_, ?_), fun E K => ?run⟩
  case run =>
    simp only [cc0__gin_mlp_kernel_eq_skeleton]; unfold cc0__gin_mlp_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    sl_exec (disch := exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]; · iexists _; iexact H7
    iexists _; iexact H8

set_option maxHeartbeats 4000000 in
/-- EVERY LATER POINT. The inputs' buffers at their contents, the two accumulators at their running contents `xo7`,
    `xo8`, the block output at anything: the accumulators are read as they stand and added to. -/
noncomputable def kernelRun0_B (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (hc : ¬cond0 i)
    (x0 x1 : Vec F S2000x128 .f32) (x2 : Vec F S128x128 .f32) (x3 : Vec F S1x128 .f32) (x4 : Vec F S128x128 .f32) (x5 : Vec F S1x128 .f32) (xo7 xo8 : Vec F S1x128 .f32) :
    { L : Pieces0 F //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
            ∗ (∃ d, owns (c : Thread nD τ) arg7 fullShare d) ∗ owns (c : Thread nD τ) arg8 fullShare xo7 ∗ owns (c : Thread nD τ) arg9 fullShare xo8
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
                ∗ (∃ f, arg7.view.loc (c : Thread nD τ) ↦[arg7.view.set]{fullShare} arg7.view.writes (Elt F) f L.1) ∗ (∃ f, arg8.view.loc (c : Thread nD τ) ↦[arg8.view.set]{fullShare} arg8.view.writes (Elt F) f L.2.1) ∗ (∃ f, arg9.view.loc (c : Thread nD τ) ↦[arg9.view.set]{fullShare} arg9.view.writes (Elt F) f L.2.2)) -∗ K ⟨⟩))
          ⊢ wp frame (wpE (defs₀ (F := F)) Variants.none c none) E (cc0__gin_mlp_kernel i arg1 harg1 arg2 harg2 arg3 harg3 arg4 harg4 arg5 harg5 arg6 harg6 arg7 harg7 arg8 harg8 arg9 harg9) K } := by
  refine ⟨(?_, ?_, ?_), fun E K => ?run⟩
  case run =>
    simp only [cc0__gin_mlp_kernel_eq_skeleton]; unfold cc0__gin_mlp_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg8.eq_unread hf7; obtain rfl := harg9.eq_unread hf8
    sl_exec (disch := exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]; · iexists _; iexact H7
    iexists _; iexact H8

end Cert.Kernel.Hand

end
-- ==== Proof.GinFrame0K.lean ====
/-
  Pipeline 0 (the node-update kernel) as the pipeline's proof data, at the buffer contents `V` the region is entered
  with: each window's block at a grid point; what each control case leaves in the three output buffers (the stores the
  case's run found, read back); THE ACCUMULATION — the outputs after point n are the first-point case's at n = 0 and
  the later-point case's over what point n - 1 left in the two accumulators, whose buffers are not written back
  between points —; and the body obligation at every point.
-/
import proofs.«130004_j49941879718343_1_alg».proof.Proof.GinRuns0K

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds its block at every point, fetched there or not (where it is not fetched the
    block index has not moved), for any proof data whose array is `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-! ## The staging buffers the body is called with -/

abbrev VO0_6 : View sig .tc .vmem S2000x128 .f32 := (Memref.whole cc0_stg6_0 : Memref sig .tc .vmem S2000x128 .f32).view
abbrev VO0_7 : View sig .tc .vmem S1x128 .f32 := (Memref.whole cc0_stg7_0 : Memref sig .tc .vmem S1x128 .f32).view
abbrev VO0_8 : View sig .tc .vmem S1x128 .f32 := (Memref.whole cc0_stg8_0 : Memref sig .tc .vmem S1x128 .f32).view
abbrev ms0_0 (t : Fin cfg0.N) : Memref sig .tc .vmem S2000x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2000x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S128x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S128x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x128 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S2000x128 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x128 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x128 .f32 := win0_8.stage (cfg0.slots t 8)
abbrev hs0_8 (t : Fin cfg0.N) : (ms0_8 t).IsWhole := hstage0_8 ((cfg0.slots t 8).cast nbuf0_8)

/-! ## What each case leaves in the outputs -/

/-- Each case's stores to an output cover that output's whole buffer. -/
theorem cover0_A_6 (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (hc : cond0 i)
    (x0 x1 : Vec F S2000x128 .f32) (x2 : Vec F S128x128 .f32) (x3 : Vec F S1x128 .f32) (x4 : Vec F S128x128 .f32) (x5 : Vec F S1x128 .f32) (y : S2000x128.Idx) :
    ∃ pc ∈ (kernelRun0_A c i arg1 harg1 arg2 harg2 arg3 harg3 arg4 harg4 arg5 harg5 arg6 harg6 arg7 harg7 arg8 harg8 arg9 harg9 hc x0 x1 x2 x3 x4 x5).1.1, y ∈ pc.1.set :=
  View.cover_of_tiledL _ S2000x128.size (by sl_kernel_rfl) y
theorem cover0_A_7 (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (hc : cond0 i)
    (x0 x1 : Vec F S2000x128 .f32) (x2 : Vec F S128x128 .f32) (x3 : Vec F S1x128 .f32) (x4 : Vec F S128x128 .f32) (x5 : Vec F S1x128 .f32) (y : S1x128.Idx) :
    ∃ pc ∈ (kernelRun0_A c i arg1 harg1 arg2 harg2 arg3 harg3 arg4 harg4 arg5 harg5 arg6 harg6 arg7 harg7 arg8 harg8 arg9 harg9 hc x0 x1 x2 x3 x4 x5).1.2.1, y ∈ pc.1.set :=
  View.cover_of_tiledL _ S1x128.size (by sl_kernel_rfl) y
theorem cover0_A_8 (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (hc : cond0 i)
    (x0 x1 : Vec F S2000x128 .f32) (x2 : Vec F S128x128 .f32) (x3 : Vec F S1x128 .f32) (x4 : Vec F S128x128 .f32) (x5 : Vec F S1x128 .f32) (y : S1x128.Idx) :
    ∃ pc ∈ (kernelRun0_A c i arg1 harg1 arg2 harg2 arg3 harg3 arg4 harg4 arg5 harg5 arg6 harg6 arg7 harg7 arg8 harg8 arg9 harg9 hc x0 x1 x2 x3 x4 x5).1.2.2, y ∈ pc.1.set :=
  View.cover_of_tiledL _ S1x128.size (by sl_kernel_rfl) y
theorem cover0_B_6 (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (hc : ¬cond0 i)
    (x0 x1 : Vec F S2000x128 .f32) (x2 : Vec F S128x128 .f32) (x3 : Vec F S1x128 .f32) (x4 : Vec F S128x128 .f32) (x5 : Vec F S1x128 .f32) (xo7 xo8 : Vec F S1x128 .f32) (y : S2000x128.Idx) :
    ∃ pc ∈ (kernelRun0_B c i arg1 harg1 arg2 harg2 arg3 harg3 arg4 harg4 arg5 harg5 arg6 harg6 arg7 harg7 arg8 harg8 arg9 harg9 hc x0 x1 x2 x3 x4 x5 xo7 xo8).1.1, y ∈ pc.1.set :=
  View.cover_of_tiledL _ S2000x128.size (by sl_kernel_rfl) y
theorem cover0_B_7 (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (hc : ¬cond0 i)
    (x0 x1 : Vec F S2000x128 .f32) (x2 : Vec F S128x128 .f32) (x3 : Vec F S1x128 .f32) (x4 : Vec F S128x128 .f32) (x5 : Vec F S1x128 .f32) (xo7 xo8 : Vec F S1x128 .f32) (y : S1x128.Idx) :
    ∃ pc ∈ (kernelRun0_B c i arg1 harg1 arg2 harg2 arg3 harg3 arg4 harg4 arg5 harg5 arg6 harg6 arg7 harg7 arg8 harg8 arg9 harg9 hc x0 x1 x2 x3 x4 x5 xo7 xo8).1.2.1, y ∈ pc.1.set :=
  View.cover_of_tiledL _ S1x128.size (by sl_kernel_rfl) y
theorem cover0_B_8 (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (hc : ¬cond0 i)
    (x0 x1 : Vec F S2000x128 .f32) (x2 : Vec F S128x128 .f32) (x3 : Vec F S1x128 .f32) (x4 : Vec F S128x128 .f32) (x5 : Vec F S1x128 .f32) (xo7 xo8 : Vec F S1x128 .f32) (y : S1x128.Idx) :
    ∃ pc ∈ (kernelRun0_B c i arg1 harg1 arg2 harg2 arg3 harg3 arg4 harg4 arg5 harg5 arg6 harg6 arg7 harg7 arg8 harg8 arg9 harg9 hc x0 x1 x2 x3 x4 x5 xo7 xo8).1.2.2, y ∈ pc.1.set :=
  View.cover_of_tiledL _ S1x128.size (by sl_kernel_rfl) y

/-- What the first point leaves in the three outputs: its stores read back. -/
def out0_A (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (hc : cond0 i)
    (x0 x1 : Vec F S2000x128 .f32) (x2 : Vec F S128x128 .f32) (x3 : Vec F S1x128 .f32) (x4 : Vec F S128x128 .f32) (x5 : Vec F S1x128 .f32) : Vec F S2000x128 .f32 × Vec F S1x128 .f32 × Vec F S1x128 .f32 :=
  (VO0_6.read (Elt F) (VO0_6.writes (Elt F) VO0_6.junk (kernelRun0_A c i arg1 harg1 arg2 harg2 arg3 harg3 arg4 harg4 arg5 harg5 arg6 harg6 arg7 harg7 arg8 harg8 arg9 harg9 hc x0 x1 x2 x3 x4 x5).1.1),
   VO0_7.read (Elt F) (VO0_7.writes (Elt F) VO0_7.junk (kernelRun0_A c i arg1 harg1 arg2 harg2 arg3 harg3 arg4 harg4 arg5 harg5 arg6 harg6 arg7 harg7 arg8 harg8 arg9 harg9 hc x0 x1 x2 x3 x4 x5).1.2.1),
   VO0_8.read (Elt F) (VO0_8.writes (Elt F) VO0_8.junk (kernelRun0_A c i arg1 harg1 arg2 harg2 arg3 harg3 arg4 harg4 arg5 harg5 arg6 harg6 arg7 harg7 arg8 harg8 arg9 harg9 hc x0 x1 x2 x3 x4 x5).1.2.2))

/-- What a later point leaves, from the accumulators' running contents. -/
def out0_B (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (hc : ¬cond0 i)
    (x0 x1 : Vec F S2000x128 .f32) (x2 : Vec F S128x128 .f32) (x3 : Vec F S1x128 .f32) (x4 : Vec F S128x128 .f32) (x5 : Vec F S1x128 .f32) (xo7 xo8 : Vec F S1x128 .f32) : Vec F S2000x128 .f32 × Vec F S1x128 .f32 × Vec F S1x128 .f32 :=
  (VO0_6.read (Elt F) (VO0_6.writes (Elt F) VO0_6.junk (kernelRun0_B c i arg1 harg1 arg2 harg2 arg3 harg3 arg4 harg4 arg5 harg5 arg6 harg6 arg7 harg7 arg8 harg8 arg9 harg9 hc x0 x1 x2 x3 x4 x5 xo7 xo8).1.1),
   VO0_7.read (Elt F) (VO0_7.writes (Elt F) VO0_7.junk (kernelRun0_B c i arg1 harg1 arg2 harg2 arg3 harg3 arg4 harg4 arg5 harg5 arg6 harg6 arg7 harg7 arg8 harg8 arg9 harg9 hc x0 x1 x2 x3 x4 x5 xo7 xo8).1.2.1),
   VO0_8.read (Elt F) (VO0_8.writes (Elt F) VO0_8.junk (kernelRun0_B c i arg1 harg1 arg2 harg2 arg3 harg3 arg4 harg4 arg5 harg5 arg6 harg6 arg7 harg7 arg8 harg8 arg9 harg9 hc x0 x1 x2 x3 x4 x5 xo7 xo8).1.2.2))

/-! ## The accumulation -/

/-- The three outputs' buffers after the body at point `n`. -/
def outsAt0 (c : Dev nD) : (n : ℕ) → n < cfg0.N → Vec F S2000x128 .f32 × Vec F S1x128 .f32 × Vec F S1x128 .f32
  | 0, hn => out0_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) ((hcond0 ⟨0, hn⟩).mpr rfl) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩)
  | n + 1, hn => out0_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (fun hh => Nat.succ_ne_zero n ((hcond0 ⟨n + 1, hn⟩).mp hh)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩)
      (outsAt0 c n (Nat.lt_of_succ_lt hn)).2.1 (outsAt0 c n (Nat.lt_of_succ_lt hn)).2.2

theorem outsAt0_A (c : Dev nD) (t : Fin cfg0.N) (h : t.val = 0) :
    outsAt0 V c t.val t.isLt = out0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) ((hcond0 t).mpr h) (iblk0 V c 0 t) (iblk0 V c 1 t) (iblk0 V c 2 t) (iblk0 V c 3 t) (iblk0 V c 4 t) (iblk0 V c 5 t) := by
  obtain ⟨n, hn⟩ := t
  cases n with
  | zero => rfl
  | succ n => exact absurd h (Nat.succ_ne_zero n)

theorem outsAt0_B (c : Dev nD) (t : Fin cfg0.N) (h : t.val ≠ 0) :
    outsAt0 V c t.val t.isLt = out0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (fun hh => h ((hcond0 t).mp hh)) (iblk0 V c 0 t) (iblk0 V c 1 t) (iblk0 V c 2 t) (iblk0 V c 3 t) (iblk0 V c 4 t) (iblk0 V c 5 t)
      (outsAt0 V c (t.val - 1) (Nat.lt_of_le_of_lt (Nat.sub_le _ _) t.isLt)).2.1 (outsAt0 V c (t.val - 1) (Nat.lt_of_le_of_lt (Nat.sub_le _ _) t.isLt)).2.2 := by
  obtain ⟨n, hn⟩ := t
  cases n with
  | zero => exact absurd rfl h
  | succ n => rfl

/-! ## The pipeline's proof data -/

/-- The arrays as the region finds them; after the body at point `t` each input's buffer at its block and the outputs'
    at `outsAt0`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => (outsAt0 V c t.val t.isLt).1
    | ⟨7, _⟩ => (outsAt0 V c t.val t.isLt).2.1
    | ⟨8, _⟩ => (outsAt0 V c t.val t.isLt).2.2
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = (outsAt0 V c t.val t.isLt).1 := by dsimp only [dat0]
theorem after0_7 (c : Dev nD) (t : Fin cfg0.N) : (dat0 V c).after 7 t = (outsAt0 V c t.val t.isLt).2.1 := by dsimp only [dat0]
theorem after0_8 (c : Dev nD) (t : Fin cfg0.N) : (dat0 V c).after 8 t = (outsAt0 V c t.val t.isLt).2.2 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

/-- At a later point an accumulator's staging buffer holds what the body left at the point before: it is written back
    only after the last point. -/
theorem before0_7_B (c : Dev nD) (t : Fin cfg0.N) (h : t.val ≠ 0) (d) :
    (dat0 V c).before 7 t d = (outsAt0 V c (t.val - 1) (Nat.lt_of_le_of_lt (Nat.sub_le _ _) t.isLt)).2.1 := by
  have hN : t.val < 50 := lt_of_lt_of_eq t.isLt (show cfg0.N = 50 from N_0)
  rw [Dat.before_out_kept _ 7 rfl t h (Bool.eq_false_iff.mpr fun hh => by have := (flush0_7 _).mp hh; dsimp only at this; omega)
    (fun _ => rfl) (fun _ _ => rfl)]
  dsimp only [dat0]
theorem before0_8_B (c : Dev nD) (t : Fin cfg0.N) (h : t.val ≠ 0) (d) :
    (dat0 V c).before 8 t d = (outsAt0 V c (t.val - 1) (Nat.lt_of_le_of_lt (Nat.sub_le _ _) t.isLt)).2.2 := by
  have hN : t.val < 50 := lt_of_lt_of_eq t.isLt (show cfg0.N = 50 from N_0)
  rw [Dat.before_out_kept _ 8 rfl t h (Bool.eq_false_iff.mpr fun hh => by have := (flush0_8 _).mp hh; dsimp only at this; omega)
    (fun _ => rfl) (fun _ _ => rfl)]
  dsimp only [dat0]

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d))
    ∗ (∃ d, owns (c : Thread nD τ) (ms0_8 t) fullShare ((dat0 V c).before 8 t d)))

def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t)
    ∗ owns (c : Thread nD τ) (ms0_3 t) fullShare ((dat0 V c).after 3 t)
    ∗ owns (c : Thread nD τ) (ms0_4 t) fullShare ((dat0 V c).after 4 t)
    ∗ owns (c : Thread nD τ) (ms0_5 t) fullShare ((dat0 V c).after 5 t)
    ∗ owns (c : Thread nD τ) (ms0_6 t) fullShare ((dat0 V c).after 6 t)
    ∗ owns (c : Thread nD τ) (ms0_7 t) fullShare ((dat0 V c).after 7 t)
    ∗ owns (c : Thread nD τ) (ms0_8 t) fullShare ((dat0 V c).after 8 t))

set_option maxHeartbeats 4000000 in
/-- The body at any point: the inputs' buffers hold their blocks; the point is the first or a later one; at a later one
    the accumulators hold what the point before left; so the case's run applies. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8]
  by_cases h0 : t.val = 0
  ·
    rw [outsAt0_A V c t h0]
    unfold out0_A
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) ((hcond0 t).mpr h0) (iblk0 V c 0 t) (iblk0 V c 1 t) (iblk0 V c 2 t) (iblk0 V c 3 t) (iblk0 V c 4 t) (iblk0 V c 5 t)).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexists _; iexact H8
    iintro ⟨H0, H1, H2, H3, H4, H5, ⟨%e6, H6⟩, ⟨%e7, H7⟩, ⟨%e8, H8⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    unfold owns
    isplitl [H6]
    · iexists _; isplitr; swap; · iexact H6
      ipureintro; dsimp only; exact View.read_writes_of_cover _ _ _ _ _ (cover0_A_6 (F := F) c _ _ _ _ _ _ _ _ _ _ _ _ _ _ _ _ _ _ _ _ _ _ _ _ _ _)
    isplitl [H7]
    · iexists _; isplitr; swap; · iexact H7
      ipureintro; dsimp only; exact View.read_writes_of_cover _ _ _ _ _ (cover0_A_7 (F := F) c _ _ _ _ _ _ _ _ _ _ _ _ _ _ _ _ _ _ _ _ _ _ _ _ _ _)
    iexists _; isplitr; swap; · iexact H8
    ipureintro; dsimp only; exact View.read_writes_of_cover _ _ _ _ _ (cover0_A_8 (F := F) c _ _ _ _ _ _ _ _ _ _ _ _ _ _ _ _ _ _ _ _ _ _ _ _ _ _)
  ·
    rw [outsAt0_B V c t h0]
    simp only [before0_7_B V c t h0, before0_8_B V c t h0]
    unfold out0_B
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (fun hh => h0 ((hcond0 t).mp hh)) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.1 (outsAt0 V c (t.val - 1) (Nat.lt_of_le_of_lt (Nat.sub_le _ _) t.isLt)).2.2).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexact H7
    isplitl [H8]; · iexact H8
    iintro ⟨H0, H1, H2, H3, H4, H5, ⟨%e6, H6⟩, ⟨%e7, H7⟩, ⟨%e8, H8⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    unfold owns
    isplitl [H6]
    · iexists _; isplitr; swap; · iexact H6
      ipureintro; dsimp only; exact View.read_writes_of_cover _ _ _ _ _ (cover0_B_6 (F := F) c _ _ _ _ _ _ _ _ _ _ _ _ _ _ _ _ _ _ _ _ _ _ _ _ _ _ _ _)
    isplitl [H7]
    · iexists _; isplitr; swap; · iexact H7
      ipureintro; dsimp only; exact View.read_writes_of_cover _ _ _ _ _ (cover0_B_7 (F := F) c _ _ _ _ _ _ _ _ _ _ _ _ _ _ _ _ _ _ _ _ _ _ _ _ _ _ _ _)
    iexists _; isplitr; swap; · iexact H8
    ipureintro; dsimp only; exact View.read_writes_of_cover _ _ _ _ _ (cover0_B_8 (F := F) c _ _ _ _ _ _ _ _ _ _ _ _ _ _ _ _ _ _ _ _ _ _ _ _ _ _ _ _)

theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.GinRuns2K.lean ====
/-
  The node-update kernel of pipeline 2 — per row block: h + agg, two 128x128 matrix products with bias and a rectifier
  between them, the block's result stored whole, and its column sums and column sums of squares added into two
  one-row accumulators that the first grid point zeroes — run on whole staging buffers, once for each of its two
  control cases: the first grid point (the accumulators are zeroed before they are read) and every later point (they
  are read at what the point before left). Each run hands every output buffer back as its stores written over what
  it held, the stores found by the run itself.
-/
import proofs.«130004_j49941879718343_1_alg».proof.Proof.Gen.Kernel.Launch
import proofs.«130004_j49941879718343_1_alg».proof.Proof.Gen.Kernel.Skeleton
import proofs.«130004_j49941879718343_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body's one branch: "this is grid point 0", as the body computes it from the grid coordinate. -/
abbrev cond2 (i : grid2.Coords) : Prop :=
  (Scalar.cmpi .ne (Scalar.extui (Scalar.cmpi .eq (BitVec.ofNat 32 (i 0).val) 0#32)) 0#32) = 1#1

/-- It holds at the first of the 50 points and at no other. -/
theorem hcond2 : ∀ t : Fin cfg2.N, cond2 (grid2.coords t) ↔ t.val = 0 :=
  (by decide +kernel : ∀ t : Fin grid2.N, cond2 (grid2.coords t) ↔ t.val = 0)

/-- The three outputs' stores: the block's result, the running column sums, the running column sums of squares. -/
abbrev Pieces2 (F : FTy → Type) [FloatOps F] : Type := List (View.Piece (Elt F) S2000x128 .f32) × List (View.Piece (Elt F) S1x128 .f32) × List (View.Piece (Elt F) S1x128 .f32)

set_option maxHeartbeats 4000000 in
/-- THE FIRST POINT. The inputs' buffers at their contents, the outputs' at anything: the accumulators are zeroed,
    then read back (zero) and added to. -/
noncomputable def kernelRun2_A (c : Dev nD) (i : grid2.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (hc : cond2 i)
    (x0 x1 : Vec F S2000x128 .f32) (x2 : Vec F S128x128 .f32) (x3 : Vec F S1x128 .f32) (x4 : Vec F S128x128 .f32) (x5 : Vec F S1x128 .f32) :
    { L : Pieces2 F //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
            ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
                ∗ (∃ f, arg7.view.loc (c : Thread nD τ) ↦[arg7.view.set]{fullShare} arg7.view.writes (Elt F) f L.1) ∗ (∃ f, arg8.view.loc (c : Thread nD τ) ↦[arg8.view.set]{fullShare} arg8.view.writes (Elt F) f L.2.1) ∗ (∃ f, arg9.view.loc (c : Thread nD τ) ↦[arg9.view.set]{fullShare} arg9.view.writes (Elt F) f L.2.2)) -∗ K ⟨⟩))
          ⊢ wp frame (wpE (defs₀ (F := F)) Variants.none c none) E (cc2__gin_mlp_kernel i arg1 harg1 arg2 harg2 arg3 harg3 arg4 harg4 arg5 harg5 arg6 harg6 arg7 harg7 arg8 harg8 arg9 harg9) K } := by
  refine ⟨(?_, ?_, ?_), fun E K => ?run⟩
  case run =>
    simp only [cc2__gin_mlp_kernel_eq_skeleton]; unfold cc2__gin_mlp_kernel_skel
    simp only [k2_part1_eq_skeleton]; unfold k2_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    sl_exec (disch := exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]; · iexists _; iexact H7
    iexists _; iexact H8

set_option maxHeartbeats 4000000 in
/-- EVERY LATER POINT. The inputs' buffers at their contents, the two accumulators at their running contents `xo7`,
    `xo8`, the block output at anything: the accumulators are read as they stand and added to. -/
noncomputable def kernelRun2_B (c : Dev nD) (i : grid2.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (hc : ¬cond2 i)
    (x0 x1 : Vec F S2000x128 .f32) (x2 : Vec F S128x128 .f32) (x3 : Vec F S1x128 .f32) (x4 : Vec F S128x128 .f32) (x5 : Vec F S1x128 .f32) (xo7 xo8 : Vec F S1x128 .f32) :
    { L : Pieces2 F //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
            ∗ (∃ d, owns (c : Thread nD τ) arg7 fullShare d) ∗ owns (c : Thread nD τ) arg8 fullShare xo7 ∗ owns (c : Thread nD τ) arg9 fullShare xo8
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
                ∗ (∃ f, arg7.view.loc (c : Thread nD τ) ↦[arg7.view.set]{fullShare} arg7.view.writes (Elt F) f L.1) ∗ (∃ f, arg8.view.loc (c : Thread nD τ) ↦[arg8.view.set]{fullShare} arg8.view.writes (Elt F) f L.2.1) ∗ (∃ f, arg9.view.loc (c : Thread nD τ) ↦[arg9.view.set]{fullShare} arg9.view.writes (Elt F) f L.2.2)) -∗ K ⟨⟩))
          ⊢ wp frame (wpE (defs₀ (F := F)) Variants.none c none) E (cc2__gin_mlp_kernel i arg1 harg1 arg2 harg2 arg3 harg3 arg4 harg4 arg5 harg5 arg6 harg6 arg7 harg7 arg8 harg8 arg9 harg9) K } := by
  refine ⟨(?_, ?_, ?_), fun E K => ?run⟩
  case run =>
    simp only [cc2__gin_mlp_kernel_eq_skeleton]; unfold cc2__gin_mlp_kernel_skel
    simp only [k2_part1_eq_skeleton]; unfold k2_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg8.eq_unread hf7; obtain rfl := harg9.eq_unread hf8
    sl_exec (disch := exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]; · iexists _; iexact H7
    iexists _; iexact H8

end Cert.Kernel.Hand

end
-- ==== Proof.GinFrame2K.lean ====
/-
  Pipeline 2 (the node-update kernel) as the pipeline's proof data, at the buffer contents `V` the region is entered
  with: each window's block at a grid point; what each control case leaves in the three output buffers (the stores the
  case's run found, read back); THE ACCUMULATION — the outputs after point n are the first-point case's at n = 0 and
  the later-point case's over what point n - 1 left in the two accumulators, whose buffers are not written back
  between points —; and the body obligation at every point.
-/
import proofs.«130004_j49941879718343_1_alg».proof.Proof.GinRuns2K

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's staging buffer holds its block at every point, fetched there or not (where it is not fetched the
    block index has not moved), for any proof data whose array is `V`'s and whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-! ## The staging buffers the body is called with -/

abbrev VO2_6 : View sig .tc .vmem S2000x128 .f32 := (Memref.whole cc2_stg6_0 : Memref sig .tc .vmem S2000x128 .f32).view
abbrev VO2_7 : View sig .tc .vmem S1x128 .f32 := (Memref.whole cc2_stg7_0 : Memref sig .tc .vmem S1x128 .f32).view
abbrev VO2_8 : View sig .tc .vmem S1x128 .f32 := (Memref.whole cc2_stg8_0 : Memref sig .tc .vmem S1x128 .f32).view
abbrev ms2_0 (t : Fin cfg2.N) : Memref sig .tc .vmem S2000x128 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S2000x128 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S128x128 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1x128 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S128x128 .f32 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S1x128 .f32 := win2_5.stage (cfg2.slots t 5)
abbrev hs2_5 (t : Fin cfg2.N) : (ms2_5 t).IsWhole := hstage2_5 ((cfg2.slots t 5).cast nbuf2_5)
abbrev ms2_6 (t : Fin cfg2.N) : Memref sig .tc .vmem S2000x128 .f32 := win2_6.stage (cfg2.slots t 6)
abbrev hs2_6 (t : Fin cfg2.N) : (ms2_6 t).IsWhole := hstage2_6 ((cfg2.slots t 6).cast nbuf2_6)
abbrev ms2_7 (t : Fin cfg2.N) : Memref sig .tc .vmem S1x128 .f32 := win2_7.stage (cfg2.slots t 7)
abbrev hs2_7 (t : Fin cfg2.N) : (ms2_7 t).IsWhole := hstage2_7 ((cfg2.slots t 7).cast nbuf2_7)
abbrev ms2_8 (t : Fin cfg2.N) : Memref sig .tc .vmem S1x128 .f32 := win2_8.stage (cfg2.slots t 8)
abbrev hs2_8 (t : Fin cfg2.N) : (ms2_8 t).IsWhole := hstage2_8 ((cfg2.slots t 8).cast nbuf2_8)

/-! ## What each case leaves in the outputs -/

/-- Each case's stores to an output cover that output's whole buffer. -/
theorem cover2_A_6 (c : Dev nD) (i : grid2.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (hc : cond2 i)
    (x0 x1 : Vec F S2000x128 .f32) (x2 : Vec F S128x128 .f32) (x3 : Vec F S1x128 .f32) (x4 : Vec F S128x128 .f32) (x5 : Vec F S1x128 .f32) (y : S2000x128.Idx) :
    ∃ pc ∈ (kernelRun2_A c i arg1 harg1 arg2 harg2 arg3 harg3 arg4 harg4 arg5 harg5 arg6 harg6 arg7 harg7 arg8 harg8 arg9 harg9 hc x0 x1 x2 x3 x4 x5).1.1, y ∈ pc.1.set :=
  View.cover_of_tiledL _ S2000x128.size (by sl_kernel_rfl) y
theorem cover2_A_7 (c : Dev nD) (i : grid2.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (hc : cond2 i)
    (x0 x1 : Vec F S2000x128 .f32) (x2 : Vec F S128x128 .f32) (x3 : Vec F S1x128 .f32) (x4 : Vec F S128x128 .f32) (x5 : Vec F S1x128 .f32) (y : S1x128.Idx) :
    ∃ pc ∈ (kernelRun2_A c i arg1 harg1 arg2 harg2 arg3 harg3 arg4 harg4 arg5 harg5 arg6 harg6 arg7 harg7 arg8 harg8 arg9 harg9 hc x0 x1 x2 x3 x4 x5).1.2.1, y ∈ pc.1.set :=
  View.cover_of_tiledL _ S1x128.size (by sl_kernel_rfl) y
theorem cover2_A_8 (c : Dev nD) (i : grid2.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (hc : cond2 i)
    (x0 x1 : Vec F S2000x128 .f32) (x2 : Vec F S128x128 .f32) (x3 : Vec F S1x128 .f32) (x4 : Vec F S128x128 .f32) (x5 : Vec F S1x128 .f32) (y : S1x128.Idx) :
    ∃ pc ∈ (kernelRun2_A c i arg1 harg1 arg2 harg2 arg3 harg3 arg4 harg4 arg5 harg5 arg6 harg6 arg7 harg7 arg8 harg8 arg9 harg9 hc x0 x1 x2 x3 x4 x5).1.2.2, y ∈ pc.1.set :=
  View.cover_of_tiledL _ S1x128.size (by sl_kernel_rfl) y
theorem cover2_B_6 (c : Dev nD) (i : grid2.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (hc : ¬cond2 i)
    (x0 x1 : Vec F S2000x128 .f32) (x2 : Vec F S128x128 .f32) (x3 : Vec F S1x128 .f32) (x4 : Vec F S128x128 .f32) (x5 : Vec F S1x128 .f32) (xo7 xo8 : Vec F S1x128 .f32) (y : S2000x128.Idx) :
    ∃ pc ∈ (kernelRun2_B c i arg1 harg1 arg2 harg2 arg3 harg3 arg4 harg4 arg5 harg5 arg6 harg6 arg7 harg7 arg8 harg8 arg9 harg9 hc x0 x1 x2 x3 x4 x5 xo7 xo8).1.1, y ∈ pc.1.set :=
  View.cover_of_tiledL _ S2000x128.size (by sl_kernel_rfl) y
theorem cover2_B_7 (c : Dev nD) (i : grid2.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (hc : ¬cond2 i)
    (x0 x1 : Vec F S2000x128 .f32) (x2 : Vec F S128x128 .f32) (x3 : Vec F S1x128 .f32) (x4 : Vec F S128x128 .f32) (x5 : Vec F S1x128 .f32) (xo7 xo8 : Vec F S1x128 .f32) (y : S1x128.Idx) :
    ∃ pc ∈ (kernelRun2_B c i arg1 harg1 arg2 harg2 arg3 harg3 arg4 harg4 arg5 harg5 arg6 harg6 arg7 harg7 arg8 harg8 arg9 harg9 hc x0 x1 x2 x3 x4 x5 xo7 xo8).1.2.1, y ∈ pc.1.set :=
  View.cover_of_tiledL _ S1x128.size (by sl_kernel_rfl) y
theorem cover2_B_8 (c : Dev nD) (i : grid2.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (hc : ¬cond2 i)
    (x0 x1 : Vec F S2000x128 .f32) (x2 : Vec F S128x128 .f32) (x3 : Vec F S1x128 .f32) (x4 : Vec F S128x128 .f32) (x5 : Vec F S1x128 .f32) (xo7 xo8 : Vec F S1x128 .f32) (y : S1x128.Idx) :
    ∃ pc ∈ (kernelRun2_B c i arg1 harg1 arg2 harg2 arg3 harg3 arg4 harg4 arg5 harg5 arg6 harg6 arg7 harg7 arg8 harg8 arg9 harg9 hc x0 x1 x2 x3 x4 x5 xo7 xo8).1.2.2, y ∈ pc.1.set :=
  View.cover_of_tiledL _ S1x128.size (by sl_kernel_rfl) y

/-- What the first point leaves in the three outputs: its stores read back. -/
def out2_A (c : Dev nD) (i : grid2.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (hc : cond2 i)
    (x0 x1 : Vec F S2000x128 .f32) (x2 : Vec F S128x128 .f32) (x3 : Vec F S1x128 .f32) (x4 : Vec F S128x128 .f32) (x5 : Vec F S1x128 .f32) : Vec F S2000x128 .f32 × Vec F S1x128 .f32 × Vec F S1x128 .f32 :=
  (VO2_6.read (Elt F) (VO2_6.writes (Elt F) VO2_6.junk (kernelRun2_A c i arg1 harg1 arg2 harg2 arg3 harg3 arg4 harg4 arg5 harg5 arg6 harg6 arg7 harg7 arg8 harg8 arg9 harg9 hc x0 x1 x2 x3 x4 x5).1.1),
   VO2_7.read (Elt F) (VO2_7.writes (Elt F) VO2_7.junk (kernelRun2_A c i arg1 harg1 arg2 harg2 arg3 harg3 arg4 harg4 arg5 harg5 arg6 harg6 arg7 harg7 arg8 harg8 arg9 harg9 hc x0 x1 x2 x3 x4 x5).1.2.1),
   VO2_8.read (Elt F) (VO2_8.writes (Elt F) VO2_8.junk (kernelRun2_A c i arg1 harg1 arg2 harg2 arg3 harg3 arg4 harg4 arg5 harg5 arg6 harg6 arg7 harg7 arg8 harg8 arg9 harg9 hc x0 x1 x2 x3 x4 x5).1.2.2))

/-- What a later point leaves, from the accumulators' running contents. -/
def out2_B (c : Dev nD) (i : grid2.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (hc : ¬cond2 i)
    (x0 x1 : Vec F S2000x128 .f32) (x2 : Vec F S128x128 .f32) (x3 : Vec F S1x128 .f32) (x4 : Vec F S128x128 .f32) (x5 : Vec F S1x128 .f32) (xo7 xo8 : Vec F S1x128 .f32) : Vec F S2000x128 .f32 × Vec F S1x128 .f32 × Vec F S1x128 .f32 :=
  (VO2_6.read (Elt F) (VO2_6.writes (Elt F) VO2_6.junk (kernelRun2_B c i arg1 harg1 arg2 harg2 arg3 harg3 arg4 harg4 arg5 harg5 arg6 harg6 arg7 harg7 arg8 harg8 arg9 harg9 hc x0 x1 x2 x3 x4 x5 xo7 xo8).1.1),
   VO2_7.read (Elt F) (VO2_7.writes (Elt F) VO2_7.junk (kernelRun2_B c i arg1 harg1 arg2 harg2 arg3 harg3 arg4 harg4 arg5 harg5 arg6 harg6 arg7 harg7 arg8 harg8 arg9 harg9 hc x0 x1 x2 x3 x4 x5 xo7 xo8).1.2.1),
   VO2_8.read (Elt F) (VO2_8.writes (Elt F) VO2_8.junk (kernelRun2_B c i arg1 harg1 arg2 harg2 arg3 harg3 arg4 harg4 arg5 harg5 arg6 harg6 arg7 harg7 arg8 harg8 arg9 harg9 hc x0 x1 x2 x3 x4 x5 xo7 xo8).1.2.2))

/-! ## The accumulation -/

/-- The three outputs' buffers after the body at point `n`. -/
def outsAt2 (c : Dev nD) : (n : ℕ) → n < cfg2.N → Vec F S2000x128 .f32 × Vec F S1x128 .f32 × Vec F S1x128 .f32
  | 0, hn => out2_A c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) (ms2_7 ⟨0, hn⟩) (hs2_7 ⟨0, hn⟩) (ms2_8 ⟨0, hn⟩) (hs2_8 ⟨0, hn⟩) ((hcond2 ⟨0, hn⟩).mpr rfl) (iblk2 V c 0 ⟨0, hn⟩) (iblk2 V c 1 ⟨0, hn⟩) (iblk2 V c 2 ⟨0, hn⟩) (iblk2 V c 3 ⟨0, hn⟩) (iblk2 V c 4 ⟨0, hn⟩) (iblk2 V c 5 ⟨0, hn⟩)
  | n + 1, hn => out2_B c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) (fun hh => Nat.succ_ne_zero n ((hcond2 ⟨n + 1, hn⟩).mp hh)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩)
      (outsAt2 c n (Nat.lt_of_succ_lt hn)).2.1 (outsAt2 c n (Nat.lt_of_succ_lt hn)).2.2

theorem outsAt2_A (c : Dev nD) (t : Fin cfg2.N) (h : t.val = 0) :
    outsAt2 V c t.val t.isLt = out2_A c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) ((hcond2 t).mpr h) (iblk2 V c 0 t) (iblk2 V c 1 t) (iblk2 V c 2 t) (iblk2 V c 3 t) (iblk2 V c 4 t) (iblk2 V c 5 t) := by
  obtain ⟨n, hn⟩ := t
  cases n with
  | zero => rfl
  | succ n => exact absurd h (Nat.succ_ne_zero n)

theorem outsAt2_B (c : Dev nD) (t : Fin cfg2.N) (h : t.val ≠ 0) :
    outsAt2 V c t.val t.isLt = out2_B c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (fun hh => h ((hcond2 t).mp hh)) (iblk2 V c 0 t) (iblk2 V c 1 t) (iblk2 V c 2 t) (iblk2 V c 3 t) (iblk2 V c 4 t) (iblk2 V c 5 t)
      (outsAt2 V c (t.val - 1) (Nat.lt_of_le_of_lt (Nat.sub_le _ _) t.isLt)).2.1 (outsAt2 V c (t.val - 1) (Nat.lt_of_le_of_lt (Nat.sub_le _ _) t.isLt)).2.2 := by
  obtain ⟨n, hn⟩ := t
  cases n with
  | zero => exact absurd rfl h
  | succ n => rfl

/-! ## The pipeline's proof data -/

/-- The arrays as the region finds them; after the body at point `t` each input's buffer at its block and the outputs'
    at `outsAt2`; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => (outsAt2 V c t.val t.isLt).1
    | ⟨7, _⟩ => (outsAt2 V c t.val t.isLt).2.1
    | ⟨8, _⟩ => (outsAt2 V c t.val t.isLt).2.2
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = (outsAt2 V c t.val t.isLt).1 := by dsimp only [dat2]
theorem after2_7 (c : Dev nD) (t : Fin cfg2.N) : (dat2 V c).after 7 t = (outsAt2 V c t.val t.isLt).2.1 := by dsimp only [dat2]
theorem after2_8 (c : Dev nD) (t : Fin cfg2.N) : (dat2 V c).after 8 t = (outsAt2 V c t.val t.isLt).2.2 := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d

/-- At a later point an accumulator's staging buffer holds what the body left at the point before: it is written back
    only after the last point. -/
theorem before2_7_B (c : Dev nD) (t : Fin cfg2.N) (h : t.val ≠ 0) (d) :
    (dat2 V c).before 7 t d = (outsAt2 V c (t.val - 1) (Nat.lt_of_le_of_lt (Nat.sub_le _ _) t.isLt)).2.1 := by
  have hN : t.val < 50 := lt_of_lt_of_eq t.isLt (show cfg2.N = 50 from N_2)
  rw [Dat.before_out_kept _ 7 rfl t h (Bool.eq_false_iff.mpr fun hh => by have := (flush2_7 _).mp hh; dsimp only at this; omega)
    (fun _ => rfl) (fun _ _ => rfl)]
  dsimp only [dat2]
theorem before2_8_B (c : Dev nD) (t : Fin cfg2.N) (h : t.val ≠ 0) (d) :
    (dat2 V c).before 8 t d = (outsAt2 V c (t.val - 1) (Nat.lt_of_le_of_lt (Nat.sub_le _ _) t.isLt)).2.2 := by
  have hN : t.val < 50 := lt_of_lt_of_eq t.isLt (show cfg2.N = 50 from N_2)
  rw [Dat.before_out_kept _ 8 rfl t h (Bool.eq_false_iff.mpr fun hh => by have := (flush2_8 _).mp hh; dsimp only at this; omega)
    (fun _ => rfl) (fun _ _ => rfl)]
  dsimp only [dat2]

/-! ## The body obligation -/

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d))
    ∗ (∃ d, owns (c : Thread nD τ) (ms2_6 t) fullShare ((dat2 V c).before 6 t d))
    ∗ (∃ d, owns (c : Thread nD τ) (ms2_7 t) fullShare ((dat2 V c).before 7 t d))
    ∗ (∃ d, owns (c : Thread nD τ) (ms2_8 t) fullShare ((dat2 V c).before 8 t d)))

def bodyPost2 (c : Dev nD) (t : Fin cfg2.N) : sProp 𝕄 :=
  iprop((dat2 V c).Φ t.succ ∗ (dat2 V c).owesAt () t.succ
    ∗ owns (c : Thread nD τ) (ms2_0 t) fullShare ((dat2 V c).after 0 t)
    ∗ owns (c : Thread nD τ) (ms2_1 t) fullShare ((dat2 V c).after 1 t)
    ∗ owns (c : Thread nD τ) (ms2_2 t) fullShare ((dat2 V c).after 2 t)
    ∗ owns (c : Thread nD τ) (ms2_3 t) fullShare ((dat2 V c).after 3 t)
    ∗ owns (c : Thread nD τ) (ms2_4 t) fullShare ((dat2 V c).after 4 t)
    ∗ owns (c : Thread nD τ) (ms2_5 t) fullShare ((dat2 V c).after 5 t)
    ∗ owns (c : Thread nD τ) (ms2_6 t) fullShare ((dat2 V c).after 6 t)
    ∗ owns (c : Thread nD τ) (ms2_7 t) fullShare ((dat2 V c).after 7 t)
    ∗ owns (c : Thread nD τ) (ms2_8 t) fullShare ((dat2 V c).after 8 t))

set_option maxHeartbeats 4000000 in
/-- The body at any point: the inputs' buffers hold their blocks; the point is the first or a later one; at a later one
    the accumulators hold what the point before left; so the case's run applies. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7, after2_8]
  by_cases h0 : t.val = 0
  ·
    rw [outsAt2_A V c t h0]
    unfold out2_A
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((kernelRun2_A c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) ((hcond2 t).mpr h0) (iblk2 V c 0 t) (iblk2 V c 1 t) (iblk2 V c 2 t) (iblk2 V c 3 t) (iblk2 V c 4 t) (iblk2 V c 5 t)).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexists _; iexact H8
    iintro ⟨H0, H1, H2, H3, H4, H5, ⟨%e6, H6⟩, ⟨%e7, H7⟩, ⟨%e8, H8⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    unfold owns
    isplitl [H6]
    · iexists _; isplitr; swap; · iexact H6
      ipureintro; dsimp only; exact View.read_writes_of_cover _ _ _ _ _ (cover2_A_6 (F := F) c _ _ _ _ _ _ _ _ _ _ _ _ _ _ _ _ _ _ _ _ _ _ _ _ _ _)
    isplitl [H7]
    · iexists _; isplitr; swap; · iexact H7
      ipureintro; dsimp only; exact View.read_writes_of_cover _ _ _ _ _ (cover2_A_7 (F := F) c _ _ _ _ _ _ _ _ _ _ _ _ _ _ _ _ _ _ _ _ _ _ _ _ _ _)
    iexists _; isplitr; swap; · iexact H8
    ipureintro; dsimp only; exact View.read_writes_of_cover _ _ _ _ _ (cover2_A_8 (F := F) c _ _ _ _ _ _ _ _ _ _ _ _ _ _ _ _ _ _ _ _ _ _ _ _ _ _)
  ·
    rw [outsAt2_B V c t h0]
    simp only [before2_7_B V c t h0, before2_8_B V c t h0]
    unfold out2_B
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((kernelRun2_B c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (fun hh => h0 ((hcond2 t).mp hh)) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2.1 (outsAt2 V c (t.val - 1) (Nat.lt_of_le_of_lt (Nat.sub_le _ _) t.isLt)).2.2).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexact H7
    isplitl [H8]; · iexact H8
    iintro ⟨H0, H1, H2, H3, H4, H5, ⟨%e6, H6⟩, ⟨%e7, H7⟩, ⟨%e8, H8⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    unfold owns
    isplitl [H6]
    · iexists _; isplitr; swap; · iexact H6
      ipureintro; dsimp only; exact View.read_writes_of_cover _ _ _ _ _ (cover2_B_6 (F := F) c _ _ _ _ _ _ _ _ _ _ _ _ _ _ _ _ _ _ _ _ _ _ _ _ _ _ _ _)
    isplitl [H7]
    · iexists _; isplitr; swap; · iexact H7
      ipureintro; dsimp only; exact View.read_writes_of_cover _ _ _ _ _ (cover2_B_7 (F := F) c _ _ _ _ _ _ _ _ _ _ _ _ _ _ _ _ _ _ _ _ _ _ _ _ _ _ _ _)
    iexists _; isplitr; swap; · iexact H8
    ipureintro; dsimp only; exact View.read_writes_of_cover _ _ _ _ _ (cover2_B_8 (F := F) c _ _ _ _ _ _ _ _ _ _ _ _ _ _ _ _ _ _ _ _ _ _ _ _ _ _ _ _)

theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.GinRuns4K.lean ====
/-
  The node-update kernel of pipeline 4 — per row block: h + agg, two 128x128 matrix products with bias and a rectifier
  between them, the block's result stored whole, and its column sums and column sums of squares added into two
  one-row accumulators that the first grid point zeroes — run on whole staging buffers, once for each of its two
  control cases: the first grid point (the accumulators are zeroed before they are read) and every later point (they
  are read at what the point before left). Each run hands every output buffer back as its stores written over what
  it held, the stores found by the run itself.
-/
import proofs.«130004_j49941879718343_1_alg».proof.Proof.Gen.Kernel.Launch
import proofs.«130004_j49941879718343_1_alg».proof.Proof.Gen.Kernel.Skeleton
import proofs.«130004_j49941879718343_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body's one branch: "this is grid point 0", as the body computes it from the grid coordinate. -/
abbrev cond4 (i : grid4.Coords) : Prop :=
  (Scalar.cmpi .ne (Scalar.extui (Scalar.cmpi .eq (BitVec.ofNat 32 (i 0).val) 0#32)) 0#32) = 1#1

/-- It holds at the first of the 50 points and at no other. -/
theorem hcond4 : ∀ t : Fin cfg4.N, cond4 (grid4.coords t) ↔ t.val = 0 :=
  (by decide +kernel : ∀ t : Fin grid4.N, cond4 (grid4.coords t) ↔ t.val = 0)

/-- The three outputs' stores: the block's result, the running column sums, the running column sums of squares. -/
abbrev Pieces4 (F : FTy → Type) [FloatOps F] : Type := List (View.Piece (Elt F) S2000x128 .f32) × List (View.Piece (Elt F) S1x128 .f32) × List (View.Piece (Elt F) S1x128 .f32)

set_option maxHeartbeats 4000000 in
/-- THE FIRST POINT. The inputs' buffers at their contents, the outputs' at anything: the accumulators are zeroed,
    then read back (zero) and added to. -/
noncomputable def kernelRun4_A (c : Dev nD) (i : grid4.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (hc : cond4 i)
    (x0 x1 : Vec F S2000x128 .f32) (x2 : Vec F S128x128 .f32) (x3 : Vec F S1x128 .f32) (x4 : Vec F S128x128 .f32) (x5 : Vec F S1x128 .f32) :
    { L : Pieces4 F //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
            ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
                ∗ (∃ f, arg7.view.loc (c : Thread nD τ) ↦[arg7.view.set]{fullShare} arg7.view.writes (Elt F) f L.1) ∗ (∃ f, arg8.view.loc (c : Thread nD τ) ↦[arg8.view.set]{fullShare} arg8.view.writes (Elt F) f L.2.1) ∗ (∃ f, arg9.view.loc (c : Thread nD τ) ↦[arg9.view.set]{fullShare} arg9.view.writes (Elt F) f L.2.2)) -∗ K ⟨⟩))
          ⊢ wp frame (wpE (defs₀ (F := F)) Variants.none c none) E (cc4__gin_mlp_kernel i arg1 harg1 arg2 harg2 arg3 harg3 arg4 harg4 arg5 harg5 arg6 harg6 arg7 harg7 arg8 harg8 arg9 harg9) K } := by
  refine ⟨(?_, ?_, ?_), fun E K => ?run⟩
  case run =>
    simp only [cc4__gin_mlp_kernel_eq_skeleton]; unfold cc4__gin_mlp_kernel_skel
    simp only [k4_part1_eq_skeleton]; unfold k4_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    sl_exec (disch := exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]; · iexists _; iexact H7
    iexists _; iexact H8

set_option maxHeartbeats 4000000 in
/-- EVERY LATER POINT. The inputs' buffers at their contents, the two accumulators at their running contents `xo7`,
    `xo8`, the block output at anything: the accumulators are read as they stand and added to. -/
noncomputable def kernelRun4_B (c : Dev nD) (i : grid4.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (hc : ¬cond4 i)
    (x0 x1 : Vec F S2000x128 .f32) (x2 : Vec F S128x128 .f32) (x3 : Vec F S1x128 .f32) (x4 : Vec F S128x128 .f32) (x5 : Vec F S1x128 .f32) (xo7 xo8 : Vec F S1x128 .f32) :
    { L : Pieces4 F //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
            ∗ (∃ d, owns (c : Thread nD τ) arg7 fullShare d) ∗ owns (c : Thread nD τ) arg8 fullShare xo7 ∗ owns (c : Thread nD τ) arg9 fullShare xo8
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
                ∗ (∃ f, arg7.view.loc (c : Thread nD τ) ↦[arg7.view.set]{fullShare} arg7.view.writes (Elt F) f L.1) ∗ (∃ f, arg8.view.loc (c : Thread nD τ) ↦[arg8.view.set]{fullShare} arg8.view.writes (Elt F) f L.2.1) ∗ (∃ f, arg9.view.loc (c : Thread nD τ) ↦[arg9.view.set]{fullShare} arg9.view.writes (Elt F) f L.2.2)) -∗ K ⟨⟩))
          ⊢ wp frame (wpE (defs₀ (F := F)) Variants.none c none) E (cc4__gin_mlp_kernel i arg1 harg1 arg2 harg2 arg3 harg3 arg4 harg4 arg5 harg5 arg6 harg6 arg7 harg7 arg8 harg8 arg9 harg9) K } := by
  refine ⟨(?_, ?_, ?_), fun E K => ?run⟩
  case run =>
    simp only [cc4__gin_mlp_kernel_eq_skeleton]; unfold cc4__gin_mlp_kernel_skel
    simp only [k4_part1_eq_skeleton]; unfold k4_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg8.eq_unread hf7; obtain rfl := harg9.eq_unread hf8
    sl_exec (disch := exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]; · iexists _; iexact H7
    iexists _; iexact H8

end Cert.Kernel.Hand

end
-- ==== Proof.GinFrame4K.lean ====
/-
  Pipeline 4 (the node-update kernel) as the pipeline's proof data, at the buffer contents `V` the region is entered
  with: each window's block at a grid point; what each control case leaves in the three output buffers (the stores the
  case's run found, read back); THE ACCUMULATION — the outputs after point n are the first-point case's at n = 0 and
  the later-point case's over what point n - 1 left in the two accumulators, whose buffers are not written back
  between points —; and the body obligation at every point.
-/
import proofs.«130004_j49941879718343_1_alg».proof.Proof.GinRuns4K

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- An input window's staging buffer holds its block at every point, fetched there or not (where it is not fetched the
    block index has not moved), for any proof data whose array is `V`'s and whose body leaves the block in place. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)
theorem before4_4_of {c : Dev nD} (dat : Dat τ (Elt F) Unit ℕ (UR sig nD τ) ℕ cfg4 c) (hA : dat.A 4 = V c (Pipeline.arrRef spec4 4))
    (hafter : ∀ t, dat.after 4 t = iblk4 V c 4 t) (t : Fin cfg4.N) (d) : dat.before 4 t d = iblk4 V c 4 t :=
  (dat.before_in_eq_fetched 4 rfl (fun _ => rfl) (fun _ _ _ => rfl) (fun t => by rw [hafter]; unfold Dat.blockOf iblk4; rw [hA]; try rfl) t d).trans
    (by unfold Dat.fetched Dat.blockOf iblk4; rw [hA]; try rfl)
theorem before4_5_of {c : Dev nD} (dat : Dat τ (Elt F) Unit ℕ (UR sig nD τ) ℕ cfg4 c) (hA : dat.A 5 = V c (Pipeline.arrRef spec4 5))
    (hafter : ∀ t, dat.after 5 t = iblk4 V c 5 t) (t : Fin cfg4.N) (d) : dat.before 5 t d = iblk4 V c 5 t :=
  (dat.before_in_eq_fetched 5 rfl (fun _ => rfl) (fun _ _ _ => rfl) (fun t => by rw [hafter]; unfold Dat.blockOf iblk4; rw [hA]; try rfl) t d).trans
    (by unfold Dat.fetched Dat.blockOf iblk4; rw [hA]; try rfl)

/-! ## The staging buffers the body is called with -/

abbrev VO4_6 : View sig .tc .vmem S2000x128 .f32 := (Memref.whole cc4_stg6_0 : Memref sig .tc .vmem S2000x128 .f32).view
abbrev VO4_7 : View sig .tc .vmem S1x128 .f32 := (Memref.whole cc4_stg7_0 : Memref sig .tc .vmem S1x128 .f32).view
abbrev VO4_8 : View sig .tc .vmem S1x128 .f32 := (Memref.whole cc4_stg8_0 : Memref sig .tc .vmem S1x128 .f32).view
abbrev ms4_0 (t : Fin cfg4.N) : Memref sig .tc .vmem S2000x128 .f32 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S2000x128 .f32 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S128x128 .f32 := win4_2.stage (cfg4.slots t 2)
abbrev hs4_2 (t : Fin cfg4.N) : (ms4_2 t).IsWhole := hstage4_2 ((cfg4.slots t 2).cast nbuf4_2)
abbrev ms4_3 (t : Fin cfg4.N) : Memref sig .tc .vmem S1x128 .f32 := win4_3.stage (cfg4.slots t 3)
abbrev hs4_3 (t : Fin cfg4.N) : (ms4_3 t).IsWhole := hstage4_3 ((cfg4.slots t 3).cast nbuf4_3)
abbrev ms4_4 (t : Fin cfg4.N) : Memref sig .tc .vmem S128x128 .f32 := win4_4.stage (cfg4.slots t 4)
abbrev hs4_4 (t : Fin cfg4.N) : (ms4_4 t).IsWhole := hstage4_4 ((cfg4.slots t 4).cast nbuf4_4)
abbrev ms4_5 (t : Fin cfg4.N) : Memref sig .tc .vmem S1x128 .f32 := win4_5.stage (cfg4.slots t 5)
abbrev hs4_5 (t : Fin cfg4.N) : (ms4_5 t).IsWhole := hstage4_5 ((cfg4.slots t 5).cast nbuf4_5)
abbrev ms4_6 (t : Fin cfg4.N) : Memref sig .tc .vmem S2000x128 .f32 := win4_6.stage (cfg4.slots t 6)
abbrev hs4_6 (t : Fin cfg4.N) : (ms4_6 t).IsWhole := hstage4_6 ((cfg4.slots t 6).cast nbuf4_6)
abbrev ms4_7 (t : Fin cfg4.N) : Memref sig .tc .vmem S1x128 .f32 := win4_7.stage (cfg4.slots t 7)
abbrev hs4_7 (t : Fin cfg4.N) : (ms4_7 t).IsWhole := hstage4_7 ((cfg4.slots t 7).cast nbuf4_7)
abbrev ms4_8 (t : Fin cfg4.N) : Memref sig .tc .vmem S1x128 .f32 := win4_8.stage (cfg4.slots t 8)
abbrev hs4_8 (t : Fin cfg4.N) : (ms4_8 t).IsWhole := hstage4_8 ((cfg4.slots t 8).cast nbuf4_8)

/-! ## What each case leaves in the outputs -/

/-- Each case's stores to an output cover that output's whole buffer. -/
theorem cover4_A_6 (c : Dev nD) (i : grid4.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (hc : cond4 i)
    (x0 x1 : Vec F S2000x128 .f32) (x2 : Vec F S128x128 .f32) (x3 : Vec F S1x128 .f32) (x4 : Vec F S128x128 .f32) (x5 : Vec F S1x128 .f32) (y : S2000x128.Idx) :
    ∃ pc ∈ (kernelRun4_A c i arg1 harg1 arg2 harg2 arg3 harg3 arg4 harg4 arg5 harg5 arg6 harg6 arg7 harg7 arg8 harg8 arg9 harg9 hc x0 x1 x2 x3 x4 x5).1.1, y ∈ pc.1.set :=
  View.cover_of_tiledL _ S2000x128.size (by sl_kernel_rfl) y
theorem cover4_A_7 (c : Dev nD) (i : grid4.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (hc : cond4 i)
    (x0 x1 : Vec F S2000x128 .f32) (x2 : Vec F S128x128 .f32) (x3 : Vec F S1x128 .f32) (x4 : Vec F S128x128 .f32) (x5 : Vec F S1x128 .f32) (y : S1x128.Idx) :
    ∃ pc ∈ (kernelRun4_A c i arg1 harg1 arg2 harg2 arg3 harg3 arg4 harg4 arg5 harg5 arg6 harg6 arg7 harg7 arg8 harg8 arg9 harg9 hc x0 x1 x2 x3 x4 x5).1.2.1, y ∈ pc.1.set :=
  View.cover_of_tiledL _ S1x128.size (by sl_kernel_rfl) y
theorem cover4_A_8 (c : Dev nD) (i : grid4.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (hc : cond4 i)
    (x0 x1 : Vec F S2000x128 .f32) (x2 : Vec F S128x128 .f32) (x3 : Vec F S1x128 .f32) (x4 : Vec F S128x128 .f32) (x5 : Vec F S1x128 .f32) (y : S1x128.Idx) :
    ∃ pc ∈ (kernelRun4_A c i arg1 harg1 arg2 harg2 arg3 harg3 arg4 harg4 arg5 harg5 arg6 harg6 arg7 harg7 arg8 harg8 arg9 harg9 hc x0 x1 x2 x3 x4 x5).1.2.2, y ∈ pc.1.set :=
  View.cover_of_tiledL _ S1x128.size (by sl_kernel_rfl) y
theorem cover4_B_6 (c : Dev nD) (i : grid4.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (hc : ¬cond4 i)
    (x0 x1 : Vec F S2000x128 .f32) (x2 : Vec F S128x128 .f32) (x3 : Vec F S1x128 .f32) (x4 : Vec F S128x128 .f32) (x5 : Vec F S1x128 .f32) (xo7 xo8 : Vec F S1x128 .f32) (y : S2000x128.Idx) :
    ∃ pc ∈ (kernelRun4_B c i arg1 harg1 arg2 harg2 arg3 harg3 arg4 harg4 arg5 harg5 arg6 harg6 arg7 harg7 arg8 harg8 arg9 harg9 hc x0 x1 x2 x3 x4 x5 xo7 xo8).1.1, y ∈ pc.1.set :=
  View.cover_of_tiledL _ S2000x128.size (by sl_kernel_rfl) y
theorem cover4_B_7 (c : Dev nD) (i : grid4.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (hc : ¬cond4 i)
    (x0 x1 : Vec F S2000x128 .f32) (x2 : Vec F S128x128 .f32) (x3 : Vec F S1x128 .f32) (x4 : Vec F S128x128 .f32) (x5 : Vec F S1x128 .f32) (xo7 xo8 : Vec F S1x128 .f32) (y : S1x128.Idx) :
    ∃ pc ∈ (kernelRun4_B c i arg1 harg1 arg2 harg2 arg3 harg3 arg4 harg4 arg5 harg5 arg6 harg6 arg7 harg7 arg8 harg8 arg9 harg9 hc x0 x1 x2 x3 x4 x5 xo7 xo8).1.2.1, y ∈ pc.1.set :=
  View.cover_of_tiledL _ S1x128.size (by sl_kernel_rfl) y
theorem cover4_B_8 (c : Dev nD) (i : grid4.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (hc : ¬cond4 i)
    (x0 x1 : Vec F S2000x128 .f32) (x2 : Vec F S128x128 .f32) (x3 : Vec F S1x128 .f32) (x4 : Vec F S128x128 .f32) (x5 : Vec F S1x128 .f32) (xo7 xo8 : Vec F S1x128 .f32) (y : S1x128.Idx) :
    ∃ pc ∈ (kernelRun4_B c i arg1 harg1 arg2 harg2 arg3 harg3 arg4 harg4 arg5 harg5 arg6 harg6 arg7 harg7 arg8 harg8 arg9 harg9 hc x0 x1 x2 x3 x4 x5 xo7 xo8).1.2.2, y ∈ pc.1.set :=
  View.cover_of_tiledL _ S1x128.size (by sl_kernel_rfl) y

/-- What the first point leaves in the three outputs: its stores read back. -/
def out4_A (c : Dev nD) (i : grid4.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (hc : cond4 i)
    (x0 x1 : Vec F S2000x128 .f32) (x2 : Vec F S128x128 .f32) (x3 : Vec F S1x128 .f32) (x4 : Vec F S128x128 .f32) (x5 : Vec F S1x128 .f32) : Vec F S2000x128 .f32 × Vec F S1x128 .f32 × Vec F S1x128 .f32 :=
  (VO4_6.read (Elt F) (VO4_6.writes (Elt F) VO4_6.junk (kernelRun4_A c i arg1 harg1 arg2 harg2 arg3 harg3 arg4 harg4 arg5 harg5 arg6 harg6 arg7 harg7 arg8 harg8 arg9 harg9 hc x0 x1 x2 x3 x4 x5).1.1),
   VO4_7.read (Elt F) (VO4_7.writes (Elt F) VO4_7.junk (kernelRun4_A c i arg1 harg1 arg2 harg2 arg3 harg3 arg4 harg4 arg5 harg5 arg6 harg6 arg7 harg7 arg8 harg8 arg9 harg9 hc x0 x1 x2 x3 x4 x5).1.2.1),
   VO4_8.read (Elt F) (VO4_8.writes (Elt F) VO4_8.junk (kernelRun4_A c i arg1 harg1 arg2 harg2 arg3 harg3 arg4 harg4 arg5 harg5 arg6 harg6 arg7 harg7 arg8 harg8 arg9 harg9 hc x0 x1 x2 x3 x4 x5).1.2.2))

/-- What a later point leaves, from the accumulators' running contents. -/
def out4_B (c : Dev nD) (i : grid4.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (hc : ¬cond4 i)
    (x0 x1 : Vec F S2000x128 .f32) (x2 : Vec F S128x128 .f32) (x3 : Vec F S1x128 .f32) (x4 : Vec F S128x128 .f32) (x5 : Vec F S1x128 .f32) (xo7 xo8 : Vec F S1x128 .f32) : Vec F S2000x128 .f32 × Vec F S1x128 .f32 × Vec F S1x128 .f32 :=
  (VO4_6.read (Elt F) (VO4_6.writes (Elt F) VO4_6.junk (kernelRun4_B c i arg1 harg1 arg2 harg2 arg3 harg3 arg4 harg4 arg5 harg5 arg6 harg6 arg7 harg7 arg8 harg8 arg9 harg9 hc x0 x1 x2 x3 x4 x5 xo7 xo8).1.1),
   VO4_7.read (Elt F) (VO4_7.writes (Elt F) VO4_7.junk (kernelRun4_B c i arg1 harg1 arg2 harg2 arg3 harg3 arg4 harg4 arg5 harg5 arg6 harg6 arg7 harg7 arg8 harg8 arg9 harg9 hc x0 x1 x2 x3 x4 x5 xo7 xo8).1.2.1),
   VO4_8.read (Elt F) (VO4_8.writes (Elt F) VO4_8.junk (kernelRun4_B c i arg1 harg1 arg2 harg2 arg3 harg3 arg4 harg4 arg5 harg5 arg6 harg6 arg7 harg7 arg8 harg8 arg9 harg9 hc x0 x1 x2 x3 x4 x5 xo7 xo8).1.2.2))

/-! ## The accumulation -/

/-- The three outputs' buffers after the body at point `n`. -/
def outsAt4 (c : Dev nD) : (n : ℕ) → n < cfg4.N → Vec F S2000x128 .f32 × Vec F S1x128 .f32 × Vec F S1x128 .f32
  | 0, hn => out4_A c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) (ms4_4 ⟨0, hn⟩) (hs4_4 ⟨0, hn⟩) (ms4_5 ⟨0, hn⟩) (hs4_5 ⟨0, hn⟩) (ms4_6 ⟨0, hn⟩) (hs4_6 ⟨0, hn⟩) (ms4_7 ⟨0, hn⟩) (hs4_7 ⟨0, hn⟩) (ms4_8 ⟨0, hn⟩) (hs4_8 ⟨0, hn⟩) ((hcond4 ⟨0, hn⟩).mpr rfl) (iblk4 V c 0 ⟨0, hn⟩) (iblk4 V c 1 ⟨0, hn⟩) (iblk4 V c 2 ⟨0, hn⟩) (iblk4 V c 3 ⟨0, hn⟩) (iblk4 V c 4 ⟨0, hn⟩) (iblk4 V c 5 ⟨0, hn⟩)
  | n + 1, hn => out4_B c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) (ms4_8 ⟨n + 1, hn⟩) (hs4_8 ⟨n + 1, hn⟩) (fun hh => Nat.succ_ne_zero n ((hcond4 ⟨n + 1, hn⟩).mp hh)) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (iblk4 V c 5 ⟨n + 1, hn⟩)
      (outsAt4 c n (Nat.lt_of_succ_lt hn)).2.1 (outsAt4 c n (Nat.lt_of_succ_lt hn)).2.2

theorem outsAt4_A (c : Dev nD) (t : Fin cfg4.N) (h : t.val = 0) :
    outsAt4 V c t.val t.isLt = out4_A c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) ((hcond4 t).mpr h) (iblk4 V c 0 t) (iblk4 V c 1 t) (iblk4 V c 2 t) (iblk4 V c 3 t) (iblk4 V c 4 t) (iblk4 V c 5 t) := by
  obtain ⟨n, hn⟩ := t
  cases n with
  | zero => rfl
  | succ n => exact absurd h (Nat.succ_ne_zero n)

theorem outsAt4_B (c : Dev nD) (t : Fin cfg4.N) (h : t.val ≠ 0) :
    outsAt4 V c t.val t.isLt = out4_B c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) (fun hh => h ((hcond4 t).mp hh)) (iblk4 V c 0 t) (iblk4 V c 1 t) (iblk4 V c 2 t) (iblk4 V c 3 t) (iblk4 V c 4 t) (iblk4 V c 5 t)
      (outsAt4 V c (t.val - 1) (Nat.lt_of_le_of_lt (Nat.sub_le _ _) t.isLt)).2.1 (outsAt4 V c (t.val - 1) (Nat.lt_of_le_of_lt (Nat.sub_le _ _) t.isLt)).2.2 := by
  obtain ⟨n, hn⟩ := t
  cases n with
  | zero => exact absurd rfl h
  | succ n => rfl

/-! ## The pipeline's proof data -/

/-- The arrays as the region finds them; after the body at point `t` each input's buffer at its block and the outputs'
    at `outsAt4`; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => iblk4 V c 5 t
    | ⟨6, _⟩ => (outsAt4 V c t.val t.isLt).1
    | ⟨7, _⟩ => (outsAt4 V c t.val t.isLt).2.1
    | ⟨8, _⟩ => (outsAt4 V c t.val t.isLt).2.2
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) : (dat4 V c).after 5 t = iblk4 V c 5 t := by dsimp only [dat4]
theorem after4_6 (c : Dev nD) (t : Fin cfg4.N) : (dat4 V c).after 6 t = (outsAt4 V c t.val t.isLt).1 := by dsimp only [dat4]
theorem after4_7 (c : Dev nD) (t : Fin cfg4.N) : (dat4 V c).after 7 t = (outsAt4 V c t.val t.isLt).2.1 := by dsimp only [dat4]
theorem after4_8 (c : Dev nD) (t : Fin cfg4.N) : (dat4 V c).after 8 t = (outsAt4 V c t.val t.isLt).2.2 := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d
theorem before4_4 (c : Dev nD) (t : Fin cfg4.N) (d) : (dat4 V c).before 4 t d = iblk4 V c 4 t :=
  before4_4_of V (dat4 V c) (A_eq4 V c 4) (after4_4 V c) t d
theorem before4_5 (c : Dev nD) (t : Fin cfg4.N) (d) : (dat4 V c).before 5 t d = iblk4 V c 5 t :=
  before4_5_of V (dat4 V c) (A_eq4 V c 5) (after4_5 V c) t d

/-- At a later point an accumulator's staging buffer holds what the body left at the point before: it is written back
    only after the last point. -/
theorem before4_7_B (c : Dev nD) (t : Fin cfg4.N) (h : t.val ≠ 0) (d) :
    (dat4 V c).before 7 t d = (outsAt4 V c (t.val - 1) (Nat.lt_of_le_of_lt (Nat.sub_le _ _) t.isLt)).2.1 := by
  have hN : t.val < 50 := lt_of_lt_of_eq t.isLt (show cfg4.N = 50 from N_4)
  rw [Dat.before_out_kept _ 7 rfl t h (Bool.eq_false_iff.mpr fun hh => by have := (flush4_7 _).mp hh; dsimp only at this; omega)
    (fun _ => rfl) (fun _ _ => rfl)]
  dsimp only [dat4]
theorem before4_8_B (c : Dev nD) (t : Fin cfg4.N) (h : t.val ≠ 0) (d) :
    (dat4 V c).before 8 t d = (outsAt4 V c (t.val - 1) (Nat.lt_of_le_of_lt (Nat.sub_le _ _) t.isLt)).2.2 := by
  have hN : t.val < 50 := lt_of_lt_of_eq t.isLt (show cfg4.N = 50 from N_4)
  rw [Dat.before_out_kept _ 8 rfl t h (Bool.eq_false_iff.mpr fun hh => by have := (flush4_8 _).mp hh; dsimp only at this; omega)
    (fun _ => rfl) (fun _ _ => rfl)]
  dsimp only [dat4]

/-! ## The body obligation -/

def bodyPre4 (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d))
    ∗ (∃ d, owns (c : Thread nD τ) (ms4_3 t) fullShare ((dat4 V c).before 3 t d))
    ∗ (∃ d, owns (c : Thread nD τ) (ms4_4 t) fullShare ((dat4 V c).before 4 t d))
    ∗ (∃ d, owns (c : Thread nD τ) (ms4_5 t) fullShare ((dat4 V c).before 5 t d))
    ∗ (∃ d, owns (c : Thread nD τ) (ms4_6 t) fullShare ((dat4 V c).before 6 t d))
    ∗ (∃ d, owns (c : Thread nD τ) (ms4_7 t) fullShare ((dat4 V c).before 7 t d))
    ∗ (∃ d, owns (c : Thread nD τ) (ms4_8 t) fullShare ((dat4 V c).before 8 t d)))

def bodyPost4 (c : Dev nD) (t : Fin cfg4.N) : sProp 𝕄 :=
  iprop((dat4 V c).Φ t.succ ∗ (dat4 V c).owesAt () t.succ
    ∗ owns (c : Thread nD τ) (ms4_0 t) fullShare ((dat4 V c).after 0 t)
    ∗ owns (c : Thread nD τ) (ms4_1 t) fullShare ((dat4 V c).after 1 t)
    ∗ owns (c : Thread nD τ) (ms4_2 t) fullShare ((dat4 V c).after 2 t)
    ∗ owns (c : Thread nD τ) (ms4_3 t) fullShare ((dat4 V c).after 3 t)
    ∗ owns (c : Thread nD τ) (ms4_4 t) fullShare ((dat4 V c).after 4 t)
    ∗ owns (c : Thread nD τ) (ms4_5 t) fullShare ((dat4 V c).after 5 t)
    ∗ owns (c : Thread nD τ) (ms4_6 t) fullShare ((dat4 V c).after 6 t)
    ∗ owns (c : Thread nD τ) (ms4_7 t) fullShare ((dat4 V c).after 7 t)
    ∗ owns (c : Thread nD τ) (ms4_8 t) fullShare ((dat4 V c).after 8 t))

set_option maxHeartbeats 4000000 in
/-- The body at any point: the inputs' buffers hold their blocks; the point is the first or a later one; at a later one
    the accumulators hold what the point before left; so the case's run applies. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4, before4_5]
  rw [show (dat4 V c).Φ t.succ = (dat4 V c).Φ t.castSucc from rfl,
    show (dat4 V c).owesAt () t.succ = (dat4 V c).owesAt () t.castSucc from rfl,
    after4_0, after4_1, after4_2, after4_3, after4_4, after4_5, after4_6, after4_7, after4_8]
  by_cases h0 : t.val = 0
  ·
    rw [outsAt4_A V c t h0]
    unfold out4_A
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((kernelRun4_A c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) ((hcond4 t).mpr h0) (iblk4 V c 0 t) (iblk4 V c 1 t) (iblk4 V c 2 t) (iblk4 V c 3 t) (iblk4 V c 4 t) (iblk4 V c 5 t)).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexists _; iexact H8
    iintro ⟨H0, H1, H2, H3, H4, H5, ⟨%e6, H6⟩, ⟨%e7, H7⟩, ⟨%e8, H8⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    unfold owns
    isplitl [H6]
    · iexists _; isplitr; swap; · iexact H6
      ipureintro; dsimp only; exact View.read_writes_of_cover _ _ _ _ _ (cover4_A_6 (F := F) c _ _ _ _ _ _ _ _ _ _ _ _ _ _ _ _ _ _ _ _ _ _ _ _ _ _)
    isplitl [H7]
    · iexists _; isplitr; swap; · iexact H7
      ipureintro; dsimp only; exact View.read_writes_of_cover _ _ _ _ _ (cover4_A_7 (F := F) c _ _ _ _ _ _ _ _ _ _ _ _ _ _ _ _ _ _ _ _ _ _ _ _ _ _)
    iexists _; isplitr; swap; · iexact H8
    ipureintro; dsimp only; exact View.read_writes_of_cover _ _ _ _ _ (cover4_A_8 (F := F) c _ _ _ _ _ _ _ _ _ _ _ _ _ _ _ _ _ _ _ _ _ _ _ _ _ _)
  ·
    rw [outsAt4_B V c t h0]
    simp only [before4_7_B V c t h0, before4_8_B V c t h0]
    unfold out4_B
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((kernelRun4_B c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) (fun hh => h0 ((hcond4 t).mp hh)) (iblk4 V c 0 t) (iblk4 V c 1 t) (iblk4 V c 2 t) (iblk4 V c 3 t) (iblk4 V c 4 t) (iblk4 V c 5 t) (outsAt4 V c (t.val - 1) (Nat.lt_of_le_of_lt (Nat.sub_le _ _) t.isLt)).2.1 (outsAt4 V c (t.val - 1) (Nat.lt_of_le_of_lt (Nat.sub_le _ _) t.isLt)).2.2).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexact H7
    isplitl [H8]; · iexact H8
    iintro ⟨H0, H1, H2, H3, H4, H5, ⟨%e6, H6⟩, ⟨%e7, H7⟩, ⟨%e8, H8⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    unfold owns
    isplitl [H6]
    · iexists _; isplitr; swap; · iexact H6
      ipureintro; dsimp only; exact View.read_writes_of_cover _ _ _ _ _ (cover4_B_6 (F := F) c _ _ _ _ _ _ _ _ _ _ _ _ _ _ _ _ _ _ _ _ _ _ _ _ _ _ _ _)
    isplitl [H7]
    · iexists _; isplitr; swap; · iexact H7
      ipureintro; dsimp only; exact View.read_writes_of_cover _ _ _ _ _ (cover4_B_7 (F := F) c _ _ _ _ _ _ _ _ _ _ _ _ _ _ _ _ _ _ _ _ _ _ _ _ _ _ _ _)
    iexists _; isplitr; swap; · iexact H8
    ipureintro; dsimp only; exact View.read_writes_of_cover _ _ _ _ _ (cover4_B_8 (F := F) c _ _ _ _ _ _ _ _ _ _ _ _ _ _ _ _ _ _ _ _ _ _ _ _ _ _ _ _)

theorem body_obligation4 (c : Dev nD) : BodyObligation (dat4 (F := F) V c) (defs₀ (F := F)) Variants.none () Set.univ := fun t => by
  rw [bigSep_W4, bigSep_W4]
  exact sound_body4 V c t

end Cert.Kernel.Hand

end
-- ==== Proof.K_RegionBn1.lean ====
import proofs.«130004_j49941879718343_1_alg».proof.Proof.Gen.Kernel.Launch
import proofs.«130004_j49941879718343_1_alg».proof.Proof.Gen.Kernel.Skeleton
import proofs.«130004_j49941879718343_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# Region of pipeline 1: batch normalisation followed by a rectifier, one row block per grid point

The region runs over 50 grid points. At point `t` it is handed the [2000,128] row block `t` of the node features
(window 0), the four [1,128] rows mean, variance, scale and shift (windows 1 to 4, the same block at every point, so
the pipeline fetches them at the first point only) and the output's staging buffer (window 5). The body reads the five
inputs whole and stores, over the whole output block, `max ((h - mean) * rsqrt (var + eps) * scale + shift, 0)`
entry by entry. Everything below is stated at a parameter `V`, the contents of the core's buffers when the region is
entered, and for any float interpretation `F`: nothing is evaluated, the body's one store is carried as the payload
`k1_pay1` of the loaded values.
-/

-- membership in a rectangle of 2000 by 128 entries is checked structurally, once per coordinate of the long axis
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, whether or not the pipeline fetched it
    there, for any proof data whose array is `V`'s (`hA`) and whose body leaves the block in place (`hafter`): an
    unfetched input's block index has not moved since the point before, the window is uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, whether or not the pipeline fetched it
    there, for any proof data whose array is `V`'s (`hA`) and whose body leaves the block in place (`hafter`): an
    unfetched input's block index has not moved since the point before, the window is uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, whether or not the pipeline fetched it
    there, for any proof data whose array is `V`'s (`hA`) and whose body leaves the block in place (`hafter`): an
    unfetched input's block index has not moved since the point before, the window is uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's current staging buffer holds its block at every point, whether or not the pipeline fetched it
    there, for any proof data whose array is `V`'s (`hA`) and whose body leaves the block in place (`hafter`): an
    unfetched input's block index has not moved since the point before, the window is uncut and never idle. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Input window 4's current staging buffer holds its block at every point, whether or not the pipeline fetched it
    there, for any proof data whose array is `V`'s (`hA`) and whose body leaves the block in place (`hafter`): an
    unfetched input's block index has not moved since the point before, the window is uncut and never idle. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: every load and the one store take a whole buffer -/

abbrev r1_0 : Rect S2000x128 := Rect.unit (s := S2000x128) ![0, 0] S2000x128.size inb_S2000x128_S2000x128_0_0
abbrev r1_1 : Rect S1x128 := Rect.unit (s := S1x128) ![0, 0] S1x128.size inb_S1x128_S1x128_0_0

/-! ## What the body leaves in the output window's buffer -/

/-- Window 5's staging buffer after the body, from the five input blocks: its one store, of the normalised and
    rectified block. The body loads the variance row (window 2) before the mean row (window 1), and the payload takes
    its arguments in load order. -/
def out1_5 (x0 : Vec F S2000x128 .f32) (x1 : Vec F S1x128 .f32) (x2 : Vec F S1x128 .f32) (x3 : Vec F S1x128 .f32) (x4 : Vec F S1x128 .f32) : Vec F S2000x128 .f32 :=
  View.canon [⟨r1_0, k1_pay1 (View.ld x0 r1_0) (View.ld x2 r1_1) (View.ld x1 r1_1) (View.ld x3 r1_1) (View.ld x4 r1_1)⟩]

/-- The one store is of the whole block, so it covers the buffer. -/
theorem cover1_5 (p0 : Vec F S2000x128 .f32) (y : S2000x128.Idx) :
    ∃ pc ∈ ([⟨r1_0, p0⟩] : List (View.Piece (Elt F) S2000x128 .f32)), y ∈ pc.1.set :=
  View.cover_of_tiled [⟨r1_0, p0⟩] S2000x128.size (by rfl) y

/-! ## The body's triple -/

set_option maxHeartbeats 1000000 in
/-- The kernel body on whole staging memrefs, the inputs' at contents `x0 … x4` and the output's at anything, runs to
    the continuation holding the inputs' as they were and the output's at `out1_5` of the inputs': the printed function
    is its skeleton of five loads, a load of the output that is not used, and one store, run symbolically. -/
theorem sound_kernel1 (c : Dev nD) (E : Set ℕ) (i : grid1.Coords) (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S2000x128 .f32) (harg6 : arg6.IsWhole)
    (x0 : Vec F S2000x128 .f32) (x1 : Vec F S1x128 .f32) (x2 : Vec F S1x128 .f32) (x3 : Vec F S1x128 .f32) (x4 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out1_5 x0 x1 x2 x3 x4)) -∗ K ⟨⟩))
      ⊢ wp frame (wpE (defs₀ (F := F)) Variants.none c none) E (cc1__bn_relu_kernel i arg1 harg1 arg2 harg2 arg3 harg3 arg4 harg4 arg5 harg5 arg6 harg6) K := by
  simp only [cc1__bn_relu_kernel_eq_skeleton]; unfold cc1__bn_relu_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _)

/-! ## The pipeline's proof data -/

/-- The proof data of pipeline 1 on core `c`: the arrays as the region finds them (`V`); after the body at point
    `t` each input's buffer at its block and the output's at `out1_5` of the input blocks; the invariant is the scoped
    rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

/-- The proof data's arrays are the region-entry contents (the definition projected). -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = out1_5 (iblk1 V c 0 t) (iblk1 V c 1 t) (iblk1 V c 2 t) (iblk1 V c 3 t) (iblk1 V c 4 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the inputs' memrefs hold their blocks (`before1_w`), so `sound_kernel1` applies; the
    invariant and the core's debts pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ (grid1.coords t) _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand
-- ==== Proof.K_RegionBn3.lean ====
import proofs.«130004_j49941879718343_1_alg».proof.Proof.Gen.Kernel.Launch
import proofs.«130004_j49941879718343_1_alg».proof.Proof.Gen.Kernel.Skeleton
import proofs.«130004_j49941879718343_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# Region of pipeline 3: batch normalisation followed by a rectifier, one row block per grid point

The region runs over 50 grid points. At point `t` it is handed the [2000,128] row block `t` of the node features
(window 0), the four [1,128] rows mean, variance, scale and shift (windows 1 to 4, the same block at every point, so
the pipeline fetches them at the first point only) and the output's staging buffer (window 5). The body reads the five
inputs whole and stores, over the whole output block, `max ((h - mean) * rsqrt (var + eps) * scale + shift, 0)`
entry by entry. Everything below is stated at a parameter `V`, the contents of the core's buffers when the region is
entered, and for any float interpretation `F`: nothing is evaluated, the body's one store is carried as the payload
`k3_pay1` of the loaded values.
-/

-- membership in a rectangle of 2000 by 128 entries is checked structurally, once per coordinate of the long axis
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-! ## The windows' blocks -/

/-- Window `w`'s block at point `t`, read off its array as the region finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, whether or not the pipeline fetched it
    there, for any proof data whose array is `V`'s (`hA`) and whose body leaves the block in place (`hafter`): an
    unfetched input's block index has not moved since the point before, the window is uncut and never idle. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
/-- Input window 1's current staging buffer holds its block at every point, whether or not the pipeline fetched it
    there, for any proof data whose array is `V`'s (`hA`) and whose body leaves the block in place (`hafter`): an
    unfetched input's block index has not moved since the point before, the window is uncut and never idle. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
/-- Input window 2's current staging buffer holds its block at every point, whether or not the pipeline fetched it
    there, for any proof data whose array is `V`'s (`hA`) and whose body leaves the block in place (`hafter`): an
    unfetched input's block index has not moved since the point before, the window is uncut and never idle. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
/-- Input window 3's current staging buffer holds its block at every point, whether or not the pipeline fetched it
    there, for any proof data whose array is `V`'s (`hA`) and whose body leaves the block in place (`hafter`): an
    unfetched input's block index has not moved since the point before, the window is uncut and never idle. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)
/-- Input window 4's current staging buffer holds its block at every point, whether or not the pipeline fetched it
    there, for any proof data whose array is `V`'s (`hA`) and whose body leaves the block in place (`hafter`): an
    unfetched input's block index has not moved since the point before, the window is uncut and never idle. -/
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses: every load and the one store take a whole buffer -/

abbrev r3_0 : Rect S2000x128 := Rect.unit (s := S2000x128) ![0, 0] S2000x128.size inb_S2000x128_S2000x128_0_0
abbrev r3_1 : Rect S1x128 := Rect.unit (s := S1x128) ![0, 0] S1x128.size inb_S1x128_S1x128_0_0

/-! ## What the body leaves in the output window's buffer -/

/-- Window 5's staging buffer after the body, from the five input blocks: its one store, of the normalised and
    rectified block. The body loads the variance row (window 2) before the mean row (window 1), and the payload takes
    its arguments in load order. -/
def out3_5 (x0 : Vec F S2000x128 .f32) (x1 : Vec F S1x128 .f32) (x2 : Vec F S1x128 .f32) (x3 : Vec F S1x128 .f32) (x4 : Vec F S1x128 .f32) : Vec F S2000x128 .f32 :=
  View.canon [⟨r3_0, k3_pay1 (View.ld x0 r3_0) (View.ld x2 r3_1) (View.ld x1 r3_1) (View.ld x3 r3_1) (View.ld x4 r3_1)⟩]

/-- The one store is of the whole block, so it covers the buffer. -/
theorem cover3_5 (p0 : Vec F S2000x128 .f32) (y : S2000x128.Idx) :
    ∃ pc ∈ ([⟨r3_0, p0⟩] : List (View.Piece (Elt F) S2000x128 .f32)), y ∈ pc.1.set :=
  View.cover_of_tiled [⟨r3_0, p0⟩] S2000x128.size (by rfl) y

/-! ## The body's triple -/

set_option maxHeartbeats 1000000 in
/-- The kernel body on whole staging memrefs, the inputs' at contents `x0 … x4` and the output's at anything, runs to
    the continuation holding the inputs' as they were and the output's at `out3_5` of the inputs': the printed function
    is its skeleton of five loads, a load of the output that is not used, and one store, run symbolically. -/
theorem sound_kernel3 (c : Dev nD) (E : Set ℕ) (i : grid3.Coords) (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S2000x128 .f32) (harg6 : arg6.IsWhole)
    (x0 : Vec F S2000x128 .f32) (x1 : Vec F S1x128 .f32) (x2 : Vec F S1x128 .f32) (x3 : Vec F S1x128 .f32) (x4 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out3_5 x0 x1 x2 x3 x4)) -∗ K ⟨⟩))
      ⊢ wp frame (wpE (defs₀ (F := F)) Variants.none c none) E (cc3__bn_relu_kernel i arg1 harg1 arg2 harg2 arg3 harg3 arg4 harg4 arg5 harg5 arg6 harg6) K := by
  simp only [cc3__bn_relu_kernel_eq_skeleton]; unfold cc3__bn_relu_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover3_5 _)

/-! ## The pipeline's proof data -/

/-- The proof data of pipeline 3 on core `c`: the arrays as the region finds them (`V`); after the body at point
    `t` each input's buffer at its block and the output's at `out3_5` of the input blocks; the invariant is the scoped
    rest and the generator register, untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => out3_5 (iblk3 V c 0 t) (iblk3 V c 1 t) (iblk3 V c 2 t) (iblk3 V c 3 t) (iblk3 V c 4 t)
  Φ _ := Pipeline.ΦA spec3 c
  q _ := fullShare
  owed _ := 0

/-- The proof data's arrays are the region-entry contents (the definition projected). -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = out3_5 (iblk3 V c 0 t) (iblk3 V c 1 t) (iblk3 V c 2 t) (iblk3 V c 3 t) (iblk3 V c 4 t) := by dsimp only [dat3]

/-- Each input's current staging buffer holds its block at every point, fetched there or not. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t))

/-- The body at any point: the inputs' memrefs hold their blocks (`before3_w`), so `sound_kernel3` applies; the
    invariant and the core's debts pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4]
  rw [show (dat3 V c).Φ t.succ = (dat3 V c).Φ t.castSucc from rfl,
    show (dat3 V c).owesAt () t.succ = (dat3 V c).owesAt () t.castSucc from rfl,
    after3_0, after3_1, after3_2, after3_3, after3_4, after3_5]
  iintro ⟨HΦ, Ho, ⟨%d0, H0⟩, ⟨%d1, H1⟩, ⟨%d2, H2⟩, ⟨%d3, H3⟩, ⟨%d4, H4⟩, ⟨%d5, H5⟩⟩
  iapply (sound_kernel3 c Set.univ (grid3.coords t) _ _ _ _ _ _ _ _ _ _ _ _ (iblk3 V c 0 t) (iblk3 V c 1 t) (iblk3 V c 2 t) (iblk3 V c 3 t) (iblk3 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.Kernel.Hand
-- ==== Proof.K_RegionBn5.lean ====
import proofs.«130004_j49941879718343_1_alg».proof.Proof.Gen.Kernel.Launch
import proofs.«130004_j49941879718343_1_alg».proof.Proof.Gen.Kernel.Skeleton
import proofs.«130004_j49941879718343_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# Region of pipeline 5: batch normalisation followed by a rectifier, one row block per grid point

The region runs over 50 grid points. At point `t` it is handed the [2000,128] row block `t` of the node features
(window 0), the four [1,128] rows mean, variance, scale and shift (windows 1 to 4, the same block at every point, so
the pipeline fetches them at the first point only) and the output's staging buffer (window 5). The body reads the five
inputs whole and stores, over the whole output block, `max ((h - mean) * rsqrt (var + eps) * scale + shift, 0)`
entry by entry. Everything below is stated at a parameter `V`, the contents of the core's buffers when the region is
entered, and for any float interpretation `F`: nothing is evaluated, the body's one store is carried as the payload
`k5_pay1` of the loaded values.
-/

-- membership in a rectangle of 2000 by 128 entries is checked structurally, once per coordinate of the long axis
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-! ## The windows' blocks -/

/-- Window `w`'s block at point `t`, read off its array as the region finds it (`V`). -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0's current staging buffer holds its block at every point, whether or not the pipeline fetched it
    there, for any proof data whose array is `V`'s (`hA`) and whose body leaves the block in place (`hafter`): an
    unfetched input's block index has not moved since the point before, the window is uncut and never idle. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)
/-- Input window 1's current staging buffer holds its block at every point, whether or not the pipeline fetched it
    there, for any proof data whose array is `V`'s (`hA`) and whose body leaves the block in place (`hafter`): an
    unfetched input's block index has not moved since the point before, the window is uncut and never idle. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)
/-- Input window 2's current staging buffer holds its block at every point, whether or not the pipeline fetched it
    there, for any proof data whose array is `V`'s (`hA`) and whose body leaves the block in place (`hafter`): an
    unfetched input's block index has not moved since the point before, the window is uncut and never idle. -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)
/-- Input window 3's current staging buffer holds its block at every point, whether or not the pipeline fetched it
    there, for any proof data whose array is `V`'s (`hA`) and whose body leaves the block in place (`hafter`): an
    unfetched input's block index has not moved since the point before, the window is uncut and never idle. -/
theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)
/-- Input window 4's current staging buffer holds its block at every point, whether or not the pipeline fetched it
    there, for any proof data whose array is `V`'s (`hA`) and whose body leaves the block in place (`hafter`): an
    unfetched input's block index has not moved since the point before, the window is uncut and never idle. -/
theorem before5_4_of {c : Dev nD} (dat : Dat τ (Elt F) Unit ℕ (UR sig nD τ) ℕ cfg5 c) (hA : dat.A 4 = V c (Pipeline.arrRef spec5 4))
    (hafter : ∀ t, dat.after 4 t = iblk5 V c 4 t) (t : Fin cfg5.N) (d) : dat.before 4 t d = iblk5 V c 4 t :=
  (dat.before_in_eq_fetched 4 rfl (fun _ => rfl) (fun _ _ _ => rfl) (fun t => by rw [hafter]; unfold Dat.blockOf iblk5; rw [hA]; try rfl) t d).trans
    (by unfold Dat.fetched Dat.blockOf iblk5; rw [hA]; try rfl)

/-! ## The body's accesses: every load and the one store take a whole buffer -/

abbrev r5_0 : Rect S2000x128 := Rect.unit (s := S2000x128) ![0, 0] S2000x128.size inb_S2000x128_S2000x128_0_0
abbrev r5_1 : Rect S1x128 := Rect.unit (s := S1x128) ![0, 0] S1x128.size inb_S1x128_S1x128_0_0

/-! ## What the body leaves in the output window's buffer -/

/-- Window 5's staging buffer after the body, from the five input blocks: its one store, of the normalised and
    rectified block. The body loads the variance row (window 2) before the mean row (window 1), and the payload takes
    its arguments in load order. -/
def out5_5 (x0 : Vec F S2000x128 .f32) (x1 : Vec F S1x128 .f32) (x2 : Vec F S1x128 .f32) (x3 : Vec F S1x128 .f32) (x4 : Vec F S1x128 .f32) : Vec F S2000x128 .f32 :=
  View.canon [⟨r5_0, k5_pay1 (View.ld x0 r5_0) (View.ld x2 r5_1) (View.ld x1 r5_1) (View.ld x3 r5_1) (View.ld x4 r5_1)⟩]

/-- The one store is of the whole block, so it covers the buffer. -/
theorem cover5_5 (p0 : Vec F S2000x128 .f32) (y : S2000x128.Idx) :
    ∃ pc ∈ ([⟨r5_0, p0⟩] : List (View.Piece (Elt F) S2000x128 .f32)), y ∈ pc.1.set :=
  View.cover_of_tiled [⟨r5_0, p0⟩] S2000x128.size (by rfl) y

/-! ## The body's triple -/

set_option maxHeartbeats 1000000 in
/-- The kernel body on whole staging memrefs, the inputs' at contents `x0 … x4` and the output's at anything, runs to
    the continuation holding the inputs' as they were and the output's at `out5_5` of the inputs': the printed function
    is its skeleton of five loads, a load of the output that is not used, and one store, run symbolically. -/
theorem sound_kernel5 (c : Dev nD) (E : Set ℕ) (i : grid5.Coords) (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S2000x128 .f32) (harg6 : arg6.IsWhole)
    (x0 : Vec F S2000x128 .f32) (x1 : Vec F S1x128 .f32) (x2 : Vec F S1x128 .f32) (x3 : Vec F S1x128 .f32) (x4 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out5_5 x0 x1 x2 x3 x4)) -∗ K ⟨⟩))
      ⊢ wp frame (wpE (defs₀ (F := F)) Variants.none c none) E (cc5__bn_relu_kernel i arg1 harg1 arg2 harg2 arg3 harg3 arg4 harg4 arg5 harg5 arg6 harg6) K := by
  simp only [cc5__bn_relu_kernel_eq_skeleton]; unfold cc5__bn_relu_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover5_5 _)

/-! ## The pipeline's proof data -/

/-- The proof data of pipeline 5 on core `c`: the arrays as the region finds them (`V`); after the body at point
    `t` each input's buffer at its block and the output's at `out5_5` of the input blocks; the invariant is the scoped
    rest and the generator register, untouched; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => out5_5 (iblk5 V c 0 t) (iblk5 V c 1 t) (iblk5 V c 2 t) (iblk5 V c 3 t) (iblk5 V c 4 t)
  Φ _ := Pipeline.ΦA spec5 c
  q _ := fullShare
  owed _ := 0

/-- The proof data's arrays are the region-entry contents (the definition projected). -/
theorem A_eq5 (c : Dev nD) (w : Fin cfg5.W) : (dat5 V c).A w = V c (Pipeline.arrRef spec5 w) := by
  dsimp only [dat5]

/-- What the body leaves, window by window. -/
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) : (dat5 V c).after 5 t = out5_5 (iblk5 V c 0 t) (iblk5 V c 1 t) (iblk5 V c 2 t) (iblk5 V c 3 t) (iblk5 V c 4 t) := by dsimp only [dat5]

/-- Each input's current staging buffer holds its block at every point, fetched there or not. -/
theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d
theorem before5_4 (c : Dev nD) (t : Fin cfg5.N) (d) : (dat5 V c).before 4 t d = iblk5 V c 4 t :=
  before5_4_of V (dat5 V c) (A_eq5 V c 4) (after5_4 V c) t d

/-! ## The body obligation, at a generic point -/

/-- What the body is called with at point `t`, the windows one by one, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t)
    ∗ owns (c : Thread nD τ) (st5_5 t) fullShare ((dat5 V c).after 5 t))

/-- The body at any point: the inputs' memrefs hold their blocks (`before5_w`), so `sound_kernel5` applies; the
    invariant and the core's debts pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4]
  rw [show (dat5 V c).Φ t.succ = (dat5 V c).Φ t.castSucc from rfl,
    show (dat5 V c).owesAt () t.succ = (dat5 V c).owesAt () t.castSucc from rfl,
    after5_0, after5_1, after5_2, after5_3, after5_4, after5_5]
  iintro ⟨HΦ, Ho, ⟨%d0, H0⟩, ⟨%d1, H1⟩, ⟨%d2, H2⟩, ⟨%d3, H3⟩, ⟨%d4, H4⟩, ⟨%d5, H5⟩⟩
  iapply (sound_kernel5 c Set.univ (grid5.coords t) _ _ _ _ _ _ _ _ _ _ _ _ (iblk5 V c 0 t) (iblk5 V c 1 t) (iblk5 V c 2 t) (iblk5 V c 3 t) (iblk5 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation5 (c : Dev nD) : BodyObligation (dat5 (F := F) V c) (defs₀ (F := F)) Variants.none () Set.univ := fun t => by
  rw [bigSep_W5, bigSep_W5]
  exact sound_body5 V c t

end Cert.Kernel.Hand
-- ==== Proof.K_RegionFinal6.lean ====
import proofs.«130004_j49941879718343_1_alg».proof.Proof.Gen.Kernel.Launch
import proofs.«130004_j49941879718343_1_alg».proof.Proof.Gen.Kernel.Skeleton
import proofs.«130004_j49941879718343_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# Region of pipeline 6: the last linear layer and the row normalisation, one grid point

The region has a single grid point. It is handed the whole [512,384] matrix of pooled graph features (window 0), the
[384,128] weight (window 1), the [1,128] bias row (window 2) and the output's staging buffer (window 3). The body reads
the three inputs whole and stores, over the whole [512,128] output, `z / max (sqrt (row sum of z * z), tiny)` with
`z = features * weight + bias`. Everything below is stated at a parameter `V`, the contents of the core's buffers when
the region is entered, and for any float interpretation `F`: nothing is evaluated, the body's one store is carried as
the payload `k6_pay1` of the loaded values.
-/

-- membership in a rectangle of 512 by 128 entries is checked structurally, once per coordinate of the long axis
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-! ## The windows' blocks -/

/-- Window `w`'s block at point `t`, read off its array as the region finds it (`V`). -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- Input window 0's current staging buffer holds its block at every point, whether or not the pipeline fetched it
    there, for any proof data whose array is `V`'s (`hA`) and whose body leaves the block in place (`hafter`): the
    window is uncut and never idle. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)
/-- Input window 1's current staging buffer holds its block at every point, whether or not the pipeline fetched it
    there, for any proof data whose array is `V`'s (`hA`) and whose body leaves the block in place (`hafter`): the
    window is uncut and never idle. -/
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)
/-- Input window 2's current staging buffer holds its block at every point, whether or not the pipeline fetched it
    there, for any proof data whose array is `V`'s (`hA`) and whose body leaves the block in place (`hafter`): the
    window is uncut and never idle. -/
theorem before6_2_of {c : Dev nD} (dat : Dat τ (Elt F) Unit ℕ (UR sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)

/-! ## The body's accesses: every load and the one store take a whole buffer -/

abbrev r6_0 : Rect S512x384 := Rect.unit (s := S512x384) ![0, 0] S512x384.size inb_S512x384_S512x384_0_0
abbrev r6_1 : Rect S384x128 := Rect.unit (s := S384x128) ![0, 0] S384x128.size inb_S384x128_S384x128_0_0
abbrev r6_2 : Rect S1x128 := Rect.unit (s := S1x128) ![0, 0] S1x128.size inb_S1x128_S1x128_0_0
abbrev r6_3 : Rect S512x128 := Rect.unit (s := S512x128) ![0, 0] S512x128.size inb_S512x128_S512x128_0_0

/-! ## What the body leaves in the output window's buffer -/

/-- Window 3's staging buffer after the body, from the three input blocks: its one store, of the normalised rows. -/
def out6_3 (x0 : Vec F S512x384 .f32) (x1 : Vec F S384x128 .f32) (x2 : Vec F S1x128 .f32) : Vec F S512x128 .f32 :=
  View.canon [⟨r6_3, k6_pay1 (View.ld x0 r6_0) (View.ld x1 r6_1) (View.ld x2 r6_2)⟩]

/-- The one store is of the whole block, so it covers the buffer. -/
theorem cover6_3 (p0 : Vec F S512x128 .f32) (y : S512x128.Idx) :
    ∃ pc ∈ ([⟨r6_3, p0⟩] : List (View.Piece (Elt F) S512x128 .f32)), y ∈ pc.1.set :=
  View.cover_of_tiled [⟨r6_3, p0⟩] S512x128.size (by rfl) y

/-! ## The body's triple -/

set_option maxHeartbeats 1000000 in
/-- The kernel body on whole staging memrefs, the inputs' at contents `x0, x1, x2` and the output's at anything, runs
    to the continuation holding the inputs' as they were and the output's at `out6_3` of the inputs': the printed
    function is its skeleton of three loads, a load of the output that is not used, and one store, run symbolically. -/
theorem sound_kernel6 (c : Dev nD) (E : Set ℕ) (i : grid6.Coords) (arg1 : Memref sig .tc .vmem S512x384 .f32) (harg1 : arg1.IsWhole) (arg2 : Memref sig .tc .vmem S384x128 .f32) (harg2 : arg2.IsWhole) (arg3 : Memref sig .tc .vmem S1x128 .f32) (harg3 : arg3.IsWhole) (arg4 : Memref sig .tc .vmem S512x128 .f32) (harg4 : arg4.IsWhole)
    (x0 : Vec F S512x384 .f32) (x1 : Vec F S384x128 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out6_3 x0 x1 x2)) -∗ K ⟨⟩))
      ⊢ wp frame (wpE (defs₀ (F := F)) Variants.none c none) E (cc6__final_kernel i arg1 harg1 arg2 harg2 arg3 harg3 arg4 harg4) K := by
  simp only [cc6__final_kernel_eq_skeleton]; unfold cc6__final_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover6_3 _)

/-! ## The pipeline's proof data -/

/-- The proof data of pipeline 6 on core `c`: the arrays as the region finds them (`V`); after the body each input's
    buffer at its block and the output's at `out6_3` of the input blocks; the invariant is the scoped rest and the
    generator register, untouched; nothing owed; full shares. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => out6_3 (iblk6 V c 0 t) (iblk6 V c 1 t) (iblk6 V c 2 t)
  Φ _ := Pipeline.ΦA spec6 c
  q _ := fullShare
  owed _ := 0

/-- The proof data's arrays are the region-entry contents (the definition projected). -/
theorem A_eq6 (c : Dev nD) (w : Fin cfg6.W) : (dat6 V c).A w = V c (Pipeline.arrRef spec6 w) := by
  dsimp only [dat6]

/-- What the body leaves, window by window. -/
theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = out6_3 (iblk6 V c 0 t) (iblk6 V c 1 t) (iblk6 V c 2 t) := by dsimp only [dat6]

/-- Each input's current staging buffer holds its block at every point, fetched there or not. -/
theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d

/-! ## The body obligation, at a generic point -/

/-- What the body is called with at point `t`, the windows one by one, -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d)))

/-- and what it returns. -/
def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ owns (c : Thread nD τ) (st6_3 t) fullShare ((dat6 V c).after 3 t))

/-- The body at the point: the inputs' memrefs hold their blocks (`before6_w`), so `sound_kernel6` applies; the
    invariant and the core's debts pass through unread. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2]
  rw [show (dat6 V c).Φ t.succ = (dat6 V c).Φ t.castSucc from rfl,
    show (dat6 V c).owesAt () t.succ = (dat6 V c).owesAt () t.castSucc from rfl,
    after6_0, after6_1, after6_2, after6_3]
  iintro ⟨HΦ, Ho, ⟨%d0, H0⟩, ⟨%d1, H1⟩, ⟨%d2, H2⟩, ⟨%d3, H3⟩⟩
  iapply (sound_kernel6 c Set.univ (grid6.coords t) _ _ _ _ _ _ _ _ (iblk6 V c 0 t) (iblk6 V c 1 t) (iblk6 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation6 (c : Dev nD) : BodyObligation (dat6 (F := F) V c) (defs₀ (F := F)) Variants.none () Set.univ := fun t => by
  rw [bigSep_W6, bigSep_W6]
  exact sound_body6 V c t

end Cert.Kernel.Hand
-- ==== Proof.K_Chain.lean ====
import proofs.«130004_j49941879718343_1_alg».proof.Proof.Gen.Kernel.Regions
import proofs.«130004_j49941879718343_1_alg».proof.Proof.GinFrame0K
import proofs.«130004_j49941879718343_1_alg».proof.Proof.GinFrame2K
import proofs.«130004_j49941879718343_1_alg».proof.Proof.GinFrame4K
import proofs.«130004_j49941879718343_1_alg».proof.Proof.K_RegionBn1
import proofs.«130004_j49941879718343_1_alg».proof.Proof.K_RegionBn3
import proofs.«130004_j49941879718343_1_alg».proof.Proof.K_RegionBn5
import proofs.«130004_j49941879718343_1_alg».proof.Proof.K_RegionFinal6
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# The whole run: fourteen items from the launch to the return

The program is seven kernel regions, each preceded by a stretch of host operations: three rounds of (aggregate on the
host, linear layers with running column sums in a region, batch statistics on the host, normalise and rectify in a
region), then pooling on the host and the last linear layer with its row normalisation in a region. This module
threads the contents of the core's buffers through the fourteen items: `W0` is the launch memory, `W(2K+1)` what
the host stretch before region `K` leaves, `W(2K+2)` what region `K` leaves (its windows' arrays at what the pipeline's
write-backs leave, every other buffer untouched). Each region is entered with every unscoped buffer held at the
boundary's contents and left with them held at the next boundary's; the run ends with every unscoped buffer at
`W14`. From that: a buffer that no host stretch writes and that is no region's output ends as launched (so every
argument does), and the last region's output array ends at what its one write-back leaves.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- The core's buffers at launch. -/
abbrev W0 : Dev nD → Valuation τ sig (Elt F) := fun c b => (s₀ m ρ).mem ((c : Dev nD), b)

/-- After the host stretch `hostOps0`: what region 0 is entered from. -/
abbrev W1 : Dev nD → Valuation τ sig (Elt F) := fun c => StableHlo.after hostOps0 (W0 m ρ c)
/-- The same read at the core's own references (what region 0's proof data take). -/
abbrev V1 : (c : Dev nD) → (b : Ref sig .tc) → Buf (Elt F) ((c : Thread nD τ).loc b) := fun c b => W1 m ρ c b
/-- At region 0's exit: its windows' arrays at what the pipeline leaves (an input's as entered, an output's with
    its write-backs folded in), every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the core's own references (region 0's exit contents). -/
abbrev V2 : (c : Dev nD) → (b : Ref sig .tc) → Buf (Elt F) ((c : Thread nD τ).loc b) := fun c b => W2 m ρ c b
/-- At region 0's exit each of its arrays holds what the pipeline leaves, and every other buffer what it held at entry. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)
/-- A buffer the host stretch `hostOps0` does not write is the same before and after it. -/
theorem W1_host (c : Dev nD) (b : Ref sig .tc) (h : b ∉ hostOps0_W) :
    W1 m ρ c (Proc.devRef .tc b) = W0 m ρ c (Proc.devRef .tc b) :=
  StableHlo.after_of_writes_sub hostOps0 _ hostOps0_writes h
/-- A buffer that is no output window's array of region 0 is the same before and after the region: either no window
    stages it, or an input window does, and an input's array ends as it was entered. -/
theorem W2_keep (c : Dev nD) (b : Ref sig .tc) (o : ∀ w, (cfg0.win w).isOut = true → Pipeline.arrRef spec0 w ≠ b) :
    W2 m ρ c (Proc.devRef .tc b) = W1 m ρ c (Proc.devRef .tc b) := by
  by_cases h : ∃ w, Pipeline.arrRef spec0 w = b
  · obtain ⟨w, rfl⟩ := h
    have hin : (cfg0.win w).isOut = false := by
      cases hio : (cfg0.win w).isOut with
      | false => rfl
      | true => exact absurd rfl (o w hio)
    exact (W2_arr m ρ c w).trans (((dat0 (V1 m ρ) c).arrAt_in w hin _).trans (A_eq0 (V1 m ρ) c w))
  · exact W2_of_ne m ρ c b fun w e => h ⟨w, e⟩

/-- After the host stretch `hostOps1`: what region 1 is entered from. -/
abbrev W3 : Dev nD → Valuation τ sig (Elt F) := fun c => StableHlo.after hostOps1 (W2 m ρ c)
/-- The same read at the core's own references (what region 1's proof data take). -/
abbrev V3 : (c : Dev nD) → (b : Ref sig .tc) → Buf (Elt F) ((c : Thread nD τ).loc b) := fun c b => W3 m ρ c b
/-- At region 1's exit: its windows' arrays at what the pipeline leaves (an input's as entered, an output's with
    its write-backs folded in), every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- The same read at the core's own references (region 1's exit contents). -/
abbrev V4 : (c : Dev nD) → (b : Ref sig .tc) → Buf (Elt F) ((c : Thread nD τ).loc b) := fun c b => W4 m ρ c b
/-- At region 1's exit each of its arrays holds what the pipeline leaves, and every other buffer what it held at entry. -/
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)
/-- A buffer the host stretch `hostOps1` does not write is the same before and after it. -/
theorem W3_host (c : Dev nD) (b : Ref sig .tc) (h : b ∉ hostOps1_W) :
    W3 m ρ c (Proc.devRef .tc b) = W2 m ρ c (Proc.devRef .tc b) :=
  StableHlo.after_of_writes_sub hostOps1 _ hostOps1_writes h
/-- A buffer that is no output window's array of region 1 is the same before and after the region: either no window
    stages it, or an input window does, and an input's array ends as it was entered. -/
theorem W4_keep (c : Dev nD) (b : Ref sig .tc) (o : ∀ w, (cfg1.win w).isOut = true → Pipeline.arrRef spec1 w ≠ b) :
    W4 m ρ c (Proc.devRef .tc b) = W3 m ρ c (Proc.devRef .tc b) := by
  by_cases h : ∃ w, Pipeline.arrRef spec1 w = b
  · obtain ⟨w, rfl⟩ := h
    have hin : (cfg1.win w).isOut = false := by
      cases hio : (cfg1.win w).isOut with
      | false => rfl
      | true => exact absurd rfl (o w hio)
    exact (W4_arr m ρ c w).trans (((dat1 (V3 m ρ) c).arrAt_in w hin _).trans (A_eq1 (V3 m ρ) c w))
  · exact W4_of_ne m ρ c b fun w e => h ⟨w, e⟩

/-- After the host stretch `hostOps2`: what region 2 is entered from. -/
abbrev W5 : Dev nD → Valuation τ sig (Elt F) := fun c => StableHlo.after hostOps2 (W4 m ρ c)
/-- The same read at the core's own references (what region 2's proof data take). -/
abbrev V5 : (c : Dev nD) → (b : Ref sig .tc) → Buf (Elt F) ((c : Thread nD τ).loc b) := fun c b => W5 m ρ c b
/-- At region 2's exit: its windows' arrays at what the pipeline leaves (an input's as entered, an output's with
    its write-backs folded in), every other buffer as entered. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
/-- The same read at the core's own references (region 2's exit contents). -/
abbrev V6 : (c : Dev nD) → (b : Ref sig .tc) → Buf (Elt F) ((c : Thread nD τ).loc b) := fun c b => W6 m ρ c b
/-- At region 2's exit each of its arrays holds what the pipeline leaves, and every other buffer what it held at entry. -/
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)
/-- A buffer the host stretch `hostOps2` does not write is the same before and after it. -/
theorem W5_host (c : Dev nD) (b : Ref sig .tc) (h : b ∉ hostOps2_W) :
    W5 m ρ c (Proc.devRef .tc b) = W4 m ρ c (Proc.devRef .tc b) :=
  StableHlo.after_of_writes_sub hostOps2 _ hostOps2_writes h
/-- A buffer that is no output window's array of region 2 is the same before and after the region: either no window
    stages it, or an input window does, and an input's array ends as it was entered. -/
theorem W6_keep (c : Dev nD) (b : Ref sig .tc) (o : ∀ w, (cfg2.win w).isOut = true → Pipeline.arrRef spec2 w ≠ b) :
    W6 m ρ c (Proc.devRef .tc b) = W5 m ρ c (Proc.devRef .tc b) := by
  by_cases h : ∃ w, Pipeline.arrRef spec2 w = b
  · obtain ⟨w, rfl⟩ := h
    have hin : (cfg2.win w).isOut = false := by
      cases hio : (cfg2.win w).isOut with
      | false => rfl
      | true => exact absurd rfl (o w hio)
    exact (W6_arr m ρ c w).trans (((dat2 (V5 m ρ) c).arrAt_in w hin _).trans (A_eq2 (V5 m ρ) c w))
  · exact W6_of_ne m ρ c b fun w e => h ⟨w, e⟩

/-- After the host stretch `hostOps3`: what region 3 is entered from. -/
abbrev W7 : Dev nD → Valuation τ sig (Elt F) := fun c => StableHlo.after hostOps3 (W6 m ρ c)
/-- The same read at the core's own references (what region 3's proof data take). -/
abbrev V7 : (c : Dev nD) → (b : Ref sig .tc) → Buf (Elt F) ((c : Thread nD τ).loc b) := fun c b => W7 m ρ c b
/-- At region 3's exit: its windows' arrays at what the pipeline leaves (an input's as entered, an output's with
    its write-backs folded in), every other buffer as entered. -/
def W8 (c : Dev nD) : Valuation τ sig (Elt F) :=
  Pipeline.withArrays spec3 c (W7 m ρ c) fun w => (dat3 (V7 m ρ) c).arrAt w cfg3.N
theorem W8_arr (c : Dev nD) (w : Fin cfg3.W) :
    W8 m ρ c (Proc.devRef .tc (Pipeline.arrRef spec3 w)) = (dat3 (V7 m ρ) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m ρ c (Proc.devRef .tc b) = W7 m ρ c (Proc.devRef .tc b) := by
  unfold W8; exact Pipeline.withArrays_of_ne spec3 c _ _ b hb
/-- The same read at the core's own references (region 3's exit contents). -/
abbrev V8 : (c : Dev nD) → (b : Ref sig .tc) → Buf (Elt F) ((c : Thread nD τ).loc b) := fun c b => W8 m ρ c b
/-- At region 3's exit each of its arrays holds what the pipeline leaves, and every other buffer what it held at entry. -/
theorem hF3 (c : Dev nD) (w : Fin cfg3.W) : (dat3 (V7 m ρ) c).arrAt w cfg3.N = V8 m ρ c (Pipeline.arrRef spec3 w) :=
  (W8_arr m ρ c w).symm
theorem hrest3 (c : Dev nD) : ∀ b, b ∉ Finset.univ.image (Pipeline.arrRef spec3) → V8 m ρ c b = V7 m ρ c b :=
  fun b hb => W8_of_ne m ρ c b fun w e => hb (Finset.mem_image.mpr ⟨w, Finset.mem_univ _, e⟩)
/-- A buffer the host stretch `hostOps3` does not write is the same before and after it. -/
theorem W7_host (c : Dev nD) (b : Ref sig .tc) (h : b ∉ hostOps3_W) :
    W7 m ρ c (Proc.devRef .tc b) = W6 m ρ c (Proc.devRef .tc b) :=
  StableHlo.after_of_writes_sub hostOps3 _ hostOps3_writes h
/-- A buffer that is no output window's array of region 3 is the same before and after the region: either no window
    stages it, or an input window does, and an input's array ends as it was entered. -/
theorem W8_keep (c : Dev nD) (b : Ref sig .tc) (o : ∀ w, (cfg3.win w).isOut = true → Pipeline.arrRef spec3 w ≠ b) :
    W8 m ρ c (Proc.devRef .tc b) = W7 m ρ c (Proc.devRef .tc b) := by
  by_cases h : ∃ w, Pipeline.arrRef spec3 w = b
  · obtain ⟨w, rfl⟩ := h
    have hin : (cfg3.win w).isOut = false := by
      cases hio : (cfg3.win w).isOut with
      | false => rfl
      | true => exact absurd rfl (o w hio)
    exact (W8_arr m ρ c w).trans (((dat3 (V7 m ρ) c).arrAt_in w hin _).trans (A_eq3 (V7 m ρ) c w))
  · exact W8_of_ne m ρ c b fun w e => h ⟨w, e⟩

/-- After the host stretch `hostOps4`: what region 4 is entered from. -/
abbrev W9 : Dev nD → Valuation τ sig (Elt F) := fun c => StableHlo.after hostOps4 (W8 m ρ c)
/-- The same read at the core's own references (what region 4's proof data take). -/
abbrev V9 : (c : Dev nD) → (b : Ref sig .tc) → Buf (Elt F) ((c : Thread nD τ).loc b) := fun c b => W9 m ρ c b
/-- At region 4's exit: its windows' arrays at what the pipeline leaves (an input's as entered, an output's with
    its write-backs folded in), every other buffer as entered. -/
def W10 (c : Dev nD) : Valuation τ sig (Elt F) :=
  Pipeline.withArrays spec4 c (W9 m ρ c) fun w => (dat4 (V9 m ρ) c).arrAt w cfg4.N
theorem W10_arr (c : Dev nD) (w : Fin cfg4.W) :
    W10 m ρ c (Proc.devRef .tc (Pipeline.arrRef spec4 w)) = (dat4 (V9 m ρ) c).arrAt w cfg4.N := by
  unfold W10; exact Pipeline.withArrays_arr spec4 launch4.win.arr_inj c _ _ w
theorem W10_of_ne (c : Dev nD) (b : Ref sig .tc) (hb : ∀ w, Pipeline.arrRef spec4 w ≠ b) :
    W10 m ρ c (Proc.devRef .tc b) = W9 m ρ c (Proc.devRef .tc b) := by
  unfold W10; exact Pipeline.withArrays_of_ne spec4 c _ _ b hb
/-- The same read at the core's own references (region 4's exit contents). -/
abbrev V10 : (c : Dev nD) → (b : Ref sig .tc) → Buf (Elt F) ((c : Thread nD τ).loc b) := fun c b => W10 m ρ c b
/-- At region 4's exit each of its arrays holds what the pipeline leaves, and every other buffer what it held at entry. -/
theorem hF4 (c : Dev nD) (w : Fin cfg4.W) : (dat4 (V9 m ρ) c).arrAt w cfg4.N = V10 m ρ c (Pipeline.arrRef spec4 w) :=
  (W10_arr m ρ c w).symm
theorem hrest4 (c : Dev nD) : ∀ b, b ∉ Finset.univ.image (Pipeline.arrRef spec4) → V10 m ρ c b = V9 m ρ c b :=
  fun b hb => W10_of_ne m ρ c b fun w e => hb (Finset.mem_image.mpr ⟨w, Finset.mem_univ _, e⟩)
/-- A buffer the host stretch `hostOps4` does not write is the same before and after it. -/
theorem W9_host (c : Dev nD) (b : Ref sig .tc) (h : b ∉ hostOps4_W) :
    W9 m ρ c (Proc.devRef .tc b) = W8 m ρ c (Proc.devRef .tc b) :=
  StableHlo.after_of_writes_sub hostOps4 _ hostOps4_writes h
/-- A buffer that is no output window's array of region 4 is the same before and after the region: either no window
    stages it, or an input window does, and an input's array ends as it was entered. -/
theorem W10_keep (c : Dev nD) (b : Ref sig .tc) (o : ∀ w, (cfg4.win w).isOut = true → Pipeline.arrRef spec4 w ≠ b) :
    W10 m ρ c (Proc.devRef .tc b) = W9 m ρ c (Proc.devRef .tc b) := by
  by_cases h : ∃ w, Pipeline.arrRef spec4 w = b
  · obtain ⟨w, rfl⟩ := h
    have hin : (cfg4.win w).isOut = false := by
      cases hio : (cfg4.win w).isOut with
      | false => rfl
      | true => exact absurd rfl (o w hio)
    exact (W10_arr m ρ c w).trans (((dat4 (V9 m ρ) c).arrAt_in w hin _).trans (A_eq4 (V9 m ρ) c w))
  · exact W10_of_ne m ρ c b fun w e => h ⟨w, e⟩

/-- After the host stretch `hostOps5`: what region 5 is entered from. -/
abbrev W11 : Dev nD → Valuation τ sig (Elt F) := fun c => StableHlo.after hostOps5 (W10 m ρ c)
/-- The same read at the core's own references (what region 5's proof data take). -/
abbrev V11 : (c : Dev nD) → (b : Ref sig .tc) → Buf (Elt F) ((c : Thread nD τ).loc b) := fun c b => W11 m ρ c b
/-- At region 5's exit: its windows' arrays at what the pipeline leaves (an input's as entered, an output's with
    its write-backs folded in), every other buffer as entered. -/
def W12 (c : Dev nD) : Valuation τ sig (Elt F) :=
  Pipeline.withArrays spec5 c (W11 m ρ c) fun w => (dat5 (V11 m ρ) c).arrAt w cfg5.N
theorem W12_arr (c : Dev nD) (w : Fin cfg5.W) :
    W12 m ρ c (Proc.devRef .tc (Pipeline.arrRef spec5 w)) = (dat5 (V11 m ρ) c).arrAt w cfg5.N := by
  unfold W12; exact Pipeline.withArrays_arr spec5 launch5.win.arr_inj c _ _ w
theorem W12_of_ne (c : Dev nD) (b : Ref sig .tc) (hb : ∀ w, Pipeline.arrRef spec5 w ≠ b) :
    W12 m ρ c (Proc.devRef .tc b) = W11 m ρ c (Proc.devRef .tc b) := by
  unfold W12; exact Pipeline.withArrays_of_ne spec5 c _ _ b hb
/-- The same read at the core's own references (region 5's exit contents). -/
abbrev V12 : (c : Dev nD) → (b : Ref sig .tc) → Buf (Elt F) ((c : Thread nD τ).loc b) := fun c b => W12 m ρ c b
/-- At region 5's exit each of its arrays holds what the pipeline leaves, and every other buffer what it held at entry. -/
theorem hF5 (c : Dev nD) (w : Fin cfg5.W) : (dat5 (V11 m ρ) c).arrAt w cfg5.N = V12 m ρ c (Pipeline.arrRef spec5 w) :=
  (W12_arr m ρ c w).symm
theorem hrest5 (c : Dev nD) : ∀ b, b ∉ Finset.univ.image (Pipeline.arrRef spec5) → V12 m ρ c b = V11 m ρ c b :=
  fun b hb => W12_of_ne m ρ c b fun w e => hb (Finset.mem_image.mpr ⟨w, Finset.mem_univ _, e⟩)
/-- A buffer the host stretch `hostOps5` does not write is the same before and after it. -/
theorem W11_host (c : Dev nD) (b : Ref sig .tc) (h : b ∉ hostOps5_W) :
    W11 m ρ c (Proc.devRef .tc b) = W10 m ρ c (Proc.devRef .tc b) :=
  StableHlo.after_of_writes_sub hostOps5 _ hostOps5_writes h
/-- A buffer that is no output window's array of region 5 is the same before and after the region: either no window
    stages it, or an input window does, and an input's array ends as it was entered. -/
theorem W12_keep (c : Dev nD) (b : Ref sig .tc) (o : ∀ w, (cfg5.win w).isOut = true → Pipeline.arrRef spec5 w ≠ b) :
    W12 m ρ c (Proc.devRef .tc b) = W11 m ρ c (Proc.devRef .tc b) := by
  by_cases h : ∃ w, Pipeline.arrRef spec5 w = b
  · obtain ⟨w, rfl⟩ := h
    have hin : (cfg5.win w).isOut = false := by
      cases hio : (cfg5.win w).isOut with
      | false => rfl
      | true => exact absurd rfl (o w hio)
    exact (W12_arr m ρ c w).trans (((dat5 (V11 m ρ) c).arrAt_in w hin _).trans (A_eq5 (V11 m ρ) c w))
  · exact W12_of_ne m ρ c b fun w e => h ⟨w, e⟩

/-- After the host stretch `hostOps6`: what region 6 is entered from. -/
abbrev W13 : Dev nD → Valuation τ sig (Elt F) := fun c => StableHlo.after hostOps6 (W12 m ρ c)
/-- The same read at the core's own references (what region 6's proof data take). -/
abbrev V13 : (c : Dev nD) → (b : Ref sig .tc) → Buf (Elt F) ((c : Thread nD τ).loc b) := fun c b => W13 m ρ c b
/-- At region 6's exit: its windows' arrays at what the pipeline leaves (an input's as entered, an output's with
    its write-backs folded in), every other buffer as entered. -/
def W14 (c : Dev nD) : Valuation τ sig (Elt F) :=
  Pipeline.withArrays spec6 c (W13 m ρ c) fun w => (dat6 (V13 m ρ) c).arrAt w cfg6.N
theorem W14_arr (c : Dev nD) (w : Fin cfg6.W) :
    W14 m ρ c (Proc.devRef .tc (Pipeline.arrRef spec6 w)) = (dat6 (V13 m ρ) c).arrAt w cfg6.N := by
  unfold W14; exact Pipeline.withArrays_arr spec6 launch6.win.arr_inj c _ _ w
theorem W14_of_ne (c : Dev nD) (b : Ref sig .tc) (hb : ∀ w, Pipeline.arrRef spec6 w ≠ b) :
    W14 m ρ c (Proc.devRef .tc b) = W13 m ρ c (Proc.devRef .tc b) := by
  unfold W14; exact Pipeline.withArrays_of_ne spec6 c _ _ b hb
/-- The same read at the core's own references (region 6's exit contents). -/
abbrev V14 : (c : Dev nD) → (b : Ref sig .tc) → Buf (Elt F) ((c : Thread nD τ).loc b) := fun c b => W14 m ρ c b
/-- At region 6's exit each of its arrays holds what the pipeline leaves, and every other buffer what it held at entry. -/
theorem hF6 (c : Dev nD) (w : Fin cfg6.W) : (dat6 (V13 m ρ) c).arrAt w cfg6.N = V14 m ρ c (Pipeline.arrRef spec6 w) :=
  (W14_arr m ρ c w).symm
theorem hrest6 (c : Dev nD) : ∀ b, b ∉ Finset.univ.image (Pipeline.arrRef spec6) → V14 m ρ c b = V13 m ρ c b :=
  fun b hb => W14_of_ne m ρ c b fun w e => hb (Finset.mem_image.mpr ⟨w, Finset.mem_univ _, e⟩)
/-- A buffer the host stretch `hostOps6` does not write is the same before and after it. -/
theorem W13_host (c : Dev nD) (b : Ref sig .tc) (h : b ∉ hostOps6_W) :
    W13 m ρ c (Proc.devRef .tc b) = W12 m ρ c (Proc.devRef .tc b) :=
  StableHlo.after_of_writes_sub hostOps6 _ hostOps6_writes h
/-- A buffer that is no output window's array of region 6 is the same before and after the region: either no window
    stages it, or an input window does, and an input's array ends as it was entered. -/
theorem W14_keep (c : Dev nD) (b : Ref sig .tc) (o : ∀ w, (cfg6.win w).isOut = true → Pipeline.arrRef spec6 w ≠ b) :
    W14 m ρ c (Proc.devRef .tc b) = W13 m ρ c (Proc.devRef .tc b) := by
  by_cases h : ∃ w, Pipeline.arrRef spec6 w = b
  · obtain ⟨w, rfl⟩ := h
    have hin : (cfg6.win w).isOut = false := by
      cases hio : (cfg6.win w).isOut with
      | false => rfl
      | true => exact absurd rfl (o w hio)
    exact (W14_arr m ρ c w).trans (((dat6 (V13 m ρ) c).arrAt_in w hin _).trans (A_eq6 (V13 m ρ) c w))
  · exact W14_of_ne m ρ c b fun w e => h ⟨w, e⟩

/-! ## What ends as launched, and the result -/

/-- A buffer that no host stretch writes and that is no output window's array of any region holds at the end what it
    held at launch: walk the fourteen boundaries back. -/
theorem W14_kept (c : Dev nD) (b : Ref sig .tc)
    (h0 : b ∉ hostOps0_W) (h1 : b ∉ hostOps1_W) (h2 : b ∉ hostOps2_W) (h3 : b ∉ hostOps3_W) (h4 : b ∉ hostOps4_W) (h5 : b ∉ hostOps5_W) (h6 : b ∉ hostOps6_W)
    (o0 : ∀ w, (cfg0.win w).isOut = true → Pipeline.arrRef spec0 w ≠ b)
    (o1 : ∀ w, (cfg1.win w).isOut = true → Pipeline.arrRef spec1 w ≠ b)
    (o2 : ∀ w, (cfg2.win w).isOut = true → Pipeline.arrRef spec2 w ≠ b)
    (o3 : ∀ w, (cfg3.win w).isOut = true → Pipeline.arrRef spec3 w ≠ b)
    (o4 : ∀ w, (cfg4.win w).isOut = true → Pipeline.arrRef spec4 w ≠ b)
    (o5 : ∀ w, (cfg5.win w).isOut = true → Pipeline.arrRef spec5 w ≠ b)
    (o6 : ∀ w, (cfg6.win w).isOut = true → Pipeline.arrRef spec6 w ≠ b) :
    W14 m ρ c (Proc.devRef .tc b) = m ((c : Thread nD τ).loc b) :=
  (W14_keep m ρ c b o6).trans <| (W13_host m ρ c b h6).trans <|
  (W12_keep m ρ c b o5).trans <| (W11_host m ρ c b h5).trans <|
  (W10_keep m ρ c b o4).trans <| (W9_host m ρ c b h4).trans <|
  (W8_keep m ρ c b o3).trans <| (W7_host m ρ c b h3).trans <|
  (W6_keep m ρ c b o2).trans <| (W5_host m ρ c b h2).trans <|
  (W4_keep m ρ c b o1).trans <| (W3_host m ρ c b h1).trans <|
  (W2_keep m ρ c b o0).trans <| (W1_host m ρ c b h0).trans <| rfl

/-- The last region's output array ends at what the pipeline's write-back leaves in it. -/
theorem W14_result (c : Dev nD) : W14 m ρ c (Proc.devRef .tc main_v116) = (dat6 (V13 m ρ) c).arrAt 3 cfg6.N :=
  W14_arr m ρ c 3

/-! ## The proof data family and the thread state -/

/-- Every pipeline's proof data, each at its region's entry contents. -/
def pdats : (p : Fin 7) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
  | ⟨3, _⟩ => fun c => dat3 (V7 m ρ) c
  | ⟨4, _⟩ => fun c => dat4 (V9 m ρ) c
  | ⟨5, _⟩ => fun c => dat5 (V11 m ρ) c
  | ⟨6, _⟩ => fun c => dat6 (V13 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and its debts, at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped reference of the core is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the debts: every unscoped buffer at the last boundary's contents, the generator
    register at some state. -/
abbrev Tₙ (c : Dev nD) : sProp 𝕄 := iprop(StableHlo.held (c : Thread nD τ) (Pipeline.ucRefs τ sig) (W14 m ρ c) ∗ ∃ r, prngReg c r)

/-! ## The regions as segments -/

-- a library lemma stated over the pinned configuration unifies with the printed one only when unification may
-- unfold plain definitions in a metavariable's type
set_option backward.isDefEq.respectTransparency.types false in
/-- REGION 0 over the thread state: entered from every unscoped buffer at `W1`, left at `W2`. Its arrays are split
    out of the unscoped buffers at entry and put back at the exit contents; the generator register goes into the
    pipeline's invariant and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may
-- unfold plain definitions in a metavariable's type
set_option backward.isDefEq.respectTransparency.types false in
/-- REGION 1 over the thread state: entered from every unscoped buffer at `W3`, left at `W4`. Its arrays are split
    out of the unscoped buffers at entry and put back at the exit contents; the generator register goes into the
    pipeline's invariant and comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may
-- unfold plain definitions in a metavariable's type
set_option backward.isDefEq.respectTransparency.types false in
/-- REGION 2 over the thread state: entered from every unscoped buffer at `W5`, left at `W6`. Its arrays are split
    out of the unscoped buffers at entry and put back at the exit contents; the generator register goes into the
    pipeline's invariant and comes back; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may
-- unfold plain definitions in a metavariable's type
set_option backward.isDefEq.respectTransparency.types false in
/-- REGION 3 over the thread state: entered from every unscoped buffer at `W7`, left at `W8`. Its arrays are split
    out of the unscoped buffers at entry and put back at the exit contents; the generator register goes into the
    pipeline's invariant and comes back; nothing is owed; the kernel has no semaphore of its own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V7 m ρ) c).loose
  hwaits := Pipeline.hwaits_of_owed_zero _ _ _ _ L lv 3 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec3 c (V7 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V7 m ρ c) (V8 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may
-- unfold plain definitions in a metavariable's type
set_option backward.isDefEq.respectTransparency.types false in
/-- REGION 4 over the thread state: entered from every unscoped buffer at `W9`, left at `W10`. Its arrays are split
    out of the unscoped buffers at entry and put back at the exit contents; the generator register goes into the
    pipeline's invariant and comes back; nothing is owed; the kernel has no semaphore of its own. -/
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V9 m ρ) c).loose
  hwaits := Pipeline.hwaits_of_owed_zero _ _ _ _ L lv 4 fun _ _ => rfl
  pre c := iprop(StableHlo.held (c : Thread nD τ) (Pipeline.ucRefs τ sig) (W9 m ρ c) ∗ R c)
  post c := iprop(StableHlo.held (c : Thread nD τ) (Pipeline.ucRefs τ sig) (W10 m ρ c) ∗ R c)
  X c := iprop(∃ r, prngReg c r)
  Y c := iprop(∃ r, prngReg c r)
  Z c := Pipeline.unscopedRest (Ix := Unit) (Name := ℕ) (U := UR sig nD τ) (Lvl := ℕ) spec4 c (V9 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V9 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m ρ 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (V9 m ρ c) (V10 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may
-- unfold plain definitions in a metavariable's type
set_option backward.isDefEq.respectTransparency.types false in
/-- REGION 5 over the thread state: entered from every unscoped buffer at `W11`, left at `W12`. Its arrays are split
    out of the unscoped buffers at entry and put back at the exit contents; the generator register goes into the
    pipeline's invariant and comes back; nothing is owed; the kernel has no semaphore of its own. -/
def reg5 : Pipeline.RegionSeg (pcfgs (F := F)) adm (pdats m ρ) () defs₀ 𝒱₀ L lv 5 where
  win := launch5.win.to₀
  block_pos := launch5.block_pos
  stage_whole := launch5.stage_whole
  K := PEmpty
  osem k := k.elim
  ho := Pipeline.OwnSemFacts.none _
  hbody c := (body_obligation5 (V11 m ρ) c).loose
  hwaits := Pipeline.hwaits_of_owed_zero _ _ _ _ L lv 5 fun _ _ => rfl
  pre c := iprop(StableHlo.held (c : Thread nD τ) (Pipeline.ucRefs τ sig) (W11 m ρ c) ∗ R c)
  post c := iprop(StableHlo.held (c : Thread nD τ) (Pipeline.ucRefs τ sig) (W12 m ρ c) ∗ R c)
  X c := iprop(∃ r, prngReg c r)
  Y c := iprop(∃ r, prngReg c r)
  Z c := Pipeline.unscopedRest (Ix := Unit) (Name := ℕ) (U := UR sig nD τ) (Lvl := ℕ) spec5 c (V11 m ρ c)
  hentry c := by
    rw [Pipeline.ownSems0_none]
    have hsplit := Pipeline.arrays_of_unscopedBufs (p := 5) (pcfgs (F := F)) adm (pdats m ρ) launch5.win launch5.arr_whole c
      ((pdats m ρ 5 c).share_full fun _ => rfl) (V11 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m ρ 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m ρ) ((pdats m ρ 5 c).share_full fun _ => rfl)
      (V11 m ρ c) (V12 m ρ c) ((pdats m ρ 5 c).arrAt · cfg5.N) (hF5 m ρ c) (hrest5 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may
-- unfold plain definitions in a metavariable's type
set_option backward.isDefEq.respectTransparency.types false in
/-- REGION 6 over the thread state: entered from every unscoped buffer at `W13`, left at `W14`. Its arrays are split
    out of the unscoped buffers at entry and put back at the exit contents; the generator register goes into the
    pipeline's invariant and comes back; nothing is owed; the kernel has no semaphore of its own. -/
def reg6 : Pipeline.RegionSeg (pcfgs (F := F)) adm (pdats m ρ) () defs₀ 𝒱₀ L lv 6 where
  win := launch6.win.to₀
  block_pos := launch6.block_pos
  stage_whole := launch6.stage_whole
  K := PEmpty
  osem k := k.elim
  ho := Pipeline.OwnSemFacts.none _
  hbody c := (body_obligation6 (V13 m ρ) c).loose
  hwaits := Pipeline.hwaits_of_owed_zero _ _ _ _ L lv 6 fun _ _ => rfl
  pre c := iprop(StableHlo.held (c : Thread nD τ) (Pipeline.ucRefs τ sig) (W13 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec6 c (V13 m ρ c)
  hentry c := by
    rw [Pipeline.ownSems0_none]
    have hsplit := Pipeline.arrays_of_unscopedBufs (p := 6) (pcfgs (F := F)) adm (pdats m ρ) launch6.win launch6.arr_whole c
      ((pdats m ρ 6 c).share_full fun _ => rfl) (V13 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 6 c).Φ 0 = Pipeline.ΦA spec6 c from rfl]; unfold Pipeline.ΦA
    iintro ⟨Hp, -, Hr⟩
    isplitl [Hr]; · iexact Hr
    iexact Hp
  hout c := by
    rw [Pipeline.ownSems0_none, show (pdats m ρ 6 c).Φ (Fin.last _) = Pipeline.ΦA spec6 c from rfl]; unfold Pipeline.ΦA
    iintro ⟨Hr, Hp⟩
    isplitl [Hp]; · iexact Hp
    isplitr; · iempintro
    iexact Hr
  hexit c := by
    have hjoin := Pipeline.unscopedBufs_of_arrays (p := 6) (pcfgs (F := F)) adm (Ix := Unit) (Name := ℕ) (U := UR sig nD τ) (Lvl := ℕ)
      launch6.win launch6.arr_whole c (pdats m ρ) ((pdats m ρ 6 c).share_full fun _ => rfl)
      (V13 m ρ c) (V14 m ρ c) ((pdats m ρ 6 c).arrAt · cfg6.N) (hF6 m ρ c) (hrest6 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

/-- The fourteen segments in order: a host segment per stretch from its boundary's contents, a region per kernel call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)),
    .region (reg3 m ρ),
    .host (hseg hostOps4 hostOps4_sub hostOps4_fresh (W8 m ρ)),
    .region (reg4 m ρ),
    .host (hseg hostOps5 hostOps5_sub hostOps5_fresh (W10 m ρ)),
    .region (reg5 m ρ),
    .host (hseg hostOps6 hostOps6_sub hostOps6_fresh (W12 m ρ)),
    .region (reg6 m ρ) ]

/-- The program is the run of the segments: both are the same chain of fourteen items. -/
theorem main_run (c : Dev nD) : main (F := F) c = Pipeline.Seg.run (segs m ρ) := (main_chain c).trans (by chain_rfl)

-- the launch theorem's implicit arguments are found by unifying its conclusion with this one, which takes unfolding
-- plain definitions in a metavariable's type
set_option backward.isDefEq.respectTransparency.types false in
/-- THE RUN: from any memory with zero counters, every weakly fair execution of the program on the cores terminates,
    nothing faulting, and every final memory holds every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W14 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W14 m ρ c b)
    (hfin := fun c s' => by
      iintro ⟨⟨Hh, -⟩, HSI⟩
      unfold StableHlo.held
      imodintro
      iapply (pointsTo_read_all (Pipeline.ucRefs τ sig) (fun b => (((c : Thread nD τ)).1, b)) (W14 m ρ c) s')
      isplitl [Hh] <;> iassumption)
    (hQ := fun s h => h)

/-! ## The frame: every argument ends as launched -/

/-- No host stretch writes an argument and no region has one as an output, so each of the 23 arguments holds at the end
    what it held at launch. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)) :=
  (θ_run defs _ _).mono (fun r h c =>
    ⟨(h c _ (mem_uc main_arg0 (by decide))).trans (W14_kept m ρ c main_arg0 (by decide) (by decide) (by decide) (by decide) (by decide) (by decide) (by decide) (by decide) (by decide) (by decide) (by decide) (by decide) (by decide) (by decide)),
     (h c _ (mem_uc main_arg1 (by decide))).trans (W14_kept m ρ c main_arg1 (by decide) (by decide) (by decide) (by decide) (by decide) (by decide) (by decide) (by decide) (by decide) (by decide) (by decide) (by decide) (by decide) (by decide)),
     (h c _ (mem_uc main_arg2 (by decide))).trans (W14_kept m ρ c main_arg2 (by decide) (by decide) (by decide) (by decide) (by decide) (by decide) (by decide) (by decide) (by decide) (by decide) (by decide) (by decide) (by decide) (by decide)),
     (h c _ (mem_uc main_arg3 (by decide))).trans (W14_kept m ρ c main_arg3 (by decide) (by decide) (by decide) (by decide) (by decide) (by decide) (by decide) (by decide) (by decide) (by decide) (by decide) (by decide) (by decide) (by decide)),
     (h c _ (mem_uc main_arg4 (by decide))).trans (W14_kept m ρ c main_arg4 (by decide) (by decide) (by decide) (by decide) (by decide) (by decide) (by decide) (by decide) (by decide) (by decide) (by decide) (by decide) (by decide) (by decide)),
     (h c _ (mem_uc main_arg5 (by decide))).trans (W14_kept m ρ c main_arg5 (by decide) (by decide) (by decide) (by decide) (by decide) (by decide) (by decide) (by decide) (by decide) (by decide) (by decide) (by decide) (by decide) (by decide)),
     (h c _ (mem_uc main_arg6 (by decide))).trans (W14_kept m ρ c main_arg6 (by decide) (by decide) (by decide) (by decide) (by decide) (by decide) (by decide) (by decide) (by decide) (by decide) (by decide) (by decide) (by decide) (by decide)),
     (h c _ (mem_uc main_arg7 (by decide))).trans (W14_kept m ρ c main_arg7 (by decide) (by decide) (by decide) (by decide) (by decide) (by decide) (by decide) (by decide) (by decide) (by decide) (by decide) (by decide) (by decide) (by decide)),
     (h c _ (mem_uc main_arg8 (by decide))).trans (W14_kept m ρ c main_arg8 (by decide) (by decide) (by decide) (by decide) (by decide) (by decide) (by decide) (by decide) (by decide) (by decide) (by decide) (by decide) (by decide) (by decide)),
     (h c _ (mem_uc main_arg9 (by decide))).trans (W14_kept m ρ c main_arg9 (by decide) (by decide) (by decide) (by decide) (by decide) (by decide) (by decide) (by decide) (by decide) (by decide) (by decide) (by decide) (by decide) (by decide)),
     (h c _ (mem_uc main_arg10 (by decide))).trans (W14_kept m ρ c main_arg10 (by decide) (by decide) (by decide) (by decide) (by decide) (by decide) (by decide) (by decide) (by decide) (by decide) (by decide) (by decide) (by decide) (by decide)),
     (h c _ (mem_uc main_arg11 (by decide))).trans (W14_kept m ρ c main_arg11 (by decide) (by decide) (by decide) (by decide) (by decide) (by decide) (by decide) (by decide) (by decide) (by decide) (by decide) (by decide) (by decide) (by decide)),
     (h c _ (mem_uc main_arg12 (by decide))).trans (W14_kept m ρ c main_arg12 (by decide) (by decide) (by decide) (by decide) (by decide) (by decide) (by decide) (by decide) (by decide) (by decide) (by decide) (by decide) (by decide) (by decide)),
     (h c _ (mem_uc main_arg13 (by decide))).trans (W14_kept m ρ c main_arg13 (by decide) (by decide) (by decide) (by decide) (by decide) (by decide) (by decide) (by decide) (by decide) (by decide) (by decide) (by decide) (by decide) (by decide)),
     (h c _ (mem_uc main_arg14 (by decide))).trans (W14_kept m ρ c main_arg14 (by decide) (by decide) (by decide) (by decide) (by decide) (by decide) (by decide) (by decide) (by decide) (by decide) (by decide) (by decide) (by decide) (by decide)),
     (h c _ (mem_uc main_arg15 (by decide))).trans (W14_kept m ρ c main_arg15 (by decide) (by decide) (by decide) (by decide) (by decide) (by decide) (by decide) (by decide) (by decide) (by decide) (by decide) (by decide) (by decide) (by decide)),
     (h c _ (mem_uc main_arg16 (by decide))).trans (W14_kept m ρ c main_arg16 (by decide) (by decide) (by decide) (by decide) (by decide) (by decide) (by decide) (by decide) (by decide) (by decide) (by decide) (by decide) (by decide) (by decide)),
     (h c _ (mem_uc main_arg17 (by decide))).trans (W14_kept m ρ c main_arg17 (by decide) (by decide) (by decide) (by decide) (by decide) (by decide) (by decide) (by decide) (by decide) (by decide) (by decide) (by decide) (by decide) (by decide)),
     (h c _ (mem_uc main_arg18 (by decide))).trans (W14_kept m ρ c main_arg18 (by decide) (by decide) (by decide) (by decide) (by decide) (by decide) (by decide) (by decide) (by decide) (by decide) (by decide) (by decide) (by decide) (by decide)),
     (h c _ (mem_uc main_arg19 (by decide))).trans (W14_kept m ρ c main_arg19 (by decide) (by decide) (by decide) (by decide) (by decide) (by decide) (by decide) (by decide) (by decide) (by decide) (by decide) (by decide) (by decide) (by decide)),
     (h c _ (mem_uc main_arg20 (by decide))).trans (W14_kept m ρ c main_arg20 (by decide) (by decide) (by decide) (by decide) (by decide) (by decide) (by decide) (by decide) (by decide) (by decide) (by decide) (by decide) (by decide) (by decide)),
     (h c _ (mem_uc main_arg21 (by decide))).trans (W14_kept m ρ c main_arg21 (by decide) (by decide) (by decide) (by decide) (by decide) (by decide) (by decide) (by decide) (by decide) (by decide) (by decide) (by decide) (by decide) (by decide)),
     (h c _ (mem_uc main_arg22 (by decide))).trans (W14_kept m ρ c main_arg22 (by decide) (by decide) (by decide) (by decide) (by decide) (by decide) (by decide) (by decide) (by decide) (by decide) (by decide) (by decide) (by decide) (by decide))⟩) (run_all m ρ)

end Cert.Kernel.Hand
-- ==== Proof.GinRuns0.lean ====
/-
  The node-update kernel of pipeline 0 — per row block: h + agg, two 128x128 matrix products with bias and a rectifier
  between them, the block's result stored whole, and its column sums and column sums of squares added into two
  one-row accumulators that the first grid point zeroes — run on whole staging buffers, once for each of its two
  control cases: the first grid point (the accumulators are zeroed before they are read) and every later point (they
  are read at what the point before left). Each run hands every output buffer back as its stores written over what
  it held, the stores found by the run itself.
-/
import proofs.«130004_j49941879718343_1_alg».proof.Proof.Gen.KernelIdeal.Launch
import proofs.«130004_j49941879718343_1_alg».proof.Proof.Gen.KernelIdeal.Skeleton
import proofs.«130004_j49941879718343_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body's one branch: "this is grid point 0", as the body computes it from the grid coordinate. -/
abbrev cond0 (i : grid0.Coords) : Prop :=
  (Scalar.cmpi .ne (Scalar.extui (Scalar.cmpi .eq (BitVec.ofNat 32 (i 0).val) 0#32)) 0#32) = 1#1

/-- It holds at the first of the 50 points and at no other. -/
theorem hcond0 : ∀ t : Fin cfg0.N, cond0 (grid0.coords t) ↔ t.val = 0 :=
  (by decide +kernel : ∀ t : Fin grid0.N, cond0 (grid0.coords t) ↔ t.val = 0)

/-- The three outputs' stores: the block's result, the running column sums, the running column sums of squares. -/
abbrev Pieces0 (F : FTy → Type) [FloatOps F] : Type := List (View.Piece (Elt F) S2000x128 .f32) × List (View.Piece (Elt F) S1x128 .f32) × List (View.Piece (Elt F) S1x128 .f32)

set_option maxHeartbeats 4000000 in
/-- THE FIRST POINT. The inputs' buffers at their contents, the outputs' at anything: the accumulators are zeroed,
    then read back (zero) and added to. -/
noncomputable def kernelRun0_A (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (hc : cond0 i)
    (x0 x1 : Vec F S2000x128 .f32) (x2 : Vec F S128x128 .f32) (x3 : Vec F S1x128 .f32) (x4 : Vec F S128x128 .f32) (x5 : Vec F S1x128 .f32) :
    { L : Pieces0 F //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
            ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
                ∗ (∃ f, arg7.view.loc (c : Thread nD τ) ↦[arg7.view.set]{fullShare} arg7.view.writes (Elt F) f L.1) ∗ (∃ f, arg8.view.loc (c : Thread nD τ) ↦[arg8.view.set]{fullShare} arg8.view.writes (Elt F) f L.2.1) ∗ (∃ f, arg9.view.loc (c : Thread nD τ) ↦[arg9.view.set]{fullShare} arg9.view.writes (Elt F) f L.2.2)) -∗ K ⟨⟩))
          ⊢ wp frame (wpE (defs₀ (F := F)) Variants.none c none) E (cc0__gin_mlp_kernel i arg1 harg1 arg2 harg2 arg3 harg3 arg4 harg4 arg5 harg5 arg6 harg6 arg7 harg7 arg8 harg8 arg9 harg9) K } := by
  refine ⟨(?_, ?_, ?_), fun E K => ?run⟩
  case run =>
    simp only [cc0__gin_mlp_kernel_eq_skeleton]; unfold cc0__gin_mlp_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    sl_exec (disch := exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]; · iexists _; iexact H7
    iexists _; iexact H8

set_option maxHeartbeats 4000000 in
/-- EVERY LATER POINT. The inputs' buffers at their contents, the two accumulators at their running contents `xo7`,
    `xo8`, the block output at anything: the accumulators are read as they stand and added to. -/
noncomputable def kernelRun0_B (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (hc : ¬cond0 i)
    (x0 x1 : Vec F S2000x128 .f32) (x2 : Vec F S128x128 .f32) (x3 : Vec F S1x128 .f32) (x4 : Vec F S128x128 .f32) (x5 : Vec F S1x128 .f32) (xo7 xo8 : Vec F S1x128 .f32) :
    { L : Pieces0 F //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
            ∗ (∃ d, owns (c : Thread nD τ) arg7 fullShare d) ∗ owns (c : Thread nD τ) arg8 fullShare xo7 ∗ owns (c : Thread nD τ) arg9 fullShare xo8
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
                ∗ (∃ f, arg7.view.loc (c : Thread nD τ) ↦[arg7.view.set]{fullShare} arg7.view.writes (Elt F) f L.1) ∗ (∃ f, arg8.view.loc (c : Thread nD τ) ↦[arg8.view.set]{fullShare} arg8.view.writes (Elt F) f L.2.1) ∗ (∃ f, arg9.view.loc (c : Thread nD τ) ↦[arg9.view.set]{fullShare} arg9.view.writes (Elt F) f L.2.2)) -∗ K ⟨⟩))
          ⊢ wp frame (wpE (defs₀ (F := F)) Variants.none c none) E (cc0__gin_mlp_kernel i arg1 harg1 arg2 harg2 arg3 harg3 arg4 harg4 arg5 harg5 arg6 harg6 arg7 harg7 arg8 harg8 arg9 harg9) K } := by
  refine ⟨(?_, ?_, ?_), fun E K => ?run⟩
  case run =>
    simp only [cc0__gin_mlp_kernel_eq_skeleton]; unfold cc0__gin_mlp_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg8.eq_unread hf7; obtain rfl := harg9.eq_unread hf8
    sl_exec (disch := exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]; · iexists _; iexact H7
    iexists _; iexact H8

end Cert.KernelIdeal.Hand

end
-- ==== Proof.GinFrame0.lean ====
/-
  Pipeline 0 (the node-update kernel) as the pipeline's proof data, at the buffer contents `V` the region is entered
  with: each window's block at a grid point; what each control case leaves in the three output buffers (the stores the
  case's run found, read back); THE ACCUMULATION — the outputs after point n are the first-point case's at n = 0 and
  the later-point case's over what point n - 1 left in the two accumulators, whose buffers are not written back
  between points —; and the body obligation at every point.
-/
import proofs.«130004_j49941879718343_1_alg».proof.Proof.GinRuns0

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds its block at every point, fetched there or not (where it is not fetched the
    block index has not moved), for any proof data whose array is `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-! ## The staging buffers the body is called with -/

abbrev VO0_6 : View sig .tc .vmem S2000x128 .f32 := (Memref.whole cc0_stg6_0 : Memref sig .tc .vmem S2000x128 .f32).view
abbrev VO0_7 : View sig .tc .vmem S1x128 .f32 := (Memref.whole cc0_stg7_0 : Memref sig .tc .vmem S1x128 .f32).view
abbrev VO0_8 : View sig .tc .vmem S1x128 .f32 := (Memref.whole cc0_stg8_0 : Memref sig .tc .vmem S1x128 .f32).view
abbrev ms0_0 (t : Fin cfg0.N) : Memref sig .tc .vmem S2000x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2000x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S128x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S128x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x128 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S2000x128 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x128 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x128 .f32 := win0_8.stage (cfg0.slots t 8)
abbrev hs0_8 (t : Fin cfg0.N) : (ms0_8 t).IsWhole := hstage0_8 ((cfg0.slots t 8).cast nbuf0_8)

/-! ## What each case leaves in the outputs -/

/-- Each case's stores to an output cover that output's whole buffer. -/
theorem cover0_A_6 (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (hc : cond0 i)
    (x0 x1 : Vec F S2000x128 .f32) (x2 : Vec F S128x128 .f32) (x3 : Vec F S1x128 .f32) (x4 : Vec F S128x128 .f32) (x5 : Vec F S1x128 .f32) (y : S2000x128.Idx) :
    ∃ pc ∈ (kernelRun0_A c i arg1 harg1 arg2 harg2 arg3 harg3 arg4 harg4 arg5 harg5 arg6 harg6 arg7 harg7 arg8 harg8 arg9 harg9 hc x0 x1 x2 x3 x4 x5).1.1, y ∈ pc.1.set :=
  View.cover_of_tiledL _ S2000x128.size (by sl_kernel_rfl) y
theorem cover0_A_7 (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (hc : cond0 i)
    (x0 x1 : Vec F S2000x128 .f32) (x2 : Vec F S128x128 .f32) (x3 : Vec F S1x128 .f32) (x4 : Vec F S128x128 .f32) (x5 : Vec F S1x128 .f32) (y : S1x128.Idx) :
    ∃ pc ∈ (kernelRun0_A c i arg1 harg1 arg2 harg2 arg3 harg3 arg4 harg4 arg5 harg5 arg6 harg6 arg7 harg7 arg8 harg8 arg9 harg9 hc x0 x1 x2 x3 x4 x5).1.2.1, y ∈ pc.1.set :=
  View.cover_of_tiledL _ S1x128.size (by sl_kernel_rfl) y
theorem cover0_A_8 (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (hc : cond0 i)
    (x0 x1 : Vec F S2000x128 .f32) (x2 : Vec F S128x128 .f32) (x3 : Vec F S1x128 .f32) (x4 : Vec F S128x128 .f32) (x5 : Vec F S1x128 .f32) (y : S1x128.Idx) :
    ∃ pc ∈ (kernelRun0_A c i arg1 harg1 arg2 harg2 arg3 harg3 arg4 harg4 arg5 harg5 arg6 harg6 arg7 harg7 arg8 harg8 arg9 harg9 hc x0 x1 x2 x3 x4 x5).1.2.2, y ∈ pc.1.set :=
  View.cover_of_tiledL _ S1x128.size (by sl_kernel_rfl) y
theorem cover0_B_6 (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (hc : ¬cond0 i)
    (x0 x1 : Vec F S2000x128 .f32) (x2 : Vec F S128x128 .f32) (x3 : Vec F S1x128 .f32) (x4 : Vec F S128x128 .f32) (x5 : Vec F S1x128 .f32) (xo7 xo8 : Vec F S1x128 .f32) (y : S2000x128.Idx) :
    ∃ pc ∈ (kernelRun0_B c i arg1 harg1 arg2 harg2 arg3 harg3 arg4 harg4 arg5 harg5 arg6 harg6 arg7 harg7 arg8 harg8 arg9 harg9 hc x0 x1 x2 x3 x4 x5 xo7 xo8).1.1, y ∈ pc.1.set :=
  View.cover_of_tiledL _ S2000x128.size (by sl_kernel_rfl) y
theorem cover0_B_7 (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (hc : ¬cond0 i)
    (x0 x1 : Vec F S2000x128 .f32) (x2 : Vec F S128x128 .f32) (x3 : Vec F S1x128 .f32) (x4 : Vec F S128x128 .f32) (x5 : Vec F S1x128 .f32) (xo7 xo8 : Vec F S1x128 .f32) (y : S1x128.Idx) :
    ∃ pc ∈ (kernelRun0_B c i arg1 harg1 arg2 harg2 arg3 harg3 arg4 harg4 arg5 harg5 arg6 harg6 arg7 harg7 arg8 harg8 arg9 harg9 hc x0 x1 x2 x3 x4 x5 xo7 xo8).1.2.1, y ∈ pc.1.set :=
  View.cover_of_tiledL _ S1x128.size (by sl_kernel_rfl) y
theorem cover0_B_8 (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (hc : ¬cond0 i)
    (x0 x1 : Vec F S2000x128 .f32) (x2 : Vec F S128x128 .f32) (x3 : Vec F S1x128 .f32) (x4 : Vec F S128x128 .f32) (x5 : Vec F S1x128 .f32) (xo7 xo8 : Vec F S1x128 .f32) (y : S1x128.Idx) :
    ∃ pc ∈ (kernelRun0_B c i arg1 harg1 arg2 harg2 arg3 harg3 arg4 harg4 arg5 harg5 arg6 harg6 arg7 harg7 arg8 harg8 arg9 harg9 hc x0 x1 x2 x3 x4 x5 xo7 xo8).1.2.2, y ∈ pc.1.set :=
  View.cover_of_tiledL _ S1x128.size (by sl_kernel_rfl) y

/-- What the first point leaves in the three outputs: its stores read back. -/
def out0_A (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (hc : cond0 i)
    (x0 x1 : Vec F S2000x128 .f32) (x2 : Vec F S128x128 .f32) (x3 : Vec F S1x128 .f32) (x4 : Vec F S128x128 .f32) (x5 : Vec F S1x128 .f32) : Vec F S2000x128 .f32 × Vec F S1x128 .f32 × Vec F S1x128 .f32 :=
  (VO0_6.read (Elt F) (VO0_6.writes (Elt F) VO0_6.junk (kernelRun0_A c i arg1 harg1 arg2 harg2 arg3 harg3 arg4 harg4 arg5 harg5 arg6 harg6 arg7 harg7 arg8 harg8 arg9 harg9 hc x0 x1 x2 x3 x4 x5).1.1),
   VO0_7.read (Elt F) (VO0_7.writes (Elt F) VO0_7.junk (kernelRun0_A c i arg1 harg1 arg2 harg2 arg3 harg3 arg4 harg4 arg5 harg5 arg6 harg6 arg7 harg7 arg8 harg8 arg9 harg9 hc x0 x1 x2 x3 x4 x5).1.2.1),
   VO0_8.read (Elt F) (VO0_8.writes (Elt F) VO0_8.junk (kernelRun0_A c i arg1 harg1 arg2 harg2 arg3 harg3 arg4 harg4 arg5 harg5 arg6 harg6 arg7 harg7 arg8 harg8 arg9 harg9 hc x0 x1 x2 x3 x4 x5).1.2.2))

/-- What a later point leaves, from the accumulators' running contents. -/
def out0_B (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (hc : ¬cond0 i)
    (x0 x1 : Vec F S2000x128 .f32) (x2 : Vec F S128x128 .f32) (x3 : Vec F S1x128 .f32) (x4 : Vec F S128x128 .f32) (x5 : Vec F S1x128 .f32) (xo7 xo8 : Vec F S1x128 .f32) : Vec F S2000x128 .f32 × Vec F S1x128 .f32 × Vec F S1x128 .f32 :=
  (VO0_6.read (Elt F) (VO0_6.writes (Elt F) VO0_6.junk (kernelRun0_B c i arg1 harg1 arg2 harg2 arg3 harg3 arg4 harg4 arg5 harg5 arg6 harg6 arg7 harg7 arg8 harg8 arg9 harg9 hc x0 x1 x2 x3 x4 x5 xo7 xo8).1.1),
   VO0_7.read (Elt F) (VO0_7.writes (Elt F) VO0_7.junk (kernelRun0_B c i arg1 harg1 arg2 harg2 arg3 harg3 arg4 harg4 arg5 harg5 arg6 harg6 arg7 harg7 arg8 harg8 arg9 harg9 hc x0 x1 x2 x3 x4 x5 xo7 xo8).1.2.1),
   VO0_8.read (Elt F) (VO0_8.writes (Elt F) VO0_8.junk (kernelRun0_B c i arg1 harg1 arg2 harg2 arg3 harg3 arg4 harg4 arg5 harg5 arg6 harg6 arg7 harg7 arg8 harg8 arg9 harg9 hc x0 x1 x2 x3 x4 x5 xo7 xo8).1.2.2))

/-! ## The accumulation -/

/-- The three outputs' buffers after the body at point `n`. -/
def outsAt0 (c : Dev nD) : (n : ℕ) → n < cfg0.N → Vec F S2000x128 .f32 × Vec F S1x128 .f32 × Vec F S1x128 .f32
  | 0, hn => out0_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) ((hcond0 ⟨0, hn⟩).mpr rfl) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩)
  | n + 1, hn => out0_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (fun hh => Nat.succ_ne_zero n ((hcond0 ⟨n + 1, hn⟩).mp hh)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩)
      (outsAt0 c n (Nat.lt_of_succ_lt hn)).2.1 (outsAt0 c n (Nat.lt_of_succ_lt hn)).2.2

theorem outsAt0_A (c : Dev nD) (t : Fin cfg0.N) (h : t.val = 0) :
    outsAt0 V c t.val t.isLt = out0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) ((hcond0 t).mpr h) (iblk0 V c 0 t) (iblk0 V c 1 t) (iblk0 V c 2 t) (iblk0 V c 3 t) (iblk0 V c 4 t) (iblk0 V c 5 t) := by
  obtain ⟨n, hn⟩ := t
  cases n with
  | zero => rfl
  | succ n => exact absurd h (Nat.succ_ne_zero n)

theorem outsAt0_B (c : Dev nD) (t : Fin cfg0.N) (h : t.val ≠ 0) :
    outsAt0 V c t.val t.isLt = out0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (fun hh => h ((hcond0 t).mp hh)) (iblk0 V c 0 t) (iblk0 V c 1 t) (iblk0 V c 2 t) (iblk0 V c 3 t) (iblk0 V c 4 t) (iblk0 V c 5 t)
      (outsAt0 V c (t.val - 1) (Nat.lt_of_le_of_lt (Nat.sub_le _ _) t.isLt)).2.1 (outsAt0 V c (t.val - 1) (Nat.lt_of_le_of_lt (Nat.sub_le _ _) t.isLt)).2.2 := by
  obtain ⟨n, hn⟩ := t
  cases n with
  | zero => exact absurd rfl h
  | succ n => rfl

/-! ## The pipeline's proof data -/

/-- The arrays as the region finds them; after the body at point `t` each input's buffer at its block and the outputs'
    at `outsAt0`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => (outsAt0 V c t.val t.isLt).1
    | ⟨7, _⟩ => (outsAt0 V c t.val t.isLt).2.1
    | ⟨8, _⟩ => (outsAt0 V c t.val t.isLt).2.2
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = (outsAt0 V c t.val t.isLt).1 := by dsimp only [dat0]
theorem after0_7 (c : Dev nD) (t : Fin cfg0.N) : (dat0 V c).after 7 t = (outsAt0 V c t.val t.isLt).2.1 := by dsimp only [dat0]
theorem after0_8 (c : Dev nD) (t : Fin cfg0.N) : (dat0 V c).after 8 t = (outsAt0 V c t.val t.isLt).2.2 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

/-- At a later point an accumulator's staging buffer holds what the body left at the point before: it is written back
    only after the last point. -/
theorem before0_7_B (c : Dev nD) (t : Fin cfg0.N) (h : t.val ≠ 0) (d) :
    (dat0 V c).before 7 t d = (outsAt0 V c (t.val - 1) (Nat.lt_of_le_of_lt (Nat.sub_le _ _) t.isLt)).2.1 := by
  have hN : t.val < 50 := lt_of_lt_of_eq t.isLt (show cfg0.N = 50 from N_0)
  rw [Dat.before_out_kept _ 7 rfl t h (Bool.eq_false_iff.mpr fun hh => by have := (flush0_7 _).mp hh; dsimp only at this; omega)
    (fun _ => rfl) (fun _ _ => rfl)]
  dsimp only [dat0]
theorem before0_8_B (c : Dev nD) (t : Fin cfg0.N) (h : t.val ≠ 0) (d) :
    (dat0 V c).before 8 t d = (outsAt0 V c (t.val - 1) (Nat.lt_of_le_of_lt (Nat.sub_le _ _) t.isLt)).2.2 := by
  have hN : t.val < 50 := lt_of_lt_of_eq t.isLt (show cfg0.N = 50 from N_0)
  rw [Dat.before_out_kept _ 8 rfl t h (Bool.eq_false_iff.mpr fun hh => by have := (flush0_8 _).mp hh; dsimp only at this; omega)
    (fun _ => rfl) (fun _ _ => rfl)]
  dsimp only [dat0]

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d))
    ∗ (∃ d, owns (c : Thread nD τ) (ms0_8 t) fullShare ((dat0 V c).before 8 t d)))

def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t)
    ∗ owns (c : Thread nD τ) (ms0_3 t) fullShare ((dat0 V c).after 3 t)
    ∗ owns (c : Thread nD τ) (ms0_4 t) fullShare ((dat0 V c).after 4 t)
    ∗ owns (c : Thread nD τ) (ms0_5 t) fullShare ((dat0 V c).after 5 t)
    ∗ owns (c : Thread nD τ) (ms0_6 t) fullShare ((dat0 V c).after 6 t)
    ∗ owns (c : Thread nD τ) (ms0_7 t) fullShare ((dat0 V c).after 7 t)
    ∗ owns (c : Thread nD τ) (ms0_8 t) fullShare ((dat0 V c).after 8 t))

set_option maxHeartbeats 4000000 in
/-- The body at any point: the inputs' buffers hold their blocks; the point is the first or a later one; at a later one
    the accumulators hold what the point before left; so the case's run applies. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8]
  by_cases h0 : t.val = 0
  ·
    rw [outsAt0_A V c t h0]
    unfold out0_A
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) ((hcond0 t).mpr h0) (iblk0 V c 0 t) (iblk0 V c 1 t) (iblk0 V c 2 t) (iblk0 V c 3 t) (iblk0 V c 4 t) (iblk0 V c 5 t)).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexists _; iexact H8
    iintro ⟨H0, H1, H2, H3, H4, H5, ⟨%e6, H6⟩, ⟨%e7, H7⟩, ⟨%e8, H8⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    unfold owns
    isplitl [H6]
    · iexists _; isplitr; swap; · iexact H6
      ipureintro; dsimp only; exact View.read_writes_of_cover _ _ _ _ _ (cover0_A_6 (F := F) c _ _ _ _ _ _ _ _ _ _ _ _ _ _ _ _ _ _ _ _ _ _ _ _ _ _)
    isplitl [H7]
    · iexists _; isplitr; swap; · iexact H7
      ipureintro; dsimp only; exact View.read_writes_of_cover _ _ _ _ _ (cover0_A_7 (F := F) c _ _ _ _ _ _ _ _ _ _ _ _ _ _ _ _ _ _ _ _ _ _ _ _ _ _)
    iexists _; isplitr; swap; · iexact H8
    ipureintro; dsimp only; exact View.read_writes_of_cover _ _ _ _ _ (cover0_A_8 (F := F) c _ _ _ _ _ _ _ _ _ _ _ _ _ _ _ _ _ _ _ _ _ _ _ _ _ _)
  ·
    rw [outsAt0_B V c t h0]
    simp only [before0_7_B V c t h0, before0_8_B V c t h0]
    unfold out0_B
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (fun hh => h0 ((hcond0 t).mp hh)) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.1 (outsAt0 V c (t.val - 1) (Nat.lt_of_le_of_lt (Nat.sub_le _ _) t.isLt)).2.2).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexact H7
    isplitl [H8]; · iexact H8
    iintro ⟨H0, H1, H2, H3, H4, H5, ⟨%e6, H6⟩, ⟨%e7, H7⟩, ⟨%e8, H8⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    unfold owns
    isplitl [H6]
    · iexists _; isplitr; swap; · iexact H6
      ipureintro; dsimp only; exact View.read_writes_of_cover _ _ _ _ _ (cover0_B_6 (F := F) c _ _ _ _ _ _ _ _ _ _ _ _ _ _ _ _ _ _ _ _ _ _ _ _ _ _ _ _)
    isplitl [H7]
    · iexists _; isplitr; swap; · iexact H7
      ipureintro; dsimp only; exact View.read_writes_of_cover _ _ _ _ _ (cover0_B_7 (F := F) c _ _ _ _ _ _ _ _ _ _ _ _ _ _ _ _ _ _ _ _ _ _ _ _ _ _ _ _)
    iexists _; isplitr; swap; · iexact H8
    ipureintro; dsimp only; exact View.read_writes_of_cover _ _ _ _ _ (cover0_B_8 (F := F) c _ _ _ _ _ _ _ _ _ _ _ _ _ _ _ _ _ _ _ _ _ _ _ _ _ _ _ _)

theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.GinRuns2.lean ====
/-
  The node-update kernel of pipeline 2 — per row block: h + agg, two 128x128 matrix products with bias and a rectifier
  between them, the block's result stored whole, and its column sums and column sums of squares added into two
  one-row accumulators that the first grid point zeroes — run on whole staging buffers, once for each of its two
  control cases: the first grid point (the accumulators are zeroed before they are read) and every later point (they
  are read at what the point before left). Each run hands every output buffer back as its stores written over what
  it held, the stores found by the run itself.
-/
import proofs.«130004_j49941879718343_1_alg».proof.Proof.Gen.KernelIdeal.Launch
import proofs.«130004_j49941879718343_1_alg».proof.Proof.Gen.KernelIdeal.Skeleton
import proofs.«130004_j49941879718343_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body's one branch: "this is grid point 0", as the body computes it from the grid coordinate. -/
abbrev cond2 (i : grid2.Coords) : Prop :=
  (Scalar.cmpi .ne (Scalar.extui (Scalar.cmpi .eq (BitVec.ofNat 32 (i 0).val) 0#32)) 0#32) = 1#1

/-- It holds at the first of the 50 points and at no other. -/
theorem hcond2 : ∀ t : Fin cfg2.N, cond2 (grid2.coords t) ↔ t.val = 0 :=
  (by decide +kernel : ∀ t : Fin grid2.N, cond2 (grid2.coords t) ↔ t.val = 0)

/-- The three outputs' stores: the block's result, the running column sums, the running column sums of squares. -/
abbrev Pieces2 (F : FTy → Type) [FloatOps F] : Type := List (View.Piece (Elt F) S2000x128 .f32) × List (View.Piece (Elt F) S1x128 .f32) × List (View.Piece (Elt F) S1x128 .f32)

set_option maxHeartbeats 4000000 in
/-- THE FIRST POINT. The inputs' buffers at their contents, the outputs' at anything: the accumulators are zeroed,
    then read back (zero) and added to. -/
noncomputable def kernelRun2_A (c : Dev nD) (i : grid2.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (hc : cond2 i)
    (x0 x1 : Vec F S2000x128 .f32) (x2 : Vec F S128x128 .f32) (x3 : Vec F S1x128 .f32) (x4 : Vec F S128x128 .f32) (x5 : Vec F S1x128 .f32) :
    { L : Pieces2 F //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
            ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
                ∗ (∃ f, arg7.view.loc (c : Thread nD τ) ↦[arg7.view.set]{fullShare} arg7.view.writes (Elt F) f L.1) ∗ (∃ f, arg8.view.loc (c : Thread nD τ) ↦[arg8.view.set]{fullShare} arg8.view.writes (Elt F) f L.2.1) ∗ (∃ f, arg9.view.loc (c : Thread nD τ) ↦[arg9.view.set]{fullShare} arg9.view.writes (Elt F) f L.2.2)) -∗ K ⟨⟩))
          ⊢ wp frame (wpE (defs₀ (F := F)) Variants.none c none) E (cc2__gin_mlp_kernel i arg1 harg1 arg2 harg2 arg3 harg3 arg4 harg4 arg5 harg5 arg6 harg6 arg7 harg7 arg8 harg8 arg9 harg9) K } := by
  refine ⟨(?_, ?_, ?_), fun E K => ?run⟩
  case run =>
    simp only [cc2__gin_mlp_kernel_eq_skeleton]; unfold cc2__gin_mlp_kernel_skel
    simp only [k2_part1_eq_skeleton]; unfold k2_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    sl_exec (disch := exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]; · iexists _; iexact H7
    iexists _; iexact H8

set_option maxHeartbeats 4000000 in
/-- EVERY LATER POINT. The inputs' buffers at their contents, the two accumulators at their running contents `xo7`,
    `xo8`, the block output at anything: the accumulators are read as they stand and added to. -/
noncomputable def kernelRun2_B (c : Dev nD) (i : grid2.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (hc : ¬cond2 i)
    (x0 x1 : Vec F S2000x128 .f32) (x2 : Vec F S128x128 .f32) (x3 : Vec F S1x128 .f32) (x4 : Vec F S128x128 .f32) (x5 : Vec F S1x128 .f32) (xo7 xo8 : Vec F S1x128 .f32) :
    { L : Pieces2 F //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
            ∗ (∃ d, owns (c : Thread nD τ) arg7 fullShare d) ∗ owns (c : Thread nD τ) arg8 fullShare xo7 ∗ owns (c : Thread nD τ) arg9 fullShare xo8
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
                ∗ (∃ f, arg7.view.loc (c : Thread nD τ) ↦[arg7.view.set]{fullShare} arg7.view.writes (Elt F) f L.1) ∗ (∃ f, arg8.view.loc (c : Thread nD τ) ↦[arg8.view.set]{fullShare} arg8.view.writes (Elt F) f L.2.1) ∗ (∃ f, arg9.view.loc (c : Thread nD τ) ↦[arg9.view.set]{fullShare} arg9.view.writes (Elt F) f L.2.2)) -∗ K ⟨⟩))
          ⊢ wp frame (wpE (defs₀ (F := F)) Variants.none c none) E (cc2__gin_mlp_kernel i arg1 harg1 arg2 harg2 arg3 harg3 arg4 harg4 arg5 harg5 arg6 harg6 arg7 harg7 arg8 harg8 arg9 harg9) K } := by
  refine ⟨(?_, ?_, ?_), fun E K => ?run⟩
  case run =>
    simp only [cc2__gin_mlp_kernel_eq_skeleton]; unfold cc2__gin_mlp_kernel_skel
    simp only [k2_part1_eq_skeleton]; unfold k2_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg8.eq_unread hf7; obtain rfl := harg9.eq_unread hf8
    sl_exec (disch := exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]; · iexists _; iexact H7
    iexists _; iexact H8

end Cert.KernelIdeal.Hand

end
-- ==== Proof.GinFrame2.lean ====
/-
  Pipeline 2 (the node-update kernel) as the pipeline's proof data, at the buffer contents `V` the region is entered
  with: each window's block at a grid point; what each control case leaves in the three output buffers (the stores the
  case's run found, read back); THE ACCUMULATION — the outputs after point n are the first-point case's at n = 0 and
  the later-point case's over what point n - 1 left in the two accumulators, whose buffers are not written back
  between points —; and the body obligation at every point.
-/
import proofs.«130004_j49941879718343_1_alg».proof.Proof.GinRuns2

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's staging buffer holds its block at every point, fetched there or not (where it is not fetched the
    block index has not moved), for any proof data whose array is `V`'s and whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-! ## The staging buffers the body is called with -/

abbrev VO2_6 : View sig .tc .vmem S2000x128 .f32 := (Memref.whole cc2_stg6_0 : Memref sig .tc .vmem S2000x128 .f32).view
abbrev VO2_7 : View sig .tc .vmem S1x128 .f32 := (Memref.whole cc2_stg7_0 : Memref sig .tc .vmem S1x128 .f32).view
abbrev VO2_8 : View sig .tc .vmem S1x128 .f32 := (Memref.whole cc2_stg8_0 : Memref sig .tc .vmem S1x128 .f32).view
abbrev ms2_0 (t : Fin cfg2.N) : Memref sig .tc .vmem S2000x128 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S2000x128 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S128x128 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1x128 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S128x128 .f32 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S1x128 .f32 := win2_5.stage (cfg2.slots t 5)
abbrev hs2_5 (t : Fin cfg2.N) : (ms2_5 t).IsWhole := hstage2_5 ((cfg2.slots t 5).cast nbuf2_5)
abbrev ms2_6 (t : Fin cfg2.N) : Memref sig .tc .vmem S2000x128 .f32 := win2_6.stage (cfg2.slots t 6)
abbrev hs2_6 (t : Fin cfg2.N) : (ms2_6 t).IsWhole := hstage2_6 ((cfg2.slots t 6).cast nbuf2_6)
abbrev ms2_7 (t : Fin cfg2.N) : Memref sig .tc .vmem S1x128 .f32 := win2_7.stage (cfg2.slots t 7)
abbrev hs2_7 (t : Fin cfg2.N) : (ms2_7 t).IsWhole := hstage2_7 ((cfg2.slots t 7).cast nbuf2_7)
abbrev ms2_8 (t : Fin cfg2.N) : Memref sig .tc .vmem S1x128 .f32 := win2_8.stage (cfg2.slots t 8)
abbrev hs2_8 (t : Fin cfg2.N) : (ms2_8 t).IsWhole := hstage2_8 ((cfg2.slots t 8).cast nbuf2_8)

/-! ## What each case leaves in the outputs -/

/-- Each case's stores to an output cover that output's whole buffer. -/
theorem cover2_A_6 (c : Dev nD) (i : grid2.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (hc : cond2 i)
    (x0 x1 : Vec F S2000x128 .f32) (x2 : Vec F S128x128 .f32) (x3 : Vec F S1x128 .f32) (x4 : Vec F S128x128 .f32) (x5 : Vec F S1x128 .f32) (y : S2000x128.Idx) :
    ∃ pc ∈ (kernelRun2_A c i arg1 harg1 arg2 harg2 arg3 harg3 arg4 harg4 arg5 harg5 arg6 harg6 arg7 harg7 arg8 harg8 arg9 harg9 hc x0 x1 x2 x3 x4 x5).1.1, y ∈ pc.1.set :=
  View.cover_of_tiledL _ S2000x128.size (by sl_kernel_rfl) y
theorem cover2_A_7 (c : Dev nD) (i : grid2.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (hc : cond2 i)
    (x0 x1 : Vec F S2000x128 .f32) (x2 : Vec F S128x128 .f32) (x3 : Vec F S1x128 .f32) (x4 : Vec F S128x128 .f32) (x5 : Vec F S1x128 .f32) (y : S1x128.Idx) :
    ∃ pc ∈ (kernelRun2_A c i arg1 harg1 arg2 harg2 arg3 harg3 arg4 harg4 arg5 harg5 arg6 harg6 arg7 harg7 arg8 harg8 arg9 harg9 hc x0 x1 x2 x3 x4 x5).1.2.1, y ∈ pc.1.set :=
  View.cover_of_tiledL _ S1x128.size (by sl_kernel_rfl) y
theorem cover2_A_8 (c : Dev nD) (i : grid2.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (hc : cond2 i)
    (x0 x1 : Vec F S2000x128 .f32) (x2 : Vec F S128x128 .f32) (x3 : Vec F S1x128 .f32) (x4 : Vec F S128x128 .f32) (x5 : Vec F S1x128 .f32) (y : S1x128.Idx) :
    ∃ pc ∈ (kernelRun2_A c i arg1 harg1 arg2 harg2 arg3 harg3 arg4 harg4 arg5 harg5 arg6 harg6 arg7 harg7 arg8 harg8 arg9 harg9 hc x0 x1 x2 x3 x4 x5).1.2.2, y ∈ pc.1.set :=
  View.cover_of_tiledL _ S1x128.size (by sl_kernel_rfl) y
theorem cover2_B_6 (c : Dev nD) (i : grid2.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (hc : ¬cond2 i)
    (x0 x1 : Vec F S2000x128 .f32) (x2 : Vec F S128x128 .f32) (x3 : Vec F S1x128 .f32) (x4 : Vec F S128x128 .f32) (x5 : Vec F S1x128 .f32) (xo7 xo8 : Vec F S1x128 .f32) (y : S2000x128.Idx) :
    ∃ pc ∈ (kernelRun2_B c i arg1 harg1 arg2 harg2 arg3 harg3 arg4 harg4 arg5 harg5 arg6 harg6 arg7 harg7 arg8 harg8 arg9 harg9 hc x0 x1 x2 x3 x4 x5 xo7 xo8).1.1, y ∈ pc.1.set :=
  View.cover_of_tiledL _ S2000x128.size (by sl_kernel_rfl) y
theorem cover2_B_7 (c : Dev nD) (i : grid2.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (hc : ¬cond2 i)
    (x0 x1 : Vec F S2000x128 .f32) (x2 : Vec F S128x128 .f32) (x3 : Vec F S1x128 .f32) (x4 : Vec F S128x128 .f32) (x5 : Vec F S1x128 .f32) (xo7 xo8 : Vec F S1x128 .f32) (y : S1x128.Idx) :
    ∃ pc ∈ (kernelRun2_B c i arg1 harg1 arg2 harg2 arg3 harg3 arg4 harg4 arg5 harg5 arg6 harg6 arg7 harg7 arg8 harg8 arg9 harg9 hc x0 x1 x2 x3 x4 x5 xo7 xo8).1.2.1, y ∈ pc.1.set :=
  View.cover_of_tiledL _ S1x128.size (by sl_kernel_rfl) y
theorem cover2_B_8 (c : Dev nD) (i : grid2.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (hc : ¬cond2 i)
    (x0 x1 : Vec F S2000x128 .f32) (x2 : Vec F S128x128 .f32) (x3 : Vec F S1x128 .f32) (x4 : Vec F S128x128 .f32) (x5 : Vec F S1x128 .f32) (xo7 xo8 : Vec F S1x128 .f32) (y : S1x128.Idx) :
    ∃ pc ∈ (kernelRun2_B c i arg1 harg1 arg2 harg2 arg3 harg3 arg4 harg4 arg5 harg5 arg6 harg6 arg7 harg7 arg8 harg8 arg9 harg9 hc x0 x1 x2 x3 x4 x5 xo7 xo8).1.2.2, y ∈ pc.1.set :=
  View.cover_of_tiledL _ S1x128.size (by sl_kernel_rfl) y

/-- What the first point leaves in the three outputs: its stores read back. -/
def out2_A (c : Dev nD) (i : grid2.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (hc : cond2 i)
    (x0 x1 : Vec F S2000x128 .f32) (x2 : Vec F S128x128 .f32) (x3 : Vec F S1x128 .f32) (x4 : Vec F S128x128 .f32) (x5 : Vec F S1x128 .f32) : Vec F S2000x128 .f32 × Vec F S1x128 .f32 × Vec F S1x128 .f32 :=
  (VO2_6.read (Elt F) (VO2_6.writes (Elt F) VO2_6.junk (kernelRun2_A c i arg1 harg1 arg2 harg2 arg3 harg3 arg4 harg4 arg5 harg5 arg6 harg6 arg7 harg7 arg8 harg8 arg9 harg9 hc x0 x1 x2 x3 x4 x5).1.1),
   VO2_7.read (Elt F) (VO2_7.writes (Elt F) VO2_7.junk (kernelRun2_A c i arg1 harg1 arg2 harg2 arg3 harg3 arg4 harg4 arg5 harg5 arg6 harg6 arg7 harg7 arg8 harg8 arg9 harg9 hc x0 x1 x2 x3 x4 x5).1.2.1),
   VO2_8.read (Elt F) (VO2_8.writes (Elt F) VO2_8.junk (kernelRun2_A c i arg1 harg1 arg2 harg2 arg3 harg3 arg4 harg4 arg5 harg5 arg6 harg6 arg7 harg7 arg8 harg8 arg9 harg9 hc x0 x1 x2 x3 x4 x5).1.2.2))

/-- What a later point leaves, from the accumulators' running contents. -/
def out2_B (c : Dev nD) (i : grid2.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (hc : ¬cond2 i)
    (x0 x1 : Vec F S2000x128 .f32) (x2 : Vec F S128x128 .f32) (x3 : Vec F S1x128 .f32) (x4 : Vec F S128x128 .f32) (x5 : Vec F S1x128 .f32) (xo7 xo8 : Vec F S1x128 .f32) : Vec F S2000x128 .f32 × Vec F S1x128 .f32 × Vec F S1x128 .f32 :=
  (VO2_6.read (Elt F) (VO2_6.writes (Elt F) VO2_6.junk (kernelRun2_B c i arg1 harg1 arg2 harg2 arg3 harg3 arg4 harg4 arg5 harg5 arg6 harg6 arg7 harg7 arg8 harg8 arg9 harg9 hc x0 x1 x2 x3 x4 x5 xo7 xo8).1.1),
   VO2_7.read (Elt F) (VO2_7.writes (Elt F) VO2_7.junk (kernelRun2_B c i arg1 harg1 arg2 harg2 arg3 harg3 arg4 harg4 arg5 harg5 arg6 harg6 arg7 harg7 arg8 harg8 arg9 harg9 hc x0 x1 x2 x3 x4 x5 xo7 xo8).1.2.1),
   VO2_8.read (Elt F) (VO2_8.writes (Elt F) VO2_8.junk (kernelRun2_B c i arg1 harg1 arg2 harg2 arg3 harg3 arg4 harg4 arg5 harg5 arg6 harg6 arg7 harg7 arg8 harg8 arg9 harg9 hc x0 x1 x2 x3 x4 x5 xo7 xo8).1.2.2))

/-! ## The accumulation -/

/-- The three outputs' buffers after the body at point `n`. -/
def outsAt2 (c : Dev nD) : (n : ℕ) → n < cfg2.N → Vec F S2000x128 .f32 × Vec F S1x128 .f32 × Vec F S1x128 .f32
  | 0, hn => out2_A c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) (ms2_7 ⟨0, hn⟩) (hs2_7 ⟨0, hn⟩) (ms2_8 ⟨0, hn⟩) (hs2_8 ⟨0, hn⟩) ((hcond2 ⟨0, hn⟩).mpr rfl) (iblk2 V c 0 ⟨0, hn⟩) (iblk2 V c 1 ⟨0, hn⟩) (iblk2 V c 2 ⟨0, hn⟩) (iblk2 V c 3 ⟨0, hn⟩) (iblk2 V c 4 ⟨0, hn⟩) (iblk2 V c 5 ⟨0, hn⟩)
  | n + 1, hn => out2_B c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) (fun hh => Nat.succ_ne_zero n ((hcond2 ⟨n + 1, hn⟩).mp hh)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩)
      (outsAt2 c n (Nat.lt_of_succ_lt hn)).2.1 (outsAt2 c n (Nat.lt_of_succ_lt hn)).2.2

theorem outsAt2_A (c : Dev nD) (t : Fin cfg2.N) (h : t.val = 0) :
    outsAt2 V c t.val t.isLt = out2_A c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) ((hcond2 t).mpr h) (iblk2 V c 0 t) (iblk2 V c 1 t) (iblk2 V c 2 t) (iblk2 V c 3 t) (iblk2 V c 4 t) (iblk2 V c 5 t) := by
  obtain ⟨n, hn⟩ := t
  cases n with
  | zero => rfl
  | succ n => exact absurd h (Nat.succ_ne_zero n)

theorem outsAt2_B (c : Dev nD) (t : Fin cfg2.N) (h : t.val ≠ 0) :
    outsAt2 V c t.val t.isLt = out2_B c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (fun hh => h ((hcond2 t).mp hh)) (iblk2 V c 0 t) (iblk2 V c 1 t) (iblk2 V c 2 t) (iblk2 V c 3 t) (iblk2 V c 4 t) (iblk2 V c 5 t)
      (outsAt2 V c (t.val - 1) (Nat.lt_of_le_of_lt (Nat.sub_le _ _) t.isLt)).2.1 (outsAt2 V c (t.val - 1) (Nat.lt_of_le_of_lt (Nat.sub_le _ _) t.isLt)).2.2 := by
  obtain ⟨n, hn⟩ := t
  cases n with
  | zero => exact absurd rfl h
  | succ n => rfl

/-! ## The pipeline's proof data -/

/-- The arrays as the region finds them; after the body at point `t` each input's buffer at its block and the outputs'
    at `outsAt2`; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => (outsAt2 V c t.val t.isLt).1
    | ⟨7, _⟩ => (outsAt2 V c t.val t.isLt).2.1
    | ⟨8, _⟩ => (outsAt2 V c t.val t.isLt).2.2
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = (outsAt2 V c t.val t.isLt).1 := by dsimp only [dat2]
theorem after2_7 (c : Dev nD) (t : Fin cfg2.N) : (dat2 V c).after 7 t = (outsAt2 V c t.val t.isLt).2.1 := by dsimp only [dat2]
theorem after2_8 (c : Dev nD) (t : Fin cfg2.N) : (dat2 V c).after 8 t = (outsAt2 V c t.val t.isLt).2.2 := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d

/-- At a later point an accumulator's staging buffer holds what the body left at the point before: it is written back
    only after the last point. -/
theorem before2_7_B (c : Dev nD) (t : Fin cfg2.N) (h : t.val ≠ 0) (d) :
    (dat2 V c).before 7 t d = (outsAt2 V c (t.val - 1) (Nat.lt_of_le_of_lt (Nat.sub_le _ _) t.isLt)).2.1 := by
  have hN : t.val < 50 := lt_of_lt_of_eq t.isLt (show cfg2.N = 50 from N_2)
  rw [Dat.before_out_kept _ 7 rfl t h (Bool.eq_false_iff.mpr fun hh => by have := (flush2_7 _).mp hh; dsimp only at this; omega)
    (fun _ => rfl) (fun _ _ => rfl)]
  dsimp only [dat2]
theorem before2_8_B (c : Dev nD) (t : Fin cfg2.N) (h : t.val ≠ 0) (d) :
    (dat2 V c).before 8 t d = (outsAt2 V c (t.val - 1) (Nat.lt_of_le_of_lt (Nat.sub_le _ _) t.isLt)).2.2 := by
  have hN : t.val < 50 := lt_of_lt_of_eq t.isLt (show cfg2.N = 50 from N_2)
  rw [Dat.before_out_kept _ 8 rfl t h (Bool.eq_false_iff.mpr fun hh => by have := (flush2_8 _).mp hh; dsimp only at this; omega)
    (fun _ => rfl) (fun _ _ => rfl)]
  dsimp only [dat2]

/-! ## The body obligation -/

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d))
    ∗ (∃ d, owns (c : Thread nD τ) (ms2_6 t) fullShare ((dat2 V c).before 6 t d))
    ∗ (∃ d, owns (c : Thread nD τ) (ms2_7 t) fullShare ((dat2 V c).before 7 t d))
    ∗ (∃ d, owns (c : Thread nD τ) (ms2_8 t) fullShare ((dat2 V c).before 8 t d)))

def bodyPost2 (c : Dev nD) (t : Fin cfg2.N) : sProp 𝕄 :=
  iprop((dat2 V c).Φ t.succ ∗ (dat2 V c).owesAt () t.succ
    ∗ owns (c : Thread nD τ) (ms2_0 t) fullShare ((dat2 V c).after 0 t)
    ∗ owns (c : Thread nD τ) (ms2_1 t) fullShare ((dat2 V c).after 1 t)
    ∗ owns (c : Thread nD τ) (ms2_2 t) fullShare ((dat2 V c).after 2 t)
    ∗ owns (c : Thread nD τ) (ms2_3 t) fullShare ((dat2 V c).after 3 t)
    ∗ owns (c : Thread nD τ) (ms2_4 t) fullShare ((dat2 V c).after 4 t)
    ∗ owns (c : Thread nD τ) (ms2_5 t) fullShare ((dat2 V c).after 5 t)
    ∗ owns (c : Thread nD τ) (ms2_6 t) fullShare ((dat2 V c).after 6 t)
    ∗ owns (c : Thread nD τ) (ms2_7 t) fullShare ((dat2 V c).after 7 t)
    ∗ owns (c : Thread nD τ) (ms2_8 t) fullShare ((dat2 V c).after 8 t))

set_option maxHeartbeats 4000000 in
/-- The body at any point: the inputs' buffers hold their blocks; the point is the first or a later one; at a later one
    the accumulators hold what the point before left; so the case's run applies. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7, after2_8]
  by_cases h0 : t.val = 0
  ·
    rw [outsAt2_A V c t h0]
    unfold out2_A
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((kernelRun2_A c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) ((hcond2 t).mpr h0) (iblk2 V c 0 t) (iblk2 V c 1 t) (iblk2 V c 2 t) (iblk2 V c 3 t) (iblk2 V c 4 t) (iblk2 V c 5 t)).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexists _; iexact H8
    iintro ⟨H0, H1, H2, H3, H4, H5, ⟨%e6, H6⟩, ⟨%e7, H7⟩, ⟨%e8, H8⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    unfold owns
    isplitl [H6]
    · iexists _; isplitr; swap; · iexact H6
      ipureintro; dsimp only; exact View.read_writes_of_cover _ _ _ _ _ (cover2_A_6 (F := F) c _ _ _ _ _ _ _ _ _ _ _ _ _ _ _ _ _ _ _ _ _ _ _ _ _ _)
    isplitl [H7]
    · iexists _; isplitr; swap; · iexact H7
      ipureintro; dsimp only; exact View.read_writes_of_cover _ _ _ _ _ (cover2_A_7 (F := F) c _ _ _ _ _ _ _ _ _ _ _ _ _ _ _ _ _ _ _ _ _ _ _ _ _ _)
    iexists _; isplitr; swap; · iexact H8
    ipureintro; dsimp only; exact View.read_writes_of_cover _ _ _ _ _ (cover2_A_8 (F := F) c _ _ _ _ _ _ _ _ _ _ _ _ _ _ _ _ _ _ _ _ _ _ _ _ _ _)
  ·
    rw [outsAt2_B V c t h0]
    simp only [before2_7_B V c t h0, before2_8_B V c t h0]
    unfold out2_B
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((kernelRun2_B c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (fun hh => h0 ((hcond2 t).mp hh)) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2.1 (outsAt2 V c (t.val - 1) (Nat.lt_of_le_of_lt (Nat.sub_le _ _) t.isLt)).2.2).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexact H7
    isplitl [H8]; · iexact H8
    iintro ⟨H0, H1, H2, H3, H4, H5, ⟨%e6, H6⟩, ⟨%e7, H7⟩, ⟨%e8, H8⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    unfold owns
    isplitl [H6]
    · iexists _; isplitr; swap; · iexact H6
      ipureintro; dsimp only; exact View.read_writes_of_cover _ _ _ _ _ (cover2_B_6 (F := F) c _ _ _ _ _ _ _ _ _ _ _ _ _ _ _ _ _ _ _ _ _ _ _ _ _ _ _ _)
    isplitl [H7]
    · iexists _; isplitr; swap; · iexact H7
      ipureintro; dsimp only; exact View.read_writes_of_cover _ _ _ _ _ (cover2_B_7 (F := F) c _ _ _ _ _ _ _ _ _ _ _ _ _ _ _ _ _ _ _ _ _ _ _ _ _ _ _ _)
    iexists _; isplitr; swap; · iexact H8
    ipureintro; dsimp only; exact View.read_writes_of_cover _ _ _ _ _ (cover2_B_8 (F := F) c _ _ _ _ _ _ _ _ _ _ _ _ _ _ _ _ _ _ _ _ _ _ _ _ _ _ _ _)

theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.GinRuns4.lean ====
/-
  The node-update kernel of pipeline 4 — per row block: h + agg, two 128x128 matrix products with bias and a rectifier
  between them, the block's result stored whole, and its column sums and column sums of squares added into two
  one-row accumulators that the first grid point zeroes — run on whole staging buffers, once for each of its two
  control cases: the first grid point (the accumulators are zeroed before they are read) and every later point (they
  are read at what the point before left). Each run hands every output buffer back as its stores written over what
  it held, the stores found by the run itself.
-/
import proofs.«130004_j49941879718343_1_alg».proof.Proof.Gen.KernelIdeal.Launch
import proofs.«130004_j49941879718343_1_alg».proof.Proof.Gen.KernelIdeal.Skeleton
import proofs.«130004_j49941879718343_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body's one branch: "this is grid point 0", as the body computes it from the grid coordinate. -/
abbrev cond4 (i : grid4.Coords) : Prop :=
  (Scalar.cmpi .ne (Scalar.extui (Scalar.cmpi .eq (BitVec.ofNat 32 (i 0).val) 0#32)) 0#32) = 1#1

/-- It holds at the first of the 50 points and at no other. -/
theorem hcond4 : ∀ t : Fin cfg4.N, cond4 (grid4.coords t) ↔ t.val = 0 :=
  (by decide +kernel : ∀ t : Fin grid4.N, cond4 (grid4.coords t) ↔ t.val = 0)

/-- The three outputs' stores: the block's result, the running column sums, the running column sums of squares. -/
abbrev Pieces4 (F : FTy → Type) [FloatOps F] : Type := List (View.Piece (Elt F) S2000x128 .f32) × List (View.Piece (Elt F) S1x128 .f32) × List (View.Piece (Elt F) S1x128 .f32)

set_option maxHeartbeats 4000000 in
/-- THE FIRST POINT. The inputs' buffers at their contents, the outputs' at anything: the accumulators are zeroed,
    then read back (zero) and added to. -/
noncomputable def kernelRun4_A (c : Dev nD) (i : grid4.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (hc : cond4 i)
    (x0 x1 : Vec F S2000x128 .f32) (x2 : Vec F S128x128 .f32) (x3 : Vec F S1x128 .f32) (x4 : Vec F S128x128 .f32) (x5 : Vec F S1x128 .f32) :
    { L : Pieces4 F //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
            ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
                ∗ (∃ f, arg7.view.loc (c : Thread nD τ) ↦[arg7.view.set]{fullShare} arg7.view.writes (Elt F) f L.1) ∗ (∃ f, arg8.view.loc (c : Thread nD τ) ↦[arg8.view.set]{fullShare} arg8.view.writes (Elt F) f L.2.1) ∗ (∃ f, arg9.view.loc (c : Thread nD τ) ↦[arg9.view.set]{fullShare} arg9.view.writes (Elt F) f L.2.2)) -∗ K ⟨⟩))
          ⊢ wp frame (wpE (defs₀ (F := F)) Variants.none c none) E (cc4__gin_mlp_kernel i arg1 harg1 arg2 harg2 arg3 harg3 arg4 harg4 arg5 harg5 arg6 harg6 arg7 harg7 arg8 harg8 arg9 harg9) K } := by
  refine ⟨(?_, ?_, ?_), fun E K => ?run⟩
  case run =>
    simp only [cc4__gin_mlp_kernel_eq_skeleton]; unfold cc4__gin_mlp_kernel_skel
    simp only [k4_part1_eq_skeleton]; unfold k4_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    sl_exec (disch := exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]; · iexists _; iexact H7
    iexists _; iexact H8

set_option maxHeartbeats 4000000 in
/-- EVERY LATER POINT. The inputs' buffers at their contents, the two accumulators at their running contents `xo7`,
    `xo8`, the block output at anything: the accumulators are read as they stand and added to. -/
noncomputable def kernelRun4_B (c : Dev nD) (i : grid4.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (hc : ¬cond4 i)
    (x0 x1 : Vec F S2000x128 .f32) (x2 : Vec F S128x128 .f32) (x3 : Vec F S1x128 .f32) (x4 : Vec F S128x128 .f32) (x5 : Vec F S1x128 .f32) (xo7 xo8 : Vec F S1x128 .f32) :
    { L : Pieces4 F //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
            ∗ (∃ d, owns (c : Thread nD τ) arg7 fullShare d) ∗ owns (c : Thread nD τ) arg8 fullShare xo7 ∗ owns (c : Thread nD τ) arg9 fullShare xo8
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
                ∗ (∃ f, arg7.view.loc (c : Thread nD τ) ↦[arg7.view.set]{fullShare} arg7.view.writes (Elt F) f L.1) ∗ (∃ f, arg8.view.loc (c : Thread nD τ) ↦[arg8.view.set]{fullShare} arg8.view.writes (Elt F) f L.2.1) ∗ (∃ f, arg9.view.loc (c : Thread nD τ) ↦[arg9.view.set]{fullShare} arg9.view.writes (Elt F) f L.2.2)) -∗ K ⟨⟩))
          ⊢ wp frame (wpE (defs₀ (F := F)) Variants.none c none) E (cc4__gin_mlp_kernel i arg1 harg1 arg2 harg2 arg3 harg3 arg4 harg4 arg5 harg5 arg6 harg6 arg7 harg7 arg8 harg8 arg9 harg9) K } := by
  refine ⟨(?_, ?_, ?_), fun E K => ?run⟩
  case run =>
    simp only [cc4__gin_mlp_kernel_eq_skeleton]; unfold cc4__gin_mlp_kernel_skel
    simp only [k4_part1_eq_skeleton]; unfold k4_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg8.eq_unread hf7; obtain rfl := harg9.eq_unread hf8
    sl_exec (disch := exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]; · iexists _; iexact H7
    iexists _; iexact H8

end Cert.KernelIdeal.Hand

end
-- ==== Proof.GinFrame4.lean ====
/-
  Pipeline 4 (the node-update kernel) as the pipeline's proof data, at the buffer contents `V` the region is entered
  with: each window's block at a grid point; what each control case leaves in the three output buffers (the stores the
  case's run found, read back); THE ACCUMULATION — the outputs after point n are the first-point case's at n = 0 and
  the later-point case's over what point n - 1 left in the two accumulators, whose buffers are not written back
  between points —; and the body obligation at every point.
-/
import proofs.«130004_j49941879718343_1_alg».proof.Proof.GinRuns4

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- An input window's staging buffer holds its block at every point, fetched there or not (where it is not fetched the
    block index has not moved), for any proof data whose array is `V`'s and whose body leaves the block in place. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)
theorem before4_4_of {c : Dev nD} (dat : Dat τ (Elt F) Unit ℕ (UR sig nD τ) ℕ cfg4 c) (hA : dat.A 4 = V c (Pipeline.arrRef spec4 4))
    (hafter : ∀ t, dat.after 4 t = iblk4 V c 4 t) (t : Fin cfg4.N) (d) : dat.before 4 t d = iblk4 V c 4 t :=
  (dat.before_in_eq_fetched 4 rfl (fun _ => rfl) (fun _ _ _ => rfl) (fun t => by rw [hafter]; unfold Dat.blockOf iblk4; rw [hA]; try rfl) t d).trans
    (by unfold Dat.fetched Dat.blockOf iblk4; rw [hA]; try rfl)
theorem before4_5_of {c : Dev nD} (dat : Dat τ (Elt F) Unit ℕ (UR sig nD τ) ℕ cfg4 c) (hA : dat.A 5 = V c (Pipeline.arrRef spec4 5))
    (hafter : ∀ t, dat.after 5 t = iblk4 V c 5 t) (t : Fin cfg4.N) (d) : dat.before 5 t d = iblk4 V c 5 t :=
  (dat.before_in_eq_fetched 5 rfl (fun _ => rfl) (fun _ _ _ => rfl) (fun t => by rw [hafter]; unfold Dat.blockOf iblk4; rw [hA]; try rfl) t d).trans
    (by unfold Dat.fetched Dat.blockOf iblk4; rw [hA]; try rfl)

/-! ## The staging buffers the body is called with -/

abbrev VO4_6 : View sig .tc .vmem S2000x128 .f32 := (Memref.whole cc4_stg6_0 : Memref sig .tc .vmem S2000x128 .f32).view
abbrev VO4_7 : View sig .tc .vmem S1x128 .f32 := (Memref.whole cc4_stg7_0 : Memref sig .tc .vmem S1x128 .f32).view
abbrev VO4_8 : View sig .tc .vmem S1x128 .f32 := (Memref.whole cc4_stg8_0 : Memref sig .tc .vmem S1x128 .f32).view
abbrev ms4_0 (t : Fin cfg4.N) : Memref sig .tc .vmem S2000x128 .f32 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S2000x128 .f32 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S128x128 .f32 := win4_2.stage (cfg4.slots t 2)
abbrev hs4_2 (t : Fin cfg4.N) : (ms4_2 t).IsWhole := hstage4_2 ((cfg4.slots t 2).cast nbuf4_2)
abbrev ms4_3 (t : Fin cfg4.N) : Memref sig .tc .vmem S1x128 .f32 := win4_3.stage (cfg4.slots t 3)
abbrev hs4_3 (t : Fin cfg4.N) : (ms4_3 t).IsWhole := hstage4_3 ((cfg4.slots t 3).cast nbuf4_3)
abbrev ms4_4 (t : Fin cfg4.N) : Memref sig .tc .vmem S128x128 .f32 := win4_4.stage (cfg4.slots t 4)
abbrev hs4_4 (t : Fin cfg4.N) : (ms4_4 t).IsWhole := hstage4_4 ((cfg4.slots t 4).cast nbuf4_4)
abbrev ms4_5 (t : Fin cfg4.N) : Memref sig .tc .vmem S1x128 .f32 := win4_5.stage (cfg4.slots t 5)
abbrev hs4_5 (t : Fin cfg4.N) : (ms4_5 t).IsWhole := hstage4_5 ((cfg4.slots t 5).cast nbuf4_5)
abbrev ms4_6 (t : Fin cfg4.N) : Memref sig .tc .vmem S2000x128 .f32 := win4_6.stage (cfg4.slots t 6)
abbrev hs4_6 (t : Fin cfg4.N) : (ms4_6 t).IsWhole := hstage4_6 ((cfg4.slots t 6).cast nbuf4_6)
abbrev ms4_7 (t : Fin cfg4.N) : Memref sig .tc .vmem S1x128 .f32 := win4_7.stage (cfg4.slots t 7)
abbrev hs4_7 (t : Fin cfg4.N) : (ms4_7 t).IsWhole := hstage4_7 ((cfg4.slots t 7).cast nbuf4_7)
abbrev ms4_8 (t : Fin cfg4.N) : Memref sig .tc .vmem S1x128 .f32 := win4_8.stage (cfg4.slots t 8)
abbrev hs4_8 (t : Fin cfg4.N) : (ms4_8 t).IsWhole := hstage4_8 ((cfg4.slots t 8).cast nbuf4_8)

/-! ## What each case leaves in the outputs -/

/-- Each case's stores to an output cover that output's whole buffer. -/
theorem cover4_A_6 (c : Dev nD) (i : grid4.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (hc : cond4 i)
    (x0 x1 : Vec F S2000x128 .f32) (x2 : Vec F S128x128 .f32) (x3 : Vec F S1x128 .f32) (x4 : Vec F S128x128 .f32) (x5 : Vec F S1x128 .f32) (y : S2000x128.Idx) :
    ∃ pc ∈ (kernelRun4_A c i arg1 harg1 arg2 harg2 arg3 harg3 arg4 harg4 arg5 harg5 arg6 harg6 arg7 harg7 arg8 harg8 arg9 harg9 hc x0 x1 x2 x3 x4 x5).1.1, y ∈ pc.1.set :=
  View.cover_of_tiledL _ S2000x128.size (by sl_kernel_rfl) y
theorem cover4_A_7 (c : Dev nD) (i : grid4.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (hc : cond4 i)
    (x0 x1 : Vec F S2000x128 .f32) (x2 : Vec F S128x128 .f32) (x3 : Vec F S1x128 .f32) (x4 : Vec F S128x128 .f32) (x5 : Vec F S1x128 .f32) (y : S1x128.Idx) :
    ∃ pc ∈ (kernelRun4_A c i arg1 harg1 arg2 harg2 arg3 harg3 arg4 harg4 arg5 harg5 arg6 harg6 arg7 harg7 arg8 harg8 arg9 harg9 hc x0 x1 x2 x3 x4 x5).1.2.1, y ∈ pc.1.set :=
  View.cover_of_tiledL _ S1x128.size (by sl_kernel_rfl) y
theorem cover4_A_8 (c : Dev nD) (i : grid4.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (hc : cond4 i)
    (x0 x1 : Vec F S2000x128 .f32) (x2 : Vec F S128x128 .f32) (x3 : Vec F S1x128 .f32) (x4 : Vec F S128x128 .f32) (x5 : Vec F S1x128 .f32) (y : S1x128.Idx) :
    ∃ pc ∈ (kernelRun4_A c i arg1 harg1 arg2 harg2 arg3 harg3 arg4 harg4 arg5 harg5 arg6 harg6 arg7 harg7 arg8 harg8 arg9 harg9 hc x0 x1 x2 x3 x4 x5).1.2.2, y ∈ pc.1.set :=
  View.cover_of_tiledL _ S1x128.size (by sl_kernel_rfl) y
theorem cover4_B_6 (c : Dev nD) (i : grid4.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (hc : ¬cond4 i)
    (x0 x1 : Vec F S2000x128 .f32) (x2 : Vec F S128x128 .f32) (x3 : Vec F S1x128 .f32) (x4 : Vec F S128x128 .f32) (x5 : Vec F S1x128 .f32) (xo7 xo8 : Vec F S1x128 .f32) (y : S2000x128.Idx) :
    ∃ pc ∈ (kernelRun4_B c i arg1 harg1 arg2 harg2 arg3 harg3 arg4 harg4 arg5 harg5 arg6 harg6 arg7 harg7 arg8 harg8 arg9 harg9 hc x0 x1 x2 x3 x4 x5 xo7 xo8).1.1, y ∈ pc.1.set :=
  View.cover_of_tiledL _ S2000x128.size (by sl_kernel_rfl) y
theorem cover4_B_7 (c : Dev nD) (i : grid4.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (hc : ¬cond4 i)
    (x0 x1 : Vec F S2000x128 .f32) (x2 : Vec F S128x128 .f32) (x3 : Vec F S1x128 .f32) (x4 : Vec F S128x128 .f32) (x5 : Vec F S1x128 .f32) (xo7 xo8 : Vec F S1x128 .f32) (y : S1x128.Idx) :
    ∃ pc ∈ (kernelRun4_B c i arg1 harg1 arg2 harg2 arg3 harg3 arg4 harg4 arg5 harg5 arg6 harg6 arg7 harg7 arg8 harg8 arg9 harg9 hc x0 x1 x2 x3 x4 x5 xo7 xo8).1.2.1, y ∈ pc.1.set :=
  View.cover_of_tiledL _ S1x128.size (by sl_kernel_rfl) y
theorem cover4_B_8 (c : Dev nD) (i : grid4.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (hc : ¬cond4 i)
    (x0 x1 : Vec F S2000x128 .f32) (x2 : Vec F S128x128 .f32) (x3 : Vec F S1x128 .f32) (x4 : Vec F S128x128 .f32) (x5 : Vec F S1x128 .f32) (xo7 xo8 : Vec F S1x128 .f32) (y : S1x128.Idx) :
    ∃ pc ∈ (kernelRun4_B c i arg1 harg1 arg2 harg2 arg3 harg3 arg4 harg4 arg5 harg5 arg6 harg6 arg7 harg7 arg8 harg8 arg9 harg9 hc x0 x1 x2 x3 x4 x5 xo7 xo8).1.2.2, y ∈ pc.1.set :=
  View.cover_of_tiledL _ S1x128.size (by sl_kernel_rfl) y

/-- What the first point leaves in the three outputs: its stores read back. -/
def out4_A (c : Dev nD) (i : grid4.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (hc : cond4 i)
    (x0 x1 : Vec F S2000x128 .f32) (x2 : Vec F S128x128 .f32) (x3 : Vec F S1x128 .f32) (x4 : Vec F S128x128 .f32) (x5 : Vec F S1x128 .f32) : Vec F S2000x128 .f32 × Vec F S1x128 .f32 × Vec F S1x128 .f32 :=
  (VO4_6.read (Elt F) (VO4_6.writes (Elt F) VO4_6.junk (kernelRun4_A c i arg1 harg1 arg2 harg2 arg3 harg3 arg4 harg4 arg5 harg5 arg6 harg6 arg7 harg7 arg8 harg8 arg9 harg9 hc x0 x1 x2 x3 x4 x5).1.1),
   VO4_7.read (Elt F) (VO4_7.writes (Elt F) VO4_7.junk (kernelRun4_A c i arg1 harg1 arg2 harg2 arg3 harg3 arg4 harg4 arg5 harg5 arg6 harg6 arg7 harg7 arg8 harg8 arg9 harg9 hc x0 x1 x2 x3 x4 x5).1.2.1),
   VO4_8.read (Elt F) (VO4_8.writes (Elt F) VO4_8.junk (kernelRun4_A c i arg1 harg1 arg2 harg2 arg3 harg3 arg4 harg4 arg5 harg5 arg6 harg6 arg7 harg7 arg8 harg8 arg9 harg9 hc x0 x1 x2 x3 x4 x5).1.2.2))

/-- What a later point leaves, from the accumulators' running contents. -/
def out4_B (c : Dev nD) (i : grid4.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (hc : ¬cond4 i)
    (x0 x1 : Vec F S2000x128 .f32) (x2 : Vec F S128x128 .f32) (x3 : Vec F S1x128 .f32) (x4 : Vec F S128x128 .f32) (x5 : Vec F S1x128 .f32) (xo7 xo8 : Vec F S1x128 .f32) : Vec F S2000x128 .f32 × Vec F S1x128 .f32 × Vec F S1x128 .f32 :=
  (VO4_6.read (Elt F) (VO4_6.writes (Elt F) VO4_6.junk (kernelRun4_B c i arg1 harg1 arg2 harg2 arg3 harg3 arg4 harg4 arg5 harg5 arg6 harg6 arg7 harg7 arg8 harg8 arg9 harg9 hc x0 x1 x2 x3 x4 x5 xo7 xo8).1.1),
   VO4_7.read (Elt F) (VO4_7.writes (Elt F) VO4_7.junk (kernelRun4_B c i arg1 harg1 arg2 harg2 arg3 harg3 arg4 harg4 arg5 harg5 arg6 harg6 arg7 harg7 arg8 harg8 arg9 harg9 hc x0 x1 x2 x3 x4 x5 xo7 xo8).1.2.1),
   VO4_8.read (Elt F) (VO4_8.writes (Elt F) VO4_8.junk (kernelRun4_B c i arg1 harg1 arg2 harg2 arg3 harg3 arg4 harg4 arg5 harg5 arg6 harg6 arg7 harg7 arg8 harg8 arg9 harg9 hc x0 x1 x2 x3 x4 x5 xo7 xo8).1.2.2))

/-! ## The accumulation -/

/-- The three outputs' buffers after the body at point `n`. -/
def outsAt4 (c : Dev nD) : (n : ℕ) → n < cfg4.N → Vec F S2000x128 .f32 × Vec F S1x128 .f32 × Vec F S1x128 .f32
  | 0, hn => out4_A c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) (ms4_4 ⟨0, hn⟩) (hs4_4 ⟨0, hn⟩) (ms4_5 ⟨0, hn⟩) (hs4_5 ⟨0, hn⟩) (ms4_6 ⟨0, hn⟩) (hs4_6 ⟨0, hn⟩) (ms4_7 ⟨0, hn⟩) (hs4_7 ⟨0, hn⟩) (ms4_8 ⟨0, hn⟩) (hs4_8 ⟨0, hn⟩) ((hcond4 ⟨0, hn⟩).mpr rfl) (iblk4 V c 0 ⟨0, hn⟩) (iblk4 V c 1 ⟨0, hn⟩) (iblk4 V c 2 ⟨0, hn⟩) (iblk4 V c 3 ⟨0, hn⟩) (iblk4 V c 4 ⟨0, hn⟩) (iblk4 V c 5 ⟨0, hn⟩)
  | n + 1, hn => out4_B c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) (ms4_8 ⟨n + 1, hn⟩) (hs4_8 ⟨n + 1, hn⟩) (fun hh => Nat.succ_ne_zero n ((hcond4 ⟨n + 1, hn⟩).mp hh)) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (iblk4 V c 5 ⟨n + 1, hn⟩)
      (outsAt4 c n (Nat.lt_of_succ_lt hn)).2.1 (outsAt4 c n (Nat.lt_of_succ_lt hn)).2.2

theorem outsAt4_A (c : Dev nD) (t : Fin cfg4.N) (h : t.val = 0) :
    outsAt4 V c t.val t.isLt = out4_A c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) ((hcond4 t).mpr h) (iblk4 V c 0 t) (iblk4 V c 1 t) (iblk4 V c 2 t) (iblk4 V c 3 t) (iblk4 V c 4 t) (iblk4 V c 5 t) := by
  obtain ⟨n, hn⟩ := t
  cases n with
  | zero => rfl
  | succ n => exact absurd h (Nat.succ_ne_zero n)

theorem outsAt4_B (c : Dev nD) (t : Fin cfg4.N) (h : t.val ≠ 0) :
    outsAt4 V c t.val t.isLt = out4_B c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) (fun hh => h ((hcond4 t).mp hh)) (iblk4 V c 0 t) (iblk4 V c 1 t) (iblk4 V c 2 t) (iblk4 V c 3 t) (iblk4 V c 4 t) (iblk4 V c 5 t)
      (outsAt4 V c (t.val - 1) (Nat.lt_of_le_of_lt (Nat.sub_le _ _) t.isLt)).2.1 (outsAt4 V c (t.val - 1) (Nat.lt_of_le_of_lt (Nat.sub_le _ _) t.isLt)).2.2 := by
  obtain ⟨n, hn⟩ := t
  cases n with
  | zero => exact absurd rfl h
  | succ n => rfl

/-! ## The pipeline's proof data -/

/-- The arrays as the region finds them; after the body at point `t` each input's buffer at its block and the outputs'
    at `outsAt4`; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => iblk4 V c 5 t
    | ⟨6, _⟩ => (outsAt4 V c t.val t.isLt).1
    | ⟨7, _⟩ => (outsAt4 V c t.val t.isLt).2.1
    | ⟨8, _⟩ => (outsAt4 V c t.val t.isLt).2.2
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) : (dat4 V c).after 5 t = iblk4 V c 5 t := by dsimp only [dat4]
theorem after4_6 (c : Dev nD) (t : Fin cfg4.N) : (dat4 V c).after 6 t = (outsAt4 V c t.val t.isLt).1 := by dsimp only [dat4]
theorem after4_7 (c : Dev nD) (t : Fin cfg4.N) : (dat4 V c).after 7 t = (outsAt4 V c t.val t.isLt).2.1 := by dsimp only [dat4]
theorem after4_8 (c : Dev nD) (t : Fin cfg4.N) : (dat4 V c).after 8 t = (outsAt4 V c t.val t.isLt).2.2 := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d
theorem before4_4 (c : Dev nD) (t : Fin cfg4.N) (d) : (dat4 V c).before 4 t d = iblk4 V c 4 t :=
  before4_4_of V (dat4 V c) (A_eq4 V c 4) (after4_4 V c) t d
theorem before4_5 (c : Dev nD) (t : Fin cfg4.N) (d) : (dat4 V c).before 5 t d = iblk4 V c 5 t :=
  before4_5_of V (dat4 V c) (A_eq4 V c 5) (after4_5 V c) t d

/-- At a later point an accumulator's staging buffer holds what the body left at the point before: it is written back
    only after the last point. -/
theorem before4_7_B (c : Dev nD) (t : Fin cfg4.N) (h : t.val ≠ 0) (d) :
    (dat4 V c).before 7 t d = (outsAt4 V c (t.val - 1) (Nat.lt_of_le_of_lt (Nat.sub_le _ _) t.isLt)).2.1 := by
  have hN : t.val < 50 := lt_of_lt_of_eq t.isLt (show cfg4.N = 50 from N_4)
  rw [Dat.before_out_kept _ 7 rfl t h (Bool.eq_false_iff.mpr fun hh => by have := (flush4_7 _).mp hh; dsimp only at this; omega)
    (fun _ => rfl) (fun _ _ => rfl)]
  dsimp only [dat4]
theorem before4_8_B (c : Dev nD) (t : Fin cfg4.N) (h : t.val ≠ 0) (d) :
    (dat4 V c).before 8 t d = (outsAt4 V c (t.val - 1) (Nat.lt_of_le_of_lt (Nat.sub_le _ _) t.isLt)).2.2 := by
  have hN : t.val < 50 := lt_of_lt_of_eq t.isLt (show cfg4.N = 50 from N_4)
  rw [Dat.before_out_kept _ 8 rfl t h (Bool.eq_false_iff.mpr fun hh => by have := (flush4_8 _).mp hh; dsimp only at this; omega)
    (fun _ => rfl) (fun _ _ => rfl)]
  dsimp only [dat4]

/-! ## The body obligation -/

def bodyPre4 (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d))
    ∗ (∃ d, owns (c : Thread nD τ) (ms4_3 t) fullShare ((dat4 V c).before 3 t d))
    ∗ (∃ d, owns (c : Thread nD τ) (ms4_4 t) fullShare ((dat4 V c).before 4 t d))
    ∗ (∃ d, owns (c : Thread nD τ) (ms4_5 t) fullShare ((dat4 V c).before 5 t d))
    ∗ (∃ d, owns (c : Thread nD τ) (ms4_6 t) fullShare ((dat4 V c).before 6 t d))
    ∗ (∃ d, owns (c : Thread nD τ) (ms4_7 t) fullShare ((dat4 V c).before 7 t d))
    ∗ (∃ d, owns (c : Thread nD τ) (ms4_8 t) fullShare ((dat4 V c).before 8 t d)))

def bodyPost4 (c : Dev nD) (t : Fin cfg4.N) : sProp 𝕄 :=
  iprop((dat4 V c).Φ t.succ ∗ (dat4 V c).owesAt () t.succ
    ∗ owns (c : Thread nD τ) (ms4_0 t) fullShare ((dat4 V c).after 0 t)
    ∗ owns (c : Thread nD τ) (ms4_1 t) fullShare ((dat4 V c).after 1 t)
    ∗ owns (c : Thread nD τ) (ms4_2 t) fullShare ((dat4 V c).after 2 t)
    ∗ owns (c : Thread nD τ) (ms4_3 t) fullShare ((dat4 V c).after 3 t)
    ∗ owns (c : Thread nD τ) (ms4_4 t) fullShare ((dat4 V c).after 4 t)
    ∗ owns (c : Thread nD τ) (ms4_5 t) fullShare ((dat4 V c).after 5 t)
    ∗ owns (c : Thread nD τ) (ms4_6 t) fullShare ((dat4 V c).after 6 t)
    ∗ owns (c : Thread nD τ) (ms4_7 t) fullShare ((dat4 V c).after 7 t)
    ∗ owns (c : Thread nD τ) (ms4_8 t) fullShare ((dat4 V c).after 8 t))

set_option maxHeartbeats 4000000 in
/-- The body at any point: the inputs' buffers hold their blocks; the point is the first or a later one; at a later one
    the accumulators hold what the point before left; so the case's run applies. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4, before4_5]
  rw [show (dat4 V c).Φ t.succ = (dat4 V c).Φ t.castSucc from rfl,
    show (dat4 V c).owesAt () t.succ = (dat4 V c).owesAt () t.castSucc from rfl,
    after4_0, after4_1, after4_2, after4_3, after4_4, after4_5, after4_6, after4_7, after4_8]
  by_cases h0 : t.val = 0
  ·
    rw [outsAt4_A V c t h0]
    unfold out4_A
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((kernelRun4_A c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) ((hcond4 t).mpr h0) (iblk4 V c 0 t) (iblk4 V c 1 t) (iblk4 V c 2 t) (iblk4 V c 3 t) (iblk4 V c 4 t) (iblk4 V c 5 t)).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexists _; iexact H8
    iintro ⟨H0, H1, H2, H3, H4, H5, ⟨%e6, H6⟩, ⟨%e7, H7⟩, ⟨%e8, H8⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    unfold owns
    isplitl [H6]
    · iexists _; isplitr; swap; · iexact H6
      ipureintro; dsimp only; exact View.read_writes_of_cover _ _ _ _ _ (cover4_A_6 (F := F) c _ _ _ _ _ _ _ _ _ _ _ _ _ _ _ _ _ _ _ _ _ _ _ _ _ _)
    isplitl [H7]
    · iexists _; isplitr; swap; · iexact H7
      ipureintro; dsimp only; exact View.read_writes_of_cover _ _ _ _ _ (cover4_A_7 (F := F) c _ _ _ _ _ _ _ _ _ _ _ _ _ _ _ _ _ _ _ _ _ _ _ _ _ _)
    iexists _; isplitr; swap; · iexact H8
    ipureintro; dsimp only; exact View.read_writes_of_cover _ _ _ _ _ (cover4_A_8 (F := F) c _ _ _ _ _ _ _ _ _ _ _ _ _ _ _ _ _ _ _ _ _ _ _ _ _ _)
  ·
    rw [outsAt4_B V c t h0]
    simp only [before4_7_B V c t h0, before4_8_B V c t h0]
    unfold out4_B
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((kernelRun4_B c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) (fun hh => h0 ((hcond4 t).mp hh)) (iblk4 V c 0 t) (iblk4 V c 1 t) (iblk4 V c 2 t) (iblk4 V c 3 t) (iblk4 V c 4 t) (iblk4 V c 5 t) (outsAt4 V c (t.val - 1) (Nat.lt_of_le_of_lt (Nat.sub_le _ _) t.isLt)).2.1 (outsAt4 V c (t.val - 1) (Nat.lt_of_le_of_lt (Nat.sub_le _ _) t.isLt)).2.2).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexact H7
    isplitl [H8]; · iexact H8
    iintro ⟨H0, H1, H2, H3, H4, H5, ⟨%e6, H6⟩, ⟨%e7, H7⟩, ⟨%e8, H8⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    unfold owns
    isplitl [H6]
    · iexists _; isplitr; swap; · iexact H6
      ipureintro; dsimp only; exact View.read_writes_of_cover _ _ _ _ _ (cover4_B_6 (F := F) c _ _ _ _ _ _ _ _ _ _ _ _ _ _ _ _ _ _ _ _ _ _ _ _ _ _ _ _)
    isplitl [H7]
    · iexists _; isplitr; swap; · iexact H7
      ipureintro; dsimp only; exact View.read_writes_of_cover _ _ _ _ _ (cover4_B_7 (F := F) c _ _ _ _ _ _ _ _ _ _ _ _ _ _ _ _ _ _ _ _ _ _ _ _ _ _ _ _)
    iexists _; isplitr; swap; · iexact H8
    ipureintro; dsimp only; exact View.read_writes_of_cover _ _ _ _ _ (cover4_B_8 (F := F) c _ _ _ _ _ _ _ _ _ _ _ _ _ _ _ _ _ _ _ _ _ _ _ _ _ _ _ _)

theorem body_obligation4 (c : Dev nD) : BodyObligation (dat4 (F := F) V c) (defs₀ (F := F)) Variants.none () Set.univ := fun t => by
  rw [bigSep_W4, bigSep_W4]
  exact sound_body4 V c t

end Cert.KernelIdeal.Hand

end
-- ==== Proof.RegionBn1.lean ====
import proofs.«130004_j49941879718343_1_alg».proof.Proof.Gen.KernelIdeal.Launch
import proofs.«130004_j49941879718343_1_alg».proof.Proof.Gen.KernelIdeal.Skeleton
import proofs.«130004_j49941879718343_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# Region of pipeline 1: batch normalisation followed by a rectifier, one row block per grid point

The region runs over 50 grid points. At point `t` it is handed the [2000,128] row block `t` of the node features
(window 0), the four [1,128] rows mean, variance, scale and shift (windows 1 to 4, the same block at every point, so
the pipeline fetches them at the first point only) and the output's staging buffer (window 5). The body reads the five
inputs whole and stores, over the whole output block, `max ((h - mean) * rsqrt (var + eps) * scale + shift, 0)`
entry by entry. Everything below is stated at a parameter `V`, the contents of the core's buffers when the region is
entered, and for any float interpretation `F`: nothing is evaluated, the body's one store is carried as the payload
`k1_pay1` of the loaded values.
-/

-- membership in a rectangle of 2000 by 128 entries is checked structurally, once per coordinate of the long axis
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, whether or not the pipeline fetched it
    there, for any proof data whose array is `V`'s (`hA`) and whose body leaves the block in place (`hafter`): an
    unfetched input's block index has not moved since the point before, the window is uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, whether or not the pipeline fetched it
    there, for any proof data whose array is `V`'s (`hA`) and whose body leaves the block in place (`hafter`): an
    unfetched input's block index has not moved since the point before, the window is uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, whether or not the pipeline fetched it
    there, for any proof data whose array is `V`'s (`hA`) and whose body leaves the block in place (`hafter`): an
    unfetched input's block index has not moved since the point before, the window is uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's current staging buffer holds its block at every point, whether or not the pipeline fetched it
    there, for any proof data whose array is `V`'s (`hA`) and whose body leaves the block in place (`hafter`): an
    unfetched input's block index has not moved since the point before, the window is uncut and never idle. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Input window 4's current staging buffer holds its block at every point, whether or not the pipeline fetched it
    there, for any proof data whose array is `V`'s (`hA`) and whose body leaves the block in place (`hafter`): an
    unfetched input's block index has not moved since the point before, the window is uncut and never idle. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: every load and the one store take a whole buffer -/

abbrev r1_0 : Rect S2000x128 := Rect.unit (s := S2000x128) ![0, 0] S2000x128.size inb_S2000x128_S2000x128_0_0
abbrev r1_1 : Rect S1x128 := Rect.unit (s := S1x128) ![0, 0] S1x128.size inb_S1x128_S1x128_0_0

/-! ## What the body leaves in the output window's buffer -/

/-- Window 5's staging buffer after the body, from the five input blocks: its one store, of the normalised and
    rectified block. The body loads the variance row (window 2) before the mean row (window 1), and the payload takes
    its arguments in load order. -/
def out1_5 (x0 : Vec F S2000x128 .f32) (x1 : Vec F S1x128 .f32) (x2 : Vec F S1x128 .f32) (x3 : Vec F S1x128 .f32) (x4 : Vec F S1x128 .f32) : Vec F S2000x128 .f32 :=
  View.canon [⟨r1_0, k1_pay1 (View.ld x0 r1_0) (View.ld x2 r1_1) (View.ld x1 r1_1) (View.ld x3 r1_1) (View.ld x4 r1_1)⟩]

/-- The one store is of the whole block, so it covers the buffer. -/
theorem cover1_5 (p0 : Vec F S2000x128 .f32) (y : S2000x128.Idx) :
    ∃ pc ∈ ([⟨r1_0, p0⟩] : List (View.Piece (Elt F) S2000x128 .f32)), y ∈ pc.1.set :=
  View.cover_of_tiled [⟨r1_0, p0⟩] S2000x128.size (by rfl) y

/-! ## The body's triple -/

set_option maxHeartbeats 1000000 in
/-- The kernel body on whole staging memrefs, the inputs' at contents `x0 … x4` and the output's at anything, runs to
    the continuation holding the inputs' as they were and the output's at `out1_5` of the inputs': the printed function
    is its skeleton of five loads, a load of the output that is not used, and one store, run symbolically. -/
theorem sound_kernel1 (c : Dev nD) (E : Set ℕ) (i : grid1.Coords) (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S2000x128 .f32) (harg6 : arg6.IsWhole)
    (x0 : Vec F S2000x128 .f32) (x1 : Vec F S1x128 .f32) (x2 : Vec F S1x128 .f32) (x3 : Vec F S1x128 .f32) (x4 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out1_5 x0 x1 x2 x3 x4)) -∗ K ⟨⟩))
      ⊢ wp frame (wpE (defs₀ (F := F)) Variants.none c none) E (cc1__bn_relu_kernel i arg1 harg1 arg2 harg2 arg3 harg3 arg4 harg4 arg5 harg5 arg6 harg6) K := by
  simp only [cc1__bn_relu_kernel_eq_skeleton]; unfold cc1__bn_relu_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _)

/-! ## The pipeline's proof data -/

/-- The proof data of pipeline 1 on core `c`: the arrays as the region finds them (`V`); after the body at point
    `t` each input's buffer at its block and the output's at `out1_5` of the input blocks; the invariant is the scoped
    rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

/-- The proof data's arrays are the region-entry contents (the definition projected). -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = out1_5 (iblk1 V c 0 t) (iblk1 V c 1 t) (iblk1 V c 2 t) (iblk1 V c 3 t) (iblk1 V c 4 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the inputs' memrefs hold their blocks (`before1_w`), so `sound_kernel1` applies; the
    invariant and the core's debts pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ (grid1.coords t) _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand
-- ==== Proof.RegionBn3.lean ====
import proofs.«130004_j49941879718343_1_alg».proof.Proof.Gen.KernelIdeal.Launch
import proofs.«130004_j49941879718343_1_alg».proof.Proof.Gen.KernelIdeal.Skeleton
import proofs.«130004_j49941879718343_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# Region of pipeline 3: batch normalisation followed by a rectifier, one row block per grid point

The region runs over 50 grid points. At point `t` it is handed the [2000,128] row block `t` of the node features
(window 0), the four [1,128] rows mean, variance, scale and shift (windows 1 to 4, the same block at every point, so
the pipeline fetches them at the first point only) and the output's staging buffer (window 5). The body reads the five
inputs whole and stores, over the whole output block, `max ((h - mean) * rsqrt (var + eps) * scale + shift, 0)`
entry by entry. Everything below is stated at a parameter `V`, the contents of the core's buffers when the region is
entered, and for any float interpretation `F`: nothing is evaluated, the body's one store is carried as the payload
`k3_pay1` of the loaded values.
-/

-- membership in a rectangle of 2000 by 128 entries is checked structurally, once per coordinate of the long axis
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-! ## The windows' blocks -/

/-- Window `w`'s block at point `t`, read off its array as the region finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, whether or not the pipeline fetched it
    there, for any proof data whose array is `V`'s (`hA`) and whose body leaves the block in place (`hafter`): an
    unfetched input's block index has not moved since the point before, the window is uncut and never idle. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
/-- Input window 1's current staging buffer holds its block at every point, whether or not the pipeline fetched it
    there, for any proof data whose array is `V`'s (`hA`) and whose body leaves the block in place (`hafter`): an
    unfetched input's block index has not moved since the point before, the window is uncut and never idle. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
/-- Input window 2's current staging buffer holds its block at every point, whether or not the pipeline fetched it
    there, for any proof data whose array is `V`'s (`hA`) and whose body leaves the block in place (`hafter`): an
    unfetched input's block index has not moved since the point before, the window is uncut and never idle. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
/-- Input window 3's current staging buffer holds its block at every point, whether or not the pipeline fetched it
    there, for any proof data whose array is `V`'s (`hA`) and whose body leaves the block in place (`hafter`): an
    unfetched input's block index has not moved since the point before, the window is uncut and never idle. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)
/-- Input window 4's current staging buffer holds its block at every point, whether or not the pipeline fetched it
    there, for any proof data whose array is `V`'s (`hA`) and whose body leaves the block in place (`hafter`): an
    unfetched input's block index has not moved since the point before, the window is uncut and never idle. -/
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses: every load and the one store take a whole buffer -/

abbrev r3_0 : Rect S2000x128 := Rect.unit (s := S2000x128) ![0, 0] S2000x128.size inb_S2000x128_S2000x128_0_0
abbrev r3_1 : Rect S1x128 := Rect.unit (s := S1x128) ![0, 0] S1x128.size inb_S1x128_S1x128_0_0

/-! ## What the body leaves in the output window's buffer -/

/-- Window 5's staging buffer after the body, from the five input blocks: its one store, of the normalised and
    rectified block. The body loads the variance row (window 2) before the mean row (window 1), and the payload takes
    its arguments in load order. -/
def out3_5 (x0 : Vec F S2000x128 .f32) (x1 : Vec F S1x128 .f32) (x2 : Vec F S1x128 .f32) (x3 : Vec F S1x128 .f32) (x4 : Vec F S1x128 .f32) : Vec F S2000x128 .f32 :=
  View.canon [⟨r3_0, k3_pay1 (View.ld x0 r3_0) (View.ld x2 r3_1) (View.ld x1 r3_1) (View.ld x3 r3_1) (View.ld x4 r3_1)⟩]

/-- The one store is of the whole block, so it covers the buffer. -/
theorem cover3_5 (p0 : Vec F S2000x128 .f32) (y : S2000x128.Idx) :
    ∃ pc ∈ ([⟨r3_0, p0⟩] : List (View.Piece (Elt F) S2000x128 .f32)), y ∈ pc.1.set :=
  View.cover_of_tiled [⟨r3_0, p0⟩] S2000x128.size (by rfl) y

/-! ## The body's triple -/

set_option maxHeartbeats 1000000 in
/-- The kernel body on whole staging memrefs, the inputs' at contents `x0 … x4` and the output's at anything, runs to
    the continuation holding the inputs' as they were and the output's at `out3_5` of the inputs': the printed function
    is its skeleton of five loads, a load of the output that is not used, and one store, run symbolically. -/
theorem sound_kernel3 (c : Dev nD) (E : Set ℕ) (i : grid3.Coords) (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S2000x128 .f32) (harg6 : arg6.IsWhole)
    (x0 : Vec F S2000x128 .f32) (x1 : Vec F S1x128 .f32) (x2 : Vec F S1x128 .f32) (x3 : Vec F S1x128 .f32) (x4 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out3_5 x0 x1 x2 x3 x4)) -∗ K ⟨⟩))
      ⊢ wp frame (wpE (defs₀ (F := F)) Variants.none c none) E (cc3__bn_relu_kernel i arg1 harg1 arg2 harg2 arg3 harg3 arg4 harg4 arg5 harg5 arg6 harg6) K := by
  simp only [cc3__bn_relu_kernel_eq_skeleton]; unfold cc3__bn_relu_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover3_5 _)

/-! ## The pipeline's proof data -/

/-- The proof data of pipeline 3 on core `c`: the arrays as the region finds them (`V`); after the body at point
    `t` each input's buffer at its block and the output's at `out3_5` of the input blocks; the invariant is the scoped
    rest and the generator register, untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => out3_5 (iblk3 V c 0 t) (iblk3 V c 1 t) (iblk3 V c 2 t) (iblk3 V c 3 t) (iblk3 V c 4 t)
  Φ _ := Pipeline.ΦA spec3 c
  q _ := fullShare
  owed _ := 0

/-- The proof data's arrays are the region-entry contents (the definition projected). -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = out3_5 (iblk3 V c 0 t) (iblk3 V c 1 t) (iblk3 V c 2 t) (iblk3 V c 3 t) (iblk3 V c 4 t) := by dsimp only [dat3]

/-- Each input's current staging buffer holds its block at every point, fetched there or not. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t))

/-- The body at any point: the inputs' memrefs hold their blocks (`before3_w`), so `sound_kernel3` applies; the
    invariant and the core's debts pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4]
  rw [show (dat3 V c).Φ t.succ = (dat3 V c).Φ t.castSucc from rfl,
    show (dat3 V c).owesAt () t.succ = (dat3 V c).owesAt () t.castSucc from rfl,
    after3_0, after3_1, after3_2, after3_3, after3_4, after3_5]
  iintro ⟨HΦ, Ho, ⟨%d0, H0⟩, ⟨%d1, H1⟩, ⟨%d2, H2⟩, ⟨%d3, H3⟩, ⟨%d4, H4⟩, ⟨%d5, H5⟩⟩
  iapply (sound_kernel3 c Set.univ (grid3.coords t) _ _ _ _ _ _ _ _ _ _ _ _ (iblk3 V c 0 t) (iblk3 V c 1 t) (iblk3 V c 2 t) (iblk3 V c 3 t) (iblk3 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.KernelIdeal.Hand
-- ==== Proof.RegionBn5.lean ====
import proofs.«130004_j49941879718343_1_alg».proof.Proof.Gen.KernelIdeal.Launch
import proofs.«130004_j49941879718343_1_alg».proof.Proof.Gen.KernelIdeal.Skeleton
import proofs.«130004_j49941879718343_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# Region of pipeline 5: batch normalisation followed by a rectifier, one row block per grid point

The region runs over 50 grid points. At point `t` it is handed the [2000,128] row block `t` of the node features
(window 0), the four [1,128] rows mean, variance, scale and shift (windows 1 to 4, the same block at every point, so
the pipeline fetches them at the first point only) and the output's staging buffer (window 5). The body reads the five
inputs whole and stores, over the whole output block, `max ((h - mean) * rsqrt (var + eps) * scale + shift, 0)`
entry by entry. Everything below is stated at a parameter `V`, the contents of the core's buffers when the region is
entered, and for any float interpretation `F`: nothing is evaluated, the body's one store is carried as the payload
`k5_pay1` of the loaded values.
-/

-- membership in a rectangle of 2000 by 128 entries is checked structurally, once per coordinate of the long axis
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-! ## The windows' blocks -/

/-- Window `w`'s block at point `t`, read off its array as the region finds it (`V`). -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0's current staging buffer holds its block at every point, whether or not the pipeline fetched it
    there, for any proof data whose array is `V`'s (`hA`) and whose body leaves the block in place (`hafter`): an
    unfetched input's block index has not moved since the point before, the window is uncut and never idle. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)
/-- Input window 1's current staging buffer holds its block at every point, whether or not the pipeline fetched it
    there, for any proof data whose array is `V`'s (`hA`) and whose body leaves the block in place (`hafter`): an
    unfetched input's block index has not moved since the point before, the window is uncut and never idle. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)
/-- Input window 2's current staging buffer holds its block at every point, whether or not the pipeline fetched it
    there, for any proof data whose array is `V`'s (`hA`) and whose body leaves the block in place (`hafter`): an
    unfetched input's block index has not moved since the point before, the window is uncut and never idle. -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)
/-- Input window 3's current staging buffer holds its block at every point, whether or not the pipeline fetched it
    there, for any proof data whose array is `V`'s (`hA`) and whose body leaves the block in place (`hafter`): an
    unfetched input's block index has not moved since the point before, the window is uncut and never idle. -/
theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)
/-- Input window 4's current staging buffer holds its block at every point, whether or not the pipeline fetched it
    there, for any proof data whose array is `V`'s (`hA`) and whose body leaves the block in place (`hafter`): an
    unfetched input's block index has not moved since the point before, the window is uncut and never idle. -/
theorem before5_4_of {c : Dev nD} (dat : Dat τ (Elt F) Unit ℕ (UR sig nD τ) ℕ cfg5 c) (hA : dat.A 4 = V c (Pipeline.arrRef spec5 4))
    (hafter : ∀ t, dat.after 4 t = iblk5 V c 4 t) (t : Fin cfg5.N) (d) : dat.before 4 t d = iblk5 V c 4 t :=
  (dat.before_in_eq_fetched 4 rfl (fun _ => rfl) (fun _ _ _ => rfl) (fun t => by rw [hafter]; unfold Dat.blockOf iblk5; rw [hA]; try rfl) t d).trans
    (by unfold Dat.fetched Dat.blockOf iblk5; rw [hA]; try rfl)

/-! ## The body's accesses: every load and the one store take a whole buffer -/

abbrev r5_0 : Rect S2000x128 := Rect.unit (s := S2000x128) ![0, 0] S2000x128.size inb_S2000x128_S2000x128_0_0
abbrev r5_1 : Rect S1x128 := Rect.unit (s := S1x128) ![0, 0] S1x128.size inb_S1x128_S1x128_0_0

/-! ## What the body leaves in the output window's buffer -/

/-- Window 5's staging buffer after the body, from the five input blocks: its one store, of the normalised and
    rectified block. The body loads the variance row (window 2) before the mean row (window 1), and the payload takes
    its arguments in load order. -/
def out5_5 (x0 : Vec F S2000x128 .f32) (x1 : Vec F S1x128 .f32) (x2 : Vec F S1x128 .f32) (x3 : Vec F S1x128 .f32) (x4 : Vec F S1x128 .f32) : Vec F S2000x128 .f32 :=
  View.canon [⟨r5_0, k5_pay1 (View.ld x0 r5_0) (View.ld x2 r5_1) (View.ld x1 r5_1) (View.ld x3 r5_1) (View.ld x4 r5_1)⟩]

/-- The one store is of the whole block, so it covers the buffer. -/
theorem cover5_5 (p0 : Vec F S2000x128 .f32) (y : S2000x128.Idx) :
    ∃ pc ∈ ([⟨r5_0, p0⟩] : List (View.Piece (Elt F) S2000x128 .f32)), y ∈ pc.1.set :=
  View.cover_of_tiled [⟨r5_0, p0⟩] S2000x128.size (by rfl) y

/-! ## The body's triple -/

set_option maxHeartbeats 1000000 in
/-- The kernel body on whole staging memrefs, the inputs' at contents `x0 … x4` and the output's at anything, runs to
    the continuation holding the inputs' as they were and the output's at `out5_5` of the inputs': the printed function
    is its skeleton of five loads, a load of the output that is not used, and one store, run symbolically. -/
theorem sound_kernel5 (c : Dev nD) (E : Set ℕ) (i : grid5.Coords) (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S2000x128 .f32) (harg6 : arg6.IsWhole)
    (x0 : Vec F S2000x128 .f32) (x1 : Vec F S1x128 .f32) (x2 : Vec F S1x128 .f32) (x3 : Vec F S1x128 .f32) (x4 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out5_5 x0 x1 x2 x3 x4)) -∗ K ⟨⟩))
      ⊢ wp frame (wpE (defs₀ (F := F)) Variants.none c none) E (cc5__bn_relu_kernel i arg1 harg1 arg2 harg2 arg3 harg3 arg4 harg4 arg5 harg5 arg6 harg6) K := by
  simp only [cc5__bn_relu_kernel_eq_skeleton]; unfold cc5__bn_relu_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover5_5 _)

/-! ## The pipeline's proof data -/

/-- The proof data of pipeline 5 on core `c`: the arrays as the region finds them (`V`); after the body at point
    `t` each input's buffer at its block and the output's at `out5_5` of the input blocks; the invariant is the scoped
    rest and the generator register, untouched; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => out5_5 (iblk5 V c 0 t) (iblk5 V c 1 t) (iblk5 V c 2 t) (iblk5 V c 3 t) (iblk5 V c 4 t)
  Φ _ := Pipeline.ΦA spec5 c
  q _ := fullShare
  owed _ := 0

/-- The proof data's arrays are the region-entry contents (the definition projected). -/
theorem A_eq5 (c : Dev nD) (w : Fin cfg5.W) : (dat5 V c).A w = V c (Pipeline.arrRef spec5 w) := by
  dsimp only [dat5]

/-- What the body leaves, window by window. -/
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) : (dat5 V c).after 5 t = out5_5 (iblk5 V c 0 t) (iblk5 V c 1 t) (iblk5 V c 2 t) (iblk5 V c 3 t) (iblk5 V c 4 t) := by dsimp only [dat5]

/-- Each input's current staging buffer holds its block at every point, fetched there or not. -/
theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d
theorem before5_4 (c : Dev nD) (t : Fin cfg5.N) (d) : (dat5 V c).before 4 t d = iblk5 V c 4 t :=
  before5_4_of V (dat5 V c) (A_eq5 V c 4) (after5_4 V c) t d

/-! ## The body obligation, at a generic point -/

/-- What the body is called with at point `t`, the windows one by one, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t)
    ∗ owns (c : Thread nD τ) (st5_5 t) fullShare ((dat5 V c).after 5 t))

/-- The body at any point: the inputs' memrefs hold their blocks (`before5_w`), so `sound_kernel5` applies; the
    invariant and the core's debts pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4]
  rw [show (dat5 V c).Φ t.succ = (dat5 V c).Φ t.castSucc from rfl,
    show (dat5 V c).owesAt () t.succ = (dat5 V c).owesAt () t.castSucc from rfl,
    after5_0, after5_1, after5_2, after5_3, after5_4, after5_5]
  iintro ⟨HΦ, Ho, ⟨%d0, H0⟩, ⟨%d1, H1⟩, ⟨%d2, H2⟩, ⟨%d3, H3⟩, ⟨%d4, H4⟩, ⟨%d5, H5⟩⟩
  iapply (sound_kernel5 c Set.univ (grid5.coords t) _ _ _ _ _ _ _ _ _ _ _ _ (iblk5 V c 0 t) (iblk5 V c 1 t) (iblk5 V c 2 t) (iblk5 V c 3 t) (iblk5 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation5 (c : Dev nD) : BodyObligation (dat5 (F := F) V c) (defs₀ (F := F)) Variants.none () Set.univ := fun t => by
  rw [bigSep_W5, bigSep_W5]
  exact sound_body5 V c t

end Cert.KernelIdeal.Hand
-- ==== Proof.RegionFinal6.lean ====
import proofs.«130004_j49941879718343_1_alg».proof.Proof.Gen.KernelIdeal.Launch
import proofs.«130004_j49941879718343_1_alg».proof.Proof.Gen.KernelIdeal.Skeleton
import proofs.«130004_j49941879718343_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# Region of pipeline 6: the last linear layer and the row normalisation, one grid point

The region has a single grid point. It is handed the whole [512,384] matrix of pooled graph features (window 0), the
[384,128] weight (window 1), the [1,128] bias row (window 2) and the output's staging buffer (window 3). The body reads
the three inputs whole and stores, over the whole [512,128] output, `z / max (sqrt (row sum of z * z), tiny)` with
`z = features * weight + bias`. Everything below is stated at a parameter `V`, the contents of the core's buffers when
the region is entered, and for any float interpretation `F`: nothing is evaluated, the body's one store is carried as
the payload `k6_pay1` of the loaded values.
-/

-- membership in a rectangle of 512 by 128 entries is checked structurally, once per coordinate of the long axis
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-! ## The windows' blocks -/

/-- Window `w`'s block at point `t`, read off its array as the region finds it (`V`). -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- Input window 0's current staging buffer holds its block at every point, whether or not the pipeline fetched it
    there, for any proof data whose array is `V`'s (`hA`) and whose body leaves the block in place (`hafter`): the
    window is uncut and never idle. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)
/-- Input window 1's current staging buffer holds its block at every point, whether or not the pipeline fetched it
    there, for any proof data whose array is `V`'s (`hA`) and whose body leaves the block in place (`hafter`): the
    window is uncut and never idle. -/
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)
/-- Input window 2's current staging buffer holds its block at every point, whether or not the pipeline fetched it
    there, for any proof data whose array is `V`'s (`hA`) and whose body leaves the block in place (`hafter`): the
    window is uncut and never idle. -/
theorem before6_2_of {c : Dev nD} (dat : Dat τ (Elt F) Unit ℕ (UR sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)

/-! ## The body's accesses: every load and the one store take a whole buffer -/

abbrev r6_0 : Rect S512x384 := Rect.unit (s := S512x384) ![0, 0] S512x384.size inb_S512x384_S512x384_0_0
abbrev r6_1 : Rect S384x128 := Rect.unit (s := S384x128) ![0, 0] S384x128.size inb_S384x128_S384x128_0_0
abbrev r6_2 : Rect S1x128 := Rect.unit (s := S1x128) ![0, 0] S1x128.size inb_S1x128_S1x128_0_0
abbrev r6_3 : Rect S512x128 := Rect.unit (s := S512x128) ![0, 0] S512x128.size inb_S512x128_S512x128_0_0

/-! ## What the body leaves in the output window's buffer -/

/-- Window 3's staging buffer after the body, from the three input blocks: its one store, of the normalised rows. -/
def out6_3 (x0 : Vec F S512x384 .f32) (x1 : Vec F S384x128 .f32) (x2 : Vec F S1x128 .f32) : Vec F S512x128 .f32 :=
  View.canon [⟨r6_3, k6_pay1 (View.ld x0 r6_0) (View.ld x1 r6_1) (View.ld x2 r6_2)⟩]

/-- The one store is of the whole block, so it covers the buffer. -/
theorem cover6_3 (p0 : Vec F S512x128 .f32) (y : S512x128.Idx) :
    ∃ pc ∈ ([⟨r6_3, p0⟩] : List (View.Piece (Elt F) S512x128 .f32)), y ∈ pc.1.set :=
  View.cover_of_tiled [⟨r6_3, p0⟩] S512x128.size (by rfl) y

/-! ## The body's triple -/

set_option maxHeartbeats 1000000 in
/-- The kernel body on whole staging memrefs, the inputs' at contents `x0, x1, x2` and the output's at anything, runs
    to the continuation holding the inputs' as they were and the output's at `out6_3` of the inputs': the printed
    function is its skeleton of three loads, a load of the output that is not used, and one store, run symbolically. -/
theorem sound_kernel6 (c : Dev nD) (E : Set ℕ) (i : grid6.Coords) (arg1 : Memref sig .tc .vmem S512x384 .f32) (harg1 : arg1.IsWhole) (arg2 : Memref sig .tc .vmem S384x128 .f32) (harg2 : arg2.IsWhole) (arg3 : Memref sig .tc .vmem S1x128 .f32) (harg3 : arg3.IsWhole) (arg4 : Memref sig .tc .vmem S512x128 .f32) (harg4 : arg4.IsWhole)
    (x0 : Vec F S512x384 .f32) (x1 : Vec F S384x128 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out6_3 x0 x1 x2)) -∗ K ⟨⟩))
      ⊢ wp frame (wpE (defs₀ (F := F)) Variants.none c none) E (cc6__final_kernel i arg1 harg1 arg2 harg2 arg3 harg3 arg4 harg4) K := by
  simp only [cc6__final_kernel_eq_skeleton]; unfold cc6__final_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover6_3 _)

/-! ## The pipeline's proof data -/

/-- The proof data of pipeline 6 on core `c`: the arrays as the region finds them (`V`); after the body each input's
    buffer at its block and the output's at `out6_3` of the input blocks; the invariant is the scoped rest and the
    generator register, untouched; nothing owed; full shares. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => out6_3 (iblk6 V c 0 t) (iblk6 V c 1 t) (iblk6 V c 2 t)
  Φ _ := Pipeline.ΦA spec6 c
  q _ := fullShare
  owed _ := 0

/-- The proof data's arrays are the region-entry contents (the definition projected). -/
theorem A_eq6 (c : Dev nD) (w : Fin cfg6.W) : (dat6 V c).A w = V c (Pipeline.arrRef spec6 w) := by
  dsimp only [dat6]

/-- What the body leaves, window by window. -/
theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = out6_3 (iblk6 V c 0 t) (iblk6 V c 1 t) (iblk6 V c 2 t) := by dsimp only [dat6]

/-- Each input's current staging buffer holds its block at every point, fetched there or not. -/
theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d

/-! ## The body obligation, at a generic point -/

/-- What the body is called with at point `t`, the windows one by one, -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d)))

/-- and what it returns. -/
def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ owns (c : Thread nD τ) (st6_3 t) fullShare ((dat6 V c).after 3 t))

/-- The body at the point: the inputs' memrefs hold their blocks (`before6_w`), so `sound_kernel6` applies; the
    invariant and the core's debts pass through unread. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2]
  rw [show (dat6 V c).Φ t.succ = (dat6 V c).Φ t.castSucc from rfl,
    show (dat6 V c).owesAt () t.succ = (dat6 V c).owesAt () t.castSucc from rfl,
    after6_0, after6_1, after6_2, after6_3]
  iintro ⟨HΦ, Ho, ⟨%d0, H0⟩, ⟨%d1, H1⟩, ⟨%d2, H2⟩, ⟨%d3, H3⟩⟩
  iapply (sound_kernel6 c Set.univ (grid6.coords t) _ _ _ _ _ _ _ _ (iblk6 V c 0 t) (iblk6 V c 1 t) (iblk6 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation6 (c : Dev nD) : BodyObligation (dat6 (F := F) V c) (defs₀ (F := F)) Variants.none () Set.univ := fun t => by
  rw [bigSep_W6, bigSep_W6]
  exact sound_body6 V c t

end Cert.KernelIdeal.Hand
-- ==== Proof.Chain.lean ====
import proofs.«130004_j49941879718343_1_alg».proof.Proof.Gen.KernelIdeal.Regions
import proofs.«130004_j49941879718343_1_alg».proof.Proof.GinFrame0
import proofs.«130004_j49941879718343_1_alg».proof.Proof.GinFrame2
import proofs.«130004_j49941879718343_1_alg».proof.Proof.GinFrame4
import proofs.«130004_j49941879718343_1_alg».proof.Proof.RegionBn1
import proofs.«130004_j49941879718343_1_alg».proof.Proof.RegionBn3
import proofs.«130004_j49941879718343_1_alg».proof.Proof.RegionBn5
import proofs.«130004_j49941879718343_1_alg».proof.Proof.RegionFinal6
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# The whole run: fourteen items from the launch to the return

The program is seven kernel regions, each preceded by a stretch of host operations: three rounds of (aggregate on the
host, linear layers with running column sums in a region, batch statistics on the host, normalise and rectify in a
region), then pooling on the host and the last linear layer with its row normalisation in a region. This module
threads the contents of the core's buffers through the fourteen items: `W0` is the launch memory, `W(2K+1)` what
the host stretch before region `K` leaves, `W(2K+2)` what region `K` leaves (its windows' arrays at what the pipeline's
write-backs leave, every other buffer untouched). Each region is entered with every unscoped buffer held at the
boundary's contents and left with them held at the next boundary's; the run ends with every unscoped buffer at
`W14`. From that: a buffer that no host stretch writes and that is no region's output ends as launched (so every
argument does), and the last region's output array ends at what its one write-back leaves.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- The core's buffers at launch. -/
abbrev W0 : Dev nD → Valuation τ sig (Elt F) := fun c b => (s₀ m ρ).mem ((c : Dev nD), b)

/-- After the host stretch `hostOps0`: what region 0 is entered from. -/
abbrev W1 : Dev nD → Valuation τ sig (Elt F) := fun c => StableHlo.after hostOps0 (W0 m ρ c)
/-- The same read at the core's own references (what region 0's proof data take). -/
abbrev V1 : (c : Dev nD) → (b : Ref sig .tc) → Buf (Elt F) ((c : Thread nD τ).loc b) := fun c b => W1 m ρ c b
/-- At region 0's exit: its windows' arrays at what the pipeline leaves (an input's as entered, an output's with
    its write-backs folded in), every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the core's own references (region 0's exit contents). -/
abbrev V2 : (c : Dev nD) → (b : Ref sig .tc) → Buf (Elt F) ((c : Thread nD τ).loc b) := fun c b => W2 m ρ c b
/-- At region 0's exit each of its arrays holds what the pipeline leaves, and every other buffer what it held at entry. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)
/-- A buffer the host stretch `hostOps0` does not write is the same before and after it. -/
theorem W1_host (c : Dev nD) (b : Ref sig .tc) (h : b ∉ hostOps0_W) :
    W1 m ρ c (Proc.devRef .tc b) = W0 m ρ c (Proc.devRef .tc b) :=
  StableHlo.after_of_writes_sub hostOps0 _ hostOps0_writes h
/-- A buffer that is no output window's array of region 0 is the same before and after the region: either no window
    stages it, or an input window does, and an input's array ends as it was entered. -/
theorem W2_keep (c : Dev nD) (b : Ref sig .tc) (o : ∀ w, (cfg0.win w).isOut = true → Pipeline.arrRef spec0 w ≠ b) :
    W2 m ρ c (Proc.devRef .tc b) = W1 m ρ c (Proc.devRef .tc b) := by
  by_cases h : ∃ w, Pipeline.arrRef spec0 w = b
  · obtain ⟨w, rfl⟩ := h
    have hin : (cfg0.win w).isOut = false := by
      cases hio : (cfg0.win w).isOut with
      | false => rfl
      | true => exact absurd rfl (o w hio)
    exact (W2_arr m ρ c w).trans (((dat0 (V1 m ρ) c).arrAt_in w hin _).trans (A_eq0 (V1 m ρ) c w))
  · exact W2_of_ne m ρ c b fun w e => h ⟨w, e⟩

/-- After the host stretch `hostOps1`: what region 1 is entered from. -/
abbrev W3 : Dev nD → Valuation τ sig (Elt F) := fun c => StableHlo.after hostOps1 (W2 m ρ c)
/-- The same read at the core's own references (what region 1's proof data take). -/
abbrev V3 : (c : Dev nD) → (b : Ref sig .tc) → Buf (Elt F) ((c : Thread nD τ).loc b) := fun c b => W3 m ρ c b
/-- At region 1's exit: its windows' arrays at what the pipeline leaves (an input's as entered, an output's with
    its write-backs folded in), every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- The same read at the core's own references (region 1's exit contents). -/
abbrev V4 : (c : Dev nD) → (b : Ref sig .tc) → Buf (Elt F) ((c : Thread nD τ).loc b) := fun c b => W4 m ρ c b
/-- At region 1's exit each of its arrays holds what the pipeline leaves, and every other buffer what it held at entry. -/
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)
/-- A buffer the host stretch `hostOps1` does not write is the same before and after it. -/
theorem W3_host (c : Dev nD) (b : Ref sig .tc) (h : b ∉ hostOps1_W) :
    W3 m ρ c (Proc.devRef .tc b) = W2 m ρ c (Proc.devRef .tc b) :=
  StableHlo.after_of_writes_sub hostOps1 _ hostOps1_writes h
/-- A buffer that is no output window's array of region 1 is the same before and after the region: either no window
    stages it, or an input window does, and an input's array ends as it was entered. -/
theorem W4_keep (c : Dev nD) (b : Ref sig .tc) (o : ∀ w, (cfg1.win w).isOut = true → Pipeline.arrRef spec1 w ≠ b) :
    W4 m ρ c (Proc.devRef .tc b) = W3 m ρ c (Proc.devRef .tc b) := by
  by_cases h : ∃ w, Pipeline.arrRef spec1 w = b
  · obtain ⟨w, rfl⟩ := h
    have hin : (cfg1.win w).isOut = false := by
      cases hio : (cfg1.win w).isOut with
      | false => rfl
      | true => exact absurd rfl (o w hio)
    exact (W4_arr m ρ c w).trans (((dat1 (V3 m ρ) c).arrAt_in w hin _).trans (A_eq1 (V3 m ρ) c w))
  · exact W4_of_ne m ρ c b fun w e => h ⟨w, e⟩

/-- After the host stretch `hostOps2`: what region 2 is entered from. -/
abbrev W5 : Dev nD → Valuation τ sig (Elt F) := fun c => StableHlo.after hostOps2 (W4 m ρ c)
/-- The same read at the core's own references (what region 2's proof data take). -/
abbrev V5 : (c : Dev nD) → (b : Ref sig .tc) → Buf (Elt F) ((c : Thread nD τ).loc b) := fun c b => W5 m ρ c b
/-- At region 2's exit: its windows' arrays at what the pipeline leaves (an input's as entered, an output's with
    its write-backs folded in), every other buffer as entered. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
/-- The same read at the core's own references (region 2's exit contents). -/
abbrev V6 : (c : Dev nD) → (b : Ref sig .tc) → Buf (Elt F) ((c : Thread nD τ).loc b) := fun c b => W6 m ρ c b
/-- At region 2's exit each of its arrays holds what the pipeline leaves, and every other buffer what it held at entry. -/
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)
/-- A buffer the host stretch `hostOps2` does not write is the same before and after it. -/
theorem W5_host (c : Dev nD) (b : Ref sig .tc) (h : b ∉ hostOps2_W) :
    W5 m ρ c (Proc.devRef .tc b) = W4 m ρ c (Proc.devRef .tc b) :=
  StableHlo.after_of_writes_sub hostOps2 _ hostOps2_writes h
/-- A buffer that is no output window's array of region 2 is the same before and after the region: either no window
    stages it, or an input window does, and an input's array ends as it was entered. -/
theorem W6_keep (c : Dev nD) (b : Ref sig .tc) (o : ∀ w, (cfg2.win w).isOut = true → Pipeline.arrRef spec2 w ≠ b) :
    W6 m ρ c (Proc.devRef .tc b) = W5 m ρ c (Proc.devRef .tc b) := by
  by_cases h : ∃ w, Pipeline.arrRef spec2 w = b
  · obtain ⟨w, rfl⟩ := h
    have hin : (cfg2.win w).isOut = false := by
      cases hio : (cfg2.win w).isOut with
      | false => rfl
      | true => exact absurd rfl (o w hio)
    exact (W6_arr m ρ c w).trans (((dat2 (V5 m ρ) c).arrAt_in w hin _).trans (A_eq2 (V5 m ρ) c w))
  · exact W6_of_ne m ρ c b fun w e => h ⟨w, e⟩

/-- After the host stretch `hostOps3`: what region 3 is entered from. -/
abbrev W7 : Dev nD → Valuation τ sig (Elt F) := fun c => StableHlo.after hostOps3 (W6 m ρ c)
/-- The same read at the core's own references (what region 3's proof data take). -/
abbrev V7 : (c : Dev nD) → (b : Ref sig .tc) → Buf (Elt F) ((c : Thread nD τ).loc b) := fun c b => W7 m ρ c b
/-- At region 3's exit: its windows' arrays at what the pipeline leaves (an input's as entered, an output's with
    its write-backs folded in), every other buffer as entered. -/
def W8 (c : Dev nD) : Valuation τ sig (Elt F) :=
  Pipeline.withArrays spec3 c (W7 m ρ c) fun w => (dat3 (V7 m ρ) c).arrAt w cfg3.N
theorem W8_arr (c : Dev nD) (w : Fin cfg3.W) :
    W8 m ρ c (Proc.devRef .tc (Pipeline.arrRef spec3 w)) = (dat3 (V7 m ρ) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m ρ c (Proc.devRef .tc b) = W7 m ρ c (Proc.devRef .tc b) := by
  unfold W8; exact Pipeline.withArrays_of_ne spec3 c _ _ b hb
/-- The same read at the core's own references (region 3's exit contents). -/
abbrev V8 : (c : Dev nD) → (b : Ref sig .tc) → Buf (Elt F) ((c : Thread nD τ).loc b) := fun c b => W8 m ρ c b
/-- At region 3's exit each of its arrays holds what the pipeline leaves, and every other buffer what it held at entry. -/
theorem hF3 (c : Dev nD) (w : Fin cfg3.W) : (dat3 (V7 m ρ) c).arrAt w cfg3.N = V8 m ρ c (Pipeline.arrRef spec3 w) :=
  (W8_arr m ρ c w).symm
theorem hrest3 (c : Dev nD) : ∀ b, b ∉ Finset.univ.image (Pipeline.arrRef spec3) → V8 m ρ c b = V7 m ρ c b :=
  fun b hb => W8_of_ne m ρ c b fun w e => hb (Finset.mem_image.mpr ⟨w, Finset.mem_univ _, e⟩)
/-- A buffer the host stretch `hostOps3` does not write is the same before and after it. -/
theorem W7_host (c : Dev nD) (b : Ref sig .tc) (h : b ∉ hostOps3_W) :
    W7 m ρ c (Proc.devRef .tc b) = W6 m ρ c (Proc.devRef .tc b) :=
  StableHlo.after_of_writes_sub hostOps3 _ hostOps3_writes h
/-- A buffer that is no output window's array of region 3 is the same before and after the region: either no window
    stages it, or an input window does, and an input's array ends as it was entered. -/
theorem W8_keep (c : Dev nD) (b : Ref sig .tc) (o : ∀ w, (cfg3.win w).isOut = true → Pipeline.arrRef spec3 w ≠ b) :
    W8 m ρ c (Proc.devRef .tc b) = W7 m ρ c (Proc.devRef .tc b) := by
  by_cases h : ∃ w, Pipeline.arrRef spec3 w = b
  · obtain ⟨w, rfl⟩ := h
    have hin : (cfg3.win w).isOut = false := by
      cases hio : (cfg3.win w).isOut with
      | false => rfl
      | true => exact absurd rfl (o w hio)
    exact (W8_arr m ρ c w).trans (((dat3 (V7 m ρ) c).arrAt_in w hin _).trans (A_eq3 (V7 m ρ) c w))
  · exact W8_of_ne m ρ c b fun w e => h ⟨w, e⟩

/-- After the host stretch `hostOps4`: what region 4 is entered from. -/
abbrev W9 : Dev nD → Valuation τ sig (Elt F) := fun c => StableHlo.after hostOps4 (W8 m ρ c)
/-- The same read at the core's own references (what region 4's proof data take). -/
abbrev V9 : (c : Dev nD) → (b : Ref sig .tc) → Buf (Elt F) ((c : Thread nD τ).loc b) := fun c b => W9 m ρ c b
/-- At region 4's exit: its windows' arrays at what the pipeline leaves (an input's as entered, an output's with
    its write-backs folded in), every other buffer as entered. -/
def W10 (c : Dev nD) : Valuation τ sig (Elt F) :=
  Pipeline.withArrays spec4 c (W9 m ρ c) fun w => (dat4 (V9 m ρ) c).arrAt w cfg4.N
theorem W10_arr (c : Dev nD) (w : Fin cfg4.W) :
    W10 m ρ c (Proc.devRef .tc (Pipeline.arrRef spec4 w)) = (dat4 (V9 m ρ) c).arrAt w cfg4.N := by
  unfold W10; exact Pipeline.withArrays_arr spec4 launch4.win.arr_inj c _ _ w
theorem W10_of_ne (c : Dev nD) (b : Ref sig .tc) (hb : ∀ w, Pipeline.arrRef spec4 w ≠ b) :
    W10 m ρ c (Proc.devRef .tc b) = W9 m ρ c (Proc.devRef .tc b) := by
  unfold W10; exact Pipeline.withArrays_of_ne spec4 c _ _ b hb
/-- The same read at the core's own references (region 4's exit contents). -/
abbrev V10 : (c : Dev nD) → (b : Ref sig .tc) → Buf (Elt F) ((c : Thread nD τ).loc b) := fun c b => W10 m ρ c b
/-- At region 4's exit each of its arrays holds what the pipeline leaves, and every other buffer what it held at entry. -/
theorem hF4 (c : Dev nD) (w : Fin cfg4.W) : (dat4 (V9 m ρ) c).arrAt w cfg4.N = V10 m ρ c (Pipeline.arrRef spec4 w) :=
  (W10_arr m ρ c w).symm
theorem hrest4 (c : Dev nD) : ∀ b, b ∉ Finset.univ.image (Pipeline.arrRef spec4) → V10 m ρ c b = V9 m ρ c b :=
  fun b hb => W10_of_ne m ρ c b fun w e => hb (Finset.mem_image.mpr ⟨w, Finset.mem_univ _, e⟩)
/-- A buffer the host stretch `hostOps4` does not write is the same before and after it. -/
theorem W9_host (c : Dev nD) (b : Ref sig .tc) (h : b ∉ hostOps4_W) :
    W9 m ρ c (Proc.devRef .tc b) = W8 m ρ c (Proc.devRef .tc b) :=
  StableHlo.after_of_writes_sub hostOps4 _ hostOps4_writes h
/-- A buffer that is no output window's array of region 4 is the same before and after the region: either no window
    stages it, or an input window does, and an input's array ends as it was entered. -/
theorem W10_keep (c : Dev nD) (b : Ref sig .tc) (o : ∀ w, (cfg4.win w).isOut = true → Pipeline.arrRef spec4 w ≠ b) :
    W10 m ρ c (Proc.devRef .tc b) = W9 m ρ c (Proc.devRef .tc b) := by
  by_cases h : ∃ w, Pipeline.arrRef spec4 w = b
  · obtain ⟨w, rfl⟩ := h
    have hin : (cfg4.win w).isOut = false := by
      cases hio : (cfg4.win w).isOut with
      | false => rfl
      | true => exact absurd rfl (o w hio)
    exact (W10_arr m ρ c w).trans (((dat4 (V9 m ρ) c).arrAt_in w hin _).trans (A_eq4 (V9 m ρ) c w))
  · exact W10_of_ne m ρ c b fun w e => h ⟨w, e⟩

/-- After the host stretch `hostOps5`: what region 5 is entered from. -/
abbrev W11 : Dev nD → Valuation τ sig (Elt F) := fun c => StableHlo.after hostOps5 (W10 m ρ c)
/-- The same read at the core's own references (what region 5's proof data take). -/
abbrev V11 : (c : Dev nD) → (b : Ref sig .tc) → Buf (Elt F) ((c : Thread nD τ).loc b) := fun c b => W11 m ρ c b
/-- At region 5's exit: its windows' arrays at what the pipeline leaves (an input's as entered, an output's with
    its write-backs folded in), every other buffer as entered. -/
def W12 (c : Dev nD) : Valuation τ sig (Elt F) :=
  Pipeline.withArrays spec5 c (W11 m ρ c) fun w => (dat5 (V11 m ρ) c).arrAt w cfg5.N
theorem W12_arr (c : Dev nD) (w : Fin cfg5.W) :
    W12 m ρ c (Proc.devRef .tc (Pipeline.arrRef spec5 w)) = (dat5 (V11 m ρ) c).arrAt w cfg5.N := by
  unfold W12; exact Pipeline.withArrays_arr spec5 launch5.win.arr_inj c _ _ w
theorem W12_of_ne (c : Dev nD) (b : Ref sig .tc) (hb : ∀ w, Pipeline.arrRef spec5 w ≠ b) :
    W12 m ρ c (Proc.devRef .tc b) = W11 m ρ c (Proc.devRef .tc b) := by
  unfold W12; exact Pipeline.withArrays_of_ne spec5 c _ _ b hb
/-- The same read at the core's own references (region 5's exit contents). -/
abbrev V12 : (c : Dev nD) → (b : Ref sig .tc) → Buf (Elt F) ((c : Thread nD τ).loc b) := fun c b => W12 m ρ c b
/-- At region 5's exit each of its arrays holds what the pipeline leaves, and every other buffer what it held at entry. -/
theorem hF5 (c : Dev nD) (w : Fin cfg5.W) : (dat5 (V11 m ρ) c).arrAt w cfg5.N = V12 m ρ c (Pipeline.arrRef spec5 w) :=
  (W12_arr m ρ c w).symm
theorem hrest5 (c : Dev nD) : ∀ b, b ∉ Finset.univ.image (Pipeline.arrRef spec5) → V12 m ρ c b = V11 m ρ c b :=
  fun b hb => W12_of_ne m ρ c b fun w e => hb (Finset.mem_image.mpr ⟨w, Finset.mem_univ _, e⟩)
/-- A buffer the host stretch `hostOps5` does not write is the same before and after it. -/
theorem W11_host (c : Dev nD) (b : Ref sig .tc) (h : b ∉ hostOps5_W) :
    W11 m ρ c (Proc.devRef .tc b) = W10 m ρ c (Proc.devRef .tc b) :=
  StableHlo.after_of_writes_sub hostOps5 _ hostOps5_writes h
/-- A buffer that is no output window's array of region 5 is the same before and after the region: either no window
    stages it, or an input window does, and an input's array ends as it was entered. -/
theorem W12_keep (c : Dev nD) (b : Ref sig .tc) (o : ∀ w, (cfg5.win w).isOut = true → Pipeline.arrRef spec5 w ≠ b) :
    W12 m ρ c (Proc.devRef .tc b) = W11 m ρ c (Proc.devRef .tc b) := by
  by_cases h : ∃ w, Pipeline.arrRef spec5 w = b
  · obtain ⟨w, rfl⟩ := h
    have hin : (cfg5.win w).isOut = false := by
      cases hio : (cfg5.win w).isOut with
      | false => rfl
      | true => exact absurd rfl (o w hio)
    exact (W12_arr m ρ c w).trans (((dat5 (V11 m ρ) c).arrAt_in w hin _).trans (A_eq5 (V11 m ρ) c w))
  · exact W12_of_ne m ρ c b fun w e => h ⟨w, e⟩

/-- After the host stretch `hostOps6`: what region 6 is entered from. -/
abbrev W13 : Dev nD → Valuation τ sig (Elt F) := fun c => StableHlo.after hostOps6 (W12 m ρ c)
/-- The same read at the core's own references (what region 6's proof data take). -/
abbrev V13 : (c : Dev nD) → (b : Ref sig .tc) → Buf (Elt F) ((c : Thread nD τ).loc b) := fun c b => W13 m ρ c b
/-- At region 6's exit: its windows' arrays at what the pipeline leaves (an input's as entered, an output's with
    its write-backs folded in), every other buffer as entered. -/
def W14 (c : Dev nD) : Valuation τ sig (Elt F) :=
  Pipeline.withArrays spec6 c (W13 m ρ c) fun w => (dat6 (V13 m ρ) c).arrAt w cfg6.N
theorem W14_arr (c : Dev nD) (w : Fin cfg6.W) :
    W14 m ρ c (Proc.devRef .tc (Pipeline.arrRef spec6 w)) = (dat6 (V13 m ρ) c).arrAt w cfg6.N := by
  unfold W14; exact Pipeline.withArrays_arr spec6 launch6.win.arr_inj c _ _ w
theorem W14_of_ne (c : Dev nD) (b : Ref sig .tc) (hb : ∀ w, Pipeline.arrRef spec6 w ≠ b) :
    W14 m ρ c (Proc.devRef .tc b) = W13 m ρ c (Proc.devRef .tc b) := by
  unfold W14; exact Pipeline.withArrays_of_ne spec6 c _ _ b hb
/-- The same read at the core's own references (region 6's exit contents). -/
abbrev V14 : (c : Dev nD) → (b : Ref sig .tc) → Buf (Elt F) ((c : Thread nD τ).loc b) := fun c b => W14 m ρ c b
/-- At region 6's exit each of its arrays holds what the pipeline leaves, and every other buffer what it held at entry. -/
theorem hF6 (c : Dev nD) (w : Fin cfg6.W) : (dat6 (V13 m ρ) c).arrAt w cfg6.N = V14 m ρ c (Pipeline.arrRef spec6 w) :=
  (W14_arr m ρ c w).symm
theorem hrest6 (c : Dev nD) : ∀ b, b ∉ Finset.univ.image (Pipeline.arrRef spec6) → V14 m ρ c b = V13 m ρ c b :=
  fun b hb => W14_of_ne m ρ c b fun w e => hb (Finset.mem_image.mpr ⟨w, Finset.mem_univ _, e⟩)
/-- A buffer the host stretch `hostOps6` does not write is the same before and after it. -/
theorem W13_host (c : Dev nD) (b : Ref sig .tc) (h : b ∉ hostOps6_W) :
    W13 m ρ c (Proc.devRef .tc b) = W12 m ρ c (Proc.devRef .tc b) :=
  StableHlo.after_of_writes_sub hostOps6 _ hostOps6_writes h
/-- A buffer that is no output window's array of region 6 is the same before and after the region: either no window
    stages it, or an input window does, and an input's array ends as it was entered. -/
theorem W14_keep (c : Dev nD) (b : Ref sig .tc) (o : ∀ w, (cfg6.win w).isOut = true → Pipeline.arrRef spec6 w ≠ b) :
    W14 m ρ c (Proc.devRef .tc b) = W13 m ρ c (Proc.devRef .tc b) := by
  by_cases h : ∃ w, Pipeline.arrRef spec6 w = b
  · obtain ⟨w, rfl⟩ := h
    have hin : (cfg6.win w).isOut = false := by
      cases hio : (cfg6.win w).isOut with
      | false => rfl
      | true => exact absurd rfl (o w hio)
    exact (W14_arr m ρ c w).trans (((dat6 (V13 m ρ) c).arrAt_in w hin _).trans (A_eq6 (V13 m ρ) c w))
  · exact W14_of_ne m ρ c b fun w e => h ⟨w, e⟩

/-! ## What ends as launched, and the result -/

/-- A buffer that no host stretch writes and that is no output window's array of any region holds at the end what it
    held at launch: walk the fourteen boundaries back. -/
theorem W14_kept (c : Dev nD) (b : Ref sig .tc)
    (h0 : b ∉ hostOps0_W) (h1 : b ∉ hostOps1_W) (h2 : b ∉ hostOps2_W) (h3 : b ∉ hostOps3_W) (h4 : b ∉ hostOps4_W) (h5 : b ∉ hostOps5_W) (h6 : b ∉ hostOps6_W)
    (o0 : ∀ w, (cfg0.win w).isOut = true → Pipeline.arrRef spec0 w ≠ b)
    (o1 : ∀ w, (cfg1.win w).isOut = true → Pipeline.arrRef spec1 w ≠ b)
    (o2 : ∀ w, (cfg2.win w).isOut = true → Pipeline.arrRef spec2 w ≠ b)
    (o3 : ∀ w, (cfg3.win w).isOut = true → Pipeline.arrRef spec3 w ≠ b)
    (o4 : ∀ w, (cfg4.win w).isOut = true → Pipeline.arrRef spec4 w ≠ b)
    (o5 : ∀ w, (cfg5.win w).isOut = true → Pipeline.arrRef spec5 w ≠ b)
    (o6 : ∀ w, (cfg6.win w).isOut = true → Pipeline.arrRef spec6 w ≠ b) :
    W14 m ρ c (Proc.devRef .tc b) = m ((c : Thread nD τ).loc b) :=
  (W14_keep m ρ c b o6).trans <| (W13_host m ρ c b h6).trans <|
  (W12_keep m ρ c b o5).trans <| (W11_host m ρ c b h5).trans <|
  (W10_keep m ρ c b o4).trans <| (W9_host m ρ c b h4).trans <|
  (W8_keep m ρ c b o3).trans <| (W7_host m ρ c b h3).trans <|
  (W6_keep m ρ c b o2).trans <| (W5_host m ρ c b h2).trans <|
  (W4_keep m ρ c b o1).trans <| (W3_host m ρ c b h1).trans <|
  (W2_keep m ρ c b o0).trans <| (W1_host m ρ c b h0).trans <| rfl

/-- The last region's output array ends at what the pipeline's write-back leaves in it. -/
theorem W14_result (c : Dev nD) : W14 m ρ c (Proc.devRef .tc main_v116) = (dat6 (V13 m ρ) c).arrAt 3 cfg6.N :=
  W14_arr m ρ c 3

/-! ## The proof data family and the thread state -/

/-- Every pipeline's proof data, each at its region's entry contents. -/
def pdats : (p : Fin 7) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
  | ⟨3, _⟩ => fun c => dat3 (V7 m ρ) c
  | ⟨4, _⟩ => fun c => dat4 (V9 m ρ) c
  | ⟨5, _⟩ => fun c => dat5 (V11 m ρ) c
  | ⟨6, _⟩ => fun c => dat6 (V13 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and its debts, at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped reference of the core is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the debts: every unscoped buffer at the last boundary's contents, the generator
    register at some state. -/
abbrev Tₙ (c : Dev nD) : sProp 𝕄 := iprop(StableHlo.held (c : Thread nD τ) (Pipeline.ucRefs τ sig) (W14 m ρ c) ∗ ∃ r, prngReg c r)

/-! ## The regions as segments -/

-- a library lemma stated over the pinned configuration unifies with the printed one only when unification may
-- unfold plain definitions in a metavariable's type
set_option backward.isDefEq.respectTransparency.types false in
/-- REGION 0 over the thread state: entered from every unscoped buffer at `W1`, left at `W2`. Its arrays are split
    out of the unscoped buffers at entry and put back at the exit contents; the generator register goes into the
    pipeline's invariant and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may
-- unfold plain definitions in a metavariable's type
set_option backward.isDefEq.respectTransparency.types false in
/-- REGION 1 over the thread state: entered from every unscoped buffer at `W3`, left at `W4`. Its arrays are split
    out of the unscoped buffers at entry and put back at the exit contents; the generator register goes into the
    pipeline's invariant and comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may
-- unfold plain definitions in a metavariable's type
set_option backward.isDefEq.respectTransparency.types false in
/-- REGION 2 over the thread state: entered from every unscoped buffer at `W5`, left at `W6`. Its arrays are split
    out of the unscoped buffers at entry and put back at the exit contents; the generator register goes into the
    pipeline's invariant and comes back; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may
-- unfold plain definitions in a metavariable's type
set_option backward.isDefEq.respectTransparency.types false in
/-- REGION 3 over the thread state: entered from every unscoped buffer at `W7`, left at `W8`. Its arrays are split
    out of the unscoped buffers at entry and put back at the exit contents; the generator register goes into the
    pipeline's invariant and comes back; nothing is owed; the kernel has no semaphore of its own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V7 m ρ) c).loose
  hwaits := Pipeline.hwaits_of_owed_zero _ _ _ _ L lv 3 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec3 c (V7 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V7 m ρ c) (V8 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may
-- unfold plain definitions in a metavariable's type
set_option backward.isDefEq.respectTransparency.types false in
/-- REGION 4 over the thread state: entered from every unscoped buffer at `W9`, left at `W10`. Its arrays are split
    out of the unscoped buffers at entry and put back at the exit contents; the generator register goes into the
    pipeline's invariant and comes back; nothing is owed; the kernel has no semaphore of its own. -/
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V9 m ρ) c).loose
  hwaits := Pipeline.hwaits_of_owed_zero _ _ _ _ L lv 4 fun _ _ => rfl
  pre c := iprop(StableHlo.held (c : Thread nD τ) (Pipeline.ucRefs τ sig) (W9 m ρ c) ∗ R c)
  post c := iprop(StableHlo.held (c : Thread nD τ) (Pipeline.ucRefs τ sig) (W10 m ρ c) ∗ R c)
  X c := iprop(∃ r, prngReg c r)
  Y c := iprop(∃ r, prngReg c r)
  Z c := Pipeline.unscopedRest (Ix := Unit) (Name := ℕ) (U := UR sig nD τ) (Lvl := ℕ) spec4 c (V9 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V9 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m ρ 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (V9 m ρ c) (V10 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may
-- unfold plain definitions in a metavariable's type
set_option backward.isDefEq.respectTransparency.types false in
/-- REGION 5 over the thread state: entered from every unscoped buffer at `W11`, left at `W12`. Its arrays are split
    out of the unscoped buffers at entry and put back at the exit contents; the generator register goes into the
    pipeline's invariant and comes back; nothing is owed; the kernel has no semaphore of its own. -/
def reg5 : Pipeline.RegionSeg (pcfgs (F := F)) adm (pdats m ρ) () defs₀ 𝒱₀ L lv 5 where
  win := launch5.win.to₀
  block_pos := launch5.block_pos
  stage_whole := launch5.stage_whole
  K := PEmpty
  osem k := k.elim
  ho := Pipeline.OwnSemFacts.none _
  hbody c := (body_obligation5 (V11 m ρ) c).loose
  hwaits := Pipeline.hwaits_of_owed_zero _ _ _ _ L lv 5 fun _ _ => rfl
  pre c := iprop(StableHlo.held (c : Thread nD τ) (Pipeline.ucRefs τ sig) (W11 m ρ c) ∗ R c)
  post c := iprop(StableHlo.held (c : Thread nD τ) (Pipeline.ucRefs τ sig) (W12 m ρ c) ∗ R c)
  X c := iprop(∃ r, prngReg c r)
  Y c := iprop(∃ r, prngReg c r)
  Z c := Pipeline.unscopedRest (Ix := Unit) (Name := ℕ) (U := UR sig nD τ) (Lvl := ℕ) spec5 c (V11 m ρ c)
  hentry c := by
    rw [Pipeline.ownSems0_none]
    have hsplit := Pipeline.arrays_of_unscopedBufs (p := 5) (pcfgs (F := F)) adm (pdats m ρ) launch5.win launch5.arr_whole c
      ((pdats m ρ 5 c).share_full fun _ => rfl) (V11 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m ρ 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m ρ) ((pdats m ρ 5 c).share_full fun _ => rfl)
      (V11 m ρ c) (V12 m ρ c) ((pdats m ρ 5 c).arrAt · cfg5.N) (hF5 m ρ c) (hrest5 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may
-- unfold plain definitions in a metavariable's type
set_option backward.isDefEq.respectTransparency.types false in
/-- REGION 6 over the thread state: entered from every unscoped buffer at `W13`, left at `W14`. Its arrays are split
    out of the unscoped buffers at entry and put back at the exit contents; the generator register goes into the
    pipeline's invariant and comes back; nothing is owed; the kernel has no semaphore of its own. -/
def reg6 : Pipeline.RegionSeg (pcfgs (F := F)) adm (pdats m ρ) () defs₀ 𝒱₀ L lv 6 where
  win := launch6.win.to₀
  block_pos := launch6.block_pos
  stage_whole := launch6.stage_whole
  K := PEmpty
  osem k := k.elim
  ho := Pipeline.OwnSemFacts.none _
  hbody c := (body_obligation6 (V13 m ρ) c).loose
  hwaits := Pipeline.hwaits_of_owed_zero _ _ _ _ L lv 6 fun _ _ => rfl
  pre c := iprop(StableHlo.held (c : Thread nD τ) (Pipeline.ucRefs τ sig) (W13 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec6 c (V13 m ρ c)
  hentry c := by
    rw [Pipeline.ownSems0_none]
    have hsplit := Pipeline.arrays_of_unscopedBufs (p := 6) (pcfgs (F := F)) adm (pdats m ρ) launch6.win launch6.arr_whole c
      ((pdats m ρ 6 c).share_full fun _ => rfl) (V13 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 6 c).Φ 0 = Pipeline.ΦA spec6 c from rfl]; unfold Pipeline.ΦA
    iintro ⟨Hp, -, Hr⟩
    isplitl [Hr]; · iexact Hr
    iexact Hp
  hout c := by
    rw [Pipeline.ownSems0_none, show (pdats m ρ 6 c).Φ (Fin.last _) = Pipeline.ΦA spec6 c from rfl]; unfold Pipeline.ΦA
    iintro ⟨Hr, Hp⟩
    isplitl [Hp]; · iexact Hp
    isplitr; · iempintro
    iexact Hr
  hexit c := by
    have hjoin := Pipeline.unscopedBufs_of_arrays (p := 6) (pcfgs (F := F)) adm (Ix := Unit) (Name := ℕ) (U := UR sig nD τ) (Lvl := ℕ)
      launch6.win launch6.arr_whole c (pdats m ρ) ((pdats m ρ 6 c).share_full fun _ => rfl)
      (V13 m ρ c) (V14 m ρ c) ((pdats m ρ 6 c).arrAt · cfg6.N) (hF6 m ρ c) (hrest6 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

/-- The fourteen segments in order: a host segment per stretch from its boundary's contents, a region per kernel call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)),
    .region (reg3 m ρ),
    .host (hseg hostOps4 hostOps4_sub hostOps4_fresh (W8 m ρ)),
    .region (reg4 m ρ),
    .host (hseg hostOps5 hostOps5_sub hostOps5_fresh (W10 m ρ)),
    .region (reg5 m ρ),
    .host (hseg hostOps6 hostOps6_sub hostOps6_fresh (W12 m ρ)),
    .region (reg6 m ρ) ]

/-- The program is the run of the segments: both are the same chain of fourteen items. -/
theorem main_run (c : Dev nD) : main (F := F) c = Pipeline.Seg.run (segs m ρ) := (main_chain c).trans (by chain_rfl)

-- the launch theorem's implicit arguments are found by unifying its conclusion with this one, which takes unfolding
-- plain definitions in a metavariable's type
set_option backward.isDefEq.respectTransparency.types false in
/-- THE RUN: from any memory with zero counters, every weakly fair execution of the program on the cores terminates,
    nothing faulting, and every final memory holds every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W14 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W14 m ρ c b)
    (hfin := fun c s' => by
      iintro ⟨⟨Hh, -⟩, HSI⟩
      unfold StableHlo.held
      imodintro
      iapply (pointsTo_read_all (Pipeline.ucRefs τ sig) (fun b => (((c : Thread nD τ)).1, b)) (W14 m ρ c) s')
      isplitl [Hh] <;> iassumption)
    (hQ := fun s h => h)

/-! ## The frame: every argument ends as launched -/

/-- No host stretch writes an argument and no region has one as an output, so each of the 23 arguments holds at the end
    what it held at launch. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)) :=
  (θ_run defs _ _).mono (fun r h c =>
    ⟨(h c _ (mem_uc main_arg0 (by decide))).trans (W14_kept m ρ c main_arg0 (by decide) (by decide) (by decide) (by decide) (by decide) (by decide) (by decide) (by decide) (by decide) (by decide) (by decide) (by decide) (by decide) (by decide)),
     (h c _ (mem_uc main_arg1 (by decide))).trans (W14_kept m ρ c main_arg1 (by decide) (by decide) (by decide) (by decide) (by decide) (by decide) (by decide) (by decide) (by decide) (by decide) (by decide) (by decide) (by decide) (by decide)),
     (h c _ (mem_uc main_arg2 (by decide))).trans (W14_kept m ρ c main_arg2 (by decide) (by decide) (by decide) (by decide) (by decide) (by decide) (by decide) (by decide) (by decide) (by decide) (by decide) (by decide) (by decide) (by decide)),
     (h c _ (mem_uc main_arg3 (by decide))).trans (W14_kept m ρ c main_arg3 (by decide) (by decide) (by decide) (by decide) (by decide) (by decide) (by decide) (by decide) (by decide) (by decide) (by decide) (by decide) (by decide) (by decide)),
     (h c _ (mem_uc main_arg4 (by decide))).trans (W14_kept m ρ c main_arg4 (by decide) (by decide) (by decide) (by decide) (by decide) (by decide) (by decide) (by decide) (by decide) (by decide) (by decide) (by decide) (by decide) (by decide)),
     (h c _ (mem_uc main_arg5 (by decide))).trans (W14_kept m ρ c main_arg5 (by decide) (by decide) (by decide) (by decide) (by decide) (by decide) (by decide) (by decide) (by decide) (by decide) (by decide) (by decide) (by decide) (by decide)),
     (h c _ (mem_uc main_arg6 (by decide))).trans (W14_kept m ρ c main_arg6 (by decide) (by decide) (by decide) (by decide) (by decide) (by decide) (by decide) (by decide) (by decide) (by decide) (by decide) (by decide) (by decide) (by decide)),
     (h c _ (mem_uc main_arg7 (by decide))).trans (W14_kept m ρ c main_arg7 (by decide) (by decide) (by decide) (by decide) (by decide) (by decide) (by decide) (by decide) (by decide) (by decide) (by decide) (by decide) (by decide) (by decide)),
     (h c _ (mem_uc main_arg8 (by decide))).trans (W14_kept m ρ c main_arg8 (by decide) (by decide) (by decide) (by decide) (by decide) (by decide) (by decide) (by decide) (by decide) (by decide) (by decide) (by decide) (by decide) (by decide)),
     (h c _ (mem_uc main_arg9 (by decide))).trans (W14_kept m ρ c main_arg9 (by decide) (by decide) (by decide) (by decide) (by decide) (by decide) (by decide) (by decide) (by decide) (by decide) (by decide) (by decide) (by decide) (by decide)),
     (h c _ (mem_uc main_arg10 (by decide))).trans (W14_kept m ρ c main_arg10 (by decide) (by decide) (by decide) (by decide) (by decide) (by decide) (by decide) (by decide) (by decide) (by decide) (by decide) (by decide) (by decide) (by decide)),
     (h c _ (mem_uc main_arg11 (by decide))).trans (W14_kept m ρ c main_arg11 (by decide) (by decide) (by decide) (by decide) (by decide) (by decide) (by decide) (by decide) (by decide) (by decide) (by decide) (by decide) (by decide) (by decide)),
     (h c _ (mem_uc main_arg12 (by decide))).trans (W14_kept m ρ c main_arg12 (by decide) (by decide) (by decide) (by decide) (by decide) (by decide) (by decide) (by decide) (by decide) (by decide) (by decide) (by decide) (by decide) (by decide)),
     (h c _ (mem_uc main_arg13 (by decide))).trans (W14_kept m ρ c main_arg13 (by decide) (by decide) (by decide) (by decide) (by decide) (by decide) (by decide) (by decide) (by decide) (by decide) (by decide) (by decide) (by decide) (by decide)),
     (h c _ (mem_uc main_arg14 (by decide))).trans (W14_kept m ρ c main_arg14 (by decide) (by decide) (by decide) (by decide) (by decide) (by decide) (by decide) (by decide) (by decide) (by decide) (by decide) (by decide) (by decide) (by decide)),
     (h c _ (mem_uc main_arg15 (by decide))).trans (W14_kept m ρ c main_arg15 (by decide) (by decide) (by decide) (by decide) (by decide) (by decide) (by decide) (by decide) (by decide) (by decide) (by decide) (by decide) (by decide) (by decide)),
     (h c _ (mem_uc main_arg16 (by decide))).trans (W14_kept m ρ c main_arg16 (by decide) (by decide) (by decide) (by decide) (by decide) (by decide) (by decide) (by decide) (by decide) (by decide) (by decide) (by decide) (by decide) (by decide)),
     (h c _ (mem_uc main_arg17 (by decide))).trans (W14_kept m ρ c main_arg17 (by decide) (by decide) (by decide) (by decide) (by decide) (by decide) (by decide) (by decide) (by decide) (by decide) (by decide) (by decide) (by decide) (by decide)),
     (h c _ (mem_uc main_arg18 (by decide))).trans (W14_kept m ρ c main_arg18 (by decide) (by decide) (by decide) (by decide) (by decide) (by decide) (by decide) (by decide) (by decide) (by decide) (by decide) (by decide) (by decide) (by decide)),
     (h c _ (mem_uc main_arg19 (by decide))).trans (W14_kept m ρ c main_arg19 (by decide) (by decide) (by decide) (by decide) (by decide) (by decide) (by decide) (by decide) (by decide) (by decide) (by decide) (by decide) (by decide) (by decide)),
     (h c _ (mem_uc main_arg20 (by decide))).trans (W14_kept m ρ c main_arg20 (by decide) (by decide) (by decide) (by decide) (by decide) (by decide) (by decide) (by decide) (by decide) (by decide) (by decide) (by decide) (by decide) (by decide)),
     (h c _ (mem_uc main_arg21 (by decide))).trans (W14_kept m ρ c main_arg21 (by decide) (by decide) (by decide) (by decide) (by decide) (by decide) (by decide) (by decide) (by decide) (by decide) (by decide) (by decide) (by decide) (by decide)),
     (h c _ (mem_uc main_arg22 (by decide))).trans (W14_kept m ρ c main_arg22 (by decide) (by decide) (by decide) (by decide) (by decide) (by decide) (by decide) (by decide) (by decide) (by decide) (by decide) (by decide) (by decide) (by decide))⟩) (run_all m ρ)

end Cert.KernelIdeal.Hand
-- ==== Proof.HostRead.lean ====
import proofs.«130004_j49941879718343_1_alg».proof.Proof.Gen.KernelIdeal.Launch
import proofs.«130004_j49941879718343_1_alg».proof.Proof.RefStages
import Idealize.ShloMosaic.Lib.Pipeline.Value
import Idealize.ShloMosaic.Lib.ValueIdx
import Idealize.ShloMosaic.Lib.IdealHost
import Idealize.ShloMosaic.PureOps.Ideal.Laws

/-!
# The host stretches of the kernel program, read

Between two kernel regions the program runs a stretch of host operations. Each lemma here says what one buffer holds
after a stretch, from ANY contents `W` of the buffers before it, as a term of `W`'s entries — so it applies at every
boundary of the run. Three kinds of stretch:

* before each layer's linear region: the aggregation `agg x e` (gather the source nodes' rows along the edge list `e`,
  add each into its destination node's row, from zero) of the layer's input `x`, and the two [128] bias vectors laid
  out as [1,128] rows;
* before each normalisation region: the batch mean `s / n` and the one-pass variance `ss / n - mean * mean` from the
  column sums `s` and the column sums of squares `ss` the linear region left (`n` is the literal 100000), and the scale and
  shift vectors as rows;
* before the last region: the three layers' outputs mean-pooled per graph (row sums per graph id divided by the graph's
  node count, at least one) and joined side by side into [512,384], and the last bias as a row.
-/

set_option maxRecDepth 16384

noncomputable section

namespace Cert.KernelIdeal.HandV

open Cert.KernelIdeal Cert.KernelIdeal.Gen Idealize.ShloMosaic Idealize.ShloMosaic.TcCoe Idealize.SL.Sem Idealize.ShloMosaic.StableHlo
open Idealize.ShloMosaic.ValueIdx

/-- A [100000,128] array of node features. -/
abbrev Nodes : Type := FVec Ideal S100000x128 .f32
/-- The [2,1600000] edge list: row 0 the source node of each edge, row 1 its destination. -/
abbrev Edges : Type := (⟨S2x1600000, .i32⟩ : BufTy).Contents (Elt Ideal)
/-- The graph id of each node. -/
abbrev Batch : Type := (⟨S100000, .i32⟩ : BufTy).Contents (Elt Ideal)
/-- A [1,128] row. -/
abbrev Row : Type := FVec Ideal S1x128 .f32
/-- A [128] vector. -/
abbrev Vec128 : Type := FVec Ideal S128 .f32

/-! ## The aggregation -/

/-- Row `src e` of the edge list as a [1600000] vector, a negative entry wrapped by adding the node count. -/
def wrapSrc (e : Edges) : (⟨S1600000, .i32⟩ : BufTy).Contents (Elt Ideal) :=
  select
    (cmpi .slt (shapeCast S1600000 (extractStridedSlice S1x1600000 ![0, 0] e slices_S2x1600000_S1x1600000_0_0) shapeCasts_S1x1600000_S1600000)
      (broadcastInDim S1600000 ![] bcast_S_S1600000 (constantI S_ 32 0#32)))
    (addi (shapeCast S1600000 (extractStridedSlice S1x1600000 ![0, 0] e slices_S2x1600000_S1x1600000_0_0) shapeCasts_S1x1600000_S1600000)
      (broadcastInDim S1600000 ![] bcast_S_S1600000 (constantI S_ 32 100000#32)))
    (shapeCast S1600000 (extractStridedSlice S1x1600000 ![0, 0] e slices_S2x1600000_S1x1600000_0_0) shapeCasts_S1x1600000_S1600000)

/-- The neighbourhood sum: for every edge, the source node's row of `x` added into the destination node's row, from
    the zero array. -/
def agg (x : Nodes) (e : Edges) : Nodes :=
  Host.scatterAdd (F := Ideal) scatter_S100000x128_S1600000x1_S1600000x128_1_0_0_1
    (broadcastInDim S100000x128 ![] bcast_S_S100000x128 (constant (F := Ideal) S_ .f32 0x00000000#32))
    (broadcastInDim S1600000x1 ![0] bcast_S1600000_S1600000x1_0
      (shapeCast S1600000 (extractStridedSlice S1x1600000 ![1, 0] e slices_S2x1600000_S1x1600000_1_0) shapeCasts_S1x1600000_S1600000))
    (Host.gather gather_S100000x128_S1600000x1_S1600000x128_1_0_n_n_0_1_1128 x
      (broadcastInDim S1600000x1 ![0] bcast_S1600000_S1600000x1_0 (wrapSrc e)))

/-- The aggregation is the reference's first scatter stage, as a function of any node array and the edge list: the two
    programs print the same operations. -/
theorem agg_eq_ref (x : Nodes) (e : Edges) : agg x e = Cert.ReferenceIdeal.Read.val_main_v13 (F := Ideal) x e := rfl

set_option maxHeartbeats 2000000 in
/-- After the host stretch before linear region 0: the aggregation of the layer's input. -/
theorem host0_agg (W : Valuation τ sig (Elt Ideal)) :
    (StableHlo.after (hostOps0 (F := Ideal)) W (Proc.devRef .tc main_v13) : Nodes) = agg (W (Proc.devRef .tc main_arg0)) (W (Proc.devRef .tc main_arg1)) := by
  after_results_simp
  rfl
set_option maxHeartbeats 2000000 in
/-- After the host stretch before linear region 2: the aggregation of the layer's input. -/
theorem host2_agg (W : Valuation τ sig (Elt Ideal)) :
    (StableHlo.after (hostOps2 (F := Ideal)) W (Proc.devRef .tc main_v39) : Nodes) = agg (W (Proc.devRef .tc main_v25)) (W (Proc.devRef .tc main_arg1)) := by
  after_results_simp
  rfl
set_option maxHeartbeats 2000000 in
/-- After the host stretch before linear region 4: the aggregation of the layer's input. -/
theorem host4_agg (W : Valuation τ sig (Elt Ideal)) :
    (StableHlo.after (hostOps4 (F := Ideal)) W (Proc.devRef .tc main_v65) : Nodes) = agg (W (Proc.devRef .tc main_v51)) (W (Proc.devRef .tc main_arg1)) := by
  after_results_simp
  rfl

/-! ## A [128] vector laid out as a [1,128] row -/

/-- Entry `(0, q)` of the row is entry `q` of the vector. -/
theorem row_of_vec (x : Vec128) (q : Fin 128) : shapeCast S1x128 x shapeCasts_S128_S1x128 (ix2 0 q) = x (ix1 q) :=
  shapeCast_apply x shapeCasts_S128_S1x128 (ix2 0 q) (ix1 q)
    (by rewrite [Shape.rowMajor_val_one, Shape.rowMajor_val_two]; show q.val = 0 * 128 + q.val; omega)

/-- After the host stretch before linear region 0: the first linear layer's bias as a row. -/
theorem host0_bias_a (W : Valuation τ sig (Elt Ideal)) (q : Fin 128) :
    (StableHlo.after (hostOps0 (F := Ideal)) W (Proc.devRef .tc main_v14) : Row) (ix2 0 q) = W (Proc.devRef .tc main_arg4) (ix1 q) := by
  after_results_simp
  exact row_of_vec (W (Proc.devRef .tc main_arg4)) q
/-- After the host stretch before linear region 0: the second linear layer's bias as a row. -/
theorem host0_bias_b (W : Valuation τ sig (Elt Ideal)) (q : Fin 128) :
    (StableHlo.after (hostOps0 (F := Ideal)) W (Proc.devRef .tc main_v15) : Row) (ix2 0 q) = W (Proc.devRef .tc main_arg6) (ix1 q) := by
  after_results_simp
  exact row_of_vec (W (Proc.devRef .tc main_arg6)) q
/-- After the host stretch before linear region 2: the first linear layer's bias as a row. -/
theorem host2_bias_a (W : Valuation τ sig (Elt Ideal)) (q : Fin 128) :
    (StableHlo.after (hostOps2 (F := Ideal)) W (Proc.devRef .tc main_v40) : Row) (ix2 0 q) = W (Proc.devRef .tc main_arg10) (ix1 q) := by
  after_results_simp
  exact row_of_vec (W (Proc.devRef .tc main_arg10)) q
/-- After the host stretch before linear region 2: the second linear layer's bias as a row. -/
theorem host2_bias_b (W : Valuation τ sig (Elt Ideal)) (q : Fin 128) :
    (StableHlo.after (hostOps2 (F := Ideal)) W (Proc.devRef .tc main_v41) : Row) (ix2 0 q) = W (Proc.devRef .tc main_arg12) (ix1 q) := by
  after_results_simp
  exact row_of_vec (W (Proc.devRef .tc main_arg12)) q
/-- After the host stretch before linear region 4: the first linear layer's bias as a row. -/
theorem host4_bias_a (W : Valuation τ sig (Elt Ideal)) (q : Fin 128) :
    (StableHlo.after (hostOps4 (F := Ideal)) W (Proc.devRef .tc main_v66) : Row) (ix2 0 q) = W (Proc.devRef .tc main_arg16) (ix1 q) := by
  after_results_simp
  exact row_of_vec (W (Proc.devRef .tc main_arg16)) q
/-- After the host stretch before linear region 4: the second linear layer's bias as a row. -/
theorem host4_bias_b (W : Valuation τ sig (Elt Ideal)) (q : Fin 128) :
    (StableHlo.after (hostOps4 (F := Ideal)) W (Proc.devRef .tc main_v67) : Row) (ix2 0 q) = W (Proc.devRef .tc main_arg18) (ix1 q) := by
  after_results_simp
  exact row_of_vec (W (Proc.devRef .tc main_arg18)) q

/-! ## The batch statistics -/

/-- The node count 100000 as a [1,128] row of the literal. -/
def countRow : Row := broadcastInDim S1x128 ![] bcast_S_S1x128 (constant (F := Ideal) S_ .f32 0x47C35000#32)

/-- The batch mean from the column sums. -/
def meanRow (s : Row) : Row := Host.divf (F := Ideal) s countRow
/-- The one-pass variance from the column sums and the column sums of squares. -/
def varRow (s ss : Row) : Row := subf (Host.divf (F := Ideal) ss countRow) (mulf (meanRow s) (meanRow s))

theorem countRow_apply (j : S1x128.Idx) : countRow j = Ideal.ofBits .f32 0x47C35000#32 := by
  unfold countRow; rw [broadcastInDim_scalar_apply]; rfl
/-- The mean at an entry: the column sum divided by the count. -/
theorem meanRow_apply (s : Row) (j : S1x128.Idx) : meanRow s j = Ideal.div (s j) (Ideal.ofBits .f32 0x47C35000#32) := by
  unfold meanRow; rw [hostDivf_apply, countRow_apply]
/-- The variance at an entry: the mean of squares minus the square of the mean. -/
theorem varRow_apply (s ss : Row) (j : S1x128.Idx) :
    varRow s ss j = Ideal.div (ss j) (Ideal.ofBits .f32 0x47C35000#32)
      - Ideal.div (s j) (Ideal.ofBits .f32 0x47C35000#32) * Ideal.div (s j) (Ideal.ofBits .f32 0x47C35000#32) := by
  unfold varRow; rw [subf_apply, mulf_apply, hostDivf_apply, meanRow_apply, countRow_apply]

/-- After the host stretch before normalisation region 1: the mean row, -/
theorem host1_mean (W : Valuation τ sig (Elt Ideal)) :
    (StableHlo.after (hostOps1 (F := Ideal)) W (Proc.devRef .tc main_v18) : Row) = meanRow (W (Proc.devRef .tc main_v16_1)) := by
  after_results_simp
  rfl
/-- the variance row, -/
theorem host1_var (W : Valuation τ sig (Elt Ideal)) :
    (StableHlo.after (hostOps1 (F := Ideal)) W (Proc.devRef .tc main_v22) : Row) = varRow (W (Proc.devRef .tc main_v16_1)) (W (Proc.devRef .tc main_v16_2)) := by
  after_results_simp
  rfl
/-- the scale as a row, -/
theorem host1_scale (W : Valuation τ sig (Elt Ideal)) (q : Fin 128) :
    (StableHlo.after (hostOps1 (F := Ideal)) W (Proc.devRef .tc main_v23) : Row) (ix2 0 q) = W (Proc.devRef .tc main_arg7) (ix1 q) := by
  after_results_simp
  exact row_of_vec (W (Proc.devRef .tc main_arg7)) q
/-- and the shift as a row. -/
theorem host1_shift (W : Valuation τ sig (Elt Ideal)) (q : Fin 128) :
    (StableHlo.after (hostOps1 (F := Ideal)) W (Proc.devRef .tc main_v24) : Row) (ix2 0 q) = W (Proc.devRef .tc main_arg8) (ix1 q) := by
  after_results_simp
  exact row_of_vec (W (Proc.devRef .tc main_arg8)) q
/-- After the host stretch before normalisation region 3: the mean row, -/
theorem host3_mean (W : Valuation τ sig (Elt Ideal)) :
    (StableHlo.after (hostOps3 (F := Ideal)) W (Proc.devRef .tc main_v44) : Row) = meanRow (W (Proc.devRef .tc main_v42_1)) := by
  after_results_simp
  rfl
/-- the variance row, -/
theorem host3_var (W : Valuation τ sig (Elt Ideal)) :
    (StableHlo.after (hostOps3 (F := Ideal)) W (Proc.devRef .tc main_v48) : Row) = varRow (W (Proc.devRef .tc main_v42_1)) (W (Proc.devRef .tc main_v42_2)) := by
  after_results_simp
  rfl
/-- the scale as a row, -/
theorem host3_scale (W : Valuation τ sig (Elt Ideal)) (q : Fin 128) :
    (StableHlo.after (hostOps3 (F := Ideal)) W (Proc.devRef .tc main_v49) : Row) (ix2 0 q) = W (Proc.devRef .tc main_arg13) (ix1 q) := by
  after_results_simp
  exact row_of_vec (W (Proc.devRef .tc main_arg13)) q
/-- and the shift as a row. -/
theorem host3_shift (W : Valuation τ sig (Elt Ideal)) (q : Fin 128) :
    (StableHlo.after (hostOps3 (F := Ideal)) W (Proc.devRef .tc main_v50) : Row) (ix2 0 q) = W (Proc.devRef .tc main_arg14) (ix1 q) := by
  after_results_simp
  exact row_of_vec (W (Proc.devRef .tc main_arg14)) q
/-- After the host stretch before normalisation region 5: the mean row, -/
theorem host5_mean (W : Valuation τ sig (Elt Ideal)) :
    (StableHlo.after (hostOps5 (F := Ideal)) W (Proc.devRef .tc main_v70) : Row) = meanRow (W (Proc.devRef .tc main_v68_1)) := by
  after_results_simp
  rfl
/-- the variance row, -/
theorem host5_var (W : Valuation τ sig (Elt Ideal)) :
    (StableHlo.after (hostOps5 (F := Ideal)) W (Proc.devRef .tc main_v74) : Row) = varRow (W (Proc.devRef .tc main_v68_1)) (W (Proc.devRef .tc main_v68_2)) := by
  after_results_simp
  rfl
/-- the scale as a row, -/
theorem host5_scale (W : Valuation τ sig (Elt Ideal)) (q : Fin 128) :
    (StableHlo.after (hostOps5 (F := Ideal)) W (Proc.devRef .tc main_v75) : Row) (ix2 0 q) = W (Proc.devRef .tc main_arg19) (ix1 q) := by
  after_results_simp
  exact row_of_vec (W (Proc.devRef .tc main_arg19)) q
/-- and the shift as a row. -/
theorem host5_shift (W : Valuation τ sig (Elt Ideal)) (q : Fin 128) :
    (StableHlo.after (hostOps5 (F := Ideal)) W (Proc.devRef .tc main_v76) : Row) (ix2 0 q) = W (Proc.devRef .tc main_arg20) (ix1 q) := by
  after_results_simp
  exact row_of_vec (W (Proc.devRef .tc main_arg20)) q

/-! ## The pooling and the concatenation -/

/-- The number of nodes of each graph, at least one: ones added per graph id from zero, then the maximum with one. -/
def graphCount (batch : Batch) : FVec Ideal S512 .f32 :=
  maximumf
    (Host.scatterAdd (F := Ideal) scatter_S512_S100000x1_S100000_n_0_0_1
      (broadcastInDim S512 ![] bcast_S_S512 (constant (F := Ideal) S_ .f32 0x00000000#32))
      (broadcastInDim S100000x1 ![0] bcast_S100000_S100000x1_0 batch)
      (broadcastInDim S100000 ![] bcast_S_S100000 (constant (F := Ideal) S_ .f32 0x3F800000#32)))
    (broadcastInDim S512 ![] bcast_S_S512 (constant (F := Ideal) S_ .f32 0x3F800000#32))

/-- The mean of a node array's rows per graph: the rows added per graph id from zero, divided by the graph's count. -/
def pool (h : Nodes) (batch : Batch) : FVec Ideal S512x128 .f32 :=
  Host.divf (F := Ideal)
    (Host.scatterAdd (F := Ideal) scatter_S512x128_S100000x1_S100000x128_1_0_0_1
      (broadcastInDim S512x128 ![] bcast_S_S512x128 (constant (F := Ideal) S_ .f32 0x00000000#32))
      (broadcastInDim S100000x1 ![0] bcast_S100000_S100000x1_0 batch) h)
    (broadcastInDim S512x128 ![0, 1] bcast_S512x1_S512x128_0_1 (broadcastInDim S512x1 ![0] bcast_S512_S512x1_0 (graphCount batch)))

/-- The three layers' pooled outputs side by side, [512,384]. -/
def poolCat (h1 h2 h3 : Nodes) (batch : Batch) : FVec Ideal S512x384 .f32 :=
  concatenate S512x384 1 [⟨S512x128, pool h1 batch⟩, ⟨S512x128, pool h2 batch⟩, ⟨S512x128, pool h3 batch⟩]
    concatenates_S512x128_S512x128_S512x128_S512x384_d1

set_option maxHeartbeats 4000000 in
/-- After the last host stretch: the pooled and joined features the last region reads. -/
theorem host6_cat (W : Valuation τ sig (Elt Ideal)) :
    (StableHlo.after (hostOps6 (F := Ideal)) W (Proc.devRef .tc main_v114) : FVec Ideal S512x384 .f32)
      = poolCat (W (Proc.devRef .tc main_v25)) (W (Proc.devRef .tc main_v51)) (W (Proc.devRef .tc main_v77)) (W (Proc.devRef .tc main_arg2)) := by
  after_results_simp
  rfl

set_option maxHeartbeats 4000000 in
/-- After the last host stretch: the last bias as a row. -/
theorem host6_bias (W : Valuation τ sig (Elt Ideal)) (q : Fin 128) :
    (StableHlo.after (hostOps6 (F := Ideal)) W (Proc.devRef .tc main_v115) : Row) (ix2 0 q) = W (Proc.devRef .tc main_arg22) (ix1 q) := by
  after_results_simp
  exact row_of_vec (W (Proc.devRef .tc main_arg22)) q

/-! ## The same functions on the reference side

The reference prints the same host operations, so its stages are these functions of its own earlier stages, by
unfolding: its three aggregations (of the input, then of each layer's output) and its pooled and joined features. -/

/-- A [128,128] weight matrix. -/
abbrev Mat128 : Type := FVec Ideal S128x128 .f32

open Cert.ReferenceIdeal.Read in
/-- The reference's second aggregation is `agg` of its first layer's output. -/
theorem ref_agg2 (x0 : Nodes) (x1 : Edges) (x3 : Mat128) (x4 : Vec128) (x5 : Mat128) (x6 x7 x8 : Vec128) :
    val_main_v63 (F := Ideal) x0 x1 x3 x4 x5 x6 x7 x8 = agg (val_main_v49 (F := Ideal) x0 x1 x3 x4 x5 x6 x7 x8) x1 := rfl

open Cert.ReferenceIdeal.Read in
/-- The reference's third aggregation is `agg` of its second layer's output. -/
theorem ref_agg3 (x0 : Nodes) (x1 : Edges) (x3 : Mat128) (x4 : Vec128) (x5 : Mat128) (x6 x7 x8 : Vec128) (x9 : Mat128) (x10 : Vec128) (x11 : Mat128) (x12 x13 x14 : Vec128) :
    val_main_v113 (F := Ideal) x0 x1 x3 x4 x5 x6 x7 x8 x9 x10 x11 x12 x13 x14 = agg (val_main_v99 (F := Ideal) x0 x1 x3 x4 x5 x6 x7 x8 x9 x10 x11 x12 x13 x14) x1 := rfl

open Cert.ReferenceIdeal.Read in
/-- The reference's pooled and joined features are `poolCat` of its three layers' outputs. -/
theorem poolCat_eq_ref (x0 : Nodes) (x1 : Edges) (x2 : Batch) (x3 : Mat128) (x4 : Vec128) (x5 : Mat128) (x6 x7 x8 : Vec128) (x9 : Mat128) (x10 : Vec128) (x11 : Mat128) (x12 x13 x14 : Vec128) (x15 : Mat128) (x16 : Vec128) (x17 : Mat128) (x18 x19 x20 : Vec128) :
    val_main_v186 (F := Ideal) x0 x1 x2 x3 x4 x5 x6 x7 x8 x9 x10 x11 x12 x13 x14 x15 x16 x17 x18 x19 x20
      = poolCat (val_main_v49 (F := Ideal) x0 x1 x3 x4 x5 x6 x7 x8) (val_main_v99 (F := Ideal) x0 x1 x3 x4 x5 x6 x7 x8 x9 x10 x11 x12 x13 x14) (val_main_v149 (F := Ideal) x0 x1 x3 x4 x5 x6 x7 x8 x9 x10 x11 x12 x13 x14 x15 x16 x17 x18 x19 x20) x2 := rfl

end Cert.KernelIdeal.HandV
-- ==== Proof.LibMatmulNN.lean ====
/-
  A reusable lemma: a matrix product on the matrix unit, read at an entry.

  A `tpu.matmul` of an [M, K] operand by a [K, N] operand — contracting axis 1 of the left with axis 0 of the right, no
  batch axes — accumulated into the zero splat, read over the extended reals at the output entry (p, q), is the inner
  product of row p of the left operand with column q of the right one:

      (L · R)[p, q] = Σ_{k < K} L[p, k] · R[k, q].

  Generic in the extents M, K, N and in the operands' float formats; the dimension record may be any one that equals the
  plain M×K by K×N record (a printed program's own record does, by unfolding).
-/
import Idealize.ShloMosaic.PureOps.Ideal.Laws
import Idealize.ShloMosaic.Lib.ValueIdx

noncomputable section

namespace Cert.MatmulNN

open Idealize.ShloMosaic Idealize.ShloMosaic.ValueIdx

variable {M K N : Nat} {φ₁ φ₂ : FTy}

/-- The left operand's index at output (p, q) and contraction position k is (p, k). -/
theorem lhsIdx_plain (p : Fin M) (q : Fin N) (k : Fin K) :
    (DotDims.plain M K N).lhsIdx (ix2 p q) ((contrEquiv1 (DotDims.plain M K N) K rfl rfl).symm k) = ix2 p k :=
  funext fun a => Fin.ext (by
    match a with
    | ⟨0, _⟩ => rfl
    | ⟨1, _⟩ =>
      exact ((DotDims.plain M K N).lhsIdx_val_of_single rfl (ix2 p q) _).trans
        (contrEquiv1_symm_val (DotDims.plain M K N) K rfl rfl k))

/-- The right operand's index at output (p, q) and contraction position k is (k, q). -/
theorem rhsIdx_plain (p : Fin M) (q : Fin N) (k : Fin K) :
    (DotDims.plain M K N).rhsIdx (ix2 p q) ((contrEquiv1 (DotDims.plain M K N) K rfl rfl).symm k) = ix2 k q :=
  funext fun a => Fin.ext (by
    match a with
    | ⟨0, _⟩ =>
      exact ((DotDims.plain M K N).rhsIdx_val_of_single rfl (ix2 p q) _).trans
        (contrEquiv1_symm_val (DotDims.plain M K N) K rfl rfl k)
    | ⟨1, _⟩ => rfl)

/-- A matrix product into zeros, at entry (p, q): the inner product of row p with column q. -/
theorem matmul_zero_apply (D : DotDims ⟨2, ![M, K]⟩ ⟨2, ![K, N]⟩ ⟨2, ![M, N]⟩) (hD : D = DotDims.plain M K N)
    (prec : Option ContractPrecision) (lhs : FVec Ideal ⟨2, ![M, K]⟩ φ₁) (rhs : FVec Ideal ⟨2, ![K, N]⟩ φ₂)
    (p : Fin M) (q : Fin N) :
    FloatOps.matmul D prec lhs rhs (constant (F := Ideal) ⟨2, ![M, N]⟩ .f32 0x00000000#32) (ix2 p q)
      = ∑ k : Fin K, lhs (ix2 p k) * rhs (ix2 k q) := by
  subst hD
  rw [Ideal.matmul_constant_zero_apply, ← Equiv.sum_comp (contrEquiv1 (DotDims.plain M K N) K rfl rfl).symm]
  refine Finset.sum_congr rfl fun k _ => ?_
  rw [lhsIdx_plain, rhsIdx_plain]

end Cert.MatmulNN

end
-- ==== Proof.LibRowBias.lean ====
import Idealize.ShloMosaic.Lib.Pipeline.Value
import Idealize.ShloMosaic.Lib.ValueIdx
import Idealize.ShloMosaic.PureOps.Ideal.Laws

/-!
  A bias row added to every row of a matrix, read at an entry.

  A [1, b] row broadcast to [a, b] — by the host's `broadcast_in_dim` over axes (0, 1), or by a kernel body's
  `vector.broadcast` — has at entry (p, q) the row's entry q.  So over the extended reals

      (X + row)[p, q] = X[p, q] + row[q]      and      max(X + row, 0)[p, q] = max(X[p, q] + row[q], 0),

  whichever of the two spellings of the broadcast and of the zero (a scalar constant broadcast to [a, b], or a scalar
  splat) the program uses.  Generic in the extents a and b.
-/

noncomputable section

namespace Cert.RowBias

open Idealize.ShloMosaic Idealize.ShloMosaic.ValueIdx

variable {α : Type} {a b : Nat}

/-- A [1, b] row broadcast over axes (0, 1) to [a, b], at (p, q): the row's entry q. -/
theorem rowInDim_apply (B : (⟨2, ![1, b]⟩ : Shape).Idx → α)
    (hb : (⟨2, ![1, b]⟩ : Shape).BroadcastsInDim ⟨2, ![a, b]⟩ ![0, 1]) (p : Fin a) (q : Fin b) :
    broadcastInDim ⟨2, ![a, b]⟩ ![0, 1] hb B (ix2 p q) = B (ix2 (0 : Fin 1) q) := by
  refine broadcastInDim_apply _ _ _ _ (ix2 (0 : Fin 1) q) (fun d => ?_)
  match d with
  | ⟨0, _⟩ => rfl
  | ⟨1, _⟩ =>
    show q.val = if b = 1 then 0 else q.val
    split_ifs with h1
    · have := q.isLt; omega
    · rfl

/-- A [1, b] row broadcast by a kernel body to [a, b], at (p, q): the row's entry q. -/
theorem rowTo_apply (x : (⟨2, ![1, b]⟩ : Shape).Idx → α)
    (h : (⟨2, ![1, b]⟩ : Shape).Broadcasts ⟨2, ![a, b]⟩) (p : Fin a) (q : Fin b) :
    broadcastTo ⟨2, ![a, b]⟩ x h (ix2 p q) = x (ix2 (0 : Fin 1) q) := by
  refine broadcastTo_apply x h (ix2 p q) (ix2 (0 : Fin 1) q) (fun d => ?_)
  match d with
  | ⟨0, _⟩ => rfl
  | ⟨1, _⟩ =>
    show q.val = if b = 1 then 0 else q.val
    split_ifs with h1
    · have := q.isLt; omega
    · rfl

/-- A scalar broadcast to [a, b] by the host, at any entry: the scalar. -/
theorem scalarInDim_apply (z : (⟨0, ![]⟩ : Shape).Idx → α)
    (hz : (⟨0, ![]⟩ : Shape).BroadcastsInDim ⟨2, ![a, b]⟩ ![]) (j : (⟨2, ![a, b]⟩ : Shape).Idx) :
    broadcastInDim ⟨2, ![a, b]⟩ ![] hz z j = z ix0 :=
  broadcastInDim_apply _ _ _ _ ix0 (fun d => d.elim0)

/-- The host's `max(X + row, 0)` at (p, q). -/
theorem hostBiasRelu_apply (X : FVec Ideal ⟨2, ![a, b]⟩ .f32) (B : FVec Ideal ⟨2, ![1, b]⟩ .f32)
    (hb : (⟨2, ![1, b]⟩ : Shape).BroadcastsInDim ⟨2, ![a, b]⟩ ![0, 1])
    (hz : (⟨0, ![]⟩ : Shape).BroadcastsInDim ⟨2, ![a, b]⟩ ![]) (p : Fin a) (q : Fin b) :
    maximumf (addf X (broadcastInDim ⟨2, ![a, b]⟩ ![0, 1] hb B))
        (broadcastInDim ⟨2, ![a, b]⟩ ![] hz (constant (F := Ideal) ⟨0, ![]⟩ .f32 0x00000000#32)) (ix2 p q)
      = max (X (ix2 p q) + B (ix2 (0 : Fin 1) q)) (Ideal.ofBits .f32 0x00000000#32) := by
  show max (X (ix2 p q) + broadcastInDim ⟨2, ![a, b]⟩ ![0, 1] hb B (ix2 p q))
      (broadcastInDim ⟨2, ![a, b]⟩ ![] hz (constant (F := Ideal) ⟨0, ![]⟩ .f32 0x00000000#32) (ix2 p q)) = _
  rw [rowInDim_apply, scalarInDim_apply]
  rfl

/-- A kernel body's `max(x + row, 0)` at (p, q): the row broadcast by `vector.broadcast`, the zero a scalar splat. -/
theorem bodyBiasRelu_apply (x : FVec Ideal ⟨2, ![a, b]⟩ .f32) (r : FVec Ideal ⟨2, ![1, b]⟩ .f32)
    (h : (⟨2, ![1, b]⟩ : Shape).Broadcasts ⟨2, ![a, b]⟩) (p : Fin a) (q : Fin b) :
    maximumf (addf x (broadcastTo ⟨2, ![a, b]⟩ r h))
        (broadcast ⟨2, ![a, b]⟩ (Scalar.ofBits (F := Ideal) .f32 0x00000000#32)) (ix2 p q)
      = max (x (ix2 p q) + r (ix2 (0 : Fin 1) q)) (Ideal.ofBits .f32 0x00000000#32) := by
  show max (x (ix2 p q) + broadcastTo ⟨2, ![a, b]⟩ r h (ix2 p q)) _ = _
  rw [rowTo_apply]
  rfl

/-- The host's `Y + row` at (p, q). -/
theorem hostBias_apply (Y : FVec Ideal ⟨2, ![a, b]⟩ .f32) (B : FVec Ideal ⟨2, ![1, b]⟩ .f32)
    (hb : (⟨2, ![1, b]⟩ : Shape).BroadcastsInDim ⟨2, ![a, b]⟩ ![0, 1]) (p : Fin a) (q : Fin b) :
    addf Y (broadcastInDim ⟨2, ![a, b]⟩ ![0, 1] hb B) (ix2 p q) = Y (ix2 p q) + B (ix2 (0 : Fin 1) q) := by
  show Y (ix2 p q) + broadcastInDim ⟨2, ![a, b]⟩ ![0, 1] hb B (ix2 p q) = _
  rw [rowInDim_apply]

/-- A kernel body's `y + row` at (p, q). -/
theorem bodyBias_apply (y : FVec Ideal ⟨2, ![a, b]⟩ .f32) (r : FVec Ideal ⟨2, ![1, b]⟩ .f32)
    (h : (⟨2, ![1, b]⟩ : Shape).Broadcasts ⟨2, ![a, b]⟩) (p : Fin a) (q : Fin b) :
    addf y (broadcastTo ⟨2, ![a, b]⟩ r h) (ix2 p q) = y (ix2 p q) + r (ix2 (0 : Fin 1) q) := by
  show y (ix2 p q) + broadcastTo ⟨2, ![a, b]⟩ r h (ix2 p q) = _
  rw [rowTo_apply]

end Cert.RowBias

end
-- ==== Proof.MathMlp.lean ====
import Idealize.ShloMosaic.PureOps.Ideal.Laws
import Idealize.ShloMosaic.Lib.ValueIdx
import Idealize.ShloMosaic.Lib.Pipeline.Value
import proofs.«130004_j49941879718343_1_alg».proof.Proof.Gen.KernelIdeal.Skeleton
import proofs.«130004_j49941879718343_1_alg».proof.Proof.LibMatmulNN
import proofs.«130004_j49941879718343_1_alg».proof.Proof.LibRowBias

/-!
  The two-layer perceptron of a graph-isomorphism layer, entry by entry, over the extended reals.

  For a row u of A numbers, weights Wa [A, B], Wb [B, C] and bias rows ba [B], bb [C]:

      mlpRow u Wa ba Wb bb q = (Σ_k max((Σ_j u_j · Wa_{j,k}) + ba_k, 0) · Wb_{k,q}) + bb_q.

  A layer applies it to the row  h_p + agg_p  of the node features plus the aggregated messages:
  mlpEntry h agg Wa ba Wb bb p q = mlpRow (h_p + agg_p) Wa ba Wb bb q.  The zero of the rectifier is kept as the
  float word it is written as; both programs write the same word.

  The kernel body of a row block computes exactly this at every entry (p, q) of its [2000, 128] block: the two
  matrix products accumulate into zeros, the casts to the narrow float format are the identity on extended reals,
  the bias rows are broadcast along the rows.  Its two accumulator updates add to the running row the column
  sums, over the block's 2000 rows, of the block's values and of their squares.
-/

noncomputable section

namespace Cert.Math

open Idealize.ShloMosaic Idealize.ShloMosaic.ValueIdx

/-- One output row of the perceptron, at column q. -/
def mlpRow {A B C : ℕ} (u : Fin A → EReal) (Wa : Fin A → Fin B → EReal) (ba : Fin B → EReal)
    (Wb : Fin B → Fin C → EReal) (bb : Fin C → EReal) (q : Fin C) : EReal :=
  (∑ k : Fin B, max ((∑ j : Fin A, u j * Wa j k) + ba k) (Ideal.ofBits .f32 0x00000000#32) * Wb k q) + bb q

/-- The perceptron applied to features plus aggregated messages, at entry (p, q). -/
def mlpEntry {R A B C : ℕ} (h agg : Fin R → Fin A → EReal) (Wa : Fin A → Fin B → EReal) (ba : Fin B → EReal)
    (Wb : Fin B → Fin C → EReal) (bb : Fin C → EReal) (p : Fin R) (q : Fin C) : EReal :=
  mlpRow (fun j => h p j + agg p j) Wa ba Wb bb q

theorem mlpEntry_eq_mlpRow {R A B C : ℕ} (h agg : Fin R → Fin A → EReal) (Wa : Fin A → Fin B → EReal) (ba : Fin B → EReal)
    (Wb : Fin B → Fin C → EReal) (bb : Fin C → EReal) (p : Fin R) (q : Fin C) :
    mlpEntry h agg Wa ba Wb bb p q = mlpRow (fun j => h p j + agg p j) Wa ba Wb bb q := rfl

/-- The entry (p, q) depends on row p of the two arrays only. -/
theorem mlpEntry_congr_row {R R' A B C : ℕ} (h agg : Fin R → Fin A → EReal) (h' agg' : Fin R' → Fin A → EReal)
    (Wa : Fin A → Fin B → EReal) (ba : Fin B → EReal) (Wb : Fin B → Fin C → EReal) (bb : Fin C → EReal)
    (p : Fin R) (p' : Fin R') (q : Fin C) (hh : ∀ j, h p j = h' p' j) (ha : ∀ j, agg p j = agg' p' j) :
    mlpEntry h agg Wa ba Wb bb p q = mlpEntry h' agg' Wa ba Wb bb p' q := by
  unfold mlpEntry
  exact congrArg (fun u => mlpRow u Wa ba Wb bb q) (funext fun j => by rw [hh j, ha j])

/-! ## The kernel body's arithmetic, over any extents -/

/-- Product, bias row, rectifier, product, bias row — as a kernel body spells them — at entry (p, q). -/
theorem body_apply {R A B C : ℕ}
    (D1 : DotDims ⟨2, ![R, A]⟩ ⟨2, ![A, B]⟩ ⟨2, ![R, B]⟩) (hD1 : D1 = DotDims.plain R A B)
    (D2 : DotDims ⟨2, ![R, B]⟩ ⟨2, ![B, C]⟩ ⟨2, ![R, C]⟩) (hD2 : D2 = DotDims.plain R B C)
    (u : FVec Ideal ⟨2, ![R, A]⟩ .f32) (wa : FVec Ideal ⟨2, ![A, B]⟩ .f32) (ba : FVec Ideal ⟨2, ![1, B]⟩ .f32)
    (wb : FVec Ideal ⟨2, ![B, C]⟩ .f32) (bb : FVec Ideal ⟨2, ![1, C]⟩ .f32)
    (hba : (⟨2, ![1, B]⟩ : Shape).Broadcasts ⟨2, ![R, B]⟩) (hbb : (⟨2, ![1, C]⟩ : Shape).Broadcasts ⟨2, ![R, C]⟩)
    (lt : FTy.bf16.bits < FTy.f32.bits) (p : Fin R) (q : Fin C) :
    addf (matmul D2 none
        (truncf .bf16 (maximumf (addf (matmul D1 none (truncf .bf16 u lt) (truncf .bf16 wa lt)
              (constant (F := Ideal) ⟨2, ![R, B]⟩ .f32 0x00000000#32)) (broadcastTo ⟨2, ![R, B]⟩ ba hba))
            (broadcast ⟨2, ![R, B]⟩ (Scalar.ofBits (F := Ideal) .f32 0x00000000#32))) lt)
        (truncf .bf16 wb lt) (constant (F := Ideal) ⟨2, ![R, C]⟩ .f32 0x00000000#32))
      (broadcastTo ⟨2, ![R, C]⟩ bb hbb) (ix2 p q)
      = mlpRow (fun j => u (ix2 p j)) (fun j k => wa (ix2 j k)) (fun k => ba (ix2 (0 : Fin 1) k))
          (fun k c => wb (ix2 k c)) (fun c => bb (ix2 (0 : Fin 1) c)) q := by
  refine (Cert.RowBias.bodyBias_apply _ bb hbb p q).trans ?_
  unfold mlpRow
  refine congrArg (fun t => t + bb (ix2 (0 : Fin 1) q)) ?_
  refine (Cert.MatmulNN.matmul_zero_apply D2 hD2 none _ _ p q).trans ?_
  refine Finset.sum_congr rfl fun k _ => ?_
  refine congrArg (fun t => t * wb (ix2 k q)) ?_
  refine (Cert.RowBias.bodyBiasRelu_apply _ ba hba p k).trans ?_
  refine congrArg (fun t => max (t + ba (ix2 (0 : Fin 1) k)) (Ideal.ofBits .f32 0x00000000#32)) ?_
  exact Cert.MatmulNN.matmul_zero_apply D1 hD1 none _ _ p k

/-! ## Column sums kept as a row -/

/-- A [b] vector cast to a [1, b] row reads, at (u, q), the operand at q, whatever the unit coordinate u. -/
theorem shapeCast_b_1b_apply {α : Type} {b : ℕ} (x : (⟨1, ![b]⟩ : Shape).Idx → α)
    (h : (⟨1, ![b]⟩ : Shape).ShapeCasts ⟨2, ![1, b]⟩) (u : Fin 1) (q : Fin b) :
    shapeCast ⟨2, ![1, b]⟩ x h (ix2 u q) = x (ix1 q) :=
  shapeCast_apply x h _ _ (by
    have hu : u.val = 0 := by omega
    rw [Shape.rowMajor_val_two, Shape.rowMajor_val_one]
    show q.val = u.val * b + q.val
    rw [hu, Nat.zero_mul, Nat.zero_add])

/-- The reduced index q of an [a, b] array reduced along its columns, with the row position k put back, is (k, q). -/
theorem lift_col {a b : ℕ} (hr : (⟨2, ![a, b]⟩ : Shape).Reduces [0] ⟨1, ![b]⟩) (q : Fin b) (k : Fin a) :
    hr.lift (ix1 q) k = ix2 k q :=
  funext fun c => Fin.ext (by
    match c with
    | ⟨0, _⟩ => rfl
    | ⟨1, _⟩ => rfl)

/-- The column sums of an [a, b] array kept as a [1, b] row: at (u, q) the sum over the rows of column q. -/
theorem colSum_row {a b : ℕ} (s : FVec Ideal ⟨2, ![a, b]⟩ .f32) (acc : BitVec 32)
    (hr : (⟨2, ![a, b]⟩ : Shape).Reduces [0] ⟨1, ![b]⟩) (hφ : FKind.Formats .f32) (hacc : acc = FKind.add.neutral .f32 hφ)
    (hsc : (⟨1, ![b]⟩ : Shape).ShapeCasts ⟨2, ![1, b]⟩) (u : Fin 1) (q : Fin b) :
    shapeCast ⟨2, ![1, b]⟩ (multiReduction .add [0] ⟨1, ![b]⟩ s acc hr hφ hacc) hsc (ix2 u q) = ∑ k : Fin a, s (ix2 k q) := by
  rw [shapeCast_b_1b_apply, Ideal.multiReduction_add_single]
  exact Finset.sum_congr rfl fun k _ => congrArg s (lift_col hr q k)

/-! ## The stores of the three perceptron kernels (regions 0, 2, 4), at an entry

  X is the block of node features, G the block of aggregated messages, WA, BA, WB, BB the weights and bias rows as
  loaded, ACC the accumulator row as loaded. -/

section Kernel

open Cert.KernelIdeal Cert.KernelIdeal.Gen

/-- The block the body of region 0 stores, at entry (p, q): the perceptron of the loaded rows. -/
theorem k0_pay4_apply (X G : Vec Ideal S2000x128 .f32) (WA : Vec Ideal S128x128 .f32) (BA : Vec Ideal S1x128 .f32)
    (WB : Vec Ideal S128x128 .f32) (BB : Vec Ideal S1x128 .f32) (p : Fin 2000) (q : Fin 128) :
    k0_pay4 (F := Ideal) X G WA BA WB BB (ix2 p q)
      = mlpEntry (fun r j => X (ix2 r j)) (fun r j => G (ix2 r j)) (fun j k => WA (ix2 j k))
          (fun k => BA (ix2 (0 : Fin 1) k)) (fun k c => WB (ix2 k c)) (fun c => BB (ix2 (0 : Fin 1) c)) p q := by
  unfold k0_pay4
  simp only [shapeCast_self]
  exact body_apply _ rfl _ rfl (addf X G) WA BA WB BB _ _ _ p q

/-- The running column sums after the body of region 0: the loaded row plus the block's column sums. -/
theorem k0_pay5_apply (X G : Vec Ideal S2000x128 .f32) (WA : Vec Ideal S128x128 .f32) (BA : Vec Ideal S1x128 .f32)
    (WB : Vec Ideal S128x128 .f32) (BB : Vec Ideal S1x128 .f32) (ACC : Vec Ideal S1x128 .f32) (u : Fin 1) (q : Fin 128) :
    k0_pay5 (F := Ideal) X G WA BA WB BB ACC (ix2 u q)
      = ACC (ix2 u q) + ∑ r : Fin 2000, k0_pay4 (F := Ideal) X G WA BA WB BB (ix2 r q) := by
  unfold k0_pay5
  simp only [shapeCast_self]
  exact congrArg (fun t => ACC (ix2 u q) + t) (colSum_row _ _ _ _ _ _ u q)

/-- The same, with the block's entries spelt out. -/
theorem k0_pay5_entry (X G : Vec Ideal S2000x128 .f32) (WA : Vec Ideal S128x128 .f32) (BA : Vec Ideal S1x128 .f32)
    (WB : Vec Ideal S128x128 .f32) (BB : Vec Ideal S1x128 .f32) (ACC : Vec Ideal S1x128 .f32) (u : Fin 1) (q : Fin 128) :
    k0_pay5 (F := Ideal) X G WA BA WB BB ACC (ix2 u q)
      = ACC (ix2 u q) + ∑ r : Fin 2000,
          mlpEntry (fun r j => X (ix2 r j)) (fun r j => G (ix2 r j)) (fun j k => WA (ix2 j k))
            (fun k => BA (ix2 (0 : Fin 1) k)) (fun k c => WB (ix2 k c)) (fun c => BB (ix2 (0 : Fin 1) c)) r q := by
  rw [k0_pay5_apply]
  exact congrArg (fun t => ACC (ix2 u q) + t) (Finset.sum_congr rfl fun r _ => k0_pay4_apply X G WA BA WB BB r q)

/-- The running column sums of squares after the body of region 0: the loaded row plus the column sums of the
    squares of the block Y the body has just computed. -/
theorem k0_pay1_apply (Y : FVec Ideal S2000x128 .f32) (ACC : Vec Ideal S1x128 .f32) (u : Fin 1) (q : Fin 128) :
    k0_pay1 (F := Ideal) Y ACC (ix2 u q) = ACC (ix2 u q) + ∑ r : Fin 2000, Y (ix2 r q) * Y (ix2 r q) := by
  unfold k0_pay1
  simp only [shapeCast_self]
  exact congrArg (fun t => ACC (ix2 u q) + t) (colSum_row _ _ _ _ _ _ u q)

/-- The block the body of region 2 stores, at entry (p, q): the perceptron of the loaded rows. -/
theorem k2_pay4_apply (X G : Vec Ideal S2000x128 .f32) (WA : Vec Ideal S128x128 .f32) (BA : Vec Ideal S1x128 .f32)
    (WB : Vec Ideal S128x128 .f32) (BB : Vec Ideal S1x128 .f32) (p : Fin 2000) (q : Fin 128) :
    k2_pay4 (F := Ideal) X G WA BA WB BB (ix2 p q)
      = mlpEntry (fun r j => X (ix2 r j)) (fun r j => G (ix2 r j)) (fun j k => WA (ix2 j k))
          (fun k => BA (ix2 (0 : Fin 1) k)) (fun k c => WB (ix2 k c)) (fun c => BB (ix2 (0 : Fin 1) c)) p q := by
  unfold k2_pay4
  simp only [shapeCast_self]
  exact body_apply _ rfl _ rfl (addf X G) WA BA WB BB _ _ _ p q

/-- The running column sums after the body of region 2: the loaded row plus the block's column sums. -/
theorem k2_pay5_apply (X G : Vec Ideal S2000x128 .f32) (WA : Vec Ideal S128x128 .f32) (BA : Vec Ideal S1x128 .f32)
    (WB : Vec Ideal S128x128 .f32) (BB : Vec Ideal S1x128 .f32) (ACC : Vec Ideal S1x128 .f32) (u : Fin 1) (q : Fin 128) :
    k2_pay5 (F := Ideal) X G WA BA WB BB ACC (ix2 u q)
      = ACC (ix2 u q) + ∑ r : Fin 2000, k2_pay4 (F := Ideal) X G WA BA WB BB (ix2 r q) := by
  unfold k2_pay5
  simp only [shapeCast_self]
  exact congrArg (fun t => ACC (ix2 u q) + t) (colSum_row _ _ _ _ _ _ u q)

/-- The same, with the block's entries spelt out. -/
theorem k2_pay5_entry (X G : Vec Ideal S2000x128 .f32) (WA : Vec Ideal S128x128 .f32) (BA : Vec Ideal S1x128 .f32)
    (WB : Vec Ideal S128x128 .f32) (BB : Vec Ideal S1x128 .f32) (ACC : Vec Ideal S1x128 .f32) (u : Fin 1) (q : Fin 128) :
    k2_pay5 (F := Ideal) X G WA BA WB BB ACC (ix2 u q)
      = ACC (ix2 u q) + ∑ r : Fin 2000,
          mlpEntry (fun r j => X (ix2 r j)) (fun r j => G (ix2 r j)) (fun j k => WA (ix2 j k))
            (fun k => BA (ix2 (0 : Fin 1) k)) (fun k c => WB (ix2 k c)) (fun c => BB (ix2 (0 : Fin 1) c)) r q := by
  rw [k2_pay5_apply]
  exact congrArg (fun t => ACC (ix2 u q) + t) (Finset.sum_congr rfl fun r _ => k2_pay4_apply X G WA BA WB BB r q)

/-- The running column sums of squares after the body of region 2: the loaded row plus the column sums of the
    squares of the block Y the body has just computed. -/
theorem k2_pay1_apply (Y : FVec Ideal S2000x128 .f32) (ACC : Vec Ideal S1x128 .f32) (u : Fin 1) (q : Fin 128) :
    k2_pay1 (F := Ideal) Y ACC (ix2 u q) = ACC (ix2 u q) + ∑ r : Fin 2000, Y (ix2 r q) * Y (ix2 r q) := by
  unfold k2_pay1
  simp only [shapeCast_self]
  exact congrArg (fun t => ACC (ix2 u q) + t) (colSum_row _ _ _ _ _ _ u q)

/-- The block the body of region 4 stores, at entry (p, q): the perceptron of the loaded rows. -/
theorem k4_pay4_apply (X G : Vec Ideal S2000x128 .f32) (WA : Vec Ideal S128x128 .f32) (BA : Vec Ideal S1x128 .f32)
    (WB : Vec Ideal S128x128 .f32) (BB : Vec Ideal S1x128 .f32) (p : Fin 2000) (q : Fin 128) :
    k4_pay4 (F := Ideal) X G WA BA WB BB (ix2 p q)
      = mlpEntry (fun r j => X (ix2 r j)) (fun r j => G (ix2 r j)) (fun j k => WA (ix2 j k))
          (fun k => BA (ix2 (0 : Fin 1) k)) (fun k c => WB (ix2 k c)) (fun c => BB (ix2 (0 : Fin 1) c)) p q := by
  unfold k4_pay4
  simp only [shapeCast_self]
  exact body_apply _ rfl _ rfl (addf X G) WA BA WB BB _ _ _ p q

/-- The running column sums after the body of region 4: the loaded row plus the block's column sums. -/
theorem k4_pay5_apply (X G : Vec Ideal S2000x128 .f32) (WA : Vec Ideal S128x128 .f32) (BA : Vec Ideal S1x128 .f32)
    (WB : Vec Ideal S128x128 .f32) (BB : Vec Ideal S1x128 .f32) (ACC : Vec Ideal S1x128 .f32) (u : Fin 1) (q : Fin 128) :
    k4_pay5 (F := Ideal) X G WA BA WB BB ACC (ix2 u q)
      = ACC (ix2 u q) + ∑ r : Fin 2000, k4_pay4 (F := Ideal) X G WA BA WB BB (ix2 r q) := by
  unfold k4_pay5
  simp only [shapeCast_self]
  exact congrArg (fun t => ACC (ix2 u q) + t) (colSum_row _ _ _ _ _ _ u q)

/-- The same, with the block's entries spelt out. -/
theorem k4_pay5_entry (X G : Vec Ideal S2000x128 .f32) (WA : Vec Ideal S128x128 .f32) (BA : Vec Ideal S1x128 .f32)
    (WB : Vec Ideal S128x128 .f32) (BB : Vec Ideal S1x128 .f32) (ACC : Vec Ideal S1x128 .f32) (u : Fin 1) (q : Fin 128) :
    k4_pay5 (F := Ideal) X G WA BA WB BB ACC (ix2 u q)
      = ACC (ix2 u q) + ∑ r : Fin 2000,
          mlpEntry (fun r j => X (ix2 r j)) (fun r j => G (ix2 r j)) (fun j k => WA (ix2 j k))
            (fun k => BA (ix2 (0 : Fin 1) k)) (fun k c => WB (ix2 k c)) (fun c => BB (ix2 (0 : Fin 1) c)) r q := by
  rw [k4_pay5_apply]
  exact congrArg (fun t => ACC (ix2 u q) + t) (Finset.sum_congr rfl fun r _ => k4_pay4_apply X G WA BA WB BB r q)

/-- The running column sums of squares after the body of region 4: the loaded row plus the column sums of the
    squares of the block Y the body has just computed. -/
theorem k4_pay1_apply (Y : FVec Ideal S2000x128 .f32) (ACC : Vec Ideal S1x128 .f32) (u : Fin 1) (q : Fin 128) :
    k4_pay1 (F := Ideal) Y ACC (ix2 u q) = ACC (ix2 u q) + ∑ r : Fin 2000, Y (ix2 r q) * Y (ix2 r q) := by
  unfold k4_pay1
  simp only [shapeCast_self]
  exact congrArg (fun t => ACC (ix2 u q) + t) (colSum_row _ _ _ _ _ _ u q)

/-- The rows the body of region 0 writes to the two accumulators at the first grid point: zeros. -/
theorem k0_pay2_apply (j : S1x128.Idx) : k0_pay2 (F := Ideal) j = 0 := by
  show Ideal.ofBits .f32 0x00000000#32 = 0
  exact Ideal.ofBits_zero_f32

theorem k0_pay3_apply (j : S1x128.Idx) : k0_pay3 (F := Ideal) j = 0 := by
  show Ideal.ofBits .f32 0x00000000#32 = 0
  exact Ideal.ofBits_zero_f32

/-- The rows the body of region 2 writes to the two accumulators at the first grid point: zeros. -/
theorem k2_pay2_apply (j : S1x128.Idx) : k2_pay2 (F := Ideal) j = 0 := by
  show Ideal.ofBits .f32 0x00000000#32 = 0
  exact Ideal.ofBits_zero_f32

theorem k2_pay3_apply (j : S1x128.Idx) : k2_pay3 (F := Ideal) j = 0 := by
  show Ideal.ofBits .f32 0x00000000#32 = 0
  exact Ideal.ofBits_zero_f32

/-- The rows the body of region 4 writes to the two accumulators at the first grid point: zeros. -/
theorem k4_pay2_apply (j : S1x128.Idx) : k4_pay2 (F := Ideal) j = 0 := by
  show Ideal.ofBits .f32 0x00000000#32 = 0
  exact Ideal.ofBits_zero_f32

theorem k4_pay3_apply (j : S1x128.Idx) : k4_pay3 (F := Ideal) j = 0 := by
  show Ideal.ofBits .f32 0x00000000#32 = 0
  exact Ideal.ofBits_zero_f32

end Kernel

end Cert.Math

end
-- ==== Proof.LibBatchStats.lean ====
/-
  Batch statistics over the extended reals.

  A batch-normalisation layer needs the mean and the (biased) variance of a finite family of numbers. Two
  spellings of the variance occur: the centred one, the mean of the squared deviations from the mean, and the
  one-pass one, the mean of the squares less the square of the mean, clamped below at zero. On real numbers the two
  are the same number, and the centred one is non-negative, so the clamp does nothing. The lemmas here say so over
  the reals, and carry the statement to the extended reals for families all of whose members are real, where a sum, a
  quotient by a non-zero real, a product and a difference of reals are again the coercions of the real results.
-/
import Idealize.ShloMosaic.PureOps.Ideal

noncomputable section

namespace Cert.Lib.BatchStats

open Idealize.ShloMosaic

variable {ι : Type*}

/-- The coercion of the reals into the extended reals commutes with a finite sum. -/
theorem coe_sum (s : Finset ι) (f : ι → ℝ) :
    ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-- The quotient of two reals, the divisor not zero, on the extended reals is the real quotient. -/
theorem div_coe_coe (a b : ℝ) (hb : b ≠ 0) : Ideal.div (a : EReal) (b : EReal) = ((a / b : ℝ) : EReal) := by
  rw [Ideal.div_coe hb, ← EReal.coe_mul, mul_one_div]

/-- The sum of the squared deviations from a number mu, expanded: the sum of the squares, less twice mu times the
    sum, plus the count times mu squared. -/
theorem sum_sq_dev (s : Finset ι) (x : ι → ℝ) (μ : ℝ) :
    ∑ i ∈ s, (x i - μ) * (x i - μ) = ∑ i ∈ s, x i * x i - 2 * μ * ∑ i ∈ s, x i + (s.card : ℝ) * (μ * μ) := by
  have h : ∀ i ∈ s, (x i - μ) * (x i - μ) = x i * x i - 2 * μ * x i + μ * μ := fun i _ => by ring
  rw [Finset.sum_congr rfl h, Finset.sum_add_distrib, Finset.sum_sub_distrib, ← Finset.mul_sum, Finset.sum_const,
    nsmul_eq_mul]

/-- ONE-PASS VARIANCE IS THE CENTRED VARIANCE. For n real numbers (n not zero) the mean of the squares less the
    square of the mean is the mean of the squared deviations from the mean. -/
theorem var_onepass_eq_centred (s : Finset ι) (x : ι → ℝ) (n : ℝ) (hn : (s.card : ℝ) = n) (h0 : n ≠ 0) :
    (∑ i ∈ s, x i * x i) / n - (∑ i ∈ s, x i) / n * ((∑ i ∈ s, x i) / n)
      = (∑ i ∈ s, (x i - (∑ j ∈ s, x j) / n) * (x i - (∑ j ∈ s, x j) / n)) / n := by
  rw [sum_sq_dev, hn]
  field_simp
  ring

/-- The centred variance of real numbers is not negative (the divisor positive). -/
theorem centred_var_nonneg (s : Finset ι) (x : ι → ℝ) (μ n : ℝ) (hn : 0 < n) :
    0 ≤ (∑ i ∈ s, (x i - μ) * (x i - μ)) / n :=
  div_nonneg (Finset.sum_nonneg fun i _ => mul_self_nonneg _) hn.le

/-- So clamping the one-pass variance below at zero changes nothing: it is the centred variance. -/
theorem max_var_onepass (s : Finset ι) (x : ι → ℝ) (n : ℝ) (hn : (s.card : ℝ) = n) (h0 : 0 < n) :
    max ((∑ i ∈ s, x i * x i) / n - (∑ i ∈ s, x i) / n * ((∑ i ∈ s, x i) / n)) 0
      = (∑ i ∈ s, (x i - (∑ j ∈ s, x j) / n) * (x i - (∑ j ∈ s, x j) / n)) / n := by
  rw [var_onepass_eq_centred s x n hn h0.ne']
  exact max_eq_left (centred_var_nonneg s x _ n h0)

/-- The same on the extended reals, for a family of reals: the sums, quotients, products, the difference and the
    maximum are the coercions of the real ones. The left side is the one-pass spelling with its clamp, the right
    side the centred spelling. -/
theorem max_var_onepass_ereal (s : Finset ι) (x : ι → ℝ) (n : ℝ) (hn : (s.card : ℝ) = n) (h0 : 0 < n) :
    max (Ideal.div (∑ i ∈ s, (x i : EReal) * (x i : EReal)) (n : EReal)
          - Ideal.div (∑ i ∈ s, (x i : EReal)) (n : EReal) * Ideal.div (∑ i ∈ s, (x i : EReal)) (n : EReal)) 0
      = Ideal.div (∑ i ∈ s, ((x i : EReal) - Ideal.div (∑ j ∈ s, (x j : EReal)) (n : EReal))
          * ((x i : EReal) - Ideal.div (∑ j ∈ s, (x j : EReal)) (n : EReal))) (n : EReal) := by
  have hne : n ≠ 0 := h0.ne'
  have e1 : ∑ i ∈ s, (x i : EReal) = ((∑ i ∈ s, x i : ℝ) : EReal) := (coe_sum s x).symm
  have e2 : ∑ i ∈ s, (x i : EReal) * (x i : EReal) = ((∑ i ∈ s, x i * x i : ℝ) : EReal) := by
    rw [coe_sum]; exact Finset.sum_congr rfl fun i _ => (EReal.coe_mul _ _).symm
  rw [e1, e2, div_coe_coe _ _ hne, div_coe_coe _ _ hne]
  have e3 : ∑ i ∈ s, ((x i : EReal) - (((∑ j ∈ s, x j) / n : ℝ) : EReal)) * ((x i : EReal) - (((∑ j ∈ s, x j) / n : ℝ) : EReal))
      = ((∑ i ∈ s, (x i - (∑ j ∈ s, x j) / n) * (x i - (∑ j ∈ s, x j) / n) : ℝ) : EReal) := by
    rw [coe_sum]; exact Finset.sum_congr rfl fun i _ => by rw [← EReal.coe_sub, ← EReal.coe_mul]
  rw [e3, div_coe_coe _ _ hne, ← EReal.coe_mul, ← EReal.coe_sub, ← EReal.coe_zero,
    ← EReal.coe_strictMono.monotone.map_max, max_var_onepass s x n hn h0]

end Cert.Lib.BatchStats

end
-- ==== Proof.LibReal.lean ====
/-
  Real-valued extended reals are closed under the operations the network uses.

  An extended real is called real here when it is the coercion of a real number. Sums (finite), products, differences,
  maxima and the ideal quotient of two such, and the inverse square root of a positive one, are again real.
-/
import proofs.«130004_j49941879718343_1_alg».proof.Proof.LibBatchStats

noncomputable section

namespace Cert.Lib.IsR

open Idealize.ShloMosaic Cert.Lib.BatchStats

/-- The extended real a is a real number. -/
def IsR (a : EReal) : Prop := ∃ r : ℝ, a = (r : EReal)

theorem coe (r : ℝ) : IsR (r : EReal) := ⟨r, rfl⟩
theorem zero : IsR 0 := ⟨0, rfl⟩
theorem add {a b : EReal} (ha : IsR a) (hb : IsR b) : IsR (a + b) := by
  obtain ⟨x, rfl⟩ := ha; obtain ⟨y, rfl⟩ := hb; exact ⟨x + y, (EReal.coe_add x y).symm⟩
theorem mul {a b : EReal} (ha : IsR a) (hb : IsR b) : IsR (a * b) := by
  obtain ⟨x, rfl⟩ := ha; obtain ⟨y, rfl⟩ := hb; exact ⟨x * y, (EReal.coe_mul x y).symm⟩
theorem sub {a b : EReal} (ha : IsR a) (hb : IsR b) : IsR (a - b) := by
  obtain ⟨x, rfl⟩ := ha; obtain ⟨y, rfl⟩ := hb; exact ⟨x - y, (EReal.coe_sub x y).symm⟩
theorem max {a b : EReal} (ha : IsR a) (hb : IsR b) : IsR (Max.max a b) := by
  rcases max_choice a b with h | h <;> rw [h] <;> assumption
theorem sum {ι : Type*} (s : Finset ι) (f : ι → EReal) (h : ∀ i ∈ s, IsR (f i)) : IsR (∑ i ∈ s, f i) := by
  classical
  induction s using Finset.induction_on with
  | empty => simpa using zero
  | insert a s ha ih =>
    rw [Finset.sum_insert ha]
    exact add (h a (Finset.mem_insert_self a s)) (ih fun i hi => h i (Finset.mem_insert_of_mem hi))
theorem div {a : EReal} (ha : IsR a) (n : ℝ) (hn : n ≠ 0) : IsR (Ideal.div a (n : EReal)) := by
  obtain ⟨x, rfl⟩ := ha; exact ⟨x / n, div_coe_coe x n hn⟩
/-- The inverse square root of a positive real is real. -/
theorem rsqrt_pos (r : ℝ) (h : 0 < r) : IsR (Ideal.rsqrt (r : EReal)) := by
  refine ⟨(Real.sqrt r)⁻¹, ?_⟩
  show (if r < 0 then (⊥ : EReal) else if r = 0 then ⊤ else (((Real.sqrt r)⁻¹ : ℝ) : EReal)) = _
  rw [if_neg (not_lt.mpr h.le), if_neg h.ne']

end Cert.Lib.IsR

end
-- ==== Proof.LibBlockSum.lean ====
/-
  A finite sum regrouped into consecutive blocks.

  A sum over the J·n indices 0 … J·n − 1 is the sum over the J blocks k of the sums over the n indices n·k + l inside
  block k. Addition in a commutative monoid needs nothing more (no finiteness of the values). The block sums are
  stated for every natural k (zero past the last block) so that a running total over the first blocks is a sum over a
  range of naturals.
-/
import Mathlib.Algebra.BigOperators.Fin
import Mathlib.Algebra.BigOperators.Intervals
import Mathlib.Logic.Equiv.Fin.Basic

namespace Cert.Lib.BlockSum

variable {M : Type*} [AddCommMonoid M]

/-- Index n·k + l of block k < J is below J·n. -/
theorem idx_lt {J n N : ℕ} (hN : J * n = N) {k : ℕ} (hk : k < J) (l : Fin n) : n * k + l.val < N := by
  have h1 : n * k + l.val < n * (k + 1) := by rw [Nat.mul_succ]; exact Nat.add_lt_add_left l.isLt _
  have h2 : n * (k + 1) ≤ n * J := Nat.mul_le_mul_left n hk
  rw [← hN, Nat.mul_comm J n]
  exact Nat.lt_of_lt_of_le h1 h2

/-- The sum over all indices is the sum over the blocks of the sums inside each block. -/
theorem sum_blocks (J n : ℕ) {N : ℕ} (hN : J * n = N) (f : Fin N → M) :
    ∑ q, f q = ∑ k : Fin J, ∑ l : Fin n, f ⟨n * k.val + l.val, idx_lt hN k.isLt l⟩ := by
  subst hN
  rw [← (finProdFinEquiv (m := J) (n := n)).sum_comp f, Fintype.sum_prod_type]
  refine Finset.sum_congr rfl fun k _ => Finset.sum_congr rfl fun l _ => congrArg f (Fin.ext ?_)
  show l.val + n * k.val = n * k.val + l.val
  exact Nat.add_comm _ _

/-- The sum inside block k; zero for k past the last block. -/
def blk (J n : ℕ) {N : ℕ} (hN : J * n = N) (f : Fin N → M) (k : ℕ) : M :=
  if hk : k < J then ∑ l : Fin n, f ⟨n * k + l.val, idx_lt hN hk l⟩ else 0

theorem blk_of_lt (J n : ℕ) {N : ℕ} (hN : J * n = N) (f : Fin N → M) {k : ℕ} (hk : k < J) :
    blk J n hN f k = ∑ l : Fin n, f ⟨n * k + l.val, idx_lt hN hk l⟩ := dif_pos hk

/-- The sum over all indices is the sum of the J block sums. -/
theorem sum_eq_sum_blk (J n : ℕ) {N : ℕ} (hN : J * n = N) (f : Fin N → M) :
    ∑ q, f q = ∑ k ∈ Finset.range J, blk J n hN f k := by
  rw [sum_blocks J n hN f, ← Fin.sum_univ_eq_sum_range (blk J n hN f) J]
  exact Finset.sum_congr rfl fun k _ => (blk_of_lt J n hN f k.isLt).symm

end Cert.Lib.BlockSum
-- ==== Proof.MathStats.lean ====
/-
  The batch statistics of one layer, over the extended reals.

  A layer's pre-normalisation array has 100000 rows and 128 columns. Per column q the network needs the mean of the
  100000 entries and their (biased) variance. One side computes the variance in one pass, as the mean of the squares
  less the square of the mean; the other side computes the centred form, the mean of the squared deviations from the
  mean. Over the real numbers the two are the same number, by expanding the square and using that the deviations sum
  to zero; over the extended reals the identity fails at infinities, so it is stated for families all of whose entries
  are real. For such families the mean and the variance are real, the variance is not negative, and so the variance
  plus the positive constant added before the inverse square root is a positive real, whose inverse square root is
  real.

  The column sums are also accumulated block by block: 50 consecutive blocks of 2000 rows, each block's sum added to
  a running total that starts at zero. That is the same sum, regrouped; addition on the extended reals is commutative
  and associative, so this needs no finiteness.
-/
import Idealize.ShloMosaic.PureOps.Ideal
import proofs.«130004_j49941879718343_1_alg».proof.Proof.LibBatchStats
import proofs.«130004_j49941879718343_1_alg».proof.Proof.LibReal
import proofs.«130004_j49941879718343_1_alg».proof.Proof.LibBlockSum

noncomputable section

namespace Cert.Math

open Idealize.ShloMosaic Cert.Lib Cert.Lib.BatchStats Cert.Lib.IsR

/-! ## The two constants -/

/-- The divisor, the row count 100000 as a 32-bit float word. -/
abbrev nLit : EReal := Ideal.ofBits .f32 0x47C35000#32

/-- The constant added to the variance before the inverse square root (the float nearest to 1e-5), as its word. -/
abbrev epsLit : EReal := Ideal.ofBits .f32 0x3727C5AC#32

/-- The word 0x47C35000 denotes exactly 100000 = (2^23 + 4411392) · 2^(-7). -/
theorem nLit_eq : nLit = ((100000 : ℝ) : EReal) := by
  show Ideal.ofBits .f32 0x47C35000#32 = _
  simp [Ideal.ofBits, Ideal.ieee, -EReal.coe_mul] <;> norm_num

/-- The word 0x3727C5AC denotes a positive real number (10995116 · 2^(-40)). -/
theorem epsLit_pos : ∃ e : ℝ, 0 < e ∧ epsLit = (e : EReal) := by
  refine ⟨(10995116 : ℝ) * (2 : ℝ) ^ (-40 : ℤ), by positivity, ?_⟩
  show Ideal.ofBits .f32 0x3727C5AC#32 = _
  simp [Ideal.ofBits, Ideal.ieee, -EReal.coe_mul] <;> norm_num

/-! ## The statistics of a family of 100000 × 128 extended reals -/

/-- A family of extended reals all of whose entries are real numbers. -/
def RealFam (hm : Fin 100000 → Fin 128 → EReal) : Prop := ∀ r q, IsR (hm r q)

/-- The column mean: the column sum divided by the row count. The same expression on both sides. -/
def mean (hm : Fin 100000 → Fin 128 → EReal) (q : Fin 128) : EReal := Ideal.div (∑ r, hm r q) nLit

/-- The one-pass variance: the mean of the squares less the square of the mean. -/
def varOnePass (hm : Fin 100000 → Fin 128 → EReal) (q : Fin 128) : EReal :=
  Ideal.div (∑ r, hm r q * hm r q) nLit - mean hm q * mean hm q

/-- The centred variance: the mean of the squared deviations from the mean. -/
def varCentred (hm : Fin 100000 → Fin 128 → EReal) (q : Fin 128) : EReal :=
  Ideal.div (∑ r, (hm r q - mean hm q) * (hm r q - mean hm q)) nLit

/-- The one-pass variance of real numbers on the extended reals is the centred one (no clamp needed). -/
theorem var_onepass_ereal {ι : Type*} (s : Finset ι) (x : ι → ℝ) (n : ℝ) (hn : (s.card : ℝ) = n) (h0 : n ≠ 0) :
    Ideal.div (∑ i ∈ s, (x i : EReal) * (x i : EReal)) (n : EReal)
        - Ideal.div (∑ i ∈ s, (x i : EReal)) (n : EReal) * Ideal.div (∑ i ∈ s, (x i : EReal)) (n : EReal)
      = Ideal.div (∑ i ∈ s, ((x i : EReal) - Ideal.div (∑ j ∈ s, (x j : EReal)) (n : EReal))
          * ((x i : EReal) - Ideal.div (∑ j ∈ s, (x j : EReal)) (n : EReal))) (n : EReal) := by
  have e1 : ∑ i ∈ s, (x i : EReal) = ((∑ i ∈ s, x i : ℝ) : EReal) := (coe_sum s x).symm
  have e2 : ∑ i ∈ s, (x i : EReal) * (x i : EReal) = ((∑ i ∈ s, x i * x i : ℝ) : EReal) := by
    rw [coe_sum]; exact Finset.sum_congr rfl fun i _ => (EReal.coe_mul _ _).symm
  rw [e1, e2, div_coe_coe _ _ h0, div_coe_coe _ _ h0]
  have e3 : ∑ i ∈ s, ((x i : EReal) - (((∑ j ∈ s, x j) / n : ℝ) : EReal)) * ((x i : EReal) - (((∑ j ∈ s, x j) / n : ℝ) : EReal))
      = ((∑ i ∈ s, (x i - (∑ j ∈ s, x j) / n) * (x i - (∑ j ∈ s, x j) / n) : ℝ) : EReal) := by
    rw [coe_sum]; exact Finset.sum_congr rfl fun i _ => by rw [← EReal.coe_sub, ← EReal.coe_mul]
  rw [e3, div_coe_coe _ _ h0, ← EReal.coe_mul, ← EReal.coe_sub, var_onepass_eq_centred s x n hn h0]

/-- The centred variance of real numbers, on the extended reals, is a real number that is not negative. -/
theorem centred_ereal_nonneg {ι : Type*} (s : Finset ι) (x : ι → ℝ) (n : ℝ) (h0 : 0 < n) :
    ∃ v : ℝ, 0 ≤ v ∧ Ideal.div (∑ i ∈ s, ((x i : EReal) - Ideal.div (∑ j ∈ s, (x j : EReal)) (n : EReal))
          * ((x i : EReal) - Ideal.div (∑ j ∈ s, (x j : EReal)) (n : EReal))) (n : EReal) = (v : EReal) := by
  have hne : n ≠ 0 := h0.ne'
  refine ⟨(∑ i ∈ s, (x i - (∑ j ∈ s, x j) / n) * (x i - (∑ j ∈ s, x j) / n)) / n,
    centred_var_nonneg s x _ n h0, ?_⟩
  have e1 : ∑ i ∈ s, (x i : EReal) = ((∑ i ∈ s, x i : ℝ) : EReal) := (coe_sum s x).symm
  rw [e1, div_coe_coe _ _ hne]
  have e3 : ∑ i ∈ s, ((x i : EReal) - (((∑ j ∈ s, x j) / n : ℝ) : EReal)) * ((x i : EReal) - (((∑ j ∈ s, x j) / n : ℝ) : EReal))
      = ((∑ i ∈ s, (x i - (∑ j ∈ s, x j) / n) * (x i - (∑ j ∈ s, x j) / n) : ℝ) : EReal) := by
    rw [coe_sum]; exact Finset.sum_congr rfl fun i _ => by rw [← EReal.coe_sub, ← EReal.coe_mul]
  rw [e3, div_coe_coe _ _ hne]

/-- Real witnesses of a real family. -/
theorem RealFam.witness {hm : Fin 100000 → Fin 128 → EReal} (h : RealFam hm) :
    ∃ x : Fin 100000 → Fin 128 → ℝ, ∀ r q, hm r q = (x r q : EReal) := by
  choose x hx using h
  exact ⟨x, hx⟩

/-- ONE-PASS IS CENTRED, for a real family: the variance the accumulating side computes is the variance the centred
    side computes. -/
theorem varOnePass_eq_varCentred {hm : Fin 100000 → Fin 128 → EReal} (h : RealFam hm) (q : Fin 128) :
    varOnePass hm q = varCentred hm q := by
  obtain ⟨x, hx⟩ := h.witness
  have hcard : ((Finset.univ : Finset (Fin 100000)).card : ℝ) = 100000 := by simp
  have := var_onepass_ereal (Finset.univ : Finset (Fin 100000)) (fun r => x r q) 100000 hcard (by norm_num)
  unfold varOnePass varCentred mean
  simp only [hx, nLit_eq]
  exact this

/-- The mean of a real family is real. -/
theorem mean_isR {hm : Fin 100000 → Fin 128 → EReal} (h : RealFam hm) (q : Fin 128) : IsR (mean hm q) := by
  unfold mean; rw [nLit_eq]
  exact IsR.div (IsR.sum _ _ fun r _ => h r q) 100000 (by norm_num)

/-- The centred variance of a real family is a real number that is not negative. -/
theorem varCentred_nonneg_real {hm : Fin 100000 → Fin 128 → EReal} (h : RealFam hm) (q : Fin 128) :
    ∃ v : ℝ, 0 ≤ v ∧ varCentred hm q = (v : EReal) := by
  obtain ⟨x, hx⟩ := h.witness
  have := centred_ereal_nonneg (Finset.univ : Finset (Fin 100000)) (fun r => x r q) 100000 (by norm_num)
  unfold varCentred mean
  simp only [hx, nLit_eq]
  exact this

theorem varCentred_isR {hm : Fin 100000 → Fin 128 → EReal} (h : RealFam hm) (q : Fin 128) : IsR (varCentred hm q) := by
  obtain ⟨v, _, hv⟩ := varCentred_nonneg_real h q; exact ⟨v, hv⟩

theorem varCentred_nonneg {hm : Fin 100000 → Fin 128 → EReal} (h : RealFam hm) (q : Fin 128) : 0 ≤ varCentred hm q := by
  obtain ⟨v, h0, hv⟩ := varCentred_nonneg_real h q; rw [hv]; exact EReal.coe_nonneg.mpr h0

theorem varOnePass_isR {hm : Fin 100000 → Fin 128 → EReal} (h : RealFam hm) (q : Fin 128) : IsR (varOnePass hm q) := by
  rw [varOnePass_eq_varCentred h q]; exact varCentred_isR h q

/-- The variance plus the added constant is a positive real. -/
theorem varCentred_add_eps_pos {hm : Fin 100000 → Fin 128 → EReal} (h : RealFam hm) (q : Fin 128) :
    ∃ w : ℝ, 0 < w ∧ varCentred hm q + epsLit = (w : EReal) := by
  obtain ⟨v, h0, hv⟩ := varCentred_nonneg_real h q
  obtain ⟨e, he, hE⟩ := epsLit_pos
  exact ⟨v + e, by linarith, by rw [hv, hE, EReal.coe_add]⟩

/-- So its inverse square root is a real number. -/
theorem rsqrt_var_isR {hm : Fin 100000 → Fin 128 → EReal} (h : RealFam hm) (q : Fin 128) :
    IsR (Ideal.rsqrt (varCentred hm q + epsLit)) := by
  obtain ⟨w, hw, e⟩ := varCentred_add_eps_pos h q
  rw [e]; exact IsR.rsqrt_pos w hw

/-! ## The normalisation at one entry -/

/-- One normalised entry: the deviation from the mean, scaled by the inverse square root of the variance plus the
    added constant, then by the gain, shifted by the bias, and clamped below at zero; in this order of operations. -/
def bnScalar (x m v g b : EReal) : EReal := max (((x - m) * Ideal.rsqrt (v + epsLit)) * g + b) 0

/-- The normalisation of an array with 128 columns (any row index type) at entry (p, q), from per-column mean,
    variance, gain and bias. -/
def bnEntry {ι : Type*} (h : ι → Fin 128 → EReal) (mean var g b : Fin 128 → EReal) (p : ι) (q : Fin 128) : EReal :=
  bnScalar (h p q) (mean q) (var q) (g q) (b q)

/-- A normalised entry is real when the entry, the mean, the gain and the bias are real and the variance plus the
    added constant is a positive real. -/
theorem bnScalar_isR {x m v g b : EReal} (hx : IsR x) (hm : IsR m) (hv : ∃ w : ℝ, 0 < w ∧ v + epsLit = (w : EReal))
    (hg : IsR g) (hb : IsR b) : IsR (bnScalar x m v g b) := by
  obtain ⟨w, hw, e⟩ := hv
  unfold bnScalar
  rw [e]
  exact IsR.max (IsR.add (IsR.mul (IsR.mul (IsR.sub hx hm) (IsR.rsqrt_pos w hw)) hg) hb) IsR.zero

/-- The same with the variance a real number that is not negative. -/
theorem bnScalar_isR_of_nonneg {x m v g b : EReal} (hx : IsR x) (hm : IsR m) (hv : ∃ w : ℝ, 0 ≤ w ∧ v = (w : EReal))
    (hg : IsR g) (hb : IsR b) : IsR (bnScalar x m v g b) := by
  obtain ⟨w, hw, e⟩ := hv
  obtain ⟨ε, hε, hE⟩ := epsLit_pos
  exact bnScalar_isR hx hm ⟨w + ε, by linarith, by rw [e, hE, EReal.coe_add]⟩ hg hb

/-- The normalisation of a real family by its own statistics, real gain and bias: every entry is real. -/
theorem bnEntry_stats_isR {hm : Fin 100000 → Fin 128 → EReal} (h : RealFam hm) {g b : Fin 128 → EReal}
    (hg : ∀ q, IsR (g q)) (hb : ∀ q, IsR (b q)) (r : Fin 100000) (q : Fin 128) :
    IsR (bnEntry hm (mean hm) (varCentred hm) g b r q) :=
  bnScalar_isR (h r q) (mean_isR h q) (varCentred_add_eps_pos h q) (hg q) (hb q)

/-- THE LAW, at an entry: normalising a real family by its mean and ONE-PASS variance gives the same entry as
    normalising it by its mean and CENTRED variance. -/
theorem bnEntry_onepass_eq_centred {hm : Fin 100000 → Fin 128 → EReal} (h : RealFam hm) (g b : Fin 128 → EReal)
    (r : Fin 100000) (q : Fin 128) :
    bnEntry hm (mean hm) (varOnePass hm) g b r q = bnEntry hm (mean hm) (varCentred hm) g b r q := by
  unfold bnEntry
  rw [varOnePass_eq_varCentred h q]

/-! ## The column sums, accumulated block by block -/

/-- Row 2000·t + i of block t < 50 is one of the 100000 rows. -/
theorem row_lt (t : Fin 50) (i : Fin 2000) : 2000 * t.val + i.val < 100000 :=
  Cert.Lib.BlockSum.idx_lt (J := 50) (n := 2000) (N := 100000) rfl t.isLt i

/-- The sum over the 100000 rows is the sum over the 50 blocks of the sums over each block's 2000 rows; for any
    extended reals. -/
theorem sum_rows_blocks (f : Fin 100000 → EReal) :
    ∑ t : Fin 50, ∑ i : Fin 2000, f ⟨2000 * t.val + i.val, row_lt t i⟩ = ∑ r : Fin 100000, f r :=
  (Cert.Lib.BlockSum.sum_blocks 50 2000 (N := 100000) rfl f).symm

/-- The running total after the first t blocks: zero before block 0, and each block adds its own sum. -/
def runSum (f : Fin 100000 → EReal) : ℕ → EReal
  | 0 => 0
  | t + 1 => runSum f t + Cert.Lib.BlockSum.blk 50 2000 (N := 100000) rfl f t

theorem runSum_eq (f : Fin 100000 → EReal) (t : ℕ) :
    runSum f t = ∑ k ∈ Finset.range t, Cert.Lib.BlockSum.blk 50 2000 (N := 100000) rfl f k := by
  induction t with
  | zero => simp [runSum]
  | succ t ih => rw [runSum, ih, Finset.sum_range_succ]

/-- The block sum of block t < 50 is the sum over its 2000 rows. -/
theorem blk_eq (f : Fin 100000 → EReal) (t : Fin 50) :
    Cert.Lib.BlockSum.blk 50 2000 (N := 100000) rfl f t.val = ∑ i : Fin 2000, f ⟨2000 * t.val + i.val, row_lt t i⟩ :=
  Cert.Lib.BlockSum.blk_of_lt 50 2000 rfl f t.isLt

/-- After all 50 blocks the running total is the sum over all rows. -/
theorem runSum_final (f : Fin 100000 → EReal) : runSum f 50 = ∑ r : Fin 100000, f r := by
  rw [runSum_eq]; exact (Cert.Lib.BlockSum.sum_eq_sum_blk 50 2000 rfl f).symm

end Cert.Math

end
-- ==== Proof.LibKeepdims.lean ====
/-
  Reusable lemmas: a row reduction of an [a, b] array kept as a column and broadcast back along the row.

  jnp's `max(s, axis=-1, keepdims=True)` and `sum(…, axis=-1, keepdims=True)` inside a kernel print as a lane reduction
  [a, b] → [a], a shape cast [a] → [a, 1], and a broadcast [a, 1] → [a, b].  Read over the extended reals at (r, j) the
  result is the fold of max (from the accumulator's value) or the sum over row r, whatever j:

      bmax s (r, j) = max_k s (r, k),      bsum s (r, j) = Σ_k s (r, k).

  The two layout steps are read by coordinates: an [a] vector cast to an [a, 1] column reads entry i at (i, 0), and an
  [a, 1] column broadcast to [a, b] reads the column's entry p at (p, c).
-/
import Idealize.ShloMosaic.Lib.Pipeline.Value
import Idealize.ShloMosaic.Lib.ValueIdx
import Idealize.ShloMosaic.PureOps.Ideal.Laws

noncomputable section

namespace Cert.Keepdims

open Idealize.ShloMosaic Idealize.ShloMosaic.ValueIdx

variable {α : Type}

/-- An [a] vector cast to an [a, 1] column reads, at (i, u), the operand at i, whatever the unit coordinate u. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An [a, 1] column broadcast to [a, b] reads, at (p, c), the column's entry p. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The reduced index r of an [a, b] array reduced along its rows, with the row position k put back, is (r, k). -/
theorem lift_row {a b : ℕ} (hr : (⟨2, ![a, b]⟩ : Shape).Reduces [1] ⟨1, ![a]⟩) (r : Fin a) (k : Fin b) :
    hr.lift (ix1 r) k = ix2 r k :=
  funext fun c => Fin.ext (by
    match c with
    | ⟨0, _⟩ => rfl
    | ⟨1, _⟩ => rfl)

/-- The row maximum kept as a column and broadcast back: at (r, j) the fold of max, from the accumulator's value, over
    row r. -/
theorem rowMax_keepdims {a b : ℕ} (s : FVec Ideal ⟨2, ![a, b]⟩ .f32) (acc : BitVec 32)
    (hr : (⟨2, ![a, b]⟩ : Shape).Reduces [1] ⟨1, ![a]⟩) (hφ : FKind.Formats .f32) (hacc : acc = FKind.maximumf.neutral .f32 hφ)
    (hsc : (⟨1, ![a]⟩ : Shape).ShapeCasts ⟨2, ![a, 1]⟩) (hb : (⟨2, ![a, 1]⟩ : Shape).Broadcasts ⟨2, ![a, b]⟩)
    (r : Fin a) (j : Fin b) :
    broadcastTo ⟨2, ![a, b]⟩ (shapeCast ⟨2, ![a, 1]⟩ (multiReduction .maximumf [1] ⟨1, ![a]⟩ s acc hr hφ hacc) hsc) hb (ix2 r j)
      = (Finset.univ : Finset (Fin b)).fold max (Ideal.ofBits .f32 acc) (fun k => s (ix2 r k)) := by
  rw [broadcastTo_a1_ab_apply, shapeCast_a_a1_apply, Ideal.multiReduction_maximumf_single]
  refine congrArg (fun f => (Finset.univ : Finset (Fin b)).fold max (Ideal.ofBits .f32 acc) f) ?_
  exact funext fun k => congrArg s (lift_row hr r k)

/-- The row sum kept as a column and broadcast back: at (r, j) the sum over row r. -/
theorem rowSum_keepdims {a b : ℕ} (s : FVec Ideal ⟨2, ![a, b]⟩ .f32) (acc : BitVec 32)
    (hr : (⟨2, ![a, b]⟩ : Shape).Reduces [1] ⟨1, ![a]⟩) (hφ : FKind.Formats .f32) (hacc : acc = FKind.add.neutral .f32 hφ)
    (hsc : (⟨1, ![a]⟩ : Shape).ShapeCasts ⟨2, ![a, 1]⟩) (hb : (⟨2, ![a, 1]⟩ : Shape).Broadcasts ⟨2, ![a, b]⟩)
    (r : Fin a) (j : Fin b) :
    broadcastTo ⟨2, ![a, b]⟩ (shapeCast ⟨2, ![a, 1]⟩ (multiReduction .add [1] ⟨1, ![a]⟩ s acc hr hφ hacc) hsc) hb (ix2 r j)
      = ∑ k : Fin b, s (ix2 r k) := by
  rw [broadcastTo_a1_ab_apply, shapeCast_a_a1_apply, Ideal.multiReduction_add_single]
  exact Finset.sum_congr rfl fun k _ => congrArg s (lift_row hr r k)

end Cert.Keepdims

end
-- ==== Proof.MathFinal.lean ====
import Idealize.ShloMosaic.PureOps.Ideal.Laws
import Idealize.ShloMosaic.Lib.ValueIdx
import Idealize.ShloMosaic.Lib.Pipeline.Value
import proofs.«130004_j49941879718343_1_alg».proof.Proof.Gen.KernelIdeal.Skeleton
import proofs.«130004_j49941879718343_1_alg».proof.Proof.LibMatmulNN
import proofs.«130004_j49941879718343_1_alg».proof.Proof.LibRowBias
import proofs.«130004_j49941879718343_1_alg».proof.Proof.LibKeepdims

/-!
  The last layer, entry by entry, over the extended reals: a linear map of the pooled features followed by the
  division of every row by its Euclidean length, the length kept away from zero by a small threshold.

  For a row hf of K pooled features, weights Wl [K, N] and a bias bl [N]:

      finalLin hf Wl bl q = (Σ_k hf_k · Wl_{k,q}) + bl_q,
      finalRow hf Wl bl q = finalLin q / max(sqrt(Σ_{q'} finalLin q' · finalLin q'), t),

  the threshold t kept as the float word it is written as; both programs write the same word.  The quotient and
  the square root are the extended reals' own (total) ones, the same on both sides.

  The kernel computes this on its one [512, 384] block: the product accumulates into zeros, the casts to the narrow
  float format are the identity, the row sum of squares is kept as a column and broadcast back along the row.
-/

noncomputable section

namespace Cert.Math

open Idealize.ShloMosaic Idealize.ShloMosaic.ValueIdx

/-- The linear map of one row, at column q. -/
def finalLin {K N : ℕ} (hf : Fin K → EReal) (Wl : Fin K → Fin N → EReal) (bl : Fin N → EReal) (q : Fin N) : EReal :=
  (∑ k : Fin K, hf k * Wl k q) + bl q

/-- One row divided by its thresholded Euclidean length, at column q. -/
def finalRow {K N : ℕ} (hf : Fin K → EReal) (Wl : Fin K → Fin N → EReal) (bl : Fin N → EReal) (q : Fin N) : EReal :=
  Ideal.div (finalLin hf Wl bl q)
    (max (Ideal.sqrt (∑ c : Fin N, finalLin hf Wl bl c * finalLin hf Wl bl c)) (Ideal.ofBits .f32 0x2B8CBCCC#32))

/-- The last layer at entry (p, q): row p of the pooled features through finalRow. -/
def finalEntry {G K N : ℕ} (hf : Fin G → Fin K → EReal) (Wl : Fin K → Fin N → EReal) (bl : Fin N → EReal)
    (p : Fin G) (q : Fin N) : EReal :=
  finalRow (hf p) Wl bl q

theorem finalEntry_eq_finalRow {G K N : ℕ} (hf : Fin G → Fin K → EReal) (Wl : Fin K → Fin N → EReal) (bl : Fin N → EReal)
    (p : Fin G) (q : Fin N) : finalEntry hf Wl bl p q = finalRow (hf p) Wl bl q := rfl

/-! ## The kernel body's arithmetic, over any extents -/

/-- The linear part as a kernel body spells it. -/
def bodyLin {G K N : ℕ} (D : DotDims ⟨2, ![G, K]⟩ ⟨2, ![K, N]⟩ ⟨2, ![G, N]⟩)
    (hf : FVec Ideal ⟨2, ![G, K]⟩ .f32) (wl : FVec Ideal ⟨2, ![K, N]⟩ .f32) (bl : FVec Ideal ⟨2, ![1, N]⟩ .f32)
    (hb : (⟨2, ![1, N]⟩ : Shape).Broadcasts ⟨2, ![G, N]⟩) (lt : FTy.bf16.bits < FTy.f32.bits) : FVec Ideal ⟨2, ![G, N]⟩ .f32 :=
  addf (matmul D none (truncf .bf16 hf lt) (truncf .bf16 wl lt) (constant (F := Ideal) ⟨2, ![G, N]⟩ .f32 0x00000000#32))
    (broadcastTo ⟨2, ![G, N]⟩ bl hb)

theorem bodyLin_apply {G K N : ℕ} (D : DotDims ⟨2, ![G, K]⟩ ⟨2, ![K, N]⟩ ⟨2, ![G, N]⟩) (hD : D = DotDims.plain G K N)
    (hf : FVec Ideal ⟨2, ![G, K]⟩ .f32) (wl : FVec Ideal ⟨2, ![K, N]⟩ .f32) (bl : FVec Ideal ⟨2, ![1, N]⟩ .f32)
    (hb : (⟨2, ![1, N]⟩ : Shape).Broadcasts ⟨2, ![G, N]⟩) (lt : FTy.bf16.bits < FTy.f32.bits) (p : Fin G) (c : Fin N) :
    bodyLin D hf wl bl hb lt (ix2 p c)
      = finalLin (fun k => hf (ix2 p k)) (fun k c => wl (ix2 k c)) (fun c => bl (ix2 (0 : Fin 1) c)) c := by
  unfold bodyLin finalLin
  refine (Cert.RowBias.bodyBias_apply _ bl hb p c).trans ?_
  exact congrArg (fun t => t + bl (ix2 (0 : Fin 1) c)) (Cert.MatmulNN.matmul_zero_apply D hD none _ _ p c)

/-- Linear map, row sum of squares kept as a column, square root, threshold, broadcast back, quotient — as a kernel
    body spells them — at entry (p, q). -/
theorem finalBody_apply {G K N : ℕ} (D : DotDims ⟨2, ![G, K]⟩ ⟨2, ![K, N]⟩ ⟨2, ![G, N]⟩) (hD : D = DotDims.plain G K N)
    (hf : FVec Ideal ⟨2, ![G, K]⟩ .f32) (wl : FVec Ideal ⟨2, ![K, N]⟩ .f32) (bl : FVec Ideal ⟨2, ![1, N]⟩ .f32)
    (hb : (⟨2, ![1, N]⟩ : Shape).Broadcasts ⟨2, ![G, N]⟩) (lt : FTy.bf16.bits < FTy.f32.bits)
    (hr : (⟨2, ![G, N]⟩ : Shape).Reduces [1] ⟨1, ![G]⟩) (hφ : FKind.Formats .f32)
    (hacc : (0x00000000#32 : BitVec 32) = FKind.add.neutral .f32 hφ)
    (hsc : (⟨1, ![G]⟩ : Shape).ShapeCasts ⟨2, ![G, 1]⟩) (hbc : (⟨2, ![G, 1]⟩ : Shape).Broadcasts ⟨2, ![G, N]⟩)
    (p : Fin G) (q : Fin N) :
    divf (bodyLin D hf wl bl hb lt)
      (broadcastTo ⟨2, ![G, N]⟩
        (maximumf (sqrt (shapeCast ⟨2, ![G, 1]⟩
            (multiReduction .add [1] ⟨1, ![G]⟩ (mulf (bodyLin D hf wl bl hb lt) (bodyLin D hf wl bl hb lt))
              0x00000000#32 hr hφ hacc) hsc))
          (broadcast ⟨2, ![G, 1]⟩ (Scalar.ofBits (F := Ideal) .f32 0x2B8CBCCC#32))) hbc) (ix2 p q)
      = finalRow (fun k => hf (ix2 p k)) (fun k c => wl (ix2 k c)) (fun c => bl (ix2 (0 : Fin 1) c)) q := by
  have hsum : multiReduction .add [1] ⟨1, ![G]⟩ (mulf (bodyLin D hf wl bl hb lt) (bodyLin D hf wl bl hb lt))
        0x00000000#32 hr hφ hacc (ix1 p)
      = ∑ c : Fin N, finalLin (fun k => hf (ix2 p k)) (fun k c => wl (ix2 k c)) (fun c => bl (ix2 (0 : Fin 1) c)) c
          * finalLin (fun k => hf (ix2 p k)) (fun k c => wl (ix2 k c)) (fun c => bl (ix2 (0 : Fin 1) c)) c :=
    (Ideal.multiReduction_add_single _ _ hr hφ hacc (ix1 p)).trans (Finset.sum_congr rfl fun (k : Fin N) _ =>
      (congrArg (mulf (bodyLin D hf wl bl hb lt) (bodyLin D hf wl bl hb lt)) (Cert.Keepdims.lift_row hr p k)).trans (by
        show bodyLin D hf wl bl hb lt (ix2 p k) * bodyLin D hf wl bl hb lt (ix2 p k) = _
        rw [bodyLin_apply D hD]))
  refine (congrArg (fun t => Ideal.div (bodyLin D hf wl bl hb lt (ix2 p q)) t)
    (Cert.Keepdims.broadcastTo_a1_ab_apply _ hbc p q)).trans ?_
  refine (congrArg (fun t => Ideal.div (bodyLin D hf wl bl hb lt (ix2 p q))
      (max (Ideal.sqrt t) (Ideal.ofBits .f32 0x2B8CBCCC#32)))
    (Cert.Keepdims.shapeCast_a_a1_apply _ hsc p (0 : Fin 1))).trans ?_
  rw [hsum, bodyLin_apply D hD]
  rfl

/-! ## The kernel's one store (region 6), at an entry

  HF is the block of pooled features, WL the weights and BL the bias row as loaded. -/

section Kernel

open Cert.KernelIdeal Cert.KernelIdeal.Gen

theorem k6_pay1_apply (HF : Vec Ideal S512x384 .f32) (WL : Vec Ideal S384x128 .f32) (BL : Vec Ideal S1x128 .f32)
    (p : Fin 512) (q : Fin 128) :
    k6_pay1 (F := Ideal) HF WL BL (ix2 p q)
      = finalEntry (fun r k => HF (ix2 r k)) (fun k c => WL (ix2 k c)) (fun c => BL (ix2 (0 : Fin 1) c)) p q := by
  unfold k6_pay1
  simp only [shapeCast_self]
  exact finalBody_apply _ rfl HF WL BL _ _ _ _ _ _ _ p q

end Kernel

end Cert.Math

end
-- ==== Proof.Spec.lean ====
/-
  THE RESULT AS ONE FUNCTION OF THE ARGUMENT ARRAYS, in the kernel's arrangement, over the extended reals.
  One layer: agg = the sum over incoming edges of the source rows; hm = the two-layer perceptron of every row of
  X + agg; its column means and ONE-PASS column variances E[hm^2] - E[hm]^2 over the 100000 rows; the output is
  max(((hm - mean) * rsqrt(var + eps)) * gain + shift, 0), entry by entry. Three such layers, each on the one before;
  the three outputs mean-pooled per graph and concatenated; the last linear map with its row normalisation.
-/
import proofs.«130004_j49941879718343_1_alg».proof.Proof.HostRead
import proofs.«130004_j49941879718343_1_alg».proof.Proof.MathMlp
import proofs.«130004_j49941879718343_1_alg».proof.Proof.MathStats
import proofs.«130004_j49941879718343_1_alg».proof.Proof.MathFinal

noncomputable section

namespace Cert.Spec

open Cert.Math Cert.KernelIdeal Cert.KernelIdeal.HandV
open Idealize.ShloMosaic Idealize.ShloMosaic.ValueIdx

/-- A node index's row and column as numbers below the literal extents. -/
abbrev nrow (i : S100000x128.Idx) : Fin 100000 := ⟨(i 0).val, (i 0).isLt⟩
abbrev ncol (i : S100000x128.Idx) : Fin 128 := ⟨(i 1).val, (i 1).isLt⟩

/-- The pre-normalisation array of a layer with input `X`: the perceptron of each row of X + agg X. -/
def layerHm (X : Nodes) (e : Edges) (Wa : Mat128) (ba : Vec128) (Wb : Mat128) (bb : Vec128) : Fin 100000 → Fin 128 → EReal :=
  mlpEntry (fun r j => X (ix2 r j)) (fun r j => agg X e (ix2 r j)) (fun j k => Wa (ix2 j k)) (fun k => ba (ix1 k))
    (fun k q => Wb (ix2 k q)) (fun q => bb (ix1 q))

/-- A layer's output: the normalisation of `layerHm` by its column mean and one-pass column variance, then the rectifier. -/
def layerOut (X : Nodes) (e : Edges) (Wa : Mat128) (ba : Vec128) (Wb : Mat128) (bb g be : Vec128) : Nodes := fun i =>
  bnEntry (layerHm X e Wa ba Wb bb) (Cert.Math.mean (layerHm X e Wa ba Wb bb)) (varOnePass (layerHm X e Wa ba Wb bb))
    (fun q => g (ix1 q)) (fun q => be (ix1 q)) (nrow i) (ncol i)

def h1Of (x0 : Nodes) (x1 : Edges) (x3 : Mat128) (x4 : Vec128) (x5 : Mat128) (x6 x7 x8 : Vec128) : Nodes :=
  layerOut x0 x1 x3 x4 x5 x6 x7 x8

def h2Of (x0 : Nodes) (x1 : Edges) (x3 : Mat128) (x4 : Vec128) (x5 : Mat128) (x6 x7 x8 : Vec128)
    (x9 : Mat128) (x10 : Vec128) (x11 : Mat128) (x12 x13 x14 : Vec128) : Nodes :=
  layerOut (h1Of x0 x1 x3 x4 x5 x6 x7 x8) x1 x9 x10 x11 x12 x13 x14

def h3Of (x0 : Nodes) (x1 : Edges) (x3 : Mat128) (x4 : Vec128) (x5 : Mat128) (x6 x7 x8 : Vec128)
    (x9 : Mat128) (x10 : Vec128) (x11 : Mat128) (x12 x13 x14 : Vec128)
    (x15 : Mat128) (x16 : Vec128) (x17 : Mat128) (x18 x19 x20 : Vec128) : Nodes :=
  layerOut (h2Of x0 x1 x3 x4 x5 x6 x7 x8 x9 x10 x11 x12 x13 x14) x1 x15 x16 x17 x18 x19 x20

/-- The whole result: the last layer on the pooled, concatenated outputs. -/
def result (x0 : Nodes) (x1 : Edges) (x2 : Batch) (x3 : Mat128) (x4 : Vec128) (x5 : Mat128) (x6 x7 x8 : Vec128)
    (x9 : Mat128) (x10 : Vec128) (x11 : Mat128) (x12 x13 x14 : Vec128)
    (x15 : Mat128) (x16 : Vec128) (x17 : Mat128) (x18 x19 x20 : Vec128)
    (x21 : FVec Ideal S384x128 .f32) (x22 : Vec128) : FVec Ideal S512x128 .f32 := fun i =>
  finalEntry
    (fun r k => poolCat (h1Of x0 x1 x3 x4 x5 x6 x7 x8) (h2Of x0 x1 x3 x4 x5 x6 x7 x8 x9 x10 x11 x12 x13 x14)
      (h3Of x0 x1 x3 x4 x5 x6 x7 x8 x9 x10 x11 x12 x13 x14 x15 x16 x17 x18 x19 x20) x2 (ix2 r k))
    (fun k q => x21 (ix2 k q)) (fun q => x22 (ix1 q))
    (⟨(i 0).val, (i 0).isLt⟩ : Fin 512) (⟨(i 1).val, (i 1).isLt⟩ : Fin 128)

end Cert.Spec

end
-- ==== Proof.GinPieces0.lean ====
/-
  Pipeline 0: what the node-update kernel's two control cases leave in the three output buffers, as the body's own
  arithmetic — the block's result is one term of the six input blocks; each accumulator is "what it held, plus the
  block's column sums" (of the result, resp. of its square), where at the first point "what it held" is the zero row
  the case has just stored — and THE RUNNING SUMS: by induction on the grid point, the accumulators after point n
  are the zero row with the column sums of blocks 0..n added one block at a time, in order.
-/
import proofs.«130004_j49941879718343_1_alg».proof.Proof.GinFrame0
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.Sem
open Idealize.ShloMosaic.Pipeline (Dat Cfg Window BodyObligation cellOf)

variable {F : FTy → Type} [FloatOps F]

theorem hz2_0 : (![0, 0] : Fin 2 → Nat) = fun _ => 0 := funext fun a => by fin_cases a <;> rfl
local notation "hz2" => hz2_0

/-! ## A later point: every output is one covering store -/

theorem out0_B_6 (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (hc : ¬cond0 i)
    (x0 x1 : Vec F S2000x128 .f32) (x2 : Vec F S128x128 .f32) (x3 : Vec F S1x128 .f32) (x4 : Vec F S128x128 .f32) (x5 : Vec F S1x128 .f32) (xo7 xo8 : Vec F S1x128 .f32) :
    (out0_B c i arg1 harg1 arg2 harg2 arg3 harg3 arg4 harg4 arg5 harg5 arg6 harg6 arg7 harg7 arg8 harg8 arg9 harg9 hc x0 x1 x2 x3 x4 x5 xo7 xo8).1 = k0_pay4 x0 x1 x2 x3 x4 x5 := by
  unfold out0_B
  dsimp only
  rw [View.read_writes_eq_canon _ _ _ (cover0_B_6 c i arg1 harg1 arg2 harg2 arg3 harg3 arg4 harg4 arg5 harg5 arg6 harg6 arg7 harg7 arg8 harg8 arg9 harg9 hc x0 x1 x2 x3 x4 x5 xo7 xo8)]
  unfold kernelRun0_B
  dsimp only
  rw [View.canon_unit_zero hz2]
  simp only [View.readAt_eq_ld, harg1.read_unread, harg2.read_unread, harg3.read_unread, harg4.read_unread, harg5.read_unread, harg6.read_unread, harg7.read_unread, harg8.read_unread, harg9.read_unread, View.ld_unit_zero (S := S2000x128) hz2, View.ld_unit_zero (S := S128x128) hz2, View.ld_unit_zero (S := S1x128) hz2]

theorem out0_B_7 (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (hc : ¬cond0 i)
    (x0 x1 : Vec F S2000x128 .f32) (x2 : Vec F S128x128 .f32) (x3 : Vec F S1x128 .f32) (x4 : Vec F S128x128 .f32) (x5 : Vec F S1x128 .f32) (xo7 xo8 : Vec F S1x128 .f32) :
    (out0_B c i arg1 harg1 arg2 harg2 arg3 harg3 arg4 harg4 arg5 harg5 arg6 harg6 arg7 harg7 arg8 harg8 arg9 harg9 hc x0 x1 x2 x3 x4 x5 xo7 xo8).2.1 = k0_pay5 x0 x1 x2 x3 x4 x5 xo7 := by
  unfold out0_B
  dsimp only
  rw [View.read_writes_eq_canon _ _ _ (cover0_B_7 c i arg1 harg1 arg2 harg2 arg3 harg3 arg4 harg4 arg5 harg5 arg6 harg6 arg7 harg7 arg8 harg8 arg9 harg9 hc x0 x1 x2 x3 x4 x5 xo7 xo8)]
  unfold kernelRun0_B
  dsimp only
  rw [View.canon_unit_zero hz2]
  simp only [View.readAt_eq_ld, harg1.read_unread, harg2.read_unread, harg3.read_unread, harg4.read_unread, harg5.read_unread, harg6.read_unread, harg7.read_unread, harg8.read_unread, harg9.read_unread, View.ld_unit_zero (S := S2000x128) hz2, View.ld_unit_zero (S := S128x128) hz2, View.ld_unit_zero (S := S1x128) hz2]

theorem out0_B_8 (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (hc : ¬cond0 i)
    (x0 x1 : Vec F S2000x128 .f32) (x2 : Vec F S128x128 .f32) (x3 : Vec F S1x128 .f32) (x4 : Vec F S128x128 .f32) (x5 : Vec F S1x128 .f32) (xo7 xo8 : Vec F S1x128 .f32) :
    (out0_B c i arg1 harg1 arg2 harg2 arg3 harg3 arg4 harg4 arg5 harg5 arg6 harg6 arg7 harg7 arg8 harg8 arg9 harg9 hc x0 x1 x2 x3 x4 x5 xo7 xo8).2.2 = k0_pay1 (k0_pay4 x0 x1 x2 x3 x4 x5) xo8 := by
  unfold out0_B
  dsimp only
  rw [View.read_writes_eq_canon _ _ _ (cover0_B_8 c i arg1 harg1 arg2 harg2 arg3 harg3 arg4 harg4 arg5 harg5 arg6 harg6 arg7 harg7 arg8 harg8 arg9 harg9 hc x0 x1 x2 x3 x4 x5 xo7 xo8)]
  unfold kernelRun0_B
  dsimp only
  rw [View.canon_unit_zero hz2]
  simp only [View.readAt_eq_ld, harg1.read_unread, harg2.read_unread, harg3.read_unread, harg4.read_unread, harg5.read_unread, harg6.read_unread, harg7.read_unread, harg8.read_unread, harg9.read_unread, View.ld_unit_zero (S := S2000x128) hz2, View.ld_unit_zero (S := S128x128) hz2, View.ld_unit_zero (S := S1x128) hz2]

/-! ## The first point: the accumulators are zeroed, read back, added to -/

theorem out0_A_6 (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (hc : cond0 i)
    (x0 x1 : Vec F S2000x128 .f32) (x2 : Vec F S128x128 .f32) (x3 : Vec F S1x128 .f32) (x4 : Vec F S128x128 .f32) (x5 : Vec F S1x128 .f32) :
    (out0_A c i arg1 harg1 arg2 harg2 arg3 harg3 arg4 harg4 arg5 harg5 arg6 harg6 arg7 harg7 arg8 harg8 arg9 harg9 hc x0 x1 x2 x3 x4 x5).1 = k0_pay4 x0 x1 x2 x3 x4 x5 := by
  unfold out0_A
  dsimp only
  rw [View.read_writes_eq_canon _ _ _ (cover0_A_6 c i arg1 harg1 arg2 harg2 arg3 harg3 arg4 harg4 arg5 harg5 arg6 harg6 arg7 harg7 arg8 harg8 arg9 harg9 hc x0 x1 x2 x3 x4 x5)]
  unfold kernelRun0_A
  dsimp only
  rw [View.canon_unit_zero hz2]
  simp only [View.readAt_eq_ld, harg1.read_unread, harg2.read_unread, harg3.read_unread, harg4.read_unread, harg5.read_unread, harg6.read_unread, harg7.read_unread, harg8.read_unread, harg9.read_unread, View.ld_unit_zero (S := S2000x128) hz2, View.ld_unit_zero (S := S128x128) hz2, View.ld_unit_zero (S := S1x128) hz2]

theorem out0_A_7 (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (hc : cond0 i)
    (x0 x1 : Vec F S2000x128 .f32) (x2 : Vec F S128x128 .f32) (x3 : Vec F S1x128 .f32) (x4 : Vec F S128x128 .f32) (x5 : Vec F S1x128 .f32) :
    (out0_A c i arg1 harg1 arg2 harg2 arg3 harg3 arg4 harg4 arg5 harg5 arg6 harg6 arg7 harg7 arg8 harg8 arg9 harg9 hc x0 x1 x2 x3 x4 x5).2.1 = k0_pay5 x0 x1 x2 x3 x4 x5 (k0_pay2 (F := F)) := by
  unfold out0_A
  dsimp only
  rw [View.read_writes_eq_canon _ _ _ (cover0_A_7 c i arg1 harg1 arg2 harg2 arg3 harg3 arg4 harg4 arg5 harg5 arg6 harg6 arg7 harg7 arg8 harg8 arg9 harg9 hc x0 x1 x2 x3 x4 x5)]
  unfold kernelRun0_A
  dsimp only
  sl_unfold_words
  rw [View.canon_cons_unit_zero (S := S1x128) hz2, View.readCov_unit_zero (S := S1x128) _ hz2]
  simp only [View.readAt_eq_ld, harg1.read_unread, harg2.read_unread, harg3.read_unread, harg4.read_unread, harg5.read_unread, harg6.read_unread, harg7.read_unread, harg8.read_unread, harg9.read_unread, View.ld_unit_zero (S := S2000x128) hz2, View.ld_unit_zero (S := S128x128) hz2, View.ld_unit_zero (S := S1x128) hz2]

theorem out0_A_8 (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (hc : cond0 i)
    (x0 x1 : Vec F S2000x128 .f32) (x2 : Vec F S128x128 .f32) (x3 : Vec F S1x128 .f32) (x4 : Vec F S128x128 .f32) (x5 : Vec F S1x128 .f32) :
    (out0_A c i arg1 harg1 arg2 harg2 arg3 harg3 arg4 harg4 arg5 harg5 arg6 harg6 arg7 harg7 arg8 harg8 arg9 harg9 hc x0 x1 x2 x3 x4 x5).2.2 = k0_pay1 (k0_pay4 x0 x1 x2 x3 x4 x5) (k0_pay3 (F := F)) := by
  unfold out0_A
  dsimp only
  rw [View.read_writes_eq_canon _ _ _ (cover0_A_8 c i arg1 harg1 arg2 harg2 arg3 harg3 arg4 harg4 arg5 harg5 arg6 harg6 arg7 harg7 arg8 harg8 arg9 harg9 hc x0 x1 x2 x3 x4 x5)]
  unfold kernelRun0_A
  dsimp only
  sl_unfold_words
  rw [View.canon_cons_unit_zero (S := S1x128) hz2, View.readCov_unit_zero (S := S1x128) _ hz2]
  simp only [View.readAt_eq_ld, harg1.read_unread, harg2.read_unread, harg3.read_unread, harg4.read_unread, harg5.read_unread, harg6.read_unread, harg7.read_unread, harg8.read_unread, harg9.read_unread, View.ld_unit_zero (S := S2000x128) hz2, View.ld_unit_zero (S := S128x128) hz2, View.ld_unit_zero (S := S1x128) hz2]

/-! ## The running sums -/

variable (V : (c : Dev nD) → (b : Ref sig .tc) → Buf (Elt F) ((c : Thread nD τ).loc b))

/-- The block's result at point `t`: the body's term of the six input blocks there. -/
def blockOut0 (c : Dev nD) (t : Fin cfg0.N) : Vec F S2000x128 .f32 :=
  k0_pay4 (iblk0 V c 0 t) (iblk0 V c 1 t) (iblk0 V c 2 t) (iblk0 V c 3 t) (iblk0 V c 4 t) (iblk0 V c 5 t)

/-- The two accumulators after point `n`: from the zero row, each block's column sums added in order. -/
def accAt0 (c : Dev nD) : (n : ℕ) → n < cfg0.N → Vec F S1x128 .f32 × Vec F S1x128 .f32
  | 0, h => (k0_pay5 (iblk0 V c 0 ⟨0, h⟩) (iblk0 V c 1 ⟨0, h⟩) (iblk0 V c 2 ⟨0, h⟩) (iblk0 V c 3 ⟨0, h⟩) (iblk0 V c 4 ⟨0, h⟩) (iblk0 V c 5 ⟨0, h⟩) (k0_pay2 (F := F)), k0_pay1 (blockOut0 V c ⟨0, h⟩) (k0_pay3 (F := F)))
  | n + 1, h => (k0_pay5 (iblk0 V c 0 ⟨n + 1, h⟩) (iblk0 V c 1 ⟨n + 1, h⟩) (iblk0 V c 2 ⟨n + 1, h⟩) (iblk0 V c 3 ⟨n + 1, h⟩) (iblk0 V c 4 ⟨n + 1, h⟩) (iblk0 V c 5 ⟨n + 1, h⟩) (accAt0 c n (Nat.lt_of_succ_lt h)).1,
      k0_pay1 (blockOut0 V c ⟨n + 1, h⟩) (accAt0 c n (Nat.lt_of_succ_lt h)).2)

/-- What the three output buffers hold after point `n`: the block's result there and the running sums. -/
theorem outsAt0_eq (c : Dev nD) : ∀ (n : ℕ) (h : n < cfg0.N),
    outsAt0 V c n h = (blockOut0 V c ⟨n, h⟩, (accAt0 V c n h).1, (accAt0 V c n h).2)
  | 0, h => by
    rw [outsAt0_A V c ⟨0, h⟩ rfl]
    exact Prod.ext (out0_A_6 ..) (Prod.ext (out0_A_7 ..) (out0_A_8 ..))
  | n + 1, h => by
    rw [outsAt0_B V c ⟨n + 1, h⟩ (Nat.succ_ne_zero n)]
    refine Prod.ext (out0_B_6 ..) (Prod.ext ((out0_B_7 ..).trans ?_) ((out0_B_8 ..).trans ?_))
    · show k0_pay5 _ _ _ _ _ _ (outsAt0 V c n _).2.1 = k0_pay5 _ _ _ _ _ _ (accAt0 V c n _).1
      rw [outsAt0_eq c n]
    · show k0_pay1 _ (outsAt0 V c n _).2.2 = k0_pay1 _ (accAt0 V c n _).2
      rw [outsAt0_eq c n]
      rfl

end Cert.KernelIdeal.Hand

end
-- ==== Proof.GinValue0.lean ====
/-
  Pipeline 0 at an index, over the extended reals. The layer's pre-normalisation node array is ONE function of the
  arrays the region is entered with: entry (r, q) is the two-layer perceptron of row r of h + agg. A grid point's block
  of the result is rows 2000 t .. 2000 t + 1999 of that function (an entry depends on its own row only, and the
  weights' and biases' blocks are the whole arrays at every point). So the accumulators after point n are the running
  sums, block by block, of that function's columns, resp. of its columns' squares.
-/
import proofs.«130004_j49941879718343_1_alg».proof.Proof.GinPieces0
import proofs.«130004_j49941879718343_1_alg».proof.Proof.MathMlp
import proofs.«130004_j49941879718343_1_alg».proof.Proof.MathStats
import Idealize.ShloMosaic.Lib.Pipeline.Value
import Idealize.ShloMosaic.Lib.ValueIdx

set_option maxRecDepth 16384

noncomputable section

namespace Cert.KernelIdeal.HandV

open Cert.KernelIdeal Cert.KernelIdeal.Gen Cert.KernelIdeal.Hand Cert.Math
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

/-- The layer's pre-normalisation node array, entry by entry, from the region's input arrays. -/
def hm0 (c : Dev nD) : Fin 100000 → Fin 128 → EReal :=
  mlpEntry (fun r j => V c main_arg0 (ix2 r j)) (fun r j => V c main_v13 (ix2 r j)) (fun j k => V c main_arg3 (ix2 j k))
    (fun k => V c main_v14 (ix2 (0 : Fin 1) k)) (fun k q => V c main_arg5 (ix2 k q)) (fun q => V c main_v15 (ix2 (0 : Fin 1) q))

/-- Row i of block t is node row 2000 t + i. -/
def rowOf0 (t : Fin cfg0.N) (i : Fin 2000) : Fin 100000 :=
  ⟨2000 * t.val + i.val, by have := lt_of_lt_of_eq t.isLt (show cfg0.N = 50 from N_0); have := i.isLt; omega⟩

/-- The printed index maps over the grid: the node-row windows move with the point, every other window stays at block 0. -/
theorem idx0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0 :=
  (by decide +kernel : ∀ t : Fin grid0.N, _)

/-! ## The input blocks, read where the arrays hold them -/

theorem blk0_0 (c : Dev nD) (t : Fin cfg0.N) (i : Fin 2000) (j : Fin 128) :
    iblk0 V c 0 t (ix2 i j) = V c main_arg0 (ix2 (rowOf0 t i) j) := by
  obtain ⟨e00, e01, e10, e11, e20, e21, e30, e31, e40, e41, e50, e51, e60, e61, e70, e71, e80, e81⟩ := idx0 t
  show V c main_arg0 (((cfg0.win 0).blk t).view.emb (ix2 i j)) = V c main_arg0 (ix2 (rowOf0 t i) j)
  refine congrArg (V c main_arg0) ?_
  funext a; apply Fin.ext
  match a with
  | ⟨0, _⟩ => show win0_0.index t (0 : Fin 2) * 2000 + 1 * i.val = 2000 * t.val + i.val; omega
  | ⟨1, _⟩ => show win0_0.index t (1 : Fin 2) * 128 + 1 * j.val = j.val; omega

theorem blk0_1 (c : Dev nD) (t : Fin cfg0.N) (i : Fin 2000) (j : Fin 128) :
    iblk0 V c 1 t (ix2 i j) = V c main_v13 (ix2 (rowOf0 t i) j) := by
  obtain ⟨e00, e01, e10, e11, e20, e21, e30, e31, e40, e41, e50, e51, e60, e61, e70, e71, e80, e81⟩ := idx0 t
  show V c main_v13 (((cfg0.win 1).blk t).view.emb (ix2 i j)) = V c main_v13 (ix2 (rowOf0 t i) j)
  refine congrArg (V c main_v13) ?_
  funext a; apply Fin.ext
  match a with
  | ⟨0, _⟩ => show win0_1.index t (0 : Fin 2) * 2000 + 1 * i.val = 2000 * t.val + i.val; omega
  | ⟨1, _⟩ => show win0_1.index t (1 : Fin 2) * 128 + 1 * j.val = j.val; omega

theorem blk0_2 (c : Dev nD) (t : Fin cfg0.N) (i : Fin 128) (j : Fin 128) :
    iblk0 V c 2 t (ix2 i j) = V c main_arg3 (ix2 i j) := by
  obtain ⟨e00, e01, e10, e11, e20, e21, e30, e31, e40, e41, e50, e51, e60, e61, e70, e71, e80, e81⟩ := idx0 t
  show V c main_arg3 (((cfg0.win 2).blk t).view.emb (ix2 i j)) = V c main_arg3 (ix2 i j)
  refine congrArg (V c main_arg3) ?_
  funext a; apply Fin.ext
  match a with
  | ⟨0, _⟩ => show win0_2.index t (0 : Fin 2) * 128 + 1 * i.val = i.val; omega
  | ⟨1, _⟩ => show win0_2.index t (1 : Fin 2) * 128 + 1 * j.val = j.val; omega

theorem blk0_3 (c : Dev nD) (t : Fin cfg0.N) (i : Fin 1) (j : Fin 128) :
    iblk0 V c 3 t (ix2 i j) = V c main_v14 (ix2 i j) := by
  obtain ⟨e00, e01, e10, e11, e20, e21, e30, e31, e40, e41, e50, e51, e60, e61, e70, e71, e80, e81⟩ := idx0 t
  show V c main_v14 (((cfg0.win 3).blk t).view.emb (ix2 i j)) = V c main_v14 (ix2 i j)
  refine congrArg (V c main_v14) ?_
  funext a; apply Fin.ext
  match a with
  | ⟨0, _⟩ => show win0_3.index t (0 : Fin 2) * 1 + 1 * i.val = i.val; omega
  | ⟨1, _⟩ => show win0_3.index t (1 : Fin 2) * 128 + 1 * j.val = j.val; omega

theorem blk0_4 (c : Dev nD) (t : Fin cfg0.N) (i : Fin 128) (j : Fin 128) :
    iblk0 V c 4 t (ix2 i j) = V c main_arg5 (ix2 i j) := by
  obtain ⟨e00, e01, e10, e11, e20, e21, e30, e31, e40, e41, e50, e51, e60, e61, e70, e71, e80, e81⟩ := idx0 t
  show V c main_arg5 (((cfg0.win 4).blk t).view.emb (ix2 i j)) = V c main_arg5 (ix2 i j)
  refine congrArg (V c main_arg5) ?_
  funext a; apply Fin.ext
  match a with
  | ⟨0, _⟩ => show win0_4.index t (0 : Fin 2) * 128 + 1 * i.val = i.val; omega
  | ⟨1, _⟩ => show win0_4.index t (1 : Fin 2) * 128 + 1 * j.val = j.val; omega

theorem blk0_5 (c : Dev nD) (t : Fin cfg0.N) (i : Fin 1) (j : Fin 128) :
    iblk0 V c 5 t (ix2 i j) = V c main_v15 (ix2 i j) := by
  obtain ⟨e00, e01, e10, e11, e20, e21, e30, e31, e40, e41, e50, e51, e60, e61, e70, e71, e80, e81⟩ := idx0 t
  show V c main_v15 (((cfg0.win 5).blk t).view.emb (ix2 i j)) = V c main_v15 (ix2 i j)
  refine congrArg (V c main_v15) ?_
  funext a; apply Fin.ext
  match a with
  | ⟨0, _⟩ => show win0_5.index t (0 : Fin 2) * 1 + 1 * i.val = i.val; omega
  | ⟨1, _⟩ => show win0_5.index t (1 : Fin 2) * 128 + 1 * j.val = j.val; omega

/-! ## A block's result is rows of the layer's array -/

theorem blockOut0_apply (c : Dev nD) (t : Fin cfg0.N) (i : Fin 2000) (q : Fin 128) :
    blockOut0 V c t (ix2 i q) = hm0 V c (rowOf0 t i) q := by
  unfold blockOut0
  refine (k0_pay4_apply (iblk0 V c 0 t) (iblk0 V c 1 t) (iblk0 V c 2 t) (iblk0 V c 3 t) (iblk0 V c 4 t) (iblk0 V c 5 t) i q).trans ?_
  unfold hm0
  have e2 : (fun j k => iblk0 V c 2 t (ix2 j k)) = fun j k => V c main_arg3 (ix2 j k) := funext fun j => funext fun k => blk0_2 V c t j k
  have e3 : (fun k => iblk0 V c 3 t (ix2 (0 : Fin 1) k)) = fun k => V c main_v14 (ix2 (0 : Fin 1) k) := funext fun k => blk0_3 V c t 0 k
  have e4 : (fun k q => iblk0 V c 4 t (ix2 k q)) = fun k q => V c main_arg5 (ix2 k q) := funext fun k => funext fun q => blk0_4 V c t k q
  have e5 : (fun q => iblk0 V c 5 t (ix2 (0 : Fin 1) q)) = fun q => V c main_v15 (ix2 (0 : Fin 1) q) := funext fun q => blk0_5 V c t 0 q
  rw [e2, e3, e4, e5]
  exact mlpEntry_congr_row _ _ _ _ _ _ _ _ i (rowOf0 t i) q (fun j => blk0_0 V c t i j) (fun j => blk0_1 V c t i j)

/-! ## The accumulators are running sums -/

theorem lt50_0 {n : ℕ} (h : n < cfg0.N) : n < 50 := lt_of_lt_of_eq h (show cfg0.N = 50 from N_0)

/-- The column sums after point n: blocks 0..n of the array's column q, added in order from zero. -/
theorem acc0_sum (c : Dev nD) (q : Fin 128) : ∀ (n : ℕ) (h : n < cfg0.N),
    (accAt0 V c n h).1 (ix2 (0 : Fin 1) q) = runSum (fun r => hm0 V c r q) (n + 1)
  | 0, h => by
    show k0_pay5 (iblk0 V c 0 ⟨0, h⟩) (iblk0 V c 1 ⟨0, h⟩) (iblk0 V c 2 ⟨0, h⟩) (iblk0 V c 3 ⟨0, h⟩) (iblk0 V c 4 ⟨0, h⟩) (iblk0 V c 5 ⟨0, h⟩) (k0_pay2 (F := Ideal)) (ix2 (0 : Fin 1) q) = _
    refine (k0_pay5_apply (iblk0 V c 0 ⟨0, h⟩) (iblk0 V c 1 ⟨0, h⟩) (iblk0 V c 2 ⟨0, h⟩) (iblk0 V c 3 ⟨0, h⟩) (iblk0 V c 4 ⟨0, h⟩) (iblk0 V c 5 ⟨0, h⟩) (k0_pay2 (F := Ideal)) 0 q).trans ?_
    show _ = runSum (fun r => hm0 V c r q) 0 + Cert.Lib.BlockSum.blk 50 2000 (N := 100000) rfl (fun r => hm0 V c r q) 0
    rw [blk_eq (fun r => hm0 V c r q) ⟨0, by decide⟩, k0_pay2_apply]
    refine congrArg₂ (· + ·) rfl (Finset.sum_congr rfl fun i _ => ?_)
    exact blockOut0_apply V c ⟨0, h⟩ i q
  | n + 1, h => by
    show k0_pay5 (iblk0 V c 0 ⟨n + 1, h⟩) (iblk0 V c 1 ⟨n + 1, h⟩) (iblk0 V c 2 ⟨n + 1, h⟩) (iblk0 V c 3 ⟨n + 1, h⟩) (iblk0 V c 4 ⟨n + 1, h⟩) (iblk0 V c 5 ⟨n + 1, h⟩) (accAt0 V c n (Nat.lt_of_succ_lt h)).1 (ix2 (0 : Fin 1) q) = _
    refine (k0_pay5_apply (iblk0 V c 0 ⟨n + 1, h⟩) (iblk0 V c 1 ⟨n + 1, h⟩) (iblk0 V c 2 ⟨n + 1, h⟩) (iblk0 V c 3 ⟨n + 1, h⟩) (iblk0 V c 4 ⟨n + 1, h⟩) (iblk0 V c 5 ⟨n + 1, h⟩) (accAt0 V c n (Nat.lt_of_succ_lt h)).1 0 q).trans ?_
    show _ = runSum (fun r => hm0 V c r q) (n + 1) + Cert.Lib.BlockSum.blk 50 2000 (N := 100000) rfl (fun r => hm0 V c r q) (n + 1)
    rw [blk_eq (fun r => hm0 V c r q) ⟨n + 1, lt50_0 h⟩, acc0_sum c q n (Nat.lt_of_succ_lt h)]
    refine congrArg₂ (· + ·) rfl (Finset.sum_congr rfl fun i _ => ?_)
    exact blockOut0_apply V c ⟨n + 1, h⟩ i q

/-- The column sums of squares after point n, likewise. -/
theorem acc0_sq (c : Dev nD) (q : Fin 128) : ∀ (n : ℕ) (h : n < cfg0.N),
    (accAt0 V c n h).2 (ix2 (0 : Fin 1) q) = runSum (fun r => hm0 V c r q * hm0 V c r q) (n + 1)
  | 0, h => by
    show k0_pay1 (blockOut0 V c ⟨0, h⟩) (k0_pay3 (F := Ideal)) (ix2 (0 : Fin 1) q) = _
    refine (k0_pay1_apply (blockOut0 V c ⟨0, h⟩) (k0_pay3 (F := Ideal)) 0 q).trans ?_
    show _ = runSum (fun r => hm0 V c r q * hm0 V c r q) 0 + Cert.Lib.BlockSum.blk 50 2000 (N := 100000) rfl (fun r => hm0 V c r q * hm0 V c r q) 0
    rw [blk_eq (fun r => hm0 V c r q * hm0 V c r q) ⟨0, by decide⟩, k0_pay3_apply]
    refine congrArg₂ (· + ·) rfl (Finset.sum_congr rfl fun i _ => ?_)
    rw [blockOut0_apply V c ⟨0, h⟩ i q]; rfl
  | n + 1, h => by
    show k0_pay1 (blockOut0 V c ⟨n + 1, h⟩) (accAt0 V c n (Nat.lt_of_succ_lt h)).2 (ix2 (0 : Fin 1) q) = _
    refine (k0_pay1_apply (blockOut0 V c ⟨n + 1, h⟩) (accAt0 V c n (Nat.lt_of_succ_lt h)).2 0 q).trans ?_
    show _ = runSum (fun r => hm0 V c r q * hm0 V c r q) (n + 1) + Cert.Lib.BlockSum.blk 50 2000 (N := 100000) rfl (fun r => hm0 V c r q * hm0 V c r q) (n + 1)
    rw [blk_eq (fun r => hm0 V c r q * hm0 V c r q) ⟨n + 1, lt50_0 h⟩, acc0_sq c q n (Nat.lt_of_succ_lt h)]
    refine congrArg₂ (· + ·) rfl (Finset.sum_congr rfl fun i _ => ?_)
    rw [blockOut0_apply V c ⟨n + 1, h⟩ i q]; rfl

end Cert.KernelIdeal.HandV

end
-- ==== Proof.GinArrays0.lean ====
/-
  Pipeline 0: the two one-row result arrays. Each accumulator is written back once, after the last of the 50 points,
  when it holds the running sum over all blocks — the sum over all 100000 rows of the layer's array's column, resp. of
  the column's squares (the regrouping of a sum over 50 x 2000 rows into one sum needs no finiteness).
-/
import proofs.«130004_j49941879718343_1_alg».proof.Proof.GinValue0

set_option maxRecDepth 16384

noncomputable section

namespace Cert.KernelIdeal.HandV

open Cert.KernelIdeal Cert.KernelIdeal.Gen Cert.KernelIdeal.Hand Cert.Math
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

/-- The last grid point. -/
def tLast0 : Fin cfg0.N := ⟨49, by rw [show cfg0.N = 50 from N_0]; decide⟩

/-- The column sums of the layer's array, as the contents of the [1,128] result array. -/
def colSum0 (c : Dev nD) : FVec Ideal S1x128 .f32 := fun i =>
  (∑ r : Fin 100000, hm0 V c r (⟨(i 1).val, (i 1).isLt⟩ : Fin 128) : EReal)

/-- After the last point the accumulator holds them: the running sum over all 50 blocks. -/
theorem acc0_last_7 (c : Dev nD) : (accAt0 V c 49 tLast0.isLt).1 = colSum0 V c := by
  funext y
  obtain ⟨u, q, rfl⟩ : ∃ (u : Fin 1) (q : Fin 128), y = ix2 u q := ⟨y 0, y 1, eq_ix2 y⟩
  obtain rfl : u = 0 := Subsingleton.elim _ _
  refine (acc0_sum V c q 49 tLast0.isLt).trans ?_
  exact runSum_final _

/-- The one write-back, at the last point: block (0, 0) of the [1,128] array, read through zero offsets, is the array. -/
theorem flushed0_7 (c : Dev nD) (t : Fin cfg0.N) (hf : (cfg0.win 7).flush t = true) :
    (dat0 (F := Ideal) V c).flushed 7 t = ((cfg0.win 7).blk t).view.read (Elt Ideal) (colSum0 V c) := by
  have hN : cfg0.N = 50 := N_0
  have h49 : t.val = 49 := by have := (flush0_7 t).mp hf; have := t.isLt; omega
  obtain rfl : t = tLast0 := Fin.ext h49
  show (cfg0.win 7).cut (grid0.coords tLast0) ((dat0 V c).after 7 tLast0) = _
  rw [after0_7, outsAt0_eq]
  show (cfg0.win 7).cut (grid0.coords tLast0) (accAt0 V c 49 _).1 = _
  rw [acc0_last_7]
  have hz' : (fun a => win0_7.index tLast0 a * main_v16_1.ty.shape.size a) = fun _ => 0 := funext fun a => by fin_cases a <;> decide +kernel
  exact (Memref.read_access_unit_zero (Elt Ideal) main_v16_1 hz' (fun a => by rw [congrFun hz' a]; simp) (colSum0 V c)).symm

/-- So the result array ends holding them. -/
theorem gin0_colSum (c : Dev nD) : (dat0 (F := Ideal) V c).arrAt 7 cfg0.N = colSum0 V c :=
  (dat0 V c).arrAt_eq_of_cover 7 (colSum0 V c) (flushed0_7 V c) fun i =>
    ⟨tLast0, (flush0_7 tLast0).mpr rfl, by
      show i ∈ ((View.whole main_v16_1).slice (win0_7.rect tLast0)).set
      rw [View.set_slice_whole, Rect.mem_set_unit]
      intro a
      have h0 : (i 0 : Nat) < 1 := (i 0).isLt
      have h1 : (i 1 : Nat) < 128 := (i 1).isLt
      match a with
      | ⟨0, _⟩ => show win0_7.index tLast0 0 * win0_7.size 0 ≤ (i 0 : Nat) ∧ (i 0 : Nat) < win0_7.index tLast0 0 * win0_7.size 0 + win0_7.xsize (grid0.coords tLast0) 0
                  rw [show win0_7.index tLast0 0 * win0_7.size 0 = 0 from by decide +kernel, show win0_7.xsize (grid0.coords tLast0) 0 = 1 from by decide +kernel]; omega
      | ⟨1, _⟩ => show win0_7.index tLast0 1 * win0_7.size 1 ≤ (i 1 : Nat) ∧ (i 1 : Nat) < win0_7.index tLast0 1 * win0_7.size 1 + win0_7.xsize (grid0.coords tLast0) 1
                  rw [show win0_7.index tLast0 1 * win0_7.size 1 = 0 from by decide +kernel, show win0_7.xsize (grid0.coords tLast0) 1 = 128 from by decide +kernel]; omega⟩

/-- The column sums of squares of the layer's array, as the contents of the [1,128] result array. -/
def colSq0 (c : Dev nD) : FVec Ideal S1x128 .f32 := fun i =>
  (∑ r : Fin 100000, hm0 V c r (⟨(i 1).val, (i 1).isLt⟩ : Fin 128) * hm0 V c r (⟨(i 1).val, (i 1).isLt⟩ : Fin 128) : EReal)

/-- After the last point the accumulator holds them: the running sum over all 50 blocks. -/
theorem acc0_last_8 (c : Dev nD) : (accAt0 V c 49 tLast0.isLt).2 = colSq0 V c := by
  funext y
  obtain ⟨u, q, rfl⟩ : ∃ (u : Fin 1) (q : Fin 128), y = ix2 u q := ⟨y 0, y 1, eq_ix2 y⟩
  obtain rfl : u = 0 := Subsingleton.elim _ _
  refine (acc0_sq V c q 49 tLast0.isLt).trans ?_
  exact runSum_final _

/-- The one write-back, at the last point: block (0, 0) of the [1,128] array, read through zero offsets, is the array. -/
theorem flushed0_8 (c : Dev nD) (t : Fin cfg0.N) (hf : (cfg0.win 8).flush t = true) :
    (dat0 (F := Ideal) V c).flushed 8 t = ((cfg0.win 8).blk t).view.read (Elt Ideal) (colSq0 V c) := by
  have hN : cfg0.N = 50 := N_0
  have h49 : t.val = 49 := by have := (flush0_8 t).mp hf; have := t.isLt; omega
  obtain rfl : t = tLast0 := Fin.ext h49
  show (cfg0.win 8).cut (grid0.coords tLast0) ((dat0 V c).after 8 tLast0) = _
  rw [after0_8, outsAt0_eq]
  show (cfg0.win 8).cut (grid0.coords tLast0) (accAt0 V c 49 _).2 = _
  rw [acc0_last_8]
  have hz' : (fun a => win0_8.index tLast0 a * main_v16_2.ty.shape.size a) = fun _ => 0 := funext fun a => by fin_cases a <;> decide +kernel
  exact (Memref.read_access_unit_zero (Elt Ideal) main_v16_2 hz' (fun a => by rw [congrFun hz' a]; simp) (colSq0 V c)).symm

/-- So the result array ends holding them. -/
theorem gin0_colSq (c : Dev nD) : (dat0 (F := Ideal) V c).arrAt 8 cfg0.N = colSq0 V c :=
  (dat0 V c).arrAt_eq_of_cover 8 (colSq0 V c) (flushed0_8 V c) fun i =>
    ⟨tLast0, (flush0_8 tLast0).mpr rfl, by
      show i ∈ ((View.whole main_v16_2).slice (win0_8.rect tLast0)).set
      rw [View.set_slice_whole, Rect.mem_set_unit]
      intro a
      have h0 : (i 0 : Nat) < 1 := (i 0).isLt
      have h1 : (i 1 : Nat) < 128 := (i 1).isLt
      match a with
      | ⟨0, _⟩ => show win0_8.index tLast0 0 * win0_8.size 0 ≤ (i 0 : Nat) ∧ (i 0 : Nat) < win0_8.index tLast0 0 * win0_8.size 0 + win0_8.xsize (grid0.coords tLast0) 0
                  rw [show win0_8.index tLast0 0 * win0_8.size 0 = 0 from by decide +kernel, show win0_8.xsize (grid0.coords tLast0) 0 = 1 from by decide +kernel]; omega
      | ⟨1, _⟩ => show win0_8.index tLast0 1 * win0_8.size 1 ≤ (i 1 : Nat) ∧ (i 1 : Nat) < win0_8.index tLast0 1 * win0_8.size 1 + win0_8.xsize (grid0.coords tLast0) 1
                  rw [show win0_8.index tLast0 1 * win0_8.size 1 = 0 from by decide +kernel, show win0_8.xsize (grid0.coords tLast0) 1 = 128 from by decide +kernel]; omega⟩

end Cert.KernelIdeal.HandV

end
-- ==== Proof.GinPieces2.lean ====
/-
  Pipeline 2: what the node-update kernel's two control cases leave in the three output buffers, as the body's own
  arithmetic — the block's result is one term of the six input blocks; each accumulator is "what it held, plus the
  block's column sums" (of the result, resp. of its square), where at the first point "what it held" is the zero row
  the case has just stored — and THE RUNNING SUMS: by induction on the grid point, the accumulators after point n
  are the zero row with the column sums of blocks 0..n added one block at a time, in order.
-/
import proofs.«130004_j49941879718343_1_alg».proof.Proof.GinFrame2
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.Sem
open Idealize.ShloMosaic.Pipeline (Dat Cfg Window BodyObligation cellOf)

variable {F : FTy → Type} [FloatOps F]

theorem hz2_2 : (![0, 0] : Fin 2 → Nat) = fun _ => 0 := funext fun a => by fin_cases a <;> rfl
local notation "hz2" => hz2_2

/-! ## A later point: every output is one covering store -/

theorem out2_B_6 (c : Dev nD) (i : grid2.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (hc : ¬cond2 i)
    (x0 x1 : Vec F S2000x128 .f32) (x2 : Vec F S128x128 .f32) (x3 : Vec F S1x128 .f32) (x4 : Vec F S128x128 .f32) (x5 : Vec F S1x128 .f32) (xo7 xo8 : Vec F S1x128 .f32) :
    (out2_B c i arg1 harg1 arg2 harg2 arg3 harg3 arg4 harg4 arg5 harg5 arg6 harg6 arg7 harg7 arg8 harg8 arg9 harg9 hc x0 x1 x2 x3 x4 x5 xo7 xo8).1 = k2_pay4 x0 x1 x2 x3 x4 x5 := by
  unfold out2_B
  dsimp only
  rw [View.read_writes_eq_canon _ _ _ (cover2_B_6 c i arg1 harg1 arg2 harg2 arg3 harg3 arg4 harg4 arg5 harg5 arg6 harg6 arg7 harg7 arg8 harg8 arg9 harg9 hc x0 x1 x2 x3 x4 x5 xo7 xo8)]
  unfold kernelRun2_B
  dsimp only
  rw [View.canon_unit_zero hz2]
  simp only [View.readAt_eq_ld, harg1.read_unread, harg2.read_unread, harg3.read_unread, harg4.read_unread, harg5.read_unread, harg6.read_unread, harg7.read_unread, harg8.read_unread, harg9.read_unread, View.ld_unit_zero (S := S2000x128) hz2, View.ld_unit_zero (S := S128x128) hz2, View.ld_unit_zero (S := S1x128) hz2]

theorem out2_B_7 (c : Dev nD) (i : grid2.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (hc : ¬cond2 i)
    (x0 x1 : Vec F S2000x128 .f32) (x2 : Vec F S128x128 .f32) (x3 : Vec F S1x128 .f32) (x4 : Vec F S128x128 .f32) (x5 : Vec F S1x128 .f32) (xo7 xo8 : Vec F S1x128 .f32) :
    (out2_B c i arg1 harg1 arg2 harg2 arg3 harg3 arg4 harg4 arg5 harg5 arg6 harg6 arg7 harg7 arg8 harg8 arg9 harg9 hc x0 x1 x2 x3 x4 x5 xo7 xo8).2.1 = k2_pay5 x0 x1 x2 x3 x4 x5 xo7 := by
  unfold out2_B
  dsimp only
  rw [View.read_writes_eq_canon _ _ _ (cover2_B_7 c i arg1 harg1 arg2 harg2 arg3 harg3 arg4 harg4 arg5 harg5 arg6 harg6 arg7 harg7 arg8 harg8 arg9 harg9 hc x0 x1 x2 x3 x4 x5 xo7 xo8)]
  unfold kernelRun2_B
  dsimp only
  rw [View.canon_unit_zero hz2]
  simp only [View.readAt_eq_ld, harg1.read_unread, harg2.read_unread, harg3.read_unread, harg4.read_unread, harg5.read_unread, harg6.read_unread, harg7.read_unread, harg8.read_unread, harg9.read_unread, View.ld_unit_zero (S := S2000x128) hz2, View.ld_unit_zero (S := S128x128) hz2, View.ld_unit_zero (S := S1x128) hz2]

theorem out2_B_8 (c : Dev nD) (i : grid2.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (hc : ¬cond2 i)
    (x0 x1 : Vec F S2000x128 .f32) (x2 : Vec F S128x128 .f32) (x3 : Vec F S1x128 .f32) (x4 : Vec F S128x128 .f32) (x5 : Vec F S1x128 .f32) (xo7 xo8 : Vec F S1x128 .f32) :
    (out2_B c i arg1 harg1 arg2 harg2 arg3 harg3 arg4 harg4 arg5 harg5 arg6 harg6 arg7 harg7 arg8 harg8 arg9 harg9 hc x0 x1 x2 x3 x4 x5 xo7 xo8).2.2 = k2_pay1 (k2_pay4 x0 x1 x2 x3 x4 x5) xo8 := by
  unfold out2_B
  dsimp only
  rw [View.read_writes_eq_canon _ _ _ (cover2_B_8 c i arg1 harg1 arg2 harg2 arg3 harg3 arg4 harg4 arg5 harg5 arg6 harg6 arg7 harg7 arg8 harg8 arg9 harg9 hc x0 x1 x2 x3 x4 x5 xo7 xo8)]
  unfold kernelRun2_B
  dsimp only
  rw [View.canon_unit_zero hz2]
  simp only [View.readAt_eq_ld, harg1.read_unread, harg2.read_unread, harg3.read_unread, harg4.read_unread, harg5.read_unread, harg6.read_unread, harg7.read_unread, harg8.read_unread, harg9.read_unread, View.ld_unit_zero (S := S2000x128) hz2, View.ld_unit_zero (S := S128x128) hz2, View.ld_unit_zero (S := S1x128) hz2]

/-! ## The first point: the accumulators are zeroed, read back, added to -/

theorem out2_A_6 (c : Dev nD) (i : grid2.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (hc : cond2 i)
    (x0 x1 : Vec F S2000x128 .f32) (x2 : Vec F S128x128 .f32) (x3 : Vec F S1x128 .f32) (x4 : Vec F S128x128 .f32) (x5 : Vec F S1x128 .f32) :
    (out2_A c i arg1 harg1 arg2 harg2 arg3 harg3 arg4 harg4 arg5 harg5 arg6 harg6 arg7 harg7 arg8 harg8 arg9 harg9 hc x0 x1 x2 x3 x4 x5).1 = k2_pay4 x0 x1 x2 x3 x4 x5 := by
  unfold out2_A
  dsimp only
  rw [View.read_writes_eq_canon _ _ _ (cover2_A_6 c i arg1 harg1 arg2 harg2 arg3 harg3 arg4 harg4 arg5 harg5 arg6 harg6 arg7 harg7 arg8 harg8 arg9 harg9 hc x0 x1 x2 x3 x4 x5)]
  unfold kernelRun2_A
  dsimp only
  rw [View.canon_unit_zero hz2]
  simp only [View.readAt_eq_ld, harg1.read_unread, harg2.read_unread, harg3.read_unread, harg4.read_unread, harg5.read_unread, harg6.read_unread, harg7.read_unread, harg8.read_unread, harg9.read_unread, View.ld_unit_zero (S := S2000x128) hz2, View.ld_unit_zero (S := S128x128) hz2, View.ld_unit_zero (S := S1x128) hz2]

theorem out2_A_7 (c : Dev nD) (i : grid2.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (hc : cond2 i)
    (x0 x1 : Vec F S2000x128 .f32) (x2 : Vec F S128x128 .f32) (x3 : Vec F S1x128 .f32) (x4 : Vec F S128x128 .f32) (x5 : Vec F S1x128 .f32) :
    (out2_A c i arg1 harg1 arg2 harg2 arg3 harg3 arg4 harg4 arg5 harg5 arg6 harg6 arg7 harg7 arg8 harg8 arg9 harg9 hc x0 x1 x2 x3 x4 x5).2.1 = k2_pay5 x0 x1 x2 x3 x4 x5 (k2_pay2 (F := F)) := by
  unfold out2_A
  dsimp only
  rw [View.read_writes_eq_canon _ _ _ (cover2_A_7 c i arg1 harg1 arg2 harg2 arg3 harg3 arg4 harg4 arg5 harg5 arg6 harg6 arg7 harg7 arg8 harg8 arg9 harg9 hc x0 x1 x2 x3 x4 x5)]
  unfold kernelRun2_A
  dsimp only
  sl_unfold_words
  rw [View.canon_cons_unit_zero (S := S1x128) hz2, View.readCov_unit_zero (S := S1x128) _ hz2]
  simp only [View.readAt_eq_ld, harg1.read_unread, harg2.read_unread, harg3.read_unread, harg4.read_unread, harg5.read_unread, harg6.read_unread, harg7.read_unread, harg8.read_unread, harg9.read_unread, View.ld_unit_zero (S := S2000x128) hz2, View.ld_unit_zero (S := S128x128) hz2, View.ld_unit_zero (S := S1x128) hz2]

theorem out2_A_8 (c : Dev nD) (i : grid2.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (hc : cond2 i)
    (x0 x1 : Vec F S2000x128 .f32) (x2 : Vec F S128x128 .f32) (x3 : Vec F S1x128 .f32) (x4 : Vec F S128x128 .f32) (x5 : Vec F S1x128 .f32) :
    (out2_A c i arg1 harg1 arg2 harg2 arg3 harg3 arg4 harg4 arg5 harg5 arg6 harg6 arg7 harg7 arg8 harg8 arg9 harg9 hc x0 x1 x2 x3 x4 x5).2.2 = k2_pay1 (k2_pay4 x0 x1 x2 x3 x4 x5) (k2_pay3 (F := F)) := by
  unfold out2_A
  dsimp only
  rw [View.read_writes_eq_canon _ _ _ (cover2_A_8 c i arg1 harg1 arg2 harg2 arg3 harg3 arg4 harg4 arg5 harg5 arg6 harg6 arg7 harg7 arg8 harg8 arg9 harg9 hc x0 x1 x2 x3 x4 x5)]
  unfold kernelRun2_A
  dsimp only
  sl_unfold_words
  rw [View.canon_cons_unit_zero (S := S1x128) hz2, View.readCov_unit_zero (S := S1x128) _ hz2]
  simp only [View.readAt_eq_ld, harg1.read_unread, harg2.read_unread, harg3.read_unread, harg4.read_unread, harg5.read_unread, harg6.read_unread, harg7.read_unread, harg8.read_unread, harg9.read_unread, View.ld_unit_zero (S := S2000x128) hz2, View.ld_unit_zero (S := S128x128) hz2, View.ld_unit_zero (S := S1x128) hz2]

/-! ## The running sums -/

variable (V : (c : Dev nD) → (b : Ref sig .tc) → Buf (Elt F) ((c : Thread nD τ).loc b))

/-- The block's result at point `t`: the body's term of the six input blocks there. -/
def blockOut2 (c : Dev nD) (t : Fin cfg2.N) : Vec F S2000x128 .f32 :=
  k2_pay4 (iblk2 V c 0 t) (iblk2 V c 1 t) (iblk2 V c 2 t) (iblk2 V c 3 t) (iblk2 V c 4 t) (iblk2 V c 5 t)

/-- The two accumulators after point `n`: from the zero row, each block's column sums added in order. -/
def accAt2 (c : Dev nD) : (n : ℕ) → n < cfg2.N → Vec F S1x128 .f32 × Vec F S1x128 .f32
  | 0, h => (k2_pay5 (iblk2 V c 0 ⟨0, h⟩) (iblk2 V c 1 ⟨0, h⟩) (iblk2 V c 2 ⟨0, h⟩) (iblk2 V c 3 ⟨0, h⟩) (iblk2 V c 4 ⟨0, h⟩) (iblk2 V c 5 ⟨0, h⟩) (k2_pay2 (F := F)), k2_pay1 (blockOut2 V c ⟨0, h⟩) (k2_pay3 (F := F)))
  | n + 1, h => (k2_pay5 (iblk2 V c 0 ⟨n + 1, h⟩) (iblk2 V c 1 ⟨n + 1, h⟩) (iblk2 V c 2 ⟨n + 1, h⟩) (iblk2 V c 3 ⟨n + 1, h⟩) (iblk2 V c 4 ⟨n + 1, h⟩) (iblk2 V c 5 ⟨n + 1, h⟩) (accAt2 c n (Nat.lt_of_succ_lt h)).1,
      k2_pay1 (blockOut2 V c ⟨n + 1, h⟩) (accAt2 c n (Nat.lt_of_succ_lt h)).2)

/-- What the three output buffers hold after point `n`: the block's result there and the running sums. -/
theorem outsAt2_eq (c : Dev nD) : ∀ (n : ℕ) (h : n < cfg2.N),
    outsAt2 V c n h = (blockOut2 V c ⟨n, h⟩, (accAt2 V c n h).1, (accAt2 V c n h).2)
  | 0, h => by
    rw [outsAt2_A V c ⟨0, h⟩ rfl]
    exact Prod.ext (out2_A_6 ..) (Prod.ext (out2_A_7 ..) (out2_A_8 ..))
  | n + 1, h => by
    rw [outsAt2_B V c ⟨n + 1, h⟩ (Nat.succ_ne_zero n)]
    refine Prod.ext (out2_B_6 ..) (Prod.ext ((out2_B_7 ..).trans ?_) ((out2_B_8 ..).trans ?_))
    · show k2_pay5 _ _ _ _ _ _ (outsAt2 V c n _).2.1 = k2_pay5 _ _ _ _ _ _ (accAt2 V c n _).1
      rw [outsAt2_eq c n]
    · show k2_pay1 _ (outsAt2 V c n _).2.2 = k2_pay1 _ (accAt2 V c n _).2
      rw [outsAt2_eq c n]
      rfl

end Cert.KernelIdeal.Hand

end
-- ==== Proof.GinValue2.lean ====
/-
  Pipeline 2 at an index, over the extended reals. The layer's pre-normalisation node array is ONE function of the
  arrays the region is entered with: entry (r, q) is the two-layer perceptron of row r of h + agg. A grid point's block
  of the result is rows 2000 t .. 2000 t + 1999 of that function (an entry depends on its own row only, and the
  weights' and biases' blocks are the whole arrays at every point). So the accumulators after point n are the running
  sums, block by block, of that function's columns, resp. of its columns' squares.
-/
import proofs.«130004_j49941879718343_1_alg».proof.Proof.GinPieces2
import proofs.«130004_j49941879718343_1_alg».proof.Proof.MathMlp
import proofs.«130004_j49941879718343_1_alg».proof.Proof.MathStats
import Idealize.ShloMosaic.Lib.Pipeline.Value
import Idealize.ShloMosaic.Lib.ValueIdx

set_option maxRecDepth 16384

noncomputable section

namespace Cert.KernelIdeal.HandV

open Cert.KernelIdeal Cert.KernelIdeal.Gen Cert.KernelIdeal.Hand Cert.Math
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

/-- The layer's pre-normalisation node array, entry by entry, from the region's input arrays. -/
def hm2 (c : Dev nD) : Fin 100000 → Fin 128 → EReal :=
  mlpEntry (fun r j => V c main_v25 (ix2 r j)) (fun r j => V c main_v39 (ix2 r j)) (fun j k => V c main_arg9 (ix2 j k))
    (fun k => V c main_v40 (ix2 (0 : Fin 1) k)) (fun k q => V c main_arg11 (ix2 k q)) (fun q => V c main_v41 (ix2 (0 : Fin 1) q))

/-- Row i of block t is node row 2000 t + i. -/
def rowOf2 (t : Fin cfg2.N) (i : Fin 2000) : Fin 100000 :=
  ⟨2000 * t.val + i.val, by have := lt_of_lt_of_eq t.isLt (show cfg2.N = 50 from N_2); have := i.isLt; omega⟩

/-- The printed index maps over the grid: the node-row windows move with the point, every other window stays at block 0. -/
theorem idx2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = t.val ∧ win2_6.index t (1 : Fin 2) = 0
    ∧ win2_7.index t (0 : Fin 2) = 0 ∧ win2_7.index t (1 : Fin 2) = 0
    ∧ win2_8.index t (0 : Fin 2) = 0 ∧ win2_8.index t (1 : Fin 2) = 0 :=
  (by decide +kernel : ∀ t : Fin grid2.N, _)

/-! ## The input blocks, read where the arrays hold them -/

theorem blk2_0 (c : Dev nD) (t : Fin cfg2.N) (i : Fin 2000) (j : Fin 128) :
    iblk2 V c 0 t (ix2 i j) = V c main_v25 (ix2 (rowOf2 t i) j) := by
  obtain ⟨e00, e01, e10, e11, e20, e21, e30, e31, e40, e41, e50, e51, e60, e61, e70, e71, e80, e81⟩ := idx2 t
  show V c main_v25 (((cfg2.win 0).blk t).view.emb (ix2 i j)) = V c main_v25 (ix2 (rowOf2 t i) j)
  refine congrArg (V c main_v25) ?_
  funext a; apply Fin.ext
  match a with
  | ⟨0, _⟩ => show win2_0.index t (0 : Fin 2) * 2000 + 1 * i.val = 2000 * t.val + i.val; omega
  | ⟨1, _⟩ => show win2_0.index t (1 : Fin 2) * 128 + 1 * j.val = j.val; omega

theorem blk2_1 (c : Dev nD) (t : Fin cfg2.N) (i : Fin 2000) (j : Fin 128) :
    iblk2 V c 1 t (ix2 i j) = V c main_v39 (ix2 (rowOf2 t i) j) := by
  obtain ⟨e00, e01, e10, e11, e20, e21, e30, e31, e40, e41, e50, e51, e60, e61, e70, e71, e80, e81⟩ := idx2 t
  show V c main_v39 (((cfg2.win 1).blk t).view.emb (ix2 i j)) = V c main_v39 (ix2 (rowOf2 t i) j)
  refine congrArg (V c main_v39) ?_
  funext a; apply Fin.ext
  match a with
  | ⟨0, _⟩ => show win2_1.index t (0 : Fin 2) * 2000 + 1 * i.val = 2000 * t.val + i.val; omega
  | ⟨1, _⟩ => show win2_1.index t (1 : Fin 2) * 128 + 1 * j.val = j.val; omega

theorem blk2_2 (c : Dev nD) (t : Fin cfg2.N) (i : Fin 128) (j : Fin 128) :
    iblk2 V c 2 t (ix2 i j) = V c main_arg9 (ix2 i j) := by
  obtain ⟨e00, e01, e10, e11, e20, e21, e30, e31, e40, e41, e50, e51, e60, e61, e70, e71, e80, e81⟩ := idx2 t
  show V c main_arg9 (((cfg2.win 2).blk t).view.emb (ix2 i j)) = V c main_arg9 (ix2 i j)
  refine congrArg (V c main_arg9) ?_
  funext a; apply Fin.ext
  match a with
  | ⟨0, _⟩ => show win2_2.index t (0 : Fin 2) * 128 + 1 * i.val = i.val; omega
  | ⟨1, _⟩ => show win2_2.index t (1 : Fin 2) * 128 + 1 * j.val = j.val; omega

theorem blk2_3 (c : Dev nD) (t : Fin cfg2.N) (i : Fin 1) (j : Fin 128) :
    iblk2 V c 3 t (ix2 i j) = V c main_v40 (ix2 i j) := by
  obtain ⟨e00, e01, e10, e11, e20, e21, e30, e31, e40, e41, e50, e51, e60, e61, e70, e71, e80, e81⟩ := idx2 t
  show V c main_v40 (((cfg2.win 3).blk t).view.emb (ix2 i j)) = V c main_v40 (ix2 i j)
  refine congrArg (V c main_v40) ?_
  funext a; apply Fin.ext
  match a with
  | ⟨0, _⟩ => show win2_3.index t (0 : Fin 2) * 1 + 1 * i.val = i.val; omega
  | ⟨1, _⟩ => show win2_3.index t (1 : Fin 2) * 128 + 1 * j.val = j.val; omega

theorem blk2_4 (c : Dev nD) (t : Fin cfg2.N) (i : Fin 128) (j : Fin 128) :
    iblk2 V c 4 t (ix2 i j) = V c main_arg11 (ix2 i j) := by
  obtain ⟨e00, e01, e10, e11, e20, e21, e30, e31, e40, e41, e50, e51, e60, e61, e70, e71, e80, e81⟩ := idx2 t
  show V c main_arg11 (((cfg2.win 4).blk t).view.emb (ix2 i j)) = V c main_arg11 (ix2 i j)
  refine congrArg (V c main_arg11) ?_
  funext a; apply Fin.ext
  match a with
  | ⟨0, _⟩ => show win2_4.index t (0 : Fin 2) * 128 + 1 * i.val = i.val; omega
  | ⟨1, _⟩ => show win2_4.index t (1 : Fin 2) * 128 + 1 * j.val = j.val; omega

theorem blk2_5 (c : Dev nD) (t : Fin cfg2.N) (i : Fin 1) (j : Fin 128) :
    iblk2 V c 5 t (ix2 i j) = V c main_v41 (ix2 i j) := by
  obtain ⟨e00, e01, e10, e11, e20, e21, e30, e31, e40, e41, e50, e51, e60, e61, e70, e71, e80, e81⟩ := idx2 t
  show V c main_v41 (((cfg2.win 5).blk t).view.emb (ix2 i j)) = V c main_v41 (ix2 i j)
  refine congrArg (V c main_v41) ?_
  funext a; apply Fin.ext
  match a with
  | ⟨0, _⟩ => show win2_5.index t (0 : Fin 2) * 1 + 1 * i.val = i.val; omega
  | ⟨1, _⟩ => show win2_5.index t (1 : Fin 2) * 128 + 1 * j.val = j.val; omega

/-! ## A block's result is rows of the layer's array -/

theorem blockOut2_apply (c : Dev nD) (t : Fin cfg2.N) (i : Fin 2000) (q : Fin 128) :
    blockOut2 V c t (ix2 i q) = hm2 V c (rowOf2 t i) q := by
  unfold blockOut2
  refine (k2_pay4_apply (iblk2 V c 0 t) (iblk2 V c 1 t) (iblk2 V c 2 t) (iblk2 V c 3 t) (iblk2 V c 4 t) (iblk2 V c 5 t) i q).trans ?_
  unfold hm2
  have e2 : (fun j k => iblk2 V c 2 t (ix2 j k)) = fun j k => V c main_arg9 (ix2 j k) := funext fun j => funext fun k => blk2_2 V c t j k
  have e3 : (fun k => iblk2 V c 3 t (ix2 (0 : Fin 1) k)) = fun k => V c main_v40 (ix2 (0 : Fin 1) k) := funext fun k => blk2_3 V c t 0 k
  have e4 : (fun k q => iblk2 V c 4 t (ix2 k q)) = fun k q => V c main_arg11 (ix2 k q) := funext fun k => funext fun q => blk2_4 V c t k q
  have e5 : (fun q => iblk2 V c 5 t (ix2 (0 : Fin 1) q)) = fun q => V c main_v41 (ix2 (0 : Fin 1) q) := funext fun q => blk2_5 V c t 0 q
  rw [e2, e3, e4, e5]
  exact mlpEntry_congr_row _ _ _ _ _ _ _ _ i (rowOf2 t i) q (fun j => blk2_0 V c t i j) (fun j => blk2_1 V c t i j)

/-! ## The accumulators are running sums -/

theorem lt50_2 {n : ℕ} (h : n < cfg2.N) : n < 50 := lt_of_lt_of_eq h (show cfg2.N = 50 from N_2)

/-- The column sums after point n: blocks 0..n of the array's column q, added in order from zero. -/
theorem acc2_sum (c : Dev nD) (q : Fin 128) : ∀ (n : ℕ) (h : n < cfg2.N),
    (accAt2 V c n h).1 (ix2 (0 : Fin 1) q) = runSum (fun r => hm2 V c r q) (n + 1)
  | 0, h => by
    show k2_pay5 (iblk2 V c 0 ⟨0, h⟩) (iblk2 V c 1 ⟨0, h⟩) (iblk2 V c 2 ⟨0, h⟩) (iblk2 V c 3 ⟨0, h⟩) (iblk2 V c 4 ⟨0, h⟩) (iblk2 V c 5 ⟨0, h⟩) (k2_pay2 (F := Ideal)) (ix2 (0 : Fin 1) q) = _
    refine (k2_pay5_apply (iblk2 V c 0 ⟨0, h⟩) (iblk2 V c 1 ⟨0, h⟩) (iblk2 V c 2 ⟨0, h⟩) (iblk2 V c 3 ⟨0, h⟩) (iblk2 V c 4 ⟨0, h⟩) (iblk2 V c 5 ⟨0, h⟩) (k2_pay2 (F := Ideal)) 0 q).trans ?_
    show _ = runSum (fun r => hm2 V c r q) 0 + Cert.Lib.BlockSum.blk 50 2000 (N := 100000) rfl (fun r => hm2 V c r q) 0
    rw [blk_eq (fun r => hm2 V c r q) ⟨0, by decide⟩, k2_pay2_apply]
    refine congrArg₂ (· + ·) rfl (Finset.sum_congr rfl fun i _ => ?_)
    exact blockOut2_apply V c ⟨0, h⟩ i q
  | n + 1, h => by
    show k2_pay5 (iblk2 V c 0 ⟨n + 1, h⟩) (iblk2 V c 1 ⟨n + 1, h⟩) (iblk2 V c 2 ⟨n + 1, h⟩) (iblk2 V c 3 ⟨n + 1, h⟩) (iblk2 V c 4 ⟨n + 1, h⟩) (iblk2 V c 5 ⟨n + 1, h⟩) (accAt2 V c n (Nat.lt_of_succ_lt h)).1 (ix2 (0 : Fin 1) q) = _
    refine (k2_pay5_apply (iblk2 V c 0 ⟨n + 1, h⟩) (iblk2 V c 1 ⟨n + 1, h⟩) (iblk2 V c 2 ⟨n + 1, h⟩) (iblk2 V c 3 ⟨n + 1, h⟩) (iblk2 V c 4 ⟨n + 1, h⟩) (iblk2 V c 5 ⟨n + 1, h⟩) (accAt2 V c n (Nat.lt_of_succ_lt h)).1 0 q).trans ?_
    show _ = runSum (fun r => hm2 V c r q) (n + 1) + Cert.Lib.BlockSum.blk 50 2000 (N := 100000) rfl (fun r => hm2 V c r q) (n + 1)
    rw [blk_eq (fun r => hm2 V c r q) ⟨n + 1, lt50_2 h⟩, acc2_sum c q n (Nat.lt_of_succ_lt h)]
    refine congrArg₂ (· + ·) rfl (Finset.sum_congr rfl fun i _ => ?_)
    exact blockOut2_apply V c ⟨n + 1, h⟩ i q

/-- The column sums of squares after point n, likewise. -/
theorem acc2_sq (c : Dev nD) (q : Fin 128) : ∀ (n : ℕ) (h : n < cfg2.N),
    (accAt2 V c n h).2 (ix2 (0 : Fin 1) q) = runSum (fun r => hm2 V c r q * hm2 V c r q) (n + 1)
  | 0, h => by
    show k2_pay1 (blockOut2 V c ⟨0, h⟩) (k2_pay3 (F := Ideal)) (ix2 (0 : Fin 1) q) = _
    refine (k2_pay1_apply (blockOut2 V c ⟨0, h⟩) (k2_pay3 (F := Ideal)) 0 q).trans ?_
    show _ = runSum (fun r => hm2 V c r q * hm2 V c r q) 0 + Cert.Lib.BlockSum.blk 50 2000 (N := 100000) rfl (fun r => hm2 V c r q * hm2 V c r q) 0
    rw [blk_eq (fun r => hm2 V c r q * hm2 V c r q) ⟨0, by decide⟩, k2_pay3_apply]
    refine congrArg₂ (· + ·) rfl (Finset.sum_congr rfl fun i _ => ?_)
    rw [blockOut2_apply V c ⟨0, h⟩ i q]; rfl
  | n + 1, h => by
    show k2_pay1 (blockOut2 V c ⟨n + 1, h⟩) (accAt2 V c n (Nat.lt_of_succ_lt h)).2 (ix2 (0 : Fin 1) q) = _
    refine (k2_pay1_apply (blockOut2 V c ⟨n + 1, h⟩) (accAt2 V c n (Nat.lt_of_succ_lt h)).2 0 q).trans ?_
    show _ = runSum (fun r => hm2 V c r q * hm2 V c r q) (n + 1) + Cert.Lib.BlockSum.blk 50 2000 (N := 100000) rfl (fun r => hm2 V c r q * hm2 V c r q) (n + 1)
    rw [blk_eq (fun r => hm2 V c r q * hm2 V c r q) ⟨n + 1, lt50_2 h⟩, acc2_sq c q n (Nat.lt_of_succ_lt h)]
    refine congrArg₂ (· + ·) rfl (Finset.sum_congr rfl fun i _ => ?_)
    rw [blockOut2_apply V c ⟨n + 1, h⟩ i q]; rfl

end Cert.KernelIdeal.HandV

end
-- ==== Proof.GinArrays2.lean ====
/-
  Pipeline 2: the two one-row result arrays. Each accumulator is written back once, after the last of the 50 points,
  when it holds the running sum over all blocks — the sum over all 100000 rows of the layer's array's column, resp. of
  the column's squares (the regrouping of a sum over 50 x 2000 rows into one sum needs no finiteness).
-/
import proofs.«130004_j49941879718343_1_alg».proof.Proof.GinValue2

set_option maxRecDepth 16384

noncomputable section

namespace Cert.KernelIdeal.HandV

open Cert.KernelIdeal Cert.KernelIdeal.Gen Cert.KernelIdeal.Hand Cert.Math
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

/-- The last grid point. -/
def tLast2 : Fin cfg2.N := ⟨49, by rw [show cfg2.N = 50 from N_2]; decide⟩

/-- The column sums of the layer's array, as the contents of the [1,128] result array. -/
def colSum2 (c : Dev nD) : FVec Ideal S1x128 .f32 := fun i =>
  (∑ r : Fin 100000, hm2 V c r (⟨(i 1).val, (i 1).isLt⟩ : Fin 128) : EReal)

/-- After the last point the accumulator holds them: the running sum over all 50 blocks. -/
theorem acc2_last_7 (c : Dev nD) : (accAt2 V c 49 tLast2.isLt).1 = colSum2 V c := by
  funext y
  obtain ⟨u, q, rfl⟩ : ∃ (u : Fin 1) (q : Fin 128), y = ix2 u q := ⟨y 0, y 1, eq_ix2 y⟩
  obtain rfl : u = 0 := Subsingleton.elim _ _
  refine (acc2_sum V c q 49 tLast2.isLt).trans ?_
  exact runSum_final _

/-- The one write-back, at the last point: block (0, 0) of the [1,128] array, read through zero offsets, is the array. -/
theorem flushed2_7 (c : Dev nD) (t : Fin cfg2.N) (hf : (cfg2.win 7).flush t = true) :
    (dat2 (F := Ideal) V c).flushed 7 t = ((cfg2.win 7).blk t).view.read (Elt Ideal) (colSum2 V c) := by
  have hN : cfg2.N = 50 := N_2
  have h49 : t.val = 49 := by have := (flush2_7 t).mp hf; have := t.isLt; omega
  obtain rfl : t = tLast2 := Fin.ext h49
  show (cfg2.win 7).cut (grid2.coords tLast2) ((dat2 V c).after 7 tLast2) = _
  rw [after2_7, outsAt2_eq]
  show (cfg2.win 7).cut (grid2.coords tLast2) (accAt2 V c 49 _).1 = _
  rw [acc2_last_7]
  have hz' : (fun a => win2_7.index tLast2 a * main_v42_1.ty.shape.size a) = fun _ => 0 := funext fun a => by fin_cases a <;> decide +kernel
  exact (Memref.read_access_unit_zero (Elt Ideal) main_v42_1 hz' (fun a => by rw [congrFun hz' a]; simp) (colSum2 V c)).symm

/-- So the result array ends holding them. -/
theorem gin2_colSum (c : Dev nD) : (dat2 (F := Ideal) V c).arrAt 7 cfg2.N = colSum2 V c :=
  (dat2 V c).arrAt_eq_of_cover 7 (colSum2 V c) (flushed2_7 V c) fun i =>
    ⟨tLast2, (flush2_7 tLast2).mpr rfl, by
      show i ∈ ((View.whole main_v42_1).slice (win2_7.rect tLast2)).set
      rw [View.set_slice_whole, Rect.mem_set_unit]
      intro a
      have h0 : (i 0 : Nat) < 1 := (i 0).isLt
      have h1 : (i 1 : Nat) < 128 := (i 1).isLt
      match a with
      | ⟨0, _⟩ => show win2_7.index tLast2 0 * win2_7.size 0 ≤ (i 0 : Nat) ∧ (i 0 : Nat) < win2_7.index tLast2 0 * win2_7.size 0 + win2_7.xsize (grid2.coords tLast2) 0
                  rw [show win2_7.index tLast2 0 * win2_7.size 0 = 0 from by decide +kernel, show win2_7.xsize (grid2.coords tLast2) 0 = 1 from by decide +kernel]; omega
      | ⟨1, _⟩ => show win2_7.index tLast2 1 * win2_7.size 1 ≤ (i 1 : Nat) ∧ (i 1 : Nat) < win2_7.index tLast2 1 * win2_7.size 1 + win2_7.xsize (grid2.coords tLast2) 1
                  rw [show win2_7.index tLast2 1 * win2_7.size 1 = 0 from by decide +kernel, show win2_7.xsize (grid2.coords tLast2) 1 = 128 from by decide +kernel]; omega⟩

/-- The column sums of squares of the layer's array, as the contents of the [1,128] result array. -/
def colSq2 (c : Dev nD) : FVec Ideal S1x128 .f32 := fun i =>
  (∑ r : Fin 100000, hm2 V c r (⟨(i 1).val, (i 1).isLt⟩ : Fin 128) * hm2 V c r (⟨(i 1).val, (i 1).isLt⟩ : Fin 128) : EReal)

/-- After the last point the accumulator holds them: the running sum over all 50 blocks. -/
theorem acc2_last_8 (c : Dev nD) : (accAt2 V c 49 tLast2.isLt).2 = colSq2 V c := by
  funext y
  obtain ⟨u, q, rfl⟩ : ∃ (u : Fin 1) (q : Fin 128), y = ix2 u q := ⟨y 0, y 1, eq_ix2 y⟩
  obtain rfl : u = 0 := Subsingleton.elim _ _
  refine (acc2_sq V c q 49 tLast2.isLt).trans ?_
  exact runSum_final _

/-- The one write-back, at the last point: block (0, 0) of the [1,128] array, read through zero offsets, is the array. -/
theorem flushed2_8 (c : Dev nD) (t : Fin cfg2.N) (hf : (cfg2.win 8).flush t = true) :
    (dat2 (F := Ideal) V c).flushed 8 t = ((cfg2.win 8).blk t).view.read (Elt Ideal) (colSq2 V c) := by
  have hN : cfg2.N = 50 := N_2
  have h49 : t.val = 49 := by have := (flush2_8 t).mp hf; have := t.isLt; omega
  obtain rfl : t = tLast2 := Fin.ext h49
  show (cfg2.win 8).cut (grid2.coords tLast2) ((dat2 V c).after 8 tLast2) = _
  rw [after2_8, outsAt2_eq]
  show (cfg2.win 8).cut (grid2.coords tLast2) (accAt2 V c 49 _).2 = _
  rw [acc2_last_8]
  have hz' : (fun a => win2_8.index tLast2 a * main_v42_2.ty.shape.size a) = fun _ => 0 := funext fun a => by fin_cases a <;> decide +kernel
  exact (Memref.read_access_unit_zero (Elt Ideal) main_v42_2 hz' (fun a => by rw [congrFun hz' a]; simp) (colSq2 V c)).symm

/-- So the result array ends holding them. -/
theorem gin2_colSq (c : Dev nD) : (dat2 (F := Ideal) V c).arrAt 8 cfg2.N = colSq2 V c :=
  (dat2 V c).arrAt_eq_of_cover 8 (colSq2 V c) (flushed2_8 V c) fun i =>
    ⟨tLast2, (flush2_8 tLast2).mpr rfl, by
      show i ∈ ((View.whole main_v42_2).slice (win2_8.rect tLast2)).set
      rw [View.set_slice_whole, Rect.mem_set_unit]
      intro a
      have h0 : (i 0 : Nat) < 1 := (i 0).isLt
      have h1 : (i 1 : Nat) < 128 := (i 1).isLt
      match a with
      | ⟨0, _⟩ => show win2_8.index tLast2 0 * win2_8.size 0 ≤ (i 0 : Nat) ∧ (i 0 : Nat) < win2_8.index tLast2 0 * win2_8.size 0 + win2_8.xsize (grid2.coords tLast2) 0
                  rw [show win2_8.index tLast2 0 * win2_8.size 0 = 0 from by decide +kernel, show win2_8.xsize (grid2.coords tLast2) 0 = 1 from by decide +kernel]; omega
      | ⟨1, _⟩ => show win2_8.index tLast2 1 * win2_8.size 1 ≤ (i 1 : Nat) ∧ (i 1 : Nat) < win2_8.index tLast2 1 * win2_8.size 1 + win2_8.xsize (grid2.coords tLast2) 1
                  rw [show win2_8.index tLast2 1 * win2_8.size 1 = 0 from by decide +kernel, show win2_8.xsize (grid2.coords tLast2) 1 = 128 from by decide +kernel]; omega⟩

end Cert.KernelIdeal.HandV

end
-- ==== Proof.GinPieces4.lean ====
/-
  Pipeline 4: what the node-update kernel's two control cases leave in the three output buffers, as the body's own
  arithmetic — the block's result is one term of the six input blocks; each accumulator is "what it held, plus the
  block's column sums" (of the result, resp. of its square), where at the first point "what it held" is the zero row
  the case has just stored — and THE RUNNING SUMS: by induction on the grid point, the accumulators after point n
  are the zero row with the column sums of blocks 0..n added one block at a time, in order.
-/
import proofs.«130004_j49941879718343_1_alg».proof.Proof.GinFrame4
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.Sem
open Idealize.ShloMosaic.Pipeline (Dat Cfg Window BodyObligation cellOf)

variable {F : FTy → Type} [FloatOps F]

theorem hz2_4 : (![0, 0] : Fin 2 → Nat) = fun _ => 0 := funext fun a => by fin_cases a <;> rfl
local notation "hz2" => hz2_4

/-! ## A later point: every output is one covering store -/

theorem out4_B_6 (c : Dev nD) (i : grid4.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (hc : ¬cond4 i)
    (x0 x1 : Vec F S2000x128 .f32) (x2 : Vec F S128x128 .f32) (x3 : Vec F S1x128 .f32) (x4 : Vec F S128x128 .f32) (x5 : Vec F S1x128 .f32) (xo7 xo8 : Vec F S1x128 .f32) :
    (out4_B c i arg1 harg1 arg2 harg2 arg3 harg3 arg4 harg4 arg5 harg5 arg6 harg6 arg7 harg7 arg8 harg8 arg9 harg9 hc x0 x1 x2 x3 x4 x5 xo7 xo8).1 = k4_pay4 x0 x1 x2 x3 x4 x5 := by
  unfold out4_B
  dsimp only
  rw [View.read_writes_eq_canon _ _ _ (cover4_B_6 c i arg1 harg1 arg2 harg2 arg3 harg3 arg4 harg4 arg5 harg5 arg6 harg6 arg7 harg7 arg8 harg8 arg9 harg9 hc x0 x1 x2 x3 x4 x5 xo7 xo8)]
  unfold kernelRun4_B
  dsimp only
  rw [View.canon_unit_zero hz2]
  simp only [View.readAt_eq_ld, harg1.read_unread, harg2.read_unread, harg3.read_unread, harg4.read_unread, harg5.read_unread, harg6.read_unread, harg7.read_unread, harg8.read_unread, harg9.read_unread, View.ld_unit_zero (S := S2000x128) hz2, View.ld_unit_zero (S := S128x128) hz2, View.ld_unit_zero (S := S1x128) hz2]

theorem out4_B_7 (c : Dev nD) (i : grid4.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (hc : ¬cond4 i)
    (x0 x1 : Vec F S2000x128 .f32) (x2 : Vec F S128x128 .f32) (x3 : Vec F S1x128 .f32) (x4 : Vec F S128x128 .f32) (x5 : Vec F S1x128 .f32) (xo7 xo8 : Vec F S1x128 .f32) :
    (out4_B c i arg1 harg1 arg2 harg2 arg3 harg3 arg4 harg4 arg5 harg5 arg6 harg6 arg7 harg7 arg8 harg8 arg9 harg9 hc x0 x1 x2 x3 x4 x5 xo7 xo8).2.1 = k4_pay5 x0 x1 x2 x3 x4 x5 xo7 := by
  unfold out4_B
  dsimp only
  rw [View.read_writes_eq_canon _ _ _ (cover4_B_7 c i arg1 harg1 arg2 harg2 arg3 harg3 arg4 harg4 arg5 harg5 arg6 harg6 arg7 harg7 arg8 harg8 arg9 harg9 hc x0 x1 x2 x3 x4 x5 xo7 xo8)]
  unfold kernelRun4_B
  dsimp only
  rw [View.canon_unit_zero hz2]
  simp only [View.readAt_eq_ld, harg1.read_unread, harg2.read_unread, harg3.read_unread, harg4.read_unread, harg5.read_unread, harg6.read_unread, harg7.read_unread, harg8.read_unread, harg9.read_unread, View.ld_unit_zero (S := S2000x128) hz2, View.ld_unit_zero (S := S128x128) hz2, View.ld_unit_zero (S := S1x128) hz2]

theorem out4_B_8 (c : Dev nD) (i : grid4.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (hc : ¬cond4 i)
    (x0 x1 : Vec F S2000x128 .f32) (x2 : Vec F S128x128 .f32) (x3 : Vec F S1x128 .f32) (x4 : Vec F S128x128 .f32) (x5 : Vec F S1x128 .f32) (xo7 xo8 : Vec F S1x128 .f32) :
    (out4_B c i arg1 harg1 arg2 harg2 arg3 harg3 arg4 harg4 arg5 harg5 arg6 harg6 arg7 harg7 arg8 harg8 arg9 harg9 hc x0 x1 x2 x3 x4 x5 xo7 xo8).2.2 = k4_pay1 (k4_pay4 x0 x1 x2 x3 x4 x5) xo8 := by
  unfold out4_B
  dsimp only
  rw [View.read_writes_eq_canon _ _ _ (cover4_B_8 c i arg1 harg1 arg2 harg2 arg3 harg3 arg4 harg4 arg5 harg5 arg6 harg6 arg7 harg7 arg8 harg8 arg9 harg9 hc x0 x1 x2 x3 x4 x5 xo7 xo8)]
  unfold kernelRun4_B
  dsimp only
  rw [View.canon_unit_zero hz2]
  simp only [View.readAt_eq_ld, harg1.read_unread, harg2.read_unread, harg3.read_unread, harg4.read_unread, harg5.read_unread, harg6.read_unread, harg7.read_unread, harg8.read_unread, harg9.read_unread, View.ld_unit_zero (S := S2000x128) hz2, View.ld_unit_zero (S := S128x128) hz2, View.ld_unit_zero (S := S1x128) hz2]

/-! ## The first point: the accumulators are zeroed, read back, added to -/

theorem out4_A_6 (c : Dev nD) (i : grid4.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (hc : cond4 i)
    (x0 x1 : Vec F S2000x128 .f32) (x2 : Vec F S128x128 .f32) (x3 : Vec F S1x128 .f32) (x4 : Vec F S128x128 .f32) (x5 : Vec F S1x128 .f32) :
    (out4_A c i arg1 harg1 arg2 harg2 arg3 harg3 arg4 harg4 arg5 harg5 arg6 harg6 arg7 harg7 arg8 harg8 arg9 harg9 hc x0 x1 x2 x3 x4 x5).1 = k4_pay4 x0 x1 x2 x3 x4 x5 := by
  unfold out4_A
  dsimp only
  rw [View.read_writes_eq_canon _ _ _ (cover4_A_6 c i arg1 harg1 arg2 harg2 arg3 harg3 arg4 harg4 arg5 harg5 arg6 harg6 arg7 harg7 arg8 harg8 arg9 harg9 hc x0 x1 x2 x3 x4 x5)]
  unfold kernelRun4_A
  dsimp only
  rw [View.canon_unit_zero hz2]
  simp only [View.readAt_eq_ld, harg1.read_unread, harg2.read_unread, harg3.read_unread, harg4.read_unread, harg5.read_unread, harg6.read_unread, harg7.read_unread, harg8.read_unread, harg9.read_unread, View.ld_unit_zero (S := S2000x128) hz2, View.ld_unit_zero (S := S128x128) hz2, View.ld_unit_zero (S := S1x128) hz2]

theorem out4_A_7 (c : Dev nD) (i : grid4.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (hc : cond4 i)
    (x0 x1 : Vec F S2000x128 .f32) (x2 : Vec F S128x128 .f32) (x3 : Vec F S1x128 .f32) (x4 : Vec F S128x128 .f32) (x5 : Vec F S1x128 .f32) :
    (out4_A c i arg1 harg1 arg2 harg2 arg3 harg3 arg4 harg4 arg5 harg5 arg6 harg6 arg7 harg7 arg8 harg8 arg9 harg9 hc x0 x1 x2 x3 x4 x5).2.1 = k4_pay5 x0 x1 x2 x3 x4 x5 (k4_pay2 (F := F)) := by
  unfold out4_A
  dsimp only
  rw [View.read_writes_eq_canon _ _ _ (cover4_A_7 c i arg1 harg1 arg2 harg2 arg3 harg3 arg4 harg4 arg5 harg5 arg6 harg6 arg7 harg7 arg8 harg8 arg9 harg9 hc x0 x1 x2 x3 x4 x5)]
  unfold kernelRun4_A
  dsimp only
  sl_unfold_words
  rw [View.canon_cons_unit_zero (S := S1x128) hz2, View.readCov_unit_zero (S := S1x128) _ hz2]
  simp only [View.readAt_eq_ld, harg1.read_unread, harg2.read_unread, harg3.read_unread, harg4.read_unread, harg5.read_unread, harg6.read_unread, harg7.read_unread, harg8.read_unread, harg9.read_unread, View.ld_unit_zero (S := S2000x128) hz2, View.ld_unit_zero (S := S128x128) hz2, View.ld_unit_zero (S := S1x128) hz2]

theorem out4_A_8 (c : Dev nD) (i : grid4.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (hc : cond4 i)
    (x0 x1 : Vec F S2000x128 .f32) (x2 : Vec F S128x128 .f32) (x3 : Vec F S1x128 .f32) (x4 : Vec F S128x128 .f32) (x5 : Vec F S1x128 .f32) :
    (out4_A c i arg1 harg1 arg2 harg2 arg3 harg3 arg4 harg4 arg5 harg5 arg6 harg6 arg7 harg7 arg8 harg8 arg9 harg9 hc x0 x1 x2 x3 x4 x5).2.2 = k4_pay1 (k4_pay4 x0 x1 x2 x3 x4 x5) (k4_pay3 (F := F)) := by
  unfold out4_A
  dsimp only
  rw [View.read_writes_eq_canon _ _ _ (cover4_A_8 c i arg1 harg1 arg2 harg2 arg3 harg3 arg4 harg4 arg5 harg5 arg6 harg6 arg7 harg7 arg8 harg8 arg9 harg9 hc x0 x1 x2 x3 x4 x5)]
  unfold kernelRun4_A
  dsimp only
  sl_unfold_words
  rw [View.canon_cons_unit_zero (S := S1x128) hz2, View.readCov_unit_zero (S := S1x128) _ hz2]
  simp only [View.readAt_eq_ld, harg1.read_unread, harg2.read_unread, harg3.read_unread, harg4.read_unread, harg5.read_unread, harg6.read_unread, harg7.read_unread, harg8.read_unread, harg9.read_unread, View.ld_unit_zero (S := S2000x128) hz2, View.ld_unit_zero (S := S128x128) hz2, View.ld_unit_zero (S := S1x128) hz2]

/-! ## The running sums -/

variable (V : (c : Dev nD) → (b : Ref sig .tc) → Buf (Elt F) ((c : Thread nD τ).loc b))

/-- The block's result at point `t`: the body's term of the six input blocks there. -/
def blockOut4 (c : Dev nD) (t : Fin cfg4.N) : Vec F S2000x128 .f32 :=
  k4_pay4 (iblk4 V c 0 t) (iblk4 V c 1 t) (iblk4 V c 2 t) (iblk4 V c 3 t) (iblk4 V c 4 t) (iblk4 V c 5 t)

/-- The two accumulators after point `n`: from the zero row, each block's column sums added in order. -/
def accAt4 (c : Dev nD) : (n : ℕ) → n < cfg4.N → Vec F S1x128 .f32 × Vec F S1x128 .f32
  | 0, h => (k4_pay5 (iblk4 V c 0 ⟨0, h⟩) (iblk4 V c 1 ⟨0, h⟩) (iblk4 V c 2 ⟨0, h⟩) (iblk4 V c 3 ⟨0, h⟩) (iblk4 V c 4 ⟨0, h⟩) (iblk4 V c 5 ⟨0, h⟩) (k4_pay2 (F := F)), k4_pay1 (blockOut4 V c ⟨0, h⟩) (k4_pay3 (F := F)))
  | n + 1, h => (k4_pay5 (iblk4 V c 0 ⟨n + 1, h⟩) (iblk4 V c 1 ⟨n + 1, h⟩) (iblk4 V c 2 ⟨n + 1, h⟩) (iblk4 V c 3 ⟨n + 1, h⟩) (iblk4 V c 4 ⟨n + 1, h⟩) (iblk4 V c 5 ⟨n + 1, h⟩) (accAt4 c n (Nat.lt_of_succ_lt h)).1,
      k4_pay1 (blockOut4 V c ⟨n + 1, h⟩) (accAt4 c n (Nat.lt_of_succ_lt h)).2)

/-- What the three output buffers hold after point `n`: the block's result there and the running sums. -/
theorem outsAt4_eq (c : Dev nD) : ∀ (n : ℕ) (h : n < cfg4.N),
    outsAt4 V c n h = (blockOut4 V c ⟨n, h⟩, (accAt4 V c n h).1, (accAt4 V c n h).2)
  | 0, h => by
    rw [outsAt4_A V c ⟨0, h⟩ rfl]
    exact Prod.ext (out4_A_6 ..) (Prod.ext (out4_A_7 ..) (out4_A_8 ..))
  | n + 1, h => by
    rw [outsAt4_B V c ⟨n + 1, h⟩ (Nat.succ_ne_zero n)]
    refine Prod.ext (out4_B_6 ..) (Prod.ext ((out4_B_7 ..).trans ?_) ((out4_B_8 ..).trans ?_))
    · show k4_pay5 _ _ _ _ _ _ (outsAt4 V c n _).2.1 = k4_pay5 _ _ _ _ _ _ (accAt4 V c n _).1
      rw [outsAt4_eq c n]
    · show k4_pay1 _ (outsAt4 V c n _).2.2 = k4_pay1 _ (accAt4 V c n _).2
      rw [outsAt4_eq c n]
      rfl

end Cert.KernelIdeal.Hand

end
-- ==== Proof.GinValue4.lean ====
/-
  Pipeline 4 at an index, over the extended reals. The layer's pre-normalisation node array is ONE function of the
  arrays the region is entered with: entry (r, q) is the two-layer perceptron of row r of h + agg. A grid point's block
  of the result is rows 2000 t .. 2000 t + 1999 of that function (an entry depends on its own row only, and the
  weights' and biases' blocks are the whole arrays at every point). So the accumulators after point n are the running
  sums, block by block, of that function's columns, resp. of its columns' squares.
-/
import proofs.«130004_j49941879718343_1_alg».proof.Proof.GinPieces4
import proofs.«130004_j49941879718343_1_alg».proof.Proof.MathMlp
import proofs.«130004_j49941879718343_1_alg».proof.Proof.MathStats
import Idealize.ShloMosaic.Lib.Pipeline.Value
import Idealize.ShloMosaic.Lib.ValueIdx

set_option maxRecDepth 16384

noncomputable section

namespace Cert.KernelIdeal.HandV

open Cert.KernelIdeal Cert.KernelIdeal.Gen Cert.KernelIdeal.Hand Cert.Math
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

/-- The layer's pre-normalisation node array, entry by entry, from the region's input arrays. -/
def hm4 (c : Dev nD) : Fin 100000 → Fin 128 → EReal :=
  mlpEntry (fun r j => V c main_v51 (ix2 r j)) (fun r j => V c main_v65 (ix2 r j)) (fun j k => V c main_arg15 (ix2 j k))
    (fun k => V c main_v66 (ix2 (0 : Fin 1) k)) (fun k q => V c main_arg17 (ix2 k q)) (fun q => V c main_v67 (ix2 (0 : Fin 1) q))

/-- Row i of block t is node row 2000 t + i. -/
def rowOf4 (t : Fin cfg4.N) (i : Fin 2000) : Fin 100000 :=
  ⟨2000 * t.val + i.val, by have := lt_of_lt_of_eq t.isLt (show cfg4.N = 50 from N_4); have := i.isLt; omega⟩

/-- The printed index maps over the grid: the node-row windows move with the point, every other window stays at block 0. -/
theorem idx4 : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = 0 ∧ win4_5.index t (1 : Fin 2) = 0
    ∧ win4_6.index t (0 : Fin 2) = t.val ∧ win4_6.index t (1 : Fin 2) = 0
    ∧ win4_7.index t (0 : Fin 2) = 0 ∧ win4_7.index t (1 : Fin 2) = 0
    ∧ win4_8.index t (0 : Fin 2) = 0 ∧ win4_8.index t (1 : Fin 2) = 0 :=
  (by decide +kernel : ∀ t : Fin grid4.N, _)

/-! ## The input blocks, read where the arrays hold them -/

theorem blk4_0 (c : Dev nD) (t : Fin cfg4.N) (i : Fin 2000) (j : Fin 128) :
    iblk4 V c 0 t (ix2 i j) = V c main_v51 (ix2 (rowOf4 t i) j) := by
  obtain ⟨e00, e01, e10, e11, e20, e21, e30, e31, e40, e41, e50, e51, e60, e61, e70, e71, e80, e81⟩ := idx4 t
  show V c main_v51 (((cfg4.win 0).blk t).view.emb (ix2 i j)) = V c main_v51 (ix2 (rowOf4 t i) j)
  refine congrArg (V c main_v51) ?_
  funext a; apply Fin.ext
  match a with
  | ⟨0, _⟩ => show win4_0.index t (0 : Fin 2) * 2000 + 1 * i.val = 2000 * t.val + i.val; omega
  | ⟨1, _⟩ => show win4_0.index t (1 : Fin 2) * 128 + 1 * j.val = j.val; omega

theorem blk4_1 (c : Dev nD) (t : Fin cfg4.N) (i : Fin 2000) (j : Fin 128) :
    iblk4 V c 1 t (ix2 i j) = V c main_v65 (ix2 (rowOf4 t i) j) := by
  obtain ⟨e00, e01, e10, e11, e20, e21, e30, e31, e40, e41, e50, e51, e60, e61, e70, e71, e80, e81⟩ := idx4 t
  show V c main_v65 (((cfg4.win 1).blk t).view.emb (ix2 i j)) = V c main_v65 (ix2 (rowOf4 t i) j)
  refine congrArg (V c main_v65) ?_
  funext a; apply Fin.ext
  match a with
  | ⟨0, _⟩ => show win4_1.index t (0 : Fin 2) * 2000 + 1 * i.val = 2000 * t.val + i.val; omega
  | ⟨1, _⟩ => show win4_1.index t (1 : Fin 2) * 128 + 1 * j.val = j.val; omega

theorem blk4_2 (c : Dev nD) (t : Fin cfg4.N) (i : Fin 128) (j : Fin 128) :
    iblk4 V c 2 t (ix2 i j) = V c main_arg15 (ix2 i j) := by
  obtain ⟨e00, e01, e10, e11, e20, e21, e30, e31, e40, e41, e50, e51, e60, e61, e70, e71, e80, e81⟩ := idx4 t
  show V c main_arg15 (((cfg4.win 2).blk t).view.emb (ix2 i j)) = V c main_arg15 (ix2 i j)
  refine congrArg (V c main_arg15) ?_
  funext a; apply Fin.ext
  match a with
  | ⟨0, _⟩ => show win4_2.index t (0 : Fin 2) * 128 + 1 * i.val = i.val; omega
  | ⟨1, _⟩ => show win4_2.index t (1 : Fin 2) * 128 + 1 * j.val = j.val; omega

theorem blk4_3 (c : Dev nD) (t : Fin cfg4.N) (i : Fin 1) (j : Fin 128) :
    iblk4 V c 3 t (ix2 i j) = V c main_v66 (ix2 i j) := by
  obtain ⟨e00, e01, e10, e11, e20, e21, e30, e31, e40, e41, e50, e51, e60, e61, e70, e71, e80, e81⟩ := idx4 t
  show V c main_v66 (((cfg4.win 3).blk t).view.emb (ix2 i j)) = V c main_v66 (ix2 i j)
  refine congrArg (V c main_v66) ?_
  funext a; apply Fin.ext
  match a with
  | ⟨0, _⟩ => show win4_3.index t (0 : Fin 2) * 1 + 1 * i.val = i.val; omega
  | ⟨1, _⟩ => show win4_3.index t (1 : Fin 2) * 128 + 1 * j.val = j.val; omega

theorem blk4_4 (c : Dev nD) (t : Fin cfg4.N) (i : Fin 128) (j : Fin 128) :
    iblk4 V c 4 t (ix2 i j) = V c main_arg17 (ix2 i j) := by
  obtain ⟨e00, e01, e10, e11, e20, e21, e30, e31, e40, e41, e50, e51, e60, e61, e70, e71, e80, e81⟩ := idx4 t
  show V c main_arg17 (((cfg4.win 4).blk t).view.emb (ix2 i j)) = V c main_arg17 (ix2 i j)
  refine congrArg (V c main_arg17) ?_
  funext a; apply Fin.ext
  match a with
  | ⟨0, _⟩ => show win4_4.index t (0 : Fin 2) * 128 + 1 * i.val = i.val; omega
  | ⟨1, _⟩ => show win4_4.index t (1 : Fin 2) * 128 + 1 * j.val = j.val; omega

theorem blk4_5 (c : Dev nD) (t : Fin cfg4.N) (i : Fin 1) (j : Fin 128) :
    iblk4 V c 5 t (ix2 i j) = V c main_v67 (ix2 i j) := by
  obtain ⟨e00, e01, e10, e11, e20, e21, e30, e31, e40, e41, e50, e51, e60, e61, e70, e71, e80, e81⟩ := idx4 t
  show V c main_v67 (((cfg4.win 5).blk t).view.emb (ix2 i j)) = V c main_v67 (ix2 i j)
  refine congrArg (V c main_v67) ?_
  funext a; apply Fin.ext
  match a with
  | ⟨0, _⟩ => show win4_5.index t (0 : Fin 2) * 1 + 1 * i.val = i.val; omega
  | ⟨1, _⟩ => show win4_5.index t (1 : Fin 2) * 128 + 1 * j.val = j.val; omega

/-! ## A block's result is rows of the layer's array -/

theorem blockOut4_apply (c : Dev nD) (t : Fin cfg4.N) (i : Fin 2000) (q : Fin 128) :
    blockOut4 V c t (ix2 i q) = hm4 V c (rowOf4 t i) q := by
  unfold blockOut4
  refine (k4_pay4_apply (iblk4 V c 0 t) (iblk4 V c 1 t) (iblk4 V c 2 t) (iblk4 V c 3 t) (iblk4 V c 4 t) (iblk4 V c 5 t) i q).trans ?_
  unfold hm4
  have e2 : (fun j k => iblk4 V c 2 t (ix2 j k)) = fun j k => V c main_arg15 (ix2 j k) := funext fun j => funext fun k => blk4_2 V c t j k
  have e3 : (fun k => iblk4 V c 3 t (ix2 (0 : Fin 1) k)) = fun k => V c main_v66 (ix2 (0 : Fin 1) k) := funext fun k => blk4_3 V c t 0 k
  have e4 : (fun k q => iblk4 V c 4 t (ix2 k q)) = fun k q => V c main_arg17 (ix2 k q) := funext fun k => funext fun q => blk4_4 V c t k q
  have e5 : (fun q => iblk4 V c 5 t (ix2 (0 : Fin 1) q)) = fun q => V c main_v67 (ix2 (0 : Fin 1) q) := funext fun q => blk4_5 V c t 0 q
  rw [e2, e3, e4, e5]
  exact mlpEntry_congr_row _ _ _ _ _ _ _ _ i (rowOf4 t i) q (fun j => blk4_0 V c t i j) (fun j => blk4_1 V c t i j)

/-! ## The accumulators are running sums -/

theorem lt50_4 {n : ℕ} (h : n < cfg4.N) : n < 50 := lt_of_lt_of_eq h (show cfg4.N = 50 from N_4)

/-- The column sums after point n: blocks 0..n of the array's column q, added in order from zero. -/
theorem acc4_sum (c : Dev nD) (q : Fin 128) : ∀ (n : ℕ) (h : n < cfg4.N),
    (accAt4 V c n h).1 (ix2 (0 : Fin 1) q) = runSum (fun r => hm4 V c r q) (n + 1)
  | 0, h => by
    show k4_pay5 (iblk4 V c 0 ⟨0, h⟩) (iblk4 V c 1 ⟨0, h⟩) (iblk4 V c 2 ⟨0, h⟩) (iblk4 V c 3 ⟨0, h⟩) (iblk4 V c 4 ⟨0, h⟩) (iblk4 V c 5 ⟨0, h⟩) (k4_pay2 (F := Ideal)) (ix2 (0 : Fin 1) q) = _
    refine (k4_pay5_apply (iblk4 V c 0 ⟨0, h⟩) (iblk4 V c 1 ⟨0, h⟩) (iblk4 V c 2 ⟨0, h⟩) (iblk4 V c 3 ⟨0, h⟩) (iblk4 V c 4 ⟨0, h⟩) (iblk4 V c 5 ⟨0, h⟩) (k4_pay2 (F := Ideal)) 0 q).trans ?_
    show _ = runSum (fun r => hm4 V c r q) 0 + Cert.Lib.BlockSum.blk 50 2000 (N := 100000) rfl (fun r => hm4 V c r q) 0
    rw [blk_eq (fun r => hm4 V c r q) ⟨0, by decide⟩, k4_pay2_apply]
    refine congrArg₂ (· + ·) rfl (Finset.sum_congr rfl fun i _ => ?_)
    exact blockOut4_apply V c ⟨0, h⟩ i q
  | n + 1, h => by
    show k4_pay5 (iblk4 V c 0 ⟨n + 1, h⟩) (iblk4 V c 1 ⟨n + 1, h⟩) (iblk4 V c 2 ⟨n + 1, h⟩) (iblk4 V c 3 ⟨n + 1, h⟩) (iblk4 V c 4 ⟨n + 1, h⟩) (iblk4 V c 5 ⟨n + 1, h⟩) (accAt4 V c n (Nat.lt_of_succ_lt h)).1 (ix2 (0 : Fin 1) q) = _
    refine (k4_pay5_apply (iblk4 V c 0 ⟨n + 1, h⟩) (iblk4 V c 1 ⟨n + 1, h⟩) (iblk4 V c 2 ⟨n + 1, h⟩) (iblk4 V c 3 ⟨n + 1, h⟩) (iblk4 V c 4 ⟨n + 1, h⟩) (iblk4 V c 5 ⟨n + 1, h⟩) (accAt4 V c n (Nat.lt_of_succ_lt h)).1 0 q).trans ?_
    show _ = runSum (fun r => hm4 V c r q) (n + 1) + Cert.Lib.BlockSum.blk 50 2000 (N := 100000) rfl (fun r => hm4 V c r q) (n + 1)
    rw [blk_eq (fun r => hm4 V c r q) ⟨n + 1, lt50_4 h⟩, acc4_sum c q n (Nat.lt_of_succ_lt h)]
    refine congrArg₂ (· + ·) rfl (Finset.sum_congr rfl fun i _ => ?_)
    exact blockOut4_apply V c ⟨n + 1, h⟩ i q

/-- The column sums of squares after point n, likewise. -/
theorem acc4_sq (c : Dev nD) (q : Fin 128) : ∀ (n : ℕ) (h : n < cfg4.N),
    (accAt4 V c n h).2 (ix2 (0 : Fin 1) q) = runSum (fun r => hm4 V c r q * hm4 V c r q) (n + 1)
  | 0, h => by
    show k4_pay1 (blockOut4 V c ⟨0, h⟩) (k4_pay3 (F := Ideal)) (ix2 (0 : Fin 1) q) = _
    refine (k4_pay1_apply (blockOut4 V c ⟨0, h⟩) (k4_pay3 (F := Ideal)) 0 q).trans ?_
    show _ = runSum (fun r => hm4 V c r q * hm4 V c r q) 0 + Cert.Lib.BlockSum.blk 50 2000 (N := 100000) rfl (fun r => hm4 V c r q * hm4 V c r q) 0
    rw [blk_eq (fun r => hm4 V c r q * hm4 V c r q) ⟨0, by decide⟩, k4_pay3_apply]
    refine congrArg₂ (· + ·) rfl (Finset.sum_congr rfl fun i _ => ?_)
    rw [blockOut4_apply V c ⟨0, h⟩ i q]; rfl
  | n + 1, h => by
    show k4_pay1 (blockOut4 V c ⟨n + 1, h⟩) (accAt4 V c n (Nat.lt_of_succ_lt h)).2 (ix2 (0 : Fin 1) q) = _
    refine (k4_pay1_apply (blockOut4 V c ⟨n + 1, h⟩) (accAt4 V c n (Nat.lt_of_succ_lt h)).2 0 q).trans ?_
    show _ = runSum (fun r => hm4 V c r q * hm4 V c r q) (n + 1) + Cert.Lib.BlockSum.blk 50 2000 (N := 100000) rfl (fun r => hm4 V c r q * hm4 V c r q) (n + 1)
    rw [blk_eq (fun r => hm4 V c r q * hm4 V c r q) ⟨n + 1, lt50_4 h⟩, acc4_sq c q n (Nat.lt_of_succ_lt h)]
    refine congrArg₂ (· + ·) rfl (Finset.sum_congr rfl fun i _ => ?_)
    rw [blockOut4_apply V c ⟨n + 1, h⟩ i q]; rfl

end Cert.KernelIdeal.HandV

end
-- ==== Proof.GinArrays4.lean ====
/-
  Pipeline 4: the two one-row result arrays. Each accumulator is written back once, after the last of the 50 points,
  when it holds the running sum over all blocks — the sum over all 100000 rows of the layer's array's column, resp. of
  the column's squares (the regrouping of a sum over 50 x 2000 rows into one sum needs no finiteness).
-/
import proofs.«130004_j49941879718343_1_alg».proof.Proof.GinValue4

set_option maxRecDepth 16384

noncomputable section

namespace Cert.KernelIdeal.HandV

open Cert.KernelIdeal Cert.KernelIdeal.Gen Cert.KernelIdeal.Hand Cert.Math
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

/-- The last grid point. -/
def tLast4 : Fin cfg4.N := ⟨49, by rw [show cfg4.N = 50 from N_4]; decide⟩

/-- The column sums of the layer's array, as the contents of the [1,128] result array. -/
def colSum4 (c : Dev nD) : FVec Ideal S1x128 .f32 := fun i =>
  (∑ r : Fin 100000, hm4 V c r (⟨(i 1).val, (i 1).isLt⟩ : Fin 128) : EReal)

/-- After the last point the accumulator holds them: the running sum over all 50 blocks. -/
theorem acc4_last_7 (c : Dev nD) : (accAt4 V c 49 tLast4.isLt).1 = colSum4 V c := by
  funext y
  obtain ⟨u, q, rfl⟩ : ∃ (u : Fin 1) (q : Fin 128), y = ix2 u q := ⟨y 0, y 1, eq_ix2 y⟩
  obtain rfl : u = 0 := Subsingleton.elim _ _
  refine (acc4_sum V c q 49 tLast4.isLt).trans ?_
  exact runSum_final _

/-- The one write-back, at the last point: block (0, 0) of the [1,128] array, read through zero offsets, is the array. -/
theorem flushed4_7 (c : Dev nD) (t : Fin cfg4.N) (hf : (cfg4.win 7).flush t = true) :
    (dat4 (F := Ideal) V c).flushed 7 t = ((cfg4.win 7).blk t).view.read (Elt Ideal) (colSum4 V c) := by
  have hN : cfg4.N = 50 := N_4
  have h49 : t.val = 49 := by have := (flush4_7 t).mp hf; have := t.isLt; omega
  obtain rfl : t = tLast4 := Fin.ext h49
  show (cfg4.win 7).cut (grid4.coords tLast4) ((dat4 V c).after 7 tLast4) = _
  rw [after4_7, outsAt4_eq]
  show (cfg4.win 7).cut (grid4.coords tLast4) (accAt4 V c 49 _).1 = _
  rw [acc4_last_7]
  have hz' : (fun a => win4_7.index tLast4 a * main_v68_1.ty.shape.size a) = fun _ => 0 := funext fun a => by fin_cases a <;> decide +kernel
  exact (Memref.read_access_unit_zero (Elt Ideal) main_v68_1 hz' (fun a => by rw [congrFun hz' a]; simp) (colSum4 V c)).symm

/-- So the result array ends holding them. -/
theorem gin4_colSum (c : Dev nD) : (dat4 (F := Ideal) V c).arrAt 7 cfg4.N = colSum4 V c :=
  (dat4 V c).arrAt_eq_of_cover 7 (colSum4 V c) (flushed4_7 V c) fun i =>
    ⟨tLast4, (flush4_7 tLast4).mpr rfl, by
      show i ∈ ((View.whole main_v68_1).slice (win4_7.rect tLast4)).set
      rw [View.set_slice_whole, Rect.mem_set_unit]
      intro a
      have h0 : (i 0 : Nat) < 1 := (i 0).isLt
      have h1 : (i 1 : Nat) < 128 := (i 1).isLt
      match a with
      | ⟨0, _⟩ => show win4_7.index tLast4 0 * win4_7.size 0 ≤ (i 0 : Nat) ∧ (i 0 : Nat) < win4_7.index tLast4 0 * win4_7.size 0 + win4_7.xsize (grid4.coords tLast4) 0
                  rw [show win4_7.index tLast4 0 * win4_7.size 0 = 0 from by decide +kernel, show win4_7.xsize (grid4.coords tLast4) 0 = 1 from by decide +kernel]; omega
      | ⟨1, _⟩ => show win4_7.index tLast4 1 * win4_7.size 1 ≤ (i 1 : Nat) ∧ (i 1 : Nat) < win4_7.index tLast4 1 * win4_7.size 1 + win4_7.xsize (grid4.coords tLast4) 1
                  rw [show win4_7.index tLast4 1 * win4_7.size 1 = 0 from by decide +kernel, show win4_7.xsize (grid4.coords tLast4) 1 = 128 from by decide +kernel]; omega⟩

/-- The column sums of squares of the layer's array, as the contents of the [1,128] result array. -/
def colSq4 (c : Dev nD) : FVec Ideal S1x128 .f32 := fun i =>
  (∑ r : Fin 100000, hm4 V c r (⟨(i 1).val, (i 1).isLt⟩ : Fin 128) * hm4 V c r (⟨(i 1).val, (i 1).isLt⟩ : Fin 128) : EReal)

/-- After the last point the accumulator holds them: the running sum over all 50 blocks. -/
theorem acc4_last_8 (c : Dev nD) : (accAt4 V c 49 tLast4.isLt).2 = colSq4 V c := by
  funext y
  obtain ⟨u, q, rfl⟩ : ∃ (u : Fin 1) (q : Fin 128), y = ix2 u q := ⟨y 0, y 1, eq_ix2 y⟩
  obtain rfl : u = 0 := Subsingleton.elim _ _
  refine (acc4_sq V c q 49 tLast4.isLt).trans ?_
  exact runSum_final _

/-- The one write-back, at the last point: block (0, 0) of the [1,128] array, read through zero offsets, is the array. -/
theorem flushed4_8 (c : Dev nD) (t : Fin cfg4.N) (hf : (cfg4.win 8).flush t = true) :
    (dat4 (F := Ideal) V c).flushed 8 t = ((cfg4.win 8).blk t).view.read (Elt Ideal) (colSq4 V c) := by
  have hN : cfg4.N = 50 := N_4
  have h49 : t.val = 49 := by have := (flush4_8 t).mp hf; have := t.isLt; omega
  obtain rfl : t = tLast4 := Fin.ext h49
  show (cfg4.win 8).cut (grid4.coords tLast4) ((dat4 V c).after 8 tLast4) = _
  rw [after4_8, outsAt4_eq]
  show (cfg4.win 8).cut (grid4.coords tLast4) (accAt4 V c 49 _).2 = _
  rw [acc4_last_8]
  have hz' : (fun a => win4_8.index tLast4 a * main_v68_2.ty.shape.size a) = fun _ => 0 := funext fun a => by fin_cases a <;> decide +kernel
  exact (Memref.read_access_unit_zero (Elt Ideal) main_v68_2 hz' (fun a => by rw [congrFun hz' a]; simp) (colSq4 V c)).symm

/-- So the result array ends holding them. -/
theorem gin4_colSq (c : Dev nD) : (dat4 (F := Ideal) V c).arrAt 8 cfg4.N = colSq4 V c :=
  (dat4 V c).arrAt_eq_of_cover 8 (colSq4 V c) (flushed4_8 V c) fun i =>
    ⟨tLast4, (flush4_8 tLast4).mpr rfl, by
      show i ∈ ((View.whole main_v68_2).slice (win4_8.rect tLast4)).set
      rw [View.set_slice_whole, Rect.mem_set_unit]
      intro a
      have h0 : (i 0 : Nat) < 1 := (i 0).isLt
      have h1 : (i 1 : Nat) < 128 := (i 1).isLt
      match a with
      | ⟨0, _⟩ => show win4_8.index tLast4 0 * win4_8.size 0 ≤ (i 0 : Nat) ∧ (i 0 : Nat) < win4_8.index tLast4 0 * win4_8.size 0 + win4_8.xsize (grid4.coords tLast4) 0
                  rw [show win4_8.index tLast4 0 * win4_8.size 0 = 0 from by decide +kernel, show win4_8.xsize (grid4.coords tLast4) 0 = 1 from by decide +kernel]; omega
      | ⟨1, _⟩ => show win4_8.index tLast4 1 * win4_8.size 1 ≤ (i 1 : Nat) ∧ (i 1 : Nat) < win4_8.index tLast4 1 * win4_8.size 1 + win4_8.xsize (grid4.coords tLast4) 1
                  rw [show win4_8.index tLast4 1 * win4_8.size 1 = 0 from by decide +kernel, show win4_8.xsize (grid4.coords tLast4) 1 = 128 from by decide +kernel]; omega⟩

end Cert.KernelIdeal.HandV

end
-- ==== Proof.GinOut.lean ====
/-
  What the three node-update regions (0, 2, 4) leave in their first output arrays.

  A node-update region runs over 50 points. At point t its body stores, over the whole of its first output window's
  block, the perceptron of the 2000 rows it loaded, and the block is written back as block t of the [100000, 128]
  output array: row i of the block is row 2000 t + i. The 50 blocks tile the array, row r lying in block r / 2000, so
  after the region the array is, entry by entry, the layer's pre-normalisation function of the arrays the region found.
-/
import proofs.«130004_j49941879718343_1_alg».proof.Proof.GinValue0
import proofs.«130004_j49941879718343_1_alg».proof.Proof.GinValue2
import proofs.«130004_j49941879718343_1_alg».proof.Proof.GinValue4
import Idealize.ShloMosaic.Lib.Pipeline.Value
import Idealize.ShloMosaic.Lib.ValueIdx

set_option maxRecDepth 16384

noncomputable section

namespace Cert.KernelIdeal.HandV

open Cert.KernelIdeal Cert.KernelIdeal.Gen Cert.KernelIdeal.Hand Cert.Math
open Idealize.ShloMosaic Idealize.ShloMosaic.TcCoe Idealize.ShloMosaic.ValueIdx
open Idealize.SL Idealize.SL.Sem
open Idealize.ShloMosaic.Pipeline (Dat Cfg Window)

-- the core's buffer contents when the region is entered, as extended reals
variable (V : (c : Dev nD) → (b : Ref sig .tc) → Buf (Elt Ideal) ((c : Thread nD τ).loc b))

/-! ## Region 0 -/

/-- The block's result at any index of the block: the layer's array at the block's row. -/
theorem blockOut0_at (c : Dev nD) (t : Fin cfg0.N) (j : S2000x128.Idx) :
    blockOut0 V c t j
      = hm0 V c (rowOf0 t (⟨(j 0).val, (j 0).isLt⟩ : Fin 2000)) (⟨(j 1).val, (j 1).isLt⟩ : Fin 128) := by
  obtain ⟨p, q, rfl⟩ : ∃ (p : Fin 2000) (q : Fin 128), j = ix2 p q := ⟨j 0, j 1, eq_ix2 j⟩
  exact blockOut0_apply V c t p q

/-- The layer's array as contents of the region's first output array. -/
abbrev hmArr0 (c : Dev nD) : Buf (Elt Ideal) ((c : Thread nD τ).loc main_v16_0) := fun i =>
  hm0 V c (⟨(i 0).val, (i 0).isLt⟩ : Fin 100000) (⟨(i 1).val, (i 1).isLt⟩ : Fin 128)

/-- WHAT POINT t WRITES BACK is block t of the layer's array: row i of the block is row 2000 t + i. -/
theorem gin0_flushed (c : Dev nD) (t : Fin cfg0.N) :
    (dat0 (F := Ideal) V c).flushed 6 t = ((cfg0.win 6).blk t).view.read (Elt Ideal) (hmArr0 V c) := by
  show (cfg0.win 6).cut (grid0.coords t) ((dat0 (F := Ideal) V c).after 6 t) = _
  rw [after0_6, outsAt0_eq]
  obtain ⟨e00, e01, e10, e11, e20, e21, e30, e31, e40, e41, e50, e51, e60, e61, e70, e71, e80, e81⟩ := idx0 t
  funext j
  show blockOut0 V c t j = hmArr0 V c (((cfg0.win 6).blk t).view.emb j)
  refine (blockOut0_at V c t j).trans ?_
  have r0 : rowOf0 t (⟨(j 0).val, (j 0).isLt⟩ : Fin 2000)
      = (⟨((((cfg0.win 6).blk t).view.emb j) 0).val, ((((cfg0.win 6).blk t).view.emb j) 0).isLt⟩ : Fin 100000) :=
    Fin.ext (by
      show 2000 * t.val + (j 0).val = win0_6.index t (0 : Fin 2) * 2000 + 1 * (j 0).val
      omega)
  have r1 : (⟨(j 1).val, (j 1).isLt⟩ : Fin 128)
      = (⟨((((cfg0.win 6).blk t).view.emb j) 1).val, ((((cfg0.win 6).blk t).view.emb j) 1).isLt⟩ : Fin 128) :=
    Fin.ext (by
      show (j 1).val = win0_6.index t (1 : Fin 2) * 128 + 1 * (j 1).val
      omega)
  exact congrArg₂ (hm0 V c) r0 r1

/-- An index of the array is in point t's block iff each coordinate is in the block's range on its axis. -/
theorem gin0_mem_blk (t : Fin cfg0.N) (i : S100000x128.Idx) :
    i ∈ ((cfg0.win 6).blk t).view.set ↔ ∀ a : Fin 2, win0_6.index t a * S2000x128.size a ≤ (i a).val
      ∧ (i a).val < win0_6.index t a * S2000x128.size a + S2000x128.size a := by
  show i ∈ ((View.whole main_v16_0).slice (win0_6.rect t)).set ↔ _
  rw [View.set_slice_whole, Rect.mem_set_unit]
  exact Iff.rfl

/-- Every index of the array is in some point's block: row r is in block r / 2000. -/
theorem gin0_cover (i : S100000x128.Idx) :
    ∃ t : Fin cfg0.N, (cfg0.win 6).flush t = true ∧ i ∈ ((cfg0.win 6).blk t).view.set := by
  have hi0 : (i 0).val < 100000 := (i 0).isLt
  have hi1 : (i 1).val < 128 := (i 1).isLt
  have hq : (i 0).val / 2000 < 50 := by omega
  refine ⟨⟨(i 0).val / 2000, hq⟩, flush0_6 _, ?_⟩
  rw [gin0_mem_blk]
  obtain ⟨e00, e01, e10, e11, e20, e21, e30, e31, e40, e41, e50, e51, e60, e61, -⟩ := idx0 ⟨(i 0).val / 2000, hq⟩
  have e60' : win0_6.index ⟨(i 0).val / 2000, hq⟩ (0 : Fin 2) = (i 0).val / 2000 := e60
  intro a
  match a with
  | ⟨0, _⟩ =>
    show win0_6.index ⟨(i 0).val / 2000, hq⟩ (0 : Fin 2) * 2000 ≤ (i 0).val
      ∧ (i 0).val < win0_6.index ⟨(i 0).val / 2000, hq⟩ (0 : Fin 2) * 2000 + 2000
    omega
  | ⟨1, _⟩ =>
    show win0_6.index ⟨(i 0).val / 2000, hq⟩ (1 : Fin 2) * 128 ≤ (i 1).val
      ∧ (i 1).val < win0_6.index ⟨(i 0).val / 2000, hq⟩ (1 : Fin 2) * 128 + 128
    omega

/-- THE ARRAY AFTER REGION 0: entry by entry the perceptron of the features plus the aggregated messages the region
    found, with the weights and bias rows it found. -/
theorem gin0_out (c : Dev nD) :
    (dat0 (F := Ideal) V c).arrAt 6 cfg0.N
      = fun i => hm0 V c (⟨(i 0).val, (i 0).isLt⟩ : Fin 100000) (⟨(i 1).val, (i 1).isLt⟩ : Fin 128) :=
  (dat0 (F := Ideal) V c).arrAt_eq_of_cover 6 (hmArr0 V c) (fun t _ => gin0_flushed V c t) gin0_cover

/-! ## Region 2 -/

/-- The block's result at any index of the block: the layer's array at the block's row. -/
theorem blockOut2_at (c : Dev nD) (t : Fin cfg2.N) (j : S2000x128.Idx) :
    blockOut2 V c t j
      = hm2 V c (rowOf2 t (⟨(j 0).val, (j 0).isLt⟩ : Fin 2000)) (⟨(j 1).val, (j 1).isLt⟩ : Fin 128) := by
  obtain ⟨p, q, rfl⟩ : ∃ (p : Fin 2000) (q : Fin 128), j = ix2 p q := ⟨j 0, j 1, eq_ix2 j⟩
  exact blockOut2_apply V c t p q

/-- The layer's array as contents of the region's first output array. -/
abbrev hmArr2 (c : Dev nD) : Buf (Elt Ideal) ((c : Thread nD τ).loc main_v42_0) := fun i =>
  hm2 V c (⟨(i 0).val, (i 0).isLt⟩ : Fin 100000) (⟨(i 1).val, (i 1).isLt⟩ : Fin 128)

/-- WHAT POINT t WRITES BACK is block t of the layer's array: row i of the block is row 2000 t + i. -/
theorem gin2_flushed (c : Dev nD) (t : Fin cfg2.N) :
    (dat2 (F := Ideal) V c).flushed 6 t = ((cfg2.win 6).blk t).view.read (Elt Ideal) (hmArr2 V c) := by
  show (cfg2.win 6).cut (grid2.coords t) ((dat2 (F := Ideal) V c).after 6 t) = _
  rw [after2_6, outsAt2_eq]
  obtain ⟨e00, e01, e10, e11, e20, e21, e30, e31, e40, e41, e50, e51, e60, e61, e70, e71, e80, e81⟩ := idx2 t
  funext j
  show blockOut2 V c t j = hmArr2 V c (((cfg2.win 6).blk t).view.emb j)
  refine (blockOut2_at V c t j).trans ?_
  have r0 : rowOf2 t (⟨(j 0).val, (j 0).isLt⟩ : Fin 2000)
      = (⟨((((cfg2.win 6).blk t).view.emb j) 0).val, ((((cfg2.win 6).blk t).view.emb j) 0).isLt⟩ : Fin 100000) :=
    Fin.ext (by
      show 2000 * t.val + (j 0).val = win2_6.index t (0 : Fin 2) * 2000 + 1 * (j 0).val
      omega)
  have r1 : (⟨(j 1).val, (j 1).isLt⟩ : Fin 128)
      = (⟨((((cfg2.win 6).blk t).view.emb j) 1).val, ((((cfg2.win 6).blk t).view.emb j) 1).isLt⟩ : Fin 128) :=
    Fin.ext (by
      show (j 1).val = win2_6.index t (1 : Fin 2) * 128 + 1 * (j 1).val
      omega)
  exact congrArg₂ (hm2 V c) r0 r1

/-- An index of the array is in point t's block iff each coordinate is in the block's range on its axis. -/
theorem gin2_mem_blk (t : Fin cfg2.N) (i : S100000x128.Idx) :
    i ∈ ((cfg2.win 6).blk t).view.set ↔ ∀ a : Fin 2, win2_6.index t a * S2000x128.size a ≤ (i a).val
      ∧ (i a).val < win2_6.index t a * S2000x128.size a + S2000x128.size a := by
  show i ∈ ((View.whole main_v42_0).slice (win2_6.rect t)).set ↔ _
  rw [View.set_slice_whole, Rect.mem_set_unit]
  exact Iff.rfl

/-- Every index of the array is in some point's block: row r is in block r / 2000. -/
theorem gin2_cover (i : S100000x128.Idx) :
    ∃ t : Fin cfg2.N, (cfg2.win 6).flush t = true ∧ i ∈ ((cfg2.win 6).blk t).view.set := by
  have hi0 : (i 0).val < 100000 := (i 0).isLt
  have hi1 : (i 1).val < 128 := (i 1).isLt
  have hq : (i 0).val / 2000 < 50 := by omega
  refine ⟨⟨(i 0).val / 2000, hq⟩, flush2_6 _, ?_⟩
  rw [gin2_mem_blk]
  obtain ⟨e00, e01, e10, e11, e20, e21, e30, e31, e40, e41, e50, e51, e60, e61, -⟩ := idx2 ⟨(i 0).val / 2000, hq⟩
  have e60' : win2_6.index ⟨(i 0).val / 2000, hq⟩ (0 : Fin 2) = (i 0).val / 2000 := e60
  intro a
  match a with
  | ⟨0, _⟩ =>
    show win2_6.index ⟨(i 0).val / 2000, hq⟩ (0 : Fin 2) * 2000 ≤ (i 0).val
      ∧ (i 0).val < win2_6.index ⟨(i 0).val / 2000, hq⟩ (0 : Fin 2) * 2000 + 2000
    omega
  | ⟨1, _⟩ =>
    show win2_6.index ⟨(i 0).val / 2000, hq⟩ (1 : Fin 2) * 128 ≤ (i 1).val
      ∧ (i 1).val < win2_6.index ⟨(i 0).val / 2000, hq⟩ (1 : Fin 2) * 128 + 128
    omega

/-- THE ARRAY AFTER REGION 2: entry by entry the perceptron of the features plus the aggregated messages the region
    found, with the weights and bias rows it found. -/
theorem gin2_out (c : Dev nD) :
    (dat2 (F := Ideal) V c).arrAt 6 cfg2.N
      = fun i => hm2 V c (⟨(i 0).val, (i 0).isLt⟩ : Fin 100000) (⟨(i 1).val, (i 1).isLt⟩ : Fin 128) :=
  (dat2 (F := Ideal) V c).arrAt_eq_of_cover 6 (hmArr2 V c) (fun t _ => gin2_flushed V c t) gin2_cover

/-! ## Region 4 -/

/-- The block's result at any index of the block: the layer's array at the block's row. -/
theorem blockOut4_at (c : Dev nD) (t : Fin cfg4.N) (j : S2000x128.Idx) :
    blockOut4 V c t j
      = hm4 V c (rowOf4 t (⟨(j 0).val, (j 0).isLt⟩ : Fin 2000)) (⟨(j 1).val, (j 1).isLt⟩ : Fin 128) := by
  obtain ⟨p, q, rfl⟩ : ∃ (p : Fin 2000) (q : Fin 128), j = ix2 p q := ⟨j 0, j 1, eq_ix2 j⟩
  exact blockOut4_apply V c t p q

/-- The layer's array as contents of the region's first output array. -/
abbrev hmArr4 (c : Dev nD) : Buf (Elt Ideal) ((c : Thread nD τ).loc main_v68_0) := fun i =>
  hm4 V c (⟨(i 0).val, (i 0).isLt⟩ : Fin 100000) (⟨(i 1).val, (i 1).isLt⟩ : Fin 128)

/-- WHAT POINT t WRITES BACK is block t of the layer's array: row i of the block is row 2000 t + i. -/
theorem gin4_flushed (c : Dev nD) (t : Fin cfg4.N) :
    (dat4 (F := Ideal) V c).flushed 6 t = ((cfg4.win 6).blk t).view.read (Elt Ideal) (hmArr4 V c) := by
  show (cfg4.win 6).cut (grid4.coords t) ((dat4 (F := Ideal) V c).after 6 t) = _
  rw [after4_6, outsAt4_eq]
  obtain ⟨e00, e01, e10, e11, e20, e21, e30, e31, e40, e41, e50, e51, e60, e61, e70, e71, e80, e81⟩ := idx4 t
  funext j
  show blockOut4 V c t j = hmArr4 V c (((cfg4.win 6).blk t).view.emb j)
  refine (blockOut4_at V c t j).trans ?_
  have r0 : rowOf4 t (⟨(j 0).val, (j 0).isLt⟩ : Fin 2000)
      = (⟨((((cfg4.win 6).blk t).view.emb j) 0).val, ((((cfg4.win 6).blk t).view.emb j) 0).isLt⟩ : Fin 100000) :=
    Fin.ext (by
      show 2000 * t.val + (j 0).val = win4_6.index t (0 : Fin 2) * 2000 + 1 * (j 0).val
      omega)
  have r1 : (⟨(j 1).val, (j 1).isLt⟩ : Fin 128)
      = (⟨((((cfg4.win 6).blk t).view.emb j) 1).val, ((((cfg4.win 6).blk t).view.emb j) 1).isLt⟩ : Fin 128) :=
    Fin.ext (by
      show (j 1).val = win4_6.index t (1 : Fin 2) * 128 + 1 * (j 1).val
      omega)
  exact congrArg₂ (hm4 V c) r0 r1

/-- An index of the array is in point t's block iff each coordinate is in the block's range on its axis. -/
theorem gin4_mem_blk (t : Fin cfg4.N) (i : S100000x128.Idx) :
    i ∈ ((cfg4.win 6).blk t).view.set ↔ ∀ a : Fin 2, win4_6.index t a * S2000x128.size a ≤ (i a).val
      ∧ (i a).val < win4_6.index t a * S2000x128.size a + S2000x128.size a := by
  show i ∈ ((View.whole main_v68_0).slice (win4_6.rect t)).set ↔ _
  rw [View.set_slice_whole, Rect.mem_set_unit]
  exact Iff.rfl

/-- Every index of the array is in some point's block: row r is in block r / 2000. -/
theorem gin4_cover (i : S100000x128.Idx) :
    ∃ t : Fin cfg4.N, (cfg4.win 6).flush t = true ∧ i ∈ ((cfg4.win 6).blk t).view.set := by
  have hi0 : (i 0).val < 100000 := (i 0).isLt
  have hi1 : (i 1).val < 128 := (i 1).isLt
  have hq : (i 0).val / 2000 < 50 := by omega
  refine ⟨⟨(i 0).val / 2000, hq⟩, flush4_6 _, ?_⟩
  rw [gin4_mem_blk]
  obtain ⟨e00, e01, e10, e11, e20, e21, e30, e31, e40, e41, e50, e51, e60, e61, -⟩ := idx4 ⟨(i 0).val / 2000, hq⟩
  have e60' : win4_6.index ⟨(i 0).val / 2000, hq⟩ (0 : Fin 2) = (i 0).val / 2000 := e60
  intro a
  match a with
  | ⟨0, _⟩ =>
    show win4_6.index ⟨(i 0).val / 2000, hq⟩ (0 : Fin 2) * 2000 ≤ (i 0).val
      ∧ (i 0).val < win4_6.index ⟨(i 0).val / 2000, hq⟩ (0 : Fin 2) * 2000 + 2000
    omega
  | ⟨1, _⟩ =>
    show win4_6.index ⟨(i 0).val / 2000, hq⟩ (1 : Fin 2) * 128 ≤ (i 1).val
      ∧ (i 1).val < win4_6.index ⟨(i 0).val / 2000, hq⟩ (1 : Fin 2) * 128 + 128
    omega

/-- THE ARRAY AFTER REGION 4: entry by entry the perceptron of the features plus the aggregated messages the region
    found, with the weights and bias rows it found. -/
theorem gin4_out (c : Dev nD) :
    (dat4 (F := Ideal) V c).arrAt 6 cfg4.N
      = fun i => hm4 V c (⟨(i 0).val, (i 0).isLt⟩ : Fin 100000) (⟨(i 1).val, (i 1).isLt⟩ : Fin 128) :=
  (dat4 (F := Ideal) V c).arrAt_eq_of_cover 6 (hmArr4 V c) (fun t _ => gin4_flushed V c t) gin4_cover

end Cert.KernelIdeal.HandV

end
-- ==== Proof.LibNormThreshold.lean ====
/-
  Reusable lemmas: the hard threshold, the straight-through estimator, and the layer normalisation of a row, over the
  extended reals.

  * hard z = 1 if 0 < z, else 0 — the comparison's bit read as an unsigned integer; a one-bit word widened to 32 bits and
    read signed is the same number, so both conversions a program may spell give it.
  * A straight-through estimator  soft + (hard - soft)  is  hard  whenever soft is a real, and the logistic function
    1 / (1 + exp(-z)) of ANY extended real is a real (0 at -inf, 1 at +inf): the identity needs no finiteness.
  * lnRow N eps h s b j = (h j - mean) * rsqrt (var + eps) * s j + b j  with  mean = (sum h) / N,
    var = (sum (h - mean)^2) / N;  dense a W j = sum_l a l * W l j.
  * The zero and one f32 words denote 0 and 1; a real sum's coercion is the sum of the coercions.
-/
import Idealize.ShloMosaic.PureOps.Ideal.Laws

noncomputable section

namespace Cert.NormThreshold

open Idealize.ShloMosaic

/-! ## Literals -/

theorem ofBits_zero : Ideal.ofBits .f32 0x00000000#32 = 0 := by
  simp [Ideal.ofBits, Ideal.ieee]

theorem ofBits_one : Ideal.ofBits .f32 0x3F800000#32 = 1 := by
  simp [Ideal.ofBits, Ideal.ieee, -EReal.coe_mul]; norm_num

/-! ## The hard threshold -/

/-- 1 where 0 < z, else 0: the comparison's bit read as an unsigned integer. -/
def hard (z : EReal) : EReal := (((Ideal.cmp .ogt z (Ideal.ofBits .f32 0x00000000#32)).toNat : ℝ) : EReal)

/-- The threshold is a real number. -/
theorem hard_real (z : EReal) : ∃ r : ℝ, hard z = (r : EReal) := ⟨_, rfl⟩

/-- A one-bit word widened to 32 bits and read signed is the bit read unsigned. -/
theorem bit_signed_eq_unsigned (b : BitVec 1) : ((b.setWidth 32).toInt : ℝ) = (b.toNat : ℝ) := by
  rcases BitVec.eq_zero_or_eq_one b with h | h <;> subst h <;> norm_num <;> decide

/-! ## A straight-through estimator is its hard part -/

/-- The logistic function of any extended real is a real. -/
theorem logistic_real (z : EReal) : ∃ r : ℝ, Ideal.logistic z = (r : EReal) := by
  induction z using EReal.rec with
  | bot => exact ⟨0, by simp⟩
  | coe r => exact ⟨_, Ideal.logistic_coe r⟩
  | top => exact ⟨1, by simp⟩

/-- soft + (hard - soft) = hard, for the logistic soft part of anything, spelt with the literal one as the programs do. -/
theorem ste (z w : EReal) :
    Ideal.div (Ideal.ofBits .f32 0x3F800000#32) (Ideal.ofBits .f32 0x3F800000#32 + Ideal.exp (-z))
      + (hard w - Ideal.div (Ideal.ofBits .f32 0x3F800000#32) (Ideal.ofBits .f32 0x3F800000#32 + Ideal.exp (-z))) = hard w := by
  rw [ofBits_one]
  obtain ⟨s, hs⟩ := logistic_real z
  obtain ⟨c, hc⟩ := hard_real w
  have hs' : Ideal.div 1 (1 + Ideal.exp (-z)) = (s : EReal) := hs
  rw [hs', hc, ← EReal.coe_sub, ← EReal.coe_add]
  congr 1; ring

/-! ## Layer normalisation of a row, and a dense layer -/

def lnRow {n : ℕ} (N eps : EReal) (h s b : Fin n → EReal) (j : Fin n) : EReal :=
  ((h j - Ideal.div (∑ k, h k) N)
      * Ideal.rsqrt (Ideal.div (∑ k, (h k - Ideal.div (∑ k, h k) N) * (h k - Ideal.div (∑ k, h k) N)) N + eps))
    * s j + b j

/-- A dense layer: the row against a matrix whose entries are given (already thresholded). -/
def dense {k n : ℕ} (a : Fin k → EReal) (W : Fin k → Fin n → EReal) (j : Fin n) : EReal := ∑ l, a l * W l j

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

end Cert.NormThreshold

end
-- ==== Proof.LibHostLayers.lean ====
/-
  Host (StableHLO) idioms read at an entry over the extended reals; generic in the extents.

  * a scalar constant broadcast to any shape reads the constant's value;
  * the four layouts a keepdims reduction and a per-feature scale need: a vector as a column, a vector as a row, a column
    over the columns of a matrix, a row over its rows;
  * a float sum along the rows, or along the columns, of a matrix: the initial value plus the sum of the entries;
  * the hard threshold  convert(compare GT x, 0);
  * a straight-through estimator  s + (hard(w) - s)  with  s = 1 / (1 + exp(-z))  is  hard(w)  entry by entry;
  * the reference's layer normalisation of an [a, b] matrix along its rows with [b] scale and bias.
-/
import Idealize.ShloMosaic.PureOps.Ideal.Laws
import Idealize.ShloMosaic.Lib.ValueIdx
import Idealize.ShloMosaic.Lib.IdealHost
import Idealize.ShloMosaic.Lib.Pipeline.Value
import proofs.«130004_j49941879718343_1_alg».proof.Proof.LibNormThreshold
import proofs.«130004_j49941879718343_1_alg».proof.Proof.LibKeepdims

noncomputable section

namespace Cert.HLayers

open Idealize.ShloMosaic Idealize.ShloMosaic.ValueIdx Cert.NormThreshold

variable {a b : ℕ}

/-! ## Layouts -/

theorem splat_apply {T : Shape} (h : (⟨0, ![]⟩ : Shape).BroadcastsInDim T ![]) (w : BitVec 32) (j : T.Idx) :
    broadcastInDim T ![] h (constant (F := Ideal) ⟨0, ![]⟩ .f32 w) j = Ideal.ofBits .f32 w :=
  broadcastInDim_scalar_apply h _ j

/-- An [a] vector as an [a, 1] column. -/
theorem colOfVec_apply {α : Type} (v : (⟨1, ![a]⟩ : Shape).Idx → α)
    (h : (⟨1, ![a]⟩ : Shape).BroadcastsInDim ⟨2, ![a, 1]⟩ ![0]) (r : Fin a) (u : Fin 1) :
    broadcastInDim ⟨2, ![a, 1]⟩ ![0] h v (ix2 r u) = v (ix1 r) := by
  refine broadcastInDim_apply _ h v (ix2 r u) (ix1 r) fun ax => ?_
  match ax with
  | ⟨0, _⟩ =>
    show r.val = if a = 1 then 0 else r.val
    split
    · have := r.isLt; omega
    · rfl

/-- A [b] vector as a [1, b] row. -/
theorem rowOfVec_apply {α : Type} (v : (⟨1, ![b]⟩ : Shape).Idx → α)
    (h : (⟨1, ![b]⟩ : Shape).BroadcastsInDim ⟨2, ![1, b]⟩ ![1]) (u : Fin 1) (j : Fin b) :
    broadcastInDim ⟨2, ![1, b]⟩ ![1] h v (ix2 u j) = v (ix1 j) := by
  refine broadcastInDim_apply _ h v (ix2 u j) (ix1 j) fun ax => ?_
  match ax with
  | ⟨0, _⟩ =>
    show j.val = if b = 1 then 0 else j.val
    split
    · have := j.isLt; omega
    · rfl

/-- An [a, 1] column over the columns of an [a, b] matrix. -/
theorem colOver_apply {α : Type} (v : (⟨2, ![a, 1]⟩ : Shape).Idx → α)
    (h : (⟨2, ![a, 1]⟩ : Shape).BroadcastsInDim ⟨2, ![a, b]⟩ ![0, 1]) (r : Fin a) (j : Fin b) :
    broadcastInDim ⟨2, ![a, b]⟩ ![0, 1] h v (ix2 r j) = v (ix2 r (0 : Fin 1)) := by
  refine broadcastInDim_apply _ h v (ix2 r j) (ix2 r (0 : Fin 1)) fun ax => ?_
  match ax with
  | ⟨0, _⟩ =>
    show r.val = if a = 1 then 0 else r.val
    split
    · have := r.isLt; omega
    · rfl
  | ⟨1, _⟩ => rfl

/-- A [1, b] row over the rows of an [a, b] matrix. -/
theorem rowOver_apply {α : Type} (v : (⟨2, ![1, b]⟩ : Shape).Idx → α)
    (h : (⟨2, ![1, b]⟩ : Shape).BroadcastsInDim ⟨2, ![a, b]⟩ ![0, 1]) (r : Fin a) (j : Fin b) :
    broadcastInDim ⟨2, ![a, b]⟩ ![0, 1] h v (ix2 r j) = v (ix2 (0 : Fin 1) j) := by
  refine broadcastInDim_apply _ h v (ix2 r j) (ix2 (0 : Fin 1) j) fun ax => ?_
  match ax with
  | ⟨0, _⟩ => rfl
  | ⟨1, _⟩ =>
    show j.val = if b = 1 then 0 else j.val
    split
    · have := j.isLt; omega
    · rfl

/-! ## Sums -/

/-- The host's sum along the rows. -/
theorem hostRowSum_apply (x : FVec Ideal ⟨2, ![a, b]⟩ .f32) (init : (⟨0, ![]⟩ : Shape).Idx → Ideal .f32)
    (h' : (⟨2, ![a, b]⟩ : Shape).ReducesTo [1] ⟨1, ![a]⟩) (h : (⟨2, ![a, b]⟩ : Shape).Reduces [1] ⟨1, ![a]⟩)
    (hu : 0 < (⟨0, ![]⟩ : Shape).numel) (r : Fin a) :
    Host.reduceAdd x init h' hu (ix1 r) = init (Shape.Idx.first hu) + ∑ k : Fin b, x (ix2 r k) := by
  rw [hostReduceAdd_apply, Ideal.hostReduceAdd_single h' h]
  exact congrArg (fun t => init (Shape.Idx.first hu) + t)
    (Finset.sum_congr rfl fun k _ => congrArg x (Cert.Keepdims.lift_row h r k))

/-- The reduced index j of an [a, b] array reduced along its columns, with the column position k put back, is (k, j). -/
theorem lift_col (hr : (⟨2, ![a, b]⟩ : Shape).Reduces [0] ⟨1, ![b]⟩) (j : Fin b) (k : Fin a) :
    hr.lift (ix1 j) k = ix2 k j :=
  funext fun c => Fin.ext (by
    match c with
    | ⟨0, _⟩ => rfl
    | ⟨1, _⟩ => rfl)

/-- The host's sum along the columns. -/
theorem hostColSum_apply (x : FVec Ideal ⟨2, ![a, b]⟩ .f32) (init : (⟨0, ![]⟩ : Shape).Idx → Ideal .f32)
    (h' : (⟨2, ![a, b]⟩ : Shape).ReducesTo [0] ⟨1, ![b]⟩) (h : (⟨2, ![a, b]⟩ : Shape).Reduces [0] ⟨1, ![b]⟩)
    (hu : 0 < (⟨0, ![]⟩ : Shape).numel) (j : Fin b) :
    Host.reduceAdd x init h' hu (ix1 j) = init (Shape.Idx.first hu) + ∑ k : Fin a, x (ix2 k j) := by
  rw [hostReduceAdd_apply, Ideal.hostReduceAdd_single h' h]
  exact congrArg (fun t => init (Shape.Idx.first hu) + t)
    (Finset.sum_congr rfl fun k _ => congrArg x (lift_col h j k))

/-! ## The threshold and the straight-through estimator -/

theorem hardH_apply {T : Shape} {φ : FTy} (h0 : (⟨0, ![]⟩ : Shape).BroadcastsInDim T ![]) (w : FVec Ideal T .f32) (i : T.Idx) :
    (uitofp φ (cmpf .ogt w (broadcastInDim T ![] h0 (constant (F := Ideal) ⟨0, ![]⟩ .f32 0x00000000#32))) : FVec Ideal T φ) i
      = hard (w i) := by
  show (((Ideal.cmp .ogt (w i) (broadcastInDim T ![] h0 (constant (F := Ideal) ⟨0, ![]⟩ .f32 0x00000000#32) i)).toNat : ℝ) : EReal) = _
  rw [splat_apply]; rfl

/-- The logistic soft part, spelt out as the reference does. -/
def soft {T : Shape} (h1 : (⟨0, ![]⟩ : Shape).BroadcastsInDim T ![]) (z : FVec Ideal T .f32) : FVec Ideal T .f32 :=
  Host.divf (broadcastInDim T ![] h1 (constant (F := Ideal) ⟨0, ![]⟩ .f32 0x3F800000#32))
    (addf (broadcastInDim T ![] h1 (constant (F := Ideal) ⟨0, ![]⟩ .f32 0x3F800000#32)) (Host.exp (Host.negf z)))

/-- soft(z) + (hard(w) - soft(z)), entry by entry, is hard(w). -/
theorem ste_apply {T : Shape} (h1 h0 : (⟨0, ![]⟩ : Shape).BroadcastsInDim T ![]) (z w : FVec Ideal T .f32) (i : T.Idx) :
    addf (soft h1 z) (subf (uitofp .f32 (cmpf .ogt w (broadcastInDim T ![] h0 (constant (F := Ideal) ⟨0, ![]⟩ .f32 0x00000000#32))))
      (soft h1 z)) i = hard (w i) := by
  show soft h1 z i + ((uitofp .f32 (cmpf .ogt w (broadcastInDim T ![] h0 (constant (F := Ideal) ⟨0, ![]⟩ .f32 0x00000000#32))) : FVec Ideal T .f32) i
      - soft h1 z i) = _
  rw [hardH_apply]
  have hs : soft h1 z i = Ideal.div (Ideal.ofBits .f32 0x3F800000#32) (Ideal.ofBits .f32 0x3F800000#32 + Ideal.exp (-(z i))) := by
    show Ideal.div (broadcastInDim T ![] h1 (constant (F := Ideal) ⟨0, ![]⟩ .f32 0x3F800000#32) i)
      (broadcastInDim T ![] h1 (constant (F := Ideal) ⟨0, ![]⟩ .f32 0x3F800000#32) i + Ideal.exp (-(z i))) = _
    rw [splat_apply]
  rw [hs]
  exact ste (z i) (w i)

/-! ## The layer normalisation, as the reference spells it -/

/-- The row mean as an [a, 1] column. -/
def hMean (Nb : BitVec 32) (hred' : (⟨2, ![a, b]⟩ : Shape).ReducesTo [1] ⟨1, ![a]⟩) (hu : 0 < (⟨0, ![]⟩ : Shape).numel)
    (hc : (⟨1, ![a]⟩ : Shape).BroadcastsInDim ⟨2, ![a, 1]⟩ ![0]) (hs : (⟨0, ![]⟩ : Shape).BroadcastsInDim ⟨2, ![a, 1]⟩ ![])
    (H : FVec Ideal ⟨2, ![a, b]⟩ .f32) : FVec Ideal ⟨2, ![a, 1]⟩ .f32 :=
  Host.divf (broadcastInDim ⟨2, ![a, 1]⟩ ![0] hc (Host.reduceAdd H (constant (F := Ideal) ⟨0, ![]⟩ .f32 0x00000000#32) hred' hu))
    (broadcastInDim ⟨2, ![a, 1]⟩ ![] hs (constant (F := Ideal) ⟨0, ![]⟩ .f32 Nb))

/-- The centred matrix. -/
def hCen (Nb : BitVec 32) (hred' : (⟨2, ![a, b]⟩ : Shape).ReducesTo [1] ⟨1, ![a]⟩) (hu : 0 < (⟨0, ![]⟩ : Shape).numel)
    (hc : (⟨1, ![a]⟩ : Shape).BroadcastsInDim ⟨2, ![a, 1]⟩ ![0]) (hs : (⟨0, ![]⟩ : Shape).BroadcastsInDim ⟨2, ![a, 1]⟩ ![])
    (hcb : (⟨2, ![a, 1]⟩ : Shape).BroadcastsInDim ⟨2, ![a, b]⟩ ![0, 1])
    (H : FVec Ideal ⟨2, ![a, b]⟩ .f32) : FVec Ideal ⟨2, ![a, b]⟩ .f32 :=
  subf H (broadcastInDim ⟨2, ![a, b]⟩ ![0, 1] hcb (hMean Nb hred' hu hc hs H))

def hLN (Nb eb : BitVec 32) (hred' : (⟨2, ![a, b]⟩ : Shape).ReducesTo [1] ⟨1, ![a]⟩) (hu : 0 < (⟨0, ![]⟩ : Shape).numel)
    (hc : (⟨1, ![a]⟩ : Shape).BroadcastsInDim ⟨2, ![a, 1]⟩ ![0]) (hs : (⟨0, ![]⟩ : Shape).BroadcastsInDim ⟨2, ![a, 1]⟩ ![])
    (hcb : (⟨2, ![a, 1]⟩ : Shape).BroadcastsInDim ⟨2, ![a, b]⟩ ![0, 1])
    (hrv : (⟨1, ![b]⟩ : Shape).BroadcastsInDim ⟨2, ![1, b]⟩ ![1]) (hrb : (⟨2, ![1, b]⟩ : Shape).BroadcastsInDim ⟨2, ![a, b]⟩ ![0, 1])
    (H : FVec Ideal ⟨2, ![a, b]⟩ .f32) (s bb : FVec Ideal ⟨1, ![b]⟩ .f32) : FVec Ideal ⟨2, ![a, b]⟩ .f32 :=
  addf (mulf (mulf (hCen Nb hred' hu hc hs hcb H)
        (broadcastInDim ⟨2, ![a, b]⟩ ![0, 1] hcb (Host.rsqrt (addf
          (Host.divf (broadcastInDim ⟨2, ![a, 1]⟩ ![0] hc (Host.reduceAdd
              (mulf (hCen Nb hred' hu hc hs hcb H) (hCen Nb hred' hu hc hs hcb H))
              (constant (F := Ideal) ⟨0, ![]⟩ .f32 0x00000000#32) hred' hu))
            (broadcastInDim ⟨2, ![a, 1]⟩ ![] hs (constant (F := Ideal) ⟨0, ![]⟩ .f32 Nb)))
          (broadcastInDim ⟨2, ![a, 1]⟩ ![] hs (constant (F := Ideal) ⟨0, ![]⟩ .f32 eb))))))
      (broadcastInDim ⟨2, ![a, b]⟩ ![0, 1] hrb (broadcastInDim ⟨2, ![1, b]⟩ ![1] hrv s)))
    (broadcastInDim ⟨2, ![a, b]⟩ ![0, 1] hrb (broadcastInDim ⟨2, ![1, b]⟩ ![1] hrv bb))

theorem hLN_apply (Nb eb : BitVec 32) (hred' : (⟨2, ![a, b]⟩ : Shape).ReducesTo [1] ⟨1, ![a]⟩)
    (hred : (⟨2, ![a, b]⟩ : Shape).Reduces [1] ⟨1, ![a]⟩) (hu : 0 < (⟨0, ![]⟩ : Shape).numel)
    (hc : (⟨1, ![a]⟩ : Shape).BroadcastsInDim ⟨2, ![a, 1]⟩ ![0]) (hs : (⟨0, ![]⟩ : Shape).BroadcastsInDim ⟨2, ![a, 1]⟩ ![])
    (hcb : (⟨2, ![a, 1]⟩ : Shape).BroadcastsInDim ⟨2, ![a, b]⟩ ![0, 1])
    (hrv : (⟨1, ![b]⟩ : Shape).BroadcastsInDim ⟨2, ![1, b]⟩ ![1]) (hrb : (⟨2, ![1, b]⟩ : Shape).BroadcastsInDim ⟨2, ![a, b]⟩ ![0, 1])
    (H : FVec Ideal ⟨2, ![a, b]⟩ .f32) (s bb : FVec Ideal ⟨1, ![b]⟩ .f32) (r : Fin a) (j : Fin b) :
    hLN Nb eb hred' hu hc hs hcb hrv hrb H s bb (ix2 r j)
      = lnRow (Ideal.ofBits .f32 Nb) (Ideal.ofBits .f32 eb) (fun k => H (ix2 r k)) (fun k => s (ix1 k)) (fun k => bb (ix1 k)) j := by
  have hsumz : ∀ (g : FVec Ideal ⟨2, ![a, b]⟩ .f32),
      Host.reduceAdd g (constant (F := Ideal) ⟨0, ![]⟩ .f32 0x00000000#32) hred' hu (ix1 r) = ∑ k : Fin b, g (ix2 r k) := fun g => by
    rw [hostRowSum_apply g _ hred' hred hu r]
    show Ideal.ofBits .f32 0x00000000#32 + _ = _
    rw [ofBits_zero, zero_add]
  have hmean : ∀ u : Fin 1, hMean Nb hred' hu hc hs H (ix2 r u)
      = Ideal.div (∑ k : Fin b, H (ix2 r k)) (Ideal.ofBits .f32 Nb) := fun u => by
    show Ideal.div (broadcastInDim ⟨2, ![a, 1]⟩ ![0] hc (Host.reduceAdd H _ hred' hu) (ix2 r u))
      (broadcastInDim ⟨2, ![a, 1]⟩ ![] hs (constant (F := Ideal) ⟨0, ![]⟩ .f32 Nb) (ix2 r u)) = _
    rw [colOfVec_apply, splat_apply, hsumz]
  have hcen : ∀ c : Fin b, hCen Nb hred' hu hc hs hcb H (ix2 r c)
      = H (ix2 r c) - Ideal.div (∑ k : Fin b, H (ix2 r k)) (Ideal.ofBits .f32 Nb) := fun c => by
    show H (ix2 r c) - broadcastInDim ⟨2, ![a, b]⟩ ![0, 1] hcb (hMean Nb hred' hu hc hs H) (ix2 r c) = _
    rw [colOver_apply, hmean]
  show (hCen Nb hred' hu hc hs hcb H (ix2 r j)
      * broadcastInDim ⟨2, ![a, b]⟩ ![0, 1] hcb (Host.rsqrt (addf
          (Host.divf (broadcastInDim ⟨2, ![a, 1]⟩ ![0] hc (Host.reduceAdd
              (mulf (hCen Nb hred' hu hc hs hcb H) (hCen Nb hred' hu hc hs hcb H))
              (constant (F := Ideal) ⟨0, ![]⟩ .f32 0x00000000#32) hred' hu))
            (broadcastInDim ⟨2, ![a, 1]⟩ ![] hs (constant (F := Ideal) ⟨0, ![]⟩ .f32 Nb)))
          (broadcastInDim ⟨2, ![a, 1]⟩ ![] hs (constant (F := Ideal) ⟨0, ![]⟩ .f32 eb)))) (ix2 r j))
      * broadcastInDim ⟨2, ![a, b]⟩ ![0, 1] hrb (broadcastInDim ⟨2, ![1, b]⟩ ![1] hrv s) (ix2 r j)
      + broadcastInDim ⟨2, ![a, b]⟩ ![0, 1] hrb (broadcastInDim ⟨2, ![1, b]⟩ ![1] hrv bb) (ix2 r j) = _
  rw [hcen j, colOver_apply, rowOver_apply, rowOver_apply, rowOfVec_apply, rowOfVec_apply]
  show (_ * Ideal.rsqrt (Ideal.div (broadcastInDim ⟨2, ![a, 1]⟩ ![0] hc (Host.reduceAdd
              (mulf (hCen Nb hred' hu hc hs hcb H) (hCen Nb hred' hu hc hs hcb H)) _ hred' hu) (ix2 r (0 : Fin 1)))
            (broadcastInDim ⟨2, ![a, 1]⟩ ![] hs (constant (F := Ideal) ⟨0, ![]⟩ .f32 Nb) (ix2 r (0 : Fin 1)))
          + broadcastInDim ⟨2, ![a, 1]⟩ ![] hs (constant (F := Ideal) ⟨0, ![]⟩ .f32 eb) (ix2 r (0 : Fin 1)))) * _ + _ = _
  rw [colOfVec_apply, splat_apply, splat_apply, hsumz]
  unfold lnRow
  refine congrArg (fun t => (H (ix2 r j) - Ideal.div (∑ k : Fin b, H (ix2 r k)) (Ideal.ofBits .f32 Nb))
      * Ideal.rsqrt (Ideal.div t (Ideal.ofBits .f32 Nb) + Ideal.ofBits .f32 eb) * s (ix1 j) + bb (ix1 j))
    (Finset.sum_congr rfl fun k _ => ?_)
  show hCen Nb hred' hu hc hs hcb H (ix2 r k) * hCen Nb hred' hu hc hs hcb H (ix2 r k) = _
  rw [hcen k]

end Cert.HLayers

end
-- ==== Proof.MathBn.lean ====
/-
  The normalisation kernel's stored value, read at one entry.

  The kernel's body takes a block of 2000 rows of the layer's array and four rows of 128 numbers: the variance, the
  mean, the gain and the bias, each broadcast over the 2000 rows. Entry (p, q) of what it stores is

      max( ((h[p, q] − mean[q]) · rsqrt(var[q] + c)) · gain[q] + bias[q], 0 )

  with c the constant added before the inverse square root, in exactly this order of operations. Reading a row
  broadcast over the rows at (p, q) gives the row's entry q; everything else is entry by entry.
-/
import proofs.«130004_j49941879718343_1_alg».proof.Proof.Gen.KernelIdeal.Skeleton
import proofs.«130004_j49941879718343_1_alg».proof.Proof.LibRowBias
import proofs.«130004_j49941879718343_1_alg».proof.Proof.MathStats
import proofs.«130004_j49941879718343_1_alg».proof.Proof.LibHostLayers
import Idealize.ShloMosaic.Lib.Pipeline.Value
import Idealize.ShloMosaic.Lib.ValueIdx
import Idealize.ShloMosaic.PureOps.Ideal.Laws

noncomputable section

namespace Cert.Math

open Idealize.ShloMosaic Idealize.ShloMosaic.ValueIdx Cert.KernelIdeal Cert.KernelIdeal.Gen

/-- The normalisation body's stored value at (p, q): the block's entry normalised by entry q of the mean row v7, the
    variance row v2, the gain row v13 and the bias row v17. -/
theorem k1_pay1_apply (v0 : Vec Ideal S2000x128 .f32) (v2 v7 v13 v17 : Vec Ideal S1x128 .f32)
    (p : Fin 2000) (q : Fin 128) :
    k1_pay1 (F := Ideal) v0 v2 v7 v13 v17 (ix2 p q)
      = bnEntry (fun p q => v0 (ix2 p q)) (fun q => v7 (ix2 (0 : Fin 1) q)) (fun q => v2 (ix2 (0 : Fin 1) q))
          (fun q => v13 (ix2 (0 : Fin 1) q)) (fun q => v17 (ix2 (0 : Fin 1) q)) p q := by
  unfold k1_pay1
  simp only [shapeCast_self]
  show max ((((v0 (ix2 p q) - broadcastTo S2000x128 v7 broadcasts_S1x128_S2000x128 (ix2 p q))
      * broadcastTo S2000x128
          (rsqrt (addf (F := Ideal) v2 (broadcast S1x128 (Scalar.ofBits (F := Ideal) .f32 0x3727C5AC#32))))
          broadcasts_S1x128_S2000x128 (ix2 p q))
      * broadcastTo S2000x128 v13 broadcasts_S1x128_S2000x128 (ix2 p q))
      + broadcastTo S2000x128 v17 broadcasts_S1x128_S2000x128 (ix2 p q))
      (Ideal.ofBits .f32 0x00000000#32) = _
  rw [Cert.RowBias.rowTo_apply, Cert.RowBias.rowTo_apply, Cert.RowBias.rowTo_apply, Cert.RowBias.rowTo_apply,
    Ideal.ofBits_zero_f32]
  rfl

/-! ## The statistics rows the host computes between the two kernels of a layer

  From the accumulated row of column sums S and the row of column sums of squares SS (both [1, 128]) the host forms
  the mean row S / 100000 and the variance row SS / 100000 − mean · mean, the divisor a constant broadcast to a row. -/

/-- The mean row. -/
def hostMeanRow (hb : (⟨0, ![]⟩ : Shape).BroadcastsInDim S1x128 ![]) (S : FVec Ideal S1x128 .f32) : FVec Ideal S1x128 .f32 :=
  Host.divf S (broadcastInDim S1x128 ![] hb (constant (F := Ideal) ⟨0, ![]⟩ .f32 0x47C35000#32))

/-- The one-pass variance row. -/
def hostVarRow (hb : (⟨0, ![]⟩ : Shape).BroadcastsInDim S1x128 ![]) (S SS : FVec Ideal S1x128 .f32) : FVec Ideal S1x128 .f32 :=
  subf (Host.divf SS (broadcastInDim S1x128 ![] hb (constant (F := Ideal) ⟨0, ![]⟩ .f32 0x47C35000#32)))
    (mulf (hostMeanRow hb S) (hostMeanRow hb S))

theorem hostMeanRow_apply (hb : (⟨0, ![]⟩ : Shape).BroadcastsInDim S1x128 ![]) (S : FVec Ideal S1x128 .f32) (u : Fin 1)
    (q : Fin 128) : hostMeanRow hb S (ix2 u q) = Ideal.div (S (ix2 u q)) nLit := by
  show Ideal.div (S (ix2 u q))
      (broadcastInDim S1x128 ![] hb (constant (F := Ideal) ⟨0, ![]⟩ .f32 0x47C35000#32) (ix2 u q)) = _
  rw [Cert.HLayers.splat_apply]

theorem hostVarRow_apply (hb : (⟨0, ![]⟩ : Shape).BroadcastsInDim S1x128 ![]) (S SS : FVec Ideal S1x128 .f32) (u : Fin 1)
    (q : Fin 128) :
    hostVarRow hb S SS (ix2 u q)
      = Ideal.div (SS (ix2 u q)) nLit - Ideal.div (S (ix2 u q)) nLit * Ideal.div (S (ix2 u q)) nLit := by
  show Ideal.div (SS (ix2 u q))
        (broadcastInDim S1x128 ![] hb (constant (F := Ideal) ⟨0, ![]⟩ .f32 0x47C35000#32) (ix2 u q))
      - hostMeanRow hb S (ix2 u q) * hostMeanRow hb S (ix2 u q) = _
  rw [Cert.HLayers.splat_apply, hostMeanRow_apply]

/-- When the two accumulated rows hold the column sums and the column sums of squares of a family, the host's rows are
    the family's mean and one-pass variance. -/
theorem hostMeanRow_eq_mean (hb : (⟨0, ![]⟩ : Shape).BroadcastsInDim S1x128 ![]) (S : FVec Ideal S1x128 .f32)
    (hm : Fin 100000 → Fin 128 → EReal) (u : Fin 1) (q : Fin 128) (hS : S (ix2 u q) = ∑ r, hm r q) :
    hostMeanRow hb S (ix2 u q) = mean hm q := by
  rw [hostMeanRow_apply, hS]; rfl

theorem hostVarRow_eq_varOnePass (hb : (⟨0, ![]⟩ : Shape).BroadcastsInDim S1x128 ![]) (S SS : FVec Ideal S1x128 .f32)
    (hm : Fin 100000 → Fin 128 → EReal) (u : Fin 1) (q : Fin 128) (hS : S (ix2 u q) = ∑ r, hm r q)
    (hSS : SS (ix2 u q) = ∑ r, hm r q * hm r q) :
    hostVarRow hb S SS (ix2 u q) = varOnePass hm q := by
  rw [hostVarRow_apply, hS, hSS]; rfl

/-- A normalised entry depends on one row of the array only: a block's row p and the array's row r with the same
    entries give the same normalised entry. -/
theorem bnEntry_congr_row {ι κ : Type*} (h : ι → Fin 128 → EReal) (h' : κ → Fin 128 → EReal)
    (m v g b : Fin 128 → EReal) (p : ι) (r : κ) (q : Fin 128) (e : h p q = h' r q) :
    bnEntry h m v g b p q = bnEntry h' m v g b r q := by
  unfold bnEntry; rw [e]

/-- The second and third layers' normalisation bodies are the same text as the first. -/
theorem k3_pay1_eq : @k3_pay1 Ideal _ = @k1_pay1 Ideal _ := rfl
theorem k5_pay1_eq : @k5_pay1 Ideal _ = @k1_pay1 Ideal _ := rfl

theorem k3_pay1_apply (v0 : Vec Ideal S2000x128 .f32) (v2 v7 v13 v17 : Vec Ideal S1x128 .f32)
    (p : Fin 2000) (q : Fin 128) :
    k3_pay1 (F := Ideal) v0 v2 v7 v13 v17 (ix2 p q)
      = bnEntry (fun p q => v0 (ix2 p q)) (fun q => v7 (ix2 (0 : Fin 1) q)) (fun q => v2 (ix2 (0 : Fin 1) q))
          (fun q => v13 (ix2 (0 : Fin 1) q)) (fun q => v17 (ix2 (0 : Fin 1) q)) p q := by
  rw [k3_pay1_eq]; exact k1_pay1_apply v0 v2 v7 v13 v17 p q

theorem k5_pay1_apply (v0 : Vec Ideal S2000x128 .f32) (v2 v7 v13 v17 : Vec Ideal S1x128 .f32)
    (p : Fin 2000) (q : Fin 128) :
    k5_pay1 (F := Ideal) v0 v2 v7 v13 v17 (ix2 p q)
      = bnEntry (fun p q => v0 (ix2 p q)) (fun q => v7 (ix2 (0 : Fin 1) q)) (fun q => v2 (ix2 (0 : Fin 1) q))
          (fun q => v13 (ix2 (0 : Fin 1) q)) (fun q => v17 (ix2 (0 : Fin 1) q)) p q := by
  rw [k5_pay1_eq]; exact k1_pay1_apply v0 v2 v7 v13 v17 p q

end Cert.Math

end
-- ==== Proof.BnValue0.lean ====
/-
  What the three normalisation regions leave in their output arrays: the common part.

  Each of the three regions runs over 50 points. At point t it reads block t of the layer's 100000 × 128 array (2000
  rows) and the four rows of 128 numbers (mean, variance, gain, bias), and writes block t of the output array: entry
  (p, q) of the block is the normalised entry of row 2000·t + p, column q. The 50 blocks tile the output array, row r
  lying in block r / 2000, so after the region the output array is, entry by entry,

      out[r, q] = max( ((h[r, q] − mean[q]) · rsqrt(var[q] + c)) · gain[q] + bias[q], 0 )

  of the arrays as the region found them.
-/
import proofs.«130004_j49941879718343_1_alg».proof.Proof.MathBn
import Idealize.ShloMosaic.Lib.Pipeline.Value

set_option maxRecDepth 16384

noncomputable section

namespace Cert.KernelIdeal.HandV

open Cert.KernelIdeal Cert.KernelIdeal.Gen Idealize.ShloMosaic Idealize.ShloMosaic.TcCoe Idealize.SL.Sem
open Idealize.ShloMosaic.ValueIdx Cert.Math
open Idealize.ShloMosaic.Pipeline (Dat)

theorem hz2 : (![0, 0] : Fin 2 → Nat) = fun _ => 0 := funext fun a => by fin_cases a <;> rfl

/-- The normalised array, from the array and the four rows. -/
abbrev bnArr (H : S100000x128.Idx → EReal) (M W G B : S1x128.Idx → EReal) : S100000x128.Idx → EReal :=
  fun i => bnScalar (H i) (M (ix2 (0 : Fin 1) (i 1))) (W (ix2 (0 : Fin 1) (i 1))) (G (ix2 (0 : Fin 1) (i 1)))
    (B (ix2 (0 : Fin 1) (i 1)))

/-- The stored value of pipeline 1's body at any index of the block. -/
theorem k1_pay1_at (v0 : Vec Ideal S2000x128 .f32) (v2 v7 v13 v17 : Vec Ideal S1x128 .f32) (j : S2000x128.Idx) :
    k1_pay1 (F := Ideal) v0 v2 v7 v13 v17 j
      = bnScalar (v0 j) (v7 (ix2 (0 : Fin 1) (j 1))) (v2 (ix2 (0 : Fin 1) (j 1))) (v13 (ix2 (0 : Fin 1) (j 1)))
          (v17 (ix2 (0 : Fin 1) (j 1))) := by
  obtain ⟨p, q, rfl⟩ : ∃ (p : Fin 2000) (q : Fin 128), j = ix2 p q := ⟨j 0, j 1, eq_ix2 j⟩
  exact k1_pay1_apply v0 v2 v7 v13 v17 p q

/-- The stored value of pipeline 3's body at any index of the block. -/
theorem k3_pay1_at (v0 : Vec Ideal S2000x128 .f32) (v2 v7 v13 v17 : Vec Ideal S1x128 .f32) (j : S2000x128.Idx) :
    k3_pay1 (F := Ideal) v0 v2 v7 v13 v17 j
      = bnScalar (v0 j) (v7 (ix2 (0 : Fin 1) (j 1))) (v2 (ix2 (0 : Fin 1) (j 1))) (v13 (ix2 (0 : Fin 1) (j 1)))
          (v17 (ix2 (0 : Fin 1) (j 1))) := by
  obtain ⟨p, q, rfl⟩ : ∃ (p : Fin 2000) (q : Fin 128), j = ix2 p q := ⟨j 0, j 1, eq_ix2 j⟩
  exact k3_pay1_apply v0 v2 v7 v13 v17 p q

/-- The stored value of pipeline 5's body at any index of the block. -/
theorem k5_pay1_at (v0 : Vec Ideal S2000x128 .f32) (v2 v7 v13 v17 : Vec Ideal S1x128 .f32) (j : S2000x128.Idx) :
    k5_pay1 (F := Ideal) v0 v2 v7 v13 v17 j
      = bnScalar (v0 j) (v7 (ix2 (0 : Fin 1) (j 1))) (v2 (ix2 (0 : Fin 1) (j 1))) (v13 (ix2 (0 : Fin 1) (j 1)))
          (v17 (ix2 (0 : Fin 1) (j 1))) := by
  obtain ⟨p, q, rfl⟩ : ∃ (p : Fin 2000) (q : Fin 128), j = ix2 p q := ⟨j 0, j 1, eq_ix2 j⟩
  exact k5_pay1_apply v0 v2 v7 v13 v17 p q

end Cert.KernelIdeal.HandV

end
-- ==== Proof.BnValue1.lean ====
/-
  What normalisation region 1 leaves in its output array.

  The region runs over 50 points. At point t it reads block t of the layer's 100000 × 128 array (2000 rows) and the four
  rows of 128 numbers (mean, variance, gain, bias), and writes block t of the output array: entry (p, q) of the block
  is the normalised entry of row 2000·t + p, column q. The 50 blocks tile the output array, row r lying in block
  r / 2000, so after the region the output array is, entry by entry, the normalised entry of the arrays as the region
  found them.
-/
import proofs.«130004_j49941879718343_1_alg».proof.Proof.RegionBn1
import proofs.«130004_j49941879718343_1_alg».proof.Proof.BnValue0
import Idealize.ShloMosaic.Lib.Pipeline.Value

set_option maxRecDepth 16384

noncomputable section

namespace Cert.KernelIdeal.HandV

open Cert.KernelIdeal Cert.KernelIdeal.Gen Cert.KernelIdeal.Hand Idealize.ShloMosaic Idealize.ShloMosaic.TcCoe Idealize.SL.Sem
open Idealize.ShloMosaic.ValueIdx Cert.Math
open Idealize.ShloMosaic.Pipeline (Dat)

-- the core's buffer contents when the region is entered
variable (V : (c : Dev nD) → (b : Ref sig .tc) → Buf (Elt Ideal) ((c : Thread nD τ).loc b))

/-! ## Pipeline 1 -/

/-- The printed index maps of pipeline 1, decided over its 50 points: the array window (0) and the output window (5)
    take block t along the rows, block 0 along the columns; the four row windows stay at block (0, 0). -/
theorem idx_facts1 : ∀ t : Fin cfg1.N,
    win1_0.index t (0 : Fin 2) = t.val ∧ win1_0.index t (1 : Fin 2) = 0
    ∧ win1_5.index t (0 : Fin 2) = t.val ∧ win1_5.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0 :=
  (by decide +kernel : ∀ t : Fin grid1.N, _)

-- the arrays' element types are read off the buffer table by unfolding, once per array mentioned
set_option maxHeartbeats 2000000 in
/-- WHAT POINT t WRITES BACK is block t of the normalised array. -/
theorem flushed1_eq (c : Dev nD) (t : Fin cfg1.N) :
    (dat1 (F := Ideal) V c).flushed 5 t
      = ((cfg1.win 5).blk t).view.read (Elt Ideal)
          (bnArr (V c main_v16_0) (V c main_v18) (V c main_v22) (V c main_v23) (V c main_v24)) := by
  show (cfg1.win 5).cut (grid1.coords t) ((dat1 V c).after 5 t) = _
  rw [after1_5]
  unfold out1_5
  rw [View.canon_unit_zero hz2]
  simp only [View.ld_unit_zero (S := S2000x128) hz2, View.ld_unit_zero (S := S1x128) hz2]
  obtain ⟨e00, e01, e50, e51, e10, e11, e20, e21, e30, e31, e40, e41⟩ := idx_facts1 t
  funext j
  show k1_pay1 (F := Ideal) (iblk1 V c 0 t) (iblk1 V c 2 t) (iblk1 V c 1 t) (iblk1 V c 3 t) (iblk1 V c 4 t) j
      = bnArr (V c main_v16_0) (V c main_v18) (V c main_v22) (V c main_v23) (V c main_v24) (((cfg1.win 5).blk t).view.emb j)
  refine (k1_pay1_at (iblk1 V c 0 t) (iblk1 V c 2 t) (iblk1 V c 1 t) (iblk1 V c 3 t) (iblk1 V c 4 t) j).trans ?_
  have h0 : ((cfg1.win 0).blk t).view.emb j = ((cfg1.win 5).blk t).view.emb j := by
    funext a; apply Fin.ext
    match a with
    | ⟨0, _⟩ => show win1_0.index t (0 : Fin 2) * 2000 + 1 * (j 0).val = win1_5.index t (0 : Fin 2) * 2000 + 1 * (j 0).val; omega
    | ⟨1, _⟩ => show win1_0.index t (1 : Fin 2) * 128 + 1 * (j 1).val = win1_5.index t (1 : Fin 2) * 128 + 1 * (j 1).val; omega
  have h1 : ((cfg1.win 1).blk t).view.emb (ix2 (0 : Fin 1) (j 1)) = ix2 (0 : Fin 1) ((((cfg1.win 5).blk t).view.emb j) 1) := by
    funext a; apply Fin.ext
    match a with
    | ⟨0, _⟩ => show win1_1.index t (0 : Fin 2) * 1 + 1 * 0 = 0; omega
    | ⟨1, _⟩ => show win1_1.index t (1 : Fin 2) * 128 + 1 * (j 1).val = win1_5.index t (1 : Fin 2) * 128 + 1 * (j 1).val; omega
  have h2 : ((cfg1.win 2).blk t).view.emb (ix2 (0 : Fin 1) (j 1)) = ix2 (0 : Fin 1) ((((cfg1.win 5).blk t).view.emb j) 1) := by
    funext a; apply Fin.ext
    match a with
    | ⟨0, _⟩ => show win1_2.index t (0 : Fin 2) * 1 + 1 * 0 = 0; omega
    | ⟨1, _⟩ => show win1_2.index t (1 : Fin 2) * 128 + 1 * (j 1).val = win1_5.index t (1 : Fin 2) * 128 + 1 * (j 1).val; omega
  have h3 : ((cfg1.win 3).blk t).view.emb (ix2 (0 : Fin 1) (j 1)) = ix2 (0 : Fin 1) ((((cfg1.win 5).blk t).view.emb j) 1) := by
    funext a; apply Fin.ext
    match a with
    | ⟨0, _⟩ => show win1_3.index t (0 : Fin 2) * 1 + 1 * 0 = 0; omega
    | ⟨1, _⟩ => show win1_3.index t (1 : Fin 2) * 128 + 1 * (j 1).val = win1_5.index t (1 : Fin 2) * 128 + 1 * (j 1).val; omega
  have h4 : ((cfg1.win 4).blk t).view.emb (ix2 (0 : Fin 1) (j 1)) = ix2 (0 : Fin 1) ((((cfg1.win 5).blk t).view.emb j) 1) := by
    funext a; apply Fin.ext
    match a with
    | ⟨0, _⟩ => show win1_4.index t (0 : Fin 2) * 1 + 1 * 0 = 0; omega
    | ⟨1, _⟩ => show win1_4.index t (1 : Fin 2) * 128 + 1 * (j 1).val = win1_5.index t (1 : Fin 2) * 128 + 1 * (j 1).val; omega
  show bnScalar (V c main_v16_0 (((cfg1.win 0).blk t).view.emb j))
        (V c main_v18 (((cfg1.win 1).blk t).view.emb (ix2 (0 : Fin 1) (j 1))))
        (V c main_v22 (((cfg1.win 2).blk t).view.emb (ix2 (0 : Fin 1) (j 1))))
        (V c main_v23 (((cfg1.win 3).blk t).view.emb (ix2 (0 : Fin 1) (j 1))))
        (V c main_v24 (((cfg1.win 4).blk t).view.emb (ix2 (0 : Fin 1) (j 1))))
      = bnScalar (V c main_v16_0 (((cfg1.win 5).blk t).view.emb j))
        (V c main_v18 (ix2 (0 : Fin 1) ((((cfg1.win 5).blk t).view.emb j) 1)))
        (V c main_v22 (ix2 (0 : Fin 1) ((((cfg1.win 5).blk t).view.emb j) 1)))
        (V c main_v23 (ix2 (0 : Fin 1) ((((cfg1.win 5).blk t).view.emb j) 1)))
        (V c main_v24 (ix2 (0 : Fin 1) ((((cfg1.win 5).blk t).view.emb j) 1)))
  rw [h0, h1, h2, h3, h4]
  rfl

/-- An index of the array is in point t's block iff each coordinate is in the block's range on its axis. -/
theorem mem_blk1 (t : Fin cfg1.N) (i : S100000x128.Idx) :
    i ∈ ((cfg1.win 5).blk t).view.set ↔ ∀ a : Fin 2, win1_5.index t a * S2000x128.size a ≤ (i a).val ∧ (i a).val < win1_5.index t a * S2000x128.size a + S2000x128.size a := by
  show i ∈ ((View.whole main_v25).slice (win1_5.rect t)).set ↔ _
  rw [View.set_slice_whole, Rect.mem_set_unit]
  exact Iff.rfl

/-- Every index of the array is in some point's block: row r is in block r / 2000. -/
theorem cover1 (i : S100000x128.Idx) :
    ∃ t : Fin cfg1.N, (cfg1.win 5).flush t = true ∧ i ∈ ((cfg1.win 5).blk t).view.set := by
  have hi0 : (i 0).val < 100000 := (i 0).isLt
  have hi1 : (i 1).val < 128 := (i 1).isLt
  have hq : (i 0).val / 2000 < 50 := by omega
  refine ⟨⟨(i 0).val / 2000, hq⟩, flush1_5 _, ?_⟩
  rw [mem_blk1]
  obtain ⟨e00, e01, e50, e51, -⟩ := idx_facts1 ⟨(i 0).val / 2000, hq⟩
  have e50' : win1_5.index ⟨(i 0).val / 2000, hq⟩ (0 : Fin 2) = (i 0).val / 2000 := e50
  intro a
  match a with
  | ⟨0, _⟩ => show win1_5.index ⟨(i 0).val / 2000, hq⟩ (0 : Fin 2) * 2000 ≤ (i 0).val ∧ (i 0).val < win1_5.index ⟨(i 0).val / 2000, hq⟩ (0 : Fin 2) * 2000 + 2000; omega
  | ⟨1, _⟩ => show win1_5.index ⟨(i 0).val / 2000, hq⟩ (1 : Fin 2) * 128 ≤ (i 1).val ∧ (i 1).val < win1_5.index ⟨(i 0).val / 2000, hq⟩ (1 : Fin 2) * 128 + 128; omega

/-- THE ARRAY AFTER PIPELINE 1: entry by entry the normalised entry of the array the region found, by the mean,
    variance, gain and bias rows it found. -/
theorem bn1_final (c : Dev nD) :
    (dat1 (F := Ideal) V c).arrAt 5 cfg1.N
      = fun i => bnScalar (V c main_v16_0 i) (V c main_v18 (ix2 (0 : Fin 1) (i 1))) (V c main_v22 (ix2 (0 : Fin 1) (i 1)))
          (V c main_v23 (ix2 (0 : Fin 1) (i 1))) (V c main_v24 (ix2 (0 : Fin 1) (i 1))) :=
  (dat1 (F := Ideal) V c).arrAt_eq_of_cover 5 _ (fun t _ => flushed1_eq V c t) cover1

end Cert.KernelIdeal.HandV

end
-- ==== Proof.BnValue3.lean ====
/-
  What normalisation region 3 leaves in its output array.

  The region runs over 50 points. At point t it reads block t of the layer's 100000 × 128 array (2000 rows) and the four
  rows of 128 numbers (mean, variance, gain, bias), and writes block t of the output array: entry (p, q) of the block
  is the normalised entry of row 2000·t + p, column q. The 50 blocks tile the output array, row r lying in block
  r / 2000, so after the region the output array is, entry by entry, the normalised entry of the arrays as the region
  found them.
-/
import proofs.«130004_j49941879718343_1_alg».proof.Proof.RegionBn3
import proofs.«130004_j49941879718343_1_alg».proof.Proof.BnValue0
import Idealize.ShloMosaic.Lib.Pipeline.Value

set_option maxRecDepth 16384

noncomputable section

namespace Cert.KernelIdeal.HandV

open Cert.KernelIdeal Cert.KernelIdeal.Gen Cert.KernelIdeal.Hand Idealize.ShloMosaic Idealize.ShloMosaic.TcCoe Idealize.SL.Sem
open Idealize.ShloMosaic.ValueIdx Cert.Math
open Idealize.ShloMosaic.Pipeline (Dat)

-- the core's buffer contents when the region is entered
variable (V : (c : Dev nD) → (b : Ref sig .tc) → Buf (Elt Ideal) ((c : Thread nD τ).loc b))

/-! ## Pipeline 3 -/

/-- The printed index maps of pipeline 3, decided over its 50 points: the array window (0) and the output window (5)
    take block t along the rows, block 0 along the columns; the four row windows stay at block (0, 0). -/
theorem idx_facts3 : ∀ t : Fin cfg3.N,
    win3_0.index t (0 : Fin 2) = t.val ∧ win3_0.index t (1 : Fin 2) = 0
    ∧ win3_5.index t (0 : Fin 2) = t.val ∧ win3_5.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0 :=
  (by decide +kernel : ∀ t : Fin grid3.N, _)

-- the arrays' element types are read off the buffer table by unfolding, once per array mentioned
set_option maxHeartbeats 2000000 in
/-- WHAT POINT t WRITES BACK is block t of the normalised array. -/
theorem flushed3_eq (c : Dev nD) (t : Fin cfg3.N) :
    (dat3 (F := Ideal) V c).flushed 5 t
      = ((cfg3.win 5).blk t).view.read (Elt Ideal)
          (bnArr (V c main_v42_0) (V c main_v44) (V c main_v48) (V c main_v49) (V c main_v50)) := by
  show (cfg3.win 5).cut (grid3.coords t) ((dat3 V c).after 5 t) = _
  rw [after3_5]
  unfold out3_5
  rw [View.canon_unit_zero hz2]
  simp only [View.ld_unit_zero (S := S2000x128) hz2, View.ld_unit_zero (S := S1x128) hz2]
  obtain ⟨e00, e01, e50, e51, e10, e11, e20, e21, e30, e31, e40, e41⟩ := idx_facts3 t
  funext j
  show k3_pay1 (F := Ideal) (iblk3 V c 0 t) (iblk3 V c 2 t) (iblk3 V c 1 t) (iblk3 V c 3 t) (iblk3 V c 4 t) j
      = bnArr (V c main_v42_0) (V c main_v44) (V c main_v48) (V c main_v49) (V c main_v50) (((cfg3.win 5).blk t).view.emb j)
  refine (k3_pay1_at (iblk3 V c 0 t) (iblk3 V c 2 t) (iblk3 V c 1 t) (iblk3 V c 3 t) (iblk3 V c 4 t) j).trans ?_
  have h0 : ((cfg3.win 0).blk t).view.emb j = ((cfg3.win 5).blk t).view.emb j := by
    funext a; apply Fin.ext
    match a with
    | ⟨0, _⟩ => show win3_0.index t (0 : Fin 2) * 2000 + 1 * (j 0).val = win3_5.index t (0 : Fin 2) * 2000 + 1 * (j 0).val; omega
    | ⟨1, _⟩ => show win3_0.index t (1 : Fin 2) * 128 + 1 * (j 1).val = win3_5.index t (1 : Fin 2) * 128 + 1 * (j 1).val; omega
  have h1 : ((cfg3.win 1).blk t).view.emb (ix2 (0 : Fin 1) (j 1)) = ix2 (0 : Fin 1) ((((cfg3.win 5).blk t).view.emb j) 1) := by
    funext a; apply Fin.ext
    match a with
    | ⟨0, _⟩ => show win3_1.index t (0 : Fin 2) * 1 + 1 * 0 = 0; omega
    | ⟨1, _⟩ => show win3_1.index t (1 : Fin 2) * 128 + 1 * (j 1).val = win3_5.index t (1 : Fin 2) * 128 + 1 * (j 1).val; omega
  have h2 : ((cfg3.win 2).blk t).view.emb (ix2 (0 : Fin 1) (j 1)) = ix2 (0 : Fin 1) ((((cfg3.win 5).blk t).view.emb j) 1) := by
    funext a; apply Fin.ext
    match a with
    | ⟨0, _⟩ => show win3_2.index t (0 : Fin 2) * 1 + 1 * 0 = 0; omega
    | ⟨1, _⟩ => show win3_2.index t (1 : Fin 2) * 128 + 1 * (j 1).val = win3_5.index t (1 : Fin 2) * 128 + 1 * (j 1).val; omega
  have h3 : ((cfg3.win 3).blk t).view.emb (ix2 (0 : Fin 1) (j 1)) = ix2 (0 : Fin 1) ((((cfg3.win 5).blk t).view.emb j) 1) := by
    funext a; apply Fin.ext
    match a with
    | ⟨0, _⟩ => show win3_3.index t (0 : Fin 2) * 1 + 1 * 0 = 0; omega
    | ⟨1, _⟩ => show win3_3.index t (1 : Fin 2) * 128 + 1 * (j 1).val = win3_5.index t (1 : Fin 2) * 128 + 1 * (j 1).val; omega
  have h4 : ((cfg3.win 4).blk t).view.emb (ix2 (0 : Fin 1) (j 1)) = ix2 (0 : Fin 1) ((((cfg3.win 5).blk t).view.emb j) 1) := by
    funext a; apply Fin.ext
    match a with
    | ⟨0, _⟩ => show win3_4.index t (0 : Fin 2) * 1 + 1 * 0 = 0; omega
    | ⟨1, _⟩ => show win3_4.index t (1 : Fin 2) * 128 + 1 * (j 1).val = win3_5.index t (1 : Fin 2) * 128 + 1 * (j 1).val; omega
  show bnScalar (V c main_v42_0 (((cfg3.win 0).blk t).view.emb j))
        (V c main_v44 (((cfg3.win 1).blk t).view.emb (ix2 (0 : Fin 1) (j 1))))
        (V c main_v48 (((cfg3.win 2).blk t).view.emb (ix2 (0 : Fin 1) (j 1))))
        (V c main_v49 (((cfg3.win 3).blk t).view.emb (ix2 (0 : Fin 1) (j 1))))
        (V c main_v50 (((cfg3.win 4).blk t).view.emb (ix2 (0 : Fin 1) (j 1))))
      = bnScalar (V c main_v42_0 (((cfg3.win 5).blk t).view.emb j))
        (V c main_v44 (ix2 (0 : Fin 1) ((((cfg3.win 5).blk t).view.emb j) 1)))
        (V c main_v48 (ix2 (0 : Fin 1) ((((cfg3.win 5).blk t).view.emb j) 1)))
        (V c main_v49 (ix2 (0 : Fin 1) ((((cfg3.win 5).blk t).view.emb j) 1)))
        (V c main_v50 (ix2 (0 : Fin 1) ((((cfg3.win 5).blk t).view.emb j) 1)))
  rw [h0, h1, h2, h3, h4]
  rfl

/-- An index of the array is in point t's block iff each coordinate is in the block's range on its axis. -/
theorem mem_blk3 (t : Fin cfg3.N) (i : S100000x128.Idx) :
    i ∈ ((cfg3.win 5).blk t).view.set ↔ ∀ a : Fin 2, win3_5.index t a * S2000x128.size a ≤ (i a).val ∧ (i a).val < win3_5.index t a * S2000x128.size a + S2000x128.size a := by
  show i ∈ ((View.whole main_v51).slice (win3_5.rect t)).set ↔ _
  rw [View.set_slice_whole, Rect.mem_set_unit]
  exact Iff.rfl

/-- Every index of the array is in some point's block: row r is in block r / 2000. -/
theorem cover3 (i : S100000x128.Idx) :
    ∃ t : Fin cfg3.N, (cfg3.win 5).flush t = true ∧ i ∈ ((cfg3.win 5).blk t).view.set := by
  have hi0 : (i 0).val < 100000 := (i 0).isLt
  have hi1 : (i 1).val < 128 := (i 1).isLt
  have hq : (i 0).val / 2000 < 50 := by omega
  refine ⟨⟨(i 0).val / 2000, hq⟩, flush3_5 _, ?_⟩
  rw [mem_blk3]
  obtain ⟨e00, e01, e50, e51, -⟩ := idx_facts3 ⟨(i 0).val / 2000, hq⟩
  have e50' : win3_5.index ⟨(i 0).val / 2000, hq⟩ (0 : Fin 2) = (i 0).val / 2000 := e50
  intro a
  match a with
  | ⟨0, _⟩ => show win3_5.index ⟨(i 0).val / 2000, hq⟩ (0 : Fin 2) * 2000 ≤ (i 0).val ∧ (i 0).val < win3_5.index ⟨(i 0).val / 2000, hq⟩ (0 : Fin 2) * 2000 + 2000; omega
  | ⟨1, _⟩ => show win3_5.index ⟨(i 0).val / 2000, hq⟩ (1 : Fin 2) * 128 ≤ (i 1).val ∧ (i 1).val < win3_5.index ⟨(i 0).val / 2000, hq⟩ (1 : Fin 2) * 128 + 128; omega

/-- THE ARRAY AFTER PIPELINE 3: entry by entry the normalised entry of the array the region found, by the mean,
    variance, gain and bias rows it found. -/
theorem bn3_final (c : Dev nD) :
    (dat3 (F := Ideal) V c).arrAt 5 cfg3.N
      = fun i => bnScalar (V c main_v42_0 i) (V c main_v44 (ix2 (0 : Fin 1) (i 1))) (V c main_v48 (ix2 (0 : Fin 1) (i 1)))
          (V c main_v49 (ix2 (0 : Fin 1) (i 1))) (V c main_v50 (ix2 (0 : Fin 1) (i 1))) :=
  (dat3 (F := Ideal) V c).arrAt_eq_of_cover 5 _ (fun t _ => flushed3_eq V c t) cover3

end Cert.KernelIdeal.HandV

end
-- ==== Proof.BnValue5.lean ====
/-
  What normalisation region 5 leaves in its output array.

  The region runs over 50 points. At point t it reads block t of the layer's 100000 × 128 array (2000 rows) and the four
  rows of 128 numbers (mean, variance, gain, bias), and writes block t of the output array: entry (p, q) of the block
  is the normalised entry of row 2000·t + p, column q. The 50 blocks tile the output array, row r lying in block
  r / 2000, so after the region the output array is, entry by entry, the normalised entry of the arrays as the region
  found them.
-/
import proofs.«130004_j49941879718343_1_alg».proof.Proof.RegionBn5
import proofs.«130004_j49941879718343_1_alg».proof.Proof.BnValue0
import Idealize.ShloMosaic.Lib.Pipeline.Value

set_option maxRecDepth 16384

noncomputable section

namespace Cert.KernelIdeal.HandV

open Cert.KernelIdeal Cert.KernelIdeal.Gen Cert.KernelIdeal.Hand Idealize.ShloMosaic Idealize.ShloMosaic.TcCoe Idealize.SL.Sem
open Idealize.ShloMosaic.ValueIdx Cert.Math
open Idealize.ShloMosaic.Pipeline (Dat)

-- the core's buffer contents when the region is entered
variable (V : (c : Dev nD) → (b : Ref sig .tc) → Buf (Elt Ideal) ((c : Thread nD τ).loc b))

/-! ## Pipeline 5 -/

/-- The printed index maps of pipeline 5, decided over its 50 points: the array window (0) and the output window (5)
    take block t along the rows, block 0 along the columns; the four row windows stay at block (0, 0). -/
theorem idx_facts5 : ∀ t : Fin cfg5.N,
    win5_0.index t (0 : Fin 2) = t.val ∧ win5_0.index t (1 : Fin 2) = 0
    ∧ win5_5.index t (0 : Fin 2) = t.val ∧ win5_5.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0 :=
  (by decide +kernel : ∀ t : Fin grid5.N, _)

-- the arrays' element types are read off the buffer table by unfolding, once per array mentioned
set_option maxHeartbeats 2000000 in
/-- WHAT POINT t WRITES BACK is block t of the normalised array. -/
theorem flushed5_eq (c : Dev nD) (t : Fin cfg5.N) :
    (dat5 (F := Ideal) V c).flushed 5 t
      = ((cfg5.win 5).blk t).view.read (Elt Ideal)
          (bnArr (V c main_v68_0) (V c main_v70) (V c main_v74) (V c main_v75) (V c main_v76)) := by
  show (cfg5.win 5).cut (grid5.coords t) ((dat5 V c).after 5 t) = _
  rw [after5_5]
  unfold out5_5
  rw [View.canon_unit_zero hz2]
  simp only [View.ld_unit_zero (S := S2000x128) hz2, View.ld_unit_zero (S := S1x128) hz2]
  obtain ⟨e00, e01, e50, e51, e10, e11, e20, e21, e30, e31, e40, e41⟩ := idx_facts5 t
  funext j
  show k5_pay1 (F := Ideal) (iblk5 V c 0 t) (iblk5 V c 2 t) (iblk5 V c 1 t) (iblk5 V c 3 t) (iblk5 V c 4 t) j
      = bnArr (V c main_v68_0) (V c main_v70) (V c main_v74) (V c main_v75) (V c main_v76) (((cfg5.win 5).blk t).view.emb j)
  refine (k5_pay1_at (iblk5 V c 0 t) (iblk5 V c 2 t) (iblk5 V c 1 t) (iblk5 V c 3 t) (iblk5 V c 4 t) j).trans ?_
  have h0 : ((cfg5.win 0).blk t).view.emb j = ((cfg5.win 5).blk t).view.emb j := by
    funext a; apply Fin.ext
    match a with
    | ⟨0, _⟩ => show win5_0.index t (0 : Fin 2) * 2000 + 1 * (j 0).val = win5_5.index t (0 : Fin 2) * 2000 + 1 * (j 0).val; omega
    | ⟨1, _⟩ => show win5_0.index t (1 : Fin 2) * 128 + 1 * (j 1).val = win5_5.index t (1 : Fin 2) * 128 + 1 * (j 1).val; omega
  have h1 : ((cfg5.win 1).blk t).view.emb (ix2 (0 : Fin 1) (j 1)) = ix2 (0 : Fin 1) ((((cfg5.win 5).blk t).view.emb j) 1) := by
    funext a; apply Fin.ext
    match a with
    | ⟨0, _⟩ => show win5_1.index t (0 : Fin 2) * 1 + 1 * 0 = 0; omega
    | ⟨1, _⟩ => show win5_1.index t (1 : Fin 2) * 128 + 1 * (j 1).val = win5_5.index t (1 : Fin 2) * 128 + 1 * (j 1).val; omega
  have h2 : ((cfg5.win 2).blk t).view.emb (ix2 (0 : Fin 1) (j 1)) = ix2 (0 : Fin 1) ((((cfg5.win 5).blk t).view.emb j) 1) := by
    funext a; apply Fin.ext
    match a with
    | ⟨0, _⟩ => show win5_2.index t (0 : Fin 2) * 1 + 1 * 0 = 0; omega
    | ⟨1, _⟩ => show win5_2.index t (1 : Fin 2) * 128 + 1 * (j 1).val = win5_5.index t (1 : Fin 2) * 128 + 1 * (j 1).val; omega
  have h3 : ((cfg5.win 3).blk t).view.emb (ix2 (0 : Fin 1) (j 1)) = ix2 (0 : Fin 1) ((((cfg5.win 5).blk t).view.emb j) 1) := by
    funext a; apply Fin.ext
    match a with
    | ⟨0, _⟩ => show win5_3.index t (0 : Fin 2) * 1 + 1 * 0 = 0; omega
    | ⟨1, _⟩ => show win5_3.index t (1 : Fin 2) * 128 + 1 * (j 1).val = win5_5.index t (1 : Fin 2) * 128 + 1 * (j 1).val; omega
  have h4 : ((cfg5.win 4).blk t).view.emb (ix2 (0 : Fin 1) (j 1)) = ix2 (0 : Fin 1) ((((cfg5.win 5).blk t).view.emb j) 1) := by
    funext a; apply Fin.ext
    match a with
    | ⟨0, _⟩ => show win5_4.index t (0 : Fin 2) * 1 + 1 * 0 = 0; omega
    | ⟨1, _⟩ => show win5_4.index t (1 : Fin 2) * 128 + 1 * (j 1).val = win5_5.index t (1 : Fin 2) * 128 + 1 * (j 1).val; omega
  show bnScalar (V c main_v68_0 (((cfg5.win 0).blk t).view.emb j))
        (V c main_v70 (((cfg5.win 1).blk t).view.emb (ix2 (0 : Fin 1) (j 1))))
        (V c main_v74 (((cfg5.win 2).blk t).view.emb (ix2 (0 : Fin 1) (j 1))))
        (V c main_v75 (((cfg5.win 3).blk t).view.emb (ix2 (0 : Fin 1) (j 1))))
        (V c main_v76 (((cfg5.win 4).blk t).view.emb (ix2 (0 : Fin 1) (j 1))))
      = bnScalar (V c main_v68_0 (((cfg5.win 5).blk t).view.emb j))
        (V c main_v70 (ix2 (0 : Fin 1) ((((cfg5.win 5).blk t).view.emb j) 1)))
        (V c main_v74 (ix2 (0 : Fin 1) ((((cfg5.win 5).blk t).view.emb j) 1)))
        (V c main_v75 (ix2 (0 : Fin 1) ((((cfg5.win 5).blk t).view.emb j) 1)))
        (V c main_v76 (ix2 (0 : Fin 1) ((((cfg5.win 5).blk t).view.emb j) 1)))
  rw [h0, h1, h2, h3, h4]
  rfl

/-- An index of the array is in point t's block iff each coordinate is in the block's range on its axis. -/
theorem mem_blk5 (t : Fin cfg5.N) (i : S100000x128.Idx) :
    i ∈ ((cfg5.win 5).blk t).view.set ↔ ∀ a : Fin 2, win5_5.index t a * S2000x128.size a ≤ (i a).val ∧ (i a).val < win5_5.index t a * S2000x128.size a + S2000x128.size a := by
  show i ∈ ((View.whole main_v77).slice (win5_5.rect t)).set ↔ _
  rw [View.set_slice_whole, Rect.mem_set_unit]
  exact Iff.rfl

/-- Every index of the array is in some point's block: row r is in block r / 2000. -/
theorem cover5 (i : S100000x128.Idx) :
    ∃ t : Fin cfg5.N, (cfg5.win 5).flush t = true ∧ i ∈ ((cfg5.win 5).blk t).view.set := by
  have hi0 : (i 0).val < 100000 := (i 0).isLt
  have hi1 : (i 1).val < 128 := (i 1).isLt
  have hq : (i 0).val / 2000 < 50 := by omega
  refine ⟨⟨(i 0).val / 2000, hq⟩, flush5_5 _, ?_⟩
  rw [mem_blk5]
  obtain ⟨e00, e01, e50, e51, -⟩ := idx_facts5 ⟨(i 0).val / 2000, hq⟩
  have e50' : win5_5.index ⟨(i 0).val / 2000, hq⟩ (0 : Fin 2) = (i 0).val / 2000 := e50
  intro a
  match a with
  | ⟨0, _⟩ => show win5_5.index ⟨(i 0).val / 2000, hq⟩ (0 : Fin 2) * 2000 ≤ (i 0).val ∧ (i 0).val < win5_5.index ⟨(i 0).val / 2000, hq⟩ (0 : Fin 2) * 2000 + 2000; omega
  | ⟨1, _⟩ => show win5_5.index ⟨(i 0).val / 2000, hq⟩ (1 : Fin 2) * 128 ≤ (i 1).val ∧ (i 1).val < win5_5.index ⟨(i 0).val / 2000, hq⟩ (1 : Fin 2) * 128 + 128; omega

/-- THE ARRAY AFTER PIPELINE 5: entry by entry the normalised entry of the array the region found, by the mean,
    variance, gain and bias rows it found. -/
theorem bn5_final (c : Dev nD) :
    (dat5 (F := Ideal) V c).arrAt 5 cfg5.N
      = fun i => bnScalar (V c main_v68_0 i) (V c main_v70 (ix2 (0 : Fin 1) (i 1))) (V c main_v74 (ix2 (0 : Fin 1) (i 1)))
          (V c main_v75 (ix2 (0 : Fin 1) (i 1))) (V c main_v76 (ix2 (0 : Fin 1) (i 1))) :=
  (dat5 (F := Ideal) V c).arrAt_eq_of_cover 5 _ (fun t _ => flushed5_eq V c t) cover5

end Cert.KernelIdeal.HandV

end
-- ==== Proof.BnValue.lean ====
/-
  What the three normalisation regions leave in their output arrays: the three statements together.
-/
import proofs.«130004_j49941879718343_1_alg».proof.Proof.BnValue1
import proofs.«130004_j49941879718343_1_alg».proof.Proof.BnValue3
import proofs.«130004_j49941879718343_1_alg».proof.Proof.BnValue5
-- ==== Proof.FinalValue.lean ====
import proofs.«130004_j49941879718343_1_alg».proof.Proof.RegionFinal6
import proofs.«130004_j49941879718343_1_alg».proof.Proof.MathFinal
import Idealize.ShloMosaic.Lib.Pipeline.Value

/-!
# The value of the last region: the whole output array as one function of the arrays the region finds

The region has one grid point and every window's one block is its whole array: the three inputs' blocks are the
[512, 384] pooled features, the [384, 128] weights and the [1, 128] bias row as the region finds them, and the one
write-back covers the [512, 128] output.  So after the region the output array holds, at (p, q), the last layer's
entry  finalEntry  of those three arrays: row p of the features through the linear map, divided by its thresholded
Euclidean length.
-/

set_option maxRecDepth 16384

noncomputable section

namespace Cert.KernelIdeal.HandV

open Cert.KernelIdeal Cert.KernelIdeal.Gen Cert.KernelIdeal.Hand Cert.Math
open Idealize.ShloMosaic Idealize.ShloMosaic.TcCoe Idealize.ShloMosaic.ValueIdx
open Idealize.SL.Sem
open Idealize.ShloMosaic.Pipeline (Dat Cfg Window)

-- the core's buffer contents when the region is entered, as extended reals
variable (V : (c : Dev nD) → (b : Ref sig .tc) → Buf (Elt Ideal) ((c : Thread nD τ).loc b))

theorem hz_fin6 : (![0, 0] : Fin 2 → Nat) = fun _ => 0 := funext fun a => by fin_cases a <;> rfl

/-- The body's stored value at any index of the block: the last layer's entry of the loaded arrays. -/
theorem pay6_at (X0 : Vec Ideal S512x384 .f32) (X1 : Vec Ideal S384x128 .f32) (X2 : Vec Ideal S1x128 .f32) (j : S512x128.Idx) :
    k6_pay1 (F := Ideal) X0 X1 X2 j
      = finalEntry (fun r k => X0 (ix2 r k)) (fun k q => X1 (ix2 k q)) (fun q => X2 (ix2 (0 : Fin 1) q))
          (⟨(j 0).val, (j 0).isLt⟩ : Fin 512) (⟨(j 1).val, (j 1).isLt⟩ : Fin 128) := by
  obtain ⟨p, q, rfl⟩ : ∃ (p : Fin 512) (q : Fin 128), j = ix2 p q := ⟨j 0, j 1, eq_ix2 j⟩
  exact k6_pay1_apply X0 X1 X2 p q

/-- What the body leaves in the output's buffer is its one store's value of the three loaded blocks. -/
theorem out6_3_eq (X0 : Vec Ideal S512x384 .f32) (X1 : Vec Ideal S384x128 .f32) (X2 : Vec Ideal S1x128 .f32) :
    out6_3 (F := Ideal) X0 X1 X2 = k6_pay1 (F := Ideal) X0 X1 X2 := by
  unfold out6_3
  rw [View.canon_unit_zero hz_fin6]
  simp only [View.ld_unit_zero (S := S512x384) hz_fin6, View.ld_unit_zero (S := S384x128) hz_fin6,
    View.ld_unit_zero (S := S1x128) hz_fin6]

/-! ## Each input window's one block is its whole array -/

theorem iblk6_0_eq (c : Dev nD) (t : Fin cfg6.N) : iblk6 V c 0 t = V c main_v114 := by
  obtain rfl : t = t6_0 := fin_N6 t
  have hz' : (fun a => win6_0.index t6_0 a * main_v114.ty.shape.size a) = fun _ => 0 :=
    funext fun a => by fin_cases a <;> decide
  exact Memref.read_access_unit_zero (Elt Ideal) main_v114 hz' (fun a => by rw [congrFun hz' a]; simp) (V c main_v114)

theorem iblk6_1_eq (c : Dev nD) (t : Fin cfg6.N) : iblk6 V c 1 t = V c main_arg21 := by
  obtain rfl : t = t6_0 := fin_N6 t
  have hz' : (fun a => win6_1.index t6_0 a * main_arg21.ty.shape.size a) = fun _ => 0 :=
    funext fun a => by fin_cases a <;> decide
  exact Memref.read_access_unit_zero (Elt Ideal) main_arg21 hz' (fun a => by rw [congrFun hz' a]; simp) (V c main_arg21)

theorem iblk6_2_eq (c : Dev nD) (t : Fin cfg6.N) : iblk6 V c 2 t = V c main_v115 := by
  obtain rfl : t = t6_0 := fin_N6 t
  have hz' : (fun a => win6_2.index t6_0 a * main_v115.ty.shape.size a) = fun _ => 0 :=
    funext fun a => by fin_cases a <;> decide
  exact Memref.read_access_unit_zero (Elt Ideal) main_v115 hz' (fun a => by rw [congrFun hz' a]; simp) (V c main_v115)

/-! ## The output array -/

/-- The last layer of the arrays the region finds, as contents of the output array. -/
abbrev G6 (c : Dev nD) : Buf (Elt Ideal) ((c : Thread nD τ).loc main_v116) := fun i =>
  finalEntry (fun r k => V c main_v114 (ix2 r k)) (fun k q => V c main_arg21 (ix2 k q))
    (fun q => V c main_v115 (ix2 (0 : Fin 1) q)) (⟨(i 0).val, (i 0).isLt⟩ : Fin 512) (⟨(i 1).val, (i 1).isLt⟩ : Fin 128)

/-- What the one point writes back is the one block, the whole, of that array. -/
theorem flushed6_eq (c : Dev nD) (t : Fin cfg6.N) :
    (dat6 (F := Ideal) V c).flushed 3 t = ((cfg6.win 3).blk t).view.read (Elt Ideal) (G6 V c) := by
  obtain rfl : t = t6_0 := fin_N6 t
  have hz' : (fun a => win6_3.index t6_0 a * main_v116.ty.shape.size a) = fun _ => 0 :=
    funext fun a => by fin_cases a <;> decide
  show (cfg6.win 3).cut (grid6.coords t6_0) ((dat6 (F := Ideal) V c).after 3 t6_0) = _
  rw [after6_3, out6_3_eq, iblk6_0_eq, iblk6_1_eq, iblk6_2_eq]
  exact (funext fun j => pay6_at (V c main_v114) (V c main_arg21) (V c main_v115) j).trans
    (Memref.read_access_unit_zero (Elt Ideal) main_v116 hz' (fun a => by rw [congrFun hz' a]; simp) (G6 V c)).symm

/-- So the output array ends holding the last layer of the arrays the region finds. -/
theorem final6 (c : Dev nD) : (dat6 (F := Ideal) V c).arrAt 3 cfg6.N = fun i =>
    finalEntry (fun r k => V c main_v114 (ix2 r k)) (fun k q => V c main_arg21 (ix2 k q))
      (fun q => V c main_v115 (ix2 (0 : Fin 1) q)) (⟨(i 0).val, (i 0).isLt⟩ : Fin 512) (⟨(i 1).val, (i 1).isLt⟩ : Fin 128) :=
  (dat6 (F := Ideal) V c).arrAt_eq_of_cover 3 (G6 V c) (fun t _ => flushed6_eq V c t) fun i =>
    ⟨t6_0, flush6_3 t6_0, by
      show i ∈ ((View.whole main_v116).slice (win6_3.rect t6_0)).set
      rw [View.set_slice_whole, Rect.mem_set_unit]
      intro a
      have h0 : (i 0 : Nat) < 512 := (i 0).isLt
      have h1 : (i 1 : Nat) < 128 := (i 1).isLt
      match a with
      | ⟨0, _⟩ =>
        show win6_3.index t6_0 0 * win6_3.size 0 ≤ (i 0 : Nat)
          ∧ (i 0 : Nat) < win6_3.index t6_0 0 * win6_3.size 0 + win6_3.xsize (grid6.coords t6_0) 0
        rw [show win6_3.index t6_0 0 * win6_3.size 0 = 0 from by decide +kernel,
          show win6_3.xsize (grid6.coords t6_0) 0 = 512 from by decide +kernel]
        omega
      | ⟨1, _⟩ =>
        show win6_3.index t6_0 1 * win6_3.size 1 ≤ (i 1 : Nat)
          ∧ (i 1 : Nat) < win6_3.index t6_0 1 * win6_3.size 1 + win6_3.xsize (grid6.coords t6_0) 1
        rw [show win6_3.index t6_0 1 * win6_3.size 1 = 0 from by decide +kernel,
          show win6_3.xsize (grid6.coords t6_0) 1 = 128 from by decide +kernel]
        omega⟩

end Cert.KernelIdeal.HandV

end
-- ==== Proof.KernelValue.lean ====
import proofs.«130004_j49941879718343_1_alg».proof.Proof.Chain
import proofs.«130004_j49941879718343_1_alg».proof.Proof.Spec
import proofs.«130004_j49941879718343_1_alg».proof.Proof.GinArrays0
import proofs.«130004_j49941879718343_1_alg».proof.Proof.GinArrays2
import proofs.«130004_j49941879718343_1_alg».proof.Proof.GinArrays4
import proofs.«130004_j49941879718343_1_alg».proof.Proof.GinOut
import proofs.«130004_j49941879718343_1_alg».proof.Proof.BnValue
import proofs.«130004_j49941879718343_1_alg».proof.Proof.FinalValue

/-!
# The kernel program's result is the specification

The run's last boundary holds, in the last region's output array, the specification's result of the 23 argument arrays
as launched. The proof walks the fourteen boundaries. Per layer: the host stretch before the linear region leaves the
aggregation of the layer's input and the two bias rows, and leaves the arguments alone, so the region's
pre-normalisation array is the specification's `layerHm`; the region leaves that array and its column sums and column
sums of squares; the next host stretch turns the sums into the column means and the one-pass column variances, and
lays out the gain and the shift as rows; the normalisation region leaves the normalised, rectified array, which is
the specification's `layerOut`. The second and third layers read the previous layer's output where the first reads
the input argument. Then the last host stretch pools the three layers' outputs per graph and joins them, and the last
region applies the last linear map and the row normalisation. No entry needs to be finite for any of this: every
step is the same expression on both sides.
-/

set_option maxRecDepth 16384

noncomputable section

namespace Cert.KernelIdeal.HandV

open Cert.KernelIdeal Cert.KernelIdeal.Gen Cert.KernelIdeal.Hand Cert.Math Cert.Spec
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ) (ρ : Dev nD → PrngReg) (c : Dev nD)

/-- The contents of reference `b` on core `c` at launch. -/
abbrev argAt (b : Ref sig .tc) : Buf (Elt Ideal) ((c : Thread nD τ).loc b) := m ((c : Thread nD τ).loc b)

/-! ## A buffer nothing has written yet holds its launch contents -/

theorem kept1 (b : Ref sig .tc) (h0 : b ∉ hostOps0_W) :
    W1 m ρ c (Proc.devRef .tc b) = argAt m c b :=
  (W1_host m ρ c b h0).trans rfl
theorem kept2 (b : Ref sig .tc) (h0 : b ∉ hostOps0_W) (o0 : ∀ w, (cfg0.win w).isOut = true → Pipeline.arrRef spec0 w ≠ b) :
    W2 m ρ c (Proc.devRef .tc b) = argAt m c b :=
  (W2_keep m ρ c b o0).trans (kept1 m ρ c b h0)
theorem kept3 (b : Ref sig .tc) (h0 : b ∉ hostOps0_W) (o0 : ∀ w, (cfg0.win w).isOut = true → Pipeline.arrRef spec0 w ≠ b) (h1 : b ∉ hostOps1_W) :
    W3 m ρ c (Proc.devRef .tc b) = argAt m c b :=
  (W3_host m ρ c b h1).trans (kept2 m ρ c b h0 o0)
theorem kept4 (b : Ref sig .tc) (h0 : b ∉ hostOps0_W) (o0 : ∀ w, (cfg0.win w).isOut = true → Pipeline.arrRef spec0 w ≠ b) (h1 : b ∉ hostOps1_W) (o1 : ∀ w, (cfg1.win w).isOut = true → Pipeline.arrRef spec1 w ≠ b) :
    W4 m ρ c (Proc.devRef .tc b) = argAt m c b :=
  (W4_keep m ρ c b o1).trans (kept3 m ρ c b h0 o0 h1)
theorem kept5 (b : Ref sig .tc) (h0 : b ∉ hostOps0_W) (o0 : ∀ w, (cfg0.win w).isOut = true → Pipeline.arrRef spec0 w ≠ b) (h1 : b ∉ hostOps1_W) (o1 : ∀ w, (cfg1.win w).isOut = true → Pipeline.arrRef spec1 w ≠ b) (h2 : b ∉ hostOps2_W) :
    W5 m ρ c (Proc.devRef .tc b) = argAt m c b :=
  (W5_host m ρ c b h2).trans (kept4 m ρ c b h0 o0 h1 o1)
theorem kept6 (b : Ref sig .tc) (h0 : b ∉ hostOps0_W) (o0 : ∀ w, (cfg0.win w).isOut = true → Pipeline.arrRef spec0 w ≠ b) (h1 : b ∉ hostOps1_W) (o1 : ∀ w, (cfg1.win w).isOut = true → Pipeline.arrRef spec1 w ≠ b) (h2 : b ∉ hostOps2_W) (o2 : ∀ w, (cfg2.win w).isOut = true → Pipeline.arrRef spec2 w ≠ b) :
    W6 m ρ c (Proc.devRef .tc b) = argAt m c b :=
  (W6_keep m ρ c b o2).trans (kept5 m ρ c b h0 o0 h1 o1 h2)
theorem kept7 (b : Ref sig .tc) (h0 : b ∉ hostOps0_W) (o0 : ∀ w, (cfg0.win w).isOut = true → Pipeline.arrRef spec0 w ≠ b) (h1 : b ∉ hostOps1_W) (o1 : ∀ w, (cfg1.win w).isOut = true → Pipeline.arrRef spec1 w ≠ b) (h2 : b ∉ hostOps2_W) (o2 : ∀ w, (cfg2.win w).isOut = true → Pipeline.arrRef spec2 w ≠ b) (h3 : b ∉ hostOps3_W) :
    W7 m ρ c (Proc.devRef .tc b) = argAt m c b :=
  (W7_host m ρ c b h3).trans (kept6 m ρ c b h0 o0 h1 o1 h2 o2)
theorem kept8 (b : Ref sig .tc) (h0 : b ∉ hostOps0_W) (o0 : ∀ w, (cfg0.win w).isOut = true → Pipeline.arrRef spec0 w ≠ b) (h1 : b ∉ hostOps1_W) (o1 : ∀ w, (cfg1.win w).isOut = true → Pipeline.arrRef spec1 w ≠ b) (h2 : b ∉ hostOps2_W) (o2 : ∀ w, (cfg2.win w).isOut = true → Pipeline.arrRef spec2 w ≠ b) (h3 : b ∉ hostOps3_W) (o3 : ∀ w, (cfg3.win w).isOut = true → Pipeline.arrRef spec3 w ≠ b) :
    W8 m ρ c (Proc.devRef .tc b) = argAt m c b :=
  (W8_keep m ρ c b o3).trans (kept7 m ρ c b h0 o0 h1 o1 h2 o2 h3)
theorem kept9 (b : Ref sig .tc) (h0 : b ∉ hostOps0_W) (o0 : ∀ w, (cfg0.win w).isOut = true → Pipeline.arrRef spec0 w ≠ b) (h1 : b ∉ hostOps1_W) (o1 : ∀ w, (cfg1.win w).isOut = true → Pipeline.arrRef spec1 w ≠ b) (h2 : b ∉ hostOps2_W) (o2 : ∀ w, (cfg2.win w).isOut = true → Pipeline.arrRef spec2 w ≠ b) (h3 : b ∉ hostOps3_W) (o3 : ∀ w, (cfg3.win w).isOut = true → Pipeline.arrRef spec3 w ≠ b) (h4 : b ∉ hostOps4_W) :
    W9 m ρ c (Proc.devRef .tc b) = argAt m c b :=
  (W9_host m ρ c b h4).trans (kept8 m ρ c b h0 o0 h1 o1 h2 o2 h3 o3)
theorem kept10 (b : Ref sig .tc) (h0 : b ∉ hostOps0_W) (o0 : ∀ w, (cfg0.win w).isOut = true → Pipeline.arrRef spec0 w ≠ b) (h1 : b ∉ hostOps1_W) (o1 : ∀ w, (cfg1.win w).isOut = true → Pipeline.arrRef spec1 w ≠ b) (h2 : b ∉ hostOps2_W) (o2 : ∀ w, (cfg2.win w).isOut = true → Pipeline.arrRef spec2 w ≠ b) (h3 : b ∉ hostOps3_W) (o3 : ∀ w, (cfg3.win w).isOut = true → Pipeline.arrRef spec3 w ≠ b) (h4 : b ∉ hostOps4_W) (o4 : ∀ w, (cfg4.win w).isOut = true → Pipeline.arrRef spec4 w ≠ b) :
    W10 m ρ c (Proc.devRef .tc b) = argAt m c b :=
  (W10_keep m ρ c b o4).trans (kept9 m ρ c b h0 o0 h1 o1 h2 o2 h3 o3 h4)
theorem kept11 (b : Ref sig .tc) (h0 : b ∉ hostOps0_W) (o0 : ∀ w, (cfg0.win w).isOut = true → Pipeline.arrRef spec0 w ≠ b) (h1 : b ∉ hostOps1_W) (o1 : ∀ w, (cfg1.win w).isOut = true → Pipeline.arrRef spec1 w ≠ b) (h2 : b ∉ hostOps2_W) (o2 : ∀ w, (cfg2.win w).isOut = true → Pipeline.arrRef spec2 w ≠ b) (h3 : b ∉ hostOps3_W) (o3 : ∀ w, (cfg3.win w).isOut = true → Pipeline.arrRef spec3 w ≠ b) (h4 : b ∉ hostOps4_W) (o4 : ∀ w, (cfg4.win w).isOut = true → Pipeline.arrRef spec4 w ≠ b) (h5 : b ∉ hostOps5_W) :
    W11 m ρ c (Proc.devRef .tc b) = argAt m c b :=
  (W11_host m ρ c b h5).trans (kept10 m ρ c b h0 o0 h1 o1 h2 o2 h3 o3 h4 o4)
theorem kept12 (b : Ref sig .tc) (h0 : b ∉ hostOps0_W) (o0 : ∀ w, (cfg0.win w).isOut = true → Pipeline.arrRef spec0 w ≠ b) (h1 : b ∉ hostOps1_W) (o1 : ∀ w, (cfg1.win w).isOut = true → Pipeline.arrRef spec1 w ≠ b) (h2 : b ∉ hostOps2_W) (o2 : ∀ w, (cfg2.win w).isOut = true → Pipeline.arrRef spec2 w ≠ b) (h3 : b ∉ hostOps3_W) (o3 : ∀ w, (cfg3.win w).isOut = true → Pipeline.arrRef spec3 w ≠ b) (h4 : b ∉ hostOps4_W) (o4 : ∀ w, (cfg4.win w).isOut = true → Pipeline.arrRef spec4 w ≠ b) (h5 : b ∉ hostOps5_W) (o5 : ∀ w, (cfg5.win w).isOut = true → Pipeline.arrRef spec5 w ≠ b) :
    W12 m ρ c (Proc.devRef .tc b) = argAt m c b :=
  (W12_keep m ρ c b o5).trans (kept11 m ρ c b h0 o0 h1 o1 h2 o2 h3 o3 h4 o4 h5)
theorem kept13 (b : Ref sig .tc) (h0 : b ∉ hostOps0_W) (o0 : ∀ w, (cfg0.win w).isOut = true → Pipeline.arrRef spec0 w ≠ b) (h1 : b ∉ hostOps1_W) (o1 : ∀ w, (cfg1.win w).isOut = true → Pipeline.arrRef spec1 w ≠ b) (h2 : b ∉ hostOps2_W) (o2 : ∀ w, (cfg2.win w).isOut = true → Pipeline.arrRef spec2 w ≠ b) (h3 : b ∉ hostOps3_W) (o3 : ∀ w, (cfg3.win w).isOut = true → Pipeline.arrRef spec3 w ≠ b) (h4 : b ∉ hostOps4_W) (o4 : ∀ w, (cfg4.win w).isOut = true → Pipeline.arrRef spec4 w ≠ b) (h5 : b ∉ hostOps5_W) (o5 : ∀ w, (cfg5.win w).isOut = true → Pipeline.arrRef spec5 w ≠ b) (h6 : b ∉ hostOps6_W) :
    W13 m ρ c (Proc.devRef .tc b) = argAt m c b :=
  (W13_host m ρ c b h6).trans (kept12 m ρ c b h0 o0 h1 o1 h2 o2 h3 o3 h4 o4 h5 o5)

/-! ## Layer 1: host stretch 0, linear region 0, host stretch 1, normalisation region 1 -/

/-- The layer's input array where the first host stretch finds it. -/
theorem lay1_in : W0 m ρ c (Proc.devRef .tc main_arg0) = (argAt m c main_arg0) := rfl
/-- The edge list there. -/
theorem lay1_edges : W0 m ρ c (Proc.devRef .tc main_arg1) = (argAt m c main_arg1) := rfl

/-- What the linear region is entered with: the input array, -/
theorem lay1_x : V1 m ρ c main_arg0 = (argAt m c main_arg0) :=
  (W1_host m ρ c main_arg0 (by decide)).trans (lay1_in m ρ c)
/-- its aggregation, -/
theorem lay1_agg : V1 m ρ c main_v13 = agg (argAt m c main_arg0) (argAt m c main_arg1) := by
  refine (host0_agg (W0 m ρ c)).trans ?_
  rw [lay1_in, lay1_edges]
/-- the two weight matrices, -/
theorem lay1_wa : V1 m ρ c main_arg3 = (argAt m c main_arg3) := (kept1 m ρ c main_arg3 (by decide))
theorem lay1_wb : V1 m ρ c main_arg5 = (argAt m c main_arg5) := (kept1 m ρ c main_arg5 (by decide))
/-- and the two bias rows. -/
theorem lay1_ba (k : Fin 128) : V1 m ρ c main_v14 (ix2 (0 : Fin 1) k) = (argAt m c main_arg4) (ix1 k) :=
  (host0_bias_a (W0 m ρ c) k).trans (congrFun (rfl : W0 m ρ c (Proc.devRef .tc main_arg4) = (argAt m c main_arg4)) (ix1 k))
theorem lay1_bb (q : Fin 128) : V1 m ρ c main_v15 (ix2 (0 : Fin 1) q) = (argAt m c main_arg6) (ix1 q) :=
  (host0_bias_b (W0 m ρ c) q).trans (congrFun (rfl : W0 m ρ c (Proc.devRef .tc main_arg6) = (argAt m c main_arg6)) (ix1 q))

/-- So the region's pre-normalisation array is the specification's. -/
theorem lay1_hm : hm0 (V1 m ρ) c = layerHm (argAt m c main_arg0) (argAt m c main_arg1) (argAt m c main_arg3) (argAt m c main_arg4) (argAt m c main_arg5) (argAt m c main_arg6) := by
  have a0 : (fun (r : Fin 100000) (j : Fin 128) => V1 m ρ c main_arg0 (ix2 r j)) = fun r j => (argAt m c main_arg0) (ix2 r j) := by rw [lay1_x]
  have a1 : (fun (r : Fin 100000) (j : Fin 128) => V1 m ρ c main_v13 (ix2 r j)) = fun r j => agg (argAt m c main_arg0) (argAt m c main_arg1) (ix2 r j) := by rw [lay1_agg]
  have a2 : (fun (j k : Fin 128) => V1 m ρ c main_arg3 (ix2 j k)) = fun j k => (argAt m c main_arg3) (ix2 j k) := by rw [lay1_wa]
  have a3 : (fun (k : Fin 128) => V1 m ρ c main_v14 (ix2 (0 : Fin 1) k)) = fun k => (argAt m c main_arg4) (ix1 k) := funext fun k => lay1_ba m ρ c k
  have a4 : (fun (k q : Fin 128) => V1 m ρ c main_arg5 (ix2 k q)) = fun k q => (argAt m c main_arg5) (ix2 k q) := by rw [lay1_wb]
  have a5 : (fun (q : Fin 128) => V1 m ρ c main_v15 (ix2 (0 : Fin 1) q)) = fun q => (argAt m c main_arg6) (ix1 q) := funext fun q => lay1_bb m ρ c q
  unfold hm0 layerHm
  rw [a0, a1, a2, a3, a4, a5]

/-- What the linear region leaves: the pre-normalisation array, -/
theorem lay1_out : W2 m ρ c (Proc.devRef .tc main_v16_0) = fun i => (layerHm (argAt m c main_arg0) (argAt m c main_arg1) (argAt m c main_arg3) (argAt m c main_arg4) (argAt m c main_arg5) (argAt m c main_arg6)) (nrow i) (ncol i) := by
  refine (W2_arr m ρ c 6).trans ?_
  rw [gin0_out, lay1_hm]
  rfl
/-- its column sums -/
theorem lay1_sum (q : Fin 128) : W2 m ρ c (Proc.devRef .tc main_v16_1) (ix2 (0 : Fin 1) q) = ∑ r, (layerHm (argAt m c main_arg0) (argAt m c main_arg1) (argAt m c main_arg3) (argAt m c main_arg4) (argAt m c main_arg5) (argAt m c main_arg6)) r q := by
  refine (congrFun ((W2_arr m ρ c 7).trans (gin0_colSum (V1 m ρ) c)) (ix2 (0 : Fin 1) q)).trans ?_
  show (∑ r : Fin 100000, hm0 (V1 m ρ) c r q) = _
  rw [lay1_hm]
/-- and its column sums of squares. -/
theorem lay1_sq (q : Fin 128) : W2 m ρ c (Proc.devRef .tc main_v16_2) (ix2 (0 : Fin 1) q) = ∑ r, (layerHm (argAt m c main_arg0) (argAt m c main_arg1) (argAt m c main_arg3) (argAt m c main_arg4) (argAt m c main_arg5) (argAt m c main_arg6)) r q * (layerHm (argAt m c main_arg0) (argAt m c main_arg1) (argAt m c main_arg3) (argAt m c main_arg4) (argAt m c main_arg5) (argAt m c main_arg6)) r q := by
  refine (congrFun ((W2_arr m ρ c 8).trans (gin0_colSq (V1 m ρ) c)) (ix2 (0 : Fin 1) q)).trans ?_
  show (∑ r : Fin 100000, hm0 (V1 m ρ) c r q * hm0 (V1 m ρ) c r q) = _
  rw [lay1_hm]

/-- What the normalisation region is entered with: the array, -/
theorem lay1_h (i : S100000x128.Idx) : V3 m ρ c main_v16_0 i = (layerHm (argAt m c main_arg0) (argAt m c main_arg1) (argAt m c main_arg3) (argAt m c main_arg4) (argAt m c main_arg5) (argAt m c main_arg6)) (nrow i) (ncol i) :=
  congrFun ((W3_host m ρ c main_v16_0 (by decide)).trans (lay1_out m ρ c)) i
/-- its column means, -/
theorem lay1_mean (q : Fin 128) : V3 m ρ c main_v18 (ix2 (0 : Fin 1) q) = Cert.Math.mean (layerHm (argAt m c main_arg0) (argAt m c main_arg1) (argAt m c main_arg3) (argAt m c main_arg4) (argAt m c main_arg5) (argAt m c main_arg6)) q := by
  refine (congrFun (host1_mean (W2 m ρ c)) (ix2 (0 : Fin 1) q)).trans ?_
  rw [meanRow_apply, lay1_sum]
  rfl
/-- its one-pass column variances, -/
theorem lay1_var (q : Fin 128) : V3 m ρ c main_v22 (ix2 (0 : Fin 1) q) = varOnePass (layerHm (argAt m c main_arg0) (argAt m c main_arg1) (argAt m c main_arg3) (argAt m c main_arg4) (argAt m c main_arg5) (argAt m c main_arg6)) q := by
  refine (congrFun (host1_var (W2 m ρ c)) (ix2 (0 : Fin 1) q)).trans ?_
  rw [varRow_apply, lay1_sum, lay1_sq]
  rfl
/-- the gain row and the shift row. -/
theorem lay1_gain (q : Fin 128) : V3 m ρ c main_v23 (ix2 (0 : Fin 1) q) = (argAt m c main_arg7) (ix1 q) :=
  (host1_scale (W2 m ρ c) q).trans (congrFun (kept2 m ρ c main_arg7 (by decide) (by decide)) (ix1 q))
theorem lay1_shift (q : Fin 128) : V3 m ρ c main_v24 (ix2 (0 : Fin 1) q) = (argAt m c main_arg8) (ix1 q) :=
  (host1_shift (W2 m ρ c) q).trans (congrFun (kept2 m ρ c main_arg8 (by decide) (by decide)) (ix1 q))

/-- LAYER 1: what the normalisation region leaves is the specification's layer output. -/
theorem k1W : W4 m ρ c (Proc.devRef .tc main_v25) = (h1Of (argAt m c main_arg0) (argAt m c main_arg1) (argAt m c main_arg3) (argAt m c main_arg4) (argAt m c main_arg5) (argAt m c main_arg6) (argAt m c main_arg7) (argAt m c main_arg8)) := by
  refine (W4_arr m ρ c 5).trans ?_
  rw [bn1_final]
  funext i
  exact congr (congr (congr (congr (congrArg bnScalar (lay1_h m ρ c i)) (lay1_mean m ρ c (ncol i))) (lay1_var m ρ c (ncol i)))
    (lay1_gain m ρ c (ncol i))) (lay1_shift m ρ c (ncol i))
theorem k1 : V4 m ρ c main_v25 = (h1Of (argAt m c main_arg0) (argAt m c main_arg1) (argAt m c main_arg3) (argAt m c main_arg4) (argAt m c main_arg5) (argAt m c main_arg6) (argAt m c main_arg7) (argAt m c main_arg8)) := k1W m ρ c

/-! ## Layer 2: host stretch 2, linear region 2, host stretch 3, normalisation region 3 -/

/-- The layer's input array where the first host stretch finds it. -/
theorem lay2_in : W4 m ρ c (Proc.devRef .tc main_v25) = (h1Of (argAt m c main_arg0) (argAt m c main_arg1) (argAt m c main_arg3) (argAt m c main_arg4) (argAt m c main_arg5) (argAt m c main_arg6) (argAt m c main_arg7) (argAt m c main_arg8)) := k1W m ρ c
/-- The edge list there. -/
theorem lay2_edges : W4 m ρ c (Proc.devRef .tc main_arg1) = (argAt m c main_arg1) := (kept4 m ρ c main_arg1 (by decide) (by decide) (by decide) (by decide))

/-- What the linear region is entered with: the input array, -/
theorem lay2_x : V5 m ρ c main_v25 = (h1Of (argAt m c main_arg0) (argAt m c main_arg1) (argAt m c main_arg3) (argAt m c main_arg4) (argAt m c main_arg5) (argAt m c main_arg6) (argAt m c main_arg7) (argAt m c main_arg8)) :=
  (W5_host m ρ c main_v25 (by decide)).trans (lay2_in m ρ c)
/-- its aggregation, -/
theorem lay2_agg : V5 m ρ c main_v39 = agg (h1Of (argAt m c main_arg0) (argAt m c main_arg1) (argAt m c main_arg3) (argAt m c main_arg4) (argAt m c main_arg5) (argAt m c main_arg6) (argAt m c main_arg7) (argAt m c main_arg8)) (argAt m c main_arg1) := by
  refine (host2_agg (W4 m ρ c)).trans ?_
  rw [lay2_in, lay2_edges]
/-- the two weight matrices, -/
theorem lay2_wa : V5 m ρ c main_arg9 = (argAt m c main_arg9) := (kept5 m ρ c main_arg9 (by decide) (by decide) (by decide) (by decide) (by decide))
theorem lay2_wb : V5 m ρ c main_arg11 = (argAt m c main_arg11) := (kept5 m ρ c main_arg11 (by decide) (by decide) (by decide) (by decide) (by decide))
/-- and the two bias rows. -/
theorem lay2_ba (k : Fin 128) : V5 m ρ c main_v40 (ix2 (0 : Fin 1) k) = (argAt m c main_arg10) (ix1 k) :=
  (host2_bias_a (W4 m ρ c) k).trans (congrFun (kept4 m ρ c main_arg10 (by decide) (by decide) (by decide) (by decide)) (ix1 k))
theorem lay2_bb (q : Fin 128) : V5 m ρ c main_v41 (ix2 (0 : Fin 1) q) = (argAt m c main_arg12) (ix1 q) :=
  (host2_bias_b (W4 m ρ c) q).trans (congrFun (kept4 m ρ c main_arg12 (by decide) (by decide) (by decide) (by decide)) (ix1 q))

/-- So the region's pre-normalisation array is the specification's. -/
theorem lay2_hm : hm2 (V5 m ρ) c = layerHm (h1Of (argAt m c main_arg0) (argAt m c main_arg1) (argAt m c main_arg3) (argAt m c main_arg4) (argAt m c main_arg5) (argAt m c main_arg6) (argAt m c main_arg7) (argAt m c main_arg8)) (argAt m c main_arg1) (argAt m c main_arg9) (argAt m c main_arg10) (argAt m c main_arg11) (argAt m c main_arg12) := by
  have a0 : (fun (r : Fin 100000) (j : Fin 128) => V5 m ρ c main_v25 (ix2 r j)) = fun r j => (h1Of (argAt m c main_arg0) (argAt m c main_arg1) (argAt m c main_arg3) (argAt m c main_arg4) (argAt m c main_arg5) (argAt m c main_arg6) (argAt m c main_arg7) (argAt m c main_arg8)) (ix2 r j) := by rw [lay2_x]
  have a1 : (fun (r : Fin 100000) (j : Fin 128) => V5 m ρ c main_v39 (ix2 r j)) = fun r j => agg (h1Of (argAt m c main_arg0) (argAt m c main_arg1) (argAt m c main_arg3) (argAt m c main_arg4) (argAt m c main_arg5) (argAt m c main_arg6) (argAt m c main_arg7) (argAt m c main_arg8)) (argAt m c main_arg1) (ix2 r j) := by rw [lay2_agg]
  have a2 : (fun (j k : Fin 128) => V5 m ρ c main_arg9 (ix2 j k)) = fun j k => (argAt m c main_arg9) (ix2 j k) := by rw [lay2_wa]
  have a3 : (fun (k : Fin 128) => V5 m ρ c main_v40 (ix2 (0 : Fin 1) k)) = fun k => (argAt m c main_arg10) (ix1 k) := funext fun k => lay2_ba m ρ c k
  have a4 : (fun (k q : Fin 128) => V5 m ρ c main_arg11 (ix2 k q)) = fun k q => (argAt m c main_arg11) (ix2 k q) := by rw [lay2_wb]
  have a5 : (fun (q : Fin 128) => V5 m ρ c main_v41 (ix2 (0 : Fin 1) q)) = fun q => (argAt m c main_arg12) (ix1 q) := funext fun q => lay2_bb m ρ c q
  unfold hm2 layerHm
  rw [a0, a1, a2, a3, a4, a5]

/-- What the linear region leaves: the pre-normalisation array, -/
theorem lay2_out : W6 m ρ c (Proc.devRef .tc main_v42_0) = fun i => (layerHm (h1Of (argAt m c main_arg0) (argAt m c main_arg1) (argAt m c main_arg3) (argAt m c main_arg4) (argAt m c main_arg5) (argAt m c main_arg6) (argAt m c main_arg7) (argAt m c main_arg8)) (argAt m c main_arg1) (argAt m c main_arg9) (argAt m c main_arg10) (argAt m c main_arg11) (argAt m c main_arg12)) (nrow i) (ncol i) := by
  refine (W6_arr m ρ c 6).trans ?_
  rw [gin2_out, lay2_hm]
  rfl
/-- its column sums -/
theorem lay2_sum (q : Fin 128) : W6 m ρ c (Proc.devRef .tc main_v42_1) (ix2 (0 : Fin 1) q) = ∑ r, (layerHm (h1Of (argAt m c main_arg0) (argAt m c main_arg1) (argAt m c main_arg3) (argAt m c main_arg4) (argAt m c main_arg5) (argAt m c main_arg6) (argAt m c main_arg7) (argAt m c main_arg8)) (argAt m c main_arg1) (argAt m c main_arg9) (argAt m c main_arg10) (argAt m c main_arg11) (argAt m c main_arg12)) r q := by
  refine (congrFun ((W6_arr m ρ c 7).trans (gin2_colSum (V5 m ρ) c)) (ix2 (0 : Fin 1) q)).trans ?_
  show (∑ r : Fin 100000, hm2 (V5 m ρ) c r q) = _
  rw [lay2_hm]
/-- and its column sums of squares. -/
theorem lay2_sq (q : Fin 128) : W6 m ρ c (Proc.devRef .tc main_v42_2) (ix2 (0 : Fin 1) q) = ∑ r, (layerHm (h1Of (argAt m c main_arg0) (argAt m c main_arg1) (argAt m c main_arg3) (argAt m c main_arg4) (argAt m c main_arg5) (argAt m c main_arg6) (argAt m c main_arg7) (argAt m c main_arg8)) (argAt m c main_arg1) (argAt m c main_arg9) (argAt m c main_arg10) (argAt m c main_arg11) (argAt m c main_arg12)) r q * (layerHm (h1Of (argAt m c main_arg0) (argAt m c main_arg1) (argAt m c main_arg3) (argAt m c main_arg4) (argAt m c main_arg5) (argAt m c main_arg6) (argAt m c main_arg7) (argAt m c main_arg8)) (argAt m c main_arg1) (argAt m c main_arg9) (argAt m c main_arg10) (argAt m c main_arg11) (argAt m c main_arg12)) r q := by
  refine (congrFun ((W6_arr m ρ c 8).trans (gin2_colSq (V5 m ρ) c)) (ix2 (0 : Fin 1) q)).trans ?_
  show (∑ r : Fin 100000, hm2 (V5 m ρ) c r q * hm2 (V5 m ρ) c r q) = _
  rw [lay2_hm]

/-- What the normalisation region is entered with: the array, -/
theorem lay2_h (i : S100000x128.Idx) : V7 m ρ c main_v42_0 i = (layerHm (h1Of (argAt m c main_arg0) (argAt m c main_arg1) (argAt m c main_arg3) (argAt m c main_arg4) (argAt m c main_arg5) (argAt m c main_arg6) (argAt m c main_arg7) (argAt m c main_arg8)) (argAt m c main_arg1) (argAt m c main_arg9) (argAt m c main_arg10) (argAt m c main_arg11) (argAt m c main_arg12)) (nrow i) (ncol i) :=
  congrFun ((W7_host m ρ c main_v42_0 (by decide)).trans (lay2_out m ρ c)) i
/-- its column means, -/
theorem lay2_mean (q : Fin 128) : V7 m ρ c main_v44 (ix2 (0 : Fin 1) q) = Cert.Math.mean (layerHm (h1Of (argAt m c main_arg0) (argAt m c main_arg1) (argAt m c main_arg3) (argAt m c main_arg4) (argAt m c main_arg5) (argAt m c main_arg6) (argAt m c main_arg7) (argAt m c main_arg8)) (argAt m c main_arg1) (argAt m c main_arg9) (argAt m c main_arg10) (argAt m c main_arg11) (argAt m c main_arg12)) q := by
  refine (congrFun (host3_mean (W6 m ρ c)) (ix2 (0 : Fin 1) q)).trans ?_
  rw [meanRow_apply, lay2_sum]
  rfl
/-- its one-pass column variances, -/
theorem lay2_var (q : Fin 128) : V7 m ρ c main_v48 (ix2 (0 : Fin 1) q) = varOnePass (layerHm (h1Of (argAt m c main_arg0) (argAt m c main_arg1) (argAt m c main_arg3) (argAt m c main_arg4) (argAt m c main_arg5) (argAt m c main_arg6) (argAt m c main_arg7) (argAt m c main_arg8)) (argAt m c main_arg1) (argAt m c main_arg9) (argAt m c main_arg10) (argAt m c main_arg11) (argAt m c main_arg12)) q := by
  refine (congrFun (host3_var (W6 m ρ c)) (ix2 (0 : Fin 1) q)).trans ?_
  rw [varRow_apply, lay2_sum, lay2_sq]
  rfl
/-- the gain row and the shift row. -/
theorem lay2_gain (q : Fin 128) : V7 m ρ c main_v49 (ix2 (0 : Fin 1) q) = (argAt m c main_arg13) (ix1 q) :=
  (host3_scale (W6 m ρ c) q).trans (congrFun (kept6 m ρ c main_arg13 (by decide) (by decide) (by decide) (by decide) (by decide) (by decide)) (ix1 q))
theorem lay2_shift (q : Fin 128) : V7 m ρ c main_v50 (ix2 (0 : Fin 1) q) = (argAt m c main_arg14) (ix1 q) :=
  (host3_shift (W6 m ρ c) q).trans (congrFun (kept6 m ρ c main_arg14 (by decide) (by decide) (by decide) (by decide) (by decide) (by decide)) (ix1 q))

/-- LAYER 2: what the normalisation region leaves is the specification's layer output. -/
theorem k2W : W8 m ρ c (Proc.devRef .tc main_v51) = (h2Of (argAt m c main_arg0) (argAt m c main_arg1) (argAt m c main_arg3) (argAt m c main_arg4) (argAt m c main_arg5) (argAt m c main_arg6) (argAt m c main_arg7) (argAt m c main_arg8) (argAt m c main_arg9) (argAt m c main_arg10) (argAt m c main_arg11) (argAt m c main_arg12) (argAt m c main_arg13) (argAt m c main_arg14)) := by
  refine (W8_arr m ρ c 5).trans ?_
  rw [bn3_final]
  funext i
  exact congr (congr (congr (congr (congrArg bnScalar (lay2_h m ρ c i)) (lay2_mean m ρ c (ncol i))) (lay2_var m ρ c (ncol i)))
    (lay2_gain m ρ c (ncol i))) (lay2_shift m ρ c (ncol i))
theorem k2 : V8 m ρ c main_v51 = (h2Of (argAt m c main_arg0) (argAt m c main_arg1) (argAt m c main_arg3) (argAt m c main_arg4) (argAt m c main_arg5) (argAt m c main_arg6) (argAt m c main_arg7) (argAt m c main_arg8) (argAt m c main_arg9) (argAt m c main_arg10) (argAt m c main_arg11) (argAt m c main_arg12) (argAt m c main_arg13) (argAt m c main_arg14)) := k2W m ρ c

/-! ## Layer 3: host stretch 4, linear region 4, host stretch 5, normalisation region 5 -/

/-- The layer's input array where the first host stretch finds it. -/
theorem lay3_in : W8 m ρ c (Proc.devRef .tc main_v51) = (h2Of (argAt m c main_arg0) (argAt m c main_arg1) (argAt m c main_arg3) (argAt m c main_arg4) (argAt m c main_arg5) (argAt m c main_arg6) (argAt m c main_arg7) (argAt m c main_arg8) (argAt m c main_arg9) (argAt m c main_arg10) (argAt m c main_arg11) (argAt m c main_arg12) (argAt m c main_arg13) (argAt m c main_arg14)) := k2W m ρ c
/-- The edge list there. -/
theorem lay3_edges : W8 m ρ c (Proc.devRef .tc main_arg1) = (argAt m c main_arg1) := (kept8 m ρ c main_arg1 (by decide) (by decide) (by decide) (by decide) (by decide) (by decide) (by decide) (by decide))

/-- What the linear region is entered with: the input array, -/
theorem lay3_x : V9 m ρ c main_v51 = (h2Of (argAt m c main_arg0) (argAt m c main_arg1) (argAt m c main_arg3) (argAt m c main_arg4) (argAt m c main_arg5) (argAt m c main_arg6) (argAt m c main_arg7) (argAt m c main_arg8) (argAt m c main_arg9) (argAt m c main_arg10) (argAt m c main_arg11) (argAt m c main_arg12) (argAt m c main_arg13) (argAt m c main_arg14)) :=
  (W9_host m ρ c main_v51 (by decide)).trans (lay3_in m ρ c)
/-- its aggregation, -/
theorem lay3_agg : V9 m ρ c main_v65 = agg (h2Of (argAt m c main_arg0) (argAt m c main_arg1) (argAt m c main_arg3) (argAt m c main_arg4) (argAt m c main_arg5) (argAt m c main_arg6) (argAt m c main_arg7) (argAt m c main_arg8) (argAt m c main_arg9) (argAt m c main_arg10) (argAt m c main_arg11) (argAt m c main_arg12) (argAt m c main_arg13) (argAt m c main_arg14)) (argAt m c main_arg1) := by
  refine (host4_agg (W8 m ρ c)).trans ?_
  rw [lay3_in, lay3_edges]
/-- the two weight matrices, -/
theorem lay3_wa : V9 m ρ c main_arg15 = (argAt m c main_arg15) := (kept9 m ρ c main_arg15 (by decide) (by decide) (by decide) (by decide) (by decide) (by decide) (by decide) (by decide) (by decide))
theorem lay3_wb : V9 m ρ c main_arg17 = (argAt m c main_arg17) := (kept9 m ρ c main_arg17 (by decide) (by decide) (by decide) (by decide) (by decide) (by decide) (by decide) (by decide) (by decide))
/-- and the two bias rows. -/
theorem lay3_ba (k : Fin 128) : V9 m ρ c main_v66 (ix2 (0 : Fin 1) k) = (argAt m c main_arg16) (ix1 k) :=
  (host4_bias_a (W8 m ρ c) k).trans (congrFun (kept8 m ρ c main_arg16 (by decide) (by decide) (by decide) (by decide) (by decide) (by decide) (by decide) (by decide)) (ix1 k))
theorem lay3_bb (q : Fin 128) : V9 m ρ c main_v67 (ix2 (0 : Fin 1) q) = (argAt m c main_arg18) (ix1 q) :=
  (host4_bias_b (W8 m ρ c) q).trans (congrFun (kept8 m ρ c main_arg18 (by decide) (by decide) (by decide) (by decide) (by decide) (by decide) (by decide) (by decide)) (ix1 q))

/-- So the region's pre-normalisation array is the specification's. -/
theorem lay3_hm : hm4 (V9 m ρ) c = layerHm (h2Of (argAt m c main_arg0) (argAt m c main_arg1) (argAt m c main_arg3) (argAt m c main_arg4) (argAt m c main_arg5) (argAt m c main_arg6) (argAt m c main_arg7) (argAt m c main_arg8) (argAt m c main_arg9) (argAt m c main_arg10) (argAt m c main_arg11) (argAt m c main_arg12) (argAt m c main_arg13) (argAt m c main_arg14)) (argAt m c main_arg1) (argAt m c main_arg15) (argAt m c main_arg16) (argAt m c main_arg17) (argAt m c main_arg18) := by
  have a0 : (fun (r : Fin 100000) (j : Fin 128) => V9 m ρ c main_v51 (ix2 r j)) = fun r j => (h2Of (argAt m c main_arg0) (argAt m c main_arg1) (argAt m c main_arg3) (argAt m c main_arg4) (argAt m c main_arg5) (argAt m c main_arg6) (argAt m c main_arg7) (argAt m c main_arg8) (argAt m c main_arg9) (argAt m c main_arg10) (argAt m c main_arg11) (argAt m c main_arg12) (argAt m c main_arg13) (argAt m c main_arg14)) (ix2 r j) := by rw [lay3_x]
  have a1 : (fun (r : Fin 100000) (j : Fin 128) => V9 m ρ c main_v65 (ix2 r j)) = fun r j => agg (h2Of (argAt m c main_arg0) (argAt m c main_arg1) (argAt m c main_arg3) (argAt m c main_arg4) (argAt m c main_arg5) (argAt m c main_arg6) (argAt m c main_arg7) (argAt m c main_arg8) (argAt m c main_arg9) (argAt m c main_arg10) (argAt m c main_arg11) (argAt m c main_arg12) (argAt m c main_arg13) (argAt m c main_arg14)) (argAt m c main_arg1) (ix2 r j) := by rw [lay3_agg]
  have a2 : (fun (j k : Fin 128) => V9 m ρ c main_arg15 (ix2 j k)) = fun j k => (argAt m c main_arg15) (ix2 j k) := by rw [lay3_wa]
  have a3 : (fun (k : Fin 128) => V9 m ρ c main_v66 (ix2 (0 : Fin 1) k)) = fun k => (argAt m c main_arg16) (ix1 k) := funext fun k => lay3_ba m ρ c k
  have a4 : (fun (k q : Fin 128) => V9 m ρ c main_arg17 (ix2 k q)) = fun k q => (argAt m c main_arg17) (ix2 k q) := by rw [lay3_wb]
  have a5 : (fun (q : Fin 128) => V9 m ρ c main_v67 (ix2 (0 : Fin 1) q)) = fun q => (argAt m c main_arg18) (ix1 q) := funext fun q => lay3_bb m ρ c q
  unfold hm4 layerHm
  rw [a0, a1, a2, a3, a4, a5]

/-- What the linear region leaves: the pre-normalisation array, -/
theorem lay3_out : W10 m ρ c (Proc.devRef .tc main_v68_0) = fun i => (layerHm (h2Of (argAt m c main_arg0) (argAt m c main_arg1) (argAt m c main_arg3) (argAt m c main_arg4) (argAt m c main_arg5) (argAt m c main_arg6) (argAt m c main_arg7) (argAt m c main_arg8) (argAt m c main_arg9) (argAt m c main_arg10) (argAt m c main_arg11) (argAt m c main_arg12) (argAt m c main_arg13) (argAt m c main_arg14)) (argAt m c main_arg1) (argAt m c main_arg15) (argAt m c main_arg16) (argAt m c main_arg17) (argAt m c main_arg18)) (nrow i) (ncol i) := by
  refine (W10_arr m ρ c 6).trans ?_
  rw [gin4_out, lay3_hm]
  rfl
/-- its column sums -/
theorem lay3_sum (q : Fin 128) : W10 m ρ c (Proc.devRef .tc main_v68_1) (ix2 (0 : Fin 1) q) = ∑ r, (layerHm (h2Of (argAt m c main_arg0) (argAt m c main_arg1) (argAt m c main_arg3) (argAt m c main_arg4) (argAt m c main_arg5) (argAt m c main_arg6) (argAt m c main_arg7) (argAt m c main_arg8) (argAt m c main_arg9) (argAt m c main_arg10) (argAt m c main_arg11) (argAt m c main_arg12) (argAt m c main_arg13) (argAt m c main_arg14)) (argAt m c main_arg1) (argAt m c main_arg15) (argAt m c main_arg16) (argAt m c main_arg17) (argAt m c main_arg18)) r q := by
  refine (congrFun ((W10_arr m ρ c 7).trans (gin4_colSum (V9 m ρ) c)) (ix2 (0 : Fin 1) q)).trans ?_
  show (∑ r : Fin 100000, hm4 (V9 m ρ) c r q) = _
  rw [lay3_hm]
/-- and its column sums of squares. -/
theorem lay3_sq (q : Fin 128) : W10 m ρ c (Proc.devRef .tc main_v68_2) (ix2 (0 : Fin 1) q) = ∑ r, (layerHm (h2Of (argAt m c main_arg0) (argAt m c main_arg1) (argAt m c main_arg3) (argAt m c main_arg4) (argAt m c main_arg5) (argAt m c main_arg6) (argAt m c main_arg7) (argAt m c main_arg8) (argAt m c main_arg9) (argAt m c main_arg10) (argAt m c main_arg11) (argAt m c main_arg12) (argAt m c main_arg13) (argAt m c main_arg14)) (argAt m c main_arg1) (argAt m c main_arg15) (argAt m c main_arg16) (argAt m c main_arg17) (argAt m c main_arg18)) r q * (layerHm (h2Of (argAt m c main_arg0) (argAt m c main_arg1) (argAt m c main_arg3) (argAt m c main_arg4) (argAt m c main_arg5) (argAt m c main_arg6) (argAt m c main_arg7) (argAt m c main_arg8) (argAt m c main_arg9) (argAt m c main_arg10) (argAt m c main_arg11) (argAt m c main_arg12) (argAt m c main_arg13) (argAt m c main_arg14)) (argAt m c main_arg1) (argAt m c main_arg15) (argAt m c main_arg16) (argAt m c main_arg17) (argAt m c main_arg18)) r q := by
  refine (congrFun ((W10_arr m ρ c 8).trans (gin4_colSq (V9 m ρ) c)) (ix2 (0 : Fin 1) q)).trans ?_
  show (∑ r : Fin 100000, hm4 (V9 m ρ) c r q * hm4 (V9 m ρ) c r q) = _
  rw [lay3_hm]

/-- What the normalisation region is entered with: the array, -/
theorem lay3_h (i : S100000x128.Idx) : V11 m ρ c main_v68_0 i = (layerHm (h2Of (argAt m c main_arg0) (argAt m c main_arg1) (argAt m c main_arg3) (argAt m c main_arg4) (argAt m c main_arg5) (argAt m c main_arg6) (argAt m c main_arg7) (argAt m c main_arg8) (argAt m c main_arg9) (argAt m c main_arg10) (argAt m c main_arg11) (argAt m c main_arg12) (argAt m c main_arg13) (argAt m c main_arg14)) (argAt m c main_arg1) (argAt m c main_arg15) (argAt m c main_arg16) (argAt m c main_arg17) (argAt m c main_arg18)) (nrow i) (ncol i) :=
  congrFun ((W11_host m ρ c main_v68_0 (by decide)).trans (lay3_out m ρ c)) i
/-- its column means, -/
theorem lay3_mean (q : Fin 128) : V11 m ρ c main_v70 (ix2 (0 : Fin 1) q) = Cert.Math.mean (layerHm (h2Of (argAt m c main_arg0) (argAt m c main_arg1) (argAt m c main_arg3) (argAt m c main_arg4) (argAt m c main_arg5) (argAt m c main_arg6) (argAt m c main_arg7) (argAt m c main_arg8) (argAt m c main_arg9) (argAt m c main_arg10) (argAt m c main_arg11) (argAt m c main_arg12) (argAt m c main_arg13) (argAt m c main_arg14)) (argAt m c main_arg1) (argAt m c main_arg15) (argAt m c main_arg16) (argAt m c main_arg17) (argAt m c main_arg18)) q := by
  refine (congrFun (host5_mean (W10 m ρ c)) (ix2 (0 : Fin 1) q)).trans ?_
  rw [meanRow_apply, lay3_sum]
  rfl
/-- its one-pass column variances, -/
theorem lay3_var (q : Fin 128) : V11 m ρ c main_v74 (ix2 (0 : Fin 1) q) = varOnePass (layerHm (h2Of (argAt m c main_arg0) (argAt m c main_arg1) (argAt m c main_arg3) (argAt m c main_arg4) (argAt m c main_arg5) (argAt m c main_arg6) (argAt m c main_arg7) (argAt m c main_arg8) (argAt m c main_arg9) (argAt m c main_arg10) (argAt m c main_arg11) (argAt m c main_arg12) (argAt m c main_arg13) (argAt m c main_arg14)) (argAt m c main_arg1) (argAt m c main_arg15) (argAt m c main_arg16) (argAt m c main_arg17) (argAt m c main_arg18)) q := by
  refine (congrFun (host5_var (W10 m ρ c)) (ix2 (0 : Fin 1) q)).trans ?_
  rw [varRow_apply, lay3_sum, lay3_sq]
  rfl
/-- the gain row and the shift row. -/
theorem lay3_gain (q : Fin 128) : V11 m ρ c main_v75 (ix2 (0 : Fin 1) q) = (argAt m c main_arg19) (ix1 q) :=
  (host5_scale (W10 m ρ c) q).trans (congrFun (kept10 m ρ c main_arg19 (by decide) (by decide) (by decide) (by decide) (by decide) (by decide) (by decide) (by decide) (by decide) (by decide)) (ix1 q))
theorem lay3_shift (q : Fin 128) : V11 m ρ c main_v76 (ix2 (0 : Fin 1) q) = (argAt m c main_arg20) (ix1 q) :=
  (host5_shift (W10 m ρ c) q).trans (congrFun (kept10 m ρ c main_arg20 (by decide) (by decide) (by decide) (by decide) (by decide) (by decide) (by decide) (by decide) (by decide) (by decide)) (ix1 q))

/-- LAYER 3: what the normalisation region leaves is the specification's layer output. -/
theorem k3W : W12 m ρ c (Proc.devRef .tc main_v77) = (h3Of (argAt m c main_arg0) (argAt m c main_arg1) (argAt m c main_arg3) (argAt m c main_arg4) (argAt m c main_arg5) (argAt m c main_arg6) (argAt m c main_arg7) (argAt m c main_arg8) (argAt m c main_arg9) (argAt m c main_arg10) (argAt m c main_arg11) (argAt m c main_arg12) (argAt m c main_arg13) (argAt m c main_arg14) (argAt m c main_arg15) (argAt m c main_arg16) (argAt m c main_arg17) (argAt m c main_arg18) (argAt m c main_arg19) (argAt m c main_arg20)) := by
  refine (W12_arr m ρ c 5).trans ?_
  rw [bn5_final]
  funext i
  exact congr (congr (congr (congr (congrArg bnScalar (lay3_h m ρ c i)) (lay3_mean m ρ c (ncol i))) (lay3_var m ρ c (ncol i)))
    (lay3_gain m ρ c (ncol i))) (lay3_shift m ρ c (ncol i))
theorem k3 : V12 m ρ c main_v77 = (h3Of (argAt m c main_arg0) (argAt m c main_arg1) (argAt m c main_arg3) (argAt m c main_arg4) (argAt m c main_arg5) (argAt m c main_arg6) (argAt m c main_arg7) (argAt m c main_arg8) (argAt m c main_arg9) (argAt m c main_arg10) (argAt m c main_arg11) (argAt m c main_arg12) (argAt m c main_arg13) (argAt m c main_arg14) (argAt m c main_arg15) (argAt m c main_arg16) (argAt m c main_arg17) (argAt m c main_arg18) (argAt m c main_arg19) (argAt m c main_arg20)) := k3W m ρ c

/-! ## The three layer outputs where the last host stretch finds them -/

/-- Nothing between the first normalisation region and the last host stretch writes the first layer's output (the
    second linear region only reads it). -/
theorem k1_at12 : W12 m ρ c (Proc.devRef .tc main_v25) = (h1Of (argAt m c main_arg0) (argAt m c main_arg1) (argAt m c main_arg3) (argAt m c main_arg4) (argAt m c main_arg5) (argAt m c main_arg6) (argAt m c main_arg7) (argAt m c main_arg8)) :=
  (W12_keep m ρ c main_v25 (by decide)).trans <| (W11_host m ρ c main_v25 (by decide)).trans <| (W10_keep m ρ c main_v25 (by decide)).trans <| (W9_host m ρ c main_v25 (by decide)).trans <| (W8_keep m ρ c main_v25 (by decide)).trans <| (W7_host m ρ c main_v25 (by decide)).trans <| (W6_keep m ρ c main_v25 (by decide)).trans <| (W5_host m ρ c main_v25 (by decide)).trans <| k1W m ρ c
/-- Likewise the second layer's output. -/
theorem k2_at12 : W12 m ρ c (Proc.devRef .tc main_v51) = (h2Of (argAt m c main_arg0) (argAt m c main_arg1) (argAt m c main_arg3) (argAt m c main_arg4) (argAt m c main_arg5) (argAt m c main_arg6) (argAt m c main_arg7) (argAt m c main_arg8) (argAt m c main_arg9) (argAt m c main_arg10) (argAt m c main_arg11) (argAt m c main_arg12) (argAt m c main_arg13) (argAt m c main_arg14)) :=
  (W12_keep m ρ c main_v51 (by decide)).trans <| (W11_host m ρ c main_v51 (by decide)).trans <| (W10_keep m ρ c main_v51 (by decide)).trans <| (W9_host m ρ c main_v51 (by decide)).trans <| k2W m ρ c
/-- The third layer's output is what the last normalisation region has just left. -/
theorem k3_at12 : W12 m ρ c (Proc.devRef .tc main_v77) = (h3Of (argAt m c main_arg0) (argAt m c main_arg1) (argAt m c main_arg3) (argAt m c main_arg4) (argAt m c main_arg5) (argAt m c main_arg6) (argAt m c main_arg7) (argAt m c main_arg8) (argAt m c main_arg9) (argAt m c main_arg10) (argAt m c main_arg11) (argAt m c main_arg12) (argAt m c main_arg13) (argAt m c main_arg14) (argAt m c main_arg15) (argAt m c main_arg16) (argAt m c main_arg17) (argAt m c main_arg18) (argAt m c main_arg19) (argAt m c main_arg20)) := k3W m ρ c
/-! ## The last host stretch and the last region -/

/-- The pooled and joined features the last region is entered with. -/
theorem fin_cat : V13 m ρ c main_v114 = poolCat (h1Of (argAt m c main_arg0) (argAt m c main_arg1) (argAt m c main_arg3) (argAt m c main_arg4) (argAt m c main_arg5) (argAt m c main_arg6) (argAt m c main_arg7) (argAt m c main_arg8)) (h2Of (argAt m c main_arg0) (argAt m c main_arg1) (argAt m c main_arg3) (argAt m c main_arg4) (argAt m c main_arg5) (argAt m c main_arg6) (argAt m c main_arg7) (argAt m c main_arg8) (argAt m c main_arg9) (argAt m c main_arg10) (argAt m c main_arg11) (argAt m c main_arg12) (argAt m c main_arg13) (argAt m c main_arg14)) (h3Of (argAt m c main_arg0) (argAt m c main_arg1) (argAt m c main_arg3) (argAt m c main_arg4) (argAt m c main_arg5) (argAt m c main_arg6) (argAt m c main_arg7) (argAt m c main_arg8) (argAt m c main_arg9) (argAt m c main_arg10) (argAt m c main_arg11) (argAt m c main_arg12) (argAt m c main_arg13) (argAt m c main_arg14) (argAt m c main_arg15) (argAt m c main_arg16) (argAt m c main_arg17) (argAt m c main_arg18) (argAt m c main_arg19) (argAt m c main_arg20)) (argAt m c main_arg2) := by
  refine (host6_cat (W12 m ρ c)).trans ?_
  rw [show W12 m ρ c (Proc.devRef .tc main_v25) = (h1Of (argAt m c main_arg0) (argAt m c main_arg1) (argAt m c main_arg3) (argAt m c main_arg4) (argAt m c main_arg5) (argAt m c main_arg6) (argAt m c main_arg7) (argAt m c main_arg8)) from ((W12_keep m ρ c main_v25 (by decide)).trans <| (W11_host m ρ c main_v25 (by decide)).trans <| (W10_keep m ρ c main_v25 (by decide)).trans <| (W9_host m ρ c main_v25 (by decide)).trans <| (W8_keep m ρ c main_v25 (by decide)).trans <| (W7_host m ρ c main_v25 (by decide)).trans <| (W6_keep m ρ c main_v25 (by decide)).trans <| (W5_host m ρ c main_v25 (by decide)).trans <| k1W m ρ c),
    show W12 m ρ c (Proc.devRef .tc main_v51) = (h2Of (argAt m c main_arg0) (argAt m c main_arg1) (argAt m c main_arg3) (argAt m c main_arg4) (argAt m c main_arg5) (argAt m c main_arg6) (argAt m c main_arg7) (argAt m c main_arg8) (argAt m c main_arg9) (argAt m c main_arg10) (argAt m c main_arg11) (argAt m c main_arg12) (argAt m c main_arg13) (argAt m c main_arg14)) from ((W12_keep m ρ c main_v51 (by decide)).trans <| (W11_host m ρ c main_v51 (by decide)).trans <| (W10_keep m ρ c main_v51 (by decide)).trans <| (W9_host m ρ c main_v51 (by decide)).trans <| k2W m ρ c),
    show W12 m ρ c (Proc.devRef .tc main_v77) = (h3Of (argAt m c main_arg0) (argAt m c main_arg1) (argAt m c main_arg3) (argAt m c main_arg4) (argAt m c main_arg5) (argAt m c main_arg6) (argAt m c main_arg7) (argAt m c main_arg8) (argAt m c main_arg9) (argAt m c main_arg10) (argAt m c main_arg11) (argAt m c main_arg12) (argAt m c main_arg13) (argAt m c main_arg14) (argAt m c main_arg15) (argAt m c main_arg16) (argAt m c main_arg17) (argAt m c main_arg18) (argAt m c main_arg19) (argAt m c main_arg20)) from k3W m ρ c,
    show W12 m ρ c (Proc.devRef .tc main_arg2) = (argAt m c main_arg2) from (kept12 m ρ c main_arg2 (by decide) (by decide) (by decide) (by decide) (by decide) (by decide) (by decide) (by decide) (by decide) (by decide) (by decide) (by decide))]
/-- The last weight matrix and the last bias row. -/
theorem fin_w : V13 m ρ c main_arg21 = (argAt m c main_arg21) := (kept13 m ρ c main_arg21 (by decide) (by decide) (by decide) (by decide) (by decide) (by decide) (by decide) (by decide) (by decide) (by decide) (by decide) (by decide) (by decide))
theorem fin_b (q : Fin 128) : V13 m ρ c main_v115 (ix2 (0 : Fin 1) q) = (argAt m c main_arg22) (ix1 q) :=
  (host6_bias (W12 m ρ c) q).trans (congrFun (kept12 m ρ c main_arg22 (by decide) (by decide) (by decide) (by decide) (by decide) (by decide) (by decide) (by decide) (by decide) (by decide) (by decide) (by decide)) (ix1 q))

/-- THE RESULT: the last region's output array ends holding the specification's result of the arguments as launched. -/
theorem k4 : W14 m ρ c (Proc.devRef .tc main_v116) = result (argAt m c main_arg0) (argAt m c main_arg1) (argAt m c main_arg2) (argAt m c main_arg3) (argAt m c main_arg4) (argAt m c main_arg5) (argAt m c main_arg6) (argAt m c main_arg7) (argAt m c main_arg8) (argAt m c main_arg9) (argAt m c main_arg10) (argAt m c main_arg11) (argAt m c main_arg12) (argAt m c main_arg13) (argAt m c main_arg14) (argAt m c main_arg15) (argAt m c main_arg16) (argAt m c main_arg17) (argAt m c main_arg18) (argAt m c main_arg19) (argAt m c main_arg20) (argAt m c main_arg21) (argAt m c main_arg22) := by
  refine (W14_result m ρ c).trans ?_
  rw [final6]
  have b0 : (fun (r : Fin 512) (k : Fin 384) => V13 m ρ c main_v114 (ix2 r k)) = fun r k => poolCat (h1Of (argAt m c main_arg0) (argAt m c main_arg1) (argAt m c main_arg3) (argAt m c main_arg4) (argAt m c main_arg5) (argAt m c main_arg6) (argAt m c main_arg7) (argAt m c main_arg8)) (h2Of (argAt m c main_arg0) (argAt m c main_arg1) (argAt m c main_arg3) (argAt m c main_arg4) (argAt m c main_arg5) (argAt m c main_arg6) (argAt m c main_arg7) (argAt m c main_arg8) (argAt m c main_arg9) (argAt m c main_arg10) (argAt m c main_arg11) (argAt m c main_arg12) (argAt m c main_arg13) (argAt m c main_arg14)) (h3Of (argAt m c main_arg0) (argAt m c main_arg1) (argAt m c main_arg3) (argAt m c main_arg4) (argAt m c main_arg5) (argAt m c main_arg6) (argAt m c main_arg7) (argAt m c main_arg8) (argAt m c main_arg9) (argAt m c main_arg10) (argAt m c main_arg11) (argAt m c main_arg12) (argAt m c main_arg13) (argAt m c main_arg14) (argAt m c main_arg15) (argAt m c main_arg16) (argAt m c main_arg17) (argAt m c main_arg18) (argAt m c main_arg19) (argAt m c main_arg20)) (argAt m c main_arg2) (ix2 r k) := by rw [fin_cat]
  have b1 : (fun (k : Fin 384) (q : Fin 128) => V13 m ρ c main_arg21 (ix2 k q)) = fun k q => (argAt m c main_arg21) (ix2 k q) := by rw [fin_w]
  have b2 : (fun (q : Fin 128) => V13 m ρ c main_v115 (ix2 (0 : Fin 1) q)) = fun q => (argAt m c main_arg22) (ix1 q) := funext fun q => fin_b m ρ c q
  funext i
  unfold result
  rw [b0, b1, b2]

/-! ## The run -/

/-- THE KERNEL PROGRAM'S VALUE: from any memory with zero counters every weakly fair execution terminates, nothing
    faulting; the last region's output array ends holding the specification's result of the arguments as launched, and
    every argument array ends as launched. -/
theorem run_value : θ_run defs (onTc (τ := τ) (main (F := Ideal))) ⟨m, fun _ => 0, ρ⟩ (fun r => ∀ c : Dev nD,
      r.2.mem ((c.tc : Thread nD τ).loc main_v116) = Cert.Spec.result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)) :=
  (θ_run defs _ _).mono (fun r h c =>
    ⟨(h c _ (mem_uc main_v116 (by decide))).trans (k4 m ρ c),
     (h c _ (mem_uc main_arg0 (by decide))).trans (W14_kept m ρ c main_arg0 (by decide) (by decide) (by decide) (by decide) (by decide) (by decide) (by decide) (by decide) (by decide) (by decide) (by decide) (by decide) (by decide) (by decide)),
     (h c _ (mem_uc main_arg1 (by decide))).trans (W14_kept m ρ c main_arg1 (by decide) (by decide) (by decide) (by decide) (by decide) (by decide) (by decide) (by decide) (by decide) (by decide) (by decide) (by decide) (by decide) (by decide)),
     (h c _ (mem_uc main_arg2 (by decide))).trans (W14_kept m ρ c main_arg2 (by decide) (by decide) (by decide) (by decide) (by decide) (by decide) (by decide) (by decide) (by decide) (by decide) (by decide) (by decide) (by decide) (by decide)),
     (h c _ (mem_uc main_arg3 (by decide))).trans (W14_kept m ρ c main_arg3 (by decide) (by decide) (by decide) (by decide) (by decide) (by decide) (by decide) (by decide) (by decide) (by decide) (by decide) (by decide) (by decide) (by decide)),
     (h c _ (mem_uc main_arg4 (by decide))).trans (W14_kept m ρ c main_arg4 (by decide) (by decide) (by decide) (by decide) (by decide) (by decide) (by decide) (by decide) (by decide) (by decide) (by decide) (by decide) (by decide) (by decide)),
     (h c _ (mem_uc main_arg5 (by decide))).trans (W14_kept m ρ c main_arg5 (by decide) (by decide) (by decide) (by decide) (by decide) (by decide) (by decide) (by decide) (by decide) (by decide) (by decide) (by decide) (by decide) (by decide)),
     (h c _ (mem_uc main_arg6 (by decide))).trans (W14_kept m ρ c main_arg6 (by decide) (by decide) (by decide) (by decide) (by decide) (by decide) (by decide) (by decide) (by decide) (by decide) (by decide) (by decide) (by decide) (by decide)),
     (h c _ (mem_uc main_arg7 (by decide))).trans (W14_kept m ρ c main_arg7 (by decide) (by decide) (by decide) (by decide) (by decide) (by decide) (by decide) (by decide) (by decide) (by decide) (by decide) (by decide) (by decide) (by decide)),
     (h c _ (mem_uc main_arg8 (by decide))).trans (W14_kept m ρ c main_arg8 (by decide) (by decide) (by decide) (by decide) (by decide) (by decide) (by decide) (by decide) (by decide) (by decide) (by decide) (by decide) (by decide) (by decide)),
     (h c _ (mem_uc main_arg9 (by decide))).trans (W14_kept m ρ c main_arg9 (by decide) (by decide) (by decide) (by decide) (by decide) (by decide) (by decide) (by decide) (by decide) (by decide) (by decide) (by decide) (by decide) (by decide)),
     (h c _ (mem_uc main_arg10 (by decide))).trans (W14_kept m ρ c main_arg10 (by decide) (by decide) (by decide) (by decide) (by decide) (by decide) (by decide) (by decide) (by decide) (by decide) (by decide) (by decide) (by decide) (by decide)),
     (h c _ (mem_uc main_arg11 (by decide))).trans (W14_kept m ρ c main_arg11 (by decide) (by decide) (by decide) (by decide) (by decide) (by decide) (by decide) (by decide) (by decide) (by decide) (by decide) (by decide) (by decide) (by decide)),
     (h c _ (mem_uc main_arg12 (by decide))).trans (W14_kept m ρ c main_arg12 (by decide) (by decide) (by decide) (by decide) (by decide) (by decide) (by decide) (by decide) (by decide) (by decide) (by decide) (by decide) (by decide) (by decide)),
     (h c _ (mem_uc main_arg13 (by decide))).trans (W14_kept m ρ c main_arg13 (by decide) (by decide) (by decide) (by decide) (by decide) (by decide) (by decide) (by decide) (by decide) (by decide) (by decide) (by decide) (by decide) (by decide)),
     (h c _ (mem_uc main_arg14 (by decide))).trans (W14_kept m ρ c main_arg14 (by decide) (by decide) (by decide) (by decide) (by decide) (by decide) (by decide) (by decide) (by decide) (by decide) (by decide) (by decide) (by decide) (by decide)),
     (h c _ (mem_uc main_arg15 (by decide))).trans (W14_kept m ρ c main_arg15 (by decide) (by decide) (by decide) (by decide) (by decide) (by decide) (by decide) (by decide) (by decide) (by decide) (by decide) (by decide) (by decide) (by decide)),
     (h c _ (mem_uc main_arg16 (by decide))).trans (W14_kept m ρ c main_arg16 (by decide) (by decide) (by decide) (by decide) (by decide) (by decide) (by decide) (by decide) (by decide) (by decide) (by decide) (by decide) (by decide) (by decide)),
     (h c _ (mem_uc main_arg17 (by decide))).trans (W14_kept m ρ c main_arg17 (by decide) (by decide) (by decide) (by decide) (by decide) (by decide) (by decide) (by decide) (by decide) (by decide) (by decide) (by decide) (by decide) (by decide)),
     (h c _ (mem_uc main_arg18 (by decide))).trans (W14_kept m ρ c main_arg18 (by decide) (by decide) (by decide) (by decide) (by decide) (by decide) (by decide) (by decide) (by decide) (by decide) (by decide) (by decide) (by decide) (by decide)),
     (h c _ (mem_uc main_arg19 (by decide))).trans (W14_kept m ρ c main_arg19 (by decide) (by decide) (by decide) (by decide) (by decide) (by decide) (by decide) (by decide) (by decide) (by decide) (by decide) (by decide) (by decide) (by decide)),
     (h c _ (mem_uc main_arg20 (by decide))).trans (W14_kept m ρ c main_arg20 (by decide) (by decide) (by decide) (by decide) (by decide) (by decide) (by decide) (by decide) (by decide) (by decide) (by decide) (by decide) (by decide) (by decide)),
     (h c _ (mem_uc main_arg21 (by decide))).trans (W14_kept m ρ c main_arg21 (by decide) (by decide) (by decide) (by decide) (by decide) (by decide) (by decide) (by decide) (by decide) (by decide) (by decide) (by decide) (by decide) (by decide)),
     (h c _ (mem_uc main_arg22 (by decide))).trans (W14_kept m ρ c main_arg22 (by decide) (by decide) (by decide) (by decide) (by decide) (by decide) (by decide) (by decide) (by decide) (by decide) (by decide) (by decide) (by decide) (by decide))⟩) (run_all m ρ)

end Cert.KernelIdeal.HandV
-- ==== Proof.RefRunH.lean ====
import proofs.«130004_j49941879718343_1_alg».proof.Proof.RefOps
import proofs.«130004_j49941879718343_1_alg».proof.Proof.RefStages
import Idealize.ShloMosaic.Lib.StableHlo.Run

/-!
# The reference's run, read layer by layer

The reference is a straight line of 249 host operations. Every weakly fair execution of it terminates with each buffer
at the fold of the operations' results over the launch contents. The fold is never opened as one term: the line is
cut at the layer boundaries into five stretches — the three graph layers (aggregation, perceptron, normalisation,
rectifier), the pooling with the concatenation, and the last linear layer with the row normalisation — and each
stretch is read from ANY contents of the buffers before it. The three layer stretches are the same operations on
later buffers, so each is the first layer's function of the previous layer's output and of its own weights; composing
the five readings gives the result buffer as the last stage of the arguments, and every argument buffer unchanged.
-/

set_option maxRecDepth 16384

noncomputable section

namespace Cert.ReferenceIdeal.HandRun

open Cert.ReferenceIdeal Cert.ReferenceIdeal.Gen Cert.ReferenceIdeal.Value Cert.ReferenceIdeal.Read
open Idealize.ShloMosaic Idealize.ShloMosaic.TcCoe Idealize.SL.Sem Idealize.ShloMosaic.StableHlo

variable {F : FTy → Type} [FloatOps F]

/-! ## The run as a fold -/

/-- Every weakly fair execution terminates with each buffer at the fold of the 249 operations' results. -/
theorem run_fold (m : (ℓ : Loc nD τ sig) → Buf (Elt Ideal) ℓ) (ρ : Dev nD → PrngReg) :
    θ_run defs (onTc (τ := τ) (main (F := Ideal))) ⟨m, fun _ => 0, ρ⟩ fun r =>
      ∀ (d : Dev nD) (b : Ref sig .tc),
        r.2.mem ((d.tc : Thread nD τ).loc b) = StableHlo.after (ops (F := Ideal)) (launchContents m d) (Proc.devRef .tc b) :=
  run_seq scopedRefs_eq scopedSems_eq defs main (fun _ => ops) main_eq (fun _ => ops_sub) m ρ

/-- The fold over a line cut in two is the fold over the second part from the fold over the first. -/
theorem after_append {Val : EltTy → Type} (a b : List (HloOp τ sig Val)) (V : Valuation τ sig Val) :
    StableHlo.after (a ++ b) V = StableHlo.after b (StableHlo.after a V) := by
  induction a generalizing V with
  | nil => rfl
  | cons op l ih => exact ih (op.result V)

/-! ## The five stretches -/

/-- Layer 1: operations 1–62, up to the rectified, normalised output `main_v49`. -/
abbrev seg1 : List (HloOp τ sig (Elt F)) :=
  [ unary main_arg1 main_v0 ((extractStridedSlice S1x1600000 ![0, 0] · slices_S2x1600000_S1x1600000_0_0) : (⟨S2x1600000, .i32⟩ : BufTy).Contents (Elt F) → (⟨S1x1600000, .i32⟩ : BufTy).Contents (Elt F)),
    reshape main_v0 main_v1 rfl shapeCasts_S1x1600000_S1600000,
    nullary main_c (constantI S_ 32 0#32),
    unary main_c main_v2 (broadcastInDim S1600000 ![] bcast_S_S1600000 : (⟨S_, .i32⟩ : BufTy).Contents (Elt F) → (⟨S1600000, .i32⟩ : BufTy).Contents (Elt F)),
    binary main_v1 main_v2 main_v3 (cmpi .slt : (⟨S1600000, .i32⟩ : BufTy).Contents (Elt F) → (⟨S1600000, .i32⟩ : BufTy).Contents (Elt F) → (⟨S1600000, .i1⟩ : BufTy).Contents (Elt F)),
    nullary main_c_0 (constantI S_ 32 100000#32),
    unary main_c_0 main_v4 (broadcastInDim S1600000 ![] bcast_S_S1600000 : (⟨S_, .i32⟩ : BufTy).Contents (Elt F) → (⟨S1600000, .i32⟩ : BufTy).Contents (Elt F)),
    binary main_v1 main_v4 main_v5 (addi : (⟨S1600000, .i32⟩ : BufTy).Contents (Elt F) → (⟨S1600000, .i32⟩ : BufTy).Contents (Elt F) → (⟨S1600000, .i32⟩ : BufTy).Contents (Elt F)),
    ternary main_v3 main_v5 main_v1 main_v6 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v6 main_v7 (broadcastInDim S1600000x1 ![0] bcast_S1600000_S1600000x1_0 : (⟨S1600000, .i32⟩ : BufTy).Contents (Elt F) → (⟨S1600000x1, .i32⟩ : BufTy).Contents (Elt F)),
    binary main_arg0 main_v7 main_v8 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    unary main_arg1 main_v9 ((extractStridedSlice S1x1600000 ![1, 0] · slices_S2x1600000_S1x1600000_1_0) : (⟨S2x1600000, .i32⟩ : BufTy).Contents (Elt F) → (⟨S1x1600000, .i32⟩ : BufTy).Contents (Elt F)),
    reshape main_v9 main_v10 rfl shapeCasts_S1x1600000_S1600000,
    nullary main_cst (constant S_ .f32 0x00000000#32),
    unary main_cst main_v11 (broadcastInDim S100000x128 ![] bcast_S_S100000x128 : (⟨S_, .f32⟩ : BufTy).Contents (Elt F) → (⟨S100000x128, .f32⟩ : BufTy).Contents (Elt F)),
    unary main_v10 main_v12 (broadcastInDim S1600000x1 ![0] bcast_S1600000_S1600000x1_0 : (⟨S1600000, .i32⟩ : BufTy).Contents (Elt F) → (⟨S1600000x1, .i32⟩ : BufTy).Contents (Elt F)),
    ternary main_v11 main_v12 main_v8 main_v13 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    binary main_arg0 main_v13 main_v14 (addf : (⟨S100000x128, .f32⟩ : BufTy).Contents (Elt F) → (⟨S100000x128, .f32⟩ : BufTy).Contents (Elt F) → (⟨S100000x128, .f32⟩ : BufTy).Contents (Elt F)),
    binary main_v14 main_arg3 main_v15 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_arg4 main_v16 (broadcastInDim S1x128 ![1] bcast_S128_S1x128_1 : (⟨S128, .f32⟩ : BufTy).Contents (Elt F) → (⟨S1x128, .f32⟩ : BufTy).Contents (Elt F)),
    unary main_v16 main_v17 (broadcastInDim S100000x128 ![0, 1] bcast_S1x128_S100000x128_0_1 : (⟨S1x128, .f32⟩ : BufTy).Contents (Elt F) → (⟨S100000x128, .f32⟩ : BufTy).Contents (Elt F)),
    binary main_v15 main_v17 main_v18 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S100000x128, .f32⟩) main_call0_v0) (broadcastInDim S100000x128 ![] bcast_S_S100000x128),
    TRef.binary (TRef.of (T := ⟨S100000x128, .f32⟩) main_v18) (TRef.of (T := ⟨S100000x128, .f32⟩) main_call0_v0) (TRef.of (T := ⟨S100000x128, .f32⟩) main_v19) maximumf,
    binary main_v19 main_arg5 main_v20 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_arg6 main_v21 (broadcastInDim S1x128 ![1] bcast_S128_S1x128_1 : (⟨S128, .f32⟩ : BufTy).Contents (Elt F) → (⟨S1x128, .f32⟩ : BufTy).Contents (Elt F)),
    unary main_v21 main_v22 (broadcastInDim S100000x128 ![0, 1] bcast_S1x128_S100000x128_0_1 : (⟨S1x128, .f32⟩ : BufTy).Contents (Elt F) → (⟨S100000x128, .f32⟩ : BufTy).Contents (Elt F)),
    binary main_v20 main_v22 main_v23 (addf : (⟨S100000x128, .f32⟩ : BufTy).Contents (Elt F) → (⟨S100000x128, .f32⟩ : BufTy).Contents (Elt F) → (⟨S100000x128, .f32⟩ : BufTy).Contents (Elt F)),
    nullary main_cst_1 (constant S_ .f32 0x00000000#32),
    binary main_v23 main_cst_1 main_v24 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    nullary main_cst_2 (constant S_ .f32 0x47C35000#32),
    unary main_cst_2 main_v25 (broadcastInDim S128 ![] bcast_S_S128 : (⟨S_, .f32⟩ : BufTy).Contents (Elt F) → (⟨S128, .f32⟩ : BufTy).Contents (Elt F)),
    binary main_v24 main_v25 main_v26 (Host.divf : (⟨S128, .f32⟩ : BufTy).Contents (Elt F) → (⟨S128, .f32⟩ : BufTy).Contents (Elt F) → (⟨S128, .f32⟩ : BufTy).Contents (Elt F)),
    unary main_v26 main_v27 (broadcastInDim S1x128 ![1] bcast_S128_S1x128_1 : (⟨S128, .f32⟩ : BufTy).Contents (Elt F) → (⟨S1x128, .f32⟩ : BufTy).Contents (Elt F)),
    unary main_v27 main_v28 (broadcastInDim S100000x128 ![0, 1] bcast_S1x128_S100000x128_0_1 : (⟨S1x128, .f32⟩ : BufTy).Contents (Elt F) → (⟨S100000x128, .f32⟩ : BufTy).Contents (Elt F)),
    binary main_v23 main_v28 main_v29 (subf : (⟨S100000x128, .f32⟩ : BufTy).Contents (Elt F) → (⟨S100000x128, .f32⟩ : BufTy).Contents (Elt F) → (⟨S100000x128, .f32⟩ : BufTy).Contents (Elt F)),
    binary main_v29 main_v29 main_v30 (mulf : (⟨S100000x128, .f32⟩ : BufTy).Contents (Elt F) → (⟨S100000x128, .f32⟩ : BufTy).Contents (Elt F) → (⟨S100000x128, .f32⟩ : BufTy).Contents (Elt F)),
    nullary main_cst_3 (constant S_ .f32 0x00000000#32),
    binary main_v30 main_cst_3 main_v31 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    nullary main_cst_4 (constant S_ .f32 0x47C35000#32),
    unary main_cst_4 main_v32 (broadcastInDim S128 ![] bcast_S_S128 : (⟨S_, .f32⟩ : BufTy).Contents (Elt F) → (⟨S128, .f32⟩ : BufTy).Contents (Elt F)),
    binary main_v31 main_v32 main_v33 (Host.divf : (⟨S128, .f32⟩ : BufTy).Contents (Elt F) → (⟨S128, .f32⟩ : BufTy).Contents (Elt F) → (⟨S128, .f32⟩ : BufTy).Contents (Elt F)),
    unary main_v26 main_v34 (broadcastInDim S1x128 ![1] bcast_S128_S1x128_1 : (⟨S128, .f32⟩ : BufTy).Contents (Elt F) → (⟨S1x128, .f32⟩ : BufTy).Contents (Elt F)),
    unary main_v34 main_v35 (broadcastInDim S100000x128 ![0, 1] bcast_S1x128_S100000x128_0_1 : (⟨S1x128, .f32⟩ : BufTy).Contents (Elt F) → (⟨S100000x128, .f32⟩ : BufTy).Contents (Elt F)),
    binary main_v23 main_v35 main_v36 (subf : (⟨S100000x128, .f32⟩ : BufTy).Contents (Elt F) → (⟨S100000x128, .f32⟩ : BufTy).Contents (Elt F) → (⟨S100000x128, .f32⟩ : BufTy).Contents (Elt F)),
    nullary main_cst_5 (constant S_ .f32 0x3727C5AC#32),
    unary main_cst_5 main_v37 (broadcastInDim S128 ![] bcast_S_S128 : (⟨S_, .f32⟩ : BufTy).Contents (Elt F) → (⟨S128, .f32⟩ : BufTy).Contents (Elt F)),
    binary main_v33 main_v37 main_v38 (addf : (⟨S128, .f32⟩ : BufTy).Contents (Elt F) → (⟨S128, .f32⟩ : BufTy).Contents (Elt F) → (⟨S128, .f32⟩ : BufTy).Contents (Elt F)),
    unary main_v38 main_v39 (Host.rsqrt : (⟨S128, .f32⟩ : BufTy).Contents (Elt F) → (⟨S128, .f32⟩ : BufTy).Contents (Elt F)),
    unary main_v39 main_v40 (broadcastInDim S1x128 ![1] bcast_S128_S1x128_1 : (⟨S128, .f32⟩ : BufTy).Contents (Elt F) → (⟨S1x128, .f32⟩ : BufTy).Contents (Elt F)),
    unary main_v40 main_v41 (broadcastInDim S100000x128 ![0, 1] bcast_S1x128_S100000x128_0_1 : (⟨S1x128, .f32⟩ : BufTy).Contents (Elt F) → (⟨S100000x128, .f32⟩ : BufTy).Contents (Elt F)),
    binary main_v36 main_v41 main_v42 (mulf : (⟨S100000x128, .f32⟩ : BufTy).Contents (Elt F) → (⟨S100000x128, .f32⟩ : BufTy).Contents (Elt F) → (⟨S100000x128, .f32⟩ : BufTy).Contents (Elt F)),
    unary main_arg7 main_v43 (broadcastInDim S1x128 ![1] bcast_S128_S1x128_1 : (⟨S128, .f32⟩ : BufTy).Contents (Elt F) → (⟨S1x128, .f32⟩ : BufTy).Contents (Elt F)),
    unary main_v43 main_v44 (broadcastInDim S100000x128 ![0, 1] bcast_S1x128_S100000x128_0_1 : (⟨S1x128, .f32⟩ : BufTy).Contents (Elt F) → (⟨S100000x128, .f32⟩ : BufTy).Contents (Elt F)),
    binary main_v42 main_v44 main_v45 (mulf : (⟨S100000x128, .f32⟩ : BufTy).Contents (Elt F) → (⟨S100000x128, .f32⟩ : BufTy).Contents (Elt F) → (⟨S100000x128, .f32⟩ : BufTy).Contents (Elt F)),
    unary main_arg8 main_v46 (broadcastInDim S1x128 ![1] bcast_S128_S1x128_1 : (⟨S128, .f32⟩ : BufTy).Contents (Elt F) → (⟨S1x128, .f32⟩ : BufTy).Contents (Elt F)),
    unary main_v46 main_v47 (broadcastInDim S100000x128 ![0, 1] bcast_S1x128_S100000x128_0_1 : (⟨S1x128, .f32⟩ : BufTy).Contents (Elt F) → (⟨S100000x128, .f32⟩ : BufTy).Contents (Elt F)),
    binary main_v45 main_v47 main_v48 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S100000x128, .f32⟩) main_call1_v0) (broadcastInDim S100000x128 ![] bcast_S_S100000x128),
    TRef.binary (TRef.of (T := ⟨S100000x128, .f32⟩) main_v48) (TRef.of (T := ⟨S100000x128, .f32⟩) main_call1_v0) (TRef.of (T := ⟨S100000x128, .f32⟩) main_v49) maximumf ]

/-- Layer 2: operations 63–124, the same on later buffers, up to `main_v99`. -/
abbrev seg2 : List (HloOp τ sig (Elt F)) :=
  [ unary main_arg1 main_v50 ((extractStridedSlice S1x1600000 ![0, 0] · slices_S2x1600000_S1x1600000_0_0) : (⟨S2x1600000, .i32⟩ : BufTy).Contents (Elt F) → (⟨S1x1600000, .i32⟩ : BufTy).Contents (Elt F)),
    reshape main_v50 main_v51 rfl shapeCasts_S1x1600000_S1600000,
    nullary main_c_6 (constantI S_ 32 0#32),
    unary main_c_6 main_v52 (broadcastInDim S1600000 ![] bcast_S_S1600000 : (⟨S_, .i32⟩ : BufTy).Contents (Elt F) → (⟨S1600000, .i32⟩ : BufTy).Contents (Elt F)),
    binary main_v51 main_v52 main_v53 (cmpi .slt : (⟨S1600000, .i32⟩ : BufTy).Contents (Elt F) → (⟨S1600000, .i32⟩ : BufTy).Contents (Elt F) → (⟨S1600000, .i1⟩ : BufTy).Contents (Elt F)),
    nullary main_c_7 (constantI S_ 32 100000#32),
    unary main_c_7 main_v54 (broadcastInDim S1600000 ![] bcast_S_S1600000 : (⟨S_, .i32⟩ : BufTy).Contents (Elt F) → (⟨S1600000, .i32⟩ : BufTy).Contents (Elt F)),
    binary main_v51 main_v54 main_v55 (addi : (⟨S1600000, .i32⟩ : BufTy).Contents (Elt F) → (⟨S1600000, .i32⟩ : BufTy).Contents (Elt F) → (⟨S1600000, .i32⟩ : BufTy).Contents (Elt F)),
    ternary main_v53 main_v55 main_v51 main_v56 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v56 main_v57 (broadcastInDim S1600000x1 ![0] bcast_S1600000_S1600000x1_0 : (⟨S1600000, .i32⟩ : BufTy).Contents (Elt F) → (⟨S1600000x1, .i32⟩ : BufTy).Contents (Elt F)),
    binary main_v49 main_v57 main_v58 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    unary main_arg1 main_v59 ((extractStridedSlice S1x1600000 ![1, 0] · slices_S2x1600000_S1x1600000_1_0) : (⟨S2x1600000, .i32⟩ : BufTy).Contents (Elt F) → (⟨S1x1600000, .i32⟩ : BufTy).Contents (Elt F)),
    reshape main_v59 main_v60 rfl shapeCasts_S1x1600000_S1600000,
    nullary main_cst_8 (constant S_ .f32 0x00000000#32),
    unary main_cst_8 main_v61 (broadcastInDim S100000x128 ![] bcast_S_S100000x128 : (⟨S_, .f32⟩ : BufTy).Contents (Elt F) → (⟨S100000x128, .f32⟩ : BufTy).Contents (Elt F)),
    unary main_v60 main_v62 (broadcastInDim S1600000x1 ![0] bcast_S1600000_S1600000x1_0 : (⟨S1600000, .i32⟩ : BufTy).Contents (Elt F) → (⟨S1600000x1, .i32⟩ : BufTy).Contents (Elt F)),
    ternary main_v61 main_v62 main_v58 main_v63 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    binary main_v49 main_v63 main_v64 (addf : (⟨S100000x128, .f32⟩ : BufTy).Contents (Elt F) → (⟨S100000x128, .f32⟩ : BufTy).Contents (Elt F) → (⟨S100000x128, .f32⟩ : BufTy).Contents (Elt F)),
    binary main_v64 main_arg9 main_v65 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_arg10 main_v66 (broadcastInDim S1x128 ![1] bcast_S128_S1x128_1 : (⟨S128, .f32⟩ : BufTy).Contents (Elt F) → (⟨S1x128, .f32⟩ : BufTy).Contents (Elt F)),
    unary main_v66 main_v67 (broadcastInDim S100000x128 ![0, 1] bcast_S1x128_S100000x128_0_1 : (⟨S1x128, .f32⟩ : BufTy).Contents (Elt F) → (⟨S100000x128, .f32⟩ : BufTy).Contents (Elt F)),
    binary main_v65 main_v67 main_v68 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S100000x128, .f32⟩) main_call2_v0) (broadcastInDim S100000x128 ![] bcast_S_S100000x128),
    TRef.binary (TRef.of (T := ⟨S100000x128, .f32⟩) main_v68) (TRef.of (T := ⟨S100000x128, .f32⟩) main_call2_v0) (TRef.of (T := ⟨S100000x128, .f32⟩) main_v69) maximumf,
    binary main_v69 main_arg11 main_v70 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_arg12 main_v71 (broadcastInDim S1x128 ![1] bcast_S128_S1x128_1 : (⟨S128, .f32⟩ : BufTy).Contents (Elt F) → (⟨S1x128, .f32⟩ : BufTy).Contents (Elt F)),
    unary main_v71 main_v72 (broadcastInDim S100000x128 ![0, 1] bcast_S1x128_S100000x128_0_1 : (⟨S1x128, .f32⟩ : BufTy).Contents (Elt F) → (⟨S100000x128, .f32⟩ : BufTy).Contents (Elt F)),
    binary main_v70 main_v72 main_v73 (addf : (⟨S100000x128, .f32⟩ : BufTy).Contents (Elt F) → (⟨S100000x128, .f32⟩ : BufTy).Contents (Elt F) → (⟨S100000x128, .f32⟩ : BufTy).Contents (Elt F)),
    nullary main_cst_9 (constant S_ .f32 0x00000000#32),
    binary main_v73 main_cst_9 main_v74 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    nullary main_cst_10 (constant S_ .f32 0x47C35000#32),
    unary main_cst_10 main_v75 (broadcastInDim S128 ![] bcast_S_S128 : (⟨S_, .f32⟩ : BufTy).Contents (Elt F) → (⟨S128, .f32⟩ : BufTy).Contents (Elt F)),
    binary main_v74 main_v75 main_v76 (Host.divf : (⟨S128, .f32⟩ : BufTy).Contents (Elt F) → (⟨S128, .f32⟩ : BufTy).Contents (Elt F) → (⟨S128, .f32⟩ : BufTy).Contents (Elt F)),
    unary main_v76 main_v77 (broadcastInDim S1x128 ![1] bcast_S128_S1x128_1 : (⟨S128, .f32⟩ : BufTy).Contents (Elt F) → (⟨S1x128, .f32⟩ : BufTy).Contents (Elt F)),
    unary main_v77 main_v78 (broadcastInDim S100000x128 ![0, 1] bcast_S1x128_S100000x128_0_1 : (⟨S1x128, .f32⟩ : BufTy).Contents (Elt F) → (⟨S100000x128, .f32⟩ : BufTy).Contents (Elt F)),
    binary main_v73 main_v78 main_v79 (subf : (⟨S100000x128, .f32⟩ : BufTy).Contents (Elt F) → (⟨S100000x128, .f32⟩ : BufTy).Contents (Elt F) → (⟨S100000x128, .f32⟩ : BufTy).Contents (Elt F)),
    binary main_v79 main_v79 main_v80 (mulf : (⟨S100000x128, .f32⟩ : BufTy).Contents (Elt F) → (⟨S100000x128, .f32⟩ : BufTy).Contents (Elt F) → (⟨S100000x128, .f32⟩ : BufTy).Contents (Elt F)),
    nullary main_cst_11 (constant S_ .f32 0x00000000#32),
    binary main_v80 main_cst_11 main_v81 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    nullary main_cst_12 (constant S_ .f32 0x47C35000#32),
    unary main_cst_12 main_v82 (broadcastInDim S128 ![] bcast_S_S128 : (⟨S_, .f32⟩ : BufTy).Contents (Elt F) → (⟨S128, .f32⟩ : BufTy).Contents (Elt F)),
    binary main_v81 main_v82 main_v83 (Host.divf : (⟨S128, .f32⟩ : BufTy).Contents (Elt F) → (⟨S128, .f32⟩ : BufTy).Contents (Elt F) → (⟨S128, .f32⟩ : BufTy).Contents (Elt F)),
    unary main_v76 main_v84 (broadcastInDim S1x128 ![1] bcast_S128_S1x128_1 : (⟨S128, .f32⟩ : BufTy).Contents (Elt F) → (⟨S1x128, .f32⟩ : BufTy).Contents (Elt F)),
    unary main_v84 main_v85 (broadcastInDim S100000x128 ![0, 1] bcast_S1x128_S100000x128_0_1 : (⟨S1x128, .f32⟩ : BufTy).Contents (Elt F) → (⟨S100000x128, .f32⟩ : BufTy).Contents (Elt F)),
    binary main_v73 main_v85 main_v86 (subf : (⟨S100000x128, .f32⟩ : BufTy).Contents (Elt F) → (⟨S100000x128, .f32⟩ : BufTy).Contents (Elt F) → (⟨S100000x128, .f32⟩ : BufTy).Contents (Elt F)),
    nullary main_cst_13 (constant S_ .f32 0x3727C5AC#32),
    unary main_cst_13 main_v87 (broadcastInDim S128 ![] bcast_S_S128 : (⟨S_, .f32⟩ : BufTy).Contents (Elt F) → (⟨S128, .f32⟩ : BufTy).Contents (Elt F)),
    binary main_v83 main_v87 main_v88 (addf : (⟨S128, .f32⟩ : BufTy).Contents (Elt F) → (⟨S128, .f32⟩ : BufTy).Contents (Elt F) → (⟨S128, .f32⟩ : BufTy).Contents (Elt F)),
    unary main_v88 main_v89 (Host.rsqrt : (⟨S128, .f32⟩ : BufTy).Contents (Elt F) → (⟨S128, .f32⟩ : BufTy).Contents (Elt F)),
    unary main_v89 main_v90 (broadcastInDim S1x128 ![1] bcast_S128_S1x128_1 : (⟨S128, .f32⟩ : BufTy).Contents (Elt F) → (⟨S1x128, .f32⟩ : BufTy).Contents (Elt F)),
    unary main_v90 main_v91 (broadcastInDim S100000x128 ![0, 1] bcast_S1x128_S100000x128_0_1 : (⟨S1x128, .f32⟩ : BufTy).Contents (Elt F) → (⟨S100000x128, .f32⟩ : BufTy).Contents (Elt F)),
    binary main_v86 main_v91 main_v92 (mulf : (⟨S100000x128, .f32⟩ : BufTy).Contents (Elt F) → (⟨S100000x128, .f32⟩ : BufTy).Contents (Elt F) → (⟨S100000x128, .f32⟩ : BufTy).Contents (Elt F)),
    unary main_arg13 main_v93 (broadcastInDim S1x128 ![1] bcast_S128_S1x128_1 : (⟨S128, .f32⟩ : BufTy).Contents (Elt F) → (⟨S1x128, .f32⟩ : BufTy).Contents (Elt F)),
    unary main_v93 main_v94 (broadcastInDim S100000x128 ![0, 1] bcast_S1x128_S100000x128_0_1 : (⟨S1x128, .f32⟩ : BufTy).Contents (Elt F) → (⟨S100000x128, .f32⟩ : BufTy).Contents (Elt F)),
    binary main_v92 main_v94 main_v95 (mulf : (⟨S100000x128, .f32⟩ : BufTy).Contents (Elt F) → (⟨S100000x128, .f32⟩ : BufTy).Contents (Elt F) → (⟨S100000x128, .f32⟩ : BufTy).Contents (Elt F)),
    unary main_arg14 main_v96 (broadcastInDim S1x128 ![1] bcast_S128_S1x128_1 : (⟨S128, .f32⟩ : BufTy).Contents (Elt F) → (⟨S1x128, .f32⟩ : BufTy).Contents (Elt F)),
    unary main_v96 main_v97 (broadcastInDim S100000x128 ![0, 1] bcast_S1x128_S100000x128_0_1 : (⟨S1x128, .f32⟩ : BufTy).Contents (Elt F) → (⟨S100000x128, .f32⟩ : BufTy).Contents (Elt F)),
    binary main_v95 main_v97 main_v98 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S100000x128, .f32⟩) main_call3_v0) (broadcastInDim S100000x128 ![] bcast_S_S100000x128),
    TRef.binary (TRef.of (T := ⟨S100000x128, .f32⟩) main_v98) (TRef.of (T := ⟨S100000x128, .f32⟩) main_call3_v0) (TRef.of (T := ⟨S100000x128, .f32⟩) main_v99) maximumf ]

/-- Layer 3: operations 125–186, up to `main_v149`. -/
abbrev seg3 : List (HloOp τ sig (Elt F)) :=
  [ unary main_arg1 main_v100 ((extractStridedSlice S1x1600000 ![0, 0] · slices_S2x1600000_S1x1600000_0_0) : (⟨S2x1600000, .i32⟩ : BufTy).Contents (Elt F) → (⟨S1x1600000, .i32⟩ : BufTy).Contents (Elt F)),
    reshape main_v100 main_v101 rfl shapeCasts_S1x1600000_S1600000,
    nullary main_c_14 (constantI S_ 32 0#32),
    unary main_c_14 main_v102 (broadcastInDim S1600000 ![] bcast_S_S1600000 : (⟨S_, .i32⟩ : BufTy).Contents (Elt F) → (⟨S1600000, .i32⟩ : BufTy).Contents (Elt F)),
    binary main_v101 main_v102 main_v103 (cmpi .slt : (⟨S1600000, .i32⟩ : BufTy).Contents (Elt F) → (⟨S1600000, .i32⟩ : BufTy).Contents (Elt F) → (⟨S1600000, .i1⟩ : BufTy).Contents (Elt F)),
    nullary main_c_15 (constantI S_ 32 100000#32),
    unary main_c_15 main_v104 (broadcastInDim S1600000 ![] bcast_S_S1600000 : (⟨S_, .i32⟩ : BufTy).Contents (Elt F) → (⟨S1600000, .i32⟩ : BufTy).Contents (Elt F)),
    binary main_v101 main_v104 main_v105 (addi : (⟨S1600000, .i32⟩ : BufTy).Contents (Elt F) → (⟨S1600000, .i32⟩ : BufTy).Contents (Elt F) → (⟨S1600000, .i32⟩ : BufTy).Contents (Elt F)),
    ternary main_v103 main_v105 main_v101 main_v106 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v106 main_v107 (broadcastInDim S1600000x1 ![0] bcast_S1600000_S1600000x1_0 : (⟨S1600000, .i32⟩ : BufTy).Contents (Elt F) → (⟨S1600000x1, .i32⟩ : BufTy).Contents (Elt F)),
    binary main_v99 main_v107 main_v108 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    unary main_arg1 main_v109 ((extractStridedSlice S1x1600000 ![1, 0] · slices_S2x1600000_S1x1600000_1_0) : (⟨S2x1600000, .i32⟩ : BufTy).Contents (Elt F) → (⟨S1x1600000, .i32⟩ : BufTy).Contents (Elt F)),
    reshape main_v109 main_v110 rfl shapeCasts_S1x1600000_S1600000,
    nullary main_cst_16 (constant S_ .f32 0x00000000#32),
    unary main_cst_16 main_v111 (broadcastInDim S100000x128 ![] bcast_S_S100000x128 : (⟨S_, .f32⟩ : BufTy).Contents (Elt F) → (⟨S100000x128, .f32⟩ : BufTy).Contents (Elt F)),
    unary main_v110 main_v112 (broadcastInDim S1600000x1 ![0] bcast_S1600000_S1600000x1_0 : (⟨S1600000, .i32⟩ : BufTy).Contents (Elt F) → (⟨S1600000x1, .i32⟩ : BufTy).Contents (Elt F)),
    ternary main_v111 main_v112 main_v108 main_v113 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    binary main_v99 main_v113 main_v114 (addf : (⟨S100000x128, .f32⟩ : BufTy).Contents (Elt F) → (⟨S100000x128, .f32⟩ : BufTy).Contents (Elt F) → (⟨S100000x128, .f32⟩ : BufTy).Contents (Elt F)),
    binary main_v114 main_arg15 main_v115 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_arg16 main_v116 (broadcastInDim S1x128 ![1] bcast_S128_S1x128_1 : (⟨S128, .f32⟩ : BufTy).Contents (Elt F) → (⟨S1x128, .f32⟩ : BufTy).Contents (Elt F)),
    unary main_v116 main_v117 (broadcastInDim S100000x128 ![0, 1] bcast_S1x128_S100000x128_0_1 : (⟨S1x128, .f32⟩ : BufTy).Contents (Elt F) → (⟨S100000x128, .f32⟩ : BufTy).Contents (Elt F)),
    binary main_v115 main_v117 main_v118 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call4_cst) (constant S_ .f32 0x00000000#32),
    TRef.unary (TRef.of (T := ⟨S_, .f32⟩) main_call4_cst) (TRef.of (T := ⟨S100000x128, .f32⟩) main_call4_v0) (broadcastInDim S100000x128 ![] bcast_S_S100000x128),
    TRef.binary (TRef.of (T := ⟨S100000x128, .f32⟩) main_v118) (TRef.of (T := ⟨S100000x128, .f32⟩) main_call4_v0) (TRef.of (T := ⟨S100000x128, .f32⟩) main_v119) maximumf,
    binary main_v119 main_arg17 main_v120 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_arg18 main_v121 (broadcastInDim S1x128 ![1] bcast_S128_S1x128_1 : (⟨S128, .f32⟩ : BufTy).Contents (Elt F) → (⟨S1x128, .f32⟩ : BufTy).Contents (Elt F)),
    unary main_v121 main_v122 (broadcastInDim S100000x128 ![0, 1] bcast_S1x128_S100000x128_0_1 : (⟨S1x128, .f32⟩ : BufTy).Contents (Elt F) → (⟨S100000x128, .f32⟩ : BufTy).Contents (Elt F)),
    binary main_v120 main_v122 main_v123 (addf : (⟨S100000x128, .f32⟩ : BufTy).Contents (Elt F) → (⟨S100000x128, .f32⟩ : BufTy).Contents (Elt F) → (⟨S100000x128, .f32⟩ : BufTy).Contents (Elt F)),
    nullary main_cst_17 (constant S_ .f32 0x00000000#32),
    binary main_v123 main_cst_17 main_v124 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    nullary main_cst_18 (constant S_ .f32 0x47C35000#32),
    unary main_cst_18 main_v125 (broadcastInDim S128 ![] bcast_S_S128 : (⟨S_, .f32⟩ : BufTy).Contents (Elt F) → (⟨S128, .f32⟩ : BufTy).Contents (Elt F)),
    binary main_v124 main_v125 main_v126 (Host.divf : (⟨S128, .f32⟩ : BufTy).Contents (Elt F) → (⟨S128, .f32⟩ : BufTy).Contents (Elt F) → (⟨S128, .f32⟩ : BufTy).Contents (Elt F)),
    unary main_v126 main_v127 (broadcastInDim S1x128 ![1] bcast_S128_S1x128_1 : (⟨S128, .f32⟩ : BufTy).Contents (Elt F) → (⟨S1x128, .f32⟩ : BufTy).Contents (Elt F)),
    unary main_v127 main_v128 (broadcastInDim S100000x128 ![0, 1] bcast_S1x128_S100000x128_0_1 : (⟨S1x128, .f32⟩ : BufTy).Contents (Elt F) → (⟨S100000x128, .f32⟩ : BufTy).Contents (Elt F)),
    binary main_v123 main_v128 main_v129 (subf : (⟨S100000x128, .f32⟩ : BufTy).Contents (Elt F) → (⟨S100000x128, .f32⟩ : BufTy).Contents (Elt F) → (⟨S100000x128, .f32⟩ : BufTy).Contents (Elt F)),
    binary main_v129 main_v129 main_v130 (mulf : (⟨S100000x128, .f32⟩ : BufTy).Contents (Elt F) → (⟨S100000x128, .f32⟩ : BufTy).Contents (Elt F) → (⟨S100000x128, .f32⟩ : BufTy).Contents (Elt F)),
    nullary main_cst_19 (constant S_ .f32 0x00000000#32),
    binary main_v130 main_cst_19 main_v131 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    nullary main_cst_20 (constant S_ .f32 0x47C35000#32),
    unary main_cst_20 main_v132 (broadcastInDim S128 ![] bcast_S_S128 : (⟨S_, .f32⟩ : BufTy).Contents (Elt F) → (⟨S128, .f32⟩ : BufTy).Contents (Elt F)),
    binary main_v131 main_v132 main_v133 (Host.divf : (⟨S128, .f32⟩ : BufTy).Contents (Elt F) → (⟨S128, .f32⟩ : BufTy).Contents (Elt F) → (⟨S128, .f32⟩ : BufTy).Contents (Elt F)),
    unary main_v126 main_v134 (broadcastInDim S1x128 ![1] bcast_S128_S1x128_1 : (⟨S128, .f32⟩ : BufTy).Contents (Elt F) → (⟨S1x128, .f32⟩ : BufTy).Contents (Elt F)),
    unary main_v134 main_v135 (broadcastInDim S100000x128 ![0, 1] bcast_S1x128_S100000x128_0_1 : (⟨S1x128, .f32⟩ : BufTy).Contents (Elt F) → (⟨S100000x128, .f32⟩ : BufTy).Contents (Elt F)),
    binary main_v123 main_v135 main_v136 (subf : (⟨S100000x128, .f32⟩ : BufTy).Contents (Elt F) → (⟨S100000x128, .f32⟩ : BufTy).Contents (Elt F) → (⟨S100000x128, .f32⟩ : BufTy).Contents (Elt F)),
    nullary main_cst_21 (constant S_ .f32 0x3727C5AC#32),
    unary main_cst_21 main_v137 (broadcastInDim S128 ![] bcast_S_S128 : (⟨S_, .f32⟩ : BufTy).Contents (Elt F) → (⟨S128, .f32⟩ : BufTy).Contents (Elt F)),
    binary main_v133 main_v137 main_v138 (addf : (⟨S128, .f32⟩ : BufTy).Contents (Elt F) → (⟨S128, .f32⟩ : BufTy).Contents (Elt F) → (⟨S128, .f32⟩ : BufTy).Contents (Elt F)),
    unary main_v138 main_v139 (Host.rsqrt : (⟨S128, .f32⟩ : BufTy).Contents (Elt F) → (⟨S128, .f32⟩ : BufTy).Contents (Elt F)),
    unary main_v139 main_v140 (broadcastInDim S1x128 ![1] bcast_S128_S1x128_1 : (⟨S128, .f32⟩ : BufTy).Contents (Elt F) → (⟨S1x128, .f32⟩ : BufTy).Contents (Elt F)),
    unary main_v140 main_v141 (broadcastInDim S100000x128 ![0, 1] bcast_S1x128_S100000x128_0_1 : (⟨S1x128, .f32⟩ : BufTy).Contents (Elt F) → (⟨S100000x128, .f32⟩ : BufTy).Contents (Elt F)),
    binary main_v136 main_v141 main_v142 (mulf : (⟨S100000x128, .f32⟩ : BufTy).Contents (Elt F) → (⟨S100000x128, .f32⟩ : BufTy).Contents (Elt F) → (⟨S100000x128, .f32⟩ : BufTy).Contents (Elt F)),
    unary main_arg19 main_v143 (broadcastInDim S1x128 ![1] bcast_S128_S1x128_1 : (⟨S128, .f32⟩ : BufTy).Contents (Elt F) → (⟨S1x128, .f32⟩ : BufTy).Contents (Elt F)),
    unary main_v143 main_v144 (broadcastInDim S100000x128 ![0, 1] bcast_S1x128_S100000x128_0_1 : (⟨S1x128, .f32⟩ : BufTy).Contents (Elt F) → (⟨S100000x128, .f32⟩ : BufTy).Contents (Elt F)),
    binary main_v142 main_v144 main_v145 (mulf : (⟨S100000x128, .f32⟩ : BufTy).Contents (Elt F) → (⟨S100000x128, .f32⟩ : BufTy).Contents (Elt F) → (⟨S100000x128, .f32⟩ : BufTy).Contents (Elt F)),
    unary main_arg20 main_v146 (broadcastInDim S1x128 ![1] bcast_S128_S1x128_1 : (⟨S128, .f32⟩ : BufTy).Contents (Elt F) → (⟨S1x128, .f32⟩ : BufTy).Contents (Elt F)),
    unary main_v146 main_v147 (broadcastInDim S100000x128 ![0, 1] bcast_S1x128_S100000x128_0_1 : (⟨S1x128, .f32⟩ : BufTy).Contents (Elt F) → (⟨S100000x128, .f32⟩ : BufTy).Contents (Elt F)),
    binary main_v145 main_v147 main_v148 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call5_cst) (constant S_ .f32 0x00000000#32),
    TRef.unary (TRef.of (T := ⟨S_, .f32⟩) main_call5_cst) (TRef.of (T := ⟨S100000x128, .f32⟩) main_call5_v0) (broadcastInDim S100000x128 ![] bcast_S_S100000x128),
    TRef.binary (TRef.of (T := ⟨S100000x128, .f32⟩) main_v148) (TRef.of (T := ⟨S100000x128, .f32⟩) main_call5_v0) (TRef.of (T := ⟨S100000x128, .f32⟩) main_v149) maximumf ]

/-- The three mean-poolings per graph and their concatenation `main_v186`. -/
abbrev segPool : List (HloOp τ sig (Elt F)) :=
  [ nullary main_cst_22 (constant S_ .f32 0x00000000#32),
    unary main_cst_22 main_v150 (broadcastInDim S512x128 ![] bcast_S_S512x128 : (⟨S_, .f32⟩ : BufTy).Contents (Elt F) → (⟨S512x128, .f32⟩ : BufTy).Contents (Elt F)),
    unary main_arg2 main_v151 (broadcastInDim S100000x1 ![0] bcast_S100000_S100000x1_0 : (⟨S100000, .i32⟩ : BufTy).Contents (Elt F) → (⟨S100000x1, .i32⟩ : BufTy).Contents (Elt F)),
    ternary main_v150 main_v151 main_v49 main_v152 ((fun x i u => Host.scatterAdd scatter_S512x128_S100000x1_S100000x128_1_0_0_1 x i u) : (⟨S512x128, .f32⟩ : BufTy).Contents (Elt F) → (⟨S100000x1, .i32⟩ : BufTy).Contents (Elt F) → (⟨S100000x128, .f32⟩ : BufTy).Contents (Elt F) → (⟨S512x128, .f32⟩ : BufTy).Contents (Elt F)),
    nullary main_cst_23 (constant S_ .f32 0x3F800000#32),
    unary main_cst_23 main_v153 (broadcastInDim S100000 ![] bcast_S_S100000 : (⟨S_, .f32⟩ : BufTy).Contents (Elt F) → (⟨S100000, .f32⟩ : BufTy).Contents (Elt F)),
    nullary main_cst_24 (constant S_ .f32 0x00000000#32),
    unary main_cst_24 main_v154 (broadcastInDim S512 ![] bcast_S_S512 : (⟨S_, .f32⟩ : BufTy).Contents (Elt F) → (⟨S512, .f32⟩ : BufTy).Contents (Elt F)),
    unary main_arg2 main_v155 (broadcastInDim S100000x1 ![0] bcast_S100000_S100000x1_0 : (⟨S100000, .i32⟩ : BufTy).Contents (Elt F) → (⟨S100000x1, .i32⟩ : BufTy).Contents (Elt F)),
    ternary main_v154 main_v155 main_v153 main_v156 ((fun x i u => Host.scatterAdd scatter_S512_S100000x1_S100000_n_0_0_1 x i u) : (⟨S512, .f32⟩ : BufTy).Contents (Elt F) → (⟨S100000x1, .i32⟩ : BufTy).Contents (Elt F) → (⟨S100000, .f32⟩ : BufTy).Contents (Elt F) → (⟨S512, .f32⟩ : BufTy).Contents (Elt F)),
    nullary main_cst_25 (constant S_ .f32 0x3F800000#32),
    unary main_cst_25 main_v157 (broadcastInDim S512 ![] bcast_S_S512 : (⟨S_, .f32⟩ : BufTy).Contents (Elt F) → (⟨S512, .f32⟩ : BufTy).Contents (Elt F)),
    binary main_v156 main_v157 main_v158 (maximumf : (⟨S512, .f32⟩ : BufTy).Contents (Elt F) → (⟨S512, .f32⟩ : BufTy).Contents (Elt F) → (⟨S512, .f32⟩ : BufTy).Contents (Elt F)),
    unary main_v158 main_v159 (broadcastInDim S512x1 ![0] bcast_S512_S512x1_0 : (⟨S512, .f32⟩ : BufTy).Contents (Elt F) → (⟨S512x1, .f32⟩ : BufTy).Contents (Elt F)),
    unary main_v159 main_v160 (broadcastInDim S512x128 ![0, 1] bcast_S512x1_S512x128_0_1 : (⟨S512x1, .f32⟩ : BufTy).Contents (Elt F) → (⟨S512x128, .f32⟩ : BufTy).Contents (Elt F)),
    binary main_v152 main_v160 main_v161 (Host.divf : (⟨S512x128, .f32⟩ : BufTy).Contents (Elt F) → (⟨S512x128, .f32⟩ : BufTy).Contents (Elt F) → (⟨S512x128, .f32⟩ : BufTy).Contents (Elt F)),
    nullary main_cst_26 (constant S_ .f32 0x00000000#32),
    unary main_cst_26 main_v162 (broadcastInDim S512x128 ![] bcast_S_S512x128 : (⟨S_, .f32⟩ : BufTy).Contents (Elt F) → (⟨S512x128, .f32⟩ : BufTy).Contents (Elt F)),
    unary main_arg2 main_v163 (broadcastInDim S100000x1 ![0] bcast_S100000_S100000x1_0 : (⟨S100000, .i32⟩ : BufTy).Contents (Elt F) → (⟨S100000x1, .i32⟩ : BufTy).Contents (Elt F)),
    ternary main_v162 main_v163 main_v99 main_v164 ((fun x i u => Host.scatterAdd scatter_S512x128_S100000x1_S100000x128_1_0_0_1 x i u) : (⟨S512x128, .f32⟩ : BufTy).Contents (Elt F) → (⟨S100000x1, .i32⟩ : BufTy).Contents (Elt F) → (⟨S100000x128, .f32⟩ : BufTy).Contents (Elt F) → (⟨S512x128, .f32⟩ : BufTy).Contents (Elt F)),
    nullary main_cst_27 (constant S_ .f32 0x3F800000#32),
    unary main_cst_27 main_v165 (broadcastInDim S100000 ![] bcast_S_S100000 : (⟨S_, .f32⟩ : BufTy).Contents (Elt F) → (⟨S100000, .f32⟩ : BufTy).Contents (Elt F)),
    nullary main_cst_28 (constant S_ .f32 0x00000000#32),
    unary main_cst_28 main_v166 (broadcastInDim S512 ![] bcast_S_S512 : (⟨S_, .f32⟩ : BufTy).Contents (Elt F) → (⟨S512, .f32⟩ : BufTy).Contents (Elt F)),
    unary main_arg2 main_v167 (broadcastInDim S100000x1 ![0] bcast_S100000_S100000x1_0 : (⟨S100000, .i32⟩ : BufTy).Contents (Elt F) → (⟨S100000x1, .i32⟩ : BufTy).Contents (Elt F)),
    ternary main_v166 main_v167 main_v165 main_v168 ((fun x i u => Host.scatterAdd scatter_S512_S100000x1_S100000_n_0_0_1 x i u) : (⟨S512, .f32⟩ : BufTy).Contents (Elt F) → (⟨S100000x1, .i32⟩ : BufTy).Contents (Elt F) → (⟨S100000, .f32⟩ : BufTy).Contents (Elt F) → (⟨S512, .f32⟩ : BufTy).Contents (Elt F)),
    nullary main_cst_29 (constant S_ .f32 0x3F800000#32),
    unary main_cst_29 main_v169 (broadcastInDim S512 ![] bcast_S_S512 : (⟨S_, .f32⟩ : BufTy).Contents (Elt F) → (⟨S512, .f32⟩ : BufTy).Contents (Elt F)),
    binary main_v168 main_v169 main_v170 (maximumf : (⟨S512, .f32⟩ : BufTy).Contents (Elt F) → (⟨S512, .f32⟩ : BufTy).Contents (Elt F) → (⟨S512, .f32⟩ : BufTy).Contents (Elt F)),
    unary main_v170 main_v171 (broadcastInDim S512x1 ![0] bcast_S512_S512x1_0 : (⟨S512, .f32⟩ : BufTy).Contents (Elt F) → (⟨S512x1, .f32⟩ : BufTy).Contents (Elt F)),
    unary main_v171 main_v172 (broadcastInDim S512x128 ![0, 1] bcast_S512x1_S512x128_0_1 : (⟨S512x1, .f32⟩ : BufTy).Contents (Elt F) → (⟨S512x128, .f32⟩ : BufTy).Contents (Elt F)),
    binary main_v164 main_v172 main_v173 (Host.divf : (⟨S512x128, .f32⟩ : BufTy).Contents (Elt F) → (⟨S512x128, .f32⟩ : BufTy).Contents (Elt F) → (⟨S512x128, .f32⟩ : BufTy).Contents (Elt F)),
    nullary main_cst_30 (constant S_ .f32 0x00000000#32),
    unary main_cst_30 main_v174 (broadcastInDim S512x128 ![] bcast_S_S512x128 : (⟨S_, .f32⟩ : BufTy).Contents (Elt F) → (⟨S512x128, .f32⟩ : BufTy).Contents (Elt F)),
    unary main_arg2 main_v175 (broadcastInDim S100000x1 ![0] bcast_S100000_S100000x1_0 : (⟨S100000, .i32⟩ : BufTy).Contents (Elt F) → (⟨S100000x1, .i32⟩ : BufTy).Contents (Elt F)),
    ternary main_v174 main_v175 main_v149 main_v176 ((fun x i u => Host.scatterAdd scatter_S512x128_S100000x1_S100000x128_1_0_0_1 x i u) : (⟨S512x128, .f32⟩ : BufTy).Contents (Elt F) → (⟨S100000x1, .i32⟩ : BufTy).Contents (Elt F) → (⟨S100000x128, .f32⟩ : BufTy).Contents (Elt F) → (⟨S512x128, .f32⟩ : BufTy).Contents (Elt F)),
    nullary main_cst_31 (constant S_ .f32 0x3F800000#32),
    unary main_cst_31 main_v177 (broadcastInDim S100000 ![] bcast_S_S100000 : (⟨S_, .f32⟩ : BufTy).Contents (Elt F) → (⟨S100000, .f32⟩ : BufTy).Contents (Elt F)),
    nullary main_cst_32 (constant S_ .f32 0x00000000#32),
    unary main_cst_32 main_v178 (broadcastInDim S512 ![] bcast_S_S512 : (⟨S_, .f32⟩ : BufTy).Contents (Elt F) → (⟨S512, .f32⟩ : BufTy).Contents (Elt F)),
    unary main_arg2 main_v179 (broadcastInDim S100000x1 ![0] bcast_S100000_S100000x1_0 : (⟨S100000, .i32⟩ : BufTy).Contents (Elt F) → (⟨S100000x1, .i32⟩ : BufTy).Contents (Elt F)),
    ternary main_v178 main_v179 main_v177 main_v180 ((fun x i u => Host.scatterAdd scatter_S512_S100000x1_S100000_n_0_0_1 x i u) : (⟨S512, .f32⟩ : BufTy).Contents (Elt F) → (⟨S100000x1, .i32⟩ : BufTy).Contents (Elt F) → (⟨S100000, .f32⟩ : BufTy).Contents (Elt F) → (⟨S512, .f32⟩ : BufTy).Contents (Elt F)),
    nullary main_cst_33 (constant S_ .f32 0x3F800000#32),
    unary main_cst_33 main_v181 (broadcastInDim S512 ![] bcast_S_S512 : (⟨S_, .f32⟩ : BufTy).Contents (Elt F) → (⟨S512, .f32⟩ : BufTy).Contents (Elt F)),
    binary main_v180 main_v181 main_v182 (maximumf : (⟨S512, .f32⟩ : BufTy).Contents (Elt F) → (⟨S512, .f32⟩ : BufTy).Contents (Elt F) → (⟨S512, .f32⟩ : BufTy).Contents (Elt F)),
    unary main_v182 main_v183 (broadcastInDim S512x1 ![0] bcast_S512_S512x1_0 : (⟨S512, .f32⟩ : BufTy).Contents (Elt F) → (⟨S512x1, .f32⟩ : BufTy).Contents (Elt F)),
    unary main_v183 main_v184 (broadcastInDim S512x128 ![0, 1] bcast_S512x1_S512x128_0_1 : (⟨S512x1, .f32⟩ : BufTy).Contents (Elt F) → (⟨S512x128, .f32⟩ : BufTy).Contents (Elt F)),
    binary main_v176 main_v184 main_v185 (Host.divf : (⟨S512x128, .f32⟩ : BufTy).Contents (Elt F) → (⟨S512x128, .f32⟩ : BufTy).Contents (Elt F) → (⟨S512x128, .f32⟩ : BufTy).Contents (Elt F)),
    nary ![main_v161, main_v173, main_v185] main_v186 (fun u => concatenate S512x384 1 [⟨S512x128, u 0⟩, ⟨S512x128, u 1⟩, ⟨S512x128, u 2⟩] concatenates_S512x128_S512x128_S512x128_S512x384_d1) ]

/-- The last linear layer and the row normalisation, up to the result `main_v195`. -/
abbrev segFinal : List (HloOp τ sig (Elt F)) :=
  [ binary main_v186 main_arg21 main_v187 ((fun l r => Host.dotGeneral dot_S512x384_S384x128_S512x128_1_0_0_1_n_n none l r) : (⟨S512x384, .f32⟩ : BufTy).Contents (Elt F) → (⟨S384x128, .f32⟩ : BufTy).Contents (Elt F) → (⟨S512x128, .f32⟩ : BufTy).Contents (Elt F)),
    unary main_arg22 main_v188 (broadcastInDim S1x128 ![1] bcast_S128_S1x128_1 : (⟨S128, .f32⟩ : BufTy).Contents (Elt F) → (⟨S1x128, .f32⟩ : BufTy).Contents (Elt F)),
    unary main_v188 main_v189 (broadcastInDim S512x128 ![0, 1] bcast_S1x128_S512x128_0_1 : (⟨S1x128, .f32⟩ : BufTy).Contents (Elt F) → (⟨S512x128, .f32⟩ : BufTy).Contents (Elt F)),
    binary main_v187 main_v189 main_v190 (addf : (⟨S512x128, .f32⟩ : BufTy).Contents (Elt F) → (⟨S512x128, .f32⟩ : BufTy).Contents (Elt F) → (⟨S512x128, .f32⟩ : BufTy).Contents (Elt F)),
    TRef.binary (TRef.of (T := ⟨S512x128, .f32⟩) main_v190) (TRef.of (T := ⟨S512x128, .f32⟩) main_v190) (TRef.of (T := ⟨S512x128, .f32⟩) main_call6_v0) mulf,
    TRef.nullary (TRef.of (T := ⟨S_, .f32⟩) main_call6_cst) (constant S_ .f32 0x00000000#32),
    TRef.binary (TRef.of (T := ⟨S512x128, .f32⟩) main_call6_v0) (TRef.of (T := ⟨S_, .f32⟩) main_call6_cst) (TRef.of (T := ⟨S512, .f32⟩) main_call6_v1) (fun x v => Host.reduceAdd x v reducesTo_S512x128_S512_d1 h_S_),
    TRef.unary (TRef.of (T := ⟨S512, .f32⟩) main_call6_v1) (TRef.of (T := ⟨S512x1, .f32⟩) main_call6_v2) (broadcastInDim S512x1 ![0] bcast_S512_S512x1_0),
    TRef.unary (TRef.of (T := ⟨S512x1, .f32⟩) main_call6_v2) (TRef.of (T := ⟨S512x1, .f32⟩) main_v191) Host.sqrt,
    nullary main_cst_34 (constant S_ .f32 0x2B8CBCCC#32),
    unary main_cst_34 main_v192 (broadcastInDim S512x1 ![] bcast_S_S512x1 : (⟨S_, .f32⟩ : BufTy).Contents (Elt F) → (⟨S512x1, .f32⟩ : BufTy).Contents (Elt F)),
    binary main_v191 main_v192 main_v193 (maximumf : (⟨S512x1, .f32⟩ : BufTy).Contents (Elt F) → (⟨S512x1, .f32⟩ : BufTy).Contents (Elt F) → (⟨S512x1, .f32⟩ : BufTy).Contents (Elt F)),
    unary main_v193 main_v194 (broadcastInDim S512x128 ![0, 1] bcast_S512x1_S512x128_0_1 : (⟨S512x1, .f32⟩ : BufTy).Contents (Elt F) → (⟨S512x128, .f32⟩ : BufTy).Contents (Elt F)),
    binary main_v190 main_v194 main_v195 (Host.divf : (⟨S512x128, .f32⟩ : BufTy).Contents (Elt F) → (⟨S512x128, .f32⟩ : BufTy).Contents (Elt F) → (⟨S512x128, .f32⟩ : BufTy).Contents (Elt F))  ]

set_option maxHeartbeats 4000000 in
/-- The line is the five stretches in order. -/
theorem ops_split : (ops : List (HloOp τ sig (Elt F))) = seg1 ++ (seg2 ++ (seg3 ++ (segPool ++ segFinal))) := rfl

/-! ## Each stretch read from any contents before it -/

set_option maxHeartbeats 8000000 in
/-- Layer 1's output after the first stretch: the first layer's stage of the contents before it. -/
theorem seg1_out (W : Valuation τ sig (Elt Ideal)) :
    (StableHlo.after (seg1 (F := Ideal)) W (Proc.devRef .tc main_v49) : FVec Ideal S100000x128 .f32)
      = val_main_v49 (F := Ideal) (W (Proc.devRef .tc main_arg0)) (W (Proc.devRef .tc main_arg1)) (W (Proc.devRef .tc main_arg3)) (W (Proc.devRef .tc main_arg4)) (W (Proc.devRef .tc main_arg5)) (W (Proc.devRef .tc main_arg6)) (W (Proc.devRef .tc main_arg7)) (W (Proc.devRef .tc main_arg8)) := by
  after_results_simp
  rfl

/-! ## The later layers are the first layer's function of the previous output -/

/-- Layer 2's output is layer 1's function of layer 1's output and layer 2's weights. -/
theorem v99_eq (x0 : (⟨S100000x128, .f32⟩ : BufTy).Contents (Elt Ideal)) (x1 : (⟨S2x1600000, .i32⟩ : BufTy).Contents (Elt Ideal))
    (x3 : (⟨S128x128, .f32⟩ : BufTy).Contents (Elt Ideal)) (x4 : (⟨S128, .f32⟩ : BufTy).Contents (Elt Ideal)) (x5 : (⟨S128x128, .f32⟩ : BufTy).Contents (Elt Ideal)) (x6 x7 x8 : (⟨S128, .f32⟩ : BufTy).Contents (Elt Ideal))
    (x9 : (⟨S128x128, .f32⟩ : BufTy).Contents (Elt Ideal)) (x10 : (⟨S128, .f32⟩ : BufTy).Contents (Elt Ideal)) (x11 : (⟨S128x128, .f32⟩ : BufTy).Contents (Elt Ideal)) (x12 x13 x14 : (⟨S128, .f32⟩ : BufTy).Contents (Elt Ideal)) :
    val_main_v99 (F := Ideal) x0 x1 x3 x4 x5 x6 x7 x8 x9 x10 x11 x12 x13 x14
      = val_main_v49 (F := Ideal) (val_main_v49 (F := Ideal) x0 x1 x3 x4 x5 x6 x7 x8) x1 x9 x10 x11 x12 x13 x14 := rfl

/-- Layer 3's output is layer 1's function of layer 2's output and layer 3's weights. -/
theorem v149_eq (x0 : (⟨S100000x128, .f32⟩ : BufTy).Contents (Elt Ideal)) (x1 : (⟨S2x1600000, .i32⟩ : BufTy).Contents (Elt Ideal))
    (x3 : (⟨S128x128, .f32⟩ : BufTy).Contents (Elt Ideal)) (x4 : (⟨S128, .f32⟩ : BufTy).Contents (Elt Ideal)) (x5 : (⟨S128x128, .f32⟩ : BufTy).Contents (Elt Ideal)) (x6 x7 x8 : (⟨S128, .f32⟩ : BufTy).Contents (Elt Ideal))
    (x9 : (⟨S128x128, .f32⟩ : BufTy).Contents (Elt Ideal)) (x10 : (⟨S128, .f32⟩ : BufTy).Contents (Elt Ideal)) (x11 : (⟨S128x128, .f32⟩ : BufTy).Contents (Elt Ideal)) (x12 x13 x14 : (⟨S128, .f32⟩ : BufTy).Contents (Elt Ideal))
    (x15 : (⟨S128x128, .f32⟩ : BufTy).Contents (Elt Ideal)) (x16 : (⟨S128, .f32⟩ : BufTy).Contents (Elt Ideal)) (x17 : (⟨S128x128, .f32⟩ : BufTy).Contents (Elt Ideal)) (x18 x19 x20 : (⟨S128, .f32⟩ : BufTy).Contents (Elt Ideal)) :
    val_main_v149 (F := Ideal) x0 x1 x3 x4 x5 x6 x7 x8 x9 x10 x11 x12 x13 x14 x15 x16 x17 x18 x19 x20
      = val_main_v49 (F := Ideal) (val_main_v99 (F := Ideal) x0 x1 x3 x4 x5 x6 x7 x8 x9 x10 x11 x12 x13 x14) x1 x15 x16 x17 x18 x19 x20 := rfl

set_option maxHeartbeats 8000000 in
/-- Layer 2's output after the second stretch. -/
theorem seg2_out (W : Valuation τ sig (Elt Ideal)) :
    (StableHlo.after (seg2 (F := Ideal)) W (Proc.devRef .tc main_v99) : FVec Ideal S100000x128 .f32)
      = val_main_v49 (F := Ideal) (W (Proc.devRef .tc main_v49)) (W (Proc.devRef .tc main_arg1)) (W (Proc.devRef .tc main_arg9)) (W (Proc.devRef .tc main_arg10)) (W (Proc.devRef .tc main_arg11)) (W (Proc.devRef .tc main_arg12)) (W (Proc.devRef .tc main_arg13)) (W (Proc.devRef .tc main_arg14)) := by
  after_results_simp
  rfl

set_option maxHeartbeats 8000000 in
/-- Layer 3's output after the third stretch. -/
theorem seg3_out (W : Valuation τ sig (Elt Ideal)) :
    (StableHlo.after (seg3 (F := Ideal)) W (Proc.devRef .tc main_v149) : FVec Ideal S100000x128 .f32)
      = val_main_v49 (F := Ideal) (W (Proc.devRef .tc main_v99)) (W (Proc.devRef .tc main_arg1)) (W (Proc.devRef .tc main_arg15)) (W (Proc.devRef .tc main_arg16)) (W (Proc.devRef .tc main_arg17)) (W (Proc.devRef .tc main_arg18)) (W (Proc.devRef .tc main_arg19)) (W (Proc.devRef .tc main_arg20)) := by
  after_results_simp
  rfl

/-! ## The pooling and the last layer as functions of the layers' outputs -/

/-- The number of nodes of each graph, at least one: ones added per graph id from zero, then the maximum with one. -/
def graphCount (batch : (⟨S100000, .i32⟩ : BufTy).Contents (Elt Ideal)) : FVec Ideal S512 .f32 :=
  maximumf
    (Host.scatterAdd (F := Ideal) scatter_S512_S100000x1_S100000_n_0_0_1
      (broadcastInDim S512 ![] bcast_S_S512 (constant (F := Ideal) S_ .f32 0x00000000#32))
      (broadcastInDim S100000x1 ![0] bcast_S100000_S100000x1_0 batch)
      (broadcastInDim S100000 ![] bcast_S_S100000 (constant (F := Ideal) S_ .f32 0x3F800000#32)))
    (broadcastInDim S512 ![] bcast_S_S512 (constant (F := Ideal) S_ .f32 0x3F800000#32))

/-- The mean of a node array's rows per graph: the rows added per graph id from zero, divided by the graph's count. -/
def pool (h : FVec Ideal S100000x128 .f32) (batch : (⟨S100000, .i32⟩ : BufTy).Contents (Elt Ideal)) : FVec Ideal S512x128 .f32 :=
  Host.divf (F := Ideal)
    (Host.scatterAdd (F := Ideal) scatter_S512x128_S100000x1_S100000x128_1_0_0_1
      (broadcastInDim S512x128 ![] bcast_S_S512x128 (constant (F := Ideal) S_ .f32 0x00000000#32))
      (broadcastInDim S100000x1 ![0] bcast_S100000_S100000x1_0 batch) h)
    (broadcastInDim S512x128 ![0, 1] bcast_S512x1_S512x128_0_1 (broadcastInDim S512x1 ![0] bcast_S512_S512x1_0 (graphCount batch)))

/-- The three layers' pooled outputs side by side, [512, 384]. -/
def poolStage (h1 h2 h3 : FVec Ideal S100000x128 .f32) (batch : (⟨S100000, .i32⟩ : BufTy).Contents (Elt Ideal)) :
    FVec Ideal S512x384 .f32 :=
  concatenate S512x384 1 [⟨S512x128, pool h1 batch⟩, ⟨S512x128, pool h2 batch⟩, ⟨S512x128, pool h3 batch⟩]
    concatenates_S512x128_S512x128_S512x128_S512x384_d1

/-- The last linear map: the pooled features times the weights plus the bias laid out as a row. -/
def finalLinStage (hf : FVec Ideal S512x384 .f32) (w : FVec Ideal S384x128 .f32) (b : FVec Ideal S128 .f32) : FVec Ideal S512x128 .f32 :=
  addf (Host.dotGeneral dot_S512x384_S384x128_S512x128_1_0_0_1_n_n none hf w)
    (broadcastInDim S512x128 ![0, 1] bcast_S1x128_S512x128_0_1 (broadcastInDim S1x128 ![1] bcast_S128_S1x128_1 b))

/-- The last layer: every row of the linear map divided by its Euclidean length, kept above the threshold. -/
def finalStage (hf : FVec Ideal S512x384 .f32) (w : FVec Ideal S384x128 .f32) (b : FVec Ideal S128 .f32) : FVec Ideal S512x128 .f32 :=
  Host.divf (F := Ideal) (finalLinStage hf w b)
    (broadcastInDim S512x128 ![0, 1] bcast_S512x1_S512x128_0_1
      (maximumf
        (Host.sqrt (F := Ideal) (broadcastInDim S512x1 ![0] bcast_S512_S512x1_0
          (Host.reduceAdd (mulf (finalLinStage hf w b) (finalLinStage hf w b)) (constant (F := Ideal) S_ .f32 0x00000000#32)
            reducesTo_S512x128_S512_d1 h_S_)))
        (broadcastInDim S512x1 ![] bcast_S_S512x1 (constant (F := Ideal) S_ .f32 0x2B8CBCCC#32))))

/-- The reference's concatenated pooled features are that function of its three layers' outputs. -/
theorem v186_eq (x0 : (⟨S100000x128, .f32⟩ : BufTy).Contents (Elt Ideal)) (x1 : (⟨S2x1600000, .i32⟩ : BufTy).Contents (Elt Ideal))
    (x2 : (⟨S100000, .i32⟩ : BufTy).Contents (Elt Ideal))
    (x3 : (⟨S128x128, .f32⟩ : BufTy).Contents (Elt Ideal)) (x4 : (⟨S128, .f32⟩ : BufTy).Contents (Elt Ideal)) (x5 : (⟨S128x128, .f32⟩ : BufTy).Contents (Elt Ideal)) (x6 x7 x8 : (⟨S128, .f32⟩ : BufTy).Contents (Elt Ideal))
    (x9 : (⟨S128x128, .f32⟩ : BufTy).Contents (Elt Ideal)) (x10 : (⟨S128, .f32⟩ : BufTy).Contents (Elt Ideal)) (x11 : (⟨S128x128, .f32⟩ : BufTy).Contents (Elt Ideal)) (x12 x13 x14 : (⟨S128, .f32⟩ : BufTy).Contents (Elt Ideal))
    (x15 : (⟨S128x128, .f32⟩ : BufTy).Contents (Elt Ideal)) (x16 : (⟨S128, .f32⟩ : BufTy).Contents (Elt Ideal)) (x17 : (⟨S128x128, .f32⟩ : BufTy).Contents (Elt Ideal)) (x18 x19 x20 : (⟨S128, .f32⟩ : BufTy).Contents (Elt Ideal)) :
    val_main_v186 (F := Ideal) x0 x1 x2 x3 x4 x5 x6 x7 x8 x9 x10 x11 x12 x13 x14 x15 x16 x17 x18 x19 x20
      = poolStage (val_main_v49 (F := Ideal) x0 x1 x3 x4 x5 x6 x7 x8) (val_main_v99 (F := Ideal) x0 x1 x3 x4 x5 x6 x7 x8 x9 x10 x11 x12 x13 x14) (val_main_v149 (F := Ideal) x0 x1 x3 x4 x5 x6 x7 x8 x9 x10 x11 x12 x13 x14 x15 x16 x17 x18 x19 x20) x2 := rfl

/-- The reference's result is the last layer of its concatenated pooled features. -/
theorem v195_eq (x0 : (⟨S100000x128, .f32⟩ : BufTy).Contents (Elt Ideal)) (x1 : (⟨S2x1600000, .i32⟩ : BufTy).Contents (Elt Ideal))
    (x2 : (⟨S100000, .i32⟩ : BufTy).Contents (Elt Ideal))
    (x3 : (⟨S128x128, .f32⟩ : BufTy).Contents (Elt Ideal)) (x4 : (⟨S128, .f32⟩ : BufTy).Contents (Elt Ideal)) (x5 : (⟨S128x128, .f32⟩ : BufTy).Contents (Elt Ideal)) (x6 x7 x8 : (⟨S128, .f32⟩ : BufTy).Contents (Elt Ideal))
    (x9 : (⟨S128x128, .f32⟩ : BufTy).Contents (Elt Ideal)) (x10 : (⟨S128, .f32⟩ : BufTy).Contents (Elt Ideal)) (x11 : (⟨S128x128, .f32⟩ : BufTy).Contents (Elt Ideal)) (x12 x13 x14 : (⟨S128, .f32⟩ : BufTy).Contents (Elt Ideal))
    (x15 : (⟨S128x128, .f32⟩ : BufTy).Contents (Elt Ideal)) (x16 : (⟨S128, .f32⟩ : BufTy).Contents (Elt Ideal)) (x17 : (⟨S128x128, .f32⟩ : BufTy).Contents (Elt Ideal)) (x18 x19 x20 : (⟨S128, .f32⟩ : BufTy).Contents (Elt Ideal))
    (x21 : (⟨S384x128, .f32⟩ : BufTy).Contents (Elt Ideal)) (x22 : (⟨S128, .f32⟩ : BufTy).Contents (Elt Ideal)) :
    val_main_v195 (F := Ideal) x0 x1 x2 x3 x4 x5 x6 x7 x8 x9 x10 x11 x12 x13 x14 x15 x16 x17 x18 x19 x20 x21 x22
      = finalStage (val_main_v186 (F := Ideal) x0 x1 x2 x3 x4 x5 x6 x7 x8 x9 x10 x11 x12 x13 x14 x15 x16 x17 x18 x19 x20) x21 x22 := rfl

set_option maxHeartbeats 8000000 in
/-- The concatenated pooled features after the fourth stretch. -/
theorem segPool_out (W : Valuation τ sig (Elt Ideal)) :
    (StableHlo.after (segPool (F := Ideal)) W (Proc.devRef .tc main_v186) : FVec Ideal S512x384 .f32)
      = poolStage (W (Proc.devRef .tc main_v49)) (W (Proc.devRef .tc main_v99)) (W (Proc.devRef .tc main_v149)) (W (Proc.devRef .tc main_arg2)) := by
  after_results_simp
  rfl

set_option maxHeartbeats 8000000 in
/-- The result after the last stretch. -/
theorem segFinal_out (W : Valuation τ sig (Elt Ideal)) :
    (StableHlo.after (segFinal (F := Ideal)) W (Proc.devRef .tc main_v195) : FVec Ideal S512x128 .f32)
      = finalStage (W (Proc.devRef .tc main_v186)) (W (Proc.devRef .tc main_arg21)) (W (Proc.devRef .tc main_arg22)) := by
  after_results_simp
  rfl

/-! ## What the stretches write, and what they keep -/

/-- The references seg1's operations write. -/
abbrev seg1_W : List (Ref sig .tc) := [main_v0, main_v1, main_c, main_v2, main_v3, main_c_0, main_v4, main_v5, main_v6, main_v7, main_v8, main_v9, main_v10, main_cst, main_v11, main_v12, main_v13, main_v14, main_v15, main_v16, main_v17, main_v18, main_call0_cst, main_call0_v0, main_v19, main_v20, main_v21, main_v22, main_v23, main_cst_1, main_v24, main_cst_2, main_v25, main_v26, main_v27, main_v28, main_v29, main_v30, main_cst_3, main_v31, main_cst_4, main_v32, main_v33, main_v34, main_v35, main_v36, main_cst_5, main_v37, main_v38, main_v39, main_v40, main_v41, main_v42, main_v43, main_v44, main_v45, main_v46, main_v47, main_v48, main_call1_cst, main_call1_v0, main_v49]
theorem seg1_writes : (seg1 : List (HloOp τ sig (Elt F))).Forall fun op => op.writes ⊆ (seg1_W.map (Proc.devRef (τ := τ) .tc)).toFinset := by
  simp only [List.Forall]
  exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩

/-- A reference seg1 does not write keeps its contents. -/
theorem seg1_keeps (W : Valuation τ sig (Elt F)) (r : Ref sig .tc) (h : r ∉ seg1_W) :
    StableHlo.after (seg1 (F := F)) W (Proc.devRef .tc r) = W (Proc.devRef .tc r) :=
  StableHlo.after_of_writes_sub seg1 W seg1_writes h

/-- The references seg2's operations write. -/
abbrev seg2_W : List (Ref sig .tc) := [main_v50, main_v51, main_c_6, main_v52, main_v53, main_c_7, main_v54, main_v55, main_v56, main_v57, main_v58, main_v59, main_v60, main_cst_8, main_v61, main_v62, main_v63, main_v64, main_v65, main_v66, main_v67, main_v68, main_call2_cst, main_call2_v0, main_v69, main_v70, main_v71, main_v72, main_v73, main_cst_9, main_v74, main_cst_10, main_v75, main_v76, main_v77, main_v78, main_v79, main_v80, main_cst_11, main_v81, main_cst_12, main_v82, main_v83, main_v84, main_v85, main_v86, main_cst_13, main_v87, main_v88, main_v89, main_v90, main_v91, main_v92, main_v93, main_v94, main_v95, main_v96, main_v97, main_v98, main_call3_cst, main_call3_v0, main_v99]
theorem seg2_writes : (seg2 : List (HloOp τ sig (Elt F))).Forall fun op => op.writes ⊆ (seg2_W.map (Proc.devRef (τ := τ) .tc)).toFinset := by
  simp only [List.Forall]
  exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩

/-- A reference seg2 does not write keeps its contents. -/
theorem seg2_keeps (W : Valuation τ sig (Elt F)) (r : Ref sig .tc) (h : r ∉ seg2_W) :
    StableHlo.after (seg2 (F := F)) W (Proc.devRef .tc r) = W (Proc.devRef .tc r) :=
  StableHlo.after_of_writes_sub seg2 W seg2_writes h

/-- The references seg3's operations write. -/
abbrev seg3_W : List (Ref sig .tc) := [main_v100, main_v101, main_c_14, main_v102, main_v103, main_c_15, main_v104, main_v105, main_v106, main_v107, main_v108, main_v109, main_v110, main_cst_16, main_v111, main_v112, main_v113, main_v114, main_v115, main_v116, main_v117, main_v118, main_call4_cst, main_call4_v0, main_v119, main_v120, main_v121, main_v122, main_v123, main_cst_17, main_v124, main_cst_18, main_v125, main_v126, main_v127, main_v128, main_v129, main_v130, main_cst_19, main_v131, main_cst_20, main_v132, main_v133, main_v134, main_v135, main_v136, main_cst_21, main_v137, main_v138, main_v139, main_v140, main_v141, main_v142, main_v143, main_v144, main_v145, main_v146, main_v147, main_v148, main_call5_cst, main_call5_v0, main_v149]
theorem seg3_writes : (seg3 : List (HloOp τ sig (Elt F))).Forall fun op => op.writes ⊆ (seg3_W.map (Proc.devRef (τ := τ) .tc)).toFinset := by
  simp only [List.Forall]
  exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩

/-- A reference seg3 does not write keeps its contents. -/
theorem seg3_keeps (W : Valuation τ sig (Elt F)) (r : Ref sig .tc) (h : r ∉ seg3_W) :
    StableHlo.after (seg3 (F := F)) W (Proc.devRef .tc r) = W (Proc.devRef .tc r) :=
  StableHlo.after_of_writes_sub seg3 W seg3_writes h

/-- The references segPool's operations write. -/
abbrev segPool_W : List (Ref sig .tc) := [main_cst_22, main_v150, main_v151, main_v152, main_cst_23, main_v153, main_cst_24, main_v154, main_v155, main_v156, main_cst_25, main_v157, main_v158, main_v159, main_v160, main_v161, main_cst_26, main_v162, main_v163, main_v164, main_cst_27, main_v165, main_cst_28, main_v166, main_v167, main_v168, main_cst_29, main_v169, main_v170, main_v171, main_v172, main_v173, main_cst_30, main_v174, main_v175, main_v176, main_cst_31, main_v177, main_cst_32, main_v178, main_v179, main_v180, main_cst_33, main_v181, main_v182, main_v183, main_v184, main_v185, main_v186]
theorem segPool_writes : (segPool : List (HloOp τ sig (Elt F))).Forall fun op => op.writes ⊆ (segPool_W.map (Proc.devRef (τ := τ) .tc)).toFinset := by
  simp only [List.Forall]
  exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩

/-- A reference segPool does not write keeps its contents. -/
theorem segPool_keeps (W : Valuation τ sig (Elt F)) (r : Ref sig .tc) (h : r ∉ segPool_W) :
    StableHlo.after (segPool (F := F)) W (Proc.devRef .tc r) = W (Proc.devRef .tc r) :=
  StableHlo.after_of_writes_sub segPool W segPool_writes h

/-- The references segFinal's operations write. -/
abbrev segFinal_W : List (Ref sig .tc) := [main_v187, main_v188, main_v189, main_v190, main_call6_v0, main_call6_cst, main_call6_v1, main_call6_v2, main_v191, main_cst_34, main_v192, main_v193, main_v194, main_v195]
theorem segFinal_writes : (segFinal : List (HloOp τ sig (Elt F))).Forall fun op => op.writes ⊆ (segFinal_W.map (Proc.devRef (τ := τ) .tc)).toFinset := by
  simp only [List.Forall]
  exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩

/-- A reference segFinal does not write keeps its contents. -/
theorem segFinal_keeps (W : Valuation τ sig (Elt F)) (r : Ref sig .tc) (h : r ∉ segFinal_W) :
    StableHlo.after (segFinal (F := F)) W (Proc.devRef .tc r) = W (Proc.devRef .tc r) :=
  StableHlo.after_of_writes_sub segFinal W segFinal_writes h

/-! ## The five readings composed -/

/-- A reference none of the stretches writes keeps its contents over the whole line. -/
theorem ops_keeps (W : Valuation τ sig (Elt Ideal)) (r : Ref sig .tc) (h1 : r ∉ seg1_W) (h2 : r ∉ seg2_W) (h3 : r ∉ seg3_W)
    (h4 : r ∉ segPool_W) (h5 : r ∉ segFinal_W) :
    StableHlo.after (ops (F := Ideal)) W (Proc.devRef .tc r) = W (Proc.devRef .tc r) := by
  rw [ops_split, after_append, after_append, after_append, after_append,
    segFinal_keeps _ r h5, segPool_keeps _ r h4, seg3_keeps _ r h3, seg2_keeps _ r h2, seg1_keeps _ r h1]

set_option maxHeartbeats 8000000 in
/-- The result buffer after the whole line: the reference's last stage of the argument buffers' contents. -/
theorem ops_result (W : Valuation τ sig (Elt Ideal)) :
    (StableHlo.after (ops (F := Ideal)) W (Proc.devRef .tc main_v195) : FVec Ideal S512x128 .f32)
      = val_main_v195 (F := Ideal) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg12)) (W (Proc.devRef .tc main_arg13)) (W (Proc.devRef .tc main_arg14)) (W (Proc.devRef .tc main_arg15)) (W (Proc.devRef .tc main_arg16)) (W (Proc.devRef .tc main_arg17)) (W (Proc.devRef .tc main_arg18)) (W (Proc.devRef .tc main_arg19)) (W (Proc.devRef .tc main_arg20)) (W (Proc.devRef .tc main_arg21)) (W (Proc.devRef .tc main_arg22)) := by
  rw [ops_split, after_append, after_append, after_append, after_append, segFinal_out, segPool_out,
    segPool_keeps _ main_arg21 (by decide), segPool_keeps _ main_arg22 (by decide),
    seg3_out, seg3_keeps _ main_v49 (by decide), seg3_keeps _ main_v99 (by decide), seg3_keeps _ main_arg2 (by decide), seg3_keeps _ main_arg21 (by decide), seg3_keeps _ main_arg22 (by decide),
    seg2_out, seg2_keeps _ main_v49 (by decide), seg2_keeps _ main_arg1 (by decide), seg2_keeps _ main_arg2 (by decide), seg2_keeps _ main_arg15 (by decide), seg2_keeps _ main_arg16 (by decide), seg2_keeps _ main_arg17 (by decide), seg2_keeps _ main_arg18 (by decide), seg2_keeps _ main_arg19 (by decide), seg2_keeps _ main_arg20 (by decide), seg2_keeps _ main_arg21 (by decide), seg2_keeps _ main_arg22 (by decide),
    seg1_out, seg1_keeps _ main_arg1 (by decide), seg1_keeps _ main_arg2 (by decide), seg1_keeps _ main_arg9 (by decide), seg1_keeps _ main_arg10 (by decide), seg1_keeps _ main_arg11 (by decide), seg1_keeps _ main_arg12 (by decide), seg1_keeps _ main_arg13 (by decide), seg1_keeps _ main_arg14 (by decide), seg1_keeps _ main_arg15 (by decide), seg1_keeps _ main_arg16 (by decide), seg1_keeps _ main_arg17 (by decide), seg1_keeps _ main_arg18 (by decide), seg1_keeps _ main_arg19 (by decide), seg1_keeps _ main_arg20 (by decide), seg1_keeps _ main_arg21 (by decide), seg1_keeps _ main_arg22 (by decide),
    v195_eq, v186_eq, v149_eq, v99_eq]

/-! ## The run, read -/

/-- Every weakly fair execution of the reference terminates with its result buffer at the last stage of the argument
    buffers' launch contents, and every argument buffer unchanged. -/
theorem run_value (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v195)
          = val_main_v195 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22) :=
  (θ_run defs _ _).mono (fun r h c => ⟨(h c main_v195).trans (ops_result (launchContents m c)),
      (h c main_arg0).trans (ops_keeps (launchContents m c) main_arg0 (by decide) (by decide) (by decide) (by decide) (by decide)),
      (h c main_arg1).trans (ops_keeps (launchContents m c) main_arg1 (by decide) (by decide) (by decide) (by decide) (by decide)),
      (h c main_arg2).trans (ops_keeps (launchContents m c) main_arg2 (by decide) (by decide) (by decide) (by decide) (by decide)),
      (h c main_arg3).trans (ops_keeps (launchContents m c) main_arg3 (by decide) (by decide) (by decide) (by decide) (by decide)),
      (h c main_arg4).trans (ops_keeps (launchContents m c) main_arg4 (by decide) (by decide) (by decide) (by decide) (by decide)),
      (h c main_arg5).trans (ops_keeps (launchContents m c) main_arg5 (by decide) (by decide) (by decide) (by decide) (by decide)),
      (h c main_arg6).trans (ops_keeps (launchContents m c) main_arg6 (by decide) (by decide) (by decide) (by decide) (by decide)),
      (h c main_arg7).trans (ops_keeps (launchContents m c) main_arg7 (by decide) (by decide) (by decide) (by decide) (by decide)),
      (h c main_arg8).trans (ops_keeps (launchContents m c) main_arg8 (by decide) (by decide) (by decide) (by decide) (by decide)),
      (h c main_arg9).trans (ops_keeps (launchContents m c) main_arg9 (by decide) (by decide) (by decide) (by decide) (by decide)),
      (h c main_arg10).trans (ops_keeps (launchContents m c) main_arg10 (by decide) (by decide) (by decide) (by decide) (by decide)),
      (h c main_arg11).trans (ops_keeps (launchContents m c) main_arg11 (by decide) (by decide) (by decide) (by decide) (by decide)),
      (h c main_arg12).trans (ops_keeps (launchContents m c) main_arg12 (by decide) (by decide) (by decide) (by decide) (by decide)),
      (h c main_arg13).trans (ops_keeps (launchContents m c) main_arg13 (by decide) (by decide) (by decide) (by decide) (by decide)),
      (h c main_arg14).trans (ops_keeps (launchContents m c) main_arg14 (by decide) (by decide) (by decide) (by decide) (by decide)),
      (h c main_arg15).trans (ops_keeps (launchContents m c) main_arg15 (by decide) (by decide) (by decide) (by decide) (by decide)),
      (h c main_arg16).trans (ops_keeps (launchContents m c) main_arg16 (by decide) (by decide) (by decide) (by decide) (by decide)),
      (h c main_arg17).trans (ops_keeps (launchContents m c) main_arg17 (by decide) (by decide) (by decide) (by decide) (by decide)),
      (h c main_arg18).trans (ops_keeps (launchContents m c) main_arg18 (by decide) (by decide) (by decide) (by decide) (by decide)),
      (h c main_arg19).trans (ops_keeps (launchContents m c) main_arg19 (by decide) (by decide) (by decide) (by decide) (by decide)),
      (h c main_arg20).trans (ops_keeps (launchContents m c) main_arg20 (by decide) (by decide) (by decide) (by decide) (by decide)),
      (h c main_arg21).trans (ops_keeps (launchContents m c) main_arg21 (by decide) (by decide) (by decide) (by decide) (by decide)),
      (h c main_arg22).trans (ops_keeps (launchContents m c) main_arg22 (by decide) (by decide) (by decide) (by decide) (by decide))⟩)
    (run_fold m ρ)

end Cert.ReferenceIdeal.HandRun

end
-- ==== Proof.RefBnStage.lean ====
/-
  The reference's normalisation of a layer, read at one entry.

  After each layer's perceptron the reference normalises the 100000 × 128 array H column by column: the column mean
  m[q] (the column sum divided by 100000), the centred variance v[q] (the mean of (H[r, q] − m[q])²), and then

      out[r, q] = max( ((H[r, q] − m[q]) · rsqrt(v[q] + c)) · gain[q] + bias[q], 0 ).

  The printed text spells this with reductions along the rows' axis, divisions by a broadcast constant, and vectors of
  128 numbers broadcast over the 100000 rows. The same text occurs three times, on three arrays; it is written here
  once, as a function of H, gain and bias, read once at an entry, and each of the three occurrences is this function
  by unfolding.
-/
import proofs.«130004_j49941879718343_1_alg».proof.Proof.Gen.ReferenceIdeal
import Idealize.ShloMosaic.Lib.Pipeline.Value
import Idealize.ShloMosaic.Lib.ValueIdx
import Idealize.ShloMosaic.PureOps.Ideal.Laws
import proofs.«130004_j49941879718343_1_alg».proof.Proof.LibHostLayers
import proofs.«130004_j49941879718343_1_alg».proof.Proof.MathStats

noncomputable section

namespace Cert.RefStats

open Idealize.ShloMosaic Idealize.ShloMosaic.ValueIdx Cert.ReferenceIdeal Cert.ReferenceIdeal.Gen
open Cert.Math Cert.HLayers

/-! ## The pieces, as functions of the array -/

/-- A vector of 128 numbers laid over the 100000 rows: first as a [1, 128] row, then over the rows. -/
def rowsOf (v : FVec Ideal S128 .f32) : FVec Ideal S100000x128 .f32 :=
  broadcastInDim S100000x128 ![0, 1] bcast_S1x128_S100000x128_0_1 (broadcastInDim S1x128 ![1] bcast_S128_S1x128_1 v)

theorem rowsOf_apply (v : FVec Ideal S128 .f32) (r : Fin 100000) (q : Fin 128) : rowsOf v (ix2 r q) = v (ix1 q) := by
  unfold rowsOf
  rw [rowOver_apply, rowOfVec_apply]

/-- The vector of column means: the sum along the rows' axis, from zero, divided by the row count. -/
def meanVec (H : FVec Ideal S100000x128 .f32) : FVec Ideal S128 .f32 :=
  Host.divf (Host.reduceAdd H (constant (F := Ideal) S_ .f32 0x00000000#32) reducesTo_S100000x128_S128_d0 h_S_)
    (broadcastInDim S128 ![] bcast_S_S128 (constant (F := Ideal) S_ .f32 0x47C35000#32))

theorem colSum_apply (X : FVec Ideal S100000x128 .f32) (q : Fin 128) :
    Host.reduceAdd X (constant (F := Ideal) S_ .f32 0x00000000#32) reducesTo_S100000x128_S128_d0 h_S_ (ix1 q)
      = ∑ k : Fin 100000, X (ix2 k q) := by
  rw [hostColSum_apply X _ reducesTo_S100000x128_S128_d0 (by decide) h_S_ q]
  show Ideal.ofBits .f32 0x00000000#32 + _ = _
  rw [Ideal.ofBits_zero_f32, zero_add]

theorem meanVec_apply (H : FVec Ideal S100000x128 .f32) (q : Fin 128) :
    meanVec H (ix1 q) = mean (fun r q => H (ix2 r q)) q := by
  show Ideal.div (Host.reduceAdd H (constant (F := Ideal) S_ .f32 0x00000000#32) reducesTo_S100000x128_S128_d0 h_S_ (ix1 q))
      (broadcastInDim S128 ![] bcast_S_S128 (constant (F := Ideal) S_ .f32 0x47C35000#32) (ix1 q)) = _
  rw [colSum_apply, splat_apply]
  rfl

/-- The vector of centred variances: the squared deviations from the column mean, summed along the rows' axis and
    divided by the row count. -/
def varVec (H : FVec Ideal S100000x128 .f32) : FVec Ideal S128 .f32 :=
  Host.divf
    (Host.reduceAdd (mulf (subf H (rowsOf (meanVec H))) (subf H (rowsOf (meanVec H))))
      (constant (F := Ideal) S_ .f32 0x00000000#32) reducesTo_S100000x128_S128_d0 h_S_)
    (broadcastInDim S128 ![] bcast_S_S128 (constant (F := Ideal) S_ .f32 0x47C35000#32))

theorem varVec_apply (H : FVec Ideal S100000x128 .f32) (q : Fin 128) :
    varVec H (ix1 q) = varCentred (fun r q => H (ix2 r q)) q := by
  show Ideal.div (Host.reduceAdd (mulf (subf H (rowsOf (meanVec H))) (subf H (rowsOf (meanVec H))))
        (constant (F := Ideal) S_ .f32 0x00000000#32) reducesTo_S100000x128_S128_d0 h_S_ (ix1 q))
      (broadcastInDim S128 ![] bcast_S_S128 (constant (F := Ideal) S_ .f32 0x47C35000#32) (ix1 q)) = _
  rw [colSum_apply, splat_apply]
  unfold varCentred
  refine congrArg (fun s => Ideal.div s nLit) (Finset.sum_congr rfl fun k _ => ?_)
  show (H (ix2 k q) - rowsOf (meanVec H) (ix2 k q)) * (H (ix2 k q) - rowsOf (meanVec H) (ix2 k q)) = _
  rw [rowsOf_apply, meanVec_apply]

/-- The reference's normalisation of the array H with gain g and bias b: the printed operations, in their order. -/
def bnStage (H : FVec Ideal S100000x128 .f32) (g b : FVec Ideal S128 .f32) : FVec Ideal S100000x128 .f32 :=
  maximumf
    (addf
      (mulf
        (mulf (subf H (rowsOf (meanVec H)))
          (rowsOf (Host.rsqrt (addf (varVec H)
            (broadcastInDim S128 ![] bcast_S_S128 (constant (F := Ideal) S_ .f32 0x3727C5AC#32))))))
        (rowsOf g))
      (rowsOf b))
    (broadcastInDim S100000x128 ![] bcast_S_S100000x128 (constant (F := Ideal) S_ .f32 0x00000000#32))

/-- THE REFERENCE'S NORMALISATION AT AN ENTRY: the normalised entry of H by H's own column mean and centred
    variance, gain g and bias b. -/
theorem bnStage_apply (H : FVec Ideal S100000x128 .f32) (g b : FVec Ideal S128 .f32) (r : Fin 100000) (q : Fin 128) :
    bnStage H g b (ix2 r q)
      = bnEntry (fun r q => H (ix2 r q)) (mean (fun r q => H (ix2 r q))) (varCentred (fun r q => H (ix2 r q)))
          (fun q => g (ix1 q)) (fun q => b (ix1 q)) r q := by
  show max ((((H (ix2 r q) - rowsOf (meanVec H) (ix2 r q))
        * rowsOf (Host.rsqrt (addf (varVec H)
            (broadcastInDim S128 ![] bcast_S_S128 (constant (F := Ideal) S_ .f32 0x3727C5AC#32)))) (ix2 r q))
        * rowsOf g (ix2 r q)) + rowsOf b (ix2 r q))
      (broadcastInDim S100000x128 ![] bcast_S_S100000x128 (constant (F := Ideal) S_ .f32 0x00000000#32) (ix2 r q)) = _
  rw [rowsOf_apply, rowsOf_apply, rowsOf_apply, rowsOf_apply, splat_apply, Ideal.ofBits_zero_f32, meanVec_apply]
  show max ((((H (ix2 r q) - mean (fun r q => H (ix2 r q)) q)
        * Ideal.rsqrt (varVec H (ix1 q)
            + broadcastInDim S128 ![] bcast_S_S128 (constant (F := Ideal) S_ .f32 0x3727C5AC#32) (ix1 q)))
        * g (ix1 q)) + b (ix1 q)) 0 = _
  rw [varVec_apply, splat_apply]
  rfl

/-- The normalisation of an array with real entries, real gain and real bias has real entries. -/
theorem bnStage_isR (H : FVec Ideal S100000x128 .f32) (g b : FVec Ideal S128 .f32)
    (hH : ∀ r q, Cert.Lib.IsR.IsR (H (ix2 r q))) (hg : ∀ q, Cert.Lib.IsR.IsR (g (ix1 q)))
    (hb : ∀ q, Cert.Lib.IsR.IsR (b (ix1 q))) (r : Fin 100000) (q : Fin 128) :
    Cert.Lib.IsR.IsR (bnStage H g b (ix2 r q)) := by
  rw [bnStage_apply]
  exact bnEntry_stats_isR (hm := fun r q => H (ix2 r q)) hH hg hb r q

end Cert.RefStats

end
-- ==== Proof.RefStats.lean ====
/-
  The reference's three normalisations are one function of the array.

  The reference's text after each layer's perceptron — the column means, the centred variances, the scaling by the
  inverse square root, the gain and the bias, the clamp at zero — is the same on three different arrays. Each
  occurrence unfolds to the one function written beside this file, so each layer's output at entry (r, q) is the
  normalised entry of that layer's array by its own column mean and centred variance.
-/
import proofs.«130004_j49941879718343_1_alg».proof.Proof.RefStages
import proofs.«130004_j49941879718343_1_alg».proof.Proof.RefBnStage

noncomputable section

namespace Cert.RefStats

open Idealize.ShloMosaic Idealize.ShloMosaic.ValueIdx Cert.ReferenceIdeal Cert.ReferenceIdeal.Gen Cert.ReferenceIdeal.Read
open Cert.Math

/-- Layer 1: the output main_v49 is the normalisation of main_v23 with gain %arg7 and bias %arg8. -/
theorem layer1_eq (x0 : (⟨S100000x128, .f32⟩ : BufTy).Contents (Elt Ideal))
    (x1 : (⟨S2x1600000, .i32⟩ : BufTy).Contents (Elt Ideal))
    (x3 : (⟨S128x128, .f32⟩ : BufTy).Contents (Elt Ideal))
    (x4 : (⟨S128, .f32⟩ : BufTy).Contents (Elt Ideal))
    (x5 : (⟨S128x128, .f32⟩ : BufTy).Contents (Elt Ideal))
    (x6 x7 x8 : (⟨S128, .f32⟩ : BufTy).Contents (Elt Ideal)) :
    val_main_v49 (F := Ideal) x0 x1 x3 x4 x5 x6 x7 x8 = bnStage (val_main_v23 (F := Ideal) x0 x1 x3 x4 x5 x6) x7 x8 := rfl

/-- Layer 1 at an entry. -/
theorem layer1_apply (x0 : (⟨S100000x128, .f32⟩ : BufTy).Contents (Elt Ideal))
    (x1 : (⟨S2x1600000, .i32⟩ : BufTy).Contents (Elt Ideal))
    (x3 : (⟨S128x128, .f32⟩ : BufTy).Contents (Elt Ideal))
    (x4 : (⟨S128, .f32⟩ : BufTy).Contents (Elt Ideal))
    (x5 : (⟨S128x128, .f32⟩ : BufTy).Contents (Elt Ideal))
    (x6 x7 x8 : (⟨S128, .f32⟩ : BufTy).Contents (Elt Ideal))
    (r : Fin 100000) (q : Fin 128) :
    val_main_v49 (F := Ideal) x0 x1 x3 x4 x5 x6 x7 x8 (ix2 r q)
      = bnEntry (fun r q => val_main_v23 (F := Ideal) x0 x1 x3 x4 x5 x6 (ix2 r q))
          (mean (fun r q => val_main_v23 (F := Ideal) x0 x1 x3 x4 x5 x6 (ix2 r q)))
          (varCentred (fun r q => val_main_v23 (F := Ideal) x0 x1 x3 x4 x5 x6 (ix2 r q)))
          (fun q => x7 (ix1 q)) (fun q => x8 (ix1 q)) r q := by
  rw [layer1_eq]; exact bnStage_apply _ _ _ r q

/-- Layer 2: the output main_v99 is the normalisation of main_v73 with gain %arg13 and bias %arg14. -/
theorem layer2_eq (x0 : (⟨S100000x128, .f32⟩ : BufTy).Contents (Elt Ideal))
    (x1 : (⟨S2x1600000, .i32⟩ : BufTy).Contents (Elt Ideal))
    (x3 : (⟨S128x128, .f32⟩ : BufTy).Contents (Elt Ideal))
    (x4 : (⟨S128, .f32⟩ : BufTy).Contents (Elt Ideal))
    (x5 : (⟨S128x128, .f32⟩ : BufTy).Contents (Elt Ideal))
    (x6 x7 x8 : (⟨S128, .f32⟩ : BufTy).Contents (Elt Ideal))
    (x9 : (⟨S128x128, .f32⟩ : BufTy).Contents (Elt Ideal))
    (x10 : (⟨S128, .f32⟩ : BufTy).Contents (Elt Ideal))
    (x11 : (⟨S128x128, .f32⟩ : BufTy).Contents (Elt Ideal))
    (x12 x13 x14 : (⟨S128, .f32⟩ : BufTy).Contents (Elt Ideal)) :
    val_main_v99 (F := Ideal) x0 x1 x3 x4 x5 x6 x7 x8 x9 x10 x11 x12 x13 x14 = bnStage (val_main_v73 (F := Ideal) x0 x1 x3 x4 x5 x6 x7 x8 x9 x10 x11 x12) x13 x14 := rfl

/-- Layer 2 at an entry. -/
theorem layer2_apply (x0 : (⟨S100000x128, .f32⟩ : BufTy).Contents (Elt Ideal))
    (x1 : (⟨S2x1600000, .i32⟩ : BufTy).Contents (Elt Ideal))
    (x3 : (⟨S128x128, .f32⟩ : BufTy).Contents (Elt Ideal))
    (x4 : (⟨S128, .f32⟩ : BufTy).Contents (Elt Ideal))
    (x5 : (⟨S128x128, .f32⟩ : BufTy).Contents (Elt Ideal))
    (x6 x7 x8 : (⟨S128, .f32⟩ : BufTy).Contents (Elt Ideal))
    (x9 : (⟨S128x128, .f32⟩ : BufTy).Contents (Elt Ideal))
    (x10 : (⟨S128, .f32⟩ : BufTy).Contents (Elt Ideal))
    (x11 : (⟨S128x128, .f32⟩ : BufTy).Contents (Elt Ideal))
    (x12 x13 x14 : (⟨S128, .f32⟩ : BufTy).Contents (Elt Ideal))
    (r : Fin 100000) (q : Fin 128) :
    val_main_v99 (F := Ideal) x0 x1 x3 x4 x5 x6 x7 x8 x9 x10 x11 x12 x13 x14 (ix2 r q)
      = bnEntry (fun r q => val_main_v73 (F := Ideal) x0 x1 x3 x4 x5 x6 x7 x8 x9 x10 x11 x12 (ix2 r q))
          (mean (fun r q => val_main_v73 (F := Ideal) x0 x1 x3 x4 x5 x6 x7 x8 x9 x10 x11 x12 (ix2 r q)))
          (varCentred (fun r q => val_main_v73 (F := Ideal) x0 x1 x3 x4 x5 x6 x7 x8 x9 x10 x11 x12 (ix2 r q)))
          (fun q => x13 (ix1 q)) (fun q => x14 (ix1 q)) r q := by
  rw [layer2_eq]; exact bnStage_apply _ _ _ r q

/-- Layer 3: the output main_v149 is the normalisation of main_v123 with gain %arg19 and bias %arg20. -/
theorem layer3_eq (x0 : (⟨S100000x128, .f32⟩ : BufTy).Contents (Elt Ideal))
    (x1 : (⟨S2x1600000, .i32⟩ : BufTy).Contents (Elt Ideal))
    (x3 : (⟨S128x128, .f32⟩ : BufTy).Contents (Elt Ideal))
    (x4 : (⟨S128, .f32⟩ : BufTy).Contents (Elt Ideal))
    (x5 : (⟨S128x128, .f32⟩ : BufTy).Contents (Elt Ideal))
    (x6 x7 x8 : (⟨S128, .f32⟩ : BufTy).Contents (Elt Ideal))
    (x9 : (⟨S128x128, .f32⟩ : BufTy).Contents (Elt Ideal))
    (x10 : (⟨S128, .f32⟩ : BufTy).Contents (Elt Ideal))
    (x11 : (⟨S128x128, .f32⟩ : BufTy).Contents (Elt Ideal))
    (x12 x13 x14 : (⟨S128, .f32⟩ : BufTy).Contents (Elt Ideal))
    (x15 : (⟨S128x128, .f32⟩ : BufTy).Contents (Elt Ideal))
    (x16 : (⟨S128, .f32⟩ : BufTy).Contents (Elt Ideal))
    (x17 : (⟨S128x128, .f32⟩ : BufTy).Contents (Elt Ideal))
    (x18 x19 x20 : (⟨S128, .f32⟩ : BufTy).Contents (Elt Ideal)) :
    val_main_v149 (F := Ideal) x0 x1 x3 x4 x5 x6 x7 x8 x9 x10 x11 x12 x13 x14 x15 x16 x17 x18 x19 x20 = bnStage (val_main_v123 (F := Ideal) x0 x1 x3 x4 x5 x6 x7 x8 x9 x10 x11 x12 x13 x14 x15 x16 x17 x18) x19 x20 := rfl

/-- Layer 3 at an entry. -/
theorem layer3_apply (x0 : (⟨S100000x128, .f32⟩ : BufTy).Contents (Elt Ideal))
    (x1 : (⟨S2x1600000, .i32⟩ : BufTy).Contents (Elt Ideal))
    (x3 : (⟨S128x128, .f32⟩ : BufTy).Contents (Elt Ideal))
    (x4 : (⟨S128, .f32⟩ : BufTy).Contents (Elt Ideal))
    (x5 : (⟨S128x128, .f32⟩ : BufTy).Contents (Elt Ideal))
    (x6 x7 x8 : (⟨S128, .f32⟩ : BufTy).Contents (Elt Ideal))
    (x9 : (⟨S128x128, .f32⟩ : BufTy).Contents (Elt Ideal))
    (x10 : (⟨S128, .f32⟩ : BufTy).Contents (Elt Ideal))
    (x11 : (⟨S128x128, .f32⟩ : BufTy).Contents (Elt Ideal))
    (x12 x13 x14 : (⟨S128, .f32⟩ : BufTy).Contents (Elt Ideal))
    (x15 : (⟨S128x128, .f32⟩ : BufTy).Contents (Elt Ideal))
    (x16 : (⟨S128, .f32⟩ : BufTy).Contents (Elt Ideal))
    (x17 : (⟨S128x128, .f32⟩ : BufTy).Contents (Elt Ideal))
    (x18 x19 x20 : (⟨S128, .f32⟩ : BufTy).Contents (Elt Ideal))
    (r : Fin 100000) (q : Fin 128) :
    val_main_v149 (F := Ideal) x0 x1 x3 x4 x5 x6 x7 x8 x9 x10 x11 x12 x13 x14 x15 x16 x17 x18 x19 x20 (ix2 r q)
      = bnEntry (fun r q => val_main_v123 (F := Ideal) x0 x1 x3 x4 x5 x6 x7 x8 x9 x10 x11 x12 x13 x14 x15 x16 x17 x18 (ix2 r q))
          (mean (fun r q => val_main_v123 (F := Ideal) x0 x1 x3 x4 x5 x6 x7 x8 x9 x10 x11 x12 x13 x14 x15 x16 x17 x18 (ix2 r q)))
          (varCentred (fun r q => val_main_v123 (F := Ideal) x0 x1 x3 x4 x5 x6 x7 x8 x9 x10 x11 x12 x13 x14 x15 x16 x17 x18 (ix2 r q)))
          (fun q => x19 (ix1 q)) (fun q => x20 (ix1 q)) r q := by
  rw [layer3_eq]; exact bnStage_apply _ _ _ r q

end Cert.RefStats

end
-- ==== Proof.LibDotNN.lean ====
/-
  A reusable lemma: a matrix product computed by the host's `dot_general`, read at an entry.

  A `dot_general` of an [M, K] operand by a [K, N] operand — contracting axis 1 of the left with axis 0 of the right, no
  batch axes — read over the extended reals at the output entry (p, q), is the inner product of row p of the left
  operand with column q of the right one, whatever the precision and the summation schedule:

      (L · R)[p, q] = Σ_{k < K} L[p, k] · R[k, q].

  Generic in the extents M, K, N and in the operands' float formats; the dimension record may be any one that equals the
  plain M×K by K×N record (a printed program's own record does, by unfolding).
-/
import Idealize.ShloMosaic.PureOps.Ideal.Laws
import Idealize.ShloMosaic.Lib.ValueIdx
import proofs.«130004_j49941879718343_1_alg».proof.Proof.LibMatmulNN

noncomputable section

namespace Cert.DotNN

open Idealize.ShloMosaic Idealize.ShloMosaic.ValueIdx

variable {M K N : Nat} {φ₁ φ₂ : FTy}

/-- A host matrix product at entry (p, q): the inner product of row p with column q. -/
theorem dotGeneral_apply (D : DotDims ⟨2, ![M, K]⟩ ⟨2, ![K, N]⟩ ⟨2, ![M, N]⟩) (hD : D = DotDims.plain M K N)
    (prec : Option ContractPrecision) (sched : HostSchedule) (lhs : FVec Ideal ⟨2, ![M, K]⟩ φ₁) (rhs : FVec Ideal ⟨2, ![K, N]⟩ φ₂)
    (p : Fin M) (q : Fin N) :
    FloatOps.dotGeneral D prec sched lhs rhs (ix2 p q) = ∑ k : Fin K, lhs (ix2 p k) * rhs (ix2 k q) := by
  subst hD
  rw [Ideal.dotGeneral_apply, ← Equiv.sum_comp (contrEquiv1 (DotDims.plain M K N) K rfl rfl).symm]
  refine Finset.sum_congr rfl fun k _ => ?_
  rw [Cert.MatmulNN.lhsIdx_plain, Cert.MatmulNN.rhsIdx_plain]

end Cert.DotNN

end
-- ==== Proof.RefLayers.lean ====
import proofs.«130004_j49941879718343_1_alg».proof.Proof.RefStages
import proofs.«130004_j49941879718343_1_alg».proof.Proof.MathMlp
import proofs.«130004_j49941879718343_1_alg».proof.Proof.LibDotNN
import proofs.«130004_j49941879718343_1_alg».proof.Proof.LibRowBias
import proofs.«130004_j49941879718343_1_alg».proof.Proof.LibHostLayers

/-!
  The reference's three perceptrons, entry by entry.

  In each layer the reference adds the aggregated messages to the node features, multiplies by the first weight
  matrix, adds the first bias (a [128] vector laid out as a [1, 128] row and repeated along the rows), rectifies
  against a zero constant, multiplies by the second weight matrix and adds the second bias.  Read over the extended
  reals at (r, q) this is the perceptron of row r of features plus messages: mlpEntry.

  The layer's features and its aggregated messages are left as the stages they are; the gather and the scatter-add
  that produce the messages are not opened.
-/

noncomputable section

namespace Cert.Math

open Idealize.ShloMosaic Idealize.ShloMosaic.ValueIdx

/-- Product, bias, rectifier, product, bias — as the host spells them — at entry (p, q). -/
theorem hostBody_apply {R A B C : ℕ}
    (D1 : DotDims ⟨2, ![R, A]⟩ ⟨2, ![A, B]⟩ ⟨2, ![R, B]⟩) (hD1 : D1 = DotDims.plain R A B)
    (D2 : DotDims ⟨2, ![R, B]⟩ ⟨2, ![B, C]⟩ ⟨2, ![R, C]⟩) (hD2 : D2 = DotDims.plain R B C)
    (u : FVec Ideal ⟨2, ![R, A]⟩ .f32) (wa : FVec Ideal ⟨2, ![A, B]⟩ .f32) (ba : FVec Ideal ⟨1, ![B]⟩ .f32)
    (wb : FVec Ideal ⟨2, ![B, C]⟩ .f32) (bb : FVec Ideal ⟨1, ![C]⟩ .f32)
    (hra : (⟨1, ![B]⟩ : Shape).BroadcastsInDim ⟨2, ![1, B]⟩ ![1])
    (hba : (⟨2, ![1, B]⟩ : Shape).BroadcastsInDim ⟨2, ![R, B]⟩ ![0, 1])
    (hz : (⟨0, ![]⟩ : Shape).BroadcastsInDim ⟨2, ![R, B]⟩ ![])
    (hrb : (⟨1, ![C]⟩ : Shape).BroadcastsInDim ⟨2, ![1, C]⟩ ![1])
    (hbb : (⟨2, ![1, C]⟩ : Shape).BroadcastsInDim ⟨2, ![R, C]⟩ ![0, 1])
    (p : Fin R) (q : Fin C) :
    addf (Host.dotGeneral D2 none
        (maximumf (addf (Host.dotGeneral D1 none u wa)
            (broadcastInDim ⟨2, ![R, B]⟩ ![0, 1] hba (broadcastInDim ⟨2, ![1, B]⟩ ![1] hra ba)))
          (broadcastInDim ⟨2, ![R, B]⟩ ![] hz (constant (F := Ideal) ⟨0, ![]⟩ .f32 0x00000000#32)))
        wb)
      (broadcastInDim ⟨2, ![R, C]⟩ ![0, 1] hbb (broadcastInDim ⟨2, ![1, C]⟩ ![1] hrb bb)) (ix2 p q)
      = mlpRow (fun j => u (ix2 p j)) (fun j k => wa (ix2 j k)) (fun k => ba (ix1 k))
          (fun k c => wb (ix2 k c)) (fun c => bb (ix1 c)) q := by
  refine (Cert.RowBias.hostBias_apply _ _ hbb p q).trans ?_
  unfold mlpRow
  refine congrArg₂ (fun s t => s + t) ?_ (Cert.HLayers.rowOfVec_apply bb hrb (0 : Fin 1) q)
  refine (Cert.DotNN.dotGeneral_apply D2 hD2 none .single _ _ p q).trans ?_
  refine Finset.sum_congr rfl fun k _ => ?_
  refine congrArg (fun t => t * wb (ix2 k q)) ?_
  refine (Cert.RowBias.hostBiasRelu_apply _ _ hba hz p k).trans ?_
  refine congrArg₂ (fun s t => max (s + t) (Ideal.ofBits .f32 0x00000000#32)) ?_
    (Cert.HLayers.rowOfVec_apply ba hra (0 : Fin 1) k)
  exact Cert.DotNN.dotGeneral_apply D1 hD1 none .single _ _ p k

section Layers

open Cert.ReferenceIdeal Cert.ReferenceIdeal.Read

/-- Layer 1 before its normalisation, at (r, q): the perceptron of the input features plus their aggregated
    messages, with the first layer's weights. -/
theorem ref_layer1 (x0 : (⟨S100000x128, .f32⟩ : BufTy).Contents (Elt Ideal)) (x1 : (⟨S2x1600000, .i32⟩ : BufTy).Contents (Elt Ideal))
    (x3 : (⟨S128x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (r : Fin 100000) (q : Fin 128) :
    val_main_v23 (F := Ideal) x0 x1 x3 x4 x5 x6 (ix2 r q)
      = mlpEntry (fun r j => x0 (ix2 r j)) (fun r j => val_main_v13 (F := Ideal) x0 x1 (ix2 r j))
          (fun j k => x3 (ix2 j k)) (fun k => x4 (ix1 k)) (fun k c => x5 (ix2 k c)) (fun c => x6 (ix1 c)) r q := by
  unfold val_main_v23 val_main_v22 val_main_v21 val_main_v20 val_main_v19 val_main_call0_v0 val_main_call0_cst
    val_main_v18 val_main_v17 val_main_v16 val_main_v15 val_main_v14
  exact hostBody_apply _ rfl _ rfl (addf x0 (val_main_v13 (F := Ideal) x0 x1)) x3 x4 x5 x6 _ _ _ _ _ r q

/-- Layer 2 before its normalisation, at (r, q): the perceptron of layer 1's output plus its aggregated messages,
    with the second layer's weights. -/
theorem ref_layer2 (x0 : (⟨S100000x128, .f32⟩ : BufTy).Contents (Elt Ideal)) (x1 : (⟨S2x1600000, .i32⟩ : BufTy).Contents (Elt Ideal))
    (x3 : (⟨S128x128, .f32⟩ : BufTy).Contents (Elt Ideal)) (x4 : (⟨S128, .f32⟩ : BufTy).Contents (Elt Ideal)) (x5 : (⟨S128x128, .f32⟩ : BufTy).Contents (Elt Ideal)) (x6 x7 x8 : (⟨S128, .f32⟩ : BufTy).Contents (Elt Ideal))
    (x9 : (⟨S128x128, .f32⟩ : BufTy).Contents (Elt Ideal)) (x10 : (⟨S128, .f32⟩ : BufTy).Contents (Elt Ideal)) (x11 : (⟨S128x128, .f32⟩ : BufTy).Contents (Elt Ideal)) (x12 : (⟨S128, .f32⟩ : BufTy).Contents (Elt Ideal)) (r : Fin 100000) (q : Fin 128) :
    val_main_v73 (F := Ideal) x0 x1 x3 x4 x5 x6 x7 x8 x9 x10 x11 x12 (ix2 r q)
      = mlpEntry (fun r j => val_main_v49 (F := Ideal) x0 x1 x3 x4 x5 x6 x7 x8 (ix2 r j))
          (fun r j => val_main_v63 (F := Ideal) x0 x1 x3 x4 x5 x6 x7 x8 (ix2 r j))
          (fun j k => x9 (ix2 j k)) (fun k => x10 (ix1 k)) (fun k c => x11 (ix2 k c)) (fun c => x12 (ix1 c)) r q := by
  unfold val_main_v73 val_main_v72 val_main_v71 val_main_v70 val_main_v69 val_main_call2_v0 val_main_call2_cst
    val_main_v68 val_main_v67 val_main_v66 val_main_v65 val_main_v64
  exact hostBody_apply _ rfl _ rfl
    (addf (val_main_v49 (F := Ideal) x0 x1 x3 x4 x5 x6 x7 x8) (val_main_v63 (F := Ideal) x0 x1 x3 x4 x5 x6 x7 x8)) x9 x10 x11 x12 _ _ _ _ _ r q

/-- Layer 3 before its normalisation, at (r, q): the perceptron of layer 2's output plus its aggregated messages,
    with the third layer's weights. -/
theorem ref_layer3 (x0 : (⟨S100000x128, .f32⟩ : BufTy).Contents (Elt Ideal)) (x1 : (⟨S2x1600000, .i32⟩ : BufTy).Contents (Elt Ideal))
    (x3 : (⟨S128x128, .f32⟩ : BufTy).Contents (Elt Ideal)) (x4 : (⟨S128, .f32⟩ : BufTy).Contents (Elt Ideal)) (x5 : (⟨S128x128, .f32⟩ : BufTy).Contents (Elt Ideal)) (x6 x7 x8 : (⟨S128, .f32⟩ : BufTy).Contents (Elt Ideal))
    (x9 : (⟨S128x128, .f32⟩ : BufTy).Contents (Elt Ideal)) (x10 : (⟨S128, .f32⟩ : BufTy).Contents (Elt Ideal)) (x11 : (⟨S128x128, .f32⟩ : BufTy).Contents (Elt Ideal)) (x12 x13 x14 : (⟨S128, .f32⟩ : BufTy).Contents (Elt Ideal))
    (x15 : (⟨S128x128, .f32⟩ : BufTy).Contents (Elt Ideal)) (x16 : (⟨S128, .f32⟩ : BufTy).Contents (Elt Ideal)) (x17 : (⟨S128x128, .f32⟩ : BufTy).Contents (Elt Ideal)) (x18 : (⟨S128, .f32⟩ : BufTy).Contents (Elt Ideal)) (r : Fin 100000) (q : Fin 128) :
    val_main_v123 (F := Ideal) x0 x1 x3 x4 x5 x6 x7 x8 x9 x10 x11 x12 x13 x14 x15 x16 x17 x18 (ix2 r q)
      = mlpEntry (fun r j => val_main_v99 (F := Ideal) x0 x1 x3 x4 x5 x6 x7 x8 x9 x10 x11 x12 x13 x14 (ix2 r j))
          (fun r j => val_main_v113 (F := Ideal) x0 x1 x3 x4 x5 x6 x7 x8 x9 x10 x11 x12 x13 x14 (ix2 r j))
          (fun j k => x15 (ix2 j k)) (fun k => x16 (ix1 k)) (fun k c => x17 (ix2 k c)) (fun c => x18 (ix1 c)) r q := by
  unfold val_main_v123 val_main_v122 val_main_v121 val_main_v120 val_main_v119 val_main_call4_v0 val_main_call4_cst
    val_main_v118 val_main_v117 val_main_v116 val_main_v115 val_main_v114
  exact hostBody_apply _ rfl _ rfl
    (addf (val_main_v99 (F := Ideal) x0 x1 x3 x4 x5 x6 x7 x8 x9 x10 x11 x12 x13 x14) (val_main_v113 (F := Ideal) x0 x1 x3 x4 x5 x6 x7 x8 x9 x10 x11 x12 x13 x14)) x15 x16 x17 x18 _ _ _ _ _ r q

end Layers

end Cert.Math

end
-- ==== Proof.RefFinal.lean ====
import Idealize.ShloMosaic.PureOps.Ideal.Laws
import Idealize.ShloMosaic.Lib.ValueIdx
import Idealize.ShloMosaic.Lib.IdealHost
import Idealize.ShloMosaic.Lib.Pipeline.Value
import proofs.«130004_j49941879718343_1_alg».proof.Proof.RefStages
import proofs.«130004_j49941879718343_1_alg».proof.Proof.MathFinal
import proofs.«130004_j49941879718343_1_alg».proof.Proof.LibDotNN
import proofs.«130004_j49941879718343_1_alg».proof.Proof.LibRowBias
import proofs.«130004_j49941879718343_1_alg».proof.Proof.LibHostLayers

/-!
  The reference's last layer, entry by entry: the linear map of the concatenated pooled features through a host
  product and a bias laid out as a row, the row sum of squares taken by a host sum from a zero initial value, laid
  out as a column, its square root kept above the threshold, repeated along the row, and the quotient.  Read over the
  extended reals at (p, q) it is finalRow of row p of the pooled features.

  The concatenated pooled features are left as the stage they are.
-/

noncomputable section

namespace Cert.Math

open Idealize.ShloMosaic Idealize.ShloMosaic.ValueIdx

/-! ## The host's arithmetic, over any extents -/

/-- The linear part as the host spells it: the bias a [N] vector laid out as a row and repeated along the rows. -/
def hostLin {G K N : ℕ} (D : DotDims ⟨2, ![G, K]⟩ ⟨2, ![K, N]⟩ ⟨2, ![G, N]⟩)
    (hf : FVec Ideal ⟨2, ![G, K]⟩ .f32) (wl : FVec Ideal ⟨2, ![K, N]⟩ .f32) (bl : FVec Ideal ⟨1, ![N]⟩ .f32)
    (hrb : (⟨1, ![N]⟩ : Shape).BroadcastsInDim ⟨2, ![1, N]⟩ ![1])
    (hbb : (⟨2, ![1, N]⟩ : Shape).BroadcastsInDim ⟨2, ![G, N]⟩ ![0, 1]) : FVec Ideal ⟨2, ![G, N]⟩ .f32 :=
  addf (Host.dotGeneral D none hf wl) (broadcastInDim ⟨2, ![G, N]⟩ ![0, 1] hbb (broadcastInDim ⟨2, ![1, N]⟩ ![1] hrb bl))

theorem hostLin_apply {G K N : ℕ} (D : DotDims ⟨2, ![G, K]⟩ ⟨2, ![K, N]⟩ ⟨2, ![G, N]⟩) (hD : D = DotDims.plain G K N)
    (hf : FVec Ideal ⟨2, ![G, K]⟩ .f32) (wl : FVec Ideal ⟨2, ![K, N]⟩ .f32) (bl : FVec Ideal ⟨1, ![N]⟩ .f32)
    (hrb : (⟨1, ![N]⟩ : Shape).BroadcastsInDim ⟨2, ![1, N]⟩ ![1])
    (hbb : (⟨2, ![1, N]⟩ : Shape).BroadcastsInDim ⟨2, ![G, N]⟩ ![0, 1]) (p : Fin G) (c : Fin N) :
    hostLin D hf wl bl hrb hbb (ix2 p c)
      = finalLin (fun k => hf (ix2 p k)) (fun k c => wl (ix2 k c)) (fun c => bl (ix1 c)) c := by
  unfold hostLin finalLin
  refine (Cert.RowBias.hostBias_apply _ _ hbb p c).trans ?_
  exact congrArg₂ (fun s t => s + t) (Cert.DotNN.dotGeneral_apply D hD none .single _ _ p c)
    (Cert.HLayers.rowOfVec_apply bl hrb (0 : Fin 1) c)

/-- Linear map, host row sum of squares from a zero initial value, laid out as a column, square root, threshold,
    repeated along the row, quotient — as the host spells them — at entry (p, q). -/
theorem hostFinal_apply {G K N : ℕ} (D : DotDims ⟨2, ![G, K]⟩ ⟨2, ![K, N]⟩ ⟨2, ![G, N]⟩) (hD : D = DotDims.plain G K N)
    (hf : FVec Ideal ⟨2, ![G, K]⟩ .f32) (wl : FVec Ideal ⟨2, ![K, N]⟩ .f32) (bl : FVec Ideal ⟨1, ![N]⟩ .f32)
    (hrb : (⟨1, ![N]⟩ : Shape).BroadcastsInDim ⟨2, ![1, N]⟩ ![1])
    (hbb : (⟨2, ![1, N]⟩ : Shape).BroadcastsInDim ⟨2, ![G, N]⟩ ![0, 1])
    (h' : (⟨2, ![G, N]⟩ : Shape).ReducesTo [1] ⟨1, ![G]⟩) (hred : (⟨2, ![G, N]⟩ : Shape).Reduces [1] ⟨1, ![G]⟩)
    (hu : 0 < (⟨0, ![]⟩ : Shape).numel)
    (hc : (⟨1, ![G]⟩ : Shape).BroadcastsInDim ⟨2, ![G, 1]⟩ ![0])
    (hs : (⟨0, ![]⟩ : Shape).BroadcastsInDim ⟨2, ![G, 1]⟩ ![])
    (hcb : (⟨2, ![G, 1]⟩ : Shape).BroadcastsInDim ⟨2, ![G, N]⟩ ![0, 1]) (p : Fin G) (q : Fin N) :
    Host.divf (hostLin D hf wl bl hrb hbb)
      (broadcastInDim ⟨2, ![G, N]⟩ ![0, 1] hcb
        (maximumf (Host.sqrt (broadcastInDim ⟨2, ![G, 1]⟩ ![0] hc
            (Host.reduceAdd (mulf (hostLin D hf wl bl hrb hbb) (hostLin D hf wl bl hrb hbb))
              (constant (F := Ideal) ⟨0, ![]⟩ .f32 0x00000000#32) h' hu)))
          (broadcastInDim ⟨2, ![G, 1]⟩ ![] hs (constant (F := Ideal) ⟨0, ![]⟩ .f32 0x2B8CBCCC#32)))) (ix2 p q)
      = finalRow (fun k => hf (ix2 p k)) (fun k c => wl (ix2 k c)) (fun c => bl (ix1 c)) q := by
  have hsum : Host.reduceAdd (mulf (hostLin D hf wl bl hrb hbb) (hostLin D hf wl bl hrb hbb))
        (constant (F := Ideal) ⟨0, ![]⟩ .f32 0x00000000#32) h' hu (ix1 p)
      = ∑ c : Fin N, finalLin (fun k => hf (ix2 p k)) (fun k c => wl (ix2 k c)) (fun c => bl (ix1 c)) c
          * finalLin (fun k => hf (ix2 p k)) (fun k c => wl (ix2 k c)) (fun c => bl (ix1 c)) c := by
    rw [Cert.HLayers.hostRowSum_apply _ _ h' hred hu p]
    show Ideal.ofBits .f32 0x00000000#32 + _ = _
    rw [Ideal.ofBits_zero_f32, zero_add]
    refine Finset.sum_congr rfl fun (k : Fin N) _ => ?_
    show hostLin D hf wl bl hrb hbb (ix2 p k) * hostLin D hf wl bl hrb hbb (ix2 p k) = _
    rw [hostLin_apply D hD]
  refine (congrArg (fun t => Ideal.div (hostLin D hf wl bl hrb hbb (ix2 p q)) t)
    (Cert.HLayers.colOver_apply _ hcb p q)).trans ?_
  refine (congrArg₂ (fun s t => Ideal.div (hostLin D hf wl bl hrb hbb (ix2 p q)) (max (Ideal.sqrt s) t))
    (Cert.HLayers.colOfVec_apply _ hc p (0 : Fin 1))
    (Cert.HLayers.splat_apply hs 0x2B8CBCCC#32 (ix2 p (0 : Fin 1)))).trans ?_
  rw [hsum, hostLin_apply D hD]
  rfl
/-! ## The reference's last stages, at an entry

  From the concatenated pooled features (left as the stage it is) to the result. -/

section Reference

open Cert.ReferenceIdeal Cert.ReferenceIdeal.Read

theorem ref_final (x0 : (⟨S100000x128, .f32⟩ : BufTy).Contents (Elt Ideal)) (x1 : (⟨S2x1600000, .i32⟩ : BufTy).Contents (Elt Ideal))
    (x2 : (⟨S100000, .i32⟩ : BufTy).Contents (Elt Ideal))
    (x3 : (⟨S128x128, .f32⟩ : BufTy).Contents (Elt Ideal)) (x4 : (⟨S128, .f32⟩ : BufTy).Contents (Elt Ideal)) (x5 : (⟨S128x128, .f32⟩ : BufTy).Contents (Elt Ideal)) (x6 x7 x8 : (⟨S128, .f32⟩ : BufTy).Contents (Elt Ideal))
    (x9 : (⟨S128x128, .f32⟩ : BufTy).Contents (Elt Ideal)) (x10 : (⟨S128, .f32⟩ : BufTy).Contents (Elt Ideal)) (x11 : (⟨S128x128, .f32⟩ : BufTy).Contents (Elt Ideal)) (x12 x13 x14 : (⟨S128, .f32⟩ : BufTy).Contents (Elt Ideal))
    (x15 : (⟨S128x128, .f32⟩ : BufTy).Contents (Elt Ideal)) (x16 : (⟨S128, .f32⟩ : BufTy).Contents (Elt Ideal)) (x17 : (⟨S128x128, .f32⟩ : BufTy).Contents (Elt Ideal)) (x18 x19 x20 : (⟨S128, .f32⟩ : BufTy).Contents (Elt Ideal))
    (x21 : (⟨S384x128, .f32⟩ : BufTy).Contents (Elt Ideal)) (x22 : (⟨S128, .f32⟩ : BufTy).Contents (Elt Ideal)) (p : Fin 512) (q : Fin 128) :
    val_main_v195 (F := Ideal) x0 x1 x2 x3 x4 x5 x6 x7 x8 x9 x10 x11 x12 x13 x14 x15 x16 x17 x18 x19 x20 x21 x22 (ix2 p q)
      = finalEntry (fun r k => val_main_v186 (F := Ideal) x0 x1 x2 x3 x4 x5 x6 x7 x8 x9 x10 x11 x12 x13 x14 x15 x16 x17 x18 x19 x20 (ix2 r k))
          (fun k c => x21 (ix2 k c)) (fun c => x22 (ix1 c)) p q := by
  unfold val_main_v195 val_main_v194 val_main_v193 val_main_v192 val_main_cst_34 val_main_v191 val_main_call6_v2
    val_main_call6_v1 val_main_call6_cst val_main_call6_v0 val_main_v190 val_main_v189 val_main_v188 val_main_v187
  exact hostFinal_apply _ rfl (val_main_v186 (F := Ideal) x0 x1 x2 x3 x4 x5 x6 x7 x8 x9 x10 x11 x12 x13 x14 x15 x16 x17 x18 x19 x20) x21 x22 _ _ _ (by decide) _ _ _ _ p q

end Reference

end Cert.Math

end
-- ==== Proof.LibScatterReal.lean ====
/-
  A reusable lemma: gathers and scatter-adds keep real entries real.

  Over the extended reals, an entry of a gather is by definition an entry of its operand, and an entry of a float
  scatter-add is by definition the operand's entry plus a finite sum of update entries (those whose result index is
  that entry). So if every entry of the operand (and of the updates) is a real number, so is every entry of the
  result — whatever the dimension numbers, the shapes and the index array, in range or not. Stated once for any
  shapes, the lemmas keep a proof about a large scatter from ever comparing terms over its index types.
-/
import Idealize.ShloMosaic.PureOps.Ideal
import proofs.«130004_j49941879718343_1_alg».proof.Proof.LibReal

noncomputable section

namespace Cert.Lib.IsR

open Idealize.ShloMosaic

/-- An entry of a gather of an array of real numbers is a real number. -/
theorem gather_isR {s si t : Shape} (d : GatherDims s si t) {w : Nat} (x : s.Idx → EReal) (idx : IVec si w)
    (hx : ∀ i, IsR (x i)) (j : t.Idx) : IsR (Host.gather d x idx j) := by
  unfold Host.gather
  exact hx _

/-- An entry of a float scatter-add of real updates into an array of real numbers is a real number. -/
theorem scatterAdd_isR {s si su : Shape} (d : ScatterDims s si su) {w : Nat} (x : FVec Ideal s .f32) (idx : IVec si w)
    (upd : FVec Ideal su .f32) (hx : ∀ i, IsR (x i)) (hu : ∀ j, IsR (upd j)) (i : s.Idx) :
    IsR (Host.scatterAdd d x idx upd i) := by
  show IsR (Ideal.hostScatterAdd d x idx upd i)
  unfold Ideal.hostScatterAdd
  exact add (hx i) (sum _ _ fun j _ => hu j)

end Cert.Lib.IsR

end
-- ==== Proof.MathReal.lean ====
/-
  Real entries, carried through the network.

  The law joining the two spellings of the variance holds for real numbers, not at infinities, so every array that
  reaches a normalisation has to be shown real, entry by entry. An extended real whose absolute value is below
  plus infinity is a real number; the precondition says exactly this of every entry of every float argument array.
  From there realness passes through each operation of a layer: a gather picks entries, a scatter-add adds
  finitely many of them to a real, a matrix product is a finite sum of products, a bias is a sum, a clamp at zero a
  maximum, and the normalisation of a real array by its own statistics divides only by the square root of a
  positive real.
-/
import Idealize.ShloMosaic.Lib.ReduceAll
import Idealize.ShloMosaic.Lib.ValueIdx
import Idealize.ShloMosaic.PureOps.Ideal.Laws
import proofs.«130004_j49941879718343_1_alg».proof.Proof.Gen.Pre_finite_inputs
import proofs.«130004_j49941879718343_1_alg».proof.Proof.LibScatterReal
import proofs.«130004_j49941879718343_1_alg».proof.Proof.MathStats
import proofs.«130004_j49941879718343_1_alg».proof.Proof.MathMlp

noncomputable section

namespace Cert.Math

open Idealize.ShloMosaic Cert.Lib Cert.Lib.IsR

/-! ## An entry below plus infinity in absolute value is real -/

/-- The word 0x7F800000 denotes plus infinity. -/
theorem infLit_eq : Ideal.ofBits .f32 0x7F800000#32 = (⊤ : EReal) := by
  simp [Ideal.ofBits, Ideal.ieee]

/-- An extended real whose absolute value, max(x, −x), is strictly below plus infinity is a real number. -/
theorem isR_of_abs_lt_top (x : EReal)
    (h : Ideal.cmp .olt (max x (-x)) (Ideal.ofBits .f32 0x7F800000#32) = 1#1) : IsR x := by
  rw [infLit_eq] at h
  induction x using EReal.rec with
  | bot => simp [Ideal.cmp] at h
  | coe r => exact ⟨r, rfl⟩
  | top => simp [Ideal.cmp] at h

instance : Subsingleton (⟨0, ![]⟩ : Shape).Idx := ⟨fun a b => funext fun d => d.elim0⟩

/-- The printed test "all entries of |a| are below plus infinity" gives: every entry of a is real. -/
theorem all_isR {s : Shape} (a : FVec Ideal s .f32) (hb : (⟨0, ![]⟩ : Shape).BroadcastsInDim s ![])
    {axes : List (Fin s.rank)} (hred : s.ReducesTo axes ⟨0, ![]⟩) (hu : 0 < (⟨0, ![]⟩ : Shape).numel)
    (init : IVec ⟨0, ![]⟩ 1)
    (e : Host.reduce IntOp.andi
          (cmpf .olt (Host.absf a) (broadcastInDim s ![] hb (constant (F := Ideal) ⟨0, ![]⟩ .f32 0x7F800000#32)))
          init hred hu ValueIdx.ix0 = 1#1) (i : s.Idx) : IsR (a i) :=
  isR_of_abs_lt_top (a i) (Host.reduce_andi_all _ init hred hu ValueIdx.ix0 e i)

/-! ## Realness through the operations of a layer -/

/-- The zero word denotes a real number. -/
theorem zeroLit_isR : IsR (Ideal.ofBits .f32 0x00000000#32) := by
  rw [Ideal.ofBits_zero_f32]; exact IsR.zero

/-- The aggregation: an entry of a scatter-add, into a real array, of a gather of a real array is real; whatever the
    dimension numbers and the two index arrays. -/
theorem agg_isR {s si t si' : Shape} (dg : GatherDims s si t) (ds : ScatterDims s si' t) {w w' : Nat}
    (x z : FVec Ideal s .f32) (src : IVec si w) (dst : IVec si' w')
    (hx : ∀ i, IsR (x i)) (hz : ∀ i, IsR (z i)) (i : s.Idx) :
    IsR (Host.scatterAdd ds z dst (Host.gather dg x src) i) :=
  scatterAdd_isR ds z dst _ hz (fun j => gather_isR dg x src hx j) i

/-- One entry of the two-layer perceptron applied to a row: with h = x + agg the row's 128 inputs,
    relu(h·Wa + ba)·Wb + bb at column q is a finite sum of products of reals plus a real, hence real. -/
theorem mlpSum_isR {K J : Type*} [Fintype K] [Fintype J] (x agg : J → EReal) (Wa : J → K → EReal) (ba : K → EReal)
    (Wb : K → EReal) (bb z : EReal)
    (hx : ∀ j, IsR (x j)) (ha : ∀ j, IsR (agg j)) (hWa : ∀ j k, IsR (Wa j k)) (hba : ∀ k, IsR (ba k))
    (hWb : ∀ k, IsR (Wb k)) (hbb : IsR bb) (hz : IsR z) :
    IsR ((∑ k, max ((∑ j, (x j + agg j) * Wa j k) + ba k) z * Wb k) + bb) :=
  IsR.add (IsR.sum _ _ fun k _ =>
    IsR.mul (IsR.max (IsR.add (IsR.sum _ _ fun j _ => IsR.mul (IsR.add (hx j) (ha j)) (hWa j k)) (hba k)) hz) (hWb k)) hbb

/-- The perceptron's entry (p, q), for real features, aggregated messages, weights and biases, is real. -/
theorem mlpEntry_isR {R A B C : ℕ} (h agg : Fin R → Fin A → EReal) (Wa : Fin A → Fin B → EReal) (ba : Fin B → EReal)
    (Wb : Fin B → Fin C → EReal) (bb : Fin C → EReal) (p : Fin R) (q : Fin C)
    (hh : ∀ j, IsR (h p j)) (ha : ∀ j, IsR (agg p j)) (hWa : ∀ j k, IsR (Wa j k)) (hba : ∀ k, IsR (ba k))
    (hWb : ∀ k, IsR (Wb k q)) (hbb : IsR (bb q)) : IsR (mlpEntry h agg Wa ba Wb bb p q) :=
  mlpSum_isR (h p) (agg p) Wa ba (fun k => Wb k q) (bb q) (Ideal.ofBits .f32 0x00000000#32) hh ha hWa hba hWb hbb
    zeroLit_isR

/-- A finite sum of products of reals is real (one entry of a matrix product). -/
theorem dot_isR {K : Type*} [Fintype K] (u v : K → EReal) (hu : ∀ k, IsR (u k)) (hv : ∀ k, IsR (v k)) :
    IsR (∑ k, u k * v k) :=
  IsR.sum _ _ fun k _ => IsR.mul (hu k) (hv k)

/-! ## The precondition: every float argument array is real, entry by entry -/

/-- Every entry of each of the 21 float argument arrays is a real number. -/
structure ArgsReal (a0 : FVec Ideal Cert.Pre_finite_inputs.S100000x128 .f32) (a3 : FVec Ideal Cert.Pre_finite_inputs.S128x128 .f32) (a4 : FVec Ideal Cert.Pre_finite_inputs.S128 .f32) (a5 : FVec Ideal Cert.Pre_finite_inputs.S128x128 .f32) (a6 : FVec Ideal Cert.Pre_finite_inputs.S128 .f32) (a7 : FVec Ideal Cert.Pre_finite_inputs.S128 .f32) (a8 : FVec Ideal Cert.Pre_finite_inputs.S128 .f32) (a9 : FVec Ideal Cert.Pre_finite_inputs.S128x128 .f32) (a10 : FVec Ideal Cert.Pre_finite_inputs.S128 .f32) (a11 : FVec Ideal Cert.Pre_finite_inputs.S128x128 .f32) (a12 : FVec Ideal Cert.Pre_finite_inputs.S128 .f32) (a13 : FVec Ideal Cert.Pre_finite_inputs.S128 .f32) (a14 : FVec Ideal Cert.Pre_finite_inputs.S128 .f32) (a15 : FVec Ideal Cert.Pre_finite_inputs.S128x128 .f32) (a16 : FVec Ideal Cert.Pre_finite_inputs.S128 .f32) (a17 : FVec Ideal Cert.Pre_finite_inputs.S128x128 .f32) (a18 : FVec Ideal Cert.Pre_finite_inputs.S128 .f32) (a19 : FVec Ideal Cert.Pre_finite_inputs.S128 .f32) (a20 : FVec Ideal Cert.Pre_finite_inputs.S128 .f32) (a21 : FVec Ideal Cert.Pre_finite_inputs.S384x128 .f32) (a22 : FVec Ideal Cert.Pre_finite_inputs.S128 .f32) : Prop where
  r0 : ∀ i, IsR (a0 i)
  r3 : ∀ i, IsR (a3 i)
  r4 : ∀ i, IsR (a4 i)
  r5 : ∀ i, IsR (a5 i)
  r6 : ∀ i, IsR (a6 i)
  r7 : ∀ i, IsR (a7 i)
  r8 : ∀ i, IsR (a8 i)
  r9 : ∀ i, IsR (a9 i)
  r10 : ∀ i, IsR (a10 i)
  r11 : ∀ i, IsR (a11 i)
  r12 : ∀ i, IsR (a12 i)
  r13 : ∀ i, IsR (a13 i)
  r14 : ∀ i, IsR (a14 i)
  r15 : ∀ i, IsR (a15 i)
  r16 : ∀ i, IsR (a16 i)
  r17 : ∀ i, IsR (a17 i)
  r18 : ∀ i, IsR (a18 i)
  r19 : ∀ i, IsR (a19 i)
  r20 : ∀ i, IsR (a20 i)
  r21 : ∀ i, IsR (a21 i)
  r22 : ∀ i, IsR (a22 i)

/-- The precondition is the conjunction, over the float argument arrays, of "all entries are below plus infinity in
    absolute value"; so each entry of each array is real. The two integer arrays are not constrained. -/
theorem argsReal_of_pre [Cert.Pre_finite_inputs.Facts] (a0 : FVec Ideal Cert.Pre_finite_inputs.S100000x128 .f32) (a1 : IVec Cert.Pre_finite_inputs.S2x1600000 32) (a2 : IVec Cert.Pre_finite_inputs.S100000 32) (a3 : FVec Ideal Cert.Pre_finite_inputs.S128x128 .f32) (a4 : FVec Ideal Cert.Pre_finite_inputs.S128 .f32) (a5 : FVec Ideal Cert.Pre_finite_inputs.S128x128 .f32) (a6 : FVec Ideal Cert.Pre_finite_inputs.S128 .f32) (a7 : FVec Ideal Cert.Pre_finite_inputs.S128 .f32) (a8 : FVec Ideal Cert.Pre_finite_inputs.S128 .f32) (a9 : FVec Ideal Cert.Pre_finite_inputs.S128x128 .f32) (a10 : FVec Ideal Cert.Pre_finite_inputs.S128 .f32) (a11 : FVec Ideal Cert.Pre_finite_inputs.S128x128 .f32) (a12 : FVec Ideal Cert.Pre_finite_inputs.S128 .f32) (a13 : FVec Ideal Cert.Pre_finite_inputs.S128 .f32) (a14 : FVec Ideal Cert.Pre_finite_inputs.S128 .f32) (a15 : FVec Ideal Cert.Pre_finite_inputs.S128x128 .f32) (a16 : FVec Ideal Cert.Pre_finite_inputs.S128 .f32) (a17 : FVec Ideal Cert.Pre_finite_inputs.S128x128 .f32) (a18 : FVec Ideal Cert.Pre_finite_inputs.S128 .f32) (a19 : FVec Ideal Cert.Pre_finite_inputs.S128 .f32) (a20 : FVec Ideal Cert.Pre_finite_inputs.S128 .f32) (a21 : FVec Ideal Cert.Pre_finite_inputs.S384x128 .f32) (a22 : FVec Ideal Cert.Pre_finite_inputs.S128 .f32)
    (h : Cert.Pre_finite_inputs.fn (F := Ideal) a0 a1 a2 a3 a4 a5 a6 a7 a8 a9 a10 a11 a12 a13 a14 a15 a16 a17 a18 a19 a20 a21 a22 = fun _ => 1#1) :
    ArgsReal a0 a3 a4 a5 a6 a7 a8 a9 a10 a11 a12 a13 a14 a15 a16 a17 a18 a19 a20 a21 a22 := by
  have h0 := congrFun h ValueIdx.ix0
  dsimp only [Cert.Pre_finite_inputs.fn, Cert.Pre_finite_inputs.fn_part1, Cert.Pre_finite_inputs.fn_part2,
    Cert.Pre_finite_inputs.fn_part3, Cert.Pre_finite_inputs.fn_part4, Cert.Pre_finite_inputs.fn_part5,
    Cert.Pre_finite_inputs.fn_part6] at h0
  obtain ⟨h0, h22⟩ := IntOp.andi_eq_one.1 h0
  obtain ⟨h0, h21⟩ := IntOp.andi_eq_one.1 h0
  obtain ⟨h0, h20⟩ := IntOp.andi_eq_one.1 h0
  obtain ⟨h0, h19⟩ := IntOp.andi_eq_one.1 h0
  obtain ⟨h0, h18⟩ := IntOp.andi_eq_one.1 h0
  obtain ⟨h0, h17⟩ := IntOp.andi_eq_one.1 h0
  obtain ⟨h0, h16⟩ := IntOp.andi_eq_one.1 h0
  obtain ⟨h0, h15⟩ := IntOp.andi_eq_one.1 h0
  obtain ⟨h0, h14⟩ := IntOp.andi_eq_one.1 h0
  obtain ⟨h0, h13⟩ := IntOp.andi_eq_one.1 h0
  obtain ⟨h0, h12⟩ := IntOp.andi_eq_one.1 h0
  obtain ⟨h0, h11⟩ := IntOp.andi_eq_one.1 h0
  obtain ⟨h0, h10⟩ := IntOp.andi_eq_one.1 h0
  obtain ⟨h0, h9⟩ := IntOp.andi_eq_one.1 h0
  obtain ⟨h0, h8⟩ := IntOp.andi_eq_one.1 h0
  obtain ⟨h0, h7⟩ := IntOp.andi_eq_one.1 h0
  obtain ⟨h0, h6⟩ := IntOp.andi_eq_one.1 h0
  obtain ⟨h0, h5⟩ := IntOp.andi_eq_one.1 h0
  obtain ⟨h0, h4⟩ := IntOp.andi_eq_one.1 h0
  obtain ⟨h0, h3⟩ := IntOp.andi_eq_one.1 h0
  exact ⟨all_isR _ _ _ _ _ h0,
    all_isR _ _ _ _ _ h3,
    all_isR _ _ _ _ _ h4,
    all_isR _ _ _ _ _ h5,
    all_isR _ _ _ _ _ h6,
    all_isR _ _ _ _ _ h7,
    all_isR _ _ _ _ _ h8,
    all_isR _ _ _ _ _ h9,
    all_isR _ _ _ _ _ h10,
    all_isR _ _ _ _ _ h11,
    all_isR _ _ _ _ _ h12,
    all_isR _ _ _ _ _ h13,
    all_isR _ _ _ _ _ h14,
    all_isR _ _ _ _ _ h15,
    all_isR _ _ _ _ _ h16,
    all_isR _ _ _ _ _ h17,
    all_isR _ _ _ _ _ h18,
    all_isR _ _ _ _ _ h19,
    all_isR _ _ _ _ _ h20,
    all_isR _ _ _ _ _ h21,
    all_isR _ _ _ _ _ h22⟩

end Cert.Math

end
-- ==== Proof.RefBridge.lean ====
/-
  The reference computes the specification.

  The specification is written in the kernel's arrangement: each layer's array is normalised by its column mean and
  its ONE-PASS column variance, the mean of the squares less the square of the mean. The reference normalises by the
  centred variance, the mean of the squared deviations. The two variances are the same number when the layer's array
  has real entries, and this is the one place where the finiteness of the inputs is used: real features, weights
  and biases give a real aggregation (finitely many real rows added to zero), a real perceptron output (finite sums
  of products), hence equal variances; and the normalised array is real again (the variance is not negative, so the
  inverse square root is taken of a positive real), which feeds the next layer. The last stage, pooling and the
  final linear map with its row normalisation, is the same text on both sides.
-/
import proofs.«130004_j49941879718343_1_alg».proof.Proof.Spec
import proofs.«130004_j49941879718343_1_alg».proof.Proof.RefStats
import proofs.«130004_j49941879718343_1_alg».proof.Proof.RefLayers
import proofs.«130004_j49941879718343_1_alg».proof.Proof.RefFinal
import proofs.«130004_j49941879718343_1_alg».proof.Proof.MathReal

noncomputable section

namespace Cert.Spec

open Cert.Math Cert.KernelIdeal Cert.KernelIdeal.HandV Cert.Lib Cert.Lib.IsR
open Idealize.ShloMosaic Idealize.ShloMosaic.ValueIdx
open Cert.ReferenceIdeal.Read

/-! ## Real entries through one layer -/

/-- The aggregation of an array with real entries has real entries: finitely many of its rows added to zero. -/
theorem agg_real (X : Nodes) (e : Edges) (hX : ∀ i, IsR (X i)) (i : S100000x128.Idx) : IsR (agg X e i) := by
  unfold agg
  exact agg_isR _ _ X _ _ _ hX (fun i => by rw [Cert.HLayers.splat_apply]; exact zeroLit_isR) i

/-- The perceptron's output on real features, with real weights and biases, is a real family. -/
theorem layerHm_real (X : Nodes) (e : Edges) (Wa : Mat128) (ba : Vec128) (Wb : Mat128) (bb : Vec128)
    (hX : ∀ i, IsR (X i)) (hWa : ∀ i, IsR (Wa i)) (hba : ∀ i, IsR (ba i)) (hWb : ∀ i, IsR (Wb i))
    (hbb : ∀ i, IsR (bb i)) : RealFam (layerHm X e Wa ba Wb bb) := fun r q =>
  mlpEntry_isR _ _ _ _ _ _ r q (fun j => hX _) (fun j => agg_real X e hX _) (fun j k => hWa _) (fun k => hba _)
    (fun k => hWb _) (hbb _)

/-- A layer's output has real entries when its perceptron output is a real family and gain and bias are real. -/
theorem layerOut_real (X : Nodes) (e : Edges) (Wa : Mat128) (ba : Vec128) (Wb : Mat128) (bb g be : Vec128)
    (hreal : RealFam (layerHm X e Wa ba Wb bb)) (hg : ∀ i, IsR (g i)) (hbe : ∀ i, IsR (be i))
    (i : S100000x128.Idx) : IsR (layerOut X e Wa ba Wb bb g be i) := by
  unfold layerOut
  rw [bnEntry_onepass_eq_centred hreal]
  exact bnEntry_stats_isR hreal (fun q => hg _) (fun q => hbe _) _ _

/-! ## One layer: the reference's normalisation of the perceptron output is the specification's layer -/

/-- If the array H is, entry by entry, the perceptron output of the layer with input X, and that output is a real
    family, then the reference's normalisation of H (centred variance) is the specification's layer output
    (one-pass variance). -/
theorem bnStage_eq_layerOut (X : Nodes) (e : Edges) (Wa : Mat128) (ba : Vec128) (Wb : Mat128) (bb g be : Vec128)
    (H : Nodes) (hH : ∀ r q, H (ix2 r q) = layerHm X e Wa ba Wb bb r q)
    (hreal : RealFam (layerHm X e Wa ba Wb bb)) :
    Cert.RefStats.bnStage H g be = layerOut X e Wa ba Wb bb g be := by
  funext i
  obtain ⟨r, q, rfl⟩ : ∃ (r : Fin 100000) (q : Fin 128), i = ix2 r q := ⟨i 0, i 1, eq_ix2 i⟩
  rw [Cert.RefStats.bnStage_apply]
  have hf : (fun r q => H (ix2 r q)) = layerHm X e Wa ba Wb bb := funext fun r => funext fun q => hH r q
  rw [hf]
  exact (bnEntry_onepass_eq_centred hreal _ _ r q).symm

/-! ## The three layers and the result -/

/-- Layer 1: the reference's first normalised array is the specification's. -/
theorem ref_h1 (x0 : Nodes) (x1 : Edges) (x2 : Batch) (x3 : Mat128) (x4 : Vec128) (x5 : Mat128) (x6 : Vec128) (x7 : Vec128) (x8 : Vec128) (x9 : Mat128) (x10 : Vec128) (x11 : Mat128) (x12 : Vec128) (x13 : Vec128) (x14 : Vec128) (x15 : Mat128) (x16 : Vec128) (x17 : Mat128) (x18 : Vec128) (x19 : Vec128) (x20 : Vec128) (x21 : FVec Ideal S384x128 .f32) (x22 : Vec128)
    (hr : ArgsReal x0 x3 x4 x5 x6 x7 x8 x9 x10 x11 x12 x13 x14 x15 x16 x17 x18 x19 x20 x21 x22) :
    val_main_v49 (F := Ideal) x0 x1 x3 x4 x5 x6 x7 x8 = h1Of x0 x1 x3 x4 x5 x6 x7 x8 := by
  rw [Cert.RefStats.layer1_eq]
  exact bnStage_eq_layerOut x0 x1 x3 x4 x5 x6 x7 x8 _ (fun r q => ref_layer1 x0 x1 x3 x4 x5 x6 r q)
    (layerHm_real x0 x1 x3 x4 x5 x6 hr.r0 hr.r3 hr.r4 hr.r5 hr.r6)

/-- The first layer's output has real entries. -/
theorem h1_real (x0 : Nodes) (x1 : Edges) (x2 : Batch) (x3 : Mat128) (x4 : Vec128) (x5 : Mat128) (x6 : Vec128) (x7 : Vec128) (x8 : Vec128) (x9 : Mat128) (x10 : Vec128) (x11 : Mat128) (x12 : Vec128) (x13 : Vec128) (x14 : Vec128) (x15 : Mat128) (x16 : Vec128) (x17 : Mat128) (x18 : Vec128) (x19 : Vec128) (x20 : Vec128) (x21 : FVec Ideal S384x128 .f32) (x22 : Vec128)
    (hr : ArgsReal x0 x3 x4 x5 x6 x7 x8 x9 x10 x11 x12 x13 x14 x15 x16 x17 x18 x19 x20 x21 x22) (i : S100000x128.Idx) :
    IsR (h1Of x0 x1 x3 x4 x5 x6 x7 x8 i) :=
  layerOut_real x0 x1 x3 x4 x5 x6 x7 x8 (layerHm_real x0 x1 x3 x4 x5 x6 hr.r0 hr.r3 hr.r4 hr.r5 hr.r6) hr.r7 hr.r8 i

/-- Layer 2: on the first layer's output. -/
theorem ref_h2 (x0 : Nodes) (x1 : Edges) (x2 : Batch) (x3 : Mat128) (x4 : Vec128) (x5 : Mat128) (x6 : Vec128) (x7 : Vec128) (x8 : Vec128) (x9 : Mat128) (x10 : Vec128) (x11 : Mat128) (x12 : Vec128) (x13 : Vec128) (x14 : Vec128) (x15 : Mat128) (x16 : Vec128) (x17 : Mat128) (x18 : Vec128) (x19 : Vec128) (x20 : Vec128) (x21 : FVec Ideal S384x128 .f32) (x22 : Vec128)
    (hr : ArgsReal x0 x3 x4 x5 x6 x7 x8 x9 x10 x11 x12 x13 x14 x15 x16 x17 x18 x19 x20 x21 x22) :
    val_main_v99 (F := Ideal) x0 x1 x3 x4 x5 x6 x7 x8 x9 x10 x11 x12 x13 x14 = h2Of x0 x1 x3 x4 x5 x6 x7 x8 x9 x10 x11 x12 x13 x14 := by
  have e1 := ref_h1 x0 x1 x2 x3 x4 x5 x6 x7 x8 x9 x10 x11 x12 x13 x14 x15 x16 x17 x18 x19 x20 x21 x22 hr
  have hX := h1_real x0 x1 x2 x3 x4 x5 x6 x7 x8 x9 x10 x11 x12 x13 x14 x15 x16 x17 x18 x19 x20 x21 x22 hr
  rw [Cert.RefStats.layer2_eq]
  refine bnStage_eq_layerOut (h1Of x0 x1 x3 x4 x5 x6 x7 x8) x1 x9 x10 x11 x12 x13 x14 _ (fun r q => ?_)
    (layerHm_real _ x1 x9 x10 x11 x12 hX hr.r9 hr.r10 hr.r11 hr.r12)
  rw [ref_layer2, ref_agg2, e1]
  rfl

/-- The second layer's output has real entries. -/
theorem h2_real (x0 : Nodes) (x1 : Edges) (x2 : Batch) (x3 : Mat128) (x4 : Vec128) (x5 : Mat128) (x6 : Vec128) (x7 : Vec128) (x8 : Vec128) (x9 : Mat128) (x10 : Vec128) (x11 : Mat128) (x12 : Vec128) (x13 : Vec128) (x14 : Vec128) (x15 : Mat128) (x16 : Vec128) (x17 : Mat128) (x18 : Vec128) (x19 : Vec128) (x20 : Vec128) (x21 : FVec Ideal S384x128 .f32) (x22 : Vec128)
    (hr : ArgsReal x0 x3 x4 x5 x6 x7 x8 x9 x10 x11 x12 x13 x14 x15 x16 x17 x18 x19 x20 x21 x22) (i : S100000x128.Idx) :
    IsR (h2Of x0 x1 x3 x4 x5 x6 x7 x8 x9 x10 x11 x12 x13 x14 i) :=
  layerOut_real _ x1 x9 x10 x11 x12 x13 x14
    (layerHm_real _ x1 x9 x10 x11 x12 (h1_real x0 x1 x2 x3 x4 x5 x6 x7 x8 x9 x10 x11 x12 x13 x14 x15 x16 x17 x18 x19 x20 x21 x22 hr) hr.r9 hr.r10 hr.r11 hr.r12) hr.r13 hr.r14 i

/-- Layer 3: on the second layer's output. -/
theorem ref_h3 (x0 : Nodes) (x1 : Edges) (x2 : Batch) (x3 : Mat128) (x4 : Vec128) (x5 : Mat128) (x6 : Vec128) (x7 : Vec128) (x8 : Vec128) (x9 : Mat128) (x10 : Vec128) (x11 : Mat128) (x12 : Vec128) (x13 : Vec128) (x14 : Vec128) (x15 : Mat128) (x16 : Vec128) (x17 : Mat128) (x18 : Vec128) (x19 : Vec128) (x20 : Vec128) (x21 : FVec Ideal S384x128 .f32) (x22 : Vec128)
    (hr : ArgsReal x0 x3 x4 x5 x6 x7 x8 x9 x10 x11 x12 x13 x14 x15 x16 x17 x18 x19 x20 x21 x22) :
    val_main_v149 (F := Ideal) x0 x1 x3 x4 x5 x6 x7 x8 x9 x10 x11 x12 x13 x14 x15 x16 x17 x18 x19 x20 = h3Of x0 x1 x3 x4 x5 x6 x7 x8 x9 x10 x11 x12 x13 x14 x15 x16 x17 x18 x19 x20 := by
  have e2 := ref_h2 x0 x1 x2 x3 x4 x5 x6 x7 x8 x9 x10 x11 x12 x13 x14 x15 x16 x17 x18 x19 x20 x21 x22 hr
  have hX := h2_real x0 x1 x2 x3 x4 x5 x6 x7 x8 x9 x10 x11 x12 x13 x14 x15 x16 x17 x18 x19 x20 x21 x22 hr
  rw [Cert.RefStats.layer3_eq]
  refine bnStage_eq_layerOut (h2Of x0 x1 x3 x4 x5 x6 x7 x8 x9 x10 x11 x12 x13 x14) x1 x15 x16 x17 x18 x19 x20 _ (fun r q => ?_)
    (layerHm_real _ x1 x15 x16 x17 x18 hX hr.r15 hr.r16 hr.r17 hr.r18)
  rw [ref_layer3, ref_agg3, e2]
  rfl

/-- THE REFERENCE'S RESULT IS THE SPECIFICATION'S, for real float arguments. -/
theorem ref_result (x0 : Nodes) (x1 : Edges) (x2 : Batch) (x3 : Mat128) (x4 : Vec128) (x5 : Mat128) (x6 : Vec128) (x7 : Vec128) (x8 : Vec128) (x9 : Mat128) (x10 : Vec128) (x11 : Mat128) (x12 : Vec128) (x13 : Vec128) (x14 : Vec128) (x15 : Mat128) (x16 : Vec128) (x17 : Mat128) (x18 : Vec128) (x19 : Vec128) (x20 : Vec128) (x21 : FVec Ideal S384x128 .f32) (x22 : Vec128)
    (hr : ArgsReal x0 x3 x4 x5 x6 x7 x8 x9 x10 x11 x12 x13 x14 x15 x16 x17 x18 x19 x20 x21 x22) :
    val_main_v195 (F := Ideal) x0 x1 x2 x3 x4 x5 x6 x7 x8 x9 x10 x11 x12 x13 x14 x15 x16 x17 x18 x19 x20 x21 x22 = result x0 x1 x2 x3 x4 x5 x6 x7 x8 x9 x10 x11 x12 x13 x14 x15 x16 x17 x18 x19 x20 x21 x22 := by
  funext i
  obtain ⟨p, q, rfl⟩ : ∃ (p : Fin 512) (q : Fin 128), i = ix2 p q := ⟨i 0, i 1, eq_ix2 i⟩
  rw [ref_final, poolCat_eq_ref, ref_h1 x0 x1 x2 x3 x4 x5 x6 x7 x8 x9 x10 x11 x12 x13 x14 x15 x16 x17 x18 x19 x20 x21 x22 hr, ref_h2 x0 x1 x2 x3 x4 x5 x6 x7 x8 x9 x10 x11 x12 x13 x14 x15 x16 x17 x18 x19 x20 x21 x22 hr, ref_h3 x0 x1 x2 x3 x4 x5 x6 x7 x8 x9 x10 x11 x12 x13 x14 x15 x16 x17 x18 x19 x20 x21 x22 hr]
  rfl

end Cert.Spec

end
-- ==== Proof.lean ====
/-
  The certificate of a three-layer graph isomorphism network with batch normalisation, per-graph mean pooling and a
  normalised linear head, against its plain array reference.

  THE MATHEMATICS. Both programs compute, layer by layer, hm = MLP(h + agg h) on 100000 nodes x 128 features (agg the sum
  over incoming edges, by the same gather and scatter-add on both sides), normalise hm column-wise, rectify, and at the
  end pool, concatenate and apply a linear map followed by division by the row norm. They differ in ONE place: the
  kernel takes the column variance in one pass, E[hm^2] - E[hm]^2, from column sums and column sums of squares that it
  accumulates over 50 row blocks of 2000 rows, where the reference centres first, E[(hm - E hm)^2]. Over the extended
  reals the regrouping of the sums is free (addition is commutative and associative), but the two variances agree only
  on REAL entries; that is where the precondition (every float input finite) is used: real inputs make every entry of
  every layer real (sums, products, the rectifier, the reciprocal square root of a positive real), layer after layer.
  Everything else — matrix products tiled by row blocks against whole products, bias rows broadcast, the changes of
  float format (the identity here) — is equal entry by entry with no hypothesis.

  THE SHAPE OF THE PROOF. Kernel side: each of the seven launches is given its proof data (what every window's buffer
  holds after the body at every grid point; for the node-update launches the two accumulators carried from point to
  point), chained through the host stretches between them; the run ends with every buffer at the last boundary's
  contents, which gives the frame (no argument is written) at either float instance and, over the extended reals, the
  result array as one function `Cert.Spec.result` of the argument arrays. Reference side: the operation list's fold is
  read layer by layer into the same function, under real inputs. The two runs then end at one array.
-/
import proofs.«130004_j49941879718343_1_alg».proof.Defs
import proofs.«130004_j49941879718343_1_alg».proof.Proof.Gen.Kernel
import proofs.«130004_j49941879718343_1_alg».proof.Proof.Gen.KernelIdeal
import proofs.«130004_j49941879718343_1_alg».proof.Proof.Gen.ReferenceIdeal
import proofs.«130004_j49941879718343_1_alg».proof.Proof.Gen.Pre_finite_inputs
import proofs.«130004_j49941879718343_1_alg».proof.Proof.K_Chain
import proofs.«130004_j49941879718343_1_alg».proof.Proof.KernelValue
import proofs.«130004_j49941879718343_1_alg».proof.Proof.RefRunH
import proofs.«130004_j49941879718343_1_alg».proof.Proof.RefBridge
import Idealize.ShloMosaic.Adequacy
import Idealize.ShloMosaic.Init

noncomputable section

namespace Cert.Proof

open Idealize.ShloMosaic Idealize.SL.Sem

/-- The reference runs and writes no argument: its run with the result dropped. -/
theorem frame_ri [hR : Cert.ReferenceIdeal.Facts] [hP : Cert.Pre_finite_inputs.Facts] : Cert.frame_ReferenceIdeal := fun m ρ _ =>
  (θ_run Cert.ReferenceIdeal.defs _ _).mono (fun _ h c => (h c).2) (Cert.ReferenceIdeal.HandRun.run_value m ρ)

/-- Both idealized programs end at `Cert.Spec.result` of the argument arrays: the kernel's run by construction, the
    reference's because its stages equal that function when the float arguments are real — which the precondition says
    of the kernel's memory, and the two memories agree on the arguments. -/
theorem algebraic [hK : Cert.KernelIdeal.Facts] [hR : Cert.ReferenceIdeal.Facts] [hP : Cert.Pre_finite_inputs.Facts] : Cert.algebraic_KernelIdeal_ReferenceIdeal := by
  intro m ρ m' ρ' hpre hagree
  refine ⟨fun c => Cert.Spec.result (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)), Cert.KernelIdeal.HandV.run_value m ρ, ?_⟩
  refine (θ_run Cert.ReferenceIdeal.defs _ _).mono (fun r h c => ⟨(h c).1.trans ?_, (h c).2⟩) (Cert.ReferenceIdeal.HandRun.run_value m' ρ')
  obtain ⟨a0, a1, a2, a3, a4, a5, a6, a7, a8, a9, a10, a11, a12, a13, a14, a15, a16, a17, a18, a19, a20, a21, a22⟩ := hagree c
  rw [a0, a1, a2, a3, a4, a5, a6, a7, a8, a9, a10, a11, a12, a13, a14, a15, a16, a17, a18, a19, a20, a21, a22]
  exact Cert.Spec.ref_result _ _ _ _ _ _ _ _ _ _ _ _ _ _ _ _ _ _ _ _ _ _ _ (Cert.Math.argsReal_of_pre _ _ _ _ _ _ _ _ _ _ _ _ _ _ _ _ _ _ _ _ _ _ _ (hpre c))

theorem claim : Cert.Claim :=
  ⟨Cert.Kernel.Gen.facts, Cert.KernelIdeal.Gen.facts, Cert.ReferenceIdeal.Gen.facts, Cert.Pre_finite_inputs.Gen.facts,
    fun m ρ _ => Cert.Kernel.Hand.frame m ρ,
    fun m ρ _ => Cert.KernelIdeal.Hand.frame m ρ,
    frame_ri,
    trivial,
    algebraic⟩

end Cert.Proof

end
